-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S16x64 : Shape := ⟨2, ![16, 64]⟩
abbrev S16x128x64 : Shape := ⟨3, ![16, 128, 64]⟩
abbrev S16384 : Shape := ⟨1, ![16384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S16x128x64 : S_.BroadcastsInDim S16x128x64 (![] : Fin 0 → Fin S16x128x64.rank)
  reducesTo_S16x128x64_S_d0_1_2 : S16x128x64.ReducesTo [0, 1, 2] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg6 : IVec S16384 32) (main_v27 : IVec S_ 1) (main_v32 : IVec S16384 1) (main_c_12 : IVec S_ 1) : IVec S_ 1 :=
  let main_v33 : IVec S_ 1 := (fun x v => Host.reduce IntOp.andi x v reducesTo_S16384_S_d0 h_S_) main_v32 main_c_12
  let main_v34 : IVec S_ 1 := andi main_v27 main_v33
  let main_c_13 : IVec S_ 32 := constantI S_ 32 0#32
  let main_v35 : IVec S16384 32 := broadcastInDim S16384 ![] bcast_S_S16384 main_c_13
  let main_v36 : IVec S16384 1 := cmpi .sge main_arg6 main_v35
  let main_c_14 : IVec S_ 32 := constantI S_ 32 99999#32
  let main_v37 : IVec S16384 32 := broadcastInDim S16384 ![] bcast_S_S16384 main_c_14
  let main_v38 : IVec S16384 1 := cmpi .sle main_arg6 main_v37
  let main_v39 : IVec S16384 1 := andi main_v36 main_v38
  let main_c_15 : IVec S_ 1 := constantI S_ 1 1#1
  let main_v40 : IVec S_ 1 := (fun x v => Host.reduce IntOp.andi x v reducesTo_S16384_S_d0 h_S_) main_v39 main_c_15
  let main_v41 : IVec S_ 1 := andi main_v34 main_v40
  main_v41

def fn_part1 {F : FTy → Type} [FloatOps F] (main_arg3 : IVec S16384 32) (main_arg4 : IVec S16384 32) (main_arg5 : IVec S16384 32) (main_arg6 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .sle main_arg3 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  let main_c_7 : IVec S_ 32 := constantI S_ 32 0#32
  let main_v21 : IVec S16384 32 := broadcastInDim S16384 ![] bcast_S_S16384 main_c_7
  let main_v22 : IVec S16384 1 := cmpi .sge main_arg4 main_v21
  let main_c_8 : IVec S_ 32 := constantI S_ 32 15#32
  let main_v23 : IVec S16384 32 := broadcastInDim S16384 ![] bcast_S_S16384 main_c_8
  let main_v24 : IVec S16384 1 := cmpi .sle main_arg4 main_v23
  let main_v25 : IVec S16384 1 := andi main_v22 main_v24
  let main_c_9 : IVec S_ 1 := constantI S_ 1 1#1
  let main_v26 : IVec S_ 1 := (fun x v => Host.reduce IntOp.andi x v reducesTo_S16384_S_d0 h_S_) main_v25 main_c_9
  let main_v27 : IVec S_ 1 := andi main_v20 main_v26
  let main_c_10 : IVec S_ 32 := constantI S_ 32 0#32
  let main_v28 : IVec S16384 32 := broadcastInDim S16384 ![] bcast_S_S16384 main_c_10
  let main_v29 : IVec S16384 1 := cmpi .sge main_arg5 main_v28
  let main_c_11 : IVec S_ 32 := constantI S_ 32 99999#32
  let main_v30 : IVec S16384 32 := broadcastInDim S16384 ![] bcast_S_S16384 main_c_11
  let main_v31 : IVec S16384 1 := cmpi .sle main_arg5 main_v30
  let main_v32 : IVec S16384 1 := andi main_v29 main_v31
  let main_c_12 : IVec S_ 1 := constantI S_ 1 1#1
  fn_part2 (F := F) main_arg6 main_v27 main_v32 main_c_12

def fn {F : FTy → Type} [FloatOps F] (main_arg0 : FVec F S100000x128 .f32) (main_arg1 : FVec F S16x64 .f32) (main_arg2 : FVec F S16x128x64 .f32) (main_arg3 : IVec S16384 32) (main_arg4 : IVec S16384 32) (main_arg5 : IVec S16384 32) (main_arg6 : IVec S16384 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16x128x64 .f32 := Host.absf main_arg2
  let main_cst_2 : FVec F S_ .f32 := constant S_ .f32 0x7F800000#32
  let main_v10 : FVec F S16x128x64 .f32 := broadcastInDim S16x128x64 ![] bcast_S_S16x128x64 main_cst_2
  let main_v11 : IVec S16x128x64 1 := cmpf .olt main_v9 main_v10
  let main_c_3 : IVec S_ 1 := constantI S_ 1 1#1
  let main_v12 : IVec S_ 1 := (fun x v => Host.reduce IntOp.andi x v reducesTo_S16x128x64_S_d0_1_2 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg3 main_v14
  let main_c_5 : IVec S_ 32 := constantI S_ 32 99999#32
  fn_part1 (F := F) main_arg3 main_arg4 main_arg5 main_arg6 main_v13 main_v15 main_c_5
-- ==== Kernel.lean ====
abbrev S100000x128 : Shape := ⟨2, ![100000, 128]⟩
abbrev S16x64 : Shape := ⟨2, ![16, 64]⟩
abbrev S16x128x64 : Shape := ⟨3, ![16, 128, 64]⟩
abbrev S16384 : Shape := ⟨1, ![16384]⟩
abbrev S128x16x64 : Shape := ⟨3, ![128, 16, 64]⟩
abbrev S128x1024 : Shape := ⟨2, ![128, 1024]⟩
abbrev S1024 : Shape := ⟨1, ![1024]⟩
abbrev S1024x1 : Shape := ⟨2, ![1024, 1]⟩
abbrev S_ : Shape := ⟨0, ![]⟩
abbrev S64 : Shape := ⟨1, ![64]⟩
abbrev S1x64 : Shape := ⟨2, ![1, 64]⟩
abbrev S1024x64 : Shape := ⟨2, ![1024, 64]⟩
abbrev S16384x1 : Shape := ⟨2, ![16384, 1]⟩
abbrev S24576x128 : Shape := ⟨2, ![24576, 128]⟩
abbrev S768 : Shape := ⟨1, ![768]⟩
abbrev S128x128 : Shape := ⟨2, ![128, 128]⟩
abbrev S256 : Shape := ⟨1, ![256]⟩
abbrev S128 : Shape := ⟨1, ![128]⟩
abbrev S3x8192x128 : Shape := ⟨3, ![3, 8192, 128]⟩
abbrev S1x1 : Shape := ⟨2, ![1, 1]⟩
abbrev S3x1024x128 : Shape := ⟨3, ![3, 1024, 128]⟩
abbrev S1024x1024 : Shape := ⟨2, ![1024, 1024]⟩
abbrev S1x1024x128 : Shape := ⟨3, ![1, 1024, 128]⟩
abbrev S1024x128 : Shape := ⟨2, ![1024, 128]⟩
abbrev S1024x16 : Shape := ⟨2, ![1024, 16]⟩
abbrev S1x1024x64 : Shape := ⟨3, ![1, 1024, 64]⟩
abbrev S1 : Shape := ⟨1, ![1]⟩
abbrev S1x1x1 : Shape := ⟨3, ![1, 1, 1]⟩
abbrev S1x1024x1 : Shape := ⟨3, ![1, 1024, 1]⟩

abbrev nBuf : Table → Nat
  | .hbm => 48
  | .local .tc .vmem => 16
  | .local .scVector .vmem => 6
  | _ => 0

abbrev bufTy : (tb : Table) → Fin (nBuf tb) → BufTy
  | .hbm, ⟨0, _⟩ => ⟨S100000x128, .f32⟩
  | .hbm, ⟨1, _⟩ => ⟨S16x64, .f32⟩
  | .hbm, ⟨2, _⟩ => ⟨S16x128x64, .f32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S128x16x64, .f32⟩
  | .hbm, ⟨8, _⟩ => ⟨S128x1024, .f32⟩
  | .hbm, ⟨9, _⟩ => ⟨S1024, .i32⟩
  | .hbm, ⟨10, _⟩ => ⟨S1024x1, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S1024x1, .i32⟩
  | .hbm, ⟨18, _⟩ => ⟨S1024x1, .i32⟩
  | .hbm, ⟨19, _⟩ => ⟨S_, .i32⟩
  | .hbm, ⟨20, _⟩ => ⟨S1024x1, .i32⟩
  | .hbm, ⟨21, _⟩ => ⟨S1024x1, .i1⟩
  | .hbm, ⟨22, _⟩ => ⟨S_, .i32⟩
  | .hbm, ⟨23, _⟩ => ⟨S1024x1, .i32⟩
  | .hbm, ⟨24, _⟩ => ⟨S1024x1, .i1⟩
  | .hbm, ⟨25, _⟩ => ⟨S_, .i32⟩
  | .hbm, ⟨26, _⟩ => ⟨S_, .i1⟩
  | .hbm, ⟨27, _⟩ => ⟨S1024x1, .i1⟩
  | .hbm, ⟨28, _⟩ => ⟨S1024x1, .i1⟩
  | .hbm, ⟨29, _⟩ => ⟨S1024x1, .i1⟩
  | .hbm, ⟨30, _⟩ => ⟨S1024x1, .i32⟩
  | .hbm, ⟨31, _⟩ => ⟨S1024x1, .i32⟩
  | .hbm, ⟨32, _⟩ => ⟨S1024x1, .i32⟩
  | .hbm, ⟨33, _⟩ => ⟨S64, .i32⟩
  | .hbm, ⟨34, _⟩ => ⟨S1x64, .i32⟩
  | .hbm, ⟨35, _⟩ => ⟨S1024x64, .i32⟩
  | .hbm, ⟨36, _⟩ => ⟨S1024x64, .i32⟩
  | .hbm, ⟨37, _⟩ => ⟨S1024x64, .i1⟩
  | .hbm, ⟨38, _⟩ => ⟨S1024x64, .bf16⟩
  | .hbm, ⟨39, _⟩ => ⟨S16384x1, .i32⟩
  | .hbm, ⟨40, _⟩ => ⟨S24576x128, .f32⟩
  | .hbm, ⟨41, _⟩ => ⟨S3x8192x128, .f32⟩
  | .hbm, ⟨42, _⟩ => ⟨S24576x128, .f32⟩
  | .hbm, ⟨43, _⟩ => ⟨S3x8192x128, .f32⟩
  | .hbm, ⟨44, _⟩ => ⟨S1x1, .f32⟩
  | .hbm, ⟨45, _⟩ => ⟨S1x1, .f32⟩
  | .hbm, ⟨46, _⟩ => ⟨S1x1, .f32⟩
  | .hbm, ⟨47, _⟩ => ⟨S_, .f32⟩
  | .local .tc .vmem, ⟨0, _⟩ => ⟨S3x1024x128, .f32⟩
  | .local .tc .vmem, ⟨1, _⟩ => ⟨S3x1024x128, .f32⟩
  | .local .tc .vmem, ⟨2, _⟩ => ⟨S1024x1, .i32⟩
  | .local .tc .vmem, ⟨3, _⟩ => ⟨S1024x1, .i32⟩
  | .local .tc .vmem, ⟨4, _⟩ => ⟨S128x1024, .f32⟩
  | .local .tc .vmem, ⟨5, _⟩ => ⟨S16x64, .f32⟩
  | .local .tc .vmem, ⟨6, _⟩ => ⟨S1024x64, .bf16⟩
  | .local .tc .vmem, ⟨7, _⟩ => ⟨S1x1, .f32⟩
  | .local .tc .vmem, ⟨8, _⟩ => ⟨S3x1024x128, .f32⟩
  | .local .tc .vmem, ⟨9, _⟩ => ⟨S3x1024x128, .f32⟩
  | .local .tc .vmem, ⟨10, _⟩ => ⟨S1024x1, .i32⟩
  | .local .tc .vmem, ⟨11, _⟩ => ⟨S1024x1, .i32⟩
  | .local .tc .vmem, ⟨12, _⟩ => ⟨S128x1024, .f32⟩
  | .local .tc .vmem, ⟨13, _⟩ => ⟨S16x64, .f32⟩
  | .local .tc .vmem, ⟨14, _⟩ => ⟨S1024x64, .bf16⟩
  | .local .tc .vmem, ⟨15, _⟩ => ⟨S1x1, .f32⟩
  | .local .scVector .vmem, ⟨0, _⟩ => ⟨S768, .i32⟩
  | .local .scVector .vmem, ⟨1, _⟩ => ⟨S128x128, .f32⟩
  | .local .scVector .vmem, ⟨2, _⟩ => ⟨S128x128, .f32⟩
  | .local .scVector .vmem, ⟨3, _⟩ => ⟨S768, .i32⟩
  | .local .scVector .vmem, ⟨4, _⟩ => ⟨S128x128, .f32⟩
  | .local .scVector .vmem, ⟨5, _⟩ => ⟨S128x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 38 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTables nBuf rfl bufTy 4 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_arg3_scv : Ref sig .scVector := ⟨.hbm, 3, rfl⟩
abbrev main_arg5_scv : Ref sig .scVector := ⟨.hbm, 5, rfl⟩
abbrev main_arg6_scv : Ref sig .scVector := ⟨.hbm, 6, rfl⟩
abbrev main_arg0_scv : Ref sig .scVector := ⟨.hbm, 0, rfl⟩
abbrev main_v12_scv : Ref sig .scVector := ⟨.hbm, 40, rfl⟩
abbrev main_v14_scv : Ref sig .scVector := ⟨.hbm, 42, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg3_0 : Ref sig .tc := ⟨.vmem, 5, rfl⟩
abbrev cc2_stg4_0 : Ref sig .tc := ⟨.vmem, 6, rfl⟩
abbrev cc2_stg5_0 : Ref sig .tc := ⟨.vmem, 7, rfl⟩
abbrev cc3_stg0_0 : Ref sig .tc := ⟨.vmem, 8, rfl⟩
abbrev cc3_stg0_1 : Ref sig .tc := ⟨.vmem, 9, rfl⟩
abbrev cc3_stg1_0 : Ref sig .tc := ⟨.vmem, 10, rfl⟩
abbrev cc3_stg1_1 : Ref sig .tc := ⟨.vmem, 11, rfl⟩
abbrev cc3_stg2_0 : Ref sig .tc := ⟨.vmem, 12, rfl⟩
abbrev cc3_stg3_0 : Ref sig .tc := ⟨.vmem, 13, rfl⟩
abbrev cc3_stg4_0 : Ref sig .tc := ⟨.vmem, 14, rfl⟩
abbrev cc3_stg5_0 : Ref sig .tc := ⟨.vmem, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c0_i32 v2
  ![v3.toNat]
def k0_off2 (i : grid0.Coords) (c0_i32_9 : BitVec 32) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_8 : BitVec 32 := 256#32
  let v10 : BitVec 32 := Scalar.muli v1 c256_i32_8
  let v11 : BitVec 32 := Scalar.addi c0_i32_9 v10
  let v12 : BitVec 32 := Scalar.addi v11 c0_i32_10
  let c0_i32_48_r3 : BitVec 32 := 0#32
  ![v12.toNat, 0]
abbrev grid1 : Pipeline.Grid := ⟨2, ![2, 16], ![false, false]⟩

def k1_off1 (i : grid1.Coords) : Fin 1 → Nat :=
  let c8192_i32 : BitVec 32 := 8192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c8192_i32 v2
  ![v3.toNat]
def k1_off2 (i : grid1.Coords) (c0_i32_8 : BitVec 32) (c0_i32_9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_7 : BitVec 32 := 256#32
  let v10 : BitVec 32 := Scalar.muli v1 c256_i32_7
  let v11 : BitVec 32 := Scalar.addi c0_i32_8 v10
  let v12 : BitVec 32 := Scalar.addi v11 c0_i32_9
  let c0_i32_48_r3 : BitVec 32 := 0#32
  ![v12.toNat, 0]
abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S3x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S3x1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024x64 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  transposes_S16x128x64_S128x16x64_1_0_2 : S16x128x64.Transposes [1, 0, 2] S128x16x64
  shapeCasts_S128x16x64_S128x1024 : S128x16x64.ShapeCasts S128x1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S64_S1x64_1 : S64.BroadcastsInDim S1x64 (![1] : Fin 1 → Fin S1x64.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  shapeCasts_S16384_S16384x1 : S16384.ShapeCasts S16384x1
  inb_S768_S256_0 : ∀ a, (![0] : Fin 1 → Nat) a + S256.size a ≤ S768.size a
  inb_S768_S256_256 : ∀ a, (![256] : Fin 1 → Nat) a + S256.size a ≤ S768.size a
  inb_S768_S256_512 : ∀ a, (![512] : Fin 1 → Nat) a + S256.size a ≤ S768.size a
  inb_S768_S128_0 : ∀ a, (![0] : Fin 1 → Nat) a + S128.size a ≤ S768.size a
  inb_S100000x128_S100000x128_0_0 : ∀ a, (![0, 0] : Fin 2 → Nat) a + S100000x128.size a ≤ S100000x128.size a
  gathers_S100000x128_S128x128 : S100000x128.Gathers 0 S128x128
  inb_S768_S128_128 : ∀ a, (![128] : Fin 1 → Nat) a + S128.size a ≤ S768.size a
  inb_S768_S128_256 : ∀ a, (![256] : Fin 1 → Nat) a + S128.size a ≤ S768.size a
  inb_S768_S128_384 : ∀ a, (![384] : Fin 1 → Nat) a + S128.size a ≤ S768.size a
  inb_S768_S128_512 : ∀ a, (![512] : Fin 1 → Nat) a + S128.size a ≤ S768.size a
  inb_S768_S128_640 : ∀ a, (![640] : Fin 1 → Nat) a + S128.size a ≤ S768.size a
  shapeCasts_S24576x128_S3x8192x128 : S24576x128.ShapeCasts S3x8192x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  iota_S1024x1024_d1_w32 : S1024x1024.Iotas .tc 32 [1]
  natLt_1_32 : 1 < 32
  broadcasts_S1024x1_S1024x1024 : S1024x1.Broadcasts S1024x1024
  inb_S3x1024x128_S1x1024x128_0_0_0 : ∀ a, (![0, 0, 0] : Fin 3 → Nat) a + S1x1024x128.size a ≤ S3x1024x128.size a
  h_S1x1024x128 : 0 < S1x1024x128.numel
  shapeCasts_S1x1024x128_S1024x128 : S1x1024x128.ShapeCasts S1024x128
  reduces_S1024x64_S1024 : S1024x64.Reduces [1] S1024
  shapeCasts_S1024_S1024x1 : S1024.ShapeCasts S1024x1
  broadcasts_S1024x1_S1024x64 : S1024x1.Broadcasts S1024x64
  inb_S3x1024x128_S1x1024x128_1_0_0 : ∀ a, (![1, 0, 0] : Fin 3 → Nat) a + S1x1024x128.size a ≤ S3x1024x128.size a
  inb_S3x1024x128_S1x1024x128_2_0_0 : ∀ a, (![2, 0, 0] : Fin 3 → Nat) a + S1x1024x128.size a ≤ S3x1024x128.size a
  iota_S1024x16_d1_w32 : S1024x16.Iotas .tc 32 [1]
  broadcasts_S1024x1_S1024x16 : S1024x1.Broadcasts S1024x16
  inb_S16x64_S16x64_0_0 : ∀ a, (![0, 0] : Fin 2 → Nat) a + S16x64.size a ≤ S16x64.size a
  h_S16x64 : 0 < S16x64.numel
  shapeCasts_S1024x64_S1x1024x64 : S1024x64.ShapeCasts S1x1024x64
  reduces_S1x1024x64_S1 : S1x1024x64.Reduces [1, 2] S1
  shapeCasts_S1_S1x1x1 : S1.ShapeCasts S1x1x1
  inpos_S1x1x1_p0_0_0 : ∀ a, (![0, 0, 0] : Fin 3 → Nat) a < S1x1x1.size a
  shapeCasts_S1024x1_S1x1024x1 : S1024x1.ShapeCasts S1x1024x1
  reduces_S1x1024x1_S1 : S1x1024x1.Reduces [1, 2] S1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S1024x128_S128x1024_S1024x1024_1_0_0_1_n_n_wf : DotDims.WF S1024x128 S128x1024 S1024x1024 [1] [0] [0] [1] [] []
  dot_S1024x1024_S1024x64_S1024x64_1_0_0_1_n_n_wf : DotDims.WF S1024x1024 S1024x64 S1024x64 [1] [0] [0] [1] [] []
  dot_S1024x16_S16x64_S1024x64_1_0_0_1_n_n_wf : DotDims.WF S1024x16 S16x64 S1024x64 [1] [0] [0] [1] [] []
  hcc0_scratch3 : 0 + S_.numel ≤ 38
  hcc0_scratch4 : 1 + S_.numel ≤ 38
  hcc0_scoped0 : 2 + S_.numel ≤ 38
  hcc0_scoped1 : 3 + S_.numel ≤ 38
  hcc0_scoped2 : 4 + S_.numel ≤ 38
  hcc0_scoped3 : 5 + S_.numel ≤ 38
  hcc0_scoped4 : 6 + S_.numel ≤ 38
  hcc0_scoped5 : 7 + S_.numel ≤ 38
  hcc0_scoped6 : 8 + S_.numel ≤ 38
  hcc0_scoped7 : 9 + S_.numel ≤ 38
  hcc0_scoped8 : 10 + S_.numel ≤ 38
  hcc1_scratch3 : 11 + S_.numel ≤ 38
  hcc1_scratch4 : 12 + S_.numel ≤ 38
  hcc1_scoped0 : 13 + S_.numel ≤ 38
  hcc1_scoped1 : 14 + S_.numel ≤ 38
  hcc1_scoped2 : 15 + S_.numel ≤ 38
  hcc1_scoped3 : 16 + S_.numel ≤ 38
  hcc1_scoped4 : 17 + S_.numel ≤ 38
  hcc1_scoped5 : 18 + S_.numel ≤ 38
  hcc1_scoped6 : 19 + S_.numel ≤ 38
  hcc1_scoped7 : 20 + S_.numel ≤ 38
  hcc1_scoped8 : 21 + S_.numel ≤ 38
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S256.size a ≤ S16384.size a
  k0_off2_inb : ∀ i : grid0.Coords, ∀ (r₁ : Fin 3) (r₂ : Fin 2), ∀ a, (k0_off2 i (BitVec.ofNat 32 (8192 * r₁.val)) (BitVec.ofNat 32 (128 * r₂.val))) a + S128x128.size a ≤ S24576x128.size a
  hcore1 : grid1.bound 0 ≤ τ.nSC
  hsub1 : grid1.bound 1 ≤ τ.nSub
  k1_off1_inb : ∀ i : grid1.Coords, ∀ a, (k1_off1 i) a + S256.size a ≤ S16384.size a
  k1_off2_inb : ∀ i : grid1.Coords, ∀ (r₁ : Fin 3) (r₂ : Fin 2), ∀ a, (k1_off2 i (BitVec.ofNat 32 (8192 * r₁.val)) (BitVec.ofNat 32 (128 * r₂.val))) a + S128x128.size a ≤ S24576x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3x1024x128.size a ≤ S3x8192x128.size a
  hwx2_0 : ∀ i : grid2.Coords, EltTy.bits .f32 = 32 ∨ (Rect.block (s := S3x8192x128) S3x1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S16384x1.size a
  hwx2_1 : ∀ i : grid2.Coords, EltTy.bits .i32 = 32 ∨ (Rect.block (s := S16384x1) S1024x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1024.size a ≤ S128x1024.size a
  hwx2_2 : ∀ i : grid2.Coords, EltTy.bits .f32 = 32 ∨ (Rect.block (s := S128x1024) S128x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x64.size a ≤ S16x64.size a
  hwx2_3 : ∀ i : grid2.Coords, EltTy.bits .f32 = 32 ∨ (Rect.block (s := S16x64) S16x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x64.size a ≤ S1024x64.size a
  hwx2_4 : ∀ i : grid2.Coords, EltTy.bits .bf16 = 32 ∨ (Rect.block (s := S1024x64) S1024x64.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3x1024x128.size a ≤ S3x8192x128.size a
  hwx3_0 : ∀ i : grid3.Coords, EltTy.bits .f32 = 32 ∨ (Rect.block (s := S3x8192x128) S3x1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1.size a ≤ S16384x1.size a
  hwx3_1 : ∀ i : grid3.Coords, EltTy.bits .i32 = 32 ∨ (Rect.block (s := S16384x1) S1024x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x1024.size a ≤ S128x1024.size a
  hwx3_2 : ∀ i : grid3.Coords, EltTy.bits .f32 = 32 ∨ (Rect.block (s := S128x1024) S128x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x64.size a ≤ S16x64.size a
  hwx3_3 : ∀ i : grid3.Coords, EltTy.bits .f32 = 32 ∨ (Rect.block (s := S16x64) S16x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024x64.size a ≤ S1024x64.size a
  hwx3_4 : ∀ i : grid3.Coords, EltTy.bits .bf16 = 32 ∨ (Rect.block (s := S1024x64) S1024x64.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc0_scoped4 : DmaSems sig S_ := SemArray.consecutive 6 S_ hcc0_scoped4
abbrev cc0_scoped5 : DmaSems sig S_ := SemArray.consecutive 7 S_ hcc0_scoped5
abbrev cc0_scoped6 : DmaSems sig S_ := SemArray.consecutive 8 S_ hcc0_scoped6
abbrev cc0_scoped7 : DmaSems sig S_ := SemArray.consecutive 9 S_ hcc0_scoped7
abbrev cc0_scoped8 : DmaSems sig S_ := SemArray.consecutive 10 S_ hcc0_scoped8
abbrev cc1_scratch3 : DmaSems sig S_ := SemArray.consecutive 11 S_ hcc1_scratch3
abbrev cc1_scratch4 : DmaSems sig S_ := SemArray.consecutive 12 S_ hcc1_scratch4
abbrev cc1_scoped0 : DmaSems sig S_ := SemArray.consecutive 13 S_ hcc1_scoped0
abbrev cc1_scoped1 : DmaSems sig S_ := SemArray.consecutive 14 S_ hcc1_scoped1
abbrev cc1_scoped2 : DmaSems sig S_ := SemArray.consecutive 15 S_ hcc1_scoped2
abbrev cc1_scoped3 : DmaSems sig S_ := SemArray.consecutive 16 S_ hcc1_scoped3
abbrev cc1_scoped4 : DmaSems sig S_ := SemArray.consecutive 17 S_ hcc1_scoped4
abbrev cc1_scoped5 : DmaSems sig S_ := SemArray.consecutive 18 S_ hcc1_scoped5
abbrev cc1_scoped6 : DmaSems sig S_ := SemArray.consecutive 19 S_ hcc1_scoped6
abbrev cc1_scoped7 : DmaSems sig S_ := SemArray.consecutive 20 S_ hcc1_scoped7
abbrev cc1_scoped8 : DmaSems sig S_ := SemArray.consecutive 21 S_ hcc1_scoped8
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x16_S16x64_S1024x64_1_0_0_1_n_n : DotDims S1024x16 S16x64 S1024x64 where
  lhsContracting := [1]
  rhsContracting := [0]
  lhsNonContracting := [0]
  rhsNonContracting := [1]
  lhsBatch := []
  rhsBatch := []
  wf := dot_S1024x16_S16x64_S1024x64_1_0_0_1_n_n_wf

abbrev win2_0 : Pipeline.Window sig grid2 :=
  Pipeline.Window.ofSpec (Memref.whole main_v13) S3x1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S128x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S16x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1024x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S1x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v15) S3x1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1024x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S128x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg1) S16x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v10) S1024x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v17) S1x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S16x64 : Shape := ⟨2, ![16, 64]⟩
abbrev S16x128x64 : Shape := ⟨3, ![16, 128, 64]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16384x64 : Shape := ⟨2, ![16384, 64]⟩
abbrev S16384x128x64 : Shape := ⟨3, ![16384, 128, 64]⟩

abbrev nBuf : Space → Nat
  | .hbm => 247
  | .vmem => 0
  | .smem => 0
  | _ => 0

abbrev hbmTy0_0 (i : Nat) : BufTy := match i % 128 with
  | 0 => ⟨S100000x128, .f32⟩
  | 1 => ⟨S16x64, .f32⟩
  | 2 => ⟨S16x128x64, .f32⟩
  | 3 => ⟨S16384, .i32⟩
  | 4 => ⟨S16384, .i32⟩
  | 5 => ⟨S16384, .i32⟩
  | 6 => ⟨S16384, .i32⟩
  | 7 => ⟨S_, .i32⟩
  | 8 => ⟨S16384, .i32⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S1, .i32⟩
  | 16 => ⟨S_, .i32⟩
  | 17 => ⟨S16384x1, .i32⟩
  | 18 => ⟨S16384x1, .i1⟩
  | 19 => ⟨S1x1, .i32⟩
  | 20 => ⟨S16384x1, .i32⟩
  | 21 => ⟨S16384x1, .i1⟩
  | 22 => ⟨S16384x1, .i1⟩
  | 23 => ⟨S_, .i1⟩
  | 24 => ⟨S16384, .i1⟩
  | 25 => ⟨S16384x128, .f32⟩
  | 26 => ⟨S16384x128, .i1⟩
  | 27 => ⟨S_, .f32⟩
  | 28 => ⟨S16384x128, .f32⟩
  | 29 => ⟨S16384x128, .f32⟩
  | 30 => ⟨S_, .i32⟩
  | 31 => ⟨S16384, .i32⟩
  | 32 => ⟨S16384, .i1⟩
  | 33 => ⟨S_, .i32⟩
  | 34 => ⟨S16384, .i32⟩
  | 35 => ⟨S16384, .i32⟩
  | 36 => ⟨S16384, .i32⟩
  | 37 => ⟨S16384x1, .i32⟩
  | 38 => ⟨S1, .i32⟩
  | 39 => ⟨S_, .i32⟩
  | 40 => ⟨S16384x1, .i32⟩
  | 41 => ⟨S16384x1, .i1⟩
  | 42 => ⟨S1x1, .i32⟩
  | 43 => ⟨S16384x1, .i32⟩
  | 44 => ⟨S16384x1, .i1⟩
  | 45 => ⟨S16384x1, .i1⟩
  | 46 => ⟨S_, .i1⟩
  | 47 => ⟨S16384, .i1⟩
  | 48 => ⟨S16384x64, .f32⟩
  | 49 => ⟨S16384x64, .i1⟩
  | 50 => ⟨S_, .f32⟩
  | 51 => ⟨S16384x64, .f32⟩
  | 52 => ⟨S16384x64, .f32⟩
  | 53 => ⟨S_, .i32⟩
  | 54 => ⟨S16384, .i32⟩
  | 55 => ⟨S16384, .i1⟩
  | 56 => ⟨S_, .i32⟩
  | 57 => ⟨S16384, .i32⟩
  | 58 => ⟨S16384, .i32⟩
  | 59 => ⟨S16384, .i32⟩
  | 60 => ⟨S16384x1, .i32⟩
  | 61 => ⟨S1, .i32⟩
  | 62 => ⟨S_, .i32⟩
  | 63 => ⟨S16384x1, .i32⟩
  | 64 => ⟨S16384x1, .i1⟩
  | 65 => ⟨S1x1, .i32⟩
  | 66 => ⟨S16384x1, .i32⟩
  | 67 => ⟨S16384x1, .i1⟩
  | 68 => ⟨S16384x1, .i1⟩
  | 69 => ⟨S_, .i1⟩
  | 70 => ⟨S16384, .i1⟩
  | 71 => ⟨S16384x128, .f32⟩
  | 72 => ⟨S16384x128, .i1⟩
  | 73 => ⟨S_, .f32⟩
  | 74 => ⟨S16384x128, .f32⟩
  | 75 => ⟨S16384x128, .f32⟩
  | 76 => ⟨S_, .i32⟩
  | 77 => ⟨S16384, .i32⟩
  | 78 => ⟨S16384, .i1⟩
  | 79 => ⟨S_, .i32⟩
  | 80 => ⟨S16384, .i32⟩
  | 81 => ⟨S16384, .i32⟩
  | 82 => ⟨S16384, .i32⟩
  | 83 => ⟨S16384x1, .i32⟩
  | 84 => ⟨S1, .i32⟩
  | 85 => ⟨S_, .i32⟩
  | 86 => ⟨S16384x1, .i32⟩
  | 87 => ⟨S16384x1, .i1⟩
  | 88 => ⟨S1x1, .i32⟩
  | 89 => ⟨S16384x1, .i32⟩
  | 90 => ⟨S16384x1, .i1⟩
  | 91 => ⟨S16384x1, .i1⟩
  | 92 => ⟨S_, .i1⟩
  | 93 => ⟨S16384, .i1⟩
  | 94 => ⟨S16384x128, .f32⟩
  | 95 => ⟨S16384x128, .i1⟩
  | 96 => ⟨S_, .f32⟩
  | 97 => ⟨S16384x128, .f32⟩
  | 98 => ⟨S16384x128, .f32⟩
  | 99 => ⟨S_, .i32⟩
  | 100 => ⟨S16384, .i32⟩
  | 101 => ⟨S16384, .i1⟩
  | 102 => ⟨S_, .i32⟩
  | 103 => ⟨S16384, .i32⟩
  | 104 => ⟨S16384, .i32⟩
  | 105 => ⟨S16384, .i32⟩
  | 106 => ⟨S16384x1, .i32⟩
  | 107 => ⟨S1, .i32⟩
  | 108 => ⟨S_, .i32⟩
  | 109 => ⟨S16384x1, .i32⟩
  | 110 => ⟨S16384x1, .i1⟩
  | 111 => ⟨S1x1, .i32⟩
  | 112 => ⟨S16384x1, .i32⟩
  | 113 => ⟨S16384x1, .i1⟩
  | 114 => ⟨S16384x1, .i1⟩
  | 115 => ⟨S_, .i1⟩
  | 116 => ⟨S16384, .i1⟩
  | 117 => ⟨S16384x128x64, .f32⟩
  | 118 => ⟨S16384x128x64, .i1⟩
  | 119 => ⟨S_, .f32⟩
  | 120 => ⟨S16384x128x64, .f32⟩
  | 121 => ⟨S16384x128x64, .f32⟩
  | 122 => ⟨S16384x64, .f32⟩
  | 123 => ⟨S16384x64, .f32⟩
  | 124 => ⟨S_, .f32⟩
  | 125 => ⟨S16384, .f32⟩
  | 126 => ⟨S16384x1, .f32⟩
  | 127 => ⟨S16384x1, .f32⟩
  | _ => ⟨S100000x128, .f32⟩

abbrev hbmTy0_1 (i : Nat) : BufTy := match i % 128 with
  | 0 => ⟨S_, .f32⟩
  | 1 => ⟨S16384x1, .f32⟩
  | 2 => ⟨S16384x1, .f32⟩
  | 3 => ⟨S16384x64, .f32⟩
  | 4 => ⟨S16384x64, .f32⟩
  | 5 => ⟨S16384x64, .f32⟩
  | 6 => ⟨S_, .f32⟩
  | 7 => ⟨S16384, .f32⟩
  | 8 => ⟨S16384x1, .f32⟩
  | 9 => ⟨S16384x1, .f32⟩
  | 10 => ⟨S_, .f32⟩
  | 11 => ⟨S16384x1, .f32⟩
  | 12 => ⟨S16384x1, .f32⟩
  | 13 => ⟨S16384x64, .f32⟩
  | 14 => ⟨S16384x64, .f32⟩
  | 15 => ⟨S16384x64, .f32⟩
  | 16 => ⟨S16384x64, .f32⟩
  | 17 => ⟨S_, .f32⟩
  | 18 => ⟨S16384, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S16384x64, .f32⟩
  | 25 => ⟨S16384x64, .f32⟩
  | 26 => ⟨S16384x64, .f32⟩
  | 27 => ⟨S16384x64, .f32⟩
  | 28 => ⟨S_, .f32⟩
  | 29 => ⟨S16384, .f32⟩
  | 30 => ⟨S16384x1, .f32⟩
  | 31 => ⟨S16384x1, .f32⟩
  | 32 => ⟨S_, .f32⟩
  | 33 => ⟨S16384x1, .f32⟩
  | 34 => ⟨S16384x1, .f32⟩
  | 35 => ⟨S16384x64, .f32⟩
  | 36 => ⟨S16384x64, .f32⟩
  | 37 => ⟨S16384x64, .f32⟩
  | 38 => ⟨S16384x64, .f32⟩
  | 39 => ⟨S16384x64, .f32⟩
  | 40 => ⟨S_, .f32⟩
  | 41 => ⟨S16384, .f32⟩
  | 42 => ⟨S16384x1, .f32⟩
  | 43 => ⟨S16384x64, .f32⟩
  | 44 => ⟨S16384x64, .f32⟩
  | 45 => ⟨S16384x64, .f32⟩
  | 46 => ⟨S_, .f32⟩
  | 47 => ⟨S16384, .f32⟩
  | 48 => ⟨S16384x1, .f32⟩
  | 49 => ⟨S16384x1, .f32⟩
  | 50 => ⟨S16384x1, .f32⟩
  | 51 => ⟨S_, .f32⟩
  | 52 => ⟨S16384x1, .f32⟩
  | 53 => ⟨S16384x1, .f32⟩
  | 54 => ⟨S16384x1, .f32⟩
  | 55 => ⟨S16384x1, .f32⟩
  | 56 => ⟨S16384x1, .i1⟩
  | 57 => ⟨S16384x1, .f32⟩
  | 58 => ⟨S16384x1, .f32⟩
  | 59 => ⟨S16384x1, .f32⟩
  | 60 => ⟨S16384x1, .f32⟩
  | 61 => ⟨S16384x1, .f32⟩
  | 62 => ⟨S16384x1, .f32⟩
  | 63 => ⟨S16384x1, .f32⟩
  | 64 => ⟨S16384x1, .f32⟩
  | 65 => ⟨S16384x1, .f32⟩
  | 66 => ⟨S_, .f32⟩
  | 67 => ⟨S16384x1, .f32⟩
  | 68 => ⟨S16384x1, .f32⟩
  | 69 => ⟨S_, .f32⟩
  | 70 => ⟨S_, .f32⟩
  | 71 => ⟨S_, .f32⟩
  | 72 => ⟨S_, .f32⟩
  | 73 => ⟨S16384x64, .f32⟩
  | 74 => ⟨S_, .f32⟩
  | 75 => ⟨S16384, .f32⟩
  | 76 => ⟨S_, .f32⟩
  | 77 => ⟨S16384, .f32⟩
  | 78 => ⟨S16384, .f32⟩
  | 79 => ⟨S_, .f32⟩
  | 80 => ⟨S_, .f32⟩
  | 81 => ⟨S_, .f32⟩
  | 82 => ⟨S_, .f32⟩
  | 83 => ⟨S16384x64, .f32⟩
  | 84 => ⟨S_, .f32⟩
  | 85 => ⟨S16384, .f32⟩
  | 86 => ⟨S_, .f32⟩
  | 87 => ⟨S16384, .f32⟩
  | 88 => ⟨S16384, .f32⟩
  | 89 => ⟨S_, .f32⟩
  | 90 => ⟨S_, .f32⟩
  | 91 => ⟨S_, .f32⟩
  | 92 => ⟨S_, .f32⟩
  | 93 => ⟨S_, .f32⟩
  | 94 => ⟨S16384x64, .f32⟩
  | 95 => ⟨S_, .f32⟩
  | 96 => ⟨S16384, .f32⟩
  | 97 => ⟨S_, .f32⟩
  | 98 => ⟨S16384, .f32⟩
  | 99 => ⟨S16384, .f32⟩
  | 100 => ⟨S_, .f32⟩
  | 101 => ⟨S_, .f32⟩
  | 102 => ⟨S_, .f32⟩
  | 103 => ⟨S_, .f32⟩
  | 104 => ⟨S_, .f32⟩
  | 105 => ⟨S16384x64, .f32⟩
  | 106 => ⟨S_, .f32⟩
  | 107 => ⟨S16384, .f32⟩
  | 108 => ⟨S_, .f32⟩
  | 109 => ⟨S16384, .f32⟩
  | 110 => ⟨S16384, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v2 : Ref sig .tc := ⟨.hbm, 75, rfl⟩
abbrev main_call3_c : Ref sig .tc := ⟨.hbm, 76, rfl⟩
abbrev main_call3_v0 : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_c_1 : Ref sig .tc := ⟨.hbm, 84, rfl⟩
abbrev main_call3_c_2 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_3 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_call3_cst : Ref sig .tc := ⟨.hbm, 96, rfl⟩
abbrev main_call3_v15 : Ref sig .tc := ⟨.hbm, 97, rfl⟩
abbrev main_v3 : Ref sig .tc := ⟨.hbm, 98, rfl⟩
abbrev main_call4_c : Ref sig .tc := ⟨.hbm, 99, rfl⟩
abbrev main_call4_v0 : Ref sig .tc := ⟨.hbm, 100, rfl⟩
abbrev main_call4_v1 : Ref sig .tc := ⟨.hbm, 101, rfl⟩
abbrev main_call4_c_0 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_call4_c_1 : Ref sig .tc := ⟨.hbm, 107, rfl⟩
abbrev main_call4_c_2 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_v9 : Ref sig .tc := ⟨.hbm, 112, rfl⟩
abbrev main_call4_v10 : Ref sig .tc := ⟨.hbm, 113, rfl⟩
abbrev main_call4_v11 : Ref sig .tc := ⟨.hbm, 114, rfl⟩
abbrev main_call4_c_3 : Ref sig .tc := ⟨.hbm, 115, rfl⟩
abbrev main_call4_v12 : Ref sig .tc := ⟨.hbm, 116, rfl⟩
abbrev main_call4_v13 : Ref sig .tc := ⟨.hbm, 117, rfl⟩
abbrev main_call4_v14 : Ref sig .tc := ⟨.hbm, 118, rfl⟩
abbrev main_call4_cst : Ref sig .tc := ⟨.hbm, 119, rfl⟩
abbrev main_call4_v15 : Ref sig .tc := ⟨.hbm, 120, rfl⟩
abbrev main_v4 : Ref sig .tc := ⟨.hbm, 121, rfl⟩
abbrev main_v5 : Ref sig .tc := ⟨.hbm, 122, rfl⟩
abbrev main_call5_v0 : Ref sig .tc := ⟨.hbm, 123, rfl⟩
abbrev main_call5_cst : Ref sig .tc := ⟨.hbm, 124, rfl⟩
abbrev main_call5_v1 : Ref sig .tc := ⟨.hbm, 125, rfl⟩
abbrev main_call5_v2 : Ref sig .tc := ⟨.hbm, 126, rfl⟩
abbrev main_v6 : Ref sig .tc := ⟨.hbm, 127, rfl⟩
abbrev main_cst : Ref sig .tc := ⟨.hbm, 128, rfl⟩
abbrev main_v7 : Ref sig .tc := ⟨.hbm, 129, rfl⟩
abbrev main_v8 : Ref sig .tc := ⟨.hbm, 130, rfl⟩
abbrev main_v9 : Ref sig .tc := ⟨.hbm, 131, rfl⟩
abbrev main_v10 : Ref sig .tc := ⟨.hbm, 132, rfl⟩
abbrev main_call6_v0 : Ref sig .tc := ⟨.hbm, 133, rfl⟩
abbrev main_call6_cst : Ref sig .tc := ⟨.hbm, 134, rfl⟩
abbrev main_call6_v1 : Ref sig .tc := ⟨.hbm, 135, rfl⟩
abbrev main_call6_v2 : Ref sig .tc := ⟨.hbm, 136, rfl⟩
abbrev main_v11 : Ref sig .tc := ⟨.hbm, 137, rfl⟩
abbrev main_cst_0 : Ref sig .tc := ⟨.hbm, 138, rfl⟩
abbrev main_v12 : Ref sig .tc := ⟨.hbm, 139, rfl⟩
abbrev main_v13 : Ref sig .tc := ⟨.hbm, 140, rfl⟩
abbrev main_v14 : Ref sig .tc := ⟨.hbm, 141, rfl⟩
abbrev main_v15 : Ref sig .tc := ⟨.hbm, 142, rfl⟩
abbrev main_v16 : Ref sig .tc := ⟨.hbm, 143, rfl⟩
abbrev main_call7_v0 : Ref sig .tc := ⟨.hbm, 144, rfl⟩
abbrev main_call7_cst : Ref sig .tc := ⟨.hbm, 145, rfl⟩
abbrev main_call7_v1 : Ref sig .tc := ⟨.hbm, 146, rfl⟩
abbrev main_call7_v2 : Ref sig .tc := ⟨.hbm, 147, rfl⟩
abbrev main_v17 : Ref sig .tc := ⟨.hbm, 148, rfl⟩
abbrev main_cst_1 : Ref sig .tc := ⟨.hbm, 149, rfl⟩
abbrev main_v18 : Ref sig .tc := ⟨.hbm, 150, rfl⟩
abbrev main_v19 : Ref sig .tc := ⟨.hbm, 151, rfl⟩
abbrev main_v20 : Ref sig .tc := ⟨.hbm, 152, rfl⟩
abbrev main_v21 : Ref sig .tc := ⟨.hbm, 153, rfl⟩
abbrev main_v22 : Ref sig .tc := ⟨.hbm, 154, rfl⟩
abbrev main_call8_v0 : Ref sig .tc := ⟨.hbm, 155, rfl⟩
abbrev main_call8_cst : Ref sig .tc := ⟨.hbm, 156, rfl⟩
abbrev main_call8_v1 : Ref sig .tc := ⟨.hbm, 157, rfl⟩
abbrev main_call8_v2 : Ref sig .tc := ⟨.hbm, 158, rfl⟩
abbrev main_v23 : Ref sig .tc := ⟨.hbm, 159, rfl⟩
abbrev main_cst_2 : Ref sig .tc := ⟨.hbm, 160, rfl⟩
abbrev main_v24 : Ref sig .tc := ⟨.hbm, 161, rfl⟩
abbrev main_v25 : Ref sig .tc := ⟨.hbm, 162, rfl⟩
abbrev main_v26 : Ref sig .tc := ⟨.hbm, 163, rfl⟩
abbrev main_v27 : Ref sig .tc := ⟨.hbm, 164, rfl⟩
abbrev main_v28 : Ref sig .tc := ⟨.hbm, 165, rfl⟩
abbrev main_v29 : Ref sig .tc := ⟨.hbm, 166, rfl⟩
abbrev main_v30 : Ref sig .tc := ⟨.hbm, 167, rfl⟩
abbrev main_cst_3 : Ref sig .tc := ⟨.hbm, 168, rfl⟩
abbrev main_v31 : Ref sig .tc := ⟨.hbm, 169, rfl⟩
abbrev main_v32 : Ref sig .tc := ⟨.hbm, 170, rfl⟩
abbrev main_v33 : Ref sig .tc := ⟨.hbm, 171, rfl⟩
abbrev main_v34 : Ref sig .tc := ⟨.hbm, 172, rfl⟩
abbrev main_v35 : Ref sig .tc := ⟨.hbm, 173, rfl⟩
abbrev main_cst_4 : Ref sig .tc := ⟨.hbm, 174, rfl⟩
abbrev main_v36 : Ref sig .tc := ⟨.hbm, 175, rfl⟩
abbrev main_v37 : Ref sig .tc := ⟨.hbm, 176, rfl⟩
abbrev main_v38 : Ref sig .tc := ⟨.hbm, 177, rfl⟩
abbrev main_call9_v0 : Ref sig .tc := ⟨.hbm, 178, rfl⟩
abbrev main_call9_call0_cst : Ref sig .tc := ⟨.hbm, 179, rfl⟩
abbrev main_call9_call0_v0 : Ref sig .tc := ⟨.hbm, 180, rfl⟩
abbrev main_call9_call0_v1 : Ref sig .tc := ⟨.hbm, 181, rfl⟩
abbrev main_call9_call0_v2 : Ref sig .tc := ⟨.hbm, 182, rfl⟩
abbrev main_call9_call0_v3 : Ref sig .tc := ⟨.hbm, 183, rfl⟩
abbrev main_call9_call0_v4 : Ref sig .tc := ⟨.hbm, 184, rfl⟩
abbrev main_call9_call0_v5 : Ref sig .tc := ⟨.hbm, 185, rfl⟩
abbrev main_call9_call0_v6 : Ref sig .tc := ⟨.hbm, 186, rfl⟩
abbrev main_call9_call0_v7 : Ref sig .tc := ⟨.hbm, 187, rfl⟩
abbrev main_call9_call0_v8 : Ref sig .tc := ⟨.hbm, 188, rfl⟩
abbrev main_call9_call0_v9 : Ref sig .tc := ⟨.hbm, 189, rfl⟩
abbrev main_call9_call0_v10 : Ref sig .tc := ⟨.hbm, 190, rfl⟩
abbrev main_call9_call0_v11 : Ref sig .tc := ⟨.hbm, 191, rfl⟩
abbrev main_call9_v1 : Ref sig .tc := ⟨.hbm, 192, rfl⟩
abbrev main_v39 : Ref sig .tc := ⟨.hbm, 193, rfl⟩
abbrev main_cst_5 : Ref sig .tc := ⟨.hbm, 194, rfl⟩
abbrev main_v40 : Ref sig .tc := ⟨.hbm, 195, rfl⟩
abbrev main_v41 : Ref sig .tc := ⟨.hbm, 196, rfl⟩
abbrev main_cst_6 : Ref sig .tc := ⟨.hbm, 197, rfl⟩
abbrev main_v42 : Ref sig .tc := ⟨.hbm, 198, rfl⟩
abbrev main_cst_7 : Ref sig .tc := ⟨.hbm, 199, rfl⟩
abbrev main_v43 : Ref sig .tc := ⟨.hbm, 200, rfl⟩
abbrev main_v44 : Ref sig .tc := ⟨.hbm, 201, rfl⟩
abbrev main_cst_8 : Ref sig .tc := ⟨.hbm, 202, rfl⟩
abbrev main_v45 : Ref sig .tc := ⟨.hbm, 203, rfl⟩
abbrev main_cst_9 : Ref sig .tc := ⟨.hbm, 204, rfl⟩
abbrev main_v46 : Ref sig .tc := ⟨.hbm, 205, rfl⟩
abbrev main_v47 : Ref sig .tc := ⟨.hbm, 206, rfl⟩
abbrev main_cst_10 : Ref sig .tc := ⟨.hbm, 207, rfl⟩
abbrev main_v48 : Ref sig .tc := ⟨.hbm, 208, rfl⟩
abbrev main_cst_11 : Ref sig .tc := ⟨.hbm, 209, rfl⟩
abbrev main_v49 : Ref sig .tc := ⟨.hbm, 210, rfl⟩
abbrev main_v50 : Ref sig .tc := ⟨.hbm, 211, rfl⟩
abbrev main_cst_12 : Ref sig .tc := ⟨.hbm, 212, rfl⟩
abbrev main_v51 : Ref sig .tc := ⟨.hbm, 213, rfl⟩
abbrev main_cst_13 : Ref sig .tc := ⟨.hbm, 214, rfl⟩
abbrev main_v52 : Ref sig .tc := ⟨.hbm, 215, rfl⟩
abbrev main_v53 : Ref sig .tc := ⟨.hbm, 216, rfl⟩
abbrev main_cst_14 : Ref sig .tc := ⟨.hbm, 217, rfl⟩
abbrev main_v54 : Ref sig .tc := ⟨.hbm, 218, rfl⟩
abbrev main_cst_15 : Ref sig .tc := ⟨.hbm, 219, rfl⟩
abbrev main_v55 : Ref sig .tc := ⟨.hbm, 220, rfl⟩
abbrev main_v56 : Ref sig .tc := ⟨.hbm, 221, rfl⟩
abbrev main_v57 : Ref sig .tc := ⟨.hbm, 222, rfl⟩
abbrev main_cst_16 : Ref sig .tc := ⟨.hbm, 223, rfl⟩
abbrev main_v58 : Ref sig .tc := ⟨.hbm, 224, rfl⟩
abbrev main_cst_17 : Ref sig .tc := ⟨.hbm, 225, rfl⟩
abbrev main_v59 : Ref sig .tc := ⟨.hbm, 226, rfl⟩
abbrev main_v60 : Ref sig .tc := ⟨.hbm, 227, rfl⟩
abbrev main_cst_18 : Ref sig .tc := ⟨.hbm, 228, rfl⟩
abbrev main_v61 : Ref sig .tc := ⟨.hbm, 229, rfl⟩
abbrev main_cst_19 : Ref sig .tc := ⟨.hbm, 230, rfl⟩
abbrev main_v62 : Ref sig .tc := ⟨.hbm, 231, rfl⟩
abbrev main_v63 : Ref sig .tc := ⟨.hbm, 232, rfl⟩
abbrev main_v64 : Ref sig .tc := ⟨.hbm, 233, rfl⟩
abbrev main_cst_20 : Ref sig .tc := ⟨.hbm, 234, rfl⟩
abbrev main_v65 : Ref sig .tc := ⟨.hbm, 235, rfl⟩
abbrev main_cst_21 : Ref sig .tc := ⟨.hbm, 236, rfl⟩
abbrev main_v66 : Ref sig .tc := ⟨.hbm, 237, rfl⟩
abbrev main_v67 : Ref sig .tc := ⟨.hbm, 238, rfl⟩
abbrev main_cst_22 : Ref sig .tc := ⟨.hbm, 239, rfl⟩
abbrev main_v68 : Ref sig .tc := ⟨.hbm, 240, rfl⟩
abbrev main_cst_23 : Ref sig .tc := ⟨.hbm, 241, rfl⟩
abbrev main_v69 : Ref sig .tc := ⟨.hbm, 242, rfl⟩
abbrev main_v70 : Ref sig .tc := ⟨.hbm, 243, rfl⟩
abbrev main_cst_24 : Ref sig .tc := ⟨.hbm, 244, rfl⟩
abbrev main_v71 : Ref sig .tc := ⟨.hbm, 245, rfl⟩
abbrev main_v72 : Ref sig .tc := ⟨.hbm, 246, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  bcast_S16384_S16384x64_0 : S16384.BroadcastsInDim S16384x64 (![0] : Fin 1 → Fin S16384x64.rank)
  bcast_S_S16384x64 : S_.BroadcastsInDim S16384x64 (![] : Fin 0 → Fin S16384x64.rank)
  bcast_S16384_S16384x128x64_0 : S16384.BroadcastsInDim S16384x128x64 (![0] : Fin 1 → Fin S16384x128x64.rank)
  bcast_S_S16384x128x64 : S_.BroadcastsInDim S16384x128x64 (![] : Fin 0 → Fin S16384x128x64.rank)
  reducesTo_S16384x64_S16384_d1 : S16384x64.ReducesTo [1] S16384
  bcast_S16384x1_S16384x64_0_1 : S16384x1.BroadcastsInDim S16384x64 (![0, 1] : Fin 2 → Fin S16384x64.rank)
  reducesTo_S16384x1_S_d0_1 : S16384x1.ReducesTo [0, 1] S_
  reducesTo_S16384_S_d0 : S16384.ReducesTo [0] S_
  gather_S100000x128_S16384x1_S16384x128_1_0_n_n_0_1_1128_wf : GatherDims.WF S100000x128 S16384x1 S16384x128 [1] [0] [] [0] [] 1 ![1, 128]
  gather_S16x64_S16384x1_S16384x64_1_0_n_n_0_1_164_wf : GatherDims.WF S16x64 S16384x1 S16384x64 [1] [0] [] [0] [] 1 ![1, 64]
  gather_S16x128x64_S16384x1_S16384x128x64_12_0_n_n_0_1_112864_wf : GatherDims.WF S16x128x64 S16384x1 S16384x128x64 [1, 2] [0] [] [0] [] 1 ![1, 128, 64]
  dot_S16384x128_S16384x128x64_S16384x64_1_1_n_2_0_0_wf : DotDims.WF S16384x128 S16384x128x64 S16384x64 [1] [1] [] [2] [0] [0]

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def gather_S16x64_S16384x1_S16384x64_1_0_n_n_0_1_164 : GatherDims S16x64 S16384x1 S16384x64 where
  offsetDims := [1]
  collapsedSliceDims := [0]
  operandBatchingDims := []
  startIndicesBatchingDims := []
  startIndexMap := [0]
  indexVectorDim := 1
  sliceSizes := ![1, 64]
  wf := gather_S16x64_S16384x1_S16384x64_1_0_n_n_0_1_164_wf
def gather_S16x128x64_S16384x1_S16384x128x64_12_0_n_n_0_1_112864 : GatherDims S16x128x64 S16384x1 S16384x128x64 where
  offsetDims := [1, 2]
  collapsedSliceDims := [0]
  operandBatchingDims := []
  startIndicesBatchingDims := []
  startIndexMap := [0]
  indexVectorDim := 1
  sliceSizes := ![1, 128, 64]
  wf := gather_S16x128x64_S16384x1_S16384x128x64_12_0_n_n_0_1_112864_wf
def dot_S16384x128_S16384x128x64_S16384x64_1_1_n_2_0_0 : DotDims S16384x128 S16384x128x64 S16384x64 where
  lhsContracting := [1]
  rhsContracting := [1]
  lhsNonContracting := []
  rhsNonContracting := [2]
  lhsBatch := [0]
  rhsBatch := [0]
  wf := dot_S16384x128_S16384x128x64_S16384x64_1_1_n_2_0_0_wf

class Facts : Prop extends Facts₀ where

variable [Facts]
-- ==== Proof.Spec.lean ====
/-
  The mathematics both programs compute, stated once over plain functions of finite indices on the extended reals.

  A knowledge-graph embedding loss over 16384 triples (head, relation, positive tail, negative tail). Each entity row
  (128 numbers) is projected into its triple's relation space by that relation's 128 x 64 matrix, each projected row
  and each relation row (64 numbers) is scaled to unit length (the length floored at a small constant), the score of
  a tail is the squared distance of head + relation from it, and the loss is the mean softplus of (positive score -
  negative score) plus a small multiple of the mean half squared length of the four unit rows.

  The reference computes it over all 16384 rows at once; the kernel computes it in sixteen blocks of 1024 rows, each
  block's share already scaled by 2^-14 = 1/16384, and adds the sixteen shares. `lossRef` and `lossKer` are the two
  forms; `Cert.Spec.Algebra` proves them equal.
-/
import Idealize.ShloMosaic.PureOps.Ideal

noncomputable section

namespace Cert.Spec

open Idealize.ShloMosaic

/-- The floor of a row's length: the float word both programs carry (the f32 nearest 1e-12). -/
abbrev tiny : EReal := Ideal.ofBits .f32 0x2B8CBCCC#32
/-- The regulariser's weight: the float word both programs carry (the f32 nearest 0.01). -/
abbrev wReg : EReal := Ideal.ofBits .f32 0x3C23D70A#32
/-- The float words for 0, 1, -1, 1/2, 2, 16384 and 2^-14. -/
abbrev w0 : EReal := Ideal.ofBits .f32 0x00000000#32
abbrev w1 : EReal := Ideal.ofBits .f32 0x3F800000#32
abbrev wNeg1 : EReal := Ideal.ofBits .f32 0xBF800000#32
abbrev wHalf : EReal := Ideal.ofBits .f32 0x3F000000#32
abbrev w2 : EReal := Ideal.ofBits .f32 0x40000000#32
abbrev wM : EReal := Ideal.ofBits .f32 0x46800000#32
abbrev wInvM : EReal := Ideal.ofBits .f32 0x38800000#32

/-- The argument arrays, the integer ones already read as row numbers. -/
structure Args where
  E : Fin 100000 → Fin 128 → EReal
  R : Fin 16 → Fin 64 → EReal
  W : Fin 16 → Fin 128 → Fin 64 → EReal
  h : Fin 16384 → Fin 100000
  r : Fin 16384 → Fin 16
  p : Fin 16384 → Fin 100000
  n : Fin 16384 → Fin 100000

variable (A : Args)

/-- An entity row projected into its triple's relation space. -/
def proj (sel : Fin 16384 → Fin 100000) (m : Fin 16384) (e : Fin 64) : EReal :=
  ∑ d : Fin 128, A.E (sel m) d * A.W (A.r m) d e

/-- The squared length of row `m`. -/
def sq (y : Fin 16384 → Fin 64 → EReal) (m : Fin 16384) : EReal := ∑ e : Fin 64, y m e * y m e

/-- A row scaled to unit length, the length floored at `tiny`. -/
def unit (y : Fin 16384 → Fin 64 → EReal) (m : Fin 16384) (e : Fin 64) : EReal :=
  Ideal.div (y m e) (max (Ideal.sqrt (sq y m)) tiny)

def hv : Fin 16384 → Fin 64 → EReal := unit (proj A A.h)
def pv : Fin 16384 → Fin 64 → EReal := unit (proj A A.p)
def nv : Fin 16384 → Fin 64 → EReal := unit (proj A A.n)
def rv : Fin 16384 → Fin 64 → EReal := unit (fun m e => A.R (A.r m) e)

/-- The score of a tail: the squared distance of head + relation from it. -/
def score (t : Fin 16384 → Fin 64 → EReal) (m : Fin 16384) : EReal :=
  ∑ e : Fin 64, (hv A m e + rv A m e - t m e) * (hv A m e + rv A m e - t m e)

/-- Negative score minus positive score. -/
def gap (m : Fin 16384) : EReal := score A (nv A) m - score A (pv A) m

/-- The kernel's softplus of `-gap`: `max (0 - z) 0 + log (1 + exp (0 - |z|))`. -/
def liKer (m : Fin 16384) : EReal :=
  max (w0 - gap A m) w0 + Ideal.log (w1 + Ideal.exp (w0 - max (gap A m) (-(gap A m))))

/-- The reference's: `-1 * -(max (-z) 0 + log1p (exp (-|(-z) - 0|)))`. -/
def liRef (m : Fin 16384) : EReal :=
  wNeg1 * -(max (-(gap A m)) w0 + Ideal.log1p (Ideal.exp (-(max (-(gap A m) - w0) (-(-(gap A m) - w0))))))

/-- The reference's mean of half squared lengths of one family of unit rows. -/
def l2Ref (y : Fin 16384 → Fin 64 → EReal) : EReal :=
  Ideal.div (∑ m : Fin 16384, Ideal.div (sq y m) w2) wM

/-- The loss as the reference computes it. -/
def lossRef : EReal :=
  Ideal.div (∑ m : Fin 16384, liRef A m) wM
    + wReg * (((l2Ref (hv A) + l2Ref (rv A)) + l2Ref (pv A)) + l2Ref (nv A))

/-- Row `k` of block `b` (sixteen blocks of 1024 rows). -/
def row (b : Fin 16) (k : Fin 1024) : Fin 16384 := ⟨1024 * b.val + k.val, by omega⟩

/-- The sum of squares of a block's rows. -/
def sqBlk (y : Fin 16384 → Fin 64 → EReal) (b : Fin 16) : EReal := ∑ k : Fin 1024, sq y (row b k)

/-- Block `b`'s share of the loss as the kernel computes it. -/
def part (b : Fin 16) : EReal :=
  ((∑ k : Fin 1024, liKer A (row b k))
      + wReg * (wHalf * (((sqBlk (hv A) b + sqBlk (rv A) b) + sqBlk (pv A) b) + sqBlk (nv A) b))) * wInvM

/-- The loss as the kernel computes it: the sixteen shares added (blocks 0-7 by the first call, 8-15 by the second). -/
def lossKer : EReal := (∑ i : Fin 8, part A ⟨i.val, by omega⟩) + (∑ i : Fin 8, part A ⟨8 + i.val, by omega⟩)

end Cert.Spec

end
-- ==== Proof.SpecArgs.lean ====
/-
  The seven argument arrays of either program, read as the specification's arguments: a float array at a coordinate
  tuple, an integer array's word as a row number. A row number is the word's value reduced modulo the table's height;
  under the precondition (every word between 0 and the height less one) that is the word's own value.
-/
import Idealize.ShloMosaic.Lib.ValueIdx
import proofs.«211459_g87136296501727_cont_9to1_m_723_16_alg».proof.Proof.Spec

noncomputable section

namespace Cert.Spec

open Idealize.ShloMosaic Idealize.ShloMosaic.ValueIdx

/-- A 32-bit word as a row number of a table of `N` rows. -/
def rowOf (N : Nat) (hN : 0 < N) (v : BitVec 32) : Fin N := ⟨v.toNat % N, Nat.mod_lt _ hN⟩

theorem rowOf_val_of_lt {N : Nat} (hN : 0 < N) {v : BitVec 32} (h : v.toNat < N) : (rowOf N hN v).val = v.toNat :=
  Nat.mod_eq_of_lt h

/-- The specification's arguments from the seven arrays, in the programs' argument order: entity table, relation
    table, projection matrices, heads, relations, positive tails, negative tails. -/
def argsOf (a0 : (⟨2, ![100000, 128]⟩ : Shape).Idx → EReal) (a1 : (⟨2, ![16, 64]⟩ : Shape).Idx → EReal)
    (a2 : (⟨3, ![16, 128, 64]⟩ : Shape).Idx → EReal) (a3 a4 a5 a6 : (⟨1, ![16384]⟩ : Shape).Idx → BitVec 32) : Args where
  E a b := a0 (ix2 a b)
  R a b := a1 (ix2 a b)
  W a b c := a2 (ix3 a b c)
  h m := rowOf 100000 (by decide) (a3 (ix1 m))
  r m := rowOf 16 (by decide) (a4 (ix1 m))
  p m := rowOf 100000 (by decide) (a5 (ix1 m))
  n m := rowOf 100000 (by decide) (a6 (ix1 m))

/-- What the precondition gives of the integer arrays: every word is a row number of its table. -/
structure InRange (a3 a4 a5 a6 : (⟨1, ![16384]⟩ : Shape).Idx → BitVec 32) : Prop where
  h : ∀ j, (a3 j).toNat < 100000
  r : ∀ j, (a4 j).toNat < 16
  p : ∀ j, (a5 j).toNat < 100000
  n : ∀ j, (a6 j).toNat < 100000

end Cert.Spec

end
-- ==== Proof.ScSetup.lean ====
/-
  The two SparseCore calls of the kernel as the launch theorem sees them, and what their handshakes carry.

  Each call runs one task on each of the 32 vector subcores (2 SparseCores x 16 subcores). The task of subcore s of
  SparseCore c, w = 2 s + c, reads 256 consecutive words of each of the three index arrays (heads, positive tails,
  negative tails) at word 8192 q + 256 w (q the call's number) and writes six blocks of 128 rows of the call's output
  array: block (r1, r2), r1 < 3, r2 < 2, is rows [8192 r1 + 256 w + 128 r2, + 128), i.e. the block of 128 rows numbered
  64 r1 + 4 s + 2 c + r2 of the 192 such blocks of the array. Row i of the output holds row
  sel (i / 8192) [8192 q + i % 8192] of the entity table, sel 0 the heads, sel 1 the positive tails, sel 2 the negative
  tails (the array `gath`).

  The read-only arrays go out as shares: the full share halved once per SparseCore, then four times per subcore.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«211459_g87136296501727_cont_9to1_m_723_16_alg».proof.Proof.Gen.KernelIdeal
import proofs.«211459_g87136296501727_cont_9to1_m_723_16_alg».proof.Proof.Gen.KernelIdeal.Skeleton
import proofs.«211459_g87136296501727_cont_9to1_m_723_16_alg».proof.Proof.SpecArgs

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 2 := sc (F := F)
theorem nCore_eq (q : Fin 2) : (K (F := F)).nCore q = 2 := match q with | 0 => rfl | 1 => rfl
theorem nSub_eq (q : Fin 2) : (K (F := F)).nSub q = 16 := match q with | 0 => rfl | 1 => rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => match q with | 0 => rfl | 1 => rfl⟩

/-! ## The gathered array -/

/-- The index array a band of 8192 rows of the gathered array reads: heads, positive tails, negative tails. -/
def sel (a3 a5 a6 : S16384.Idx → BitVec 32) (b : ℕ) : S16384.Idx → BitVec 32 :=
  if b = 0 then a3 else if b = 1 then a5 else a6

/-- What call `q` leaves in its output array: row `i` is the entity table's row named by word `8192 q + i % 8192`
    of index array `i / 8192`. -/
def gath (q : Fin 2) (tab : S100000x128.Idx → F .f32) (a3 a5 a6 : S16384.Idx → BitVec 32) : S24576x128.Idx → F .f32 :=
  fun i => tab (ix2 (n0 := 100000) (n1 := 128)
    (Cert.Spec.rowOf 100000 (by decide) (sel a3 a5 a6 ((i 0).val / 8192) (ix1 (n := 16384) ⟨8192 * q.val + (i 0).val % 8192, by have := q.isLt; omega⟩)))
    (i 1))

theorem gath_apply (q : Fin 2) (tab : S100000x128.Idx → F .f32) (a3 a5 a6 : S16384.Idx → BitVec 32) (i : S24576x128.Idx) :
    gath q tab a3 a5 a6 i = tab (ix2 (n0 := 100000) (n1 := 128)
      (Cert.Spec.rowOf 100000 (by decide) (sel a3 a5 a6 ((i 0).val / 8192) (ix1 (n := 16384) ⟨8192 * q.val + (i 0).val % 8192, by have := q.isLt; omega⟩)))
      (i 1)) := rfl

/-! ## The resource algebra: any user algebra that holds a copy of the transfers' counters -/

variable {UU : Type} [URA UU] [CountersIn UU]

local notation "𝕄" => MT nD τ sig (HIx 2) (Elt F) ℕ UU ℕ

/-! ## The launch memory and the buffers -/

variable (m : (ℓ : Loc nD τ sig) → Buf (Elt F) ℓ)

abbrev hLoc (d : Dev nD) : Loc nD τ sig := (SparseCore.T d).loc main_arg3
abbrev pLoc (d : Dev nD) : Loc nD τ sig := (SparseCore.T d).loc main_arg5
abbrev nLoc (d : Dev nD) : Loc nD τ sig := (SparseCore.T d).loc main_arg6
abbrev tabLoc (d : Dev nD) : Loc nD τ sig := (SparseCore.T d).loc main_arg0
/-- The output array of call `q`. -/
abbrev oRef (q : Fin 2) : Ref sig .tc := match q with | 0 => main_v12 | 1 => main_v14
abbrev outLoc (q : Fin 2) (d : Dev nD) : Loc nD τ sig := (SparseCore.T d).loc (oRef q)

/-- The gathered array of call `q` over the launch memory's table and index arrays, as contents of the call's output. -/
def gathAt (q : Fin 2) (d : Dev nD) : Buf (Elt F) (outLoc q d) := match q with
  | 0 => gath 0 (m (tabLoc d)) (m (hLoc d)) (m (pLoc d)) (m (nLoc d))
  | 1 => gath 1 (m (tabLoc d)) (m (hLoc d)) (m (pLoc d)) (m (nLoc d))

theorem gathAt_zero (d : Dev nD) : gathAt m 0 d = gath 0 (m (tabLoc d)) (m (hLoc d)) (m (pLoc d)) (m (nLoc d)) := rfl
theorem gathAt_one (d : Dev nD) : gathAt m 1 d = gath 1 (m (tabLoc d)) (m (hLoc d)) (m (pLoc d)) (m (nLoc d)) := rfl

/-! ## The output array cut into 192 blocks of 128 rows -/

theorem odiv : 192 ∣ S24576x128.size 0 := ⟨128, rfl⟩
/-- Block `j`: rows `[128 j, 128 j + 128)`. -/
abbrev blk (j : Fin 192) : Rect S24576x128 := Rect.part (s := S24576x128) (a₀ := 0) odiv j
abbrev blkSet (j : Fin 192) : Finset S24576x128.Idx := (blk j).set

/-- The number of the block that subcore `s` of SparseCore `c` writes from its `k`-th gather. -/
def blkIx (c : Fin 2) (s : Fin 16) (k : Fin 6) : Fin 192 := ⟨64 * (k.val / 2) + 4 * s.val + 2 * c.val + k.val % 2, by omega⟩

/-- Every block is exactly one subcore's, from exactly one of its gathers. -/
def blkEquiv : Fin 2 × Fin 16 × Fin 6 ≃ Fin 192 where
  toFun t := blkIx t.1 t.2.1 t.2.2
  invFun j := (⟨j.val % 4 / 2, by omega⟩, ⟨j.val % 64 / 4, by omega⟩, ⟨2 * (j.val / 64) + j.val % 2, by omega⟩)
  left_inv t := by
    obtain ⟨c, s, k⟩ := t
    refine Prod.ext (Fin.ext ?_) (Prod.ext (Fin.ext ?_) (Fin.ext ?_)) <;> simp only [blkIx] <;> omega
  right_inv j := by
    refine Fin.ext ?_; simp only [blkIx]; omega

theorem blkSet_disjoint {j j' : Fin 192} (h : j ≠ j') : Disjoint (blkSet j) (blkSet j') := Rect.part_disjoint odiv h
theorem blkSet_cover : (Finset.univ : Finset (Fin 192)).biUnion blkSet = Finset.univ := Rect.biUnion_part odiv

/-! ## Shares: the full share halved once per SparseCore, then four times per subcore -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- SparseCore `c`'s share of a read-only array, and subcore `s`'s share of that. -/
abbrev cq (c : Fin 2) : PosShare TreeShare := leaf 1 fullShare c
abbrev tq (c : Fin 2) (s : Fin 16) : PosShare TreeShare := leaf 4 (cq c) s

/-! ## What the handshakes carry -/

/-- The three index arrays and the table at share `sh` and the launch contents, and `R` beside them. -/
abbrev roPts (d : Dev nD) (sh : PosShare TreeShare) (R : sProp 𝕄) : sProp 𝕄 :=
  iprop((hLoc d ↦{sh} m (hLoc d)) ∗ (pLoc d ↦{sh} m (pLoc d)) ∗ (nLoc d ↦{sh} m (nLoc d)) ∗ (tabLoc d ↦{sh} m (tabLoc d)) ∗ R)

/-- The six blocks a subcore writes, of an array at `ℓ` cut into blocks `B`, at contents `f`. -/
abbrev oTile (ℓ : Loc nD τ sig) (B : Fin 192 → Finset (Idx ℓ)) (f : Buf (Elt F) ℓ) (c : Fin 2) (s : Fin 16) : sProp 𝕄 :=
  bigSep Finset.univ fun k : Fin 6 => ℓ ↦[B (blkIx c s k)]{fullShare} f
/-- The blocks a SparseCore's sixteen subcores write. -/
abbrev oCore (ℓ : Loc nD τ sig) (B : Fin 192 → Finset (Idx ℓ)) (f : Buf (Elt F) ℓ) (c : Fin 2) : sProp 𝕄 :=
  bigSep Finset.univ fun s : Fin 16 => oTile (F := F) (UU := UU) ℓ B f c s

/-- What one SparseCore is handed of a call whose output array is at `ℓ`, at contents `f`; what one subcore is. -/
abbrev stOf (ℓ : Loc nD τ sig) (B : Fin 192 → Finset (Idx ℓ)) (f : Buf (Elt F) ℓ) (d : Dev nD) (c : Fin 2) : sProp 𝕄 :=
  roPts m d (cq c) (oCore (F := F) (UU := UU) ℓ B f c)
abbrev goOf (ℓ : Loc nD τ sig) (B : Fin 192 → Finset (Idx ℓ)) (f : Buf (Elt F) ℓ) (d : Dev nD) (c : Fin 2) (s : Fin 16) : sProp 𝕄 :=
  roPts m d (tq c s) (oTile (F := F) (UU := UU) ℓ B f c s)

/-- The whole operands of a call whose output array is at `ℓ`, at contents `f`. -/
abbrev allPts (ℓ : Loc nD τ sig) (f : Buf (Elt F) ℓ) (d : Dev nD) : sProp 𝕄 :=
  roPts m d fullShare (ℓ ↦{fullShare} f)

/-- Each call takes the three index arrays and the table (read-only, as shares) and its output array whole, at the
    launch contents, and brings them back, the output at the gathered array. -/
def P : (K (F := F)).Pay (nD := nD) (Val := Elt F) (Name := ℕ) (U := UU) where
  st := fun q d c => match q with
    | 0 => stOf m (outLoc 0 d) blkSet (m (outLoc 0 d)) d (Fin.cast (nCore_eq 0) c)
    | 1 => stOf m (outLoc 1 d) blkSet (m (outLoc 1 d)) d (Fin.cast (nCore_eq 1) c)
  dn := fun q d c => match q with
    | 0 => stOf m (outLoc 0 d) blkSet (gathAt m 0 d) d (Fin.cast (nCore_eq 0) c)
    | 1 => stOf m (outLoc 1 d) blkSet (gathAt m 1 d) d (Fin.cast (nCore_eq 1) c)
  go := fun q d c i => match q with
    | 0 => goOf m (outLoc 0 d) blkSet (m (outLoc 0 d)) d (Fin.cast (nCore_eq 0) c) (Fin.cast (nSub_eq 0) i)
    | 1 => goOf m (outLoc 1 d) blkSet (m (outLoc 1 d)) d (Fin.cast (nCore_eq 1) c) (Fin.cast (nSub_eq 1) i)
  td := fun q d c i => match q with
    | 0 => goOf m (outLoc 0 d) blkSet (gathAt m 0 d) d (Fin.cast (nCore_eq 0) c) (Fin.cast (nSub_eq 0) i)
    | 1 => goOf m (outLoc 1 d) blkSet (gathAt m 1 d) d (Fin.cast (nCore_eq 1) c) (Fin.cast (nSub_eq 1) i)
  x := fun _ _ => iprop(emp)

instance P_storable : (P (F := F) (UU := UU) m).IsStorable where
  st q d c := match q with
    | 0 => (inferInstance : BI.Storable (upEmb : UEmb _ 𝕄) (stOf m (outLoc 0 d) blkSet (m (outLoc 0 d)) d (Fin.cast (nCore_eq 0) c)))
    | 1 => (inferInstance : BI.Storable (upEmb : UEmb _ 𝕄) (stOf m (outLoc 1 d) blkSet (m (outLoc 1 d)) d (Fin.cast (nCore_eq 1) c)))
  dn q d c := match q with
    | 0 => (inferInstance : BI.Storable (upEmb : UEmb _ 𝕄) (stOf m (outLoc 0 d) blkSet (gathAt m 0 d) d (Fin.cast (nCore_eq 0) c)))
    | 1 => (inferInstance : BI.Storable (upEmb : UEmb _ 𝕄) (stOf m (outLoc 1 d) blkSet (gathAt m 1 d) d (Fin.cast (nCore_eq 1) c)))
  go q d c i := match q with
    | 0 => (inferInstance : BI.Storable (upEmb : UEmb _ 𝕄) (goOf m (outLoc 0 d) blkSet (m (outLoc 0 d)) d (Fin.cast (nCore_eq 0) c) (Fin.cast (nSub_eq 0) i)))
    | 1 => (inferInstance : BI.Storable (upEmb : UEmb _ 𝕄) (goOf m (outLoc 1 d) blkSet (m (outLoc 1 d)) d (Fin.cast (nCore_eq 1) c) (Fin.cast (nSub_eq 1) i)))
  td q d c i := match q with
    | 0 => (inferInstance : BI.Storable (upEmb : UEmb _ 𝕄) (goOf m (outLoc 0 d) blkSet (gathAt m 0 d) d (Fin.cast (nCore_eq 0) c) (Fin.cast (nSub_eq 0) i)))
    | 1 => (inferInstance : BI.Storable (upEmb : UEmb _ 𝕄) (goOf m (outLoc 1 d) blkSet (gathAt m 1 d) d (Fin.cast (nCore_eq 1) c) (Fin.cast (nSub_eq 1) i)))

/-! ## The fields as equations -/

theorem P_st0 (d : Dev nD) (c : Fin ((K (F := F)).nCore 0)) :
    (P (F := F) (UU := UU) m).st 0 d c = stOf m (outLoc 0 d) blkSet (m (outLoc 0 d)) d (Fin.cast (nCore_eq 0) c) := rfl
theorem P_st1 (d : Dev nD) (c : Fin ((K (F := F)).nCore 1)) :
    (P (F := F) (UU := UU) m).st 1 d c = stOf m (outLoc 1 d) blkSet (m (outLoc 1 d)) d (Fin.cast (nCore_eq 1) c) := rfl
theorem P_dn0 (d : Dev nD) (c : Fin ((K (F := F)).nCore 0)) :
    (P (F := F) (UU := UU) m).dn 0 d c = stOf m (outLoc 0 d) blkSet (gathAt m 0 d) d (Fin.cast (nCore_eq 0) c) := rfl
theorem P_dn1 (d : Dev nD) (c : Fin ((K (F := F)).nCore 1)) :
    (P (F := F) (UU := UU) m).dn 1 d c = stOf m (outLoc 1 d) blkSet (gathAt m 1 d) d (Fin.cast (nCore_eq 1) c) := rfl
theorem P_go0 (d : Dev nD) (c : Fin ((K (F := F)).nCore 0)) (i : Fin ((K (F := F)).nSub 0)) :
    (P (F := F) (UU := UU) m).go 0 d c i = goOf m (outLoc 0 d) blkSet (m (outLoc 0 d)) d (Fin.cast (nCore_eq 0) c) (Fin.cast (nSub_eq 0) i) := rfl
theorem P_go1 (d : Dev nD) (c : Fin ((K (F := F)).nCore 1)) (i : Fin ((K (F := F)).nSub 1)) :
    (P (F := F) (UU := UU) m).go 1 d c i = goOf m (outLoc 1 d) blkSet (m (outLoc 1 d)) d (Fin.cast (nCore_eq 1) c) (Fin.cast (nSub_eq 1) i) := rfl
theorem P_td0 (d : Dev nD) (c : Fin ((K (F := F)).nCore 0)) (i : Fin ((K (F := F)).nSub 0)) :
    (P (F := F) (UU := UU) m).td 0 d c i = goOf m (outLoc 0 d) blkSet (gathAt m 0 d) d (Fin.cast (nCore_eq 0) c) (Fin.cast (nSub_eq 0) i) := rfl
theorem P_td1 (d : Dev nD) (c : Fin ((K (F := F)).nCore 1)) (i : Fin ((K (F := F)).nSub 1)) :
    (P (F := F) (UU := UU) m).td 1 d c i = goOf m (outLoc 1 d) blkSet (gathAt m 1 d) d (Fin.cast (nCore_eq 1) c) (Fin.cast (nSub_eq 1) i) := rfl

/-! ## The pieces join -/

/-- A share is its two halves, one per SparseCore; a SparseCore's is its sixteen subcores'. -/
theorem pts_cores {ℓ : Loc nD τ sig} (f : Buf (Elt F) ℓ) (q : PosShare TreeShare) :
    (ℓ ↦{q} f : sProp 𝕄) = bigSep Finset.univ fun c : Fin 2 => ℓ ↦{leaf 1 q c} f := pointsTo_leaves Finset.univ f 1 q
theorem pts_subs {ℓ : Loc nD τ sig} (f : Buf (Elt F) ℓ) (q : PosShare TreeShare) :
    (ℓ ↦{q} f : sProp 𝕄) = bigSep Finset.univ fun s : Fin 16 => ℓ ↦{leaf 4 q s} f := pointsTo_leaves Finset.univ f 4 q

/-- An array cut into the 192 blocks is the SparseCores' parts, each the subcores', each the six blocks. -/
theorem pts_blocks {ℓ : Loc nD τ sig} (B : Fin 192 → Finset (Idx ℓ)) (hd : ∀ j j', j ≠ j' → Disjoint (B j) (B j'))
    (hc : (Finset.univ : Finset (Fin 192)).biUnion B = Finset.univ) (f : Buf (Elt F) ℓ) :
    (ℓ ↦{fullShare} f : sProp 𝕄) = bigSep Finset.univ fun c : Fin 2 => oCore (F := F) (UU := UU) ℓ B f c := by
  have e : (ℓ ↦{fullShare} f : sProp 𝕄) = bigSep Finset.univ fun j : Fin 192 => ℓ ↦[B j]{fullShare} f := by
    rw [← pointsTo_biUnion Finset.univ (ℓ := ℓ) B (fun j _ j' _ h => hd j j' h), hc]; try rfl
  rw [e, bigSep_univ_equiv blkEquiv (fun j => (ℓ ↦[B j]{fullShare} f : sProp 𝕄)), bigSep_univ_prod]
  refine bigSep_congr fun c _ => ?_
  rw [bigSep_univ_prod]
  rfl

theorem core_join (ℓ : Loc nD τ sig) (B : Fin 192 → Finset (Idx ℓ)) (hd : ∀ j j', j ≠ j' → Disjoint (B j) (B j'))
    (hc : (Finset.univ : Finset (Fin 192)).biUnion B = Finset.univ) (f : Buf (Elt F) ℓ) (d : Dev nD) :
    (bigSep Finset.univ fun c : Fin 2 => stOf (F := F) (UU := UU) m ℓ B f d c) = allPts m ℓ f d := by
  show (bigSep Finset.univ fun c : Fin 2 => iprop((hLoc d ↦{leaf 1 fullShare c} m (hLoc d)) ∗ (pLoc d ↦{leaf 1 fullShare c} m (pLoc d))
      ∗ (nLoc d ↦{leaf 1 fullShare c} m (nLoc d)) ∗ (tabLoc d ↦{leaf 1 fullShare c} m (tabLoc d)) ∗ oCore (F := F) (UU := UU) ℓ B f c)) = _
  rw [bigSep_sep', bigSep_sep', bigSep_sep', bigSep_sep', ← pts_cores (m (hLoc d)) fullShare, ← pts_cores (m (pLoc d)) fullShare,
    ← pts_cores (m (nLoc d)) fullShare, ← pts_cores (m (tabLoc d)) fullShare, ← pts_blocks B hd hc f]

theorem tile_join (ℓ : Loc nD τ sig) (B : Fin 192 → Finset (Idx ℓ)) (f : Buf (Elt F) ℓ) (d : Dev nD) (c : Fin 2) :
    (bigSep Finset.univ fun s : Fin 16 => goOf (F := F) (UU := UU) m ℓ B f d c s) = stOf m ℓ B f d c := by
  show (bigSep Finset.univ fun s : Fin 16 => iprop((hLoc d ↦{leaf 4 (cq c) s} m (hLoc d)) ∗ (pLoc d ↦{leaf 4 (cq c) s} m (pLoc d))
      ∗ (nLoc d ↦{leaf 4 (cq c) s} m (nLoc d)) ∗ (tabLoc d ↦{leaf 4 (cq c) s} m (tabLoc d)) ∗ oTile (F := F) (UU := UU) ℓ B f c s)) = _
  rw [bigSep_sep', bigSep_sep', bigSep_sep', bigSep_sep', ← pts_subs (m (hLoc d)) (cq c), ← pts_subs (m (pLoc d)) (cq c),
    ← pts_subs (m (nLoc d)) (cq c), ← pts_subs (m (tabLoc d)) (cq c)]

theorem bigSep_cores0 (Φ : Fin 2 → sProp 𝕄) :
    (bigSep Finset.univ fun c : Fin ((K (F := F)).nCore 0) => Φ (Fin.cast (nCore_eq 0) c)) = bigSep Finset.univ Φ :=
  bigSep_congr fun _ _ => congrArg Φ (Fin.ext rfl)
theorem bigSep_cores1 (Φ : Fin 2 → sProp 𝕄) :
    (bigSep Finset.univ fun c : Fin ((K (F := F)).nCore 1) => Φ (Fin.cast (nCore_eq 1) c)) = bigSep Finset.univ Φ :=
  bigSep_congr fun _ _ => congrArg Φ (Fin.ext rfl)
theorem bigSep_subs0 (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)
theorem bigSep_subs1 (Φ : Fin 16 → sProp 𝕄) :
    (bigSep Finset.univ fun i : Fin ((K (F := F)).nSub 1) => Φ (Fin.cast (nSub_eq 1) i)) = bigSep Finset.univ Φ :=
  bigSep_congr fun _ _ => congrArg Φ (Fin.ext rfl)

/-- What @main hands a call at its start: the SparseCores' parts are the whole operands at the launch contents. -/
theorem st_eq (q : Fin 2) (d : Dev nD) :
    (bigSep Finset.univ fun c : Fin ((K (F := F)).nCore q) => (P (F := F) (UU := UU) m).st q d c) = allPts m (outLoc q d) (m (outLoc q d)) d :=
  match q with
  | 0 => (bigSep_cores0 (fun c => stOf m (outLoc 0 d) blkSet (m (outLoc 0 d)) d c)).trans
      (core_join m (outLoc 0 d) blkSet (fun _ _ h => blkSet_disjoint h) blkSet_cover (m (outLoc 0 d)) d)
  | 1 => (bigSep_cores1 (fun c => stOf m (outLoc 1 d) blkSet (m (outLoc 1 d)) d c)).trans
      (core_join m (outLoc 1 d) blkSet (fun _ _ h => blkSet_disjoint h) blkSet_cover (m (outLoc 1 d)) d)

/-- What it gets back at the call's end: the whole operands, the output at the gathered array. -/
theorem dn_eq (q : Fin 2) (d : Dev nD) :
    (bigSep Finset.univ fun c : Fin ((K (F := F)).nCore q) => (P (F := F) (UU := UU) m).dn q d c) = allPts m (outLoc q d) (gathAt m q d) d :=
  match q with
  | 0 => (bigSep_cores0 (fun c => stOf m (outLoc 0 d) blkSet (gathAt m 0 d) d c)).trans
      (core_join m (outLoc 0 d) blkSet (fun _ _ h => blkSet_disjoint h) blkSet_cover (gathAt m 0 d) d)
  | 1 => (bigSep_cores1 (fun c => stOf m (outLoc 1 d) blkSet (gathAt m 1 d) d c)).trans
      (core_join m (outLoc 1 d) blkSet (fun _ _ h => blkSet_disjoint h) blkSet_cover (gathAt m 1 d) d)

end Cert.KernelIdeal.Sc

end
-- ==== Proof.Alg.lean ====
/-
  The ghost state of the kernel's launch. Three components side by side: the rounds of the four handshake semaphores
  between the TensorCore and the SparseCores (indexed by call), the rounds of the two TensorCore pipelines' staging
  semaphores, and the counters of the transfers in flight. The launch element funds the first for the launch theorem
  and the second for the two kernel regions @main enters after the calls; the third starts empty.
-/
import proofs.«211459_g87136296501727_cont_9to1_m_723_16_alg».proof.KernelIdeal
import proofs.«211459_g87136296501727_cont_9to1_m_723_16_alg».proof.Proof.Gen.KernelIdeal
import proofs.«211459_g87136296501727_cont_9to1_m_723_16_alg».proof.Proof.Gen.KernelIdeal.Launch
import Idealize.ShloMosaic.Lib.SparseCore.Launch
import Idealize.ShloMosaic.Lib.Pipeline.Kit
import Idealize.ShloMosaic.Lib.Pipeline.Regions
import Idealize.ShloMosaic.Lib.Transfers

noncomputable section

namespace Cert.KernelIdeal.Alg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The program's labels and configuration as the launch theorem sees them. -/
abbrev ΛP : Labels := Pipeline.Sig Λ₀ (Fin 2) fun p => (pcfgs (F := F) p).Adm
abbrev K : SparseCore.Cfg τ sig (ΛP (F := F)) 2 := sc (F := F)

/-- The handshakes' rounds, the pipelines' rounds, the transfers' counters. -/
abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
/-- The pipelines' rounds sit in the middle component. -/
abbrev EP : Emb UP (MT nD τ sig (HIx 2) (Elt F) ℕ UU ℕ) := (Emb.inl : Emb UP (UP × Counters)).trans embR

instance EP_landsIn : (EP (F := F)).LandsIn (upEmb : UEmb _ (MT nD τ sig (HIx 2) (Elt F) ℕ UU ℕ)) := by
  infer_instance

/-- Neither pipeline prefetches a table: the one admissible contents. -/
abbrev adm : (p : Fin 2) → (pcfgs (F := F) p).Adm := fun p => Pipeline.Cfg.toPCfg_adm (cfgs p)

/-- The launch element: both rounds components at their launch states, no transfer in flight. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What @main's proof starts from on device `d`: the two pipelines' rounds state and duty tokens. -/
abbrev G (d : Dev nD) : sProp 𝕄 :=
  bigSep Finset.univ fun p : Fin 2 => iprop(Pipeline.cellsGhost cfgs (EP (F := F)) p d ∗ Pipeline.toksInit cfgs (EP (F := F)) p d)

theorem bigSep_emp' {I : Type} (s : Finset I) : (bigSep s fun _ => iprop(emp)) = (iprop(emp) : sProp 𝕄) := bigSep_emp_const s

/-- The launch element deals the handshakes their rounds and each device its pipelines' rounds; no kernel's proof is
    dealt anything. -/
theorem hu₀ (P : (K (F := F)).Pay (nD := nD) (Val := Elt F) (Name := ℕ) (U := UU)) (hx : ∀ q thr, P.x q thr = iprop(emp)) :
    (ownU (u₀ (F := F)) : sProp 𝕄)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 2 => P.x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), (1 : Counters)))) $$ Hu
  icases H with ⟨HH, HR⟩
  ihave H2 := (own_pair_emb (embR : Emb (UP × Counters) (MT nD τ sig (HIx 2) (Elt F) ℕ UU ℕ))
    (initOf (Pipeline.cells (nD := nD) (τ := τ) cfgs cellOf_inj) (Pipeline.launchToks (nD := nD) (τ := τ) cfgs cellOf_inj)) (1 : Counters)) $$ HR
  icases H2 with ⟨HP, -⟩
  imod (Pipeline.fund_ghost (nD := nD) (τ := τ) cfgs (EP (F := F)) cellOf_inj) $$ HP with ⟨Hg, Ht⟩
  imodintro
  isplitl [HH]; · iexact HH
  isplitl [Hg Ht]
  · unfold G
    rw [show (bigSep Finset.univ fun d : Dev nD => bigSep Finset.univ fun p : Fin 2 =>
          iprop(Pipeline.cellsGhost cfgs (EP (F := F)) p d ∗ Pipeline.toksInit cfgs (EP (F := F)) p d))
        = iprop((bigSep Finset.univ fun d : Dev nD => bigSep Finset.univ fun p : Fin 2 => Pipeline.cellsGhost cfgs (EP (F := F)) p d)
          ∗ (bigSep Finset.univ fun d : Dev nD => bigSep Finset.univ fun p : Fin 2 => (Pipeline.toksInit cfgs (EP (F := F)) p d : sProp 𝕄))) from by
      rw [← bigSep_sep']; exact bigSep_congr fun d _ => bigSep_sep' _ _ _]
    isplitl [Hg] <;> iassumption
  · rw [show (bigSep Finset.univ fun thr : Thread nD τ => bigSep Finset.univ fun q : Fin 2 => P.x q thr) = bigSep Finset.univ fun _ : Thread nD τ => (iprop(emp) : sProp 𝕄) from
      bigSep_congr fun thr _ => (bigSep_congr fun q _ => hx q thr).trans (bigSep_emp' _), bigSep_emp']
    iempintro

end Cert.KernelIdeal.Alg

end
-- ==== Proof.MainShape.lean ====
/-
  The kernel's @main as four lines of host operations around its two SparseCore calls and its two TensorCore kernel
  regions: the glue before the first call (the projection matrices transposed and flattened to one 128 x 1024 matrix,
  the 1024 x 64 selector of the column number modulo 64 — its remainder function opened at the call —, the relation
  numbers as a column), one reshape after each call (the gathered rows as three slabs), and after the two regions the
  sum of their two results, reshaped to a scalar.
-/
import proofs.«211459_g87136296501727_cont_9to1_m_723_16_alg».proof.KernelIdeal
import Idealize.ShloMosaic.Lib.StableHlo.Run

noncomputable section

namespace Cert.KernelIdeal.MainShape

open Idealize.ShloMosaic Idealize.SL.Sem Idealize.ShloMosaic.StableHlo Cert.KernelIdeal

variable {F : FTy → Type} [FloatOps F] [Cert.KernelIdeal.Facts]
open Cert.KernelIdeal.Facts₀ Cert.KernelIdeal.Facts

/-- The host operations before the first SparseCore call. -/
abbrev opsA : List (HloOp τ sig (Elt F)) :=
  [ unary main_arg2 main_v0 (transpose S128x16x64 [1, 0, 2] · transposes_S16x128x64_S128x16x64_1_0_2),
    reshape main_v0 main_v1 rfl shapeCasts_S128x16x64_S128x1024,
    nullary main_v2 (iotaInDim S1024 32 0),
    unary main_v2 main_v3 (broadcastInDim S1024x1 ![0] bcast_S1024_S1024x1_0),
    nullary main_c (constantI S_ 32 64#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S1024x1 ![] bcast_S_S1024x1),
    TRef.binary (.of main_v3) main_call0.v3 main_call0.v4 Host.remsi,
    TRef.nullary main_call0.c_1 (constantI S_ 32 0#32),
    TRef.unary main_call0.c_1 main_call0.v5 (broadcastInDim S1024x1 ![] bcast_S_S1024x1),
    TRef.binary main_call0.v4 main_call0.v5 main_call0.v6 (cmpi .ne),
    TRef.nullary main_call0.c_2 (constantI S_ 32 0#32),
    TRef.unary main_call0.c_2 main_call0.v7 (broadcastInDim S1024x1 ![] bcast_S_S1024x1),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S1024x1 ![] bcast_S_S1024x1),
    TRef.binary main_call0.v8 main_call0.v10 main_call0.v11 (cmpi .ne),
    TRef.binary main_call0.v11 main_call0.v6 main_call0.v12 andi,
    TRef.unary main_call0.call0.v0 main_call0.v13 (broadcastInDim S1024x1 ![] bcast_S_S1024x1),
    TRef.binary main_call0.v4 main_call0.v13 main_call0.v14 addi,
    TRef.ternary main_call0.v12 main_call0.v14 main_call0.v4 main_call0.v15 select,
    nullary main_v5 (iotaInDim S64 32 0),
    unary main_v5 main_v6 (broadcastInDim S1x64 ![1] bcast_S64_S1x64_1),
    unary main_v4 main_v7 (broadcastInDim S1024x64 ![0, 1] bcast_S1024x1_S1024x64_0_1),
    unary main_v6 main_v8 (broadcastInDim S1024x64 ![0, 1] bcast_S1x64_S1024x64_0_1),
    binary main_v7 main_v8 main_v9 (cmpi .eq),
    unary main_v9 main_v10 (uitofp .bf16),
    reshape main_arg4 main_v11 rfl shapeCasts_S16384_S16384x1 ]

/-- The reshape of the first call's rows into three slabs. -/
abbrev opsB : List (HloOp τ sig (Elt F)) := [ reshape main_v12 main_v13 rfl shapeCasts_S24576x128_S3x8192x128 ]
/-- The reshape of the second call's rows. -/
abbrev opsC : List (HloOp τ sig (Elt F)) := [ reshape main_v14 main_v15 rfl shapeCasts_S24576x128_S3x8192x128 ]
/-- The two regions' results added, and reshaped to a scalar. -/
abbrev opsD : List (HloOp τ sig (Elt F)) :=
  [ binary main_v16 main_v17 main_v18 addf, reshape main_v18 main_v19 rfl shapeCasts_S1x1_S_ ]

set_option maxRecDepth 4096 in
/-- @main is those four lines around the two calls and the two regions. -/
theorem main_eq (d : Dev nD) :
    main (F := F) d = (do
      seq (opsA (F := F))
      sc.run d 0
      seq (opsB (F := F))
      sc.run d 1
      seq (opsC (F := F))
      Prog.lift (.customCall (SparseCore.inner (Pipeline.entry 0)) ())
      Prog.lift (.customCall (SparseCore.inner (Pipeline.entry 1)) ())
      seq (opsD (F := F))) := by
  simp only [main, fn_remainder.body, fn_where.body, seq, bind_assoc, pure_bind]
  rfl

end Cert.KernelIdeal.MainShape

end
-- ==== Proof.HostVals.lean ====
/-
  What the host lines of the kernel's @main leave in the buffers the calls and regions read, as equations on the
  valuation: the glue before the first call writes the flattened projection matrices, the column selector and the
  relation column, and touches neither an argument array nor a call's or region's output; each later line writes only
  its own results.
-/
import proofs.«211459_g87136296501727_cont_9to1_m_723_16_alg».proof.Proof.MainShape

noncomputable section

namespace Cert.KernelIdeal.MainShape

open Idealize.ShloMosaic Idealize.ShloMosaic.TcCoe Idealize.SL.Sem Idealize.ShloMosaic.StableHlo Cert.KernelIdeal

variable {F : FTy → Type} [FloatOps F] [Cert.KernelIdeal.Facts]
open Cert.KernelIdeal.Facts₀ Cert.KernelIdeal.Facts

/-- The projection matrices transposed to [128, 16, 64] and flattened to [128, 1024]. -/
def wallOf (w : (⟨S16x128x64, .f32⟩ : BufTy).Contents (Elt F)) : (⟨S128x1024, .f32⟩ : BufTy).Contents (Elt F) :=
  shapeCast S128x1024 (transpose S128x16x64 [1, 0, 2] w transposes_S16x128x64_S128x16x64_1_0_2) shapeCasts_S128x16x64_S128x1024

set_option maxRecDepth 8192 in
theorem opsA_v1 (V : Valuation τ sig (Elt F)) :
    after (opsA (F := F)) V (main_v1 : DevRef τ sig) = wallOf (F := F) (V (main_arg2 : DevRef τ sig)) := by
  simp only [after_cons, after_nil]
  rfl

set_option maxRecDepth 8192 in
theorem opsA_v11 (V : Valuation τ sig (Elt F)) :
    after (opsA (F := F)) V (main_v11 : DevRef τ sig) = shapeCast S16384x1 (V (main_arg4 : DevRef τ sig)) shapeCasts_S16384_S16384x1 := by
  simp only [after_cons, after_nil]
  rfl

set_option maxRecDepth 8192 in
theorem opsA_arg0 (V : Valuation τ sig (Elt F)) : after (opsA (F := F)) V (main_arg0 : DevRef τ sig) = V (main_arg0 : DevRef τ sig) := by
  simp only [after_cons, after_nil]; rfl
set_option maxRecDepth 8192 in
theorem opsA_arg1 (V : Valuation τ sig (Elt F)) : after (opsA (F := F)) V (main_arg1 : DevRef τ sig) = V (main_arg1 : DevRef τ sig) := by
  simp only [after_cons, after_nil]; rfl
set_option maxRecDepth 8192 in
theorem opsA_arg3 (V : Valuation τ sig (Elt F)) : after (opsA (F := F)) V (main_arg3 : DevRef τ sig) = V (main_arg3 : DevRef τ sig) := by
  simp only [after_cons, after_nil]; rfl
set_option maxRecDepth 8192 in
theorem opsA_arg5 (V : Valuation τ sig (Elt F)) : after (opsA (F := F)) V (main_arg5 : DevRef τ sig) = V (main_arg5 : DevRef τ sig) := by
  simp only [after_cons, after_nil]; rfl
set_option maxRecDepth 8192 in
theorem opsA_arg6 (V : Valuation τ sig (Elt F)) : after (opsA (F := F)) V (main_arg6 : DevRef τ sig) = V (main_arg6 : DevRef τ sig) := by
  simp only [after_cons, after_nil]; rfl
set_option maxRecDepth 8192 in
theorem opsA_v12 (V : Valuation τ sig (Elt F)) : after (opsA (F := F)) V (main_v12 : DevRef τ sig) = V (main_v12 : DevRef τ sig) := by
  simp only [after_cons, after_nil]; rfl

theorem opsB_v13 (V : Valuation τ sig (Elt F)) :
    after (opsB (F := F)) V (main_v13 : DevRef τ sig) = shapeCast S3x8192x128 (V (main_v12 : DevRef τ sig)) shapeCasts_S24576x128_S3x8192x128 := by
  simp only [after_cons, after_nil]; rfl
theorem opsC_v15 (V : Valuation τ sig (Elt F)) :
    after (opsC (F := F)) V (main_v15 : DevRef τ sig) = shapeCast S3x8192x128 (V (main_v14 : DevRef τ sig)) shapeCasts_S24576x128_S3x8192x128 := by
  simp only [after_cons, after_nil]; rfl
theorem opsD_v19 (V : Valuation τ sig (Elt F)) :
    after (opsD (F := F)) V (main_v19 : DevRef τ sig)
      = shapeCast S_ (addf (V (main_v16 : DevRef τ sig)) (V (main_v17 : DevRef τ sig))) shapeCasts_S1x1_S_ := by
  simp only [after_cons, after_nil]; rfl

end Cert.KernelIdeal.MainShape

end
-- ==== Proof.HostVals2.lean ====
/-
  More of what the host lines leave: the 1024 x 64 column selector the glue before the first call computes (its term:
  column number modulo 64, by the opened remainder function, compared with the lane number, as 0 or 1), and the buffers
  each line does not write.
-/
import proofs.«211459_g87136296501727_cont_9to1_m_723_16_alg».proof.Proof.HostVals

noncomputable section

namespace Cert.KernelIdeal.MainShape

open Idealize.ShloMosaic Idealize.ShloMosaic.TcCoe Idealize.SL.Sem Idealize.ShloMosaic.StableHlo Cert.KernelIdeal

variable {F : FTy → Type} [FloatOps F] [Cert.KernelIdeal.Facts]
open Cert.KernelIdeal.Facts₀ Cert.KernelIdeal.Facts

/-- The column number modulo 64 as the host's remainder function computes it (the sign fix-up of a floor remainder
    around the truncating one), over a 1024 x 1 column of column numbers. -/
def colMod : (⟨S1024x1, .i32⟩ : BufTy).Contents (Elt F) :=
  let col : IVec S1024x1 32 := broadcastInDim S1024x1 ![0] bcast_S1024_S1024x1_0 (iotaInDim S1024 32 0)
  let c64 : IVec S_ 32 := constantI S_ 32 64#32
  let dv : IVec S_ 32 := select (cmpi .eq c64 (constantI S_ 32 0#32)) (constantI S_ 32 1#32) c64
  let r : IVec S1024x1 32 := Host.remsi col (broadcastInDim S1024x1 ![] bcast_S_S1024x1 dv)
  let nz : IVec S1024x1 1 := cmpi .ne r (broadcastInDim S1024x1 ![] bcast_S_S1024x1 (constantI S_ 32 0#32))
  let neg : IVec S1024x1 1 := cmpi .slt r (broadcastInDim S1024x1 ![] bcast_S_S1024x1 (constantI S_ 32 0#32))
  let dneg : IVec S1024x1 1 := broadcastInDim S1024x1 ![] bcast_S_S1024x1 (cmpi .slt dv (constantI S_ 32 0#32))
  select (andi (cmpi .ne neg dneg) nz) (addi r (broadcastInDim S1024x1 ![] bcast_S_S1024x1 dv)) r

/-- The column selector: 1 where the column number modulo 64 is the lane number, else 0. -/
def gselOf : (⟨S1024x64, .bf16⟩ : BufTy).Contents (Elt F) :=
  uitofp .bf16 (cmpi .eq (broadcastInDim S1024x64 ![0, 1] bcast_S1024x1_S1024x64_0_1 (colMod (F := F)))
    (broadcastInDim S1024x64 ![0, 1] bcast_S1x64_S1024x64_0_1 (broadcastInDim S1x64 ![1] bcast_S64_S1x64_1 (iotaInDim S64 32 0))))

set_option maxRecDepth 8192 in
set_option maxHeartbeats 4000000 in
theorem opsA_v10 (V : Valuation τ sig (Elt F)) : after (opsA (F := F)) V (main_v10 : DevRef τ sig) = gselOf (F := F) := by
  after_results_simp
  rfl

set_option maxRecDepth 8192 in
theorem opsA_keep_arg2 (V : Valuation τ sig (Elt F)) : after (opsA (F := F)) V (main_arg2 : DevRef τ sig) = V (main_arg2 : DevRef τ sig) := by
  simp only [after_cons, after_nil]; rfl
set_option maxRecDepth 8192 in
theorem opsA_keep_arg4 (V : Valuation τ sig (Elt F)) : after (opsA (F := F)) V (main_arg4 : DevRef τ sig) = V (main_arg4 : DevRef τ sig) := by
  simp only [after_cons, after_nil]; rfl
set_option maxRecDepth 8192 in
theorem opsA_keep_v14 (V : Valuation τ sig (Elt F)) : after (opsA (F := F)) V (main_v14 : DevRef τ sig) = V (main_v14 : DevRef τ sig) := by
  simp only [after_cons, after_nil]; rfl
set_option maxRecDepth 8192 in
theorem opsA_keep_v16 (V : Valuation τ sig (Elt F)) : after (opsA (F := F)) V (main_v16 : DevRef τ sig) = V (main_v16 : DevRef τ sig) := by
  simp only [after_cons, after_nil]; rfl
set_option maxRecDepth 8192 in
theorem opsA_keep_v17 (V : Valuation τ sig (Elt F)) : after (opsA (F := F)) V (main_v17 : DevRef τ sig) = V (main_v17 : DevRef τ sig) := by
  simp only [after_cons, after_nil]; rfl
theorem opsB_keep_arg0 (V : Valuation τ sig (Elt F)) : after (opsB (F := F)) V (main_arg0 : DevRef τ sig) = V (main_arg0 : DevRef τ sig) := by
  simp only [after_cons, after_nil]; rfl
theorem opsB_keep_arg1 (V : Valuation τ sig (Elt F)) : after (opsB (F := F)) V (main_arg1 : DevRef τ sig) = V (main_arg1 : DevRef τ sig) := by
  simp only [after_cons, after_nil]; rfl
theorem opsB_keep_arg2 (V : Valuation τ sig (Elt F)) : after (opsB (F := F)) V (main_arg2 : DevRef τ sig) = V (main_arg2 : DevRef τ sig) := by
  simp only [after_cons, after_nil]; rfl
theorem opsB_keep_arg3 (V : Valuation τ sig (Elt F)) : after (opsB (F := F)) V (main_arg3 : DevRef τ sig) = V (main_arg3 : DevRef τ sig) := by
  simp only [after_cons, after_nil]; rfl
theorem opsB_keep_arg4 (V : Valuation τ sig (Elt F)) : after (opsB (F := F)) V (main_arg4 : DevRef τ sig) = V (main_arg4 : DevRef τ sig) := by
  simp only [after_cons, after_nil]; rfl
theorem opsB_keep_arg5 (V : Valuation τ sig (Elt F)) : after (opsB (F := F)) V (main_arg5 : DevRef τ sig) = V (main_arg5 : DevRef τ sig) := by
  simp only [after_cons, after_nil]; rfl
theorem opsB_keep_arg6 (V : Valuation τ sig (Elt F)) : after (opsB (F := F)) V (main_arg6 : DevRef τ sig) = V (main_arg6 : DevRef τ sig) := by
  simp only [after_cons, after_nil]; rfl
theorem opsB_keep_v14 (V : Valuation τ sig (Elt F)) : after (opsB (F := F)) V (main_v14 : DevRef τ sig) = V (main_v14 : DevRef τ sig) := by
  simp only [after_cons, after_nil]; rfl
theorem opsB_keep_v16 (V : Valuation τ sig (Elt F)) : after (opsB (F := F)) V (main_v16 : DevRef τ sig) = V (main_v16 : DevRef τ sig) := by
  simp only [after_cons, after_nil]; rfl
theorem opsB_keep_v17 (V : Valuation τ sig (Elt F)) : after (opsB (F := F)) V (main_v17 : DevRef τ sig) = V (main_v17 : DevRef τ sig) := by
  simp only [after_cons, after_nil]; rfl
theorem opsB_keep_v1 (V : Valuation τ sig (Elt F)) : after (opsB (F := F)) V (main_v1 : DevRef τ sig) = V (main_v1 : DevRef τ sig) := by
  simp only [after_cons, after_nil]; rfl
theorem opsB_keep_v10 (V : Valuation τ sig (Elt F)) : after (opsB (F := F)) V (main_v10 : DevRef τ sig) = V (main_v10 : DevRef τ sig) := by
  simp only [after_cons, after_nil]; rfl
theorem opsB_keep_v11 (V : Valuation τ sig (Elt F)) : after (opsB (F := F)) V (main_v11 : DevRef τ sig) = V (main_v11 : DevRef τ sig) := by
  simp only [after_cons, after_nil]; rfl
theorem opsC_keep_arg0 (V : Valuation τ sig (Elt F)) : after (opsC (F := F)) V (main_arg0 : DevRef τ sig) = V (main_arg0 : DevRef τ sig) := by
  simp only [after_cons, after_nil]; rfl
theorem opsC_keep_arg1 (V : Valuation τ sig (Elt F)) : after (opsC (F := F)) V (main_arg1 : DevRef τ sig) = V (main_arg1 : DevRef τ sig) := by
  simp only [after_cons, after_nil]; rfl
theorem opsC_keep_arg2 (V : Valuation τ sig (Elt F)) : after (opsC (F := F)) V (main_arg2 : DevRef τ sig) = V (main_arg2 : DevRef τ sig) := by
  simp only [after_cons, after_nil]; rfl
theorem opsC_keep_arg3 (V : Valuation τ sig (Elt F)) : after (opsC (F := F)) V (main_arg3 : DevRef τ sig) = V (main_arg3 : DevRef τ sig) := by
  simp only [after_cons, after_nil]; rfl
theorem opsC_keep_arg4 (V : Valuation τ sig (Elt F)) : after (opsC (F := F)) V (main_arg4 : DevRef τ sig) = V (main_arg4 : DevRef τ sig) := by
  simp only [after_cons, after_nil]; rfl
theorem opsC_keep_arg5 (V : Valuation τ sig (Elt F)) : after (opsC (F := F)) V (main_arg5 : DevRef τ sig) = V (main_arg5 : DevRef τ sig) := by
  simp only [after_cons, after_nil]; rfl
theorem opsC_keep_arg6 (V : Valuation τ sig (Elt F)) : after (opsC (F := F)) V (main_arg6 : DevRef τ sig) = V (main_arg6 : DevRef τ sig) := by
  simp only [after_cons, after_nil]; rfl
theorem opsC_keep_v13 (V : Valuation τ sig (Elt F)) : after (opsC (F := F)) V (main_v13 : DevRef τ sig) = V (main_v13 : DevRef τ sig) := by
  simp only [after_cons, after_nil]; rfl
theorem opsC_keep_v16 (V : Valuation τ sig (Elt F)) : after (opsC (F := F)) V (main_v16 : DevRef τ sig) = V (main_v16 : DevRef τ sig) := by
  simp only [after_cons, after_nil]; rfl
theorem opsC_keep_v17 (V : Valuation τ sig (Elt F)) : after (opsC (F := F)) V (main_v17 : DevRef τ sig) = V (main_v17 : DevRef τ sig) := by
  simp only [after_cons, after_nil]; rfl
theorem opsC_keep_v1 (V : Valuation τ sig (Elt F)) : after (opsC (F := F)) V (main_v1 : DevRef τ sig) = V (main_v1 : DevRef τ sig) := by
  simp only [after_cons, after_nil]; rfl
theorem opsC_keep_v10 (V : Valuation τ sig (Elt F)) : after (opsC (F := F)) V (main_v10 : DevRef τ sig) = V (main_v10 : DevRef τ sig) := by
  simp only [after_cons, after_nil]; rfl
theorem opsC_keep_v11 (V : Valuation τ sig (Elt F)) : after (opsC (F := F)) V (main_v11 : DevRef τ sig) = V (main_v11 : DevRef τ sig) := by
  simp only [after_cons, after_nil]; rfl
theorem opsD_keep_arg0 (V : Valuation τ sig (Elt F)) : after (opsD (F := F)) V (main_arg0 : DevRef τ sig) = V (main_arg0 : DevRef τ sig) := by
  simp only [after_cons, after_nil]; rfl
theorem opsD_keep_arg1 (V : Valuation τ sig (Elt F)) : after (opsD (F := F)) V (main_arg1 : DevRef τ sig) = V (main_arg1 : DevRef τ sig) := by
  simp only [after_cons, after_nil]; rfl
theorem opsD_keep_arg2 (V : Valuation τ sig (Elt F)) : after (opsD (F := F)) V (main_arg2 : DevRef τ sig) = V (main_arg2 : DevRef τ sig) := by
  simp only [after_cons, after_nil]; rfl
theorem opsD_keep_arg3 (V : Valuation τ sig (Elt F)) : after (opsD (F := F)) V (main_arg3 : DevRef τ sig) = V (main_arg3 : DevRef τ sig) := by
  simp only [after_cons, after_nil]; rfl
theorem opsD_keep_arg4 (V : Valuation τ sig (Elt F)) : after (opsD (F := F)) V (main_arg4 : DevRef τ sig) = V (main_arg4 : DevRef τ sig) := by
  simp only [after_cons, after_nil]; rfl
theorem opsD_keep_arg5 (V : Valuation τ sig (Elt F)) : after (opsD (F := F)) V (main_arg5 : DevRef τ sig) = V (main_arg5 : DevRef τ sig) := by
  simp only [after_cons, after_nil]; rfl
theorem opsD_keep_arg6 (V : Valuation τ sig (Elt F)) : after (opsD (F := F)) V (main_arg6 : DevRef τ sig) = V (main_arg6 : DevRef τ sig) := by
  simp only [after_cons, after_nil]; rfl

end Cert.KernelIdeal.MainShape

end
-- ==== Proof.LaunchKit.lean ====
/-
  Two small facts about a set of a core's buffers held whole at a valuation: the set handed over in part and taken
  back at other contents is the set held at the valuation updated there; and against a final memory the held set says
  what that memory holds at each of its buffers.
-/
import Idealize.ShloMosaic.Lib.StableHlo.Run
import Idealize.ShloMosaic.Adequacy

noncomputable section

namespace Cert.LaunchKit

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]

/-- A big separating conjunction over a set with one more element, spelt as a conjunction. -/
theorem bigSep_insert' {M : Type} [URA M] {I : Type} [DecidableEq I] {s : Finset I} {i : I} (hi : i ∉ s) (Φ : I → sProp M) :
    bigSep (insert i s) Φ = iprop(Φ i ∗ bigSep s Φ) := BI.bigSep_insert hi

local notation "𝕄" => MT nD τ sig Ix Val Name U Lvl

/-- A held set split at a subset, the rest read at a valuation that agrees with the first off the subset. -/
theorem held_swap (c : Thread nD τ) {T S : Finset (DevRef τ sig)} (hT : T ⊆ S) (V V' : Valuation τ sig Val)
    (h : ∀ b ∈ S \ T, V' b = V b) :
    (held c S V' : sProp 𝕄) = iprop(held c T V' ∗ held c (S \ T) V) := by
  rw [held_sub_split c hT V', held_congr c h]

/-- A held set against the state interpretation: the memory holds the valuation at each buffer of the set. -/
theorem held_agree (c : Thread nD τ) (V : Valuation τ sig Val) (s' : Phys nD τ sig Val) :
    ∀ S : Finset (DevRef τ sig), iprop((held c S V : sProp 𝕄) ∗ SI s') ⊢ (⌜∀ b ∈ S, s'.mem.mem (c.1, b) = V b⌝ : sProp 𝕄) := by
  intro S
  induction S using Finset.induction_on with
  | empty => iintro -; ipureintro; intro b hb; exact absurd hb (Finset.notMem_empty b)
  | insert a S ha ih =>
    unfold held at ih ⊢
    rw [bigSep_insert' ha]
    iintro ⟨⟨Ha, HS⟩, HSI⟩
    ihave H := (persistent_entails_right (SI_pointsTo_agree (st := s') (ℓ := (c.1, a)) (I := Finset.univ) (q := fullShare) (f := V a))) $$ [HSI Ha]
    · isplitl [HSI] <;> iassumption
    icases H with ⟨%h1, HSI, -⟩
    ihave H2 := ih $$ [HS HSI]
    · isplitl [HS] <;> iassumption
    icases H2 with %h2
    ipureintro
    intro b hb
    rcases Finset.mem_insert.mp hb with rfl | hb
    · exact funext fun i => h1 i (Finset.mem_univ i)
    · exact h2 b hb

end Cert.LaunchKit

end
-- ==== Proof.KerLaunch.lean ====
/-
  The kernel's @main on the TensorCore, inside the launch of its two SparseCore calls: the steps it is made of. A line
  of host operations runs within the core's unscoped buffers held whole at a valuation. A SparseCore call takes the
  three index arrays, the entity table and its own output array out of that set, hands them to the two SparseCores, and
  takes them back with the output at the gathered rows.
-/
import proofs.«211459_g87136296501727_cont_9to1_m_723_16_alg».proof.Proof.ScSetup
import proofs.«211459_g87136296501727_cont_9to1_m_723_16_alg».proof.Proof.Alg
import proofs.«211459_g87136296501727_cont_9to1_m_723_16_alg».proof.Proof.HostVals2
import proofs.«211459_g87136296501727_cont_9to1_m_723_16_alg».proof.Proof.LaunchKit
import Idealize.ShloMosaic.Lib.Pipeline.Frame

noncomputable section

namespace Cert.KernelIdeal.KerLaunch

open Cert.KernelIdeal Cert.KernelIdeal.Gen Cert.KernelIdeal.MainShape Cert.LaunchKit
open Idealize.ShloMosaic Idealize.ShloMosaic.TcCoe
open Idealize.ShloMosaic.SparseCore (S V T)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ Alg.UU ℕ

abbrev K : SparseCore.Cfg τ sig (Sc.ΛP (F := F)) 2 := Sc.K (F := F)
abbrev D : Defs nD τ sig (Elt F) (Sc.ΛP (F := F)) := Sc.D (F := F)
abbrev EH : Emb Alg.UH (MT nD τ sig (HIx 2) (Elt F) ℕ Alg.UU ℕ) := Alg.EH (F := F)

variable (m : (ℓ : Loc nD τ sig) → Buf (Elt F) ℓ) (ρ : Dev nD → PrngReg)

/-- What the handshakes carry, at the launch's user algebra. -/
abbrev Pm : (K (F := F)).Pay (nD := nD) (Val := Elt F) (Name := ℕ) (U := Alg.UU) := Sc.P (F := F) (UU := Alg.UU) m

/-- The core's unscoped buffers: what every host line runs within. -/
abbrev SU : Finset (DevRef τ sig) := Pipeline.ucRefs τ sig

/-- The launch valuation. -/
abbrev V0 (d : Dev nD) : Valuation τ sig (Elt F) := fun b => m (d, b)

/-! ## The host lines' side conditions -/

theorem opsA_sub : ∀ op ∈ (opsA (F := F)), op.bufs ⊆ SU := by
  have h : (opsA (F := F)).Forall fun op => op.bufs ⊆ StableHlo.tcRefs τ sig :=
    ⟨unary_bufs_sub .., reshape_bufs_sub .., nullary_bufs_sub .., unary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., unary_bufs_sub .., unary_bufs_sub .., binary_bufs_sub .., unary_bufs_sub .., reshape_bufs_sub ..⟩
  exact fun op hop => Pipeline.sub_ucRefs op (List.forall_iff_forall_mem.mp h op hop)
theorem opsA_fresh : ∀ op ∈ (opsA (F := F)), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (opsA (F := F)).Forall fun op => op.fresh = ∅)

theorem opsB_sub : ∀ op ∈ (opsB (F := F)), op.bufs ⊆ SU := by
  have h : (opsB (F := F)).Forall fun op => op.bufs ⊆ StableHlo.tcRefs τ sig := reshape_bufs_sub ..
  exact fun op hop => Pipeline.sub_ucRefs op (List.forall_iff_forall_mem.mp h op hop)
theorem opsB_fresh : ∀ op ∈ (opsB (F := F)), op.fresh = ∅ :=
  List.forall_iff_forall_mem.mp (rfl : (opsB (F := F)).Forall fun op => op.fresh = ∅)
theorem opsC_sub : ∀ op ∈ (opsC (F := F)), op.bufs ⊆ SU := by
  have h : (opsC (F := F)).Forall fun op => op.bufs ⊆ StableHlo.tcRefs τ sig := reshape_bufs_sub ..
  exact fun op hop => Pipeline.sub_ucRefs op (List.forall_iff_forall_mem.mp h op hop)
theorem opsC_fresh : ∀ op ∈ (opsC (F := F)), op.fresh = ∅ :=
  List.forall_iff_forall_mem.mp (rfl : (opsC (F := F)).Forall fun op => op.fresh = ∅)
theorem opsD_sub : ∀ op ∈ (opsD (F := F)), op.bufs ⊆ SU := by
  have h : (opsD (F := F)).Forall fun op => op.bufs ⊆ StableHlo.tcRefs τ sig := ⟨binary_bufs_sub .., reshape_bufs_sub ..⟩
  exact fun op hop => Pipeline.sub_ucRefs op (List.forall_iff_forall_mem.mp h op hop)
theorem opsD_fresh : ∀ op ∈ (opsD (F := F)), op.fresh = ∅ :=
  List.forall_iff_forall_mem.mp (⟨rfl, rfl⟩ : (opsD (F := F)).Forall fun op => op.fresh = ∅)

/-! ## The five arrays of a SparseCore call, out of the held set -/

abbrev h' : DevRef τ sig := (main_arg3 : DevRef τ sig)
abbrev p' : DevRef τ sig := (main_arg5 : DevRef τ sig)
abbrev n' : DevRef τ sig := (main_arg6 : DevRef τ sig)
abbrev tab' : DevRef τ sig := (main_arg0 : DevRef τ sig)
abbrev out' (q : Fin 2) : DevRef τ sig := (Sc.oRef q : DevRef τ sig)

/-- The buffers call `q` takes. -/
def T5 (q : Fin 2) : Finset (DevRef τ sig) := {h', p', n', tab', out' q}

theorem T5_sub (q : Fin 2) : T5 q ⊆ SU := match q with
  | 0 => by decide
  | 1 => by decide

theorem held_T5 (d : Dev nD) (q : Fin 2) (W : Valuation τ sig (Elt F)) :
    (held (T d) (T5 q) W : sProp 𝕄)
      = iprop((Sc.hLoc d ↦{fullShare} W h') ∗ (Sc.pLoc d ↦{fullShare} W p') ∗ (Sc.nLoc d ↦{fullShare} W n')
          ∗ (Sc.tabLoc d ↦{fullShare} W tab') ∗ (Sc.outLoc q d ↦{fullShare} W (out' q))) := by
  unfold held T5
  match q with
  | 0 => rw [bigSep_insert' (by decide), bigSep_insert' (by decide), bigSep_insert' (by decide), bigSep_insert' (by decide), bigSep_singleton]
  | 1 => rw [bigSep_insert' (by decide), bigSep_insert' (by decide), bigSep_insert' (by decide), bigSep_insert' (by decide), bigSep_singleton]

/-! ## A SparseCore call -/

theorem out_ne_h (q : Fin 2) : h' ≠ out' q := match q with | 0 => by decide | 1 => by decide
theorem out_ne_p (q : Fin 2) : p' ≠ out' q := match q with | 0 => by decide | 1 => by decide
theorem out_ne_n (q : Fin 2) : n' ≠ out' q := match q with | 0 => by decide | 1 => by decide
theorem out_ne_tab (q : Fin 2) : tab' ≠ out' q := match q with | 0 => by decide | 1 => by decide
theorem out_mem_T5 (q : Fin 2) : out' q ∈ T5 q := match q with | 0 => by decide | 1 => by decide

/-- The call: from the held set with the five arrays at their launch contents, to the held set with the call's output
    at the gathered rows. -/
theorem call_step (κ : GSem nD τ sig → ℕ) (d : Dev nD) (q : Fin 2) (W : Valuation τ sig (Elt F))
    (hh : W h' = m (Sc.hLoc d)) (hp : W p' = m (Sc.pLoc d)) (hn : W n' = m (Sc.nLoc d)) (ht : W tab' = m (Sc.tabLoc d))
    (ho : W (out' q) = m (Sc.outLoc q d)) {Φ : PUnit → sProp 𝕄} :
    iprop((K (F := F)).ctx EH (Pm m) κ ∗ (K (F := F)).tcSt EH d q.val ∗ (held (T d) SU W : sProp 𝕄)
        ∗ (((K (F := F)).tcSt EH d (q.val + 1) ∗ (held (T d) SU (Function.update W (out' q) (Sc.gathAt m q d)) : sProp 𝕄)) -∗ Φ ⟨⟩))
      ⊢ wp frame (wpE ((K (F := F)).defs (D (F := F))) Sc.𝒱 (T d) none) Set.univ ((K (F := F)).run d q) Φ := by
  have hoff : ∀ b ∈ SU \ T5 q, Function.update W (out' q) (Sc.gathAt m q d) b = W b := fun b hb =>
    Function.update_of_ne (fun (e : b = out' q) => (Finset.mem_sdiff.mp hb).2 (by rw [e]; exact out_mem_T5 q)) _ _
  rw [held_sub_split (T d) (T5_sub q) W, held_T5, hh, hp, hn, ht, ho,
    held_swap (T d) (T5_sub q) W (Function.update W (out' q) (Sc.gathAt m q d)) hoff, held_T5,
    Function.update_of_ne (out_ne_h q), Function.update_of_ne (out_ne_p q), Function.update_of_ne (out_ne_n q),
    Function.update_of_ne (out_ne_tab q), Function.update_self, hh, hp, hn, ht]
  iintro ⟨#Hctx, Hst, ⟨H5, Hrest⟩, Hk⟩
  iapply ((K (F := F)).wp_run (D (F := F)) Sc.𝒱 (EH := EH) (P := Pm m) κ d q) $$ [Hst H5 Hrest Hk]
  isplitr; · iexact Hctx
  isplitl [Hst]; · iexact Hst
  isplitl [H5]
  · rw [Sc.st_eq]; iexact H5
  iintro ⟨Hst, Hdn⟩
  ihave Hdn' := (Entails.of_eq (Sc.dn_eq (F := F) (UU := Alg.UU) m q d)) $$ Hdn
  iapply Hk
  isplitl [Hst]; · iexact Hst
  isplitl [Hdn']; · iexact Hdn'
  iexact Hrest

/-! ## The valuations along @main -/

abbrev r0' : DevRef τ sig := (main_v16 : DevRef τ sig)
abbrev r1' : DevRef τ sig := (main_v17 : DevRef τ sig)

variable (acc0 acc1 : (d : Dev nD) → (⟨S1x1, .f32⟩ : BufTy).Contents (Elt F))

def VA (d : Dev nD) : Valuation τ sig (Elt F) := after (opsA (F := F)) (V0 m d)
def V1 (d : Dev nD) : Valuation τ sig (Elt F) := Function.update (VA m d) (out' 0) (Sc.gathAt m 0 d)
def V1' (d : Dev nD) : Valuation τ sig (Elt F) := after (opsB (F := F)) (V1 m d)
def V2 (d : Dev nD) : Valuation τ sig (Elt F) := Function.update (V1' m d) (out' 1) (Sc.gathAt m 1 d)
def V2' (d : Dev nD) : Valuation τ sig (Elt F) := after (opsC (F := F)) (V2 m d)
def V3 (d : Dev nD) : Valuation τ sig (Elt F) := Function.update (V2' m d) r0' (acc0 d)
def V4 (d : Dev nD) : Valuation τ sig (Elt F) := Function.update (V3 m acc0 d) r1' (acc1 d)
def V5 (d : Dev nD) : Valuation τ sig (Elt F) := after (opsD (F := F)) (V4 m acc0 acc1 d)

/-- The pairs the TensorCore may have recorded when it reaches the regions: those at or below level 16. -/
def B16 (d : Dev nD) : Set (SemLoc sig × HIx 2) := {p | (K (F := F)).lev (T d, p.1) p.2 ≤ 16}

/-- What a kernel region's step must say for @main's proof: entered with the held set at `W`, the core owing nothing
    within the pairs `B`, and the pipeline's rounds state, it leaves the held set with its result buffer at `a`. -/
def RegStep (p : Fin 2) (d : Dev nD) (res : DevRef τ sig) (W : Valuation τ sig (Elt F)) (a : res.ty.Contents (Elt F))
    (B B' : Set (SemLoc sig × HIx 2)) : Prop :=
  ∀ (Φ : PUnit → sProp 𝕄),
    iprop(levAts (K (F := F)).L (K (F := F)).lev ∗ boundary (T d) ∗ (held (T d) SU W : sProp 𝕄) ∗ Pipeline.owesWithin d (0 : CellTallies nD τ sig (HIx 2)) B
        ∗ (Pipeline.cellsGhost cfgs (Alg.EP (F := F)) p d ∗ Pipeline.toksInit cfgs (Alg.EP (F := F)) p d)
        ∗ ((boundary (T d) ∗ (held (T d) SU (Function.update W res a) : sProp 𝕄) ∗ Pipeline.owesWithin d (0 : CellTallies nD τ sig (HIx 2)) B') -∗ Φ ⟨⟩))
      ⊢ wp frame (wpE ((K (F := F)).defs (D (F := F))) Sc.𝒱 (T d) none) Set.univ
          (Prog.lift (.customCall (SparseCore.inner (Pipeline.entry p)) ())) Φ

/-! ## A line of host operations -/

set_option backward.isDefEq.respectTransparency.types false in
/-- A line of host operations at the head of @main's remainder, within the core's unscoped buffers. -/
theorem line_step (d : Dev nD) (ops : List (HloOp τ sig (Elt F))) (hS : ∀ op ∈ ops, op.bufs ⊆ SU) (hf : ∀ op ∈ ops, op.fresh = ∅)
    (W : Valuation τ sig (Elt F)) {β : Type} (k : PUnit → Prog (TpuEff nD τ sig (Elt F) (SparseCore.Sig (Sc.ΛP (F := F)) 2) .tc) β)
    {Φ : β → sProp 𝕄} :
    iprop(boundary (T d) ∗ (held (T d) SU W : sProp 𝕄)
        ∗ ((boundary (T d) ∗ (held (T d) SU (after ops W) : sProp 𝕄))
            -∗ wp frame (wpE ((K (F := F)).defs (D (F := F))) Sc.𝒱 (T d) none) Set.univ (k ⟨⟩) Φ))
      ⊢ wp frame (wpE ((K (F := F)).defs (D (F := F))) Sc.𝒱 (T d) none) Set.univ (seq ops >>= k) Φ := by
  iintro ⟨Hb, Hh, Hk⟩
  iapply (StableHlo.wp_seq (defs := (K (F := F)).defs (D (F := F))) Sc.𝒱 none Set.univ d SU k ops hS hf W) $$ [Hb Hh]
  · isplitl [Hb] <;> iassumption
  iexact Hk

/-! ## Reading the valuations at the calls' arrays -/

theorem VA_at (d : Dev nD) (b : DevRef τ sig) (hA : ∀ V : Valuation τ sig (Elt F), after (opsA (F := F)) V b = V b) : VA m d b = m (d, b) := by
  unfold VA; rw [hA]

theorem V1'_at (d : Dev nD) (b : DevRef τ sig) (hB : ∀ V : Valuation τ sig (Elt F), after (opsB (F := F)) V b = V b)
    (hne : b ≠ out' 0) (hA : ∀ V : Valuation τ sig (Elt F), after (opsA (F := F)) V b = V b) : V1' m d b = m (d, b) := by
  unfold V1' V1; rw [hB, Function.update_of_ne hne, VA_at m d b hA]

/-! ## The TensorCore's handshake state, opened at its `owes` -/

theorem tcSt_open (d : Dev nD) (n : ℕ) :
    ((K (F := F)).tcSt (EH (F := F)) d n : sProp 𝕄)
      ⊢ iprop((∃ W, ⌜(K (F := F)).WBelow (T d) W (8 * n)⌝ ∗ (owes (T d) ((K (F := F)).Otc d n) W : sProp 𝕄))
          ∗ ((∃ W, ⌜(K (F := F)).WBelow (T d) W (8 * n)⌝ ∗ (owes (T d) ((K (F := F)).Otc d n) W : sProp 𝕄)) -∗ (K (F := F)).tcSt (EH (F := F)) d n)) := by
  unfold SparseCore.Cfg.tcSt
  iintro ⟨H, Hr⟩
  isplitl [H]; · iexact H
  iintro H
  isplitl [H]; · iexact H
  iexact Hr

end Cert.KernelIdeal.KerLaunch

end
-- ==== Proof.KerMain.lean ====
/-
  The kernel's @main on the TensorCore, inside the launch of its two SparseCore calls: the whole line, from the steps of
  its parts.
-/
import proofs.«211459_g87136296501727_cont_9to1_m_723_16_alg».proof.Proof.KerLaunch

noncomputable section

namespace Cert.KernelIdeal.KerLaunch

open Cert.KernelIdeal Cert.KernelIdeal.Gen Cert.KernelIdeal.MainShape Cert.LaunchKit
open Idealize.ShloMosaic Idealize.ShloMosaic.TcCoe
open Idealize.ShloMosaic.SparseCore (S V T)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ Alg.UU ℕ

variable (m : (ℓ : Loc nD τ sig) → Buf (Elt F) ℓ) (ρ : Dev nD → PrngReg)
variable (acc0 acc1 : (d : Dev nD) → (⟨S1x1, .f32⟩ : BufTy).Contents (Elt F))

/-- A big separating conjunction over two indices, spelt as a conjunction. -/
theorem bigSep_fin_two' {M : Type} [URA M] (Φ : Fin 2 → sProp M) : bigSep Finset.univ Φ = iprop(Φ 0 ∗ Φ 1) := BI.bigSep_fin_two Φ

/-! ## What the launch deals the TensorCore, as a held set -/

theorem unscoped_held (d : Dev nD) :
    (unscopedBufs d (fun b => m ((SparseCore.T d).loc b)) : sProp 𝕄) = held (SparseCore.T d) SU (V0 m d) := by
  unfold unscopedBufs StableHlo.held SU Pipeline.ucRefs StableHlo.tcRefs
  rw [Finset.filter_map, bigSep_map]
  rfl

/-! ## @main -/

set_option backward.isDefEq.respectTransparency.types false in
set_option maxHeartbeats 800000 in
/-- @main on device `d`'s TensorCore: the glue, the two calls each followed by its reshape, the two kernel regions, the
    sum; it ends with the handshake state after both calls and every unscoped buffer at the last valuation. -/
theorem hmain
    (hreg0 : ∀ d, RegStep (F := F) 0 d r0' (V2' m d) (acc0 d) (B16 (F := F) d) (B16 (F := F) d ∪ (cfgs 0).waitPairs none))
    (hreg1 : ∀ d, RegStep (F := F) 1 d r1' (V3 m acc0 d) (acc1 d) (B16 (F := F) d ∪ (cfgs 0).waitPairs none)
      ((B16 (F := F) d ∪ (cfgs 0).waitPairs none) ∪ (cfgs 1).waitPairs none))
    (κ : GSem nD τ sig → ℕ) (d : Dev nD) :
    iprop((K (F := F)).ctx (EH (F := F)) (Pm m) κ ∗ (K (F := F)).tcSt (EH (F := F)) d 0 ∗ (K (F := F)).tcRes m ρ d ∗ Alg.G (F := F) d)
      ⊢ wp frame (wpE ((K (F := F)).defs (D (F := F))) Sc.𝒱 (T d) none) Set.univ (main (F := F) d)
          fun _ => iprop((K (F := F)).tcSt (EH (F := F)) d 2 ∗ (held (T d) SU (V5 m acc0 acc1 d) : sProp 𝕄)) := by
  rw [main_eq]
  unfold SparseCore.Cfg.tcRes
  rw [unscoped_held m d]
  iintro ⟨#Hctx, Hst, ⟨Hb, Hheld, -, -⟩, HG⟩
  -- the glue before the first call
  iapply (line_step d (opsA (F := F)) opsA_sub opsA_fresh (V0 m d)) $$ [Hb Hheld Hst HG]
  isplitl [Hb]; · iexact Hb
  isplitl [Hheld]; · iexact Hheld
  iintro ⟨Hb, Hheld⟩
  -- the first call
  rw [wp_bind]
  iapply (call_step m κ d 0 (VA m d) (VA_at m d h' opsA_arg3) (VA_at m d p' opsA_arg5) (VA_at m d n' opsA_arg6)
    (VA_at m d tab' opsA_arg0) (VA_at m d (out' 0) opsA_v12)) $$ [Hst Hheld Hb HG]
  isplitr; · iexact Hctx
  isplitl [Hst]; · iexact Hst
  isplitl [Hheld]; · iexact Hheld
  iintro ⟨Hst, Hheld⟩
  -- its reshape
  iapply (line_step d (opsB (F := F)) opsB_sub opsB_fresh (V1 m d)) $$ [Hb Hheld Hst HG]
  isplitl [Hb]; · iexact Hb
  isplitl [Hheld]; · iexact Hheld
  iintro ⟨Hb, Hheld⟩
  -- the second call
  rw [wp_bind]
  iapply (call_step m κ d 1 (V1' m d) (V1'_at m d h' opsB_keep_arg3 (by decide) opsA_arg3) (V1'_at m d p' opsB_keep_arg5 (by decide) opsA_arg5)
    (V1'_at m d n' opsB_keep_arg6 (by decide) opsA_arg6) (V1'_at m d tab' opsB_keep_arg0 (by decide) opsA_arg0)
    (V1'_at m d (out' 1) opsB_keep_v14 (by decide) opsA_keep_v14)) $$ [Hst Hheld Hb HG]
  isplitr; · iexact Hctx
  isplitl [Hst]; · iexact Hst
  isplitl [Hheld]; · iexact Hheld
  iintro ⟨Hst, Hheld⟩
  -- its reshape
  iapply (line_step d (opsC (F := F)) opsC_sub opsC_fresh (V2 m d)) $$ [Hb Hheld Hst HG]
  isplitl [Hb]; · iexact Hb
  isplitl [Hheld]; · iexact Hheld
  iintro ⟨Hb, Hheld⟩
  -- the core's owes out of the handshake state: nothing is owed after the last call
  ihave Ho := (tcSt_open (F := F) d ((1 : Fin 2).val + 1)) $$ Hst
  icases Ho with ⟨⟨%W, %hW, HO⟩, Hclose⟩
  rw [(K (F := F)).Otc_end d (show 2 ≤ (1 : Fin 2).val + 1 from le_refl 2)]
  -- the two pipelines' rounds state
  ihave HG' := (Entails.of_eq (bigSep_fin_two' (fun p : Fin 2 => iprop(Pipeline.cellsGhost cfgs (Alg.EP (F := F)) p d ∗ Pipeline.toksInit cfgs (Alg.EP (F := F)) p d)))) $$ HG
  icases HG' with ⟨HG0, HG1⟩
  -- the first region
  rw [wp_bind]
  ihave Hlev0 := (SparseCore.Cfg.ctx_levAts (K := K (F := F)) (EH := (EH (F := F))) (P := Pm m) κ) $$ Hctx
  iapply (hreg0 d _) $$ [Hlev0 Hb Hheld HO HG0 HG1 Hclose]
  isplitl [Hlev0]; · iexact Hlev0
  isplitl [Hb]; · iexact Hb
  isplitl [Hheld]; · iexact Hheld
  isplitl [HO]
  · iexists W; isplitr; · ipureintro; exact fun p hp => hW p hp
    iexact HO
  isplitl [HG0]; · iexact HG0
  iintro ⟨Hb, Hheld, HO⟩
  -- the second region
  rw [wp_bind]
  ihave Hlev1 := (SparseCore.Cfg.ctx_levAts (K := K (F := F)) (EH := (EH (F := F))) (P := Pm m) κ) $$ Hctx
  iapply (hreg1 d _) $$ [Hlev1 Hb Hheld HO HG1 Hclose]
  isplitl [Hlev1]; · iexact Hlev1
  isplitl [Hb]; · iexact Hb
  isplitl [Hheld]; · iexact Hheld
  isplitl [HO]; · iexact HO
  isplitl [HG1]; · iexact HG1
  iintro ⟨Hb, Hheld, ⟨%W', %hW', HO⟩⟩
  -- the sum and its reshape
  rw [show (seq (opsD (F := F)) : Prog (TpuEff nD τ sig (Elt F) (SparseCore.Sig (Sc.ΛP (F := F)) 2) .tc) PUnit)
      = seq (opsD (F := F)) >>= fun _ => pure ⟨⟩ from (bind_pure _).symm]
  iapply (line_step d (opsD (F := F)) opsD_sub opsD_fresh (V4 m acc0 acc1 d)) $$ [Hb Hheld HO Hclose]
  isplitl [Hb]; · iexact Hb
  isplitl [Hheld]; · iexact Hheld
  iintro ⟨-, Hheld⟩
  rw [wp_pure]; imodintro
  isplitl [HO Hclose]
  · iapply Hclose
    iexists W'; isplitr
    · ipureintro
      intro p hp
      rcases hW' hp with (hp | ⟨w, s, rfl⟩) | ⟨w, s, rfl⟩
      · exact hp
      · exact Nat.zero_le _
      · exact Nat.zero_le _
    · iexact HO
  · iexact Hheld

end Cert.KernelIdeal.KerLaunch

end
-- ==== Proof.RunMain.lean ====
/-
  The kernel's run: every weakly fair execution of its threads — @main on the TensorCore, the two SparseCores' sequencers
  and their thirty-two vector subcores — from a memory with every semaphore at zero terminates, nothing faulting, with
  every unscoped buffer of the TensorCore at the last valuation of @main's line: the arguments as found, the result at
  the sum of the two regions' accumulated shares. From the launch theorem for SparseCore programs, given each call's
  task on a vector subcore, the calls' splits, and @main's proof.
-/
import proofs.«211459_g87136296501727_cont_9to1_m_723_16_alg».proof.Proof.KerMain

noncomputable section

namespace Cert.KernelIdeal.KerLaunch

open Cert.KernelIdeal Cert.KernelIdeal.Gen Cert.KernelIdeal.MainShape Cert.LaunchKit
open Idealize.ShloMosaic Idealize.ShloMosaic.TcCoe
open Idealize.ShloMosaic.SparseCore (S V T)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ Alg.UU ℕ

variable (m : (ℓ : Loc nD τ sig) → Buf (Elt F) ℓ) (ρ : Dev nD → PrngReg)
variable (acc0 acc1 : (d : Dev nD) → (⟨S1x1, .f32⟩ : BufTy).Contents (Elt F))

/-- What @main leaves: every unscoped buffer of the core at the last valuation. -/
abbrev FIN (d : Dev nD) : sProp 𝕄 := (held (SparseCore.T d) SU (V5 m acc0 acc1 d) : sProp 𝕄)

def fq (d : Dev nD) (s' : Phys nD τ sig (Elt F)) : Prop := ∀ b ∈ SU, s'.mem.mem ((d, b) : Loc nD τ sig) = V5 m acc0 acc1 d b

theorem hfin (d : Dev nD) (s' : Phys nD τ sig (Elt F)) : iprop(FIN m acc0 acc1 d ∗ SI s') ⊢ (⌜fq m acc0 acc1 d s'⌝ : sProp 𝕄) :=
  held_agree (SparseCore.T (τ := τ) d) (V5 m acc0 acc1 d) s' SU

/-- The run's post: on every device every unscoped TensorCore buffer holds the last valuation. -/
def QC : PUnit × MemSt nD τ sig (Elt F) → Prop := fun r => ∀ (c : Dev nD), ∀ b ∈ SU, r.2.mem ((c, b) : Loc nD τ sig) = V5 m acc0 acc1 c b

theorem run_main [∀ e, Nonempty (Elt F e)]
    (htile : ∀ q, (K (F := F)).TileObl (D (F := F)) Sc.𝒱 (Pm m) Sc.v₀ q)
    (hsplit : ∀ q, (K (F := F)).VecSplit' (Pm m) q)
    (hreg0 : ∀ d, RegStep (F := F) 0 d r0' (V2' m d) (acc0 d) (B16 (F := F) d) (B16 (F := F) d ∪ (cfgs 0).waitPairs none))
    (hreg1 : ∀ d, RegStep (F := F) 1 d r1' (V3 m acc0 d) (acc1 d) (B16 (F := F) d ∪ (cfgs 0).waitPairs none)
      ((B16 (F := F) d ∪ (cfgs 0).waitPairs none) ∪ (cfgs 1).waitPairs none)) :
    θ_run (Cert.KernelIdeal.defs (F := F)) (Cert.KernelIdeal.threads (F := F)) ⟨m, fun _ => 0, ρ⟩ (QC m acc0 acc1) :=
  SparseCore.Cfg.θ_run_sc (K := K (F := F)) (D := D (F := F)) (𝒱 := Sc.𝒱) (EH := EH) (P := Pm m) Sc.facts Sc.v₀
    (fun q hq => match q with | 0 => nomatch hq | 1 => nomatch hq)
    (fun q _ => htile q)
    (fun q _ => SparseCore.Cfg.VecSplit.of_plain (hsplit q))
    m ρ main (fun d => Alg.G (F := F) d) (FIN m acc0 acc1) (Alg.u₀ (F := F))
    (sep_elim_left.trans (Alg.hu₀ (F := F) (Pm m) (fun _ _ => rfl)))
    (hmain m ρ acc0 acc1 hreg0 hreg1) (fq m acc0 acc1) (hfin m acc0 acc1) (QC m acc0 acc1) (fun _ h => h)

end Cert.KernelIdeal.KerLaunch

end
-- ==== Proof.TcBody.lean ====
/-
  The body of the two TensorCore kernels, run whole at a symbolic grid point over any whole staging memrefs and any
  machine algebra: the five input blocks are handed back as they were, and the 1x1 output buffer — which the body reads
  back and overwrites, so that it carries a running sum from one grid point to the next — ends holding `outStep`, one
  named function of the loaded blocks and of the buffer's previous value. Nothing is said here of that function's
  arithmetic.
-/
import proofs.«211459_g87136296501727_cont_9to1_m_723_16_alg».proof.Proof.Gen.KernelIdeal.Launch
import proofs.«211459_g87136296501727_cont_9to1_m_723_16_alg».proof.Proof.Gen.KernelIdeal.Points
import proofs.«211459_g87136296501727_cont_9to1_m_723_16_alg».proof.Proof.Gen.KernelIdeal.Skeleton
import Idealize.ShloMosaic.Lib.Pipeline.FrameBody
import Idealize.ShloMosaic.Lib.Tactic
import Idealize.ShloMosaic.Lib.WholeRead
import Idealize.ShloMosaic.Lib.WritesUnit

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## Reading and writing a whole staging buffer -/

/-- What a load through rectangle `B` reads of contents `X`: `X` at the rectangle's indices. -/
def ld {s : Shape} {e : EltTy} (X : s.Idx → Elt F e) (B : LoadRect s) : B.shape.Idx → Elt F e := fun x => X (B.idx x)

/-- A load through a whole memref's own view, the memref held at the raw contents that read `X`, reads `ld X B`. -/
theorem readAt_unread_eq {κ : Kind} {sp : Space} {s : Shape} {e : EltTy} {m : Memref sig κ sp s e} (h : m.IsWhole)
    (X : s.Idx → Elt F e) (B : LoadRect s) : View.readAt (Elt F) m.view B (h.unread X) = ld X B :=
  funext (h.readAt_unread X B)

/-- One store through the rectangle of the whole shape leaves the payload, whatever the buffer held. -/
theorem read_writes_whole {κ : Kind} {sp : Space} {s : Shape} {e : EltTy} (v : View sig κ sp s e) (f : v.ty.Contents (Elt F))
    {off : Fin s.rank → ℕ} (inb : ∀ a, off a + s.size a ≤ s.size a)
    (w : (Rect.unit (s := s) off s.size inb).shape.Idx → Elt F e) :
    v.read (Elt F) (v.writes (Elt F) f [(⟨Rect.unit (s := s) off s.size inb, w⟩ : View.Piece (Elt F) s e)]) = w :=
  funext fun y => View.read_writes_cons_unit_of_mem v f inb w [] y y rfl fun a => by have := inb a; omega

/-! ## The body of the first call -/

/-- What the body stores in the output's staging buffer at grid point `i`, as a function of what its six staging buffers hold
    when it starts: the five input blocks `x0 … x4` (the three gathered row slabs, the relation numbers, the projection
    matrices, the relation table, the one-hot matrix) and the running value `old` of the 1x1 output buffer. Each load reads
    its rectangle of the buffer's contents (`ld`); the values computed from them are the generated payloads. -/
def outStep2 (i : grid2.Coords) (x0 : Vec F S3x1024x128 .f32) (x1 : Vec F S1024x1 .i32) (x2 : Vec F S128x1024 .f32)
    (x3 : Vec F S16x64 .f32) (x4 : Vec F S1024x64 .bf16) (old : Vec F S1x1 .f32) : Vec F S1x1 .f32 :=
  let v0 : Vec F S1024x1 .i32 := ld x1 (Rect.unit (s := S1024x1) ![0, 0] S1024x1.size inb_S1024x1_S1024x1_0_0).toLoadRect
  let v2 : Vec F S128x1024 .f32 := ld x2 (Rect.unit (s := S128x1024) ![0, 0] S128x1024.size inb_S128x1024_S128x1024_0_0).toLoadRect
  let v5 : Vec F S1024x64 .bf16 := ld x4 (Rect.unit (s := S1024x64) ![0, 0] S1024x64.size inb_S1024x64_S1024x64_0_0).toLoadRect
  let v34 : Vec F S1x1024x128 .f32 := ld x0 (Rect.unit (s := S3x1024x128) ![0, 0, 0] S1x1024x128.size inb_S3x1024x128_S1x1024x128_0_0_0).toLoadRect
  let v50 : Vec F S1x1024x128 .f32 := ld x0 (Rect.unit (s := S3x1024x128) ![1, 0, 0] S1x1024x128.size inb_S3x1024x128_S1x1024x128_1_0_0).toLoadRect
  let v66 : Vec F S1x1024x128 .f32 := ld x0 (Rect.unit (s := S3x1024x128) ![2, 0, 0] S1x1024x128.size inb_S3x1024x128_S1x1024x128_2_0_0).toLoadRect
  let v87 : Vec F S16x64 .f32 := ld x3 (Rect.unit (s := S16x64) ![0, 0] S16x64.size inb_S16x64_S16x64_0_0).toLoadRect
  let v153 : Vec F S1x1 .f32 := ld old (Rect.unit (s := S1x1) ![0, 0] S1x1.size inb_S1x1_S1x1_0_0).toLoadRect
  let v1 := k2_pay2 v0
  let v4 := k2_pay3 v2
  let v6 := k2_pay4 v5
  let v33 := k2_pay5 v0
  let v40 := k2_pay6 v0 v2 v34
  let v49 := k2_pay7 v6 v40
  let v65 := k2_pay8 v4 v6 v33 v50
  let v81 := k2_pay9 v4 v6 v33 v66
  let v119 := k2_pay11 v1 v49 v65 v81 v87
  let v124 := k2_pay12 v49
  let v128 := k2_pay13 v1 v87
  k2_pay1 (BitVec.ofNat 32 (i 0).val) v65 v81 v119 v124 v128 v153

set_option maxHeartbeats 2000000 in
/-- The body's whole run at any grid point `i`, on any whole staging memrefs: from the six held at contents `x0 … x4`, `acc`
    the body runs to its return with the five inputs' as they were and the output's at `outStep2 i x0 … x4 acc`. -/
theorem bodyRun2 (c : Dev nD) (i : grid2.Coords)
    (arg1 : Memref sig .tc .vmem S3x1024x128 .f32) (harg1 : arg1.IsWhole) (arg2 : Memref sig .tc .vmem S1024x1 .i32) (harg2 : arg2.IsWhole)
    (arg3 : Memref sig .tc .vmem S128x1024 .f32) (harg3 : arg3.IsWhole) (arg4 : Memref sig .tc .vmem S16x64 .f32) (harg4 : arg4.IsWhole)
    (arg5 : Memref sig .tc .vmem S1024x64 .bf16) (harg5 : arg5.IsWhole) (arg6 : Memref sig .tc .vmem S1x1 .f32) (harg6 : arg6.IsWhole)
    (x0 : Vec F S3x1024x128 .f32) (x1 : Vec F S1024x1 .i32) (x2 : Vec F S128x1024 .f32) (x3 : Vec F S16x64 .f32) (x4 : Vec F S1024x64 .bf16)
    (acc : Vec F S1x1 .f32) (E : Set Name) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare acc
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outStep2 i x0 x1 x2 x3 x4 acc)) -∗ K ⟨⟩))
      ⊢ wp frame (wpE (defs₀ (F := F)) Variants.none c none) E (cc2__tc_body i arg1 harg1 arg2 harg2 arg3 harg3 arg4 harg4 arg5 harg5 arg6 harg6) K := by
  simp only [cc2__tc_body_eq_skeleton, k2_part1_eq_skeleton, k2_part2_eq_skeleton, k2_part3_eq_skeleton]
  unfold cc2__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec
  sl_step
  iapply Hk
  isplitl [H0]; · iexists _; isplitr; (· ipureintro; exact harg1.read_unread _); iexact H0
  isplitl [H1]; · iexists _; isplitr; (· ipureintro; exact harg2.read_unread _); iexact H1
  isplitl [H2]; · iexists _; isplitr; (· ipureintro; exact harg3.read_unread _); iexact H2
  isplitl [H3]; · iexists _; isplitr; (· ipureintro; exact harg4.read_unread _); iexact H3
  isplitl [H4]; · iexists _; isplitr; (· ipureintro; exact harg5.read_unread _); iexact H4
  iexists _; isplitr; swap; · iexact H5
  ipureintro
  refine (read_writes_whole _ _ _ _).trans ?_
  sl_unfold_run_names
  simp only [readAt_unread_eq]
  rfl

/-! ## The body of the second call -/

/-- What the body stores in the output's staging buffer at grid point `i`, as a function of what its six staging buffers hold
    when it starts: the five input blocks `x0 … x4` (the three gathered row slabs, the relation numbers, the projection
    matrices, the relation table, the one-hot matrix) and the running value `old` of the 1x1 output buffer. Each load reads
    its rectangle of the buffer's contents (`ld`); the values computed from them are the generated payloads. -/
def outStep3 (i : grid3.Coords) (x0 : Vec F S3x1024x128 .f32) (x1 : Vec F S1024x1 .i32) (x2 : Vec F S128x1024 .f32)
    (x3 : Vec F S16x64 .f32) (x4 : Vec F S1024x64 .bf16) (old : Vec F S1x1 .f32) : Vec F S1x1 .f32 :=
  let v0 : Vec F S1024x1 .i32 := ld x1 (Rect.unit (s := S1024x1) ![0, 0] S1024x1.size inb_S1024x1_S1024x1_0_0).toLoadRect
  let v2 : Vec F S128x1024 .f32 := ld x2 (Rect.unit (s := S128x1024) ![0, 0] S128x1024.size inb_S128x1024_S128x1024_0_0).toLoadRect
  let v5 : Vec F S1024x64 .bf16 := ld x4 (Rect.unit (s := S1024x64) ![0, 0] S1024x64.size inb_S1024x64_S1024x64_0_0).toLoadRect
  let v34 : Vec F S1x1024x128 .f32 := ld x0 (Rect.unit (s := S3x1024x128) ![0, 0, 0] S1x1024x128.size inb_S3x1024x128_S1x1024x128_0_0_0).toLoadRect
  let v50 : Vec F S1x1024x128 .f32 := ld x0 (Rect.unit (s := S3x1024x128) ![1, 0, 0] S1x1024x128.size inb_S3x1024x128_S1x1024x128_1_0_0).toLoadRect
  let v66 : Vec F S1x1024x128 .f32 := ld x0 (Rect.unit (s := S3x1024x128) ![2, 0, 0] S1x1024x128.size inb_S3x1024x128_S1x1024x128_2_0_0).toLoadRect
  let v87 : Vec F S16x64 .f32 := ld x3 (Rect.unit (s := S16x64) ![0, 0] S16x64.size inb_S16x64_S16x64_0_0).toLoadRect
  let v153 : Vec F S1x1 .f32 := ld old (Rect.unit (s := S1x1) ![0, 0] S1x1.size inb_S1x1_S1x1_0_0).toLoadRect
  let v1 := k3_pay2 v0
  let v4 := k3_pay3 v2
  let v6 := k3_pay4 v5
  let v33 := k3_pay5 v0
  let v40 := k3_pay6 v0 v2 v34
  let v49 := k3_pay7 v6 v40
  let v65 := k3_pay8 v4 v6 v33 v50
  let v81 := k3_pay9 v4 v6 v33 v66
  let v119 := k3_pay11 v1 v49 v65 v81 v87
  let v124 := k3_pay12 v49
  let v128 := k3_pay13 v1 v87
  k3_pay1 (BitVec.ofNat 32 (i 0).val) v65 v81 v119 v124 v128 v153

set_option maxHeartbeats 2000000 in
/-- The body's whole run at any grid point `i`, on any whole staging memrefs: from the six held at contents `x0 … x4`, `acc`
    the body runs to its return with the five inputs' as they were and the output's at `outStep3 i x0 … x4 acc`. -/
theorem bodyRun3 (c : Dev nD) (i : grid3.Coords)
    (arg1 : Memref sig .tc .vmem S3x1024x128 .f32) (harg1 : arg1.IsWhole) (arg2 : Memref sig .tc .vmem S1024x1 .i32) (harg2 : arg2.IsWhole)
    (arg3 : Memref sig .tc .vmem S128x1024 .f32) (harg3 : arg3.IsWhole) (arg4 : Memref sig .tc .vmem S16x64 .f32) (harg4 : arg4.IsWhole)
    (arg5 : Memref sig .tc .vmem S1024x64 .bf16) (harg5 : arg5.IsWhole) (arg6 : Memref sig .tc .vmem S1x1 .f32) (harg6 : arg6.IsWhole)
    (x0 : Vec F S3x1024x128 .f32) (x1 : Vec F S1024x1 .i32) (x2 : Vec F S128x1024 .f32) (x3 : Vec F S16x64 .f32) (x4 : Vec F S1024x64 .bf16)
    (acc : Vec F S1x1 .f32) (E : Set Name) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare acc
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outStep3 i x0 x1 x2 x3 x4 acc)) -∗ K ⟨⟩))
      ⊢ wp frame (wpE (defs₀ (F := F)) Variants.none c none) E (cc3__tc_body i arg1 harg1 arg2 harg2 arg3 harg3 arg4 harg4 arg5 harg5 arg6 harg6) K := by
  simp only [cc3__tc_body_eq_skeleton, k3_part1_eq_skeleton, k3_part2_eq_skeleton, k3_part3_eq_skeleton]
  unfold cc3__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec
  sl_step
  iapply Hk
  isplitl [H0]; · iexists _; isplitr; (· ipureintro; exact harg1.read_unread _); iexact H0
  isplitl [H1]; · iexists _; isplitr; (· ipureintro; exact harg2.read_unread _); iexact H1
  isplitl [H2]; · iexists _; isplitr; (· ipureintro; exact harg3.read_unread _); iexact H2
  isplitl [H3]; · iexists _; isplitr; (· ipureintro; exact harg4.read_unread _); iexact H3
  isplitl [H4]; · iexists _; isplitr; (· ipureintro; exact harg5.read_unread _); iexact H4
  iexists _; isplitr; swap; · iexact H5
  ipureintro
  rw [read_writes_whole]
  sl_unfold_run_names
  simp only [readAt_unread_eq]
  rfl

end Cert.KernelIdeal.Tc

end
-- ==== Proof.TcRegion.lean ====
/-
  The two TensorCore kernel calls of @main as kernel regions, over any machine algebra. Each call runs a grid of 8 points
  over six windows: two inputs fetched block by block, three inputs fetched whole at the first point, and a 1x1 output whose
  staging buffer the body reads back and overwrites at every point and which is written back at the last point only. So
  the output array ends holding the body's step function folded along the grid (`accAt`): at the first point the step does
  not depend on what the buffer held, at a later point it is applied to what the point before left there. The proof data
  say that (each input's buffer at its block, the output's at the running fold), the body obligation follows from the
  whole-body run, and the region records enter from the six arrays held whole at their entry contents and leave with the
  five inputs unchanged and the output at the fold after the last point.
-/
import proofs.«211459_g87136296501727_cont_9to1_m_723_16_alg».proof.Proof.TcBody
import Idealize.ShloMosaic.Lib.Pipeline.Regions
import Idealize.ShloMosaic.Lib.Pipeline.Frame
import Idealize.ShloMosaic.Lib.Pipeline.FrameBody
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- A 1x1 array has one index. -/
instance : Subsingleton S1x1.Idx := ⟨fun x y => funext fun a => by
  have h1 : S1x1.size a = 1 := by fin_cases a <;> rfl
  have hx : (x a).val < 1 := lt_of_lt_of_eq (x a).isLt h1
  have hy : (y a).val < 1 := lt_of_lt_of_eq (y a).isLt h1
  apply Fin.ext; omega⟩

/-! ## Call 0 (`cc2__tc_body`): blocks, the running sum, the proof data -/

/-- Entry contents of the six arrays of call 0, by window: 0 ↦ `main_v13`, 1 ↦ `main_v11`, 2 ↦ `main_v1`, 3 ↦ `main_arg1`, 4 ↦ `main_v10`, 5 ↦ `main_v16`. -/
abbrev Arr2 (c : Dev nD) : Type := (w : Fin 6) → Buf (Elt F) ((c : Thread nD τ).loc (Pipeline.arrRef spec2 w))

/-- Window `w`'s block at point `t`, read off the array's entry contents. -/
def iblk2 (c : Dev nD) (A : Arr2 (F := F) c) (w : Fin cfg2.W) (t : Fin cfg2.N) :
    ((cfg2.win w).xblock (cfg2.grid.coords t)).Idx → Elt F (cfg2.win w).elt :=
  ((cfg2.win w).blk t).view.read (Elt F) (A w)

abbrev ms2_0 (t : Fin cfg2.N) : Memref sig .tc .vmem S3x1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S16x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x64 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)

/-- The grid is one axis of 8 points: a point's coordinate is its position. -/
theorem coords2_val : ∀ t : Fin cfg2.N, ((grid2.coords t) 0).val = t.val :=
  (by decide +kernel : ∀ t : Fin grid2.N, ((grid2.coords t) 0).val = t.val)

/-- At the first grid point the stored value does not depend on what the output buffer held: the body selects the
    point's own share there, not the sum. -/
theorem k2_pay1_first (v65 v81 : FVec F S1024x64 .f32) (v119 : FVec F S1024x1 .f32) (v124 : F .f32) (v128 : FVec F S1x1x1 .f32)
    (v v' : Vec F S1x1 .f32) :
    k2_pay1 (BitVec.ofNat 32 0) v65 v81 v119 v124 v128 v = k2_pay1 (BitVec.ofNat 32 0) v65 v81 v119 v124 v128 v' := by
  unfold k2_pay1
  rfl

theorem outStep2_first (i : grid2.Coords) (hi : (i 0).val = 0) (x0 : Vec F S3x1024x128 .f32) (x1 : Vec F S1024x1 .i32)
    (x2 : Vec F S128x1024 .f32) (x3 : Vec F S16x64 .f32) (x4 : Vec F S1024x64 .bf16) (d d' : Vec F S1x1 .f32) :
    outStep2 i x0 x1 x2 x3 x4 d = outStep2 i x0 x1 x2 x3 x4 d' := by
  unfold outStep2
  dsimp only
  rw [hi]
  exact k2_pay1_first _ _ _ _ _ _ _

/-- The value the first point's result is stated over (any would do: `outStep2_first`). -/
def zero11 : Vec F S1x1 .f32 := fun _ => Scalar.ofBits .f32 0x00000000#32

/-- THE RUNNING SUM: what the output's staging buffer holds after the body at point `n`: `outStep2` at the point's blocks
    over what it held after the point before (the buffer is written back at the last point only). -/
def accAt2 (c : Dev nD) (A : Arr2 (F := F) c) : (n : ℕ) → n < cfg2.N → Vec F S1x1 .f32
  | 0, hn => outStep2 (grid2.coords ⟨0, hn⟩) (iblk2 c A 0 ⟨0, hn⟩) (iblk2 c A 1 ⟨0, hn⟩) (iblk2 c A 2 ⟨0, hn⟩)
      (iblk2 c A 3 ⟨0, hn⟩) (iblk2 c A 4 ⟨0, hn⟩) zero11
  | n + 1, hn => outStep2 (grid2.coords ⟨n + 1, hn⟩) (iblk2 c A 0 ⟨n + 1, hn⟩) (iblk2 c A 1 ⟨n + 1, hn⟩) (iblk2 c A 2 ⟨n + 1, hn⟩)
      (iblk2 c A 3 ⟨n + 1, hn⟩) (iblk2 c A 4 ⟨n + 1, hn⟩) (accAt2 c A n (Nat.lt_of_succ_lt hn))

theorem accAt2_first (c : Dev nD) (A : Arr2 (F := F) c) (t : Fin cfg2.N) (h0 : t.val = 0) (d : Vec F S1x1 .f32) :
    accAt2 c A t.val t.isLt = outStep2 (grid2.coords t) (iblk2 c A 0 t) (iblk2 c A 1 t) (iblk2 c A 2 t) (iblk2 c A 3 t) (iblk2 c A 4 t) d := by
  obtain ⟨n, hn⟩ := t
  cases n with
  | zero => exact outStep2_first _ ((coords2_val _).trans rfl) _ _ _ _ _ _ _
  | succ n => exact absurd h0 (Nat.succ_ne_zero n)

theorem accAt2_later (c : Dev nD) (A : Arr2 (F := F) c) (t : Fin cfg2.N) (h0 : ¬t.val = 0) :
    accAt2 c A t.val t.isLt = outStep2 (grid2.coords t) (iblk2 c A 0 t) (iblk2 c A 1 t) (iblk2 c A 2 t) (iblk2 c A 3 t) (iblk2 c A 4 t)
      (accAt2 c A (t.val - 1) (Nat.lt_of_le_of_lt (Nat.sub_le _ _) t.isLt)) := by
  obtain ⟨n, hn⟩ := t
  cases n with
  | zero => exact absurd rfl h0
  | succ n => rfl

/-- The proof data of call 0 on core `c`, entered at array contents `A`: after the body at point `t` each input's buffer at
    its block and the output's at the running sum; the invariant the scoped buffers the pipeline does not stage; nothing
    owed, the pairs the core's waits have recorded before the call within `B`; full shares. -/
def dat2 (c : Dev nD) (A : Arr2 (F := F) c) (B : Set (SemLoc sig × Ix)) : Dat τ (Elt F) Ix Name U Lvl cfg2 c where
  A w := A w
  after w t := match w with
    | ⟨0, _⟩ => iblk2 c A 0 t
    | ⟨1, _⟩ => iblk2 c A 1 t
    | ⟨2, _⟩ => iblk2 c A 2 t
    | ⟨3, _⟩ => iblk2 c A 3 t
    | ⟨4, _⟩ => iblk2 c A 4 t
    | ⟨5, _⟩ => accAt2 c A t.val t.isLt
  Φ _ := Pipeline.scopedRest (Ix := Ix) (Name := Name) (U := U) (Lvl := Lvl) (Val := Elt F) spec2 c
  q _ := fullShare
  owed _ := 0
  recorded _ := B

section Dat2
variable (c : Dev nD) (A : Arr2 (F := F) c) (B : Set (SemLoc sig × Ix))

theorem A2_eq (w : Fin cfg2.W) : (dat2 (Ix := Ix) (Name := Name) (U := U) (Lvl := Lvl) c A B).A w = A w := by dsimp only [dat2]
theorem after2_0 (t : Fin cfg2.N) : (dat2 (Ix := Ix) (Name := Name) (U := U) (Lvl := Lvl) c A B).after 0 t = iblk2 c A 0 t := by dsimp only [dat2]
theorem after2_1 (t : Fin cfg2.N) : (dat2 (Ix := Ix) (Name := Name) (U := U) (Lvl := Lvl) c A B).after 1 t = iblk2 c A 1 t := by dsimp only [dat2]
theorem after2_2 (t : Fin cfg2.N) : (dat2 (Ix := Ix) (Name := Name) (U := U) (Lvl := Lvl) c A B).after 2 t = iblk2 c A 2 t := by dsimp only [dat2]
theorem after2_3 (t : Fin cfg2.N) : (dat2 (Ix := Ix) (Name := Name) (U := U) (Lvl := Lvl) c A B).after 3 t = iblk2 c A 3 t := by dsimp only [dat2]
theorem after2_4 (t : Fin cfg2.N) : (dat2 (Ix := Ix) (Name := Name) (U := U) (Lvl := Lvl) c A B).after 4 t = iblk2 c A 4 t := by dsimp only [dat2]
theorem after2_5 (t : Fin cfg2.N) : (dat2 (Ix := Ix) (Name := Name) (U := U) (Lvl := Lvl) c A B).after 5 t = accAt2 c A t.val t.isLt := by dsimp only [dat2]

/-- Input window 0's current staging buffer holds its block at every point, fetched there or not. -/
theorem before2_0 (t : Fin cfg2.N) (d) : (dat2 (Ix := Ix) (Name := Name) (U := U) (Lvl := Lvl) c A B).before 0 t d = iblk2 c A 0 t :=
  ((dat2 (Ix := Ix) (Name := Name) (U := U) (Lvl := Lvl) c A B).before_in_eq_fetched 0 rfl (fun _ => rfl) (fun _ _ _ => rfl) (fun t => by rw [after2_0]; unfold Dat.blockOf iblk2; rw [A2_eq]; try rfl) t d).trans
    (by unfold Dat.fetched Dat.blockOf iblk2; rw [A2_eq]; try rfl)
/-- Input window 1's current staging buffer holds its block at every point, fetched there or not. -/
theorem before2_1 (t : Fin cfg2.N) (d) : (dat2 (Ix := Ix) (Name := Name) (U := U) (Lvl := Lvl) c A B).before 1 t d = iblk2 c A 1 t :=
  ((dat2 (Ix := Ix) (Name := Name) (U := U) (Lvl := Lvl) c A B).before_in_eq_fetched 1 rfl (fun _ => rfl) (fun _ _ _ => rfl) (fun t => by rw [after2_1]; unfold Dat.blockOf iblk2; rw [A2_eq]; try rfl) t d).trans
    (by unfold Dat.fetched Dat.blockOf iblk2; rw [A2_eq]; try rfl)
/-- Input window 2's current staging buffer holds its block at every point, fetched there or not. -/
theorem before2_2 (t : Fin cfg2.N) (d) : (dat2 (Ix := Ix) (Name := Name) (U := U) (Lvl := Lvl) c A B).before 2 t d = iblk2 c A 2 t :=
  ((dat2 (Ix := Ix) (Name := Name) (U := U) (Lvl := Lvl) c A B).before_in_eq_fetched 2 rfl (fun _ => rfl) (fun _ _ _ => rfl) (fun t => by rw [after2_2]; unfold Dat.blockOf iblk2; rw [A2_eq]; try rfl) t d).trans
    (by unfold Dat.fetched Dat.blockOf iblk2; rw [A2_eq]; try rfl)
/-- Input window 3's current staging buffer holds its block at every point, fetched there or not. -/
theorem before2_3 (t : Fin cfg2.N) (d) : (dat2 (Ix := Ix) (Name := Name) (U := U) (Lvl := Lvl) c A B).before 3 t d = iblk2 c A 3 t :=
  ((dat2 (Ix := Ix) (Name := Name) (U := U) (Lvl := Lvl) c A B).before_in_eq_fetched 3 rfl (fun _ => rfl) (fun _ _ _ => rfl) (fun t => by rw [after2_3]; unfold Dat.blockOf iblk2; rw [A2_eq]; try rfl) t d).trans
    (by unfold Dat.fetched Dat.blockOf iblk2; rw [A2_eq]; try rfl)
/-- Input window 4's current staging buffer holds its block at every point, fetched there or not. -/
theorem before2_4 (t : Fin cfg2.N) (d) : (dat2 (Ix := Ix) (Name := Name) (U := U) (Lvl := Lvl) c A B).before 4 t d = iblk2 c A 4 t :=
  ((dat2 (Ix := Ix) (Name := Name) (U := U) (Lvl := Lvl) c A B).before_in_eq_fetched 4 rfl (fun _ => rfl) (fun _ _ _ => rfl) (fun t => by rw [after2_4]; unfold Dat.blockOf iblk2; rw [A2_eq]; try rfl) t d).trans
    (by unfold Dat.fetched Dat.blockOf iblk2; rw [A2_eq]; try rfl)

/-- At the first point the output's staging buffer holds whatever it held. -/
theorem before2_5_first (t : Fin cfg2.N) (h0 : t.val = 0) (d) : (dat2 (Ix := Ix) (Name := Name) (U := U) (Lvl := Lvl) c A B).before 5 t d = d :=
  Dat.before_out_reset _ 5 rfl t (.inl h0) d

/-- At a later point it holds what the body left at the point before: it is written back at the last point only. -/
theorem before2_5_later (t : Fin cfg2.N) (h0 : ¬t.val = 0) (d) :
    (dat2 (Ix := Ix) (Name := Name) (U := U) (Lvl := Lvl) c A B).before 5 t d = accAt2 c A (t.val - 1) (Nat.lt_of_le_of_lt (Nat.sub_le _ _) t.isLt) := by
  have hN : t.val < 8 := lt_of_lt_of_eq t.isLt (show cfg2.N = 8 from N_2)
  rw [Dat.before_out_kept _ 5 rfl t h0 (Bool.eq_false_iff.mpr fun h => by have := (flush2_5 _).mp h; dsimp only at this; omega)
    (fun _ => rfl) (fun _ _ => rfl)]
  dsimp only [dat2]

/-- What the body is called with at point `t`, the windows one by one, -/
def bodyPre2 (ι : Ix) (t : Fin cfg2.N) : sProp 𝕄 :=
  iprop((dat2 (Ix := Ix) (Name := Name) (U := U) (Lvl := Lvl) c A B).Φ t.castSucc ∗ (dat2 (Ix := Ix) (Name := Name) (U := U) (Lvl := Lvl) c A B).owesAt ι t.castSucc
    ∗ (∃ d, owns (c : Thread nD τ) (ms2_0 t) fullShare ((dat2 (Ix := Ix) (Name := Name) (U := U) (Lvl := Lvl) c A B).before 0 t d))
    ∗ (∃ d, owns (c : Thread nD τ) (ms2_1 t) fullShare ((dat2 (Ix := Ix) (Name := Name) (U := U) (Lvl := Lvl) c A B).before 1 t d))
    ∗ (∃ d, owns (c : Thread nD τ) (ms2_2 t) fullShare ((dat2 (Ix := Ix) (Name := Name) (U := U) (Lvl := Lvl) c A B).before 2 t d))
    ∗ (∃ d, owns (c : Thread nD τ) (ms2_3 t) fullShare ((dat2 (Ix := Ix) (Name := Name) (U := U) (Lvl := Lvl) c A B).before 3 t d))
    ∗ (∃ d, owns (c : Thread nD τ) (ms2_4 t) fullShare ((dat2 (Ix := Ix) (Name := Name) (U := U) (Lvl := Lvl) c A B).before 4 t d))
    ∗ (∃ d, owns (c : Thread nD τ) (ms2_5 t) fullShare ((dat2 (Ix := Ix) (Name := Name) (U := U) (Lvl := Lvl) c A B).before 5 t d)))

/-- and what it returns. -/
def bodyPost2 (ι : Ix) (t : Fin cfg2.N) : sProp 𝕄 :=
  iprop((dat2 (Ix := Ix) (Name := Name) (U := U) (Lvl := Lvl) c A B).Φ t.succ ∗ (dat2 (Ix := Ix) (Name := Name) (U := U) (Lvl := Lvl) c A B).owesAt ι t.succ
    ∗ owns (c : Thread nD τ) (ms2_0 t) fullShare ((dat2 (Ix := Ix) (Name := Name) (U := U) (Lvl := Lvl) c A B).after 0 t)
    ∗ owns (c : Thread nD τ) (ms2_1 t) fullShare ((dat2 (Ix := Ix) (Name := Name) (U := U) (Lvl := Lvl) c A B).after 1 t)
    ∗ owns (c : Thread nD τ) (ms2_2 t) fullShare ((dat2 (Ix := Ix) (Name := Name) (U := U) (Lvl := Lvl) c A B).after 2 t)
    ∗ owns (c : Thread nD τ) (ms2_3 t) fullShare ((dat2 (Ix := Ix) (Name := Name) (U := U) (Lvl := Lvl) c A B).after 3 t)
    ∗ owns (c : Thread nD τ) (ms2_4 t) fullShare ((dat2 (Ix := Ix) (Name := Name) (U := U) (Lvl := Lvl) c A B).after 4 t)
    ∗ owns (c : Thread nD τ) (ms2_5 t) fullShare ((dat2 (Ix := Ix) (Name := Name) (U := U) (Lvl := Lvl) c A B).after 5 t))

set_option maxHeartbeats 1000000 in
/-- The body at any point: the inputs' buffers hold their blocks, the output's what the point before left (anything at the
    first point, where the result does not depend on it); the whole-body run applies; the invariant passes through unread;
    the core owes nothing throughout. -/
theorem sound_body2 (ι : Ix) (t : Fin cfg2.N) :
    (bodyPre2 (Name := Name) (U := U) (Lvl := Lvl) c A B ι t : sProp 𝕄) ⊢ wp frame (wpE (defs₀ (F := F)) Variants.none c none) Set.univ (bodyAt2 t) (fun _ => (bodyPost2 (Name := Name) (U := U) (Lvl := Lvl) c A B ι t : sProp 𝕄)) := by
  unfold bodyPre2 bodyPost2 bodyAt2
  simp only [before2_0, before2_1, before2_2, before2_3, before2_4]
  rw [show (dat2 (Ix := Ix) (Name := Name) (U := U) (Lvl := Lvl) c A B).Φ t.succ = (dat2 (Ix := Ix) (Name := Name) (U := U) (Lvl := Lvl) c A B).Φ t.castSucc from rfl, show (dat2 (Ix := Ix) (Name := Name) (U := U) (Lvl := Lvl) c A B).owesAt ι t.succ = (dat2 (Ix := Ix) (Name := Name) (U := U) (Lvl := Lvl) c A B).owesAt ι t.castSucc from rfl,
    after2_0, after2_1, after2_2, after2_3, after2_4, after2_5]
  by_cases h0 : t.val = 0
  · simp only [before2_5_first c A B t h0]
    iintro ⟨HΦ, Ho, ⟨%d0, H0⟩, ⟨%d1, H1⟩, ⟨%d2, H2⟩, ⟨%d3, H3⟩, ⟨%d4, H4⟩, ⟨%d5, H5⟩⟩
    rw [accAt2_first c A t h0 d5]
    iapply (bodyRun2 c (grid2.coords t) _ _ _ _ _ _ _ _ _ _ _ _ _ _ _ _ _ d5 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before2_5_later c A B t h0]
    rw [accAt2_later c A t h0]
    iintro ⟨HΦ, Ho, ⟨%d0, H0⟩, ⟨%d1, H1⟩, ⟨%d2, H2⟩, ⟨%d3, H3⟩, ⟨%d4, H4⟩, ⟨%d5, H5⟩⟩
    iapply (bodyRun2 c (grid2.coords t) _ _ _ _ _ _ _ _ _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation2 (ι : Ix) : BodyObligation (dat2 (Ix := Ix) (Name := Name) (U := U) (Lvl := Lvl) c A B) (defs₀ (F := F)) Variants.none ι Set.univ := fun t => by
  rw [bigSep_W2, bigSep_W2]
  exact sound_body2 (Name := Name) (U := U) (Lvl := Lvl) c A B ι t

end Dat2

/-! ### Call 0: what the output array ends holding -/

theorem lt7_2 : 7 < cfg2.N := t2_7.isLt

section Seg2
variable (c : Dev nD) (A : Arr2 (F := F) c) (B : Set (SemLoc sig × Ix))

/-- The output array after the call, as the library computes it (the last point's write-back), is the running sum after
    the last point. -/
theorem arrAt2_5 : (dat2 (Ix := Ix) (Name := Name) (U := U) (Lvl := Lvl) c A B).arrAt 5 cfg2.N = accAt2 c A 7 lt7_2 := by
  refine Dat.arrAt_eq_of_cover (dat2 (Ix := Ix) (Name := Name) (U := U) (Lvl := Lvl) c A B) 5 (accAt2 c A 7 lt7_2) (fun t hf => ?_)
    (fun i => ⟨t2_7, (flush2_5 t2_7).mpr rfl, ?_⟩)
  · have hN : t.val < 8 := lt_of_lt_of_eq t.isLt (show cfg2.N = 8 from N_2)
    have h7 : t.val = 7 := by have := (flush2_5 t).mp hf; omega
    obtain rfl : t = t2_7 := Fin.ext h7
    funext y
    rw [View.read_apply, cast_eq]
    exact congrArg (accAt2 c A 7 lt7_2) (Subsingleton.elim _ _)
  · have x : S1x1.Idx := fun a => ⟨0, by have : S1x1.size a = 1 := by fin_cases a <;> rfl
                                         omega⟩
    have := ((cfg2.win 5).blk t2_7).view.emb_mem_set x
    rwa [show i = ((cfg2.win 5).blk t2_7).view.emb x from @Subsingleton.elim S1x1.Idx _ _ _]

end Seg2

/-- The six arrays' contents after call 0: the inputs as entered, the output at the running sum after the last point. -/
def out2 (c : Dev nD) (A : Arr2 (F := F) c) : Arr2 (F := F) c := fun w => match w with
  | ⟨0, _⟩ => A 0
  | ⟨1, _⟩ => A 1
  | ⟨2, _⟩ => A 2
  | ⟨3, _⟩ => A 3
  | ⟨4, _⟩ => A 4
  | ⟨5, _⟩ => accAt2 c A 7 lt7_2

theorem out2_0 (c : Dev nD) (A : Arr2 (F := F) c) : out2 c A 0 = A 0 := rfl
theorem out2_1 (c : Dev nD) (A : Arr2 (F := F) c) : out2 c A 1 = A 1 := rfl
theorem out2_2 (c : Dev nD) (A : Arr2 (F := F) c) : out2 c A 2 = A 2 := rfl
theorem out2_3 (c : Dev nD) (A : Arr2 (F := F) c) : out2 c A 3 = A 3 := rfl
theorem out2_4 (c : Dev nD) (A : Arr2 (F := F) c) : out2 c A 4 = A 4 := rfl
theorem out2_5 (c : Dev nD) (A : Arr2 (F := F) c) : out2 c A 5 = accAt2 c A 7 lt7_2 := rfl

/-- The thread state call 0 is entered from and the one it leaves: its six arrays whole at the full share at contents `A`,
    and the core owing nothing with its recorded pairs within `B`. (Entered at the entry contents and `B`; left at `out2` of
    them and `B` with the staging semaphores' pairs at index `ι`.) -/
def held2 (c : Dev nD) (A : Arr2 (F := F) c) (B : Set (SemLoc sig × Ix)) : sProp 𝕄 :=
  iprop((((c : Thread nD τ).loc main_v13) ↦{fullShare} A 0) ∗ (((c : Thread nD τ).loc main_v11) ↦{fullShare} A 1)
    ∗ (((c : Thread nD τ).loc main_v1) ↦{fullShare} A 2) ∗ (((c : Thread nD τ).loc main_arg1) ↦{fullShare} A 3)
    ∗ (((c : Thread nD τ).loc main_v10) ↦{fullShare} A 4) ∗ (((c : Thread nD τ).loc main_v16) ↦{fullShare} A 5)
    ∗ Pipeline.owesWithin c (0 : CellTallies nD τ sig Ix) B)

/-! ## Call 1 (`cc3__tc_body`): blocks, the running sum, the proof data -/

/-- Entry contents of the six arrays of call 1, by window: 0 ↦ `main_v15`, 1 ↦ `main_v11`, 2 ↦ `main_v1`, 3 ↦ `main_arg1`, 4 ↦ `main_v10`, 5 ↦ `main_v17`. -/
abbrev Arr3 (c : Dev nD) : Type := (w : Fin 6) → Buf (Elt F) ((c : Thread nD τ).loc (Pipeline.arrRef spec3 w))

/-- Window `w`'s block at point `t`, read off the array's entry contents. -/
def iblk3 (c : Dev nD) (A : Arr3 (F := F) c) (w : Fin cfg3.W) (t : Fin cfg3.N) :
    ((cfg3.win w).xblock (cfg3.grid.coords t)).Idx → Elt F (cfg3.win w).elt :=
  ((cfg3.win w).blk t).view.read (Elt F) (A w)

abbrev ms3_0 (t : Fin cfg3.N) : Memref sig .tc .vmem S3x1024x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S16x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x64 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1 .f32 := win3_5.stage (cfg3.slots t 5)
abbrev hs3_5 (t : Fin cfg3.N) : (ms3_5 t).IsWhole := hstage3_5 ((cfg3.slots t 5).cast nbuf3_5)

/-- The grid is one axis of 8 points: a point's coordinate is its position. -/
theorem coords3_val : ∀ t : Fin cfg3.N, ((grid3.coords t) 0).val = t.val :=
  (by decide +kernel : ∀ t : Fin grid3.N, ((grid3.coords t) 0).val = t.val)

/-- At the first grid point the stored value does not depend on what the output buffer held: the body selects the
    point's own share there, not the sum. -/
theorem k3_pay1_first (v65 v81 : FVec F S1024x64 .f32) (v119 : FVec F S1024x1 .f32) (v124 : F .f32) (v128 : FVec F S1x1x1 .f32)
    (v v' : Vec F S1x1 .f32) :
    k3_pay1 (BitVec.ofNat 32 0) v65 v81 v119 v124 v128 v = k3_pay1 (BitVec.ofNat 32 0) v65 v81 v119 v124 v128 v' := by
  unfold k3_pay1
  rfl

theorem outStep3_first (i : grid3.Coords) (hi : (i 0).val = 0) (x0 : Vec F S3x1024x128 .f32) (x1 : Vec F S1024x1 .i32)
    (x2 : Vec F S128x1024 .f32) (x3 : Vec F S16x64 .f32) (x4 : Vec F S1024x64 .bf16) (d d' : Vec F S1x1 .f32) :
    outStep3 i x0 x1 x2 x3 x4 d = outStep3 i x0 x1 x2 x3 x4 d' := by
  unfold outStep3
  dsimp only
  rw [hi]
  exact k3_pay1_first _ _ _ _ _ _ _

/-- THE RUNNING SUM: what the output's staging buffer holds after the body at point `n`: `outStep3` at the point's blocks
    over what it held after the point before (the buffer is written back at the last point only). -/
def accAt3 (c : Dev nD) (A : Arr3 (F := F) c) : (n : ℕ) → n < cfg3.N → Vec F S1x1 .f32
  | 0, hn => outStep3 (grid3.coords ⟨0, hn⟩) (iblk3 c A 0 ⟨0, hn⟩) (iblk3 c A 1 ⟨0, hn⟩) (iblk3 c A 2 ⟨0, hn⟩)
      (iblk3 c A 3 ⟨0, hn⟩) (iblk3 c A 4 ⟨0, hn⟩) zero11
  | n + 1, hn => outStep3 (grid3.coords ⟨n + 1, hn⟩) (iblk3 c A 0 ⟨n + 1, hn⟩) (iblk3 c A 1 ⟨n + 1, hn⟩) (iblk3 c A 2 ⟨n + 1, hn⟩)
      (iblk3 c A 3 ⟨n + 1, hn⟩) (iblk3 c A 4 ⟨n + 1, hn⟩) (accAt3 c A n (Nat.lt_of_succ_lt hn))

theorem accAt3_first (c : Dev nD) (A : Arr3 (F := F) c) (t : Fin cfg3.N) (h0 : t.val = 0) (d : Vec F S1x1 .f32) :
    accAt3 c A t.val t.isLt = outStep3 (grid3.coords t) (iblk3 c A 0 t) (iblk3 c A 1 t) (iblk3 c A 2 t) (iblk3 c A 3 t) (iblk3 c A 4 t) d := by
  obtain ⟨n, hn⟩ := t
  cases n with
  | zero => exact outStep3_first _ ((coords3_val _).trans rfl) _ _ _ _ _ _ _
  | succ n => exact absurd h0 (Nat.succ_ne_zero n)

theorem accAt3_later (c : Dev nD) (A : Arr3 (F := F) c) (t : Fin cfg3.N) (h0 : ¬t.val = 0) :
    accAt3 c A t.val t.isLt = outStep3 (grid3.coords t) (iblk3 c A 0 t) (iblk3 c A 1 t) (iblk3 c A 2 t) (iblk3 c A 3 t) (iblk3 c A 4 t)
      (accAt3 c A (t.val - 1) (Nat.lt_of_le_of_lt (Nat.sub_le _ _) t.isLt)) := by
  obtain ⟨n, hn⟩ := t
  cases n with
  | zero => exact absurd rfl h0
  | succ n => rfl

/-- The proof data of call 1 on core `c`, entered at array contents `A`: after the body at point `t` each input's buffer at
    its block and the output's at the running sum; the invariant the scoped buffers the pipeline does not stage; nothing
    owed, the pairs the core's waits have recorded before the call within `B`; full shares. -/
def dat3 (c : Dev nD) (A : Arr3 (F := F) c) (B : Set (SemLoc sig × Ix)) : Dat τ (Elt F) Ix Name U Lvl cfg3 c where
  A w := A w
  after w t := match w with
    | ⟨0, _⟩ => iblk3 c A 0 t
    | ⟨1, _⟩ => iblk3 c A 1 t
    | ⟨2, _⟩ => iblk3 c A 2 t
    | ⟨3, _⟩ => iblk3 c A 3 t
    | ⟨4, _⟩ => iblk3 c A 4 t
    | ⟨5, _⟩ => accAt3 c A t.val t.isLt
  Φ _ := Pipeline.scopedRest (Ix := Ix) (Name := Name) (U := U) (Lvl := Lvl) (Val := Elt F) spec3 c
  q _ := fullShare
  owed _ := 0
  recorded _ := B

section Dat3
variable (c : Dev nD) (A : Arr3 (F := F) c) (B : Set (SemLoc sig × Ix))

theorem A3_eq (w : Fin cfg3.W) : (dat3 (Ix := Ix) (Name := Name) (U := U) (Lvl := Lvl) c A B).A w = A w := by dsimp only [dat3]
theorem after3_0 (t : Fin cfg3.N) : (dat3 (Ix := Ix) (Name := Name) (U := U) (Lvl := Lvl) c A B).after 0 t = iblk3 c A 0 t := by dsimp only [dat3]
theorem after3_1 (t : Fin cfg3.N) : (dat3 (Ix := Ix) (Name := Name) (U := U) (Lvl := Lvl) c A B).after 1 t = iblk3 c A 1 t := by dsimp only [dat3]
theorem after3_2 (t : Fin cfg3.N) : (dat3 (Ix := Ix) (Name := Name) (U := U) (Lvl := Lvl) c A B).after 2 t = iblk3 c A 2 t := by dsimp only [dat3]
theorem after3_3 (t : Fin cfg3.N) : (dat3 (Ix := Ix) (Name := Name) (U := U) (Lvl := Lvl) c A B).after 3 t = iblk3 c A 3 t := by dsimp only [dat3]
theorem after3_4 (t : Fin cfg3.N) : (dat3 (Ix := Ix) (Name := Name) (U := U) (Lvl := Lvl) c A B).after 4 t = iblk3 c A 4 t := by dsimp only [dat3]
theorem after3_5 (t : Fin cfg3.N) : (dat3 (Ix := Ix) (Name := Name) (U := U) (Lvl := Lvl) c A B).after 5 t = accAt3 c A t.val t.isLt := by dsimp only [dat3]

/-- Input window 0's current staging buffer holds its block at every point, fetched there or not. -/
theorem before3_0 (t : Fin cfg3.N) (d) : (dat3 (Ix := Ix) (Name := Name) (U := U) (Lvl := Lvl) c A B).before 0 t d = iblk3 c A 0 t :=
  ((dat3 (Ix := Ix) (Name := Name) (U := U) (Lvl := Lvl) c A B).before_in_eq_fetched 0 rfl (fun _ => rfl) (fun _ _ _ => rfl) (fun t => by rw [after3_0]; unfold Dat.blockOf iblk3; rw [A3_eq]; try rfl) t d).trans
    (by unfold Dat.fetched Dat.blockOf iblk3; rw [A3_eq]; try rfl)
/-- Input window 1's current staging buffer holds its block at every point, fetched there or not. -/
theorem before3_1 (t : Fin cfg3.N) (d) : (dat3 (Ix := Ix) (Name := Name) (U := U) (Lvl := Lvl) c A B).before 1 t d = iblk3 c A 1 t :=
  ((dat3 (Ix := Ix) (Name := Name) (U := U) (Lvl := Lvl) c A B).before_in_eq_fetched 1 rfl (fun _ => rfl) (fun _ _ _ => rfl) (fun t => by rw [after3_1]; unfold Dat.blockOf iblk3; rw [A3_eq]; try rfl) t d).trans
    (by unfold Dat.fetched Dat.blockOf iblk3; rw [A3_eq]; try rfl)
/-- Input window 2's current staging buffer holds its block at every point, fetched there or not. -/
theorem before3_2 (t : Fin cfg3.N) (d) : (dat3 (Ix := Ix) (Name := Name) (U := U) (Lvl := Lvl) c A B).before 2 t d = iblk3 c A 2 t :=
  ((dat3 (Ix := Ix) (Name := Name) (U := U) (Lvl := Lvl) c A B).before_in_eq_fetched 2 rfl (fun _ => rfl) (fun _ _ _ => rfl) (fun t => by rw [after3_2]; unfold Dat.blockOf iblk3; rw [A3_eq]; try rfl) t d).trans
    (by unfold Dat.fetched Dat.blockOf iblk3; rw [A3_eq]; try rfl)
/-- Input window 3's current staging buffer holds its block at every point, fetched there or not. -/
theorem before3_3 (t : Fin cfg3.N) (d) : (dat3 (Ix := Ix) (Name := Name) (U := U) (Lvl := Lvl) c A B).before 3 t d = iblk3 c A 3 t :=
  ((dat3 (Ix := Ix) (Name := Name) (U := U) (Lvl := Lvl) c A B).before_in_eq_fetched 3 rfl (fun _ => rfl) (fun _ _ _ => rfl) (fun t => by rw [after3_3]; unfold Dat.blockOf iblk3; rw [A3_eq]; try rfl) t d).trans
    (by unfold Dat.fetched Dat.blockOf iblk3; rw [A3_eq]; try rfl)
/-- Input window 4's current staging buffer holds its block at every point, fetched there or not. -/
theorem before3_4 (t : Fin cfg3.N) (d) : (dat3 (Ix := Ix) (Name := Name) (U := U) (Lvl := Lvl) c A B).before 4 t d = iblk3 c A 4 t :=
  ((dat3 (Ix := Ix) (Name := Name) (U := U) (Lvl := Lvl) c A B).before_in_eq_fetched 4 rfl (fun _ => rfl) (fun _ _ _ => rfl) (fun t => by rw [after3_4]; unfold Dat.blockOf iblk3; rw [A3_eq]; try rfl) t d).trans
    (by unfold Dat.fetched Dat.blockOf iblk3; rw [A3_eq]; try rfl)

/-- At the first point the output's staging buffer holds whatever it held. -/
theorem before3_5_first (t : Fin cfg3.N) (h0 : t.val = 0) (d) : (dat3 (Ix := Ix) (Name := Name) (U := U) (Lvl := Lvl) c A B).before 5 t d = d :=
  Dat.before_out_reset _ 5 rfl t (.inl h0) d

/-- At a later point it holds what the body left at the point before: it is written back at the last point only. -/
theorem before3_5_later (t : Fin cfg3.N) (h0 : ¬t.val = 0) (d) :
    (dat3 (Ix := Ix) (Name := Name) (U := U) (Lvl := Lvl) c A B).before 5 t d = accAt3 c A (t.val - 1) (Nat.lt_of_le_of_lt (Nat.sub_le _ _) t.isLt) := by
  have hN : t.val < 8 := lt_of_lt_of_eq t.isLt (show cfg3.N = 8 from N_3)
  rw [Dat.before_out_kept _ 5 rfl t h0 (Bool.eq_false_iff.mpr fun h => by have := (flush3_5 _).mp h; dsimp only at this; omega)
    (fun _ => rfl) (fun _ _ => rfl)]
  dsimp only [dat3]

/-- What the body is called with at point `t`, the windows one by one, -/
def bodyPre3 (ι : Ix) (t : Fin cfg3.N) : sProp 𝕄 :=
  iprop((dat3 (Ix := Ix) (Name := Name) (U := U) (Lvl := Lvl) c A B).Φ t.castSucc ∗ (dat3 (Ix := Ix) (Name := Name) (U := U) (Lvl := Lvl) c A B).owesAt ι t.castSucc
    ∗ (∃ d, owns (c : Thread nD τ) (ms3_0 t) fullShare ((dat3 (Ix := Ix) (Name := Name) (U := U) (Lvl := Lvl) c A B).before 0 t d))
    ∗ (∃ d, owns (c : Thread nD τ) (ms3_1 t) fullShare ((dat3 (Ix := Ix) (Name := Name) (U := U) (Lvl := Lvl) c A B).before 1 t d))
    ∗ (∃ d, owns (c : Thread nD τ) (ms3_2 t) fullShare ((dat3 (Ix := Ix) (Name := Name) (U := U) (Lvl := Lvl) c A B).before 2 t d))
    ∗ (∃ d, owns (c : Thread nD τ) (ms3_3 t) fullShare ((dat3 (Ix := Ix) (Name := Name) (U := U) (Lvl := Lvl) c A B).before 3 t d))
    ∗ (∃ d, owns (c : Thread nD τ) (ms3_4 t) fullShare ((dat3 (Ix := Ix) (Name := Name) (U := U) (Lvl := Lvl) c A B).before 4 t d))
    ∗ (∃ d, owns (c : Thread nD τ) (ms3_5 t) fullShare ((dat3 (Ix := Ix) (Name := Name) (U := U) (Lvl := Lvl) c A B).before 5 t d)))

/-- and what it returns. -/
def bodyPost3 (ι : Ix) (t : Fin cfg3.N) : sProp 𝕄 :=
  iprop((dat3 (Ix := Ix) (Name := Name) (U := U) (Lvl := Lvl) c A B).Φ t.succ ∗ (dat3 (Ix := Ix) (Name := Name) (U := U) (Lvl := Lvl) c A B).owesAt ι t.succ
    ∗ owns (c : Thread nD τ) (ms3_0 t) fullShare ((dat3 (Ix := Ix) (Name := Name) (U := U) (Lvl := Lvl) c A B).after 0 t)
    ∗ owns (c : Thread nD τ) (ms3_1 t) fullShare ((dat3 (Ix := Ix) (Name := Name) (U := U) (Lvl := Lvl) c A B).after 1 t)
    ∗ owns (c : Thread nD τ) (ms3_2 t) fullShare ((dat3 (Ix := Ix) (Name := Name) (U := U) (Lvl := Lvl) c A B).after 2 t)
    ∗ owns (c : Thread nD τ) (ms3_3 t) fullShare ((dat3 (Ix := Ix) (Name := Name) (U := U) (Lvl := Lvl) c A B).after 3 t)
    ∗ owns (c : Thread nD τ) (ms3_4 t) fullShare ((dat3 (Ix := Ix) (Name := Name) (U := U) (Lvl := Lvl) c A B).after 4 t)
    ∗ owns (c : Thread nD τ) (ms3_5 t) fullShare ((dat3 (Ix := Ix) (Name := Name) (U := U) (Lvl := Lvl) c A B).after 5 t))

set_option maxHeartbeats 1000000 in
/-- The body at any point: the inputs' buffers hold their blocks, the output's what the point before left (anything at the
    first point, where the result does not depend on it); the whole-body run applies; the invariant passes through unread;
    the core owes nothing throughout. -/
theorem sound_body3 (ι : Ix) (t : Fin cfg3.N) :
    (bodyPre3 (Name := Name) (U := U) (Lvl := Lvl) c A B ι t : sProp 𝕄) ⊢ wp frame (wpE (defs₀ (F := F)) Variants.none c none) Set.univ (bodyAt3 t) (fun _ => (bodyPost3 (Name := Name) (U := U) (Lvl := Lvl) c A B ι t : sProp 𝕄)) := by
  unfold bodyPre3 bodyPost3 bodyAt3
  simp only [before3_0, before3_1, before3_2, before3_3, before3_4]
  rw [show (dat3 (Ix := Ix) (Name := Name) (U := U) (Lvl := Lvl) c A B).Φ t.succ = (dat3 (Ix := Ix) (Name := Name) (U := U) (Lvl := Lvl) c A B).Φ t.castSucc from rfl, show (dat3 (Ix := Ix) (Name := Name) (U := U) (Lvl := Lvl) c A B).owesAt ι t.succ = (dat3 (Ix := Ix) (Name := Name) (U := U) (Lvl := Lvl) c A B).owesAt ι t.castSucc from rfl,
    after3_0, after3_1, after3_2, after3_3, after3_4, after3_5]
  by_cases h0 : t.val = 0
  · simp only [before3_5_first c A B t h0]
    iintro ⟨HΦ, Ho, ⟨%d0, H0⟩, ⟨%d1, H1⟩, ⟨%d2, H2⟩, ⟨%d3, H3⟩, ⟨%d4, H4⟩, ⟨%d5, H5⟩⟩
    rw [accAt3_first c A t h0 d5]
    iapply (bodyRun3 c (grid3.coords t) _ _ _ _ _ _ _ _ _ _ _ _ _ _ _ _ _ d5 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before3_5_later c A B t h0]
    rw [accAt3_later c A t h0]
    iintro ⟨HΦ, Ho, ⟨%d0, H0⟩, ⟨%d1, H1⟩, ⟨%d2, H2⟩, ⟨%d3, H3⟩, ⟨%d4, H4⟩, ⟨%d5, H5⟩⟩
    iapply (bodyRun3 c (grid3.coords t) _ _ _ _ _ _ _ _ _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation3 (ι : Ix) : BodyObligation (dat3 (Ix := Ix) (Name := Name) (U := U) (Lvl := Lvl) c A B) (defs₀ (F := F)) Variants.none ι Set.univ := fun t => by
  rw [bigSep_W3, bigSep_W3]
  exact sound_body3 (Name := Name) (U := U) (Lvl := Lvl) c A B ι t

end Dat3

/-! ### Call 1: what the output array ends holding -/

theorem lt7_3 : 7 < cfg3.N := t3_7.isLt

section Seg3
variable (c : Dev nD) (A : Arr3 (F := F) c) (B : Set (SemLoc sig × Ix))

/-- The output array after the call, as the library computes it (the last point's write-back), is the running sum after
    the last point. -/
theorem arrAt3_5 : (dat3 (Ix := Ix) (Name := Name) (U := U) (Lvl := Lvl) c A B).arrAt 5 cfg3.N = accAt3 c A 7 lt7_3 := by
  refine Dat.arrAt_eq_of_cover (dat3 (Ix := Ix) (Name := Name) (U := U) (Lvl := Lvl) c A B) 5 (accAt3 c A 7 lt7_3) (fun t hf => ?_)
    (fun i => ⟨t3_7, (flush3_5 t3_7).mpr rfl, ?_⟩)
  · have hN : t.val < 8 := lt_of_lt_of_eq t.isLt (show cfg3.N = 8 from N_3)
    have h7 : t.val = 7 := by have := (flush3_5 t).mp hf; omega
    obtain rfl : t = t3_7 := Fin.ext h7
    funext y
    rw [View.read_apply, cast_eq]
    exact congrArg (accAt3 c A 7 lt7_3) (Subsingleton.elim _ _)
  · have x : S1x1.Idx := fun a => ⟨0, by have : S1x1.size a = 1 := by fin_cases a <;> rfl
                                         omega⟩
    have := ((cfg3.win 5).blk t3_7).view.emb_mem_set x
    rwa [show i = ((cfg3.win 5).blk t3_7).view.emb x from @Subsingleton.elim S1x1.Idx _ _ _]

end Seg3

/-- The six arrays' contents after call 1: the inputs as entered, the output at the running sum after the last point. -/
def out3 (c : Dev nD) (A : Arr3 (F := F) c) : Arr3 (F := F) c := fun w => match w with
  | ⟨0, _⟩ => A 0
  | ⟨1, _⟩ => A 1
  | ⟨2, _⟩ => A 2
  | ⟨3, _⟩ => A 3
  | ⟨4, _⟩ => A 4
  | ⟨5, _⟩ => accAt3 c A 7 lt7_3

theorem out3_0 (c : Dev nD) (A : Arr3 (F := F) c) : out3 c A 0 = A 0 := rfl
theorem out3_1 (c : Dev nD) (A : Arr3 (F := F) c) : out3 c A 1 = A 1 := rfl
theorem out3_2 (c : Dev nD) (A : Arr3 (F := F) c) : out3 c A 2 = A 2 := rfl
theorem out3_3 (c : Dev nD) (A : Arr3 (F := F) c) : out3 c A 3 = A 3 := rfl
theorem out3_4 (c : Dev nD) (A : Arr3 (F := F) c) : out3 c A 4 = A 4 := rfl
theorem out3_5 (c : Dev nD) (A : Arr3 (F := F) c) : out3 c A 5 = accAt3 c A 7 lt7_3 := rfl

/-- The thread state call 1 is entered from and the one it leaves: its six arrays whole at the full share at contents `A`,
    and the core owing nothing with its recorded pairs within `B`. (Entered at the entry contents and `B`; left at `out3` of
    them and `B` with the staging semaphores' pairs at index `ι`.) -/
def held3 (c : Dev nD) (A : Arr3 (F := F) c) (B : Set (SemLoc sig × Ix)) : sProp 𝕄 :=
  iprop((((c : Thread nD τ).loc main_v15) ↦{fullShare} A 0) ∗ (((c : Thread nD τ).loc main_v11) ↦{fullShare} A 1)
    ∗ (((c : Thread nD τ).loc main_v1) ↦{fullShare} A 2) ∗ (((c : Thread nD τ).loc main_arg1) ↦{fullShare} A 3)
    ∗ (((c : Thread nD τ).loc main_v10) ↦{fullShare} A 4) ∗ (((c : Thread nD τ).loc main_v17) ↦{fullShare} A 5)
    ∗ Pipeline.owesWithin c (0 : CellTallies nD τ sig Ix) B)

/-- No call has a prefetched table: the admissible tables are the empty ones. -/
abbrev adm : (p : Fin 2) → (pcfgs (F := F) p).Adm := fun p => Pipeline.Cfg.toPCfg_adm (cfgs p)

/-- The proof data of the two calls, by the pipeline's index: call 0 entered at `A0` with recorded pairs within `B0`, call 1
    at `A1` within `B1`. -/
def dats (A0 : (c : Dev nD) → Arr2 (F := F) c) (A1 : (c : Dev nD) → Arr3 (F := F) c) (B0 B1 : Set (SemLoc sig × Ix)) :
    (p : Fin 2) → (c : Dev nD) → Dat τ (Elt F) Ix Name U Lvl (Pipeline.pin (pcfgs (F := F)) adm p) c
  | ⟨0, _⟩ => fun c => dat2 c (A0 c) B0
  | ⟨1, _⟩ => fun c => dat3 c (A1 c) B1

section Regions
variable (A0 : (c : Dev nD) → Arr2 (F := F) c) (A1 : (c : Dev nD) → Arr3 (F := F) c) (B0 B1 : Set (SemLoc sig × Ix))
  (ι : Ix) (L : GSem nD τ sig → Finset Ix) (lv : GSem nD τ sig → Ix → Lvl)

set_option backward.isDefEq.respectTransparency.types false in
/-- CALL 0 AS A REGION of @main: entered from `held2` at the entry contents, left at `held2` at `out2` of them; nothing
    enters the pipeline's invariant but the scoped buffers it does not stage, nothing bypasses the region, the kernel has no
    semaphore of its own. -/
def region2 : Pipeline.RegionSeg (pcfgs (F := F)) adm (dats (Name := Name) (U := U) (Lvl := Lvl) A0 A1 B0 B1) ι defs₀ Variants.none L lv 0 where
  win := launch2.win.to₀
  block_pos := launch2.block_pos
  stage_whole := launch2.stage_whole
  K := PEmpty
  osem k := k.elim
  ho := Pipeline.OwnSemFacts.none _
  hbody c := (body_obligation2 c (A0 c) B0 ι).loose
  hwaits := Pipeline.hwaits_of_owed_zero _ _ _ _ L lv 0 fun _ _ => rfl
  pre c := held2 c (A0 c) B0
  post c := held2 c (out2 c (A0 c)) (B0 ∪ cfg2.waitPairs ι)
  X _ := BI.emp
  Y _ := BI.emp
  Z _ := BI.emp
  hentry c := by
    rw [Pipeline.ownSems0_none, Pipeline.arrays_eq (Pipeline.pin (pcfgs (F := F)) adm) (dats (Name := Name) (U := U) (Lvl := Lvl) A0 A1 B0 B1) 0 c launch2.arr_whole
      (((dats (Name := Name) (U := U) (Lvl := Lvl) A0 A1 B0 B1) 0 c).share_full fun _ => rfl), bigSep_W2]
    unfold held2
    iintro ⟨⟨H0, H1, H2, H3, H4, H5, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · unfold Pipeline.prefHeld; rw [show (Finset.univ : Finset (Fin 0)) = ∅ from rfl, BI.bigSep_empty]; iempintro
    isplitl [HO]
    · iapply (Pipeline.owesWithin_mono c _ (Set.subset_union_left))
      iexact HO
    isplitr <;> iempintro
  hin c := by
    rw [show ((dats (Name := Name) (U := U) (Lvl := Lvl) A0 A1 B0 B1) 0 c).Φ 0 = (Pipeline.scopedRest (Ix := Ix) (Name := Name) (U := U) (Lvl := Lvl) (Val := Elt F) spec2 c) from rfl]
    iintro ⟨-, -, Hr⟩; iexact Hr
  hout c := by
    rw [Pipeline.ownSems0_none, show ((dats (Name := Name) (U := U) (Lvl := Lvl) A0 A1 B0 B1) 0 c).Φ (Fin.last _) = (Pipeline.scopedRest (Ix := Ix) (Name := Name) (U := U) (Lvl := Lvl) (Val := Elt F) spec2 c) from rfl]
    iintro Hr
    isplitr; · iempintro
    isplitr; · iempintro
    iexact Hr
  hexit c := by
    have hF : (fun w => ((dats (Name := Name) (U := U) (Lvl := Lvl) A0 A1 B0 B1) 0 c).arrAt w (Pipeline.pin (pcfgs (F := F)) adm 0).N) = out2 c (A0 c) := funext fun
      | ⟨0, _⟩ => ((dats (Name := Name) (U := U) (Lvl := Lvl) A0 A1 B0 B1) 0 c).arrAt_in 0 rfl _
      | ⟨1, _⟩ => ((dats (Name := Name) (U := U) (Lvl := Lvl) A0 A1 B0 B1) 0 c).arrAt_in 1 rfl _
      | ⟨2, _⟩ => ((dats (Name := Name) (U := U) (Lvl := Lvl) A0 A1 B0 B1) 0 c).arrAt_in 2 rfl _
      | ⟨3, _⟩ => ((dats (Name := Name) (U := U) (Lvl := Lvl) A0 A1 B0 B1) 0 c).arrAt_in 3 rfl _
      | ⟨4, _⟩ => ((dats (Name := Name) (U := U) (Lvl := Lvl) A0 A1 B0 B1) 0 c).arrAt_in 4 rfl _
      | ⟨5, _⟩ => arrAt2_5 c (A0 c) B0
    rw [hF, Pipeline.arrays_eq (Pipeline.pin (pcfgs (F := F)) adm) (dats (Name := Name) (U := U) (Lvl := Lvl) A0 A1 B0 B1) 0 c launch2.arr_whole
      (((dats (Name := Name) (U := U) (Lvl := Lvl) A0 A1 B0 B1) 0 c).share_full fun _ => rfl), bigSep_W2]
    unfold held2
    iintro ⟨⟨H0, H1, H2, H3, H4, H5⟩, HO, -, -⟩
    imodintro
    isplitl [H0]; · iexact H0
    isplitl [H1]; · iexact H1
    isplitl [H2]; · iexact H2
    isplitl [H3]; · iexact H3
    isplitl [H4]; · iexact H4
    isplitl [H5]; · iexact H5
    iexact HO

theorem region2_pre_eq (c : Dev nD) :
    (region2 (Name := Name) (U := U) (Lvl := Lvl) A0 A1 B0 B1 ι L lv).pre c = held2 c (A0 c) B0 := rfl
theorem region2_post_eq (c : Dev nD) :
    (region2 (Name := Name) (U := U) (Lvl := Lvl) A0 A1 B0 B1 ι L lv).post c = held2 c (out2 c (A0 c)) (B0 ∪ cfg2.waitPairs ι) := rfl

set_option backward.isDefEq.respectTransparency.types false in
/-- CALL 1 AS A REGION of @main: entered from `held3` at the entry contents, left at `held3` at `out3` of them; nothing
    enters the pipeline's invariant but the scoped buffers it does not stage, nothing bypasses the region, the kernel has no
    semaphore of its own. -/
def region3 : Pipeline.RegionSeg (pcfgs (F := F)) adm (dats (Name := Name) (U := U) (Lvl := Lvl) A0 A1 B0 B1) ι defs₀ Variants.none L lv 1 where
  win := launch3.win.to₀
  block_pos := launch3.block_pos
  stage_whole := launch3.stage_whole
  K := PEmpty
  osem k := k.elim
  ho := Pipeline.OwnSemFacts.none _
  hbody c := (body_obligation3 c (A1 c) B1 ι).loose
  hwaits := Pipeline.hwaits_of_owed_zero _ _ _ _ L lv 1 fun _ _ => rfl
  pre c := held3 c (A1 c) B1
  post c := held3 c (out3 c (A1 c)) (B1 ∪ cfg3.waitPairs ι)
  X _ := BI.emp
  Y _ := BI.emp
  Z _ := BI.emp
  hentry c := by
    rw [Pipeline.ownSems0_none, Pipeline.arrays_eq (Pipeline.pin (pcfgs (F := F)) adm) (dats (Name := Name) (U := U) (Lvl := Lvl) A0 A1 B0 B1) 1 c launch3.arr_whole
      (((dats (Name := Name) (U := U) (Lvl := Lvl) A0 A1 B0 B1) 1 c).share_full fun _ => rfl), bigSep_W3]
    unfold held3
    iintro ⟨⟨H0, H1, H2, H3, H4, H5, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · unfold Pipeline.prefHeld; rw [show (Finset.univ : Finset (Fin 0)) = ∅ from rfl, BI.bigSep_empty]; iempintro
    isplitl [HO]
    · iapply (Pipeline.owesWithin_mono c _ (Set.subset_union_left))
      iexact HO
    isplitr <;> iempintro
  hin c := by
    rw [show ((dats (Name := Name) (U := U) (Lvl := Lvl) A0 A1 B0 B1) 1 c).Φ 0 = (Pipeline.scopedRest (Ix := Ix) (Name := Name) (U := U) (Lvl := Lvl) (Val := Elt F) spec3 c) from rfl]
    iintro ⟨-, -, Hr⟩; iexact Hr
  hout c := by
    rw [Pipeline.ownSems0_none, show ((dats (Name := Name) (U := U) (Lvl := Lvl) A0 A1 B0 B1) 1 c).Φ (Fin.last _) = (Pipeline.scopedRest (Ix := Ix) (Name := Name) (U := U) (Lvl := Lvl) (Val := Elt F) spec3 c) from rfl]
    iintro Hr
    isplitr; · iempintro
    isplitr; · iempintro
    iexact Hr
  hexit c := by
    have hF : (fun w => ((dats (Name := Name) (U := U) (Lvl := Lvl) A0 A1 B0 B1) 1 c).arrAt w (Pipeline.pin (pcfgs (F := F)) adm 1).N) = out3 c (A1 c) := funext fun
      | ⟨0, _⟩ => ((dats (Name := Name) (U := U) (Lvl := Lvl) A0 A1 B0 B1) 1 c).arrAt_in 0 rfl _
      | ⟨1, _⟩ => ((dats (Name := Name) (U := U) (Lvl := Lvl) A0 A1 B0 B1) 1 c).arrAt_in 1 rfl _
      | ⟨2, _⟩ => ((dats (Name := Name) (U := U) (Lvl := Lvl) A0 A1 B0 B1) 1 c).arrAt_in 2 rfl _
      | ⟨3, _⟩ => ((dats (Name := Name) (U := U) (Lvl := Lvl) A0 A1 B0 B1) 1 c).arrAt_in 3 rfl _
      | ⟨4, _⟩ => ((dats (Name := Name) (U := U) (Lvl := Lvl) A0 A1 B0 B1) 1 c).arrAt_in 4 rfl _
      | ⟨5, _⟩ => arrAt3_5 c (A1 c) B1
    rw [hF, Pipeline.arrays_eq (Pipeline.pin (pcfgs (F := F)) adm) (dats (Name := Name) (U := U) (Lvl := Lvl) A0 A1 B0 B1) 1 c launch3.arr_whole
      (((dats (Name := Name) (U := U) (Lvl := Lvl) A0 A1 B0 B1) 1 c).share_full fun _ => rfl), bigSep_W3]
    unfold held3
    iintro ⟨⟨H0, H1, H2, H3, H4, H5⟩, HO, -, -⟩
    imodintro
    isplitl [H0]; · iexact H0
    isplitl [H1]; · iexact H1
    isplitl [H2]; · iexact H2
    isplitl [H3]; · iexact H3
    isplitl [H4]; · iexact H4
    isplitl [H5]; · iexact H5
    iexact HO

theorem region3_pre_eq (c : Dev nD) :
    (region3 (Name := Name) (U := U) (Lvl := Lvl) A0 A1 B0 B1 ι L lv).pre c = held3 c (A1 c) B1 := rfl
theorem region3_post_eq (c : Dev nD) :
    (region3 (Name := Name) (U := U) (Lvl := Lvl) A0 A1 B0 B1 ι L lv).post c = held3 c (out3 c (A1 c)) (B1 ∪ cfg3.waitPairs ι) := rfl

/-- The two region records by the pipeline's index. -/
def region : (p : Fin 2) → Pipeline.RegionSeg (pcfgs (F := F)) adm (dats (Name := Name) (U := U) (Lvl := Lvl) A0 A1 B0 B1) ι defs₀ Variants.none L lv p
  | ⟨0, _⟩ => region2 A0 A1 B0 B1 ι L lv
  | ⟨1, _⟩ => region3 A0 A1 B0 B1 ι L lv

/-- The same proof data read as relational data, and the region records over it. -/
abbrev rdats : (p : Fin 2) → (c : Dev nD) → Pipeline.RDat τ (Elt F) Ix Name U Lvl (Pipeline.pin (pcfgs (F := F)) adm p) c :=
  Pipeline.Dat.toRs (dats (Name := Name) (U := U) (Lvl := Lvl) A0 A1 B0 B1)

def regionR (p : Fin 2) : Pipeline.RDat.RegionSeg (pcfgs (F := F)) adm (rdats (Name := Name) (U := U) (Lvl := Lvl) A0 A1 B0 B1) ι defs₀ Variants.none L lv p :=
  (region (Name := Name) (U := U) (Lvl := Lvl) A0 A1 B0 B1 ι L lv p).toR

theorem regionR_pre_eq0 (c : Dev nD) : (regionR (Name := Name) (U := U) (Lvl := Lvl) A0 A1 B0 B1 ι L lv 0).pre c = held2 c (A0 c) B0 := rfl
theorem regionR_post_eq0 (c : Dev nD) :
    (regionR (Name := Name) (U := U) (Lvl := Lvl) A0 A1 B0 B1 ι L lv 0).post c = held2 c (out2 c (A0 c)) (B0 ∪ cfg2.waitPairs ι) := rfl
theorem regionR_pre_eq1 (c : Dev nD) : (regionR (Name := Name) (U := U) (Lvl := Lvl) A0 A1 B0 B1 ι L lv 1).pre c = held3 c (A1 c) B1 := rfl
theorem regionR_post_eq1 (c : Dev nD) :
    (regionR (Name := Name) (U := U) (Lvl := Lvl) A0 A1 B0 B1 ι L lv 1).post c = held3 c (out3 c (A1 c)) (B1 ∪ cfg3.waitPairs ι) := rfl

end Regions

end Cert.KernelIdeal.Tc

end
-- ==== Proof.RegArr.lean ====
/-
  The six arrays of each TensorCore kernel region of the kernel's @main: the references, the entry contents by window
  read off a valuation, and the held set over them spelt as six points-to.
-/
import proofs.«211459_g87136296501727_cont_9to1_m_723_16_alg».proof.Proof.KerLaunch
import proofs.«211459_g87136296501727_cont_9to1_m_723_16_alg».proof.Proof.TcRegion

noncomputable section

namespace Cert.KernelIdeal.KerLaunch

open Cert.KernelIdeal Cert.KernelIdeal.Gen Cert.KernelIdeal.MainShape Cert.LaunchKit
open Idealize.ShloMosaic Idealize.ShloMosaic.TcCoe
open Idealize.ShloMosaic.SparseCore (S V T)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ Alg.UU ℕ

/-! ## The six arrays of a region, out of the held set -/

abbrev g0' : DevRef τ sig := (main_v13 : DevRef τ sig)
abbrev g1' : DevRef τ sig := (main_v15 : DevRef τ sig)
abbrev rc' : DevRef τ sig := (main_v11 : DevRef τ sig)
abbrev wl' : DevRef τ sig := (main_v1 : DevRef τ sig)
abbrev rl' : DevRef τ sig := (main_arg1 : DevRef τ sig)
abbrev gs' : DevRef τ sig := (main_v10 : DevRef τ sig)

def T6a : Finset (DevRef τ sig) := {g0', rc', wl', rl', gs', r0'}
def T6b : Finset (DevRef τ sig) := {g1', rc', wl', rl', gs', r1'}

theorem T6a_sub : T6a ⊆ SU := by decide
theorem T6b_sub : T6b ⊆ SU := by decide

/-- The entry contents of the first region's six arrays, by window, from a valuation. -/
def arrA (d : Dev nD) (W : Valuation τ sig (Elt F)) : Tc.Arr2 (F := F) d := fun w => match w with
  | ⟨0, _⟩ => W g0' | ⟨1, _⟩ => W rc' | ⟨2, _⟩ => W wl' | ⟨3, _⟩ => W rl' | ⟨4, _⟩ => W gs' | ⟨5, _⟩ => W r0'
/-- The second region's. -/
def arrB (d : Dev nD) (W : Valuation τ sig (Elt F)) : Tc.Arr3 (F := F) d := fun w => match w with
  | ⟨0, _⟩ => W g1' | ⟨1, _⟩ => W rc' | ⟨2, _⟩ => W wl' | ⟨3, _⟩ => W rl' | ⟨4, _⟩ => W gs' | ⟨5, _⟩ => W r1'

theorem held_T6a (d : Dev nD) (W : Valuation τ sig (Elt F)) :
    (held (T d) T6a W : sProp 𝕄)
      = iprop((((d : Thread nD τ).loc main_v13) ↦{fullShare} W g0') ∗ (((d : Thread nD τ).loc main_v11) ↦{fullShare} W rc')
          ∗ (((d : Thread nD τ).loc main_v1) ↦{fullShare} W wl') ∗ (((d : Thread nD τ).loc main_arg1) ↦{fullShare} W rl')
          ∗ (((d : Thread nD τ).loc main_v10) ↦{fullShare} W gs') ∗ (((d : Thread nD τ).loc main_v16) ↦{fullShare} W r0')) := by
  unfold held T6a
  rw [bigSep_insert' (by decide), bigSep_insert' (by decide), bigSep_insert' (by decide), bigSep_insert' (by decide), bigSep_insert' (by decide), bigSep_singleton]

theorem held_T6b (d : Dev nD) (W : Valuation τ sig (Elt F)) :
    (held (T d) T6b W : sProp 𝕄)
      = iprop((((d : Thread nD τ).loc main_v15) ↦{fullShare} W g1') ∗ (((d : Thread nD τ).loc main_v11) ↦{fullShare} W rc')
          ∗ (((d : Thread nD τ).loc main_v1) ↦{fullShare} W wl') ∗ (((d : Thread nD τ).loc main_arg1) ↦{fullShare} W rl')
          ∗ (((d : Thread nD τ).loc main_v10) ↦{fullShare} W gs') ∗ (((d : Thread nD τ).loc main_v17) ↦{fullShare} W r1')) := by
  unfold held T6b
  rw [bigSep_insert' (by decide), bigSep_insert' (by decide), bigSep_insert' (by decide), bigSep_insert' (by decide), bigSep_insert' (by decide), bigSep_singleton]

end Cert.KernelIdeal.KerLaunch

end
-- ==== Proof.RegStep.lean ====
/-
  A TensorCore kernel region of the kernel's @main, entered from the held set of the core's unscoped buffers: the six
  arrays of the region's windows are taken out of the set, the region is run through the pipeline library's rule for a
  kernel region (lifted to the program's extended body table), and the set is taken back with the region's output at
  the eight points' accumulated value.
-/
import proofs.«211459_g87136296501727_cont_9to1_m_723_16_alg».proof.Proof.RegArr

noncomputable section

namespace Cert.KernelIdeal.KerLaunch

open Cert.KernelIdeal Cert.KernelIdeal.Gen Cert.KernelIdeal.MainShape Cert.LaunchKit
open Idealize.ShloMosaic Idealize.ShloMosaic.TcCoe
open Idealize.ShloMosaic.SparseCore (S V T)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ Alg.UU ℕ

/-! ## The regions' steps -/

theorem held2_eq (d : Dev nD) (A : Tc.Arr2 (F := F) d) (B : Set (SemLoc sig × HIx 2)) :
    (Tc.held2 (Name := ℕ) (U := Alg.UU) (Lvl := ℕ) d A B : sProp 𝕄)
      = iprop((((d : Thread nD τ).loc main_v13) ↦{fullShare} A 0) ∗ (((d : Thread nD τ).loc main_v11) ↦{fullShare} A 1)
          ∗ (((d : Thread nD τ).loc main_v1) ↦{fullShare} A 2) ∗ (((d : Thread nD τ).loc main_arg1) ↦{fullShare} A 3)
          ∗ (((d : Thread nD τ).loc main_v10) ↦{fullShare} A 4) ∗ (((d : Thread nD τ).loc main_v16) ↦{fullShare} A 5)
          ∗ Pipeline.owesWithin d (0 : CellTallies nD τ sig (HIx 2)) B) := rfl

set_option backward.isDefEq.respectTransparency.types false in
set_option maxHeartbeats 800000 in
/-- Region 0: from the held set at `W` to the held set with the region's output at the accumulated value. -/
theorem reg_step0 [∀ e, Nonempty (Elt F e)] (d : Dev nD) (W : Valuation τ sig (Elt F)) (B : Set (SemLoc sig × HIx 2)) :
    RegStep (F := F) 0 d r0' W (Tc.accAt2 d (arrA d W) 7 Tc.lt7_2) B (B ∪ (cfgs 0).waitPairs none) := by
  intro Φ
  have hoff : ∀ b ∈ SU \ T6a, Function.update W r0' (Tc.accAt2 d (arrA d W) 7 Tc.lt7_2) b = W b := fun b hb =>
    Function.update_of_ne (fun (e : b = r0') => (Finset.mem_sdiff.mp hb).2 (by rw [e]; decide)) _ _
  rw [held_sub_split (T d) T6a_sub W, held_T6a,
    held_swap (T d) T6a_sub W (Function.update W r0' (Tc.accAt2 d (arrA d W) 7 Tc.lt7_2)) hoff, held_T6a,
    Function.update_of_ne (by decide : g0' ≠ r0'), Function.update_of_ne (by decide : rc' ≠ r0'), Function.update_of_ne (by decide : wl' ≠ r0'),
    Function.update_of_ne (by decide : rl' ≠ r0'), Function.update_of_ne (by decide : gs' ≠ r0'), Function.update_self]
  iintro ⟨Hlev, Hb, ⟨⟨H0, H1, H2, H3, H4, H5⟩, Hrest⟩, HO, ⟨Hg, Ht⟩, Hk⟩
  iapply ((K (F := F)).wp_liftProg (D (F := F)) Sc.𝒱 (T d) Set.univ none (Prog.lift (.customCall (Pipeline.entry 0) ())) Φ)
  iapply (Pipeline.RegionSeg.wp (pcfgs (F := F)) Tc.adm
      (Tc.dats (Name := ℕ) (U := Alg.UU) (Lvl := ℕ) (fun c => arrA c W) (fun c => arrB c W) B B) none cellOf_inj (Alg.EP (F := F)) defs₀ Variants.none
      (K (F := F)).L (K (F := F)).lev
      (Tc.region2 (Name := ℕ) (U := Alg.UU) (Lvl := ℕ) (fun c => arrA c W) (fun c => arrB c W) B B none (K (F := F)).L (K (F := F)).lev)
      d none (fun u hu => nomatch hu) (fun _ => .ret ⟨⟩) Φ) $$ [Hlev Hb H0 H1 H2 H3 H4 H5 Hrest HO Hg Ht Hk]
  isplitl [Hk Hrest]
  · iintro ⟨Hb, Hpost⟩
    ihave Hp0 := (Entails.of_eq (Tc.region2_post_eq (Name := ℕ) (U := Alg.UU) (Lvl := ℕ) (fun c => arrA c W) (fun c => arrB c W) B B none (K (F := F)).L (K (F := F)).lev d)) $$ Hpost
    ihave Hp := (Entails.of_eq (held2_eq (F := F) d (Tc.out2 d (arrA d W)) (B ∪ cfg2.waitPairs none))) $$ Hp0
    icases Hp with ⟨H0, H1, H2, H3, H4, H5, HO⟩
    rw [wp_ret]; imodintro
    iapply Hk
    isplitl [Hb]; · iexact Hb
    isplitr [HO]
    · isplitr [Hrest]
      · isplitl [H0]; · iexact H0
        isplitl [H1]; · iexact H1
        isplitl [H2]; · iexact H2
        isplitl [H3]; · iexact H3
        isplitl [H4]; · iexact H4
        iexact H5
      · iexact Hrest
    · iexact HO
  isplitl [Hb]; · iexact Hb
  isplitl [H0 H1 H2 H3 H4 H5 HO]
  · iapply (Entails.of_eq (Tc.region2_pre_eq (Name := ℕ) (U := Alg.UU) (Lvl := ℕ) (fun c => arrA c W) (fun c => arrB c W) B B none (K (F := F)).L (K (F := F)).lev d).symm)
    iapply (Entails.of_eq (held2_eq (F := F) d (arrA d W) B).symm)
    isplitl [H0]; · iexact H0
    isplitl [H1]; · iexact H1
    isplitl [H2]; · iexact H2
    isplitl [H3]; · iexact H3
    isplitl [H4]; · iexact H4
    isplitl [H5]; · iexact H5
    iexact HO
  isplitl [Hlev]; · iexact Hlev
  isplitl [Hg]; · iexact Hg
  iexact Ht

theorem held3_eq (d : Dev nD) (A : Tc.Arr3 (F := F) d) (B : Set (SemLoc sig × HIx 2)) :
    (Tc.held3 (Name := ℕ) (U := Alg.UU) (Lvl := ℕ) d A B : sProp 𝕄)
      = iprop((((d : Thread nD τ).loc main_v15) ↦{fullShare} A 0) ∗ (((d : Thread nD τ).loc main_v11) ↦{fullShare} A 1)
          ∗ (((d : Thread nD τ).loc main_v1) ↦{fullShare} A 2) ∗ (((d : Thread nD τ).loc main_arg1) ↦{fullShare} A 3)
          ∗ (((d : Thread nD τ).loc main_v10) ↦{fullShare} A 4) ∗ (((d : Thread nD τ).loc main_v17) ↦{fullShare} A 5)
          ∗ Pipeline.owesWithin d (0 : CellTallies nD τ sig (HIx 2)) B) := rfl

set_option backward.isDefEq.respectTransparency.types false in
set_option maxHeartbeats 800000 in
/-- Region 1: from the held set at `W` to the held set with the region's output at the accumulated value. -/
theorem reg_step1 [∀ e, Nonempty (Elt F e)] (d : Dev nD) (W : Valuation τ sig (Elt F)) (B : Set (SemLoc sig × HIx 2)) :
    RegStep (F := F) 1 d r1' W (Tc.accAt3 d (arrB d W) 7 Tc.lt7_3) B (B ∪ (cfgs 1).waitPairs none) := by
  intro Φ
  have hoff : ∀ b ∈ SU \ T6b, Function.update W r1' (Tc.accAt3 d (arrB d W) 7 Tc.lt7_3) b = W b := fun b hb =>
    Function.update_of_ne (fun (e : b = r1') => (Finset.mem_sdiff.mp hb).2 (by rw [e]; decide)) _ _
  rw [held_sub_split (T d) T6b_sub W, held_T6b,
    held_swap (T d) T6b_sub W (Function.update W r1' (Tc.accAt3 d (arrB d W) 7 Tc.lt7_3)) hoff, held_T6b,
    Function.update_of_ne (by decide : g1' ≠ r1'), Function.update_of_ne (by decide : rc' ≠ r1'), Function.update_of_ne (by decide : wl' ≠ r1'),
    Function.update_of_ne (by decide : rl' ≠ r1'), Function.update_of_ne (by decide : gs' ≠ r1'), Function.update_self]
  iintro ⟨Hlev, Hb, ⟨⟨H0, H1, H2, H3, H4, H5⟩, Hrest⟩, HO, ⟨Hg, Ht⟩, Hk⟩
  iapply ((K (F := F)).wp_liftProg (D (F := F)) Sc.𝒱 (T d) Set.univ none (Prog.lift (.customCall (Pipeline.entry 1) ())) Φ)
  iapply (Pipeline.RegionSeg.wp (pcfgs (F := F)) Tc.adm
      (Tc.dats (Name := ℕ) (U := Alg.UU) (Lvl := ℕ) (fun c => arrA c W) (fun c => arrB c W) B B) none cellOf_inj (Alg.EP (F := F)) defs₀ Variants.none
      (K (F := F)).L (K (F := F)).lev
      (Tc.region3 (Name := ℕ) (U := Alg.UU) (Lvl := ℕ) (fun c => arrA c W) (fun c => arrB c W) B B none (K (F := F)).L (K (F := F)).lev)
      d none (fun u hu => nomatch hu) (fun _ => .ret ⟨⟩) Φ) $$ [Hlev Hb H0 H1 H2 H3 H4 H5 Hrest HO Hg Ht Hk]
  isplitl [Hk Hrest]
  · iintro ⟨Hb, Hpost⟩
    ihave Hp0 := (Entails.of_eq (Tc.region3_post_eq (Name := ℕ) (U := Alg.UU) (Lvl := ℕ) (fun c => arrA c W) (fun c => arrB c W) B B none (K (F := F)).L (K (F := F)).lev d)) $$ Hpost
    ihave Hp := (Entails.of_eq (held3_eq (F := F) d (Tc.out3 d (arrB d W)) (B ∪ cfg3.waitPairs none))) $$ Hp0
    icases Hp with ⟨H0, H1, H2, H3, H4, H5, HO⟩
    rw [wp_ret]; imodintro
    iapply Hk
    isplitl [Hb]; · iexact Hb
    isplitr [HO]
    · isplitr [Hrest]
      · isplitl [H0]; · iexact H0
        isplitl [H1]; · iexact H1
        isplitl [H2]; · iexact H2
        isplitl [H3]; · iexact H3
        isplitl [H4]; · iexact H4
        iexact H5
      · iexact Hrest
    · iexact HO
  isplitl [Hb]; · iexact Hb
  isplitl [H0 H1 H2 H3 H4 H5 HO]
  · iapply (Entails.of_eq (Tc.region3_pre_eq (Name := ℕ) (U := Alg.UU) (Lvl := ℕ) (fun c => arrA c W) (fun c => arrB c W) B B none (K (F := F)).L (K (F := F)).lev d).symm)
    iapply (Entails.of_eq (held3_eq (F := F) d (arrB d W) B).symm)
    isplitl [H0]; · iexact H0
    isplitl [H1]; · iexact H1
    isplitl [H2]; · iexact H2
    isplitl [H3]; · iexact H3
    isplitl [H4]; · iexact H4
    isplitl [H5]; · iexact H5
    iexact HO
  isplitl [Hlev]; · iexact Hlev
  isplitl [Hg]; · iexact Hg
  iexact Ht

end Cert.KernelIdeal.KerLaunch

end
-- ==== Proof.FinalVals.lean ====
/-
  The valuations along the kernel's @main, read at the buffers the proof needs. @main is four lines of host operations
  around two SparseCore calls and two kernel regions; each line writes only its own results, each call only its output
  array, each region only its result. So at the end every argument array still holds its launch contents and the result
  is the two regions' results added and read as a scalar; and at each region's entry the six arrays it reads hold the
  gathered rows as three slabs, the relation numbers as a column, the flattened projection matrices, the relation table
  and the column selector.
-/
import proofs.«211459_g87136296501727_cont_9to1_m_723_16_alg».proof.Proof.RegArr

noncomputable section

namespace Cert.KernelIdeal.KerLaunch

open Cert.KernelIdeal Cert.KernelIdeal.MainShape
open Idealize.ShloMosaic Idealize.ShloMosaic.TcCoe
open Idealize.ShloMosaic.SparseCore (S V T)
open Idealize.ShloMosaic.StableHlo
open Idealize.SL.Sem
open Cert.KernelIdeal.Facts₀ Cert.KernelIdeal.Facts

variable {F : FTy → Type} [FloatOps F]
variable (m : (ℓ : Loc nD τ sig) → Buf (Elt F) ℓ)
variable (acc0 acc1 : (d : Dev nD) → (⟨S1x1, .f32⟩ : BufTy).Contents (Elt F))

/-! ## One step of the chain at a buffer the step does not write -/

theorem V1_of_ne (d : Dev nD) (b : DevRef τ sig) (h : b ≠ out' 0) : V1 m d b = VA m d b := by
  unfold V1; exact Function.update_of_ne h _ _
theorem V2_of_ne (d : Dev nD) (b : DevRef τ sig) (h : b ≠ out' 1) : V2 m d b = V1' m d b := by
  unfold V2; exact Function.update_of_ne h _ _
theorem V3_of_ne (d : Dev nD) (b : DevRef τ sig) (h : b ≠ r0') : V3 m acc0 d b = V2' m d b := by
  unfold V3; exact Function.update_of_ne h _ _
theorem V4_of_ne (d : Dev nD) (b : DevRef τ sig) (h : b ≠ r1') : V4 m acc0 acc1 d b = V3 m acc0 d b := by
  unfold V4; exact Function.update_of_ne h _ _

/-- What the calls and the regions write. -/
theorem V1_out (d : Dev nD) : V1 m d (main_v12 : DevRef τ sig) = Sc.gathAt m 0 d := by
  unfold V1; exact Function.update_self _ _ _
theorem V2_out (d : Dev nD) : V2 m d (main_v14 : DevRef τ sig) = Sc.gathAt m 1 d := by
  unfold V2; exact Function.update_self _ _ _
theorem V3_res (d : Dev nD) : V3 m acc0 d (main_v16 : DevRef τ sig) = acc0 d := by
  unfold V3; exact Function.update_self _ _ _
theorem V4_res1 (d : Dev nD) : V4 m acc0 acc1 d (main_v17 : DevRef τ sig) = acc1 d := by
  unfold V4; exact Function.update_self _ _ _
theorem V4_res0 (d : Dev nD) : V4 m acc0 acc1 d (main_v16 : DevRef τ sig) = acc0 d :=
  (V4_of_ne m acc0 acc1 d _ (by decide)).trans (V3_res m acc0 d)

/-! ## A buffer no line, call or region writes keeps its launch contents -/

/-- Up to the first region's entry. -/
theorem V2'_kept (d : Dev nD) (b : DevRef τ sig)
    (hA : ∀ V : Valuation τ sig (Elt F), after (opsA (F := F)) V b = V b)
    (hB : ∀ V : Valuation τ sig (Elt F), after (opsB (F := F)) V b = V b)
    (hC : ∀ V : Valuation τ sig (Elt F), after (opsC (F := F)) V b = V b)
    (h0 : b ≠ out' 0) (h1 : b ≠ out' 1) : V2' m d b = m (d, b) := by
  unfold V2'
  rw [hC, V2_of_ne m d b h1]
  unfold V1'
  rw [hB, V1_of_ne m d b h0]
  exact VA_at m d b hA

/-- Up to the end of @main. -/
theorem V5_kept (d : Dev nD) (b : DevRef τ sig)
    (hA : ∀ V : Valuation τ sig (Elt F), after (opsA (F := F)) V b = V b)
    (hB : ∀ V : Valuation τ sig (Elt F), after (opsB (F := F)) V b = V b)
    (hC : ∀ V : Valuation τ sig (Elt F), after (opsC (F := F)) V b = V b)
    (hD : ∀ V : Valuation τ sig (Elt F), after (opsD (F := F)) V b = V b)
    (h0 : b ≠ out' 0) (h1 : b ≠ out' 1) (h2 : b ≠ r0') (h3 : b ≠ r1') : V5 m acc0 acc1 d b = m (d, b) := by
  unfold V5
  rw [hD, V4_of_ne m acc0 acc1 d b h3, V3_of_ne m acc0 d b h2]
  exact V2'_kept m d b hA hB hC h0 h1

/-! ## At the end of @main: the argument arrays and the result -/

theorem V5_arg0 (d : Dev nD) : V5 m acc0 acc1 d (main_arg0 : DevRef τ sig) = m (d, (main_arg0 : DevRef τ sig)) :=
  V5_kept m acc0 acc1 d _ opsA_arg0 opsB_keep_arg0 opsC_keep_arg0 opsD_keep_arg0 (by decide) (by decide) (by decide) (by decide)
theorem V5_arg1 (d : Dev nD) : V5 m acc0 acc1 d (main_arg1 : DevRef τ sig) = m (d, (main_arg1 : DevRef τ sig)) :=
  V5_kept m acc0 acc1 d _ opsA_arg1 opsB_keep_arg1 opsC_keep_arg1 opsD_keep_arg1 (by decide) (by decide) (by decide) (by decide)
theorem V5_arg2 (d : Dev nD) : V5 m acc0 acc1 d (main_arg2 : DevRef τ sig) = m (d, (main_arg2 : DevRef τ sig)) :=
  V5_kept m acc0 acc1 d _ opsA_keep_arg2 opsB_keep_arg2 opsC_keep_arg2 opsD_keep_arg2 (by decide) (by decide) (by decide) (by decide)
theorem V5_arg3 (d : Dev nD) : V5 m acc0 acc1 d (main_arg3 : DevRef τ sig) = m (d, (main_arg3 : DevRef τ sig)) :=
  V5_kept m acc0 acc1 d _ opsA_arg3 opsB_keep_arg3 opsC_keep_arg3 opsD_keep_arg3 (by decide) (by decide) (by decide) (by decide)
theorem V5_arg4 (d : Dev nD) : V5 m acc0 acc1 d (main_arg4 : DevRef τ sig) = m (d, (main_arg4 : DevRef τ sig)) :=
  V5_kept m acc0 acc1 d _ opsA_keep_arg4 opsB_keep_arg4 opsC_keep_arg4 opsD_keep_arg4 (by decide) (by decide) (by decide) (by decide)
theorem V5_arg5 (d : Dev nD) : V5 m acc0 acc1 d (main_arg5 : DevRef τ sig) = m (d, (main_arg5 : DevRef τ sig)) :=
  V5_kept m acc0 acc1 d _ opsA_arg5 opsB_keep_arg5 opsC_keep_arg5 opsD_keep_arg5 (by decide) (by decide) (by decide) (by decide)
theorem V5_arg6 (d : Dev nD) : V5 m acc0 acc1 d (main_arg6 : DevRef τ sig) = m (d, (main_arg6 : DevRef τ sig)) :=
  V5_kept m acc0 acc1 d _ opsA_arg6 opsB_keep_arg6 opsC_keep_arg6 opsD_keep_arg6 (by decide) (by decide) (by decide) (by decide)

/-- The result: the two regions' results added, read as a scalar. -/
theorem V5_res (d : Dev nD) :
    V5 m acc0 acc1 d (main_v19 : DevRef τ sig) = shapeCast S_ (addf (acc0 d) (acc1 d)) shapeCasts_S1x1_S_ := by
  unfold V5
  rw [opsD_v19, V4_res0, V4_res1]

/-! ## At the first region's entry -/

theorem V2'_g (d : Dev nD) :
    V2' m d g0' = shapeCast S3x8192x128 (Sc.gathAt m 0 d) shapeCasts_S24576x128_S3x8192x128 := by
  unfold V2'
  rw [opsC_keep_v13, V2_of_ne m d _ (by decide)]
  unfold V1'
  rw [opsB_v13, V1_out]

theorem V2'_rc (d : Dev nD) :
    V2' m d rc' = shapeCast S16384x1 (m (d, (main_arg4 : DevRef τ sig))) shapeCasts_S16384_S16384x1 := by
  unfold V2'
  rw [opsC_keep_v11, V2_of_ne m d _ (by decide)]
  unfold V1'
  rw [opsB_keep_v11, V1_of_ne m d _ (by decide)]
  unfold VA
  rw [opsA_v11]

theorem V2'_wl (d : Dev nD) : V2' m d wl' = MainShape.wallOf (m (d, (main_arg2 : DevRef τ sig))) := by
  unfold V2'
  rw [opsC_keep_v1, V2_of_ne m d _ (by decide)]
  unfold V1'
  rw [opsB_keep_v1, V1_of_ne m d _ (by decide)]
  unfold VA
  rw [opsA_v1]

theorem V2'_rl (d : Dev nD) : V2' m d rl' = m (d, (main_arg1 : DevRef τ sig)) :=
  V2'_kept m d _ opsA_arg1 opsB_keep_arg1 opsC_keep_arg1 (by decide) (by decide)

theorem V2'_gs (d : Dev nD) : V2' m d gs' = MainShape.gselOf := by
  unfold V2'
  rw [opsC_keep_v10, V2_of_ne m d _ (by decide)]
  unfold V1'
  rw [opsB_keep_v10, V1_of_ne m d _ (by decide)]
  unfold VA
  rw [opsA_v10]

/-! ## At the second region's entry -/

theorem V3_g (d : Dev nD) :
    V3 m acc0 d g1' = shapeCast S3x8192x128 (Sc.gathAt m 1 d) shapeCasts_S24576x128_S3x8192x128 := by
  rw [V3_of_ne m acc0 d _ (by decide)]
  unfold V2'
  rw [opsC_v15, V2_out]

theorem V3_rc (d : Dev nD) :
    V3 m acc0 d rc' = shapeCast S16384x1 (m (d, (main_arg4 : DevRef τ sig))) shapeCasts_S16384_S16384x1 :=
  (V3_of_ne m acc0 d _ (by decide)).trans (V2'_rc m d)
theorem V3_wl (d : Dev nD) : V3 m acc0 d wl' = MainShape.wallOf (m (d, (main_arg2 : DevRef τ sig))) :=
  (V3_of_ne m acc0 d _ (by decide)).trans (V2'_wl m d)
theorem V3_rl (d : Dev nD) : V3 m acc0 d rl' = m (d, (main_arg1 : DevRef τ sig)) :=
  (V3_of_ne m acc0 d _ (by decide)).trans (V2'_rl m d)
theorem V3_gs (d : Dev nD) : V3 m acc0 d gs' = MainShape.gselOf :=
  (V3_of_ne m acc0 d _ (by decide)).trans (V2'_gs m d)

end Cert.KernelIdeal.KerLaunch

end
-- ==== Proof.ScTile.lean ====
/-
  The task of one vector subcore in a SparseCore call: three local copies bring its 256 words of each index array
  into its index scratch; six indirect gathers of 128 table rows each, alternately into the two row scratches and each
  issued before the one before it is waited for, are each copied out to the subcore's block of the output array. The
  proof carries the value: after gather k's wait the row scratch holds the table's rows at the fetched words, after
  the copy-out the output block holds them, which is the gathered array restricted to the block.
-/
import proofs.«211459_g87136296501727_cont_9to1_m_723_16_alg».proof.Proof.ScSetup

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
variable {UU : Type} [URA UU] [CountersIn UU]

local notation "𝕄" => MT nD τ sig (HIx 2) (Elt F) ℕ UU ℕ

variable (m : (ℓ : Loc nD τ sig) → Buf (Elt F) ℓ)

/-! ## Indices through unit-stride rectangles -/

/-- An element of a unit-stride rectangle of a rank-1 shape, by its coordinate. -/
theorem emb1 {n : ℕ} (off sz : Fin 1 → ℕ) (inb : ∀ a, off a + sz a ≤ (⟨1, ![n]⟩ : Shape).size a)
    (x : (Rect.unit (s := ⟨1, ![n]⟩) off sz inb).shape.Idx) (o : ℕ) (ho : off 0 = o) (hlt : o + (x 0).val < n) :
    (Rect.unit (s := ⟨1, ![n]⟩) off sz inb).emb x = ix1 (n := n) ⟨o + (x 0).val, hlt⟩ := by
  subst ho
  funext a
  match a with
  | 0 => exact Fin.ext (by simp [Rect.emb_apply]; rfl)

/-- An element of a unit-stride rectangle of a rank-2 shape, by its coordinates. -/
theorem emb2 {n0 n1 : ℕ} (off sz : Fin 2 → ℕ) (inb : ∀ a, off a + sz a ≤ (⟨2, ![n0, n1]⟩ : Shape).size a)
    (x : (Rect.unit (s := ⟨2, ![n0, n1]⟩) off sz inb).shape.Idx) (o0 o1 : ℕ) (h0 : off 0 = o0) (h1 : off 1 = o1)
    (hlt0 : o0 + (x 0).val < n0) (hlt1 : o1 + (x 1).val < n1) :
    (Rect.unit (s := ⟨2, ![n0, n1]⟩) off sz inb).emb x = ix2 (n0 := n0) (n1 := n1) ⟨o0 + (x 0).val, hlt0⟩ ⟨o1 + (x 1).val, hlt1⟩ := by
  subst h0 h1
  funext a
  match a with
  | 0 => exact Fin.ext (by simp [Rect.emb_apply]; rfl)
  | 1 => exact Fin.ext (by simp [Rect.emb_apply]; rfl)

/-- The words `sel` reads are row numbers when the three arrays' are. -/
theorem sel_lt {a3 a4 a5 a6 : S16384.Idx → BitVec 32} (h : Cert.Spec.InRange a3 a4 a5 a6) (b : ℕ) (j : S16384.Idx) :
    (sel a3 a5 a6 b j).toNat < 100000 := by
  unfold sel
  split_ifs
  · exact h.h j
  · exact h.p j
  · exact h.n j

theorem lt256 (x : S256.Idx) : (x 0).val < 256 := (x 0).isLt
theorem lt128 (x : S128.Idx) : (x 0).val < 128 := (x 0).isLt
theorem lt768 (y : S768.Idx) : (y 0).val < 768 := (y 0).isLt
theorem lt128r (x : S128x128.Idx) : (x 0).val < 128 := (x 0).isLt
theorem lt128c (x : S128x128.Idx) : (x 1).val < 128 := (x 1).isLt

/-- A rank-1 index from its row-major position. -/
theorem rowMajor_symm_one {n : ℕ} (t : Fin (⟨1, ![n]⟩ : Shape).numel) : (((⟨1, ![n]⟩ : Shape).rowMajor.symm t) 0).val = t.val := by
  have h := Shape.rowMajor_val_one ((⟨1, ![n]⟩ : Shape).rowMajor.symm t)
  rw [Equiv.apply_symm_apply] at h
  exact h.symm

theorem sel_congr (a3 a5 a6 : S16384.Idx → BitVec 32) {b b' : ℕ} {j j' : Fin 16384} (hb : b = b') (hj : j.val = j'.val) :
    sel a3 a5 a6 b (ix1 (n := 16384) j) = sel a3 a5 a6 b' (ix1 (n := 16384) j') := by
  subst hb; rw [Fin.ext hj]

/-- The gathered array at an element given by its coordinates. -/
theorem gath_ix2 (q : Fin 2) (tab : S100000x128.Idx → F .f32) (a3 a5 a6 : S16384.Idx → BitVec 32) (A : ℕ) (hA : A < 24576) (c : Fin 128) :
    gath q tab a3 a5 a6 (ix2 (n0 := 24576) (n1 := 128) ⟨A, hA⟩ c)
      = tab (ix2 (n0 := 100000) (n1 := 128)
          (Cert.Spec.rowOf 100000 (by decide) (sel a3 a5 a6 (A / 8192) (ix1 (n := 16384) ⟨8192 * q.val + A % 8192, by have := q.isLt; omega⟩))) c) := rfl

/-- A buffer whose last write covers it whole reads that write's payload. -/
theorem read_writes_whole_head {κ : Kind} {sp : Space} {s : Shape} (v : View sig κ sp s .f32) (f0 : v.ty.Contents (Elt F)) (W : s.Idx → F .f32)
    (rest : List (View.Piece (Elt F) s .f32)) (x : s.Idx) :
    v.read (Elt F) (v.writes (Elt F) f0 (⟨Rect.whole s, W⟩ :: rest)) x = W x := by
  have h := View.read_writes_cons_emb v f0 (Rect.whole s) W rest x
  rwa [Rect.emb_whole_apply] at h
namespace C0

local notation "hV" => (Memref.whole Cert.KernelIdeal.main_arg3_scv : Memref Cert.KernelIdeal.sig Kind.scVector Space.hbm Cert.KernelIdeal.S16384 EltTy.i32)
local notation "pV" => (Memref.whole Cert.KernelIdeal.main_arg5_scv : Memref Cert.KernelIdeal.sig Kind.scVector Space.hbm Cert.KernelIdeal.S16384 EltTy.i32)
local notation "nV" => (Memref.whole Cert.KernelIdeal.main_arg6_scv : Memref Cert.KernelIdeal.sig Kind.scVector Space.hbm Cert.KernelIdeal.S16384 EltTy.i32)
local notation "tV" => (Memref.whole Cert.KernelIdeal.main_arg0_scv : Memref Cert.KernelIdeal.sig Kind.scVector Space.hbm Cert.KernelIdeal.S100000x128 EltTy.f32)
local notation "oV" => (Memref.whole Cert.KernelIdeal.main_v12_scv : Memref Cert.KernelIdeal.sig Kind.scVector Space.hbm Cert.KernelIdeal.S24576x128 EltTy.f32)
local notation "sV" => (Memref.whole Cert.KernelIdeal.cc0_scratch0 : Memref Cert.KernelIdeal.sig Kind.scVector Space.vmem Cert.KernelIdeal.S768 EltTy.i32)
local notation "aV" => (Memref.whole Cert.KernelIdeal.cc0_scratch1 : Memref Cert.KernelIdeal.sig Kind.scVector Space.vmem Cert.KernelIdeal.S128x128 EltTy.f32)
local notation "bV" => (Memref.whole Cert.KernelIdeal.cc0_scratch2 : Memref Cert.KernelIdeal.sig Kind.scVector Space.vmem Cert.KernelIdeal.S128x128 EltTy.f32)

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

/-! ### The subcore's own semaphores and scratch buffers -/

abbrev cell0 (d : Dev nD) (c : Fin τ.nSC) (i : Fin τ.nSub) : GSem nD τ sig := (V d c i, .dma cc0_scratch3.sem)
abbrev cell1 (d : Dev nD) (c : Fin τ.nSC) (i : Fin τ.nSub) : GSem nD τ sig := (V d c i, .dma cc0_scratch4.sem)
abbrev cell2 (d : Dev nD) (c : Fin τ.nSC) (i : Fin τ.nSub) : GSem nD τ sig := (V d c i, .dma cc0_scoped0.sem)
abbrev cell3 (d : Dev nD) (c : Fin τ.nSC) (i : Fin τ.nSub) : GSem nD τ sig := (V d c i, .dma cc0_scoped1.sem)
abbrev cell4 (d : Dev nD) (c : Fin τ.nSC) (i : Fin τ.nSub) : GSem nD τ sig := (V d c i, .dma cc0_scoped2.sem)
abbrev cell5 (d : Dev nD) (c : Fin τ.nSC) (i : Fin τ.nSub) : GSem nD τ sig := (V d c i, .dma cc0_scoped3.sem)
abbrev cell6 (d : Dev nD) (c : Fin τ.nSC) (i : Fin τ.nSub) : GSem nD τ sig := (V d c i, .dma cc0_scoped4.sem)
abbrev cell7 (d : Dev nD) (c : Fin τ.nSC) (i : Fin τ.nSub) : GSem nD τ sig := (V d c i, .dma cc0_scoped5.sem)
abbrev cell8 (d : Dev nD) (c : Fin τ.nSC) (i : Fin τ.nSub) : GSem nD τ sig := (V d c i, .dma cc0_scoped6.sem)
abbrev cell9 (d : Dev nD) (c : Fin τ.nSC) (i : Fin τ.nSub) : GSem nD τ sig := (V d c i, .dma cc0_scoped7.sem)
abbrev cell10 (d : Dev nD) (c : Fin τ.nSC) (i : Fin τ.nSub) : GSem nD τ sig := (V d c i, .dma cc0_scoped8.sem)

theorem cell_ne {thr : Thread nD τ} {a b : DmaSem sig} (h : a ≠ b) : ((thr, SemLoc.dma a) : GSem nD τ sig) ≠ (thr, SemLoc.dma b) :=
  fun e => h (SemLoc.dma.inj (Prod.mk.inj e).2)

theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0 ∗ semVal (cell6 d (cV L) (jV L)) 0 ∗ semVal (cell7 d (cV L) (jV L)) 0 ∗ semVal (cell8 d (cV L) (jV L)) 0 ∗ semVal (cell9 d (cV L) (jV L)) 0 ∗ semVal (cell10 d (cV L) (jV L)) 0
          ∗ bigSep ((((((((((((ownCells (V d (cV L) (jV L))).erase (cell0 d (cV L) (jV L))).erase (cell1 d (cV L) (jV L))).erase (cell2 d (cV L) (jV L))).erase (cell3 d (cV L) (jV L))).erase (cell4 d (cV L) (jV L))).erase (cell5 d (cV L) (jV L))).erase (cell6 d (cV L) (jV L))).erase (cell7 d (cV L) (jV L))).erase (cell8 d (cV L) (jV L))).erase (cell9 d (cV L) (jV L))).erase (cell10 d (cV L) (jV L))) fun g => semVal g 0) := by
  unfold SparseCore.Cfg.ownSems0
  rw [SparseCore.bigSep_erase' ((mem_ownCells (g := cell0 d (cV L) (jV L))).mpr ⟨rfl, by show (SemLoc.dma cc0_scratch3.sem : SemLoc sig).isScoped .scVector = true; decide⟩),
    SparseCore.bigSep_erase' (Finset.mem_erase.mpr ⟨cell_ne (by decide), (mem_ownCells (g := cell1 d (cV L) (jV L))).mpr ⟨rfl, by show (SemLoc.dma cc0_scratch4.sem : SemLoc sig).isScoped .scVector = true; decide⟩⟩),
    SparseCore.bigSep_erase' (Finset.mem_erase.mpr ⟨cell_ne (by decide), Finset.mem_erase.mpr ⟨cell_ne (by decide), (mem_ownCells (g := cell2 d (cV L) (jV L))).mpr ⟨rfl, by show (SemLoc.dma cc0_scoped0.sem : SemLoc sig).isScoped .scVector = true; decide⟩⟩⟩),
    SparseCore.bigSep_erase' (Finset.mem_erase.mpr ⟨cell_ne (by decide), Finset.mem_erase.mpr ⟨cell_ne (by decide), Finset.mem_erase.mpr ⟨cell_ne (by decide), (mem_ownCells (g := cell3 d (cV L) (jV L))).mpr ⟨rfl, by show (SemLoc.dma cc0_scoped1.sem : SemLoc sig).isScoped .scVector = true; decide⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), (mem_ownCells (g := cell4 d (cV L) (jV L))).mpr ⟨rfl, by show (SemLoc.dma cc0_scoped2.sem : SemLoc sig).isScoped .scVector = true; decide⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell5 d (cV L) (jV L))).mpr ⟨rfl, by show (SemLoc.dma cc0_scoped3.sem : SemLoc sig).isScoped .scVector = true; decide⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell6 d (cV L) (jV L))).mpr ⟨rfl, by show (SemLoc.dma cc0_scoped4.sem : SemLoc sig).isScoped .scVector = true; decide⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell7 d (cV L) (jV L))).mpr ⟨rfl, by show (SemLoc.dma cc0_scoped5.sem : SemLoc sig).isScoped .scVector = true; decide⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell8 d (cV L) (jV L))).mpr ⟨rfl, by show (SemLoc.dma cc0_scoped6.sem : SemLoc sig).isScoped .scVector = true; decide⟩⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell9 d (cV L) (jV L))).mpr ⟨rfl, by show (SemLoc.dma cc0_scoped7.sem : SemLoc sig).isScoped .scVector = true; decide⟩⟩⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell10 d (cV L) (jV L))).mpr ⟨rfl, by show (SemLoc.dma cc0_scoped8.sem : SemLoc sig).isScoped .scVector = true; decide⟩⟩⟩⟩⟩⟩⟩⟩⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ### The views the task addresses, in the program's spelling -/

theorem bigSep_fin6 {M : Type} [URA M] (Φ : Fin 6 → sProp M) : bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

/-- The whole table, as every gather names it. -/
abbrev tAllK : Memref sig .scVector .hbm S100000x128 .f32 :=
  (tV).slice (Rect.unit (s := S100000x128) ![0, 0] S100000x128.size inb_S100000x128_S100000x128_0_0) (fun _ => rfl)
abbrev off0K : Memref sig .scVector .vmem S128 .i32 := (sV).slice (Rect.unit (s := S768) ![0] S128.size inb_S768_S128_0) (fun _ => rfl)
abbrev off1K : Memref sig .scVector .vmem S128 .i32 := (sV).slice (Rect.unit (s := S768) ![128] S128.size inb_S768_S128_128) (fun _ => rfl)
abbrev off2K : Memref sig .scVector .vmem S128 .i32 := (sV).slice (Rect.unit (s := S768) ![256] S128.size inb_S768_S128_256) (fun _ => rfl)
abbrev off3K : Memref sig .scVector .vmem S128 .i32 := (sV).slice (Rect.unit (s := S768) ![384] S128.size inb_S768_S128_384) (fun _ => rfl)
abbrev off4K : Memref sig .scVector .vmem S128 .i32 := (sV).slice (Rect.unit (s := S768) ![512] S128.size inb_S768_S128_512) (fun _ => rfl)
abbrev off5K : Memref sig .scVector .vmem S128 .i32 := (sV).slice (Rect.unit (s := S768) ![640] S128.size inb_S768_S128_640) (fun _ => rfl)
abbrev oB0K (L : grid0.Coords) : Memref sig .scVector .hbm S128x128 .f32 :=
  (oV).slice (Rect.unit (s := S24576x128) (k0_off2 L 0#32 0#32) S128x128.size (k0_off2_inb L 0 0)) (fun _ => rfl)
abbrev oB1K (L : grid0.Coords) : Memref sig .scVector .hbm S128x128 .f32 :=
  (oV).slice (Rect.unit (s := S24576x128) (k0_off2 L 0#32 128#32) S128x128.size (k0_off2_inb L 0 1)) (fun _ => rfl)
abbrev oB2K (L : grid0.Coords) : Memref sig .scVector .hbm S128x128 .f32 :=
  (oV).slice (Rect.unit (s := S24576x128) (k0_off2 L 8192#32 0#32) S128x128.size (k0_off2_inb L 1 0)) (fun _ => rfl)
abbrev oB3K (L : grid0.Coords) : Memref sig .scVector .hbm S128x128 .f32 :=
  (oV).slice (Rect.unit (s := S24576x128) (k0_off2 L 8192#32 128#32) S128x128.size (k0_off2_inb L 1 1)) (fun _ => rfl)
abbrev oB4K (L : grid0.Coords) : Memref sig .scVector .hbm S128x128 .f32 :=
  (oV).slice (Rect.unit (s := S24576x128) (k0_off2 L 16384#32 0#32) S128x128.size (k0_off2_inb L 2 0)) (fun _ => rfl)
abbrev oB5K (L : grid0.Coords) : Memref sig .scVector .hbm S128x128 .f32 :=
  (oV).slice (Rect.unit (s := S24576x128) (k0_off2 L 16384#32 128#32) S128x128.size (k0_off2_inb L 2 1)) (fun _ => rfl)

/-- Output block `(r1, r2)` of the task is block `64 r1 + 4 s + 2 c + r2` of the array. -/
theorem oB_rect (r1 : Fin 3) (r2 : Fin 2) :
    Rect.unit (s := S24576x128) (k0_off2 L (BitVec.ofNat 32 (8192 * r1.val)) (BitVec.ofNat 32 (128 * r2.val))) S128x128.size (k0_off2_inb L r1 r2)
      = blk (blkIx (cL L) (sL L) ⟨2 * r1.val + r2.val, by omega⟩) := by
  unfold blk Rect.part Rect.block
  congr 1 <;> funext a
  · rw [k0_off2_eq]
    match a with
    | 0 => simp [Shape.partIx, Shape.partSize, blkIx]; omega
    | 1 => simp [Shape.partIx, Shape.partSize]
  · match a with
    | 0 => simp [Shape.partSize]
    | 1 => simp [Shape.partSize]

theorem set_of_rect {r r' : Rect S24576x128} (h : r = r') : ((View.whole (main_v12_scv : Ref sig .scVector)).slice r).set = r'.set := by
  subst h; rw [View.set_slice]; exact Finset.map_refl
theorem set_oB0K : (oB0K L).view.set = blkSet (blkIx (cL L) (sL L) 0) := set_of_rect (oB_rect L 0 0)
theorem set_oB1K : (oB1K L).view.set = blkSet (blkIx (cL L) (sL L) 1) := set_of_rect (oB_rect L 0 1)
theorem set_oB2K : (oB2K L).view.set = blkSet (blkIx (cL L) (sL L) 2) := set_of_rect (oB_rect L 1 0)
theorem set_oB3K : (oB3K L).view.set = blkSet (blkIx (cL L) (sL L) 3) := set_of_rect (oB_rect L 1 1)
theorem set_oB4K : (oB4K L).view.set = blkSet (blkIx (cL L) (sL L) 4) := set_of_rect (oB_rect L 2 0)
theorem set_oB5K : (oB5K L).view.set = blkSet (blkIx (cL L) (sL L) 5) := set_of_rect (oB_rect L 2 1)

theorem pts_oB0K (f : Buf (Elt F) (outLoc 0 d)) :
    ((oB0K L).view.loc (V d (cV L) (jV L)) ↦[(oB0K L).view.set]{fullShare} f : sProp 𝕄) = outLoc 0 d ↦[blkSet (blkIx (cL L) (sL L) 0)]{fullShare} f := by
  rw [set_oB0K]
theorem pts_oB1K (f : Buf (Elt F) (outLoc 0 d)) :
    ((oB1K L).view.loc (V d (cV L) (jV L)) ↦[(oB1K L).view.set]{fullShare} f : sProp 𝕄) = outLoc 0 d ↦[blkSet (blkIx (cL L) (sL L) 1)]{fullShare} f := by
  rw [set_oB1K]
theorem pts_oB2K (f : Buf (Elt F) (outLoc 0 d)) :
    ((oB2K L).view.loc (V d (cV L) (jV L)) ↦[(oB2K L).view.set]{fullShare} f : sProp 𝕄) = outLoc 0 d ↦[blkSet (blkIx (cL L) (sL L) 2)]{fullShare} f := by
  rw [set_oB2K]
theorem pts_oB3K (f : Buf (Elt F) (outLoc 0 d)) :
    ((oB3K L).view.loc (V d (cV L) (jV L)) ↦[(oB3K L).view.set]{fullShare} f : sProp 𝕄) = outLoc 0 d ↦[blkSet (blkIx (cL L) (sL L) 3)]{fullShare} f := by
  rw [set_oB3K]
theorem pts_oB4K (f : Buf (Elt F) (outLoc 0 d)) :
    ((oB4K L).view.loc (V d (cV L) (jV L)) ↦[(oB4K L).view.set]{fullShare} f : sProp 𝕄) = outLoc 0 d ↦[blkSet (blkIx (cL L) (sL L) 4)]{fullShare} f := by
  rw [set_oB4K]
theorem pts_oB5K (f : Buf (Elt F) (outLoc 0 d)) :
    ((oB5K L).view.loc (V d (cV L) (jV L)) ↦[(oB5K L).view.set]{fullShare} f : sProp 𝕄) = outLoc 0 d ↦[blkSet (blkIx (cL L) (sL L) 5)]{fullShare} f := by
  rw [set_oB5K]

theorem goOf_six (ℓ : Loc nD τ sig) (B : Fin 192 → Finset (Idx ℓ)) (f : Buf (Elt F) ℓ) (d : Dev nD) (c : Fin 2) (s : Fin 16) :
    goOf (F := F) (UU := UU) m ℓ B f d c s =
      iprop((hLoc d ↦{tq c s} m (hLoc d)) ∗ (pLoc d ↦{tq c s} m (pLoc d)) ∗ (nLoc d ↦{tq c s} m (nLoc d)) ∗ (tabLoc d ↦{tq c s} m (tabLoc d))
        ∗ (ℓ ↦[B (blkIx c s 0)]{fullShare} f) ∗ (ℓ ↦[B (blkIx c s 1)]{fullShare} f) ∗ (ℓ ↦[B (blkIx c s 2)]{fullShare} f)
        ∗ (ℓ ↦[B (blkIx c s 3)]{fullShare} f) ∗ (ℓ ↦[B (blkIx c s 4)]{fullShare} f) ∗ (ℓ ↦[B (blkIx c s 5)]{fullShare} f)) := by
  show iprop(_ ∗ _ ∗ _ ∗ _ ∗ bigSep Finset.univ _) = _
  rw [bigSep_fin6]

/-! ### The index scratch as its six lists of 128 offsets -/

theorem sdiv : 6 ∣ S768.size 0 := ⟨128, rfl⟩
abbrev lst (k : Fin 6) : Rect S768 := Rect.part (s := S768) (a₀ := 0) sdiv k

theorem off_rect (k : Fin 6) (h : ∀ a, (![128 * k.val] : Fin 1 → Nat) a + S128.size a ≤ S768.size a) :
    Rect.unit (s := S768) ![128 * k.val] S128.size h = lst k := by
  unfold lst Rect.part Rect.block
  congr 1 <;> funext a
  · match a with
    | 0 => simp [Shape.partIx, Shape.partSize]; omega
  · match a with
    | 0 => simp [Shape.partSize]

theorem set_of_lst {r r' : Rect S768} (h : r = r') : ((View.whole (cc0_scratch0 : Ref sig .scVector)).slice r).set = r'.set := by
  subst h; rw [View.set_slice]; exact Finset.map_refl
theorem set_off0K : (off0K).view.set = (lst 0).set := set_of_lst (off_rect 0 inb_S768_S128_0)
theorem set_off1K : (off1K).view.set = (lst 1).set := set_of_lst (off_rect 1 inb_S768_S128_128)
theorem set_off2K : (off2K).view.set = (lst 2).set := set_of_lst (off_rect 2 inb_S768_S128_256)
theorem set_off3K : (off3K).view.set = (lst 3).set := set_of_lst (off_rect 3 inb_S768_S128_384)
theorem set_off4K : (off4K).view.set = (lst 4).set := set_of_lst (off_rect 4 inb_S768_S128_512)
theorem set_off5K : (off5K).view.set = (lst 5).set := set_of_lst (off_rect 5 inb_S768_S128_640)

theorem sV_six (f : Buf (Elt F) ((V d (cV L) (jV L)).loc cc0_scratch0)) :
    ((sV).view.loc (V d (cV L) (jV L)) ↦{fullShare} f : sProp 𝕄)
      = iprop(((off0K).view.loc (V d (cV L) (jV L)) ↦[(off0K).view.set]{fullShare} f)
          ∗ ((off1K).view.loc (V d (cV L) (jV L)) ↦[(off1K).view.set]{fullShare} f)
          ∗ ((off2K).view.loc (V d (cV L) (jV L)) ↦[(off2K).view.set]{fullShare} f)
          ∗ ((off3K).view.loc (V d (cV L) (jV L)) ↦[(off3K).view.set]{fullShare} f)
          ∗ ((off4K).view.loc (V d (cV L) (jV L)) ↦[(off4K).view.set]{fullShare} f)
          ∗ ((off5K).view.loc (V d (cV L) (jV L)) ↦[(off5K).view.set]{fullShare} f)) := by
  rw [set_off0K, set_off1K, set_off2K, set_off3K, set_off4K, set_off5K]
  have e : ((sV).view.loc (V d (cV L) (jV L)) ↦{fullShare} f : sProp 𝕄) = bigSep Finset.univ fun k : Fin 6 => (sV).view.loc (V d (cV L) (jV L)) ↦[(lst k).set]{fullShare} f := by
    rw [← pointsTo_biUnion Finset.univ (ℓ := (sV).view.loc (V d (cV L) (jV L))) (fun k : Fin 6 => (lst k).set) (fun i _ j _ h => Rect.part_disjoint sdiv h), Rect.biUnion_part sdiv]; try rfl
  rw [e, bigSep_fin6]

/-! ### A block written whole with the gathered rows is the gathered array there -/

theorem writes_whole_emb {κ : Kind} {sp : Space} {s : Shape} (v : View sig κ sp s .f32) (f0 : v.ty.Contents (Elt F)) (W : s.Idx → F .f32) (x : s.Idx) :
    v.read (Elt F) (v.writes (Elt F) f0 [⟨Rect.whole s, W⟩]) x = W x := by
  have h := View.read_writes_cons_emb v f0 (Rect.whole s) W [] x
  rwa [Rect.emb_whole_apply] at h

theorem blk_congr0 (f0 : Buf (Elt F) (outLoc 0 d)) (W : S128x128.Idx → F .f32)
    (hW : ∀ x, W x = gathAt m 0 d ((oB0K L).view.emb x)) :
    ((oB0K L).view.loc (V d (cV L) (jV L)) ↦[(oB0K L).view.set]{fullShare} (oB0K L).view.writes (Elt F) f0 [⟨Rect.whole S128x128, W⟩] : sProp 𝕄)
      = outLoc 0 d ↦[blkSet (blkIx (cL L) (sL L) 0)]{fullShare} gathAt m 0 d := by
  rw [← pts_oB0K (F := F) (UU := UU) d L (gathAt m 0 d)]
  refine pointsTo_congr fun i hi => ?_
  obtain ⟨x, -, rfl⟩ := Finset.mem_map.mp hi
  have h := writes_whole_emb (F := F) (oB0K L).view f0 W x
  rw [View.read_apply] at h
  exact ((cast_eq _ _).symm.trans h).trans (hW x)

theorem blk_congr1 (f0 : Buf (Elt F) (outLoc 0 d)) (W : S128x128.Idx → F .f32)
    (hW : ∀ x, W x = gathAt m 0 d ((oB1K L).view.emb x)) :
    ((oB1K L).view.loc (V d (cV L) (jV L)) ↦[(oB1K L).view.set]{fullShare} (oB1K L).view.writes (Elt F) f0 [⟨Rect.whole S128x128, W⟩] : sProp 𝕄)
      = outLoc 0 d ↦[blkSet (blkIx (cL L) (sL L) 1)]{fullShare} gathAt m 0 d := by
  rw [← pts_oB1K (F := F) (UU := UU) d L (gathAt m 0 d)]
  refine pointsTo_congr fun i hi => ?_
  obtain ⟨x, -, rfl⟩ := Finset.mem_map.mp hi
  have h := writes_whole_emb (F := F) (oB1K L).view f0 W x
  rw [View.read_apply] at h
  exact ((cast_eq _ _).symm.trans h).trans (hW x)

theorem blk_congr2 (f0 : Buf (Elt F) (outLoc 0 d)) (W : S128x128.Idx → F .f32)
    (hW : ∀ x, W x = gathAt m 0 d ((oB2K L).view.emb x)) :
    ((oB2K L).view.loc (V d (cV L) (jV L)) ↦[(oB2K L).view.set]{fullShare} (oB2K L).view.writes (Elt F) f0 [⟨Rect.whole S128x128, W⟩] : sProp 𝕄)
      = outLoc 0 d ↦[blkSet (blkIx (cL L) (sL L) 2)]{fullShare} gathAt m 0 d := by
  rw [← pts_oB2K (F := F) (UU := UU) d L (gathAt m 0 d)]
  refine pointsTo_congr fun i hi => ?_
  obtain ⟨x, -, rfl⟩ := Finset.mem_map.mp hi
  have h := writes_whole_emb (F := F) (oB2K L).view f0 W x
  rw [View.read_apply] at h
  exact ((cast_eq _ _).symm.trans h).trans (hW x)

theorem blk_congr3 (f0 : Buf (Elt F) (outLoc 0 d)) (W : S128x128.Idx → F .f32)
    (hW : ∀ x, W x = gathAt m 0 d ((oB3K L).view.emb x)) :
    ((oB3K L).view.loc (V d (cV L) (jV L)) ↦[(oB3K L).view.set]{fullShare} (oB3K L).view.writes (Elt F) f0 [⟨Rect.whole S128x128, W⟩] : sProp 𝕄)
      = outLoc 0 d ↦[blkSet (blkIx (cL L) (sL L) 3)]{fullShare} gathAt m 0 d := by
  rw [← pts_oB3K (F := F) (UU := UU) d L (gathAt m 0 d)]
  refine pointsTo_congr fun i hi => ?_
  obtain ⟨x, -, rfl⟩ := Finset.mem_map.mp hi
  have h := writes_whole_emb (F := F) (oB3K L).view f0 W x
  rw [View.read_apply] at h
  exact ((cast_eq _ _).symm.trans h).trans (hW x)

theorem blk_congr4 (f0 : Buf (Elt F) (outLoc 0 d)) (W : S128x128.Idx → F .f32)
    (hW : ∀ x, W x = gathAt m 0 d ((oB4K L).view.emb x)) :
    ((oB4K L).view.loc (V d (cV L) (jV L)) ↦[(oB4K L).view.set]{fullShare} (oB4K L).view.writes (Elt F) f0 [⟨Rect.whole S128x128, W⟩] : sProp 𝕄)
      = outLoc 0 d ↦[blkSet (blkIx (cL L) (sL L) 4)]{fullShare} gathAt m 0 d := by
  rw [← pts_oB4K (F := F) (UU := UU) d L (gathAt m 0 d)]
  refine pointsTo_congr fun i hi => ?_
  obtain ⟨x, -, rfl⟩ := Finset.mem_map.mp hi
  have h := writes_whole_emb (F := F) (oB4K L).view f0 W x
  rw [View.read_apply] at h
  exact ((cast_eq _ _).symm.trans h).trans (hW x)

theorem blk_congr5 (f0 : Buf (Elt F) (outLoc 0 d)) (W : S128x128.Idx → F .f32)
    (hW : ∀ x, W x = gathAt m 0 d ((oB5K L).view.emb x)) :
    ((oB5K L).view.loc (V d (cV L) (jV L)) ↦[(oB5K L).view.set]{fullShare} (oB5K L).view.writes (Elt F) f0 [⟨Rect.whole S128x128, W⟩] : sProp 𝕄)
      = outLoc 0 d ↦[blkSet (blkIx (cL L) (sL L) 5)]{fullShare} gathAt m 0 d := by
  rw [← pts_oB5K (F := F) (UU := UU) d L (gathAt m 0 d)]
  refine pointsTo_congr fun i hi => ?_
  obtain ⟨x, -, rfl⟩ := Finset.mem_map.mp hi
  have h := writes_whole_emb (F := F) (oB5K L).view f0 W x
  rw [View.read_apply] at h
  exact ((cast_eq _ _).symm.trans h).trans (hW x)

/-! ### The values: what the copies land in the index scratch, what a gather delivers -/

/-- The first of the subcore's 256 words of each index array. -/
abbrev base (L : grid0.Coords) : ℕ := 512 * (L 1).val + 256 * (L 0).val
theorem L0_lt : (L 0).val < 2 := (L 0).isLt
theorem L1_lt : (L 1).val < 16 := (L 1).isLt
theorem base_le : base L + 256 ≤ 16384 := by have := L0_lt L; have := L1_lt L; unfold base; omega
theorem off1_zero : k0_off1 L 0 = base L := by rw [k0_off1_eq]; rfl

/-- Word `y` of the index scratch once the three copies have landed. -/
def idxW : S768.Idx → BitVec 32 := fun y =>
  sel (m (hLoc d)) (m (pLoc d)) (m (nLoc d)) ((y 0).val / 256)
    (ix1 (n := 16384) ⟨base L + (y 0).val % 256, by have := base_le L; omega⟩)

theorem dmaH_apply (x : S256.Idx) :
    (ReadAs.same.apply (View.read (Elt F) ((hV).slice (Rect.unit (s := S16384) (k0_off1 L) S256.size (k0_off1_inb L)) (fun _ => rfl)).view (m (hLoc d))) : S256.Idx → BitVec 32) x
      = m (hLoc d) (ix1 (n := 16384) ⟨base L + (x 0).val, by have := base_le L; have := lt256 x; omega⟩) := by
  rw [ReadAs.apply_same, View.read_apply]
  refine (cast_eq _ _).trans (congrArg (m (hLoc d)) ?_)
  exact emb1 (n := 16384) (k0_off1 L) S256.size (k0_off1_inb L) x (base L) (off1_zero L) _

theorem dmaP_apply (x : S256.Idx) :
    (ReadAs.same.apply (View.read (Elt F) ((pV).slice (Rect.unit (s := S16384) (k0_off1 L) S256.size (k0_off1_inb L)) (fun _ => rfl)).view (m (pLoc d))) : S256.Idx → BitVec 32) x
      = m (pLoc d) (ix1 (n := 16384) ⟨base L + (x 0).val, by have := base_le L; have := lt256 x; omega⟩) := by
  rw [ReadAs.apply_same, View.read_apply]
  refine (cast_eq _ _).trans (congrArg (m (pLoc d)) ?_)
  exact emb1 (n := 16384) (k0_off1 L) S256.size (k0_off1_inb L) x (base L) (off1_zero L) _

theorem dmaN_apply (x : S256.Idx) :
    (ReadAs.same.apply (View.read (Elt F) ((nV).slice (Rect.unit (s := S16384) (k0_off1 L) S256.size (k0_off1_inb L)) (fun _ => rfl)).view (m (nLoc d))) : S256.Idx → BitVec 32) x
      = m (nLoc d) (ix1 (n := 16384) ⟨base L + (x 0).val, by have := base_le L; have := lt256 x; omega⟩) := by
  rw [ReadAs.apply_same, View.read_apply]
  refine (cast_eq _ _).trans (congrArg (m (nLoc d)) ?_)
  exact emb1 (n := 16384) (k0_off1 L) S256.size (k0_off1_inb L) x (base L) (off1_zero L) _

theorem idxW_eq (y : S768.Idx) (b r : ℕ) (hb : (y 0).val / 256 = b) (hr : (y 0).val % 256 = r) (hlt : base L + r < 16384) :
    idxW m d L y = sel (m (hLoc d)) (m (pLoc d)) (m (nLoc d)) b (ix1 (n := 16384) ⟨base L + r, hlt⟩) := by
  subst hb hr; rfl

/-- The index scratch after the three copies reads `idxW`, whatever it held before. -/
theorem FS_apply (fj : Buf (Elt F) ((sV).view.loc (V d (cV L) (jV L)))) (w0 w1 w2 : S256.Idx → BitVec 32)
    (h0 : ∀ x, w0 x = m (hLoc d) (ix1 (n := 16384) ⟨base L + (x 0).val, by have := base_le L; have := lt256 x; omega⟩))
    (h1 : ∀ x, w1 x = m (pLoc d) (ix1 (n := 16384) ⟨base L + (x 0).val, by have := base_le L; have := lt256 x; omega⟩))
    (h2 : ∀ x, w2 x = m (nLoc d) (ix1 (n := 16384) ⟨base L + (x 0).val, by have := base_le L; have := lt256 x; omega⟩))
    (y : S768.Idx) :
    (sV).view.writes (Elt F) fj [⟨Rect.unit ![512] S256.size inb_S768_S256_512, w2⟩, ⟨Rect.unit ![256] S256.size inb_S768_S256_256, w1⟩,
      ⟨Rect.unit ![0] S256.size inb_S768_S256_0, w0⟩] y = idxW m d L y := by
  show View.read (Elt F) (sV).view ((sV).view.writes (Elt F) fj [⟨Rect.unit ![512] S256.size inb_S768_S256_512, w2⟩,
    ⟨Rect.unit ![256] S256.size inb_S768_S256_256, w1⟩, ⟨Rect.unit ![0] S256.size inb_S768_S256_0, w0⟩]) y = idxW m d L y
  refine View.read_writes_apply_of_pieces (sV).view fj (idxW m d L) _ ?hG y ?hcov
  case hG =>
    intro p hp x
    rcases List.mem_cons.mp hp with rfl | hp
    · show w2 x = idxW m d L ((Rect.unit (s := S768) ![512] S256.size inb_S768_S256_512).emb x)
      have hx := lt256 x
      rw [h2 x, emb1 (n := 768) ![512] S256.size inb_S768_S256_512 x 512 rfl (by omega),
        idxW_eq m d L _ 2 (x 0).val (by show (512 + (x 0).val) / 256 = 2; omega) (by show (512 + (x 0).val) % 256 = (x 0).val; omega)
          (by have := base_le L; omega)]
      simp [sel]
    rcases List.mem_cons.mp hp with rfl | hp
    · show w1 x = idxW m d L ((Rect.unit (s := S768) ![256] S256.size inb_S768_S256_256).emb x)
      have hx := lt256 x
      rw [h1 x, emb1 (n := 768) ![256] S256.size inb_S768_S256_256 x 256 rfl (by omega),
        idxW_eq m d L _ 1 (x 0).val (by show (256 + (x 0).val) / 256 = 1; omega) (by show (256 + (x 0).val) % 256 = (x 0).val; omega)
          (by have := base_le L; omega)]
      simp [sel]
    rcases List.mem_cons.mp hp with rfl | hp
    · show w0 x = idxW m d L ((Rect.unit (s := S768) ![0] S256.size inb_S768_S256_0).emb x)
      have hx := lt256 x
      rw [h0 x, emb1 (n := 768) ![0] S256.size inb_S768_S256_0 x 0 rfl (by omega),
        idxW_eq m d L _ 0 (x 0).val (by show (0 + (x 0).val) / 256 = 0; omega) (by show (0 + (x 0).val) % 256 = (x 0).val; omega)
          (by have := base_le L; omega)]
      simp [sel]
    · exact absurd hp List.not_mem_nil
  case hcov =>
    have hy := lt768 y
    by_cases c1 : (y 0).val < 256
    · exact ⟨_, List.mem_cons_of_mem _ (List.mem_cons_of_mem _ List.mem_cons_self),
        (Rect.mem_set_unit (s := S768) (off := ![0]) (size := S256.size) (inb := inb_S768_S256_0)).mpr (Fin.forall_fin_one.mpr ⟨Nat.zero_le _, by show (y 0).val < 0 + 256; omega⟩)⟩
    by_cases c2 : (y 0).val < 512
    · exact ⟨_, List.mem_cons_of_mem _ List.mem_cons_self,
        (Rect.mem_set_unit (s := S768) (off := ![256]) (size := S256.size) (inb := inb_S768_S256_256)).mpr (Fin.forall_fin_one.mpr ⟨by show 256 ≤ (y 0).val; omega, by show (y 0).val < 256 + 256; omega⟩)⟩
    · exact ⟨_, List.mem_cons_self,
        (Rect.mem_set_unit (s := S768) (off := ![512]) (size := S256.size) (inb := inb_S768_S256_512)).mpr (Fin.forall_fin_one.mpr ⟨by show 512 ≤ (y 0).val; omega, by show (y 0).val < 512 + 256; omega⟩)⟩

/-- A list of 128 offsets read out of the index scratch. -/
theorem off_read (o : ℕ) (inb : ∀ a, (![o] : Fin 1 → ℕ) a + S128.size a ≤ S768.size a) (ho : o + 128 ≤ 768)
    (g : Buf (Elt F) ((sV).view.loc (V d (cV L) (jV L)))) (x : S128.Idx) :
    ((sV).slice (Rect.unit (s := S768) ![o] S128.size inb) (fun _ => rfl)).view.read (Elt F) g x
      = g (ix1 (n := 768) ⟨o + (x 0).val, by have := lt128 x; omega⟩) := by
  rw [View.read_apply]
  refine (cast_eq _ _).trans (congrArg g ?_)
  exact emb1 (n := 768) ![o] S128.size inb x o rfl _

theorem idxW_lt (hr : ∀ d, Cert.Spec.InRange (m (hLoc d)) (m ((SparseCore.T d).loc main_arg4)) (m (pLoc d)) (m (nLoc d))) (y : S768.Idx) :
    (idxW m d L y).toNat < 100000 := sel_lt (hr d) _ _

/-- The offsets a gather reads are rows of the table. -/
theorem hin_of (hr : ∀ d, Cert.Spec.InRange (m (hLoc d)) (m ((SparseCore.T d).loc main_arg4)) (m (pLoc d)) (m (nLoc d)))
    (o : ℕ) (inb : ∀ a, (![o] : Fin 1 → ℕ) a + S128.size a ≤ S768.size a) (ho : o + 128 ≤ 768)
    (g : Buf (Elt F) ((sV).view.loc (V d (cV L) (jV L)))) (hg' : ∀ y, g y = idxW m d L y) (x : S128.Idx) :
    (((sV).slice (Rect.unit (s := S768) ![o] S128.size inb) (fun _ => rfl)).view.read (Elt F) g x).toNat
      < S100000x128.size gathers_S100000x128_S128x128.axis := by
  rw [off_read (F := F) d L o inb ho g x, hg']
  exact idxW_lt m d L hr _

/-- What a gather delivers at an index of the row scratch: the table's row named by that word of the index scratch. -/
theorem gather_apply (hr : ∀ d, Cert.Spec.InRange (m (hLoc d)) (m ((SparseCore.T d).loc main_arg4)) (m (pLoc d)) (m (nLoc d)))
    (o : ℕ) (inb : ∀ a, (![o] : Fin 1 → ℕ) a + S128.size a ≤ S768.size a) (ho : o + 128 ≤ 768)
    (g : Buf (Elt F) ((sV).view.loc (V d (cV L) (jV L)))) (hg' : ∀ y, g y = idxW m d L y)
    (hn : S128.numel = S128x128.size gathers_S100000x128_S128x128.axis')
    (hin : ∀ x, (((sV).slice (Rect.unit (s := S768) ![o] S128.size inb) (fun _ => rfl)).view.read (Elt F) g x).toNat
      < S100000x128.size gathers_S100000x128_S128x128.axis)
    (x : S128x128.Idx) :
    SparseCore.gatherPayload gathers_S100000x128_S128x128 ((tAllK).view.read (Elt F) (m (tabLoc d)))
        (SparseCore.rows (((sV).slice (Rect.unit (s := S768) ![o] S128.size inb) (fun _ => rfl)).view.read (Elt F) g) hn hin) x
      = m (tabLoc d) (ix2 (n0 := 100000) (n1 := 128)
          ⟨(idxW m d L (ix1 (n := 768) ⟨o + (x 0).val, by have := lt128r x; omega⟩)).toNat, idxW_lt m d L hr _⟩ (x 1)) := by
  unfold SparseCore.gatherPayload
  rw [View.read_apply]
  refine (cast_eq _ _).trans (congrArg (m (tabLoc d)) ?_)
  refine (emb2 (n0 := 100000) (n1 := 128) ![0, 0] S100000x128.size inb_S100000x128_S100000x128_0_0 _ 0 0 rfl rfl
    (by rw [Nat.zero_add]; exact Fin.isLt _) (by rw [Nat.zero_add]; exact Fin.isLt _)).trans ?_
  funext a
  match a with
  | 0 =>
    refine Fin.ext ?_
    show 0 + (Shape.Gathers.idx gathers_S100000x128_S128x128 _ x gathers_S100000x128_S128x128.axis).val = _
    rw [Shape.Gathers.idx_axis, Nat.zero_add]
    show (((sV).slice (Rect.unit (s := S768) ![o] S128.size inb) (fun _ => rfl)).view.read (Elt F) g _).toNat = _
    rw [off_read (F := F) d L o inb ho g _, hg']
    exact congrArg (fun v : Fin 768 => (idxW m d L (ix1 (n := 768) v)).toNat) (Fin.ext (congrArg (o + ·) (rowMajor_symm_one (n := 128) _)))
  | 1 =>
    refine Fin.ext ?_
    show 0 + (Shape.Gathers.idx gathers_S100000x128_S128x128 _ x 1).val = (x 1).val
    rw [Shape.Gathers.idx_of_ne _ _ _ 1 (by decide), Nat.zero_add]
    rfl

theorem idxW_ix1 (v : ℕ) (hv : v < 768) (b r : ℕ) (hb : v / 256 = b) (hr : v % 256 = r) (hlt : base L + r < 16384) :
    idxW m d L (ix1 (n := 768) ⟨v, hv⟩) = sel (m (hLoc d)) (m (pLoc d)) (m (nLoc d)) b (ix1 (n := 16384) ⟨base L + r, hlt⟩) :=
  idxW_eq m d L _ b r hb hr hlt

/-- The gathered array at an element of output block `(r1, r2)` of the subcore: the table's row named by word
    `128 (2 r1 + r2) + x 0` of the index scratch. -/
theorem gath_blk (hr : ∀ d, Cert.Spec.InRange (m (hLoc d)) (m ((SparseCore.T d).loc main_arg4)) (m (pLoc d)) (m (nLoc d)))
    (r1 : Fin 3) (r2 : Fin 2) (x : S128x128.Idx) :
    gathAt m 0 d (((oV).slice (Rect.unit (s := S24576x128) (k0_off2 L (BitVec.ofNat 32 (8192 * r1.val)) (BitVec.ofNat 32 (128 * r2.val))) S128x128.size
        (k0_off2_inb L r1 r2)) (fun _ => rfl)).view.emb x)
      = m (tabLoc d) (ix2 (n0 := 100000) (n1 := 128)
          ⟨(idxW m d L (ix1 (n := 768) ⟨128 * (2 * r1.val + r2.val) + (x 0).val, by have := lt128r x; have := r1.isLt; have := r2.isLt; omega⟩)).toNat,
            idxW_lt m d L hr _⟩ (x 1)) := by
  have hx0 := lt128r x; have hx1 := lt128c x; have h0 := L0_lt L; have h1 := L1_lt L; have hr1 := r1.isLt; have hr2 := r2.isLt
  have hb := base_le L
  have hemb := emb2 (n0 := 24576) (n1 := 128) (k0_off2 L (BitVec.ofNat 32 (8192 * r1.val)) (BitVec.ofNat 32 (128 * r2.val))) S128x128.size
      (k0_off2_inb L r1 r2) x (8192 * r1.val + 512 * (L 1).val + 256 * (L 0).val + 128 * r2.val) 0
      (by rw [k0_off2_eq]; rfl) (by rw [k0_off2_eq]; rfl) (by omega) (by omega)
  show gath 0 (m (tabLoc d)) (m (hLoc d)) (m (pLoc d)) (m (nLoc d))
    ((Rect.unit (s := S24576x128) (k0_off2 L (BitVec.ofNat 32 (8192 * r1.val)) (BitVec.ofNat 32 (128 * r2.val))) S128x128.size (k0_off2_inb L r1 r2)).emb x) = _
  rw [hemb, gath_ix2]
  refine congrArg (m (tabLoc d)) ?_
  have hw : (Cert.Spec.rowOf 100000 (by decide) (sel (m (hLoc d)) (m (pLoc d)) (m (nLoc d))
        ((8192 * r1.val + 512 * (L 1).val + 256 * (L 0).val + 128 * r2.val + (x 0).val) / 8192)
        (ix1 (n := 16384) ⟨8192 * (0 : Fin 2).val + (8192 * r1.val + 512 * (L 1).val + 256 * (L 0).val + 128 * r2.val + (x 0).val) % 8192,
          by have : ((0 : Fin 2).val) = 0 := rfl; omega⟩))).val
      = (idxW m d L (ix1 (n := 768) ⟨128 * (2 * r1.val + r2.val) + (x 0).val, by omega⟩)).toNat := by
    rw [Cert.Spec.rowOf_val_of_lt _ (sel_lt (hr d) _ _),
      idxW_ix1 m d L _ _ r1.val (128 * r2.val + (x 0).val) (by omega) (by omega) (by omega)]
    refine congrArg BitVec.toNat (sel_congr _ _ _ (by omega) ?_)
    show 8192 * (0 : Fin 2).val + (8192 * r1.val + 512 * (L 1).val + 256 * (L 0).val + 128 * r2.val + (x 0).val) % 8192 = base L + (128 * r2.val + (x 0).val)
    have : ((0 : Fin 2).val) = 0 := rfl
    unfold base; omega
  funext a
  match a with
  | 0 => exact Fin.ext hw
  | 1 => exact Fin.ext (Nat.zero_add _)

/-- What a copy-out lands in output block `(r1, r2)`: the row scratch as gather `2 r1 + r2` left it, which is the
    gathered array there. -/
theorem copyout_val (hr : ∀ d, Cert.Spec.InRange (m (hLoc d)) (m ((SparseCore.T d).loc main_arg4)) (m (pLoc d)) (m (nLoc d)))
    (r1 : Fin 3) (r2 : Fin 2) (o : ℕ) (ho : o = 128 * (2 * r1.val + r2.val))
    (inb : ∀ a, (![o] : Fin 1 → ℕ) a + S128.size a ≤ S768.size a)
    (g : Buf (Elt F) ((sV).view.loc (V d (cV L) (jV L)))) (hg' : ∀ y, g y = idxW m d L y)
    (hn : S128.numel = S128x128.size gathers_S100000x128_S128x128.axis')
    (hin : ∀ x, (((sV).slice (Rect.unit (s := S768) ![o] S128.size inb) (fun _ => rfl)).view.read (Elt F) g x).toNat
      < S100000x128.size gathers_S100000x128_S128x128.axis)
    (v : View sig .scVector .vmem S128x128 .f32) (fa : v.ty.Contents (Elt F)) (rest : List (View.Piece (Elt F) S128x128 .f32))
    (x : S128x128.Idx) :
    (ReadAs.same.apply (v.read (Elt F) (v.writes (Elt F) fa (⟨Rect.whole S128x128,
        SparseCore.gatherPayload gathers_S100000x128_S128x128 ((tAllK).view.read (Elt F) (m (tabLoc d)))
          (SparseCore.rows (((sV).slice (Rect.unit (s := S768) ![o] S128.size inb) (fun _ => rfl)).view.read (Elt F) g) hn hin)⟩ :: rest)))
          : S128x128.Idx → F .f32) x
      = gathAt m 0 d (((oV).slice (Rect.unit (s := S24576x128) (k0_off2 L (BitVec.ofNat 32 (8192 * r1.val)) (BitVec.ofNat 32 (128 * r2.val))) S128x128.size
        (k0_off2_inb L r1 r2)) (fun _ => rfl)).view.emb x) := by
  subst ho
  have hr1 := r1.isLt; have hr2 := r2.isLt
  rw [ReadAs.apply_same, read_writes_whole_head, gather_apply (F := F) m d L hr _ inb (by omega) g hg' hn hin x, gath_blk (F := F) m d L hr r1 r2 x]

set_option maxHeartbeats 4000000 in
theorem tile_body (hF : (K (F := F)).Facts)
    (hr : ∀ d, Cert.Spec.InRange (m (hLoc d)) (m ((SparseCore.T d).loc main_arg4)) (m (pLoc d)) (m (nLoc d)))
    (O : CellTallies nD τ sig (HIx 2)) (W : Waits sig (HIx 2)) (hO : ∀ g, O g none = 0) :
    iprop(levAts (K (F := F)).L (K (F := F)).lev ∗ emp
        ∗ goOf (F := F) (UU := UU) m (outLoc 0 d) blkSet (m (outLoc 0 d)) d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L hV (Memref.isWhole_whole _) pV (Memref.isWhole_whole _) nV (Memref.isWhole_whole _) tV (Memref.isWhole_whole _)
            oV (Memref.isWhole_whole _) sV (Memref.isWhole_whole _) aV (Memref.isWhole_whole _) bV (Memref.isWhole_whole _)
            cc0_scratch3 cc0_scratch4 cc0_scoped0 cc0_scoped1 cc0_scoped2 cc0_scoped3 cc0_scoped4 cc0_scoped5 cc0_scoped6 cc0_scoped7 cc0_scoped8)
          fun _ => iprop(goOf (F := F) (UU := UU) m (outLoc 0 d) blkSet (gathAt m 0 d) d (cL L) (sL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V, goOf_six, goOf_six]
  iintro ⟨#Hlv, -, ⟨Hh, Hp, Hn, Ht, Ho0, Ho1, Ho2, Ho3, Ho4, Ho5⟩, ⟨⟨%fs, Hs⟩, ⟨%fa, Ha⟩, ⟨%fb, Hb⟩, Hbufs⟩, ⟨Hc0, Hc1, Hc2, Hc3, Hc4, Hc5, Hc6, Hc7, Hc8, Hc9, Hc10, Hsems⟩, HO⟩
  ihave Hmw := (show levAts (K (F := F)).L (K (F := F)).lev ⊢ Transfers.MayWaits (V d (cV L) (jV L)) (default : HIx 2) O from
    (K (F := F)).mayWaits_none (thr := (V d (cV L) (jV L))) hO) $$ Hlv
  ihave Ho0' := (Entails.of_eq (pts_oB0K (F := F) (UU := UU) d L _).symm) $$ Ho0
  ihave Ho1' := (Entails.of_eq (pts_oB1K (F := F) (UU := UU) d L _).symm) $$ Ho1
  ihave Ho2' := (Entails.of_eq (pts_oB2K (F := F) (UU := UU) d L _).symm) $$ Ho2
  ihave Ho3' := (Entails.of_eq (pts_oB3K (F := F) (UU := UU) d L _).symm) $$ Ho3
  ihave Ho4' := (Entails.of_eq (pts_oB4K (F := F) (UU := UU) d L _).symm) $$ Ho4
  ihave Ho5' := (Entails.of_eq (pts_oB5K (F := F) (UU := UU) d L _).symm) $$ Ho5
  ihave Hh' := (Entails.of_eq (show (hLoc d ↦{tq (cL L) (sL L)} m (hLoc d) : sProp 𝕄) = (hV).view.loc (V d (cV L) (jV L)) ↦{tq (cL L) (sL L)} m (hLoc d) from rfl)) $$ Hh
  ihave Hp' := (Entails.of_eq (show (pLoc d ↦{tq (cL L) (sL L)} m (pLoc d) : sProp 𝕄) = (pV).view.loc (V d (cV L) (jV L)) ↦{tq (cL L) (sL L)} m (pLoc d) from rfl)) $$ Hp
  ihave Hn' := (Entails.of_eq (show (nLoc d ↦{tq (cL L) (sL L)} m (nLoc d) : sProp 𝕄) = (nV).view.loc (V d (cV L) (jV L)) ↦{tq (cL L) (sL L)} m (nLoc d) from rfl)) $$ Hn
  ihave Ht' := (Entails.of_eq (show (tabLoc d ↦{tq (cL L) (sL L)} m (tabLoc d) : sProp 𝕄) = (tV).view.loc (V d (cV L) (jV L)) ↦{tq (cL L) (sL L)} m (tabLoc d) from rfl)) $$ Ht
  ihave Hs' := (Entails.of_eq (show ((V d (cV L) (jV L)).loc cc0_scratch0 ↦{fullShare} fs : sProp 𝕄) = (sV).view.loc (V d (cV L) (jV L)) ↦{fullShare} fs from rfl)) $$ Hs
  ihave Ha' := (Entails.of_eq (show ((V d (cV L) (jV L)).loc cc0_scratch1 ↦{fullShare} fa : sProp 𝕄) = (aV).view.loc (V d (cV L) (jV L)) ↦{fullShare} fa from rfl)) $$ Ha
  ihave Hb' := (Entails.of_eq (show ((V d (cV L) (jV L)).loc cc0_scratch2 ↦{fullShare} fb : sProp 𝕄) = (bV).view.loc (V d (cV L) (jV L)) ↦{fullShare} fb from rfl)) $$ Hb
  sl_exec

  ihave Hs6 := (Entails.of_eq (sV_six (F := F) (UU := UU) d L _)) $$ Hs'
  icases Hs6 with ⟨Hl0, Hl1, Hl2, Hl3, Hl4, Hl5⟩
  ihave Ht2 := (pointsTo_share (PosShare.mem_left_op_right (tq (cL L) (sL L)))).1 $$ Ht'
  icases Ht2 with ⟨Htl, Htr⟩
  have hFS : ∀ y, ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) y = idxW m d L y :=
    FS_apply (F := F) m d L _ _ _ _ (dmaH_apply (F := F) m d L) (dmaP_apply (F := F) m d L) (dmaN_apply (F := F) m d L)
  have hin0 : ∀ x, ((off0K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 0 inb_S768_S128_0 (by omega) _ hFS
  have hin1 : ∀ x, ((off1K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 128 inb_S768_S128_128 (by omega) _ hFS
  have hin2 : ∀ x, ((off2K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 256 inb_S768_S128_256 (by omega) _ hFS
  have hin3 : ∀ x, ((off3K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 384 inb_S768_S128_384 (by omega) _ hFS
  have hin4 : ∀ x, ((off4K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 512 inb_S768_S128_512 (by omega) _ hFS
  have hin5 : ∀ x, ((off5K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 640 inb_S768_S128_640 (by omega) _ hFS
  sl_exec
  sl_step
  have hW0 : ∀ x, tile_body.sl.dma0_3 m d L fa hin0 x = gathAt m 0 d ((oB0K L).view.emb x) := fun x => copyout_val (F := F) m d L hr 0 0 0 rfl inb_S768_S128_0 _ hFS _ hin0 (aV).view _ _ x
  have hW1 : ∀ x, tile_body.sl.dma0_4 m d L fb hin1 x = gathAt m 0 d ((oB1K L).view.emb x) := fun x => copyout_val (F := F) m d L hr 0 1 128 rfl inb_S768_S128_128 _ hFS _ hin1 (bV).view _ _ x
  have hW2 : ∀ x, tile_body.sl.dma0_5 m d L fa hin0 hin2 x = gathAt m 0 d ((oB2K L).view.emb x) := fun x => copyout_val (F := F) m d L hr 1 0 256 rfl inb_S768_S128_256 _ hFS _ hin2 (aV).view _ _ x
  have hW3 : ∀ x, tile_body.sl.dma0_6 m d L fb hin1 hin3 x = gathAt m 0 d ((oB3K L).view.emb x) := fun x => copyout_val (F := F) m d L hr 1 1 384 rfl inb_S768_S128_384 _ hFS _ hin3 (bV).view _ _ x
  have hW4 : ∀ x, tile_body.sl.dma0_7 m d L fa hin0 hin2 hin4 x = gathAt m 0 d ((oB4K L).view.emb x) := fun x => copyout_val (F := F) m d L hr 2 0 512 rfl inb_S768_S128_512 _ hFS _ hin4 (aV).view _ _ x
  have hW5 : ∀ x, tile_body.sl.dma0_8 m d L fb hin1 hin3 hin5 x = gathAt m 0 d ((oB5K L).view.emb x) := fun x => copyout_val (F := F) m d L hr 2 1 640 rfl inb_S768_S128_640 _ hFS _ hin5 (bV).view _ _ x
  ihave Hs3 := (Entails.of_eq (sV_six (F := F) (UU := UU) d L _).symm) $$ [Hl0 Hl1 Hl2 Hl3 Hl4 Hl5]
  · isplitl [Hl0]; · iexact Hl0
    isplitl [Hl1]; · iexact Hl1
    isplitl [Hl2]; · iexact Hl2
    isplitl [Hl3]; · iexact Hl3
    isplitl [Hl4]; · iexact Hl4
    iexact Hl5
  ihave Ht3 := (pointsTo_share (PosShare.mem_left_op_right (tq (cL L) (sL L)))).2 $$ [Htl Htr]
  · isplitl [Htl] <;> iassumption
  isplitl [Hh' Hp' Hn' Ht3 Ho0' Ho1' Ho2' Ho3' Ho4' Ho5']
  · isplitl [Hh']; · iexact Hh'
    isplitl [Hp']; · iexact Hp'
    isplitl [Hn']; · iexact Hn'
    isplitl [Ht3]; · iexact Ht3
    isplitl [Ho0']; · iapply (Entails.of_eq (blk_congr0 (F := F) (UU := UU) m d L _ _ hW0)); iexact Ho0'
    isplitl [Ho1']; · iapply (Entails.of_eq (blk_congr1 (F := F) (UU := UU) m d L _ _ hW1)); iexact Ho1'
    isplitl [Ho2']; · iapply (Entails.of_eq (blk_congr2 (F := F) (UU := UU) m d L _ _ hW2)); iexact Ho2'
    isplitl [Ho3']; · iapply (Entails.of_eq (blk_congr3 (F := F) (UU := UU) m d L _ _ hW3)); iexact Ho3'
    isplitl [Ho4']; · iapply (Entails.of_eq (blk_congr4 (F := F) (UU := UU) m d L _ _ hW4)); iexact Ho4'
    iapply (Entails.of_eq (blk_congr5 (F := F) (UU := UU) m d L _ _ hW5)); iexact Ho5'
  isplitl [Hs3 Ha' Hb' Hbufs]
  · isplitl [Hs3]; · iexists _; iexact Hs3
    isplitl [Ha']; · iexists _; iexact Ha'
    isplitl [Hb']; · iexists _; iexact Hb'
    iexact Hbufs
  isplitl [Hc0 Hc1 Hc2 Hc3 Hc4 Hc5 Hc6 Hc7 Hc8 Hc9 Hc10 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ### The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          hV (Memref.isWhole_whole _) pV (Memref.isWhole_whole _) nV (Memref.isWhole_whole _) tV (Memref.isWhole_whole _)
          oV (Memref.isWhole_whole _) sV (Memref.isWhole_whole _) aV (Memref.isWhole_whole _) bV (Memref.isWhole_whole _)
          cc0_scratch3 cc0_scratch4 cc0_scoped0 cc0_scoped1 cc0_scoped2 cc0_scoped3 cc0_scoped4 cc0_scoped5 cc0_scoped6 cc0_scoped7 cc0_scoped8) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts)
    (hr : ∀ d, Cert.Spec.InRange (m (hLoc d)) (m ((SparseCore.T d).loc main_arg4)) (m (pLoc d)) (m (nLoc d))) :
    (K (F := F)).TileObl (D (F := F)) 𝒱 (P (F := F) (UU := UU) m) v₀ 0 := by
  intro d c i O W hO _ _
  simp only [show (P (F := F) (UU := UU) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hr O W hO).trans (wp_mono frame _ _ fun _ => obl_post)

end Tile

end C0

namespace C1

local notation "hV" => (Memref.whole Cert.KernelIdeal.main_arg3_scv : Memref Cert.KernelIdeal.sig Kind.scVector Space.hbm Cert.KernelIdeal.S16384 EltTy.i32)
local notation "pV" => (Memref.whole Cert.KernelIdeal.main_arg5_scv : Memref Cert.KernelIdeal.sig Kind.scVector Space.hbm Cert.KernelIdeal.S16384 EltTy.i32)
local notation "nV" => (Memref.whole Cert.KernelIdeal.main_arg6_scv : Memref Cert.KernelIdeal.sig Kind.scVector Space.hbm Cert.KernelIdeal.S16384 EltTy.i32)
local notation "tV" => (Memref.whole Cert.KernelIdeal.main_arg0_scv : Memref Cert.KernelIdeal.sig Kind.scVector Space.hbm Cert.KernelIdeal.S100000x128 EltTy.f32)
local notation "oV" => (Memref.whole Cert.KernelIdeal.main_v14_scv : Memref Cert.KernelIdeal.sig Kind.scVector Space.hbm Cert.KernelIdeal.S24576x128 EltTy.f32)
local notation "sV" => (Memref.whole Cert.KernelIdeal.cc1_scratch0 : Memref Cert.KernelIdeal.sig Kind.scVector Space.vmem Cert.KernelIdeal.S768 EltTy.i32)
local notation "aV" => (Memref.whole Cert.KernelIdeal.cc1_scratch1 : Memref Cert.KernelIdeal.sig Kind.scVector Space.vmem Cert.KernelIdeal.S128x128 EltTy.f32)
local notation "bV" => (Memref.whole Cert.KernelIdeal.cc1_scratch2 : Memref Cert.KernelIdeal.sig Kind.scVector Space.vmem Cert.KernelIdeal.S128x128 EltTy.f32)

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev sL (L : grid1.Coords) : Fin 16 := Fin.cast bound_one (L 1)

/-! ### The subcore's own semaphores and scratch buffers -/

abbrev cell0 (d : Dev nD) (c : Fin τ.nSC) (i : Fin τ.nSub) : GSem nD τ sig := (V d c i, .dma cc1_scratch3.sem)
abbrev cell1 (d : Dev nD) (c : Fin τ.nSC) (i : Fin τ.nSub) : GSem nD τ sig := (V d c i, .dma cc1_scratch4.sem)
abbrev cell2 (d : Dev nD) (c : Fin τ.nSC) (i : Fin τ.nSub) : GSem nD τ sig := (V d c i, .dma cc1_scoped0.sem)
abbrev cell3 (d : Dev nD) (c : Fin τ.nSC) (i : Fin τ.nSub) : GSem nD τ sig := (V d c i, .dma cc1_scoped1.sem)
abbrev cell4 (d : Dev nD) (c : Fin τ.nSC) (i : Fin τ.nSub) : GSem nD τ sig := (V d c i, .dma cc1_scoped2.sem)
abbrev cell5 (d : Dev nD) (c : Fin τ.nSC) (i : Fin τ.nSub) : GSem nD τ sig := (V d c i, .dma cc1_scoped3.sem)
abbrev cell6 (d : Dev nD) (c : Fin τ.nSC) (i : Fin τ.nSub) : GSem nD τ sig := (V d c i, .dma cc1_scoped4.sem)
abbrev cell7 (d : Dev nD) (c : Fin τ.nSC) (i : Fin τ.nSub) : GSem nD τ sig := (V d c i, .dma cc1_scoped5.sem)
abbrev cell8 (d : Dev nD) (c : Fin τ.nSC) (i : Fin τ.nSub) : GSem nD τ sig := (V d c i, .dma cc1_scoped6.sem)
abbrev cell9 (d : Dev nD) (c : Fin τ.nSC) (i : Fin τ.nSub) : GSem nD τ sig := (V d c i, .dma cc1_scoped7.sem)
abbrev cell10 (d : Dev nD) (c : Fin τ.nSC) (i : Fin τ.nSub) : GSem nD τ sig := (V d c i, .dma cc1_scoped8.sem)

theorem cell_ne {thr : Thread nD τ} {a b : DmaSem sig} (h : a ≠ b) : ((thr, SemLoc.dma a) : GSem nD τ sig) ≠ (thr, SemLoc.dma b) :=
  fun e => h (SemLoc.dma.inj (Prod.mk.inj e).2)

theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0 ∗ semVal (cell6 d (cV L) (jV L)) 0 ∗ semVal (cell7 d (cV L) (jV L)) 0 ∗ semVal (cell8 d (cV L) (jV L)) 0 ∗ semVal (cell9 d (cV L) (jV L)) 0 ∗ semVal (cell10 d (cV L) (jV L)) 0
          ∗ bigSep ((((((((((((ownCells (V d (cV L) (jV L))).erase (cell0 d (cV L) (jV L))).erase (cell1 d (cV L) (jV L))).erase (cell2 d (cV L) (jV L))).erase (cell3 d (cV L) (jV L))).erase (cell4 d (cV L) (jV L))).erase (cell5 d (cV L) (jV L))).erase (cell6 d (cV L) (jV L))).erase (cell7 d (cV L) (jV L))).erase (cell8 d (cV L) (jV L))).erase (cell9 d (cV L) (jV L))).erase (cell10 d (cV L) (jV L))) fun g => semVal g 0) := by
  unfold SparseCore.Cfg.ownSems0
  rw [SparseCore.bigSep_erase' ((mem_ownCells (g := cell0 d (cV L) (jV L))).mpr ⟨rfl, by show (SemLoc.dma cc1_scratch3.sem : SemLoc sig).isScoped .scVector = true; decide⟩),
    SparseCore.bigSep_erase' (Finset.mem_erase.mpr ⟨cell_ne (by decide), (mem_ownCells (g := cell1 d (cV L) (jV L))).mpr ⟨rfl, by show (SemLoc.dma cc1_scratch4.sem : SemLoc sig).isScoped .scVector = true; decide⟩⟩),
    SparseCore.bigSep_erase' (Finset.mem_erase.mpr ⟨cell_ne (by decide), Finset.mem_erase.mpr ⟨cell_ne (by decide), (mem_ownCells (g := cell2 d (cV L) (jV L))).mpr ⟨rfl, by show (SemLoc.dma cc1_scoped0.sem : SemLoc sig).isScoped .scVector = true; decide⟩⟩⟩),
    SparseCore.bigSep_erase' (Finset.mem_erase.mpr ⟨cell_ne (by decide), Finset.mem_erase.mpr ⟨cell_ne (by decide), Finset.mem_erase.mpr ⟨cell_ne (by decide), (mem_ownCells (g := cell3 d (cV L) (jV L))).mpr ⟨rfl, by show (SemLoc.dma cc1_scoped1.sem : SemLoc sig).isScoped .scVector = true; decide⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), (mem_ownCells (g := cell4 d (cV L) (jV L))).mpr ⟨rfl, by show (SemLoc.dma cc1_scoped2.sem : SemLoc sig).isScoped .scVector = true; decide⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell5 d (cV L) (jV L))).mpr ⟨rfl, by show (SemLoc.dma cc1_scoped3.sem : SemLoc sig).isScoped .scVector = true; decide⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell6 d (cV L) (jV L))).mpr ⟨rfl, by show (SemLoc.dma cc1_scoped4.sem : SemLoc sig).isScoped .scVector = true; decide⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell7 d (cV L) (jV L))).mpr ⟨rfl, by show (SemLoc.dma cc1_scoped5.sem : SemLoc sig).isScoped .scVector = true; decide⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell8 d (cV L) (jV L))).mpr ⟨rfl, by show (SemLoc.dma cc1_scoped6.sem : SemLoc sig).isScoped .scVector = true; decide⟩⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell9 d (cV L) (jV L))).mpr ⟨rfl, by show (SemLoc.dma cc1_scoped7.sem : SemLoc sig).isScoped .scVector = true; decide⟩⟩⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell10 d (cV L) (jV L))).mpr ⟨rfl, by show (SemLoc.dma cc1_scoped8.sem : SemLoc sig).isScoped .scVector = true; decide⟩⟩⟩⟩⟩⟩⟩⟩⟩⟩⟩)]

/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

/-! ### The views the task addresses, in the program's spelling -/

theorem bigSep_fin6 {M : Type} [URA M] (Φ : Fin 6 → sProp M) : bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

/-- The whole table, as every gather names it. -/
abbrev tAllK : Memref sig .scVector .hbm S100000x128 .f32 :=
  (tV).slice (Rect.unit (s := S100000x128) ![0, 0] S100000x128.size inb_S100000x128_S100000x128_0_0) (fun _ => rfl)
abbrev off0K : Memref sig .scVector .vmem S128 .i32 := (sV).slice (Rect.unit (s := S768) ![0] S128.size inb_S768_S128_0) (fun _ => rfl)
abbrev off1K : Memref sig .scVector .vmem S128 .i32 := (sV).slice (Rect.unit (s := S768) ![128] S128.size inb_S768_S128_128) (fun _ => rfl)
abbrev off2K : Memref sig .scVector .vmem S128 .i32 := (sV).slice (Rect.unit (s := S768) ![256] S128.size inb_S768_S128_256) (fun _ => rfl)
abbrev off3K : Memref sig .scVector .vmem S128 .i32 := (sV).slice (Rect.unit (s := S768) ![384] S128.size inb_S768_S128_384) (fun _ => rfl)
abbrev off4K : Memref sig .scVector .vmem S128 .i32 := (sV).slice (Rect.unit (s := S768) ![512] S128.size inb_S768_S128_512) (fun _ => rfl)
abbrev off5K : Memref sig .scVector .vmem S128 .i32 := (sV).slice (Rect.unit (s := S768) ![640] S128.size inb_S768_S128_640) (fun _ => rfl)
abbrev oB0K (L : grid1.Coords) : Memref sig .scVector .hbm S128x128 .f32 :=
  (oV).slice (Rect.unit (s := S24576x128) (k1_off2 L 0#32 0#32) S128x128.size (k1_off2_inb L 0 0)) (fun _ => rfl)
abbrev oB1K (L : grid1.Coords) : Memref sig .scVector .hbm S128x128 .f32 :=
  (oV).slice (Rect.unit (s := S24576x128) (k1_off2 L 0#32 128#32) S128x128.size (k1_off2_inb L 0 1)) (fun _ => rfl)
abbrev oB2K (L : grid1.Coords) : Memref sig .scVector .hbm S128x128 .f32 :=
  (oV).slice (Rect.unit (s := S24576x128) (k1_off2 L 8192#32 0#32) S128x128.size (k1_off2_inb L 1 0)) (fun _ => rfl)
abbrev oB3K (L : grid1.Coords) : Memref sig .scVector .hbm S128x128 .f32 :=
  (oV).slice (Rect.unit (s := S24576x128) (k1_off2 L 8192#32 128#32) S128x128.size (k1_off2_inb L 1 1)) (fun _ => rfl)
abbrev oB4K (L : grid1.Coords) : Memref sig .scVector .hbm S128x128 .f32 :=
  (oV).slice (Rect.unit (s := S24576x128) (k1_off2 L 16384#32 0#32) S128x128.size (k1_off2_inb L 2 0)) (fun _ => rfl)
abbrev oB5K (L : grid1.Coords) : Memref sig .scVector .hbm S128x128 .f32 :=
  (oV).slice (Rect.unit (s := S24576x128) (k1_off2 L 16384#32 128#32) S128x128.size (k1_off2_inb L 2 1)) (fun _ => rfl)

/-- Output block `(r1, r2)` of the task is block `64 r1 + 4 s + 2 c + r2` of the array. -/
theorem oB_rect (r1 : Fin 3) (r2 : Fin 2) :
    Rect.unit (s := S24576x128) (k1_off2 L (BitVec.ofNat 32 (8192 * r1.val)) (BitVec.ofNat 32 (128 * r2.val))) S128x128.size (k1_off2_inb L r1 r2)
      = blk (blkIx (cL L) (sL L) ⟨2 * r1.val + r2.val, by omega⟩) := by
  unfold blk Rect.part Rect.block
  congr 1 <;> funext a
  · rw [k1_off2_eq]
    match a with
    | 0 => simp [Shape.partIx, Shape.partSize, blkIx]; omega
    | 1 => simp [Shape.partIx, Shape.partSize]
  · match a with
    | 0 => simp [Shape.partSize]
    | 1 => simp [Shape.partSize]

theorem set_of_rect {r r' : Rect S24576x128} (h : r = r') : ((View.whole (main_v14_scv : Ref sig .scVector)).slice r).set = r'.set := by
  subst h; rw [View.set_slice]; exact Finset.map_refl
theorem set_oB0K : (oB0K L).view.set = blkSet (blkIx (cL L) (sL L) 0) := set_of_rect (oB_rect L 0 0)
theorem set_oB1K : (oB1K L).view.set = blkSet (blkIx (cL L) (sL L) 1) := set_of_rect (oB_rect L 0 1)
theorem set_oB2K : (oB2K L).view.set = blkSet (blkIx (cL L) (sL L) 2) := set_of_rect (oB_rect L 1 0)
theorem set_oB3K : (oB3K L).view.set = blkSet (blkIx (cL L) (sL L) 3) := set_of_rect (oB_rect L 1 1)
theorem set_oB4K : (oB4K L).view.set = blkSet (blkIx (cL L) (sL L) 4) := set_of_rect (oB_rect L 2 0)
theorem set_oB5K : (oB5K L).view.set = blkSet (blkIx (cL L) (sL L) 5) := set_of_rect (oB_rect L 2 1)

theorem pts_oB0K (f : Buf (Elt F) (outLoc 1 d)) :
    ((oB0K L).view.loc (V d (cV L) (jV L)) ↦[(oB0K L).view.set]{fullShare} f : sProp 𝕄) = outLoc 1 d ↦[blkSet (blkIx (cL L) (sL L) 0)]{fullShare} f := by
  rw [set_oB0K]
theorem pts_oB1K (f : Buf (Elt F) (outLoc 1 d)) :
    ((oB1K L).view.loc (V d (cV L) (jV L)) ↦[(oB1K L).view.set]{fullShare} f : sProp 𝕄) = outLoc 1 d ↦[blkSet (blkIx (cL L) (sL L) 1)]{fullShare} f := by
  rw [set_oB1K]
theorem pts_oB2K (f : Buf (Elt F) (outLoc 1 d)) :
    ((oB2K L).view.loc (V d (cV L) (jV L)) ↦[(oB2K L).view.set]{fullShare} f : sProp 𝕄) = outLoc 1 d ↦[blkSet (blkIx (cL L) (sL L) 2)]{fullShare} f := by
  rw [set_oB2K]
theorem pts_oB3K (f : Buf (Elt F) (outLoc 1 d)) :
    ((oB3K L).view.loc (V d (cV L) (jV L)) ↦[(oB3K L).view.set]{fullShare} f : sProp 𝕄) = outLoc 1 d ↦[blkSet (blkIx (cL L) (sL L) 3)]{fullShare} f := by
  rw [set_oB3K]
theorem pts_oB4K (f : Buf (Elt F) (outLoc 1 d)) :
    ((oB4K L).view.loc (V d (cV L) (jV L)) ↦[(oB4K L).view.set]{fullShare} f : sProp 𝕄) = outLoc 1 d ↦[blkSet (blkIx (cL L) (sL L) 4)]{fullShare} f := by
  rw [set_oB4K]
theorem pts_oB5K (f : Buf (Elt F) (outLoc 1 d)) :
    ((oB5K L).view.loc (V d (cV L) (jV L)) ↦[(oB5K L).view.set]{fullShare} f : sProp 𝕄) = outLoc 1 d ↦[blkSet (blkIx (cL L) (sL L) 5)]{fullShare} f := by
  rw [set_oB5K]

theorem goOf_six (ℓ : Loc nD τ sig) (B : Fin 192 → Finset (Idx ℓ)) (f : Buf (Elt F) ℓ) (d : Dev nD) (c : Fin 2) (s : Fin 16) :
    goOf (F := F) (UU := UU) m ℓ B f d c s =
      iprop((hLoc d ↦{tq c s} m (hLoc d)) ∗ (pLoc d ↦{tq c s} m (pLoc d)) ∗ (nLoc d ↦{tq c s} m (nLoc d)) ∗ (tabLoc d ↦{tq c s} m (tabLoc d))
        ∗ (ℓ ↦[B (blkIx c s 0)]{fullShare} f) ∗ (ℓ ↦[B (blkIx c s 1)]{fullShare} f) ∗ (ℓ ↦[B (blkIx c s 2)]{fullShare} f)
        ∗ (ℓ ↦[B (blkIx c s 3)]{fullShare} f) ∗ (ℓ ↦[B (blkIx c s 4)]{fullShare} f) ∗ (ℓ ↦[B (blkIx c s 5)]{fullShare} f)) := by
  show iprop(_ ∗ _ ∗ _ ∗ _ ∗ bigSep Finset.univ _) = _
  rw [bigSep_fin6]

/-! ### The index scratch as its six lists of 128 offsets -/

theorem sdiv : 6 ∣ S768.size 0 := ⟨128, rfl⟩
abbrev lst (k : Fin 6) : Rect S768 := Rect.part (s := S768) (a₀ := 0) sdiv k

theorem off_rect (k : Fin 6) (h : ∀ a, (![128 * k.val] : Fin 1 → Nat) a + S128.size a ≤ S768.size a) :
    Rect.unit (s := S768) ![128 * k.val] S128.size h = lst k := by
  unfold lst Rect.part Rect.block
  congr 1 <;> funext a
  · match a with
    | 0 => simp [Shape.partIx, Shape.partSize]; omega
  · match a with
    | 0 => simp [Shape.partSize]

theorem set_of_lst {r r' : Rect S768} (h : r = r') : ((View.whole (cc1_scratch0 : Ref sig .scVector)).slice r).set = r'.set := by
  subst h; rw [View.set_slice]; exact Finset.map_refl
theorem set_off0K : (off0K).view.set = (lst 0).set := set_of_lst (off_rect 0 inb_S768_S128_0)
theorem set_off1K : (off1K).view.set = (lst 1).set := set_of_lst (off_rect 1 inb_S768_S128_128)
theorem set_off2K : (off2K).view.set = (lst 2).set := set_of_lst (off_rect 2 inb_S768_S128_256)
theorem set_off3K : (off3K).view.set = (lst 3).set := set_of_lst (off_rect 3 inb_S768_S128_384)
theorem set_off4K : (off4K).view.set = (lst 4).set := set_of_lst (off_rect 4 inb_S768_S128_512)
theorem set_off5K : (off5K).view.set = (lst 5).set := set_of_lst (off_rect 5 inb_S768_S128_640)

theorem sV_six (f : Buf (Elt F) ((V d (cV L) (jV L)).loc cc1_scratch0)) :
    ((sV).view.loc (V d (cV L) (jV L)) ↦{fullShare} f : sProp 𝕄)
      = iprop(((off0K).view.loc (V d (cV L) (jV L)) ↦[(off0K).view.set]{fullShare} f)
          ∗ ((off1K).view.loc (V d (cV L) (jV L)) ↦[(off1K).view.set]{fullShare} f)
          ∗ ((off2K).view.loc (V d (cV L) (jV L)) ↦[(off2K).view.set]{fullShare} f)
          ∗ ((off3K).view.loc (V d (cV L) (jV L)) ↦[(off3K).view.set]{fullShare} f)
          ∗ ((off4K).view.loc (V d (cV L) (jV L)) ↦[(off4K).view.set]{fullShare} f)
          ∗ ((off5K).view.loc (V d (cV L) (jV L)) ↦[(off5K).view.set]{fullShare} f)) := by
  rw [set_off0K, set_off1K, set_off2K, set_off3K, set_off4K, set_off5K]
  have e : ((sV).view.loc (V d (cV L) (jV L)) ↦{fullShare} f : sProp 𝕄) = bigSep Finset.univ fun k : Fin 6 => (sV).view.loc (V d (cV L) (jV L)) ↦[(lst k).set]{fullShare} f := by
    rw [← pointsTo_biUnion Finset.univ (ℓ := (sV).view.loc (V d (cV L) (jV L))) (fun k : Fin 6 => (lst k).set) (fun i _ j _ h => Rect.part_disjoint sdiv h), Rect.biUnion_part sdiv]; try rfl
  rw [e, bigSep_fin6]

/-! ### A block written whole with the gathered rows is the gathered array there -/

theorem writes_whole_emb {κ : Kind} {sp : Space} {s : Shape} (v : View sig κ sp s .f32) (f0 : v.ty.Contents (Elt F)) (W : s.Idx → F .f32) (x : s.Idx) :
    v.read (Elt F) (v.writes (Elt F) f0 [⟨Rect.whole s, W⟩]) x = W x := by
  have h := View.read_writes_cons_emb v f0 (Rect.whole s) W [] x
  rwa [Rect.emb_whole_apply] at h

theorem blk_congr0 (f0 : Buf (Elt F) (outLoc 1 d)) (W : S128x128.Idx → F .f32)
    (hW : ∀ x, W x = gathAt m 1 d ((oB0K L).view.emb x)) :
    ((oB0K L).view.loc (V d (cV L) (jV L)) ↦[(oB0K L).view.set]{fullShare} (oB0K L).view.writes (Elt F) f0 [⟨Rect.whole S128x128, W⟩] : sProp 𝕄)
      = outLoc 1 d ↦[blkSet (blkIx (cL L) (sL L) 0)]{fullShare} gathAt m 1 d := by
  rw [← pts_oB0K (F := F) (UU := UU) d L (gathAt m 1 d)]
  refine pointsTo_congr fun i hi => ?_
  obtain ⟨x, -, rfl⟩ := Finset.mem_map.mp hi
  have h := writes_whole_emb (F := F) (oB0K L).view f0 W x
  rw [View.read_apply] at h
  exact ((cast_eq _ _).symm.trans h).trans (hW x)

theorem blk_congr1 (f0 : Buf (Elt F) (outLoc 1 d)) (W : S128x128.Idx → F .f32)
    (hW : ∀ x, W x = gathAt m 1 d ((oB1K L).view.emb x)) :
    ((oB1K L).view.loc (V d (cV L) (jV L)) ↦[(oB1K L).view.set]{fullShare} (oB1K L).view.writes (Elt F) f0 [⟨Rect.whole S128x128, W⟩] : sProp 𝕄)
      = outLoc 1 d ↦[blkSet (blkIx (cL L) (sL L) 1)]{fullShare} gathAt m 1 d := by
  rw [← pts_oB1K (F := F) (UU := UU) d L (gathAt m 1 d)]
  refine pointsTo_congr fun i hi => ?_
  obtain ⟨x, -, rfl⟩ := Finset.mem_map.mp hi
  have h := writes_whole_emb (F := F) (oB1K L).view f0 W x
  rw [View.read_apply] at h
  exact ((cast_eq _ _).symm.trans h).trans (hW x)

theorem blk_congr2 (f0 : Buf (Elt F) (outLoc 1 d)) (W : S128x128.Idx → F .f32)
    (hW : ∀ x, W x = gathAt m 1 d ((oB2K L).view.emb x)) :
    ((oB2K L).view.loc (V d (cV L) (jV L)) ↦[(oB2K L).view.set]{fullShare} (oB2K L).view.writes (Elt F) f0 [⟨Rect.whole S128x128, W⟩] : sProp 𝕄)
      = outLoc 1 d ↦[blkSet (blkIx (cL L) (sL L) 2)]{fullShare} gathAt m 1 d := by
  rw [← pts_oB2K (F := F) (UU := UU) d L (gathAt m 1 d)]
  refine pointsTo_congr fun i hi => ?_
  obtain ⟨x, -, rfl⟩ := Finset.mem_map.mp hi
  have h := writes_whole_emb (F := F) (oB2K L).view f0 W x
  rw [View.read_apply] at h
  exact ((cast_eq _ _).symm.trans h).trans (hW x)

theorem blk_congr3 (f0 : Buf (Elt F) (outLoc 1 d)) (W : S128x128.Idx → F .f32)
    (hW : ∀ x, W x = gathAt m 1 d ((oB3K L).view.emb x)) :
    ((oB3K L).view.loc (V d (cV L) (jV L)) ↦[(oB3K L).view.set]{fullShare} (oB3K L).view.writes (Elt F) f0 [⟨Rect.whole S128x128, W⟩] : sProp 𝕄)
      = outLoc 1 d ↦[blkSet (blkIx (cL L) (sL L) 3)]{fullShare} gathAt m 1 d := by
  rw [← pts_oB3K (F := F) (UU := UU) d L (gathAt m 1 d)]
  refine pointsTo_congr fun i hi => ?_
  obtain ⟨x, -, rfl⟩ := Finset.mem_map.mp hi
  have h := writes_whole_emb (F := F) (oB3K L).view f0 W x
  rw [View.read_apply] at h
  exact ((cast_eq _ _).symm.trans h).trans (hW x)

theorem blk_congr4 (f0 : Buf (Elt F) (outLoc 1 d)) (W : S128x128.Idx → F .f32)
    (hW : ∀ x, W x = gathAt m 1 d ((oB4K L).view.emb x)) :
    ((oB4K L).view.loc (V d (cV L) (jV L)) ↦[(oB4K L).view.set]{fullShare} (oB4K L).view.writes (Elt F) f0 [⟨Rect.whole S128x128, W⟩] : sProp 𝕄)
      = outLoc 1 d ↦[blkSet (blkIx (cL L) (sL L) 4)]{fullShare} gathAt m 1 d := by
  rw [← pts_oB4K (F := F) (UU := UU) d L (gathAt m 1 d)]
  refine pointsTo_congr fun i hi => ?_
  obtain ⟨x, -, rfl⟩ := Finset.mem_map.mp hi
  have h := writes_whole_emb (F := F) (oB4K L).view f0 W x
  rw [View.read_apply] at h
  exact ((cast_eq _ _).symm.trans h).trans (hW x)

theorem blk_congr5 (f0 : Buf (Elt F) (outLoc 1 d)) (W : S128x128.Idx → F .f32)
    (hW : ∀ x, W x = gathAt m 1 d ((oB5K L).view.emb x)) :
    ((oB5K L).view.loc (V d (cV L) (jV L)) ↦[(oB5K L).view.set]{fullShare} (oB5K L).view.writes (Elt F) f0 [⟨Rect.whole S128x128, W⟩] : sProp 𝕄)
      = outLoc 1 d ↦[blkSet (blkIx (cL L) (sL L) 5)]{fullShare} gathAt m 1 d := by
  rw [← pts_oB5K (F := F) (UU := UU) d L (gathAt m 1 d)]
  refine pointsTo_congr fun i hi => ?_
  obtain ⟨x, -, rfl⟩ := Finset.mem_map.mp hi
  have h := writes_whole_emb (F := F) (oB5K L).view f0 W x
  rw [View.read_apply] at h
  exact ((cast_eq _ _).symm.trans h).trans (hW x)

/-! ### The values: what the copies land in the index scratch, what a gather delivers -/

/-- The first of the subcore's 256 words of each index array. -/
abbrev base (L : grid1.Coords) : ℕ := 512 * (L 1).val + 256 * (L 0).val + 8192
theorem L0_lt : (L 0).val < 2 := (L 0).isLt
theorem L1_lt : (L 1).val < 16 := (L 1).isLt
theorem base_le : base L + 256 ≤ 16384 := by have := L0_lt L; have := L1_lt L; unfold base; omega
theorem off1_zero : k1_off1 L 0 = base L := by rw [k1_off1_eq]; rfl

/-- Word `y` of the index scratch once the three copies have landed. -/
def idxW : S768.Idx → BitVec 32 := fun y =>
  sel (m (hLoc d)) (m (pLoc d)) (m (nLoc d)) ((y 0).val / 256)
    (ix1 (n := 16384) ⟨base L + (y 0).val % 256, by have := base_le L; omega⟩)

theorem dmaH_apply (x : S256.Idx) :
    (ReadAs.same.apply (View.read (Elt F) ((hV).slice (Rect.unit (s := S16384) (k1_off1 L) S256.size (k1_off1_inb L)) (fun _ => rfl)).view (m (hLoc d))) : S256.Idx → BitVec 32) x
      = m (hLoc d) (ix1 (n := 16384) ⟨base L + (x 0).val, by have := base_le L; have := lt256 x; omega⟩) := by
  rw [ReadAs.apply_same, View.read_apply]
  refine (cast_eq _ _).trans (congrArg (m (hLoc d)) ?_)
  exact emb1 (n := 16384) (k1_off1 L) S256.size (k1_off1_inb L) x (base L) (off1_zero L) _

theorem dmaP_apply (x : S256.Idx) :
    (ReadAs.same.apply (View.read (Elt F) ((pV).slice (Rect.unit (s := S16384) (k1_off1 L) S256.size (k1_off1_inb L)) (fun _ => rfl)).view (m (pLoc d))) : S256.Idx → BitVec 32) x
      = m (pLoc d) (ix1 (n := 16384) ⟨base L + (x 0).val, by have := base_le L; have := lt256 x; omega⟩) := by
  rw [ReadAs.apply_same, View.read_apply]
  refine (cast_eq _ _).trans (congrArg (m (pLoc d)) ?_)
  exact emb1 (n := 16384) (k1_off1 L) S256.size (k1_off1_inb L) x (base L) (off1_zero L) _

theorem dmaN_apply (x : S256.Idx) :
    (ReadAs.same.apply (View.read (Elt F) ((nV).slice (Rect.unit (s := S16384) (k1_off1 L) S256.size (k1_off1_inb L)) (fun _ => rfl)).view (m (nLoc d))) : S256.Idx → BitVec 32) x
      = m (nLoc d) (ix1 (n := 16384) ⟨base L + (x 0).val, by have := base_le L; have := lt256 x; omega⟩) := by
  rw [ReadAs.apply_same, View.read_apply]
  refine (cast_eq _ _).trans (congrArg (m (nLoc d)) ?_)
  exact emb1 (n := 16384) (k1_off1 L) S256.size (k1_off1_inb L) x (base L) (off1_zero L) _

theorem idxW_eq (y : S768.Idx) (b r : ℕ) (hb : (y 0).val / 256 = b) (hr : (y 0).val % 256 = r) (hlt : base L + r < 16384) :
    idxW m d L y = sel (m (hLoc d)) (m (pLoc d)) (m (nLoc d)) b (ix1 (n := 16384) ⟨base L + r, hlt⟩) := by
  subst hb hr; rfl

/-- The index scratch after the three copies reads `idxW`, whatever it held before. -/
theorem FS_apply (fj : Buf (Elt F) ((sV).view.loc (V d (cV L) (jV L)))) (w0 w1 w2 : S256.Idx → BitVec 32)
    (h0 : ∀ x, w0 x = m (hLoc d) (ix1 (n := 16384) ⟨base L + (x 0).val, by have := base_le L; have := lt256 x; omega⟩))
    (h1 : ∀ x, w1 x = m (pLoc d) (ix1 (n := 16384) ⟨base L + (x 0).val, by have := base_le L; have := lt256 x; omega⟩))
    (h2 : ∀ x, w2 x = m (nLoc d) (ix1 (n := 16384) ⟨base L + (x 0).val, by have := base_le L; have := lt256 x; omega⟩))
    (y : S768.Idx) :
    (sV).view.writes (Elt F) fj [⟨Rect.unit ![512] S256.size inb_S768_S256_512, w2⟩, ⟨Rect.unit ![256] S256.size inb_S768_S256_256, w1⟩,
      ⟨Rect.unit ![0] S256.size inb_S768_S256_0, w0⟩] y = idxW m d L y := by
  show View.read (Elt F) (sV).view ((sV).view.writes (Elt F) fj [⟨Rect.unit ![512] S256.size inb_S768_S256_512, w2⟩,
    ⟨Rect.unit ![256] S256.size inb_S768_S256_256, w1⟩, ⟨Rect.unit ![0] S256.size inb_S768_S256_0, w0⟩]) y = idxW m d L y
  refine View.read_writes_apply_of_pieces (sV).view fj (idxW m d L) _ ?hG y ?hcov
  case hG =>
    intro p hp x
    rcases List.mem_cons.mp hp with rfl | hp
    · show w2 x = idxW m d L ((Rect.unit (s := S768) ![512] S256.size inb_S768_S256_512).emb x)
      have hx := lt256 x
      rw [h2 x, emb1 (n := 768) ![512] S256.size inb_S768_S256_512 x 512 rfl (by omega),
        idxW_eq m d L _ 2 (x 0).val (by show (512 + (x 0).val) / 256 = 2; omega) (by show (512 + (x 0).val) % 256 = (x 0).val; omega)
          (by have := base_le L; omega)]
      simp [sel]
    rcases List.mem_cons.mp hp with rfl | hp
    · show w1 x = idxW m d L ((Rect.unit (s := S768) ![256] S256.size inb_S768_S256_256).emb x)
      have hx := lt256 x
      rw [h1 x, emb1 (n := 768) ![256] S256.size inb_S768_S256_256 x 256 rfl (by omega),
        idxW_eq m d L _ 1 (x 0).val (by show (256 + (x 0).val) / 256 = 1; omega) (by show (256 + (x 0).val) % 256 = (x 0).val; omega)
          (by have := base_le L; omega)]
      simp [sel]
    rcases List.mem_cons.mp hp with rfl | hp
    · show w0 x = idxW m d L ((Rect.unit (s := S768) ![0] S256.size inb_S768_S256_0).emb x)
      have hx := lt256 x
      rw [h0 x, emb1 (n := 768) ![0] S256.size inb_S768_S256_0 x 0 rfl (by omega),
        idxW_eq m d L _ 0 (x 0).val (by show (0 + (x 0).val) / 256 = 0; omega) (by show (0 + (x 0).val) % 256 = (x 0).val; omega)
          (by have := base_le L; omega)]
      simp [sel]
    · exact absurd hp List.not_mem_nil
  case hcov =>
    have hy := lt768 y
    by_cases c1 : (y 0).val < 256
    · exact ⟨_, List.mem_cons_of_mem _ (List.mem_cons_of_mem _ List.mem_cons_self),
        (Rect.mem_set_unit (s := S768) (off := ![0]) (size := S256.size) (inb := inb_S768_S256_0)).mpr (Fin.forall_fin_one.mpr ⟨Nat.zero_le _, by show (y 0).val < 0 + 256; omega⟩)⟩
    by_cases c2 : (y 0).val < 512
    · exact ⟨_, List.mem_cons_of_mem _ List.mem_cons_self,
        (Rect.mem_set_unit (s := S768) (off := ![256]) (size := S256.size) (inb := inb_S768_S256_256)).mpr (Fin.forall_fin_one.mpr ⟨by show 256 ≤ (y 0).val; omega, by show (y 0).val < 256 + 256; omega⟩)⟩
    · exact ⟨_, List.mem_cons_self,
        (Rect.mem_set_unit (s := S768) (off := ![512]) (size := S256.size) (inb := inb_S768_S256_512)).mpr (Fin.forall_fin_one.mpr ⟨by show 512 ≤ (y 0).val; omega, by show (y 0).val < 512 + 256; omega⟩)⟩

/-- A list of 128 offsets read out of the index scratch. -/
theorem off_read (o : ℕ) (inb : ∀ a, (![o] : Fin 1 → ℕ) a + S128.size a ≤ S768.size a) (ho : o + 128 ≤ 768)
    (g : Buf (Elt F) ((sV).view.loc (V d (cV L) (jV L)))) (x : S128.Idx) :
    ((sV).slice (Rect.unit (s := S768) ![o] S128.size inb) (fun _ => rfl)).view.read (Elt F) g x
      = g (ix1 (n := 768) ⟨o + (x 0).val, by have := lt128 x; omega⟩) := by
  rw [View.read_apply]
  refine (cast_eq _ _).trans (congrArg g ?_)
  exact emb1 (n := 768) ![o] S128.size inb x o rfl _

theorem idxW_lt (hr : ∀ d, Cert.Spec.InRange (m (hLoc d)) (m ((SparseCore.T d).loc main_arg4)) (m (pLoc d)) (m (nLoc d))) (y : S768.Idx) :
    (idxW m d L y).toNat < 100000 := sel_lt (hr d) _ _

/-- The offsets a gather reads are rows of the table. -/
theorem hin_of (hr : ∀ d, Cert.Spec.InRange (m (hLoc d)) (m ((SparseCore.T d).loc main_arg4)) (m (pLoc d)) (m (nLoc d)))
    (o : ℕ) (inb : ∀ a, (![o] : Fin 1 → ℕ) a + S128.size a ≤ S768.size a) (ho : o + 128 ≤ 768)
    (g : Buf (Elt F) ((sV).view.loc (V d (cV L) (jV L)))) (hg' : ∀ y, g y = idxW m d L y) (x : S128.Idx) :
    (((sV).slice (Rect.unit (s := S768) ![o] S128.size inb) (fun _ => rfl)).view.read (Elt F) g x).toNat
      < S100000x128.size gathers_S100000x128_S128x128.axis := by
  rw [off_read (F := F) d L o inb ho g x, hg']
  exact idxW_lt m d L hr _

/-- What a gather delivers at an index of the row scratch: the table's row named by that word of the index scratch. -/
theorem gather_apply (hr : ∀ d, Cert.Spec.InRange (m (hLoc d)) (m ((SparseCore.T d).loc main_arg4)) (m (pLoc d)) (m (nLoc d)))
    (o : ℕ) (inb : ∀ a, (![o] : Fin 1 → ℕ) a + S128.size a ≤ S768.size a) (ho : o + 128 ≤ 768)
    (g : Buf (Elt F) ((sV).view.loc (V d (cV L) (jV L)))) (hg' : ∀ y, g y = idxW m d L y)
    (hn : S128.numel = S128x128.size gathers_S100000x128_S128x128.axis')
    (hin : ∀ x, (((sV).slice (Rect.unit (s := S768) ![o] S128.size inb) (fun _ => rfl)).view.read (Elt F) g x).toNat
      < S100000x128.size gathers_S100000x128_S128x128.axis)
    (x : S128x128.Idx) :
    SparseCore.gatherPayload gathers_S100000x128_S128x128 ((tAllK).view.read (Elt F) (m (tabLoc d)))
        (SparseCore.rows (((sV).slice (Rect.unit (s := S768) ![o] S128.size inb) (fun _ => rfl)).view.read (Elt F) g) hn hin) x
      = m (tabLoc d) (ix2 (n0 := 100000) (n1 := 128)
          ⟨(idxW m d L (ix1 (n := 768) ⟨o + (x 0).val, by have := lt128r x; omega⟩)).toNat, idxW_lt m d L hr _⟩ (x 1)) := by
  unfold SparseCore.gatherPayload
  rw [View.read_apply]
  refine (cast_eq _ _).trans (congrArg (m (tabLoc d)) ?_)
  refine (emb2 (n0 := 100000) (n1 := 128) ![0, 0] S100000x128.size inb_S100000x128_S100000x128_0_0 _ 0 0 rfl rfl
    (by rw [Nat.zero_add]; exact Fin.isLt _) (by rw [Nat.zero_add]; exact Fin.isLt _)).trans ?_
  funext a
  match a with
  | 0 =>
    refine Fin.ext ?_
    show 0 + (Shape.Gathers.idx gathers_S100000x128_S128x128 _ x gathers_S100000x128_S128x128.axis).val = _
    rw [Shape.Gathers.idx_axis, Nat.zero_add]
    show (((sV).slice (Rect.unit (s := S768) ![o] S128.size inb) (fun _ => rfl)).view.read (Elt F) g _).toNat = _
    rw [off_read (F := F) d L o inb ho g _, hg']
    exact congrArg (fun v : Fin 768 => (idxW m d L (ix1 (n := 768) v)).toNat) (Fin.ext (congrArg (o + ·) (rowMajor_symm_one (n := 128) _)))
  | 1 =>
    refine Fin.ext ?_
    show 0 + (Shape.Gathers.idx gathers_S100000x128_S128x128 _ x 1).val = (x 1).val
    rw [Shape.Gathers.idx_of_ne _ _ _ 1 (by decide), Nat.zero_add]
    rfl

theorem idxW_ix1 (v : ℕ) (hv : v < 768) (b r : ℕ) (hb : v / 256 = b) (hr : v % 256 = r) (hlt : base L + r < 16384) :
    idxW m d L (ix1 (n := 768) ⟨v, hv⟩) = sel (m (hLoc d)) (m (pLoc d)) (m (nLoc d)) b (ix1 (n := 16384) ⟨base L + r, hlt⟩) :=
  idxW_eq m d L _ b r hb hr hlt

/-- The gathered array at an element of output block `(r1, r2)` of the subcore: the table's row named by word
    `128 (2 r1 + r2) + x 0` of the index scratch. -/
theorem gath_blk (hr : ∀ d, Cert.Spec.InRange (m (hLoc d)) (m ((SparseCore.T d).loc main_arg4)) (m (pLoc d)) (m (nLoc d)))
    (r1 : Fin 3) (r2 : Fin 2) (x : S128x128.Idx) :
    gathAt m 1 d (((oV).slice (Rect.unit (s := S24576x128) (k1_off2 L (BitVec.ofNat 32 (8192 * r1.val)) (BitVec.ofNat 32 (128 * r2.val))) S128x128.size
        (k1_off2_inb L r1 r2)) (fun _ => rfl)).view.emb x)
      = m (tabLoc d) (ix2 (n0 := 100000) (n1 := 128)
          ⟨(idxW m d L (ix1 (n := 768) ⟨128 * (2 * r1.val + r2.val) + (x 0).val, by have := lt128r x; have := r1.isLt; have := r2.isLt; omega⟩)).toNat,
            idxW_lt m d L hr _⟩ (x 1)) := by
  have hx0 := lt128r x; have hx1 := lt128c x; have h0 := L0_lt L; have h1 := L1_lt L; have hr1 := r1.isLt; have hr2 := r2.isLt
  have hb := base_le L
  have hemb := emb2 (n0 := 24576) (n1 := 128) (k1_off2 L (BitVec.ofNat 32 (8192 * r1.val)) (BitVec.ofNat 32 (128 * r2.val))) S128x128.size
      (k1_off2_inb L r1 r2) x (8192 * r1.val + 512 * (L 1).val + 256 * (L 0).val + 128 * r2.val) 0
      (by rw [k1_off2_eq]; rfl) (by rw [k1_off2_eq]; rfl) (by omega) (by omega)
  show gath 1 (m (tabLoc d)) (m (hLoc d)) (m (pLoc d)) (m (nLoc d))
    ((Rect.unit (s := S24576x128) (k1_off2 L (BitVec.ofNat 32 (8192 * r1.val)) (BitVec.ofNat 32 (128 * r2.val))) S128x128.size (k1_off2_inb L r1 r2)).emb x) = _
  rw [hemb, gath_ix2]
  refine congrArg (m (tabLoc d)) ?_
  have hw : (Cert.Spec.rowOf 100000 (by decide) (sel (m (hLoc d)) (m (pLoc d)) (m (nLoc d))
        ((8192 * r1.val + 512 * (L 1).val + 256 * (L 0).val + 128 * r2.val + (x 0).val) / 8192)
        (ix1 (n := 16384) ⟨8192 * (1 : Fin 2).val + (8192 * r1.val + 512 * (L 1).val + 256 * (L 0).val + 128 * r2.val + (x 0).val) % 8192,
          by have : ((1 : Fin 2).val) = 1 := rfl; omega⟩))).val
      = (idxW m d L (ix1 (n := 768) ⟨128 * (2 * r1.val + r2.val) + (x 0).val, by omega⟩)).toNat := by
    rw [Cert.Spec.rowOf_val_of_lt _ (sel_lt (hr d) _ _),
      idxW_ix1 m d L _ _ r1.val (128 * r2.val + (x 0).val) (by omega) (by omega) (by omega)]
    refine congrArg BitVec.toNat (sel_congr _ _ _ (by omega) ?_)
    show 8192 * (1 : Fin 2).val + (8192 * r1.val + 512 * (L 1).val + 256 * (L 0).val + 128 * r2.val + (x 0).val) % 8192 = base L + (128 * r2.val + (x 0).val)
    have : ((1 : Fin 2).val) = 1 := rfl
    unfold base; omega
  funext a
  match a with
  | 0 => exact Fin.ext hw
  | 1 => exact Fin.ext (Nat.zero_add _)

/-- What a copy-out lands in output block `(r1, r2)`: the row scratch as gather `2 r1 + r2` left it, which is the
    gathered array there. -/
theorem copyout_val (hr : ∀ d, Cert.Spec.InRange (m (hLoc d)) (m ((SparseCore.T d).loc main_arg4)) (m (pLoc d)) (m (nLoc d)))
    (r1 : Fin 3) (r2 : Fin 2) (o : ℕ) (ho : o = 128 * (2 * r1.val + r2.val))
    (inb : ∀ a, (![o] : Fin 1 → ℕ) a + S128.size a ≤ S768.size a)
    (g : Buf (Elt F) ((sV).view.loc (V d (cV L) (jV L)))) (hg' : ∀ y, g y = idxW m d L y)
    (hn : S128.numel = S128x128.size gathers_S100000x128_S128x128.axis')
    (hin : ∀ x, (((sV).slice (Rect.unit (s := S768) ![o] S128.size inb) (fun _ => rfl)).view.read (Elt F) g x).toNat
      < S100000x128.size gathers_S100000x128_S128x128.axis)
    (v : View sig .scVector .vmem S128x128 .f32) (fa : v.ty.Contents (Elt F)) (rest : List (View.Piece (Elt F) S128x128 .f32))
    (x : S128x128.Idx) :
    (ReadAs.same.apply (v.read (Elt F) (v.writes (Elt F) fa (⟨Rect.whole S128x128,
        SparseCore.gatherPayload gathers_S100000x128_S128x128 ((tAllK).view.read (Elt F) (m (tabLoc d)))
          (SparseCore.rows (((sV).slice (Rect.unit (s := S768) ![o] S128.size inb) (fun _ => rfl)).view.read (Elt F) g) hn hin)⟩ :: rest)))
          : S128x128.Idx → F .f32) x
      = gathAt m 1 d (((oV).slice (Rect.unit (s := S24576x128) (k1_off2 L (BitVec.ofNat 32 (8192 * r1.val)) (BitVec.ofNat 32 (128 * r2.val))) S128x128.size
        (k1_off2_inb L r1 r2)) (fun _ => rfl)).view.emb x) := by
  subst ho
  have hr1 := r1.isLt; have hr2 := r2.isLt
  rw [ReadAs.apply_same, read_writes_whole_head, gather_apply (F := F) m d L hr _ inb (by omega) g hg' hn hin x, gath_blk (F := F) m d L hr r1 r2 x]

set_option maxHeartbeats 4000000 in
theorem tile_body (hF : (K (F := F)).Facts)
    (hr : ∀ d, Cert.Spec.InRange (m (hLoc d)) (m ((SparseCore.T d).loc main_arg4)) (m (pLoc d)) (m (nLoc d)))
    (O : CellTallies nD τ sig (HIx 2)) (W : Waits sig (HIx 2)) (hO : ∀ g, O g none = 0) :
    iprop(levAts (K (F := F)).L (K (F := F)).lev ∗ emp
        ∗ goOf (F := F) (UU := UU) m (outLoc 1 d) blkSet (m (outLoc 1 d)) d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L hV (Memref.isWhole_whole _) pV (Memref.isWhole_whole _) nV (Memref.isWhole_whole _) tV (Memref.isWhole_whole _)
            oV (Memref.isWhole_whole _) sV (Memref.isWhole_whole _) aV (Memref.isWhole_whole _) bV (Memref.isWhole_whole _)
            cc1_scratch3 cc1_scratch4 cc1_scoped0 cc1_scoped1 cc1_scoped2 cc1_scoped3 cc1_scoped4 cc1_scoped5 cc1_scoped6 cc1_scoped7 cc1_scoped8)
          fun _ => iprop(goOf (F := F) (UU := UU) m (outLoc 1 d) blkSet (gathAt m 1 d) d (cL L) (sL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_body_eq_skeleton]; unfold cc1__sc_gather_body_skel
  rw [(K (F := F)).scopedBufs_V hF d (cV L) (jV L), SparseCore.Cfg.scopedSems0_V (Val := Elt F) d (cV L) (jV L), ownSems0_V, ownBufs_V, goOf_six, goOf_six]
  iintro ⟨#Hlv, -, ⟨Hh, Hp, Hn, Ht, Ho0, Ho1, Ho2, Ho3, Ho4, Ho5⟩, ⟨⟨%fs, Hs⟩, ⟨%fa, Ha⟩, ⟨%fb, Hb⟩, Hbufs⟩, ⟨Hc0, Hc1, Hc2, Hc3, Hc4, Hc5, Hc6, Hc7, Hc8, Hc9, Hc10, Hsems⟩, HO⟩
  ihave Hmw := (show levAts (K (F := F)).L (K (F := F)).lev ⊢ Transfers.MayWaits (V d (cV L) (jV L)) (default : HIx 2) O from
    (K (F := F)).mayWaits_none (thr := (V d (cV L) (jV L))) hO) $$ Hlv
  ihave Ho0' := (Entails.of_eq (pts_oB0K (F := F) (UU := UU) d L _).symm) $$ Ho0
  ihave Ho1' := (Entails.of_eq (pts_oB1K (F := F) (UU := UU) d L _).symm) $$ Ho1
  ihave Ho2' := (Entails.of_eq (pts_oB2K (F := F) (UU := UU) d L _).symm) $$ Ho2
  ihave Ho3' := (Entails.of_eq (pts_oB3K (F := F) (UU := UU) d L _).symm) $$ Ho3
  ihave Ho4' := (Entails.of_eq (pts_oB4K (F := F) (UU := UU) d L _).symm) $$ Ho4
  ihave Ho5' := (Entails.of_eq (pts_oB5K (F := F) (UU := UU) d L _).symm) $$ Ho5
  ihave Hh' := (Entails.of_eq (show (hLoc d ↦{tq (cL L) (sL L)} m (hLoc d) : sProp 𝕄) = (hV).view.loc (V d (cV L) (jV L)) ↦{tq (cL L) (sL L)} m (hLoc d) from rfl)) $$ Hh
  ihave Hp' := (Entails.of_eq (show (pLoc d ↦{tq (cL L) (sL L)} m (pLoc d) : sProp 𝕄) = (pV).view.loc (V d (cV L) (jV L)) ↦{tq (cL L) (sL L)} m (pLoc d) from rfl)) $$ Hp
  ihave Hn' := (Entails.of_eq (show (nLoc d ↦{tq (cL L) (sL L)} m (nLoc d) : sProp 𝕄) = (nV).view.loc (V d (cV L) (jV L)) ↦{tq (cL L) (sL L)} m (nLoc d) from rfl)) $$ Hn
  ihave Ht' := (Entails.of_eq (show (tabLoc d ↦{tq (cL L) (sL L)} m (tabLoc d) : sProp 𝕄) = (tV).view.loc (V d (cV L) (jV L)) ↦{tq (cL L) (sL L)} m (tabLoc d) from rfl)) $$ Ht
  ihave Hs' := (Entails.of_eq (show ((V d (cV L) (jV L)).loc cc1_scratch0 ↦{fullShare} fs : sProp 𝕄) = (sV).view.loc (V d (cV L) (jV L)) ↦{fullShare} fs from rfl)) $$ Hs
  ihave Ha' := (Entails.of_eq (show ((V d (cV L) (jV L)).loc cc1_scratch1 ↦{fullShare} fa : sProp 𝕄) = (aV).view.loc (V d (cV L) (jV L)) ↦{fullShare} fa from rfl)) $$ Ha
  ihave Hb' := (Entails.of_eq (show ((V d (cV L) (jV L)).loc cc1_scratch2 ↦{fullShare} fb : sProp 𝕄) = (bV).view.loc (V d (cV L) (jV L)) ↦{fullShare} fb from rfl)) $$ Hb
  sl_exec

  ihave Hs6 := (Entails.of_eq (sV_six (F := F) (UU := UU) d L _)) $$ Hs'
  icases Hs6 with ⟨Hl0, Hl1, Hl2, Hl3, Hl4, Hl5⟩
  ihave Ht2 := (pointsTo_share (PosShare.mem_left_op_right (tq (cL L) (sL L)))).1 $$ Ht'
  icases Ht2 with ⟨Htl, Htr⟩
  have hFS : ∀ y, ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) y = idxW m d L y :=
    FS_apply (F := F) m d L _ _ _ _ (dmaH_apply (F := F) m d L) (dmaP_apply (F := F) m d L) (dmaN_apply (F := F) m d L)
  have hin0 : ∀ x, ((off0K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 0 inb_S768_S128_0 (by omega) _ hFS
  have hin1 : ∀ x, ((off1K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 128 inb_S768_S128_128 (by omega) _ hFS
  have hin2 : ∀ x, ((off2K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 256 inb_S768_S128_256 (by omega) _ hFS
  have hin3 : ∀ x, ((off3K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 384 inb_S768_S128_384 (by omega) _ hFS
  have hin4 : ∀ x, ((off4K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 512 inb_S768_S128_512 (by omega) _ hFS
  have hin5 : ∀ x, ((off5K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 640 inb_S768_S128_640 (by omega) _ hFS
  sl_exec
  sl_step
  have hW0 : ∀ x, tile_body.sl.dma0_3 m d L fa hin0 x = gathAt m 1 d ((oB0K L).view.emb x) := fun x => copyout_val (F := F) m d L hr 0 0 0 rfl inb_S768_S128_0 _ hFS _ hin0 (aV).view _ _ x
  have hW1 : ∀ x, tile_body.sl.dma0_4 m d L fb hin1 x = gathAt m 1 d ((oB1K L).view.emb x) := fun x => copyout_val (F := F) m d L hr 0 1 128 rfl inb_S768_S128_128 _ hFS _ hin1 (bV).view _ _ x
  have hW2 : ∀ x, tile_body.sl.dma0_5 m d L fa hin0 hin2 x = gathAt m 1 d ((oB2K L).view.emb x) := fun x => copyout_val (F := F) m d L hr 1 0 256 rfl inb_S768_S128_256 _ hFS _ hin2 (aV).view _ _ x
  have hW3 : ∀ x, tile_body.sl.dma0_6 m d L fb hin1 hin3 x = gathAt m 1 d ((oB3K L).view.emb x) := fun x => copyout_val (F := F) m d L hr 1 1 384 rfl inb_S768_S128_384 _ hFS _ hin3 (bV).view _ _ x
  have hW4 : ∀ x, tile_body.sl.dma0_7 m d L fa hin0 hin2 hin4 x = gathAt m 1 d ((oB4K L).view.emb x) := fun x => copyout_val (F := F) m d L hr 2 0 512 rfl inb_S768_S128_512 _ hFS _ hin4 (aV).view _ _ x
  have hW5 : ∀ x, tile_body.sl.dma0_8 m d L fb hin1 hin3 hin5 x = gathAt m 1 d ((oB5K L).view.emb x) := fun x => copyout_val (F := F) m d L hr 2 1 640 rfl inb_S768_S128_640 _ hFS _ hin5 (bV).view _ _ x
  ihave Hs3 := (Entails.of_eq (sV_six (F := F) (UU := UU) d L _).symm) $$ [Hl0 Hl1 Hl2 Hl3 Hl4 Hl5]
  · isplitl [Hl0]; · iexact Hl0
    isplitl [Hl1]; · iexact Hl1
    isplitl [Hl2]; · iexact Hl2
    isplitl [Hl3]; · iexact Hl3
    isplitl [Hl4]; · iexact Hl4
    iexact Hl5
  ihave Ht3 := (pointsTo_share (PosShare.mem_left_op_right (tq (cL L) (sL L)))).2 $$ [Htl Htr]
  · isplitl [Htl] <;> iassumption
  isplitl [Hh' Hp' Hn' Ht3 Ho0' Ho1' Ho2' Ho3' Ho4' Ho5']
  · isplitl [Hh']; · iexact Hh'
    isplitl [Hp']; · iexact Hp'
    isplitl [Hn']; · iexact Hn'
    isplitl [Ht3]; · iexact Ht3
    isplitl [Ho0']; · iapply (Entails.of_eq (blk_congr0 (F := F) (UU := UU) m d L _ _ hW0)); iexact Ho0'
    isplitl [Ho1']; · iapply (Entails.of_eq (blk_congr1 (F := F) (UU := UU) m d L _ _ hW1)); iexact Ho1'
    isplitl [Ho2']; · iapply (Entails.of_eq (blk_congr2 (F := F) (UU := UU) m d L _ _ hW2)); iexact Ho2'
    isplitl [Ho3']; · iapply (Entails.of_eq (blk_congr3 (F := F) (UU := UU) m d L _ _ hW3)); iexact Ho3'
    isplitl [Ho4']; · iapply (Entails.of_eq (blk_congr4 (F := F) (UU := UU) m d L _ _ hW4)); iexact Ho4'
    iapply (Entails.of_eq (blk_congr5 (F := F) (UU := UU) m d L _ _ hW5)); iexact Ho5'
  isplitl [Hs3 Ha' Hb' Hbufs]
  · isplitl [Hs3]; · iexists _; iexact Hs3
    isplitl [Ha']; · iexists _; iexact Ha'
    isplitl [Hb']; · iexists _; iexact Hb'
    iexact Hbufs
  isplitl [Hc0 Hc1 Hc2 Hc3 Hc4 Hc5 Hc6 Hc7 Hc8 Hc9 Hc10 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ### The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather_body (coordsV c s)
          hV (Memref.isWhole_whole _) pV (Memref.isWhole_whole _) nV (Memref.isWhole_whole _) tV (Memref.isWhole_whole _)
          oV (Memref.isWhole_whole _) sV (Memref.isWhole_whole _) aV (Memref.isWhole_whole _) bV (Memref.isWhole_whole _)
          cc1_scratch3 cc1_scratch4 cc1_scoped0 cc1_scoped1 cc1_scoped2 cc1_scoped3 cc1_scoped4 cc1_scoped5 cc1_scoped6 cc1_scoped7 cc1_scoped8) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts)
    (hr : ∀ d, Cert.Spec.InRange (m (hLoc d)) (m ((SparseCore.T d).loc main_arg4)) (m (pLoc d)) (m (nLoc d))) :
    (K (F := F)).TileObl (D (F := F)) 𝒱 (P (F := F) (UU := UU) m) v₀ 1 := by
  intro d c i O W hO _ _
  simp only [show (P (F := F) (UU := UU) m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hr O W hO).trans (wp_mono frame _ _ fun _ => obl_post)

end Tile

end C1

/-- Every vector subcore's task in either call: from its shares of the index arrays and the table and its six blocks
    of the output at the launch contents to the same with the blocks at the gathered array. -/
theorem tileObl (hr : ∀ d, Cert.Spec.InRange (m (hLoc d)) (m ((SparseCore.T d).loc main_arg4)) (m (pLoc d)) (m (nLoc d))) :
    ∀ q, (K (F := F)).TileObl (D (F := F)) 𝒱 (P (F := F) (UU := UU) m) v₀ q :=
  fun q => match q with
  | 0 => C0.tileObl m facts hr
  | 1 => C1.tileObl m facts hr

end Cert.KernelIdeal.Sc

end
-- ==== Proof.ScSplit.lean ====
/-
  How a SparseCore's part of a call's operands splits among its sixteen vector subcores and joins again: the shares of
  the read-only arrays halve four times; the SparseCore's blocks of the output array are its subcores' blocks.
-/
import proofs.«211459_g87136296501727_cont_9to1_m_723_16_alg».proof.Proof.ScSetup

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {UU : Type} [URA UU] [CountersIn UU]

local notation "𝕄" => MT nD τ sig (HIx 2) (Elt F) ℕ UU ℕ

variable (m : (ℓ : Loc nD τ sig) → Buf (Elt F) ℓ)

theorem vecSplit0 : (K (F := F)).VecSplit' (P (F := F) (UU := UU) m) 0 := by
  intro d c
  have hgo : (bigSep Finset.univ fun i : Fin ((K (F := F)).nSub 0) => (P (F := F) (UU := UU) m).go 0 d c i) = (P (F := F) (UU := UU) m).st 0 d c :=
    (bigSep_subs0 (fun s => goOf (F := F) (UU := UU) m (outLoc 0 d) blkSet (m (outLoc 0 d)) d (Fin.cast (nCore_eq 0) c) s)).trans
      (tile_join m (outLoc 0 d) blkSet (m (outLoc 0 d)) d (Fin.cast (nCore_eq 0) c))
  have htd : (bigSep Finset.univ fun i : Fin ((K (F := F)).nSub 0) => (P (F := F) (UU := UU) m).td 0 d c i) = (P (F := F) (UU := UU) m).dn 0 d c :=
    (bigSep_subs0 (fun s => goOf (F := F) (UU := UU) m (outLoc 0 d) blkSet (gathAt m 0 d) d (Fin.cast (nCore_eq 0) c) s)).trans
      (tile_join m (outLoc 0 d) blkSet (gathAt m 0 d) d (Fin.cast (nCore_eq 0) c))
  rw [hgo, htd]
  iintro H; imodintro
  isplitl [H]; · iexact H
  iintro H; iexact H

theorem vecSplit1 : (K (F := F)).VecSplit' (P (F := F) (UU := UU) m) 1 := by
  intro d c
  have hgo : (bigSep Finset.univ fun i : Fin ((K (F := F)).nSub 1) => (P (F := F) (UU := UU) m).go 1 d c i) = (P (F := F) (UU := UU) m).st 1 d c :=
    (bigSep_subs1 (fun s => goOf (F := F) (UU := UU) m (outLoc 1 d) blkSet (m (outLoc 1 d)) d (Fin.cast (nCore_eq 1) c) s)).trans
      (tile_join m (outLoc 1 d) blkSet (m (outLoc 1 d)) d (Fin.cast (nCore_eq 1) c))
  have htd : (bigSep Finset.univ fun i : Fin ((K (F := F)).nSub 1) => (P (F := F) (UU := UU) m).td 1 d c i) = (P (F := F) (UU := UU) m).dn 1 d c :=
    (bigSep_subs1 (fun s => goOf (F := F) (UU := UU) m (outLoc 1 d) blkSet (gathAt m 1 d) d (Fin.cast (nCore_eq 1) c) s)).trans
      (tile_join m (outLoc 1 d) blkSet (gathAt m 1 d) d (Fin.cast (nCore_eq 1) c))
  rw [hgo, htd]
  iintro H; imodintro
  isplitl [H]; · iexact H
  iintro H; iexact H

/-- Each call's operands for a SparseCore split into its subcores' and its results gather from theirs. -/
theorem vecSplit (q : Fin 2) : (K (F := F)).VecSplit' (P (F := F) (UU := UU) m) q :=
  match q with
  | 0 => vecSplit0 m
  | 1 => vecSplit1 m

end Cert.KernelIdeal.Sc

end
-- ==== Proof.KerClaims.lean ====
/-
  The kernel's run with nothing left assumed: each call's tasks and split, the two regions' steps and @main's line put
  into the launch theorem. Its post in the claim's own words: the result buffer holds the sum of the two regions'
  accumulated shares, reshaped to a scalar, and the seven argument arrays are as found.
-/
import proofs.«211459_g87136296501727_cont_9to1_m_723_16_alg».proof.Proof.RunMain
import proofs.«211459_g87136296501727_cont_9to1_m_723_16_alg».proof.Proof.RegStep
import proofs.«211459_g87136296501727_cont_9to1_m_723_16_alg».proof.Proof.FinalVals
import proofs.«211459_g87136296501727_cont_9to1_m_723_16_alg».proof.Proof.ScTile
import proofs.«211459_g87136296501727_cont_9to1_m_723_16_alg».proof.Proof.ScSplit

noncomputable section

namespace Cert.KernelIdeal.KerLaunch

open Cert.KernelIdeal Cert.KernelIdeal.MainShape Cert.LaunchKit
open Idealize.ShloMosaic Idealize.ShloMosaic.TcCoe
open Idealize.ShloMosaic.StableHlo
open Idealize.SL.Sem
open Cert.KernelIdeal.Facts₀ Cert.KernelIdeal.Facts

variable {F : FTy → Type} [FloatOps F] [∀ e, Nonempty (Elt F e)]

variable (m : (ℓ : Loc nD τ sig) → Buf (Elt F) ℓ) (ρ : Dev nD → PrngReg)

/-- The first region's accumulated value: the eight points' shares over its entry contents. -/
def accA (d : Dev nD) : (⟨S1x1, .f32⟩ : BufTy).Contents (Elt F) := Tc.accAt2 d (arrA d (V2' m d)) 7 Tc.lt7_2
/-- The second region's. -/
def accB (d : Dev nD) : (⟨S1x1, .f32⟩ : BufTy).Contents (Elt F) := Tc.accAt3 d (arrB d (V3 m (accA m) d)) 7 Tc.lt7_3

/-- The run, from the ranges of the integer inputs. -/
theorem run (hr : ∀ d, Cert.Spec.InRange (m (Sc.hLoc d)) (m ((SparseCore.T d).loc main_arg4)) (m (Sc.pLoc d)) (m (Sc.nLoc d))) :
    θ_run (Cert.KernelIdeal.defs (F := F)) (Cert.KernelIdeal.threads (F := F)) ⟨m, fun _ => 0, ρ⟩ (QC m (accA m) (accB m)) :=
  run_main m ρ (accA m) (accB m) (Sc.tileObl (F := F) (UU := Alg.UU) m hr) (Sc.vecSplit (F := F) (UU := Alg.UU) m)
    (fun d => reg_step0 d (V2' m d) (B16 (F := F) d))
    (fun d => reg_step1 d (V3 m (accA m) d) (B16 (F := F) d ∪ (cfgs 0).waitPairs none))

theorem mem_SU_v19 : ((main_v19 : DevRef τ sig)) ∈ SU := by decide
theorem mem_SU_arg0 : ((main_arg0 : DevRef τ sig)) ∈ SU := by decide
theorem mem_SU_arg1 : ((main_arg1 : DevRef τ sig)) ∈ SU := by decide
theorem mem_SU_arg2 : ((main_arg2 : DevRef τ sig)) ∈ SU := by decide
theorem mem_SU_arg3 : ((main_arg3 : DevRef τ sig)) ∈ SU := by decide
theorem mem_SU_arg4 : ((main_arg4 : DevRef τ sig)) ∈ SU := by decide
theorem mem_SU_arg5 : ((main_arg5 : DevRef τ sig)) ∈ SU := by decide
theorem mem_SU_arg6 : ((main_arg6 : DevRef τ sig)) ∈ SU := by decide

/-- The run's post in the claim's words. -/
theorem run_post (hr : ∀ d, Cert.Spec.InRange (m (Sc.hLoc d)) (m ((SparseCore.T d).loc main_arg4)) (m (Sc.pLoc d)) (m (Sc.nLoc d))) :
    θ_run (Cert.KernelIdeal.defs (F := F)) (Cert.KernelIdeal.threads (F := F)) ⟨m, fun _ => 0, ρ⟩ (fun r => ∀ c : Dev nD,
      r.2.mem ((c.tc : Thread nD τ).loc main_v19) = shapeCast S_ (addf (accA m c) (accB m c)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (Cert.KernelIdeal.defs (F := F)) _ _).mono (fun r h c =>
    ⟨(h c _ mem_SU_v19).trans (V5_res m (accA m) (accB m) c),
     (h c _ mem_SU_arg0).trans (V5_arg0 m (accA m) (accB m) c),
     (h c _ mem_SU_arg1).trans (V5_arg1 m (accA m) (accB m) c),
     (h c _ mem_SU_arg2).trans (V5_arg2 m (accA m) (accB m) c),
     (h c _ mem_SU_arg3).trans (V5_arg3 m (accA m) (accB m) c),
     (h c _ mem_SU_arg4).trans (V5_arg4 m (accA m) (accB m) c),
     (h c _ mem_SU_arg5).trans (V5_arg5 m (accA m) (accB m) c),
     (h c _ mem_SU_arg6).trans (V5_arg6 m (accA m) (accB m) c)⟩) (run m ρ hr)

end Cert.KernelIdeal.KerLaunch

end
-- ==== Proof.WScSetup.lean ====
/-
  The two SparseCore calls of the kernel as the launch theorem sees them, and what their handshakes carry.

  Each call runs one task on each of the 32 vector subcores (2 SparseCores x 16 subcores). The task of subcore s of
  SparseCore c, w = 2 s + c, reads 256 consecutive words of each of the three index arrays (heads, positive tails,
  negative tails) at word 8192 q + 256 w (q the call's number) and writes six blocks of 128 rows of the call's output
  array: block (r1, r2), r1 < 3, r2 < 2, is rows [8192 r1 + 256 w + 128 r2, + 128), i.e. the block of 128 rows numbered
  64 r1 + 4 s + 2 c + r2 of the 192 such blocks of the array. Row i of the output holds row
  sel (i / 8192) [8192 q + i % 8192] of the entity table, sel 0 the heads, sel 1 the positive tails, sel 2 the negative
  tails (the array `gath`).

  The read-only arrays go out as shares: the full share halved once per SparseCore, then four times per subcore.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«211459_g87136296501727_cont_9to1_m_723_16_alg».proof.Proof.Gen.Kernel
import proofs.«211459_g87136296501727_cont_9to1_m_723_16_alg».proof.Proof.Gen.Kernel.Skeleton
import proofs.«211459_g87136296501727_cont_9to1_m_723_16_alg».proof.Proof.SpecArgs

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 2 := sc (F := F)
theorem nCore_eq (q : Fin 2) : (K (F := F)).nCore q = 2 := match q with | 0 => rfl | 1 => rfl
theorem nSub_eq (q : Fin 2) : (K (F := F)).nSub q = 16 := match q with | 0 => rfl | 1 => rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => match q with | 0 => rfl | 1 => rfl⟩

/-! ## The gathered array -/

/-- The index array a band of 8192 rows of the gathered array reads: heads, positive tails, negative tails. -/
def sel (a3 a5 a6 : S16384.Idx → BitVec 32) (b : ℕ) : S16384.Idx → BitVec 32 :=
  if b = 0 then a3 else if b = 1 then a5 else a6

/-- What call `q` leaves in its output array: row `i` is the entity table's row named by word `8192 q + i % 8192`
    of index array `i / 8192`. -/
def gath (q : Fin 2) (tab : S100000x128.Idx → F .f32) (a3 a5 a6 : S16384.Idx → BitVec 32) : S24576x128.Idx → F .f32 :=
  fun i => tab (ix2 (n0 := 100000) (n1 := 128)
    (Cert.Spec.rowOf 100000 (by decide) (sel a3 a5 a6 ((i 0).val / 8192) (ix1 (n := 16384) ⟨8192 * q.val + (i 0).val % 8192, by have := q.isLt; omega⟩)))
    (i 1))

theorem gath_apply (q : Fin 2) (tab : S100000x128.Idx → F .f32) (a3 a5 a6 : S16384.Idx → BitVec 32) (i : S24576x128.Idx) :
    gath q tab a3 a5 a6 i = tab (ix2 (n0 := 100000) (n1 := 128)
      (Cert.Spec.rowOf 100000 (by decide) (sel a3 a5 a6 ((i 0).val / 8192) (ix1 (n := 16384) ⟨8192 * q.val + (i 0).val % 8192, by have := q.isLt; omega⟩)))
      (i 1)) := rfl

/-! ## The resource algebra: any user algebra that holds a copy of the transfers' counters -/

variable {UU : Type} [URA UU] [CountersIn UU]

local notation "𝕄" => MT nD τ sig (HIx 2) (Elt F) ℕ UU ℕ

/-! ## The launch memory and the buffers -/

variable (m : (ℓ : Loc nD τ sig) → Buf (Elt F) ℓ)

abbrev hLoc (d : Dev nD) : Loc nD τ sig := (SparseCore.T d).loc main_arg3
abbrev pLoc (d : Dev nD) : Loc nD τ sig := (SparseCore.T d).loc main_arg5
abbrev nLoc (d : Dev nD) : Loc nD τ sig := (SparseCore.T d).loc main_arg6
abbrev tabLoc (d : Dev nD) : Loc nD τ sig := (SparseCore.T d).loc main_arg0
/-- The output array of call `q`. -/
abbrev oRef (q : Fin 2) : Ref sig .tc := match q with | 0 => main_v12 | 1 => main_v14
abbrev outLoc (q : Fin 2) (d : Dev nD) : Loc nD τ sig := (SparseCore.T d).loc (oRef q)

/-- The gathered array of call `q` over the launch memory's table and index arrays, as contents of the call's output. -/
def gathAt (q : Fin 2) (d : Dev nD) : Buf (Elt F) (outLoc q d) := match q with
  | 0 => gath 0 (m (tabLoc d)) (m (hLoc d)) (m (pLoc d)) (m (nLoc d))
  | 1 => gath 1 (m (tabLoc d)) (m (hLoc d)) (m (pLoc d)) (m (nLoc d))

theorem gathAt_zero (d : Dev nD) : gathAt m 0 d = gath 0 (m (tabLoc d)) (m (hLoc d)) (m (pLoc d)) (m (nLoc d)) := rfl
theorem gathAt_one (d : Dev nD) : gathAt m 1 d = gath 1 (m (tabLoc d)) (m (hLoc d)) (m (pLoc d)) (m (nLoc d)) := rfl

/-! ## The output array cut into 192 blocks of 128 rows -/

theorem odiv : 192 ∣ S24576x128.size 0 := ⟨128, rfl⟩
/-- Block `j`: rows `[128 j, 128 j + 128)`. -/
abbrev blk (j : Fin 192) : Rect S24576x128 := Rect.part (s := S24576x128) (a₀ := 0) odiv j
abbrev blkSet (j : Fin 192) : Finset S24576x128.Idx := (blk j).set

/-- The number of the block that subcore `s` of SparseCore `c` writes from its `k`-th gather. -/
def blkIx (c : Fin 2) (s : Fin 16) (k : Fin 6) : Fin 192 := ⟨64 * (k.val / 2) + 4 * s.val + 2 * c.val + k.val % 2, by omega⟩

/-- Every block is exactly one subcore's, from exactly one of its gathers. -/
def blkEquiv : Fin 2 × Fin 16 × Fin 6 ≃ Fin 192 where
  toFun t := blkIx t.1 t.2.1 t.2.2
  invFun j := (⟨j.val % 4 / 2, by omega⟩, ⟨j.val % 64 / 4, by omega⟩, ⟨2 * (j.val / 64) + j.val % 2, by omega⟩)
  left_inv t := by
    obtain ⟨c, s, k⟩ := t
    refine Prod.ext (Fin.ext ?_) (Prod.ext (Fin.ext ?_) (Fin.ext ?_)) <;> simp only [blkIx] <;> omega
  right_inv j := by
    refine Fin.ext ?_; simp only [blkIx]; omega

theorem blkSet_disjoint {j j' : Fin 192} (h : j ≠ j') : Disjoint (blkSet j) (blkSet j') := Rect.part_disjoint odiv h
theorem blkSet_cover : (Finset.univ : Finset (Fin 192)).biUnion blkSet = Finset.univ := Rect.biUnion_part odiv

/-! ## Shares: the full share halved once per SparseCore, then four times per subcore -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- SparseCore `c`'s share of a read-only array, and subcore `s`'s share of that. -/
abbrev cq (c : Fin 2) : PosShare TreeShare := leaf 1 fullShare c
abbrev tq (c : Fin 2) (s : Fin 16) : PosShare TreeShare := leaf 4 (cq c) s

/-! ## What the handshakes carry -/

/-- The three index arrays and the table at share `sh` and the launch contents, and `R` beside them. -/
abbrev roPts (d : Dev nD) (sh : PosShare TreeShare) (R : sProp 𝕄) : sProp 𝕄 :=
  iprop((hLoc d ↦{sh} m (hLoc d)) ∗ (pLoc d ↦{sh} m (pLoc d)) ∗ (nLoc d ↦{sh} m (nLoc d)) ∗ (tabLoc d ↦{sh} m (tabLoc d)) ∗ R)

/-- The six blocks a subcore writes, of an array at `ℓ` cut into blocks `B`, at contents `f`. -/
abbrev oTile (ℓ : Loc nD τ sig) (B : Fin 192 → Finset (Idx ℓ)) (f : Buf (Elt F) ℓ) (c : Fin 2) (s : Fin 16) : sProp 𝕄 :=
  bigSep Finset.univ fun k : Fin 6 => ℓ ↦[B (blkIx c s k)]{fullShare} f
/-- The blocks a SparseCore's sixteen subcores write. -/
abbrev oCore (ℓ : Loc nD τ sig) (B : Fin 192 → Finset (Idx ℓ)) (f : Buf (Elt F) ℓ) (c : Fin 2) : sProp 𝕄 :=
  bigSep Finset.univ fun s : Fin 16 => oTile (F := F) (UU := UU) ℓ B f c s

/-- What one SparseCore is handed of a call whose output array is at `ℓ`, at contents `f`; what one subcore is. -/
abbrev stOf (ℓ : Loc nD τ sig) (B : Fin 192 → Finset (Idx ℓ)) (f : Buf (Elt F) ℓ) (d : Dev nD) (c : Fin 2) : sProp 𝕄 :=
  roPts m d (cq c) (oCore (F := F) (UU := UU) ℓ B f c)
abbrev goOf (ℓ : Loc nD τ sig) (B : Fin 192 → Finset (Idx ℓ)) (f : Buf (Elt F) ℓ) (d : Dev nD) (c : Fin 2) (s : Fin 16) : sProp 𝕄 :=
  roPts m d (tq c s) (oTile (F := F) (UU := UU) ℓ B f c s)

/-- The whole operands of a call whose output array is at `ℓ`, at contents `f`. -/
abbrev allPts (ℓ : Loc nD τ sig) (f : Buf (Elt F) ℓ) (d : Dev nD) : sProp 𝕄 :=
  roPts m d fullShare (ℓ ↦{fullShare} f)

/-- Each call takes the three index arrays and the table (read-only, as shares) and its output array whole, at the
    launch contents, and brings them back, the output at the gathered array. -/
def P : (K (F := F)).Pay (nD := nD) (Val := Elt F) (Name := ℕ) (U := UU) where
  st := fun q d c => match q with
    | 0 => stOf m (outLoc 0 d) blkSet (m (outLoc 0 d)) d (Fin.cast (nCore_eq 0) c)
    | 1 => stOf m (outLoc 1 d) blkSet (m (outLoc 1 d)) d (Fin.cast (nCore_eq 1) c)
  dn := fun q d c => match q with
    | 0 => stOf m (outLoc 0 d) blkSet (gathAt m 0 d) d (Fin.cast (nCore_eq 0) c)
    | 1 => stOf m (outLoc 1 d) blkSet (gathAt m 1 d) d (Fin.cast (nCore_eq 1) c)
  go := fun q d c i => match q with
    | 0 => goOf m (outLoc 0 d) blkSet (m (outLoc 0 d)) d (Fin.cast (nCore_eq 0) c) (Fin.cast (nSub_eq 0) i)
    | 1 => goOf m (outLoc 1 d) blkSet (m (outLoc 1 d)) d (Fin.cast (nCore_eq 1) c) (Fin.cast (nSub_eq 1) i)
  td := fun q d c i => match q with
    | 0 => goOf m (outLoc 0 d) blkSet (gathAt m 0 d) d (Fin.cast (nCore_eq 0) c) (Fin.cast (nSub_eq 0) i)
    | 1 => goOf m (outLoc 1 d) blkSet (gathAt m 1 d) d (Fin.cast (nCore_eq 1) c) (Fin.cast (nSub_eq 1) i)
  x := fun _ _ => iprop(emp)

instance P_storable : (P (F := F) (UU := UU) m).IsStorable where
  st q d c := match q with
    | 0 => (inferInstance : BI.Storable (upEmb : UEmb _ 𝕄) (stOf m (outLoc 0 d) blkSet (m (outLoc 0 d)) d (Fin.cast (nCore_eq 0) c)))
    | 1 => (inferInstance : BI.Storable (upEmb : UEmb _ 𝕄) (stOf m (outLoc 1 d) blkSet (m (outLoc 1 d)) d (Fin.cast (nCore_eq 1) c)))
  dn q d c := match q with
    | 0 => (inferInstance : BI.Storable (upEmb : UEmb _ 𝕄) (stOf m (outLoc 0 d) blkSet (gathAt m 0 d) d (Fin.cast (nCore_eq 0) c)))
    | 1 => (inferInstance : BI.Storable (upEmb : UEmb _ 𝕄) (stOf m (outLoc 1 d) blkSet (gathAt m 1 d) d (Fin.cast (nCore_eq 1) c)))
  go q d c i := match q with
    | 0 => (inferInstance : BI.Storable (upEmb : UEmb _ 𝕄) (goOf m (outLoc 0 d) blkSet (m (outLoc 0 d)) d (Fin.cast (nCore_eq 0) c) (Fin.cast (nSub_eq 0) i)))
    | 1 => (inferInstance : BI.Storable (upEmb : UEmb _ 𝕄) (goOf m (outLoc 1 d) blkSet (m (outLoc 1 d)) d (Fin.cast (nCore_eq 1) c) (Fin.cast (nSub_eq 1) i)))
  td q d c i := match q with
    | 0 => (inferInstance : BI.Storable (upEmb : UEmb _ 𝕄) (goOf m (outLoc 0 d) blkSet (gathAt m 0 d) d (Fin.cast (nCore_eq 0) c) (Fin.cast (nSub_eq 0) i)))
    | 1 => (inferInstance : BI.Storable (upEmb : UEmb _ 𝕄) (goOf m (outLoc 1 d) blkSet (gathAt m 1 d) d (Fin.cast (nCore_eq 1) c) (Fin.cast (nSub_eq 1) i)))

/-! ## The fields as equations -/

theorem P_st0 (d : Dev nD) (c : Fin ((K (F := F)).nCore 0)) :
    (P (F := F) (UU := UU) m).st 0 d c = stOf m (outLoc 0 d) blkSet (m (outLoc 0 d)) d (Fin.cast (nCore_eq 0) c) := rfl
theorem P_st1 (d : Dev nD) (c : Fin ((K (F := F)).nCore 1)) :
    (P (F := F) (UU := UU) m).st 1 d c = stOf m (outLoc 1 d) blkSet (m (outLoc 1 d)) d (Fin.cast (nCore_eq 1) c) := rfl
theorem P_dn0 (d : Dev nD) (c : Fin ((K (F := F)).nCore 0)) :
    (P (F := F) (UU := UU) m).dn 0 d c = stOf m (outLoc 0 d) blkSet (gathAt m 0 d) d (Fin.cast (nCore_eq 0) c) := rfl
theorem P_dn1 (d : Dev nD) (c : Fin ((K (F := F)).nCore 1)) :
    (P (F := F) (UU := UU) m).dn 1 d c = stOf m (outLoc 1 d) blkSet (gathAt m 1 d) d (Fin.cast (nCore_eq 1) c) := rfl
theorem P_go0 (d : Dev nD) (c : Fin ((K (F := F)).nCore 0)) (i : Fin ((K (F := F)).nSub 0)) :
    (P (F := F) (UU := UU) m).go 0 d c i = goOf m (outLoc 0 d) blkSet (m (outLoc 0 d)) d (Fin.cast (nCore_eq 0) c) (Fin.cast (nSub_eq 0) i) := rfl
theorem P_go1 (d : Dev nD) (c : Fin ((K (F := F)).nCore 1)) (i : Fin ((K (F := F)).nSub 1)) :
    (P (F := F) (UU := UU) m).go 1 d c i = goOf m (outLoc 1 d) blkSet (m (outLoc 1 d)) d (Fin.cast (nCore_eq 1) c) (Fin.cast (nSub_eq 1) i) := rfl
theorem P_td0 (d : Dev nD) (c : Fin ((K (F := F)).nCore 0)) (i : Fin ((K (F := F)).nSub 0)) :
    (P (F := F) (UU := UU) m).td 0 d c i = goOf m (outLoc 0 d) blkSet (gathAt m 0 d) d (Fin.cast (nCore_eq 0) c) (Fin.cast (nSub_eq 0) i) := rfl
theorem P_td1 (d : Dev nD) (c : Fin ((K (F := F)).nCore 1)) (i : Fin ((K (F := F)).nSub 1)) :
    (P (F := F) (UU := UU) m).td 1 d c i = goOf m (outLoc 1 d) blkSet (gathAt m 1 d) d (Fin.cast (nCore_eq 1) c) (Fin.cast (nSub_eq 1) i) := rfl

/-! ## The pieces join -/

/-- A share is its two halves, one per SparseCore; a SparseCore's is its sixteen subcores'. -/
theorem pts_cores {ℓ : Loc nD τ sig} (f : Buf (Elt F) ℓ) (q : PosShare TreeShare) :
    (ℓ ↦{q} f : sProp 𝕄) = bigSep Finset.univ fun c : Fin 2 => ℓ ↦{leaf 1 q c} f := pointsTo_leaves Finset.univ f 1 q
theorem pts_subs {ℓ : Loc nD τ sig} (f : Buf (Elt F) ℓ) (q : PosShare TreeShare) :
    (ℓ ↦{q} f : sProp 𝕄) = bigSep Finset.univ fun s : Fin 16 => ℓ ↦{leaf 4 q s} f := pointsTo_leaves Finset.univ f 4 q

/-- An array cut into the 192 blocks is the SparseCores' parts, each the subcores', each the six blocks. -/
theorem pts_blocks {ℓ : Loc nD τ sig} (B : Fin 192 → Finset (Idx ℓ)) (hd : ∀ j j', j ≠ j' → Disjoint (B j) (B j'))
    (hc : (Finset.univ : Finset (Fin 192)).biUnion B = Finset.univ) (f : Buf (Elt F) ℓ) :
    (ℓ ↦{fullShare} f : sProp 𝕄) = bigSep Finset.univ fun c : Fin 2 => oCore (F := F) (UU := UU) ℓ B f c := by
  have e : (ℓ ↦{fullShare} f : sProp 𝕄) = bigSep Finset.univ fun j : Fin 192 => ℓ ↦[B j]{fullShare} f := by
    rw [← pointsTo_biUnion Finset.univ (ℓ := ℓ) B (fun j _ j' _ h => hd j j' h), hc]; try rfl
  rw [e, bigSep_univ_equiv blkEquiv (fun j => (ℓ ↦[B j]{fullShare} f : sProp 𝕄)), bigSep_univ_prod]
  refine bigSep_congr fun c _ => ?_
  rw [bigSep_univ_prod]
  rfl

theorem core_join (ℓ : Loc nD τ sig) (B : Fin 192 → Finset (Idx ℓ)) (hd : ∀ j j', j ≠ j' → Disjoint (B j) (B j'))
    (hc : (Finset.univ : Finset (Fin 192)).biUnion B = Finset.univ) (f : Buf (Elt F) ℓ) (d : Dev nD) :
    (bigSep Finset.univ fun c : Fin 2 => stOf (F := F) (UU := UU) m ℓ B f d c) = allPts m ℓ f d := by
  show (bigSep Finset.univ fun c : Fin 2 => iprop((hLoc d ↦{leaf 1 fullShare c} m (hLoc d)) ∗ (pLoc d ↦{leaf 1 fullShare c} m (pLoc d))
      ∗ (nLoc d ↦{leaf 1 fullShare c} m (nLoc d)) ∗ (tabLoc d ↦{leaf 1 fullShare c} m (tabLoc d)) ∗ oCore (F := F) (UU := UU) ℓ B f c)) = _
  rw [bigSep_sep', bigSep_sep', bigSep_sep', bigSep_sep', ← pts_cores (m (hLoc d)) fullShare, ← pts_cores (m (pLoc d)) fullShare,
    ← pts_cores (m (nLoc d)) fullShare, ← pts_cores (m (tabLoc d)) fullShare, ← pts_blocks B hd hc f]

theorem tile_join (ℓ : Loc nD τ sig) (B : Fin 192 → Finset (Idx ℓ)) (f : Buf (Elt F) ℓ) (d : Dev nD) (c : Fin 2) :
    (bigSep Finset.univ fun s : Fin 16 => goOf (F := F) (UU := UU) m ℓ B f d c s) = stOf m ℓ B f d c := by
  show (bigSep Finset.univ fun s : Fin 16 => iprop((hLoc d ↦{leaf 4 (cq c) s} m (hLoc d)) ∗ (pLoc d ↦{leaf 4 (cq c) s} m (pLoc d))
      ∗ (nLoc d ↦{leaf 4 (cq c) s} m (nLoc d)) ∗ (tabLoc d ↦{leaf 4 (cq c) s} m (tabLoc d)) ∗ oTile (F := F) (UU := UU) ℓ B f c s)) = _
  rw [bigSep_sep', bigSep_sep', bigSep_sep', bigSep_sep', ← pts_subs (m (hLoc d)) (cq c), ← pts_subs (m (pLoc d)) (cq c),
    ← pts_subs (m (nLoc d)) (cq c), ← pts_subs (m (tabLoc d)) (cq c)]

theorem bigSep_cores0 (Φ : Fin 2 → sProp 𝕄) :
    (bigSep Finset.univ fun c : Fin ((K (F := F)).nCore 0) => Φ (Fin.cast (nCore_eq 0) c)) = bigSep Finset.univ Φ :=
  bigSep_congr fun _ _ => congrArg Φ (Fin.ext rfl)
theorem bigSep_cores1 (Φ : Fin 2 → sProp 𝕄) :
    (bigSep Finset.univ fun c : Fin ((K (F := F)).nCore 1) => Φ (Fin.cast (nCore_eq 1) c)) = bigSep Finset.univ Φ :=
  bigSep_congr fun _ _ => congrArg Φ (Fin.ext rfl)
theorem bigSep_subs0 (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)
theorem bigSep_subs1 (Φ : Fin 16 → sProp 𝕄) :
    (bigSep Finset.univ fun i : Fin ((K (F := F)).nSub 1) => Φ (Fin.cast (nSub_eq 1) i)) = bigSep Finset.univ Φ :=
  bigSep_congr fun _ _ => congrArg Φ (Fin.ext rfl)

/-- What @main hands a call at its start: the SparseCores' parts are the whole operands at the launch contents. -/
theorem st_eq (q : Fin 2) (d : Dev nD) :
    (bigSep Finset.univ fun c : Fin ((K (F := F)).nCore q) => (P (F := F) (UU := UU) m).st q d c) = allPts m (outLoc q d) (m (outLoc q d)) d :=
  match q with
  | 0 => (bigSep_cores0 (fun c => stOf m (outLoc 0 d) blkSet (m (outLoc 0 d)) d c)).trans
      (core_join m (outLoc 0 d) blkSet (fun _ _ h => blkSet_disjoint h) blkSet_cover (m (outLoc 0 d)) d)
  | 1 => (bigSep_cores1 (fun c => stOf m (outLoc 1 d) blkSet (m (outLoc 1 d)) d c)).trans
      (core_join m (outLoc 1 d) blkSet (fun _ _ h => blkSet_disjoint h) blkSet_cover (m (outLoc 1 d)) d)

/-- What it gets back at the call's end: the whole operands, the output at the gathered array. -/
theorem dn_eq (q : Fin 2) (d : Dev nD) :
    (bigSep Finset.univ fun c : Fin ((K (F := F)).nCore q) => (P (F := F) (UU := UU) m).dn q d c) = allPts m (outLoc q d) (gathAt m q d) d :=
  match q with
  | 0 => (bigSep_cores0 (fun c => stOf m (outLoc 0 d) blkSet (gathAt m 0 d) d c)).trans
      (core_join m (outLoc 0 d) blkSet (fun _ _ h => blkSet_disjoint h) blkSet_cover (gathAt m 0 d) d)
  | 1 => (bigSep_cores1 (fun c => stOf m (outLoc 1 d) blkSet (gathAt m 1 d) d c)).trans
      (core_join m (outLoc 1 d) blkSet (fun _ _ h => blkSet_disjoint h) blkSet_cover (gathAt m 1 d) d)

end Cert.Kernel.Sc

end
-- ==== Proof.WAlg.lean ====
/-
  The ghost state of the kernel's launch. Three components side by side: the rounds of the four handshake semaphores
  between the TensorCore and the SparseCores (indexed by call), the rounds of the two TensorCore pipelines' staging
  semaphores, and the counters of the transfers in flight. The launch element funds the first for the launch theorem
  and the second for the two kernel regions @main enters after the calls; the third starts empty.
-/
import proofs.«211459_g87136296501727_cont_9to1_m_723_16_alg».proof.Kernel
import proofs.«211459_g87136296501727_cont_9to1_m_723_16_alg».proof.Proof.Gen.Kernel
import proofs.«211459_g87136296501727_cont_9to1_m_723_16_alg».proof.Proof.Gen.Kernel.Launch
import Idealize.ShloMosaic.Lib.SparseCore.Launch
import Idealize.ShloMosaic.Lib.Pipeline.Kit
import Idealize.ShloMosaic.Lib.Pipeline.Regions
import Idealize.ShloMosaic.Lib.Transfers

noncomputable section

namespace Cert.Kernel.Alg

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The program's labels and configuration as the launch theorem sees them. -/
abbrev ΛP : Labels := Pipeline.Sig Λ₀ (Fin 2) fun p => (pcfgs (F := F) p).Adm
abbrev K : SparseCore.Cfg τ sig (ΛP (F := F)) 2 := sc (F := F)

/-- The handshakes' rounds, the pipelines' rounds, the transfers' counters. -/
abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
/-- The pipelines' rounds sit in the middle component. -/
abbrev EP : Emb UP (MT nD τ sig (HIx 2) (Elt F) ℕ UU ℕ) := (Emb.inl : Emb UP (UP × Counters)).trans embR

instance EP_landsIn : (EP (F := F)).LandsIn (upEmb : UEmb _ (MT nD τ sig (HIx 2) (Elt F) ℕ UU ℕ)) := by
  infer_instance

/-- Neither pipeline prefetches a table: the one admissible contents. -/
abbrev adm : (p : Fin 2) → (pcfgs (F := F) p).Adm := fun p => Pipeline.Cfg.toPCfg_adm (cfgs p)

/-- The launch element: both rounds components at their launch states, no transfer in flight. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What @main's proof starts from on device `d`: the two pipelines' rounds state and duty tokens. -/
abbrev G (d : Dev nD) : sProp 𝕄 :=
  bigSep Finset.univ fun p : Fin 2 => iprop(Pipeline.cellsGhost cfgs (EP (F := F)) p d ∗ Pipeline.toksInit cfgs (EP (F := F)) p d)

theorem bigSep_emp' {I : Type} (s : Finset I) : (bigSep s fun _ => iprop(emp)) = (iprop(emp) : sProp 𝕄) := bigSep_emp_const s

/-- The launch element deals the handshakes their rounds and each device its pipelines' rounds; no kernel's proof is
    dealt anything. -/
theorem hu₀ (P : (K (F := F)).Pay (nD := nD) (Val := Elt F) (Name := ℕ) (U := UU)) (hx : ∀ q thr, P.x q thr = iprop(emp)) :
    (ownU (u₀ (F := F)) : sProp 𝕄)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 2 => P.x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), (1 : Counters)))) $$ Hu
  icases H with ⟨HH, HR⟩
  ihave H2 := (own_pair_emb (embR : Emb (UP × Counters) (MT nD τ sig (HIx 2) (Elt F) ℕ UU ℕ))
    (initOf (Pipeline.cells (nD := nD) (τ := τ) cfgs cellOf_inj) (Pipeline.launchToks (nD := nD) (τ := τ) cfgs cellOf_inj)) (1 : Counters)) $$ HR
  icases H2 with ⟨HP, -⟩
  imod (Pipeline.fund_ghost (nD := nD) (τ := τ) cfgs (EP (F := F)) cellOf_inj) $$ HP with ⟨Hg, Ht⟩
  imodintro
  isplitl [HH]; · iexact HH
  isplitl [Hg Ht]
  · unfold G
    rw [show (bigSep Finset.univ fun d : Dev nD => bigSep Finset.univ fun p : Fin 2 =>
          iprop(Pipeline.cellsGhost cfgs (EP (F := F)) p d ∗ Pipeline.toksInit cfgs (EP (F := F)) p d))
        = iprop((bigSep Finset.univ fun d : Dev nD => bigSep Finset.univ fun p : Fin 2 => Pipeline.cellsGhost cfgs (EP (F := F)) p d)
          ∗ (bigSep Finset.univ fun d : Dev nD => bigSep Finset.univ fun p : Fin 2 => (Pipeline.toksInit cfgs (EP (F := F)) p d : sProp 𝕄))) from by
      rw [← bigSep_sep']; exact bigSep_congr fun d _ => bigSep_sep' _ _ _]
    isplitl [Hg] <;> iassumption
  · rw [show (bigSep Finset.univ fun thr : Thread nD τ => bigSep Finset.univ fun q : Fin 2 => P.x q thr) = bigSep Finset.univ fun _ : Thread nD τ => (iprop(emp) : sProp 𝕄) from
      bigSep_congr fun thr _ => (bigSep_congr fun q _ => hx q thr).trans (bigSep_emp' _), bigSep_emp']
    iempintro

end Cert.Kernel.Alg

end
-- ==== Proof.WMainShape.lean ====
/-
  The kernel's @main as four lines of host operations around its two SparseCore calls and its two TensorCore kernel
  regions: the glue before the first call (the projection matrices transposed and flattened to one 128 x 1024 matrix,
  the 1024 x 64 selector of the column number modulo 64 — its remainder function opened at the call —, the relation
  numbers as a column), one reshape after each call (the gathered rows as three slabs), and after the two regions the
  sum of their two results, reshaped to a scalar.
-/
import proofs.«211459_g87136296501727_cont_9to1_m_723_16_alg».proof.Kernel
import Idealize.ShloMosaic.Lib.StableHlo.Run

noncomputable section

namespace Cert.Kernel.MainShape

open Idealize.ShloMosaic Idealize.SL.Sem Idealize.ShloMosaic.StableHlo Cert.Kernel

variable {F : FTy → Type} [FloatOps F] [Cert.Kernel.Facts]
open Cert.Kernel.Facts₀ Cert.Kernel.Facts

/-- The host operations before the first SparseCore call. -/
abbrev opsA : List (HloOp τ sig (Elt F)) :=
  [ unary main_arg2 main_v0 (transpose S128x16x64 [1, 0, 2] · transposes_S16x128x64_S128x16x64_1_0_2),
    reshape main_v0 main_v1 rfl shapeCasts_S128x16x64_S128x1024,
    nullary main_v2 (iotaInDim S1024 32 0),
    unary main_v2 main_v3 (broadcastInDim S1024x1 ![0] bcast_S1024_S1024x1_0),
    nullary main_c (constantI S_ 32 64#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S1024x1 ![] bcast_S_S1024x1),
    TRef.binary (.of main_v3) main_call0.v3 main_call0.v4 Host.remsi,
    TRef.nullary main_call0.c_1 (constantI S_ 32 0#32),
    TRef.unary main_call0.c_1 main_call0.v5 (broadcastInDim S1024x1 ![] bcast_S_S1024x1),
    TRef.binary main_call0.v4 main_call0.v5 main_call0.v6 (cmpi .ne),
    TRef.nullary main_call0.c_2 (constantI S_ 32 0#32),
    TRef.unary main_call0.c_2 main_call0.v7 (broadcastInDim S1024x1 ![] bcast_S_S1024x1),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S1024x1 ![] bcast_S_S1024x1),
    TRef.binary main_call0.v8 main_call0.v10 main_call0.v11 (cmpi .ne),
    TRef.binary main_call0.v11 main_call0.v6 main_call0.v12 andi,
    TRef.unary main_call0.call0.v0 main_call0.v13 (broadcastInDim S1024x1 ![] bcast_S_S1024x1),
    TRef.binary main_call0.v4 main_call0.v13 main_call0.v14 addi,
    TRef.ternary main_call0.v12 main_call0.v14 main_call0.v4 main_call0.v15 select,
    nullary main_v5 (iotaInDim S64 32 0),
    unary main_v5 main_v6 (broadcastInDim S1x64 ![1] bcast_S64_S1x64_1),
    unary main_v4 main_v7 (broadcastInDim S1024x64 ![0, 1] bcast_S1024x1_S1024x64_0_1),
    unary main_v6 main_v8 (broadcastInDim S1024x64 ![0, 1] bcast_S1x64_S1024x64_0_1),
    binary main_v7 main_v8 main_v9 (cmpi .eq),
    unary main_v9 main_v10 (uitofp .bf16),
    reshape main_arg4 main_v11 rfl shapeCasts_S16384_S16384x1 ]

/-- The reshape of the first call's rows into three slabs. -/
abbrev opsB : List (HloOp τ sig (Elt F)) := [ reshape main_v12 main_v13 rfl shapeCasts_S24576x128_S3x8192x128 ]
/-- The reshape of the second call's rows. -/
abbrev opsC : List (HloOp τ sig (Elt F)) := [ reshape main_v14 main_v15 rfl shapeCasts_S24576x128_S3x8192x128 ]
/-- The two regions' results added, and reshaped to a scalar. -/
abbrev opsD : List (HloOp τ sig (Elt F)) :=
  [ binary main_v16 main_v17 main_v18 addf, reshape main_v18 main_v19 rfl shapeCasts_S1x1_S_ ]

set_option maxRecDepth 4096 in
/-- @main is those four lines around the two calls and the two regions. -/
theorem main_eq (d : Dev nD) :
    main (F := F) d = (do
      seq (opsA (F := F))
      sc.run d 0
      seq (opsB (F := F))
      sc.run d 1
      seq (opsC (F := F))
      Prog.lift (.customCall (SparseCore.inner (Pipeline.entry 0)) ())
      Prog.lift (.customCall (SparseCore.inner (Pipeline.entry 1)) ())
      seq (opsD (F := F))) := by
  simp only [main, fn_remainder.body, fn_where.body, seq, bind_assoc, pure_bind]
  rfl

end Cert.Kernel.MainShape

end
-- ==== Proof.WHostVals.lean ====
/-
  What the host lines of the kernel's @main leave in the buffers the calls and regions read, as equations on the
  valuation: the glue before the first call writes the flattened projection matrices, the column selector and the
  relation column, and touches neither an argument array nor a call's or region's output; each later line writes only
  its own results.
-/
import proofs.«211459_g87136296501727_cont_9to1_m_723_16_alg».proof.Proof.WMainShape

noncomputable section

namespace Cert.Kernel.MainShape

open Idealize.ShloMosaic Idealize.ShloMosaic.TcCoe Idealize.SL.Sem Idealize.ShloMosaic.StableHlo Cert.Kernel

variable {F : FTy → Type} [FloatOps F] [Cert.Kernel.Facts]
open Cert.Kernel.Facts₀ Cert.Kernel.Facts

/-- The projection matrices transposed to [128, 16, 64] and flattened to [128, 1024]. -/
def wallOf (w : (⟨S16x128x64, .f32⟩ : BufTy).Contents (Elt F)) : (⟨S128x1024, .f32⟩ : BufTy).Contents (Elt F) :=
  shapeCast S128x1024 (transpose S128x16x64 [1, 0, 2] w transposes_S16x128x64_S128x16x64_1_0_2) shapeCasts_S128x16x64_S128x1024

set_option maxRecDepth 8192 in
theorem opsA_v1 (V : Valuation τ sig (Elt F)) :
    after (opsA (F := F)) V (main_v1 : DevRef τ sig) = wallOf (F := F) (V (main_arg2 : DevRef τ sig)) := by
  simp only [after_cons, after_nil]
  rfl

set_option maxRecDepth 8192 in
theorem opsA_v11 (V : Valuation τ sig (Elt F)) :
    after (opsA (F := F)) V (main_v11 : DevRef τ sig) = shapeCast S16384x1 (V (main_arg4 : DevRef τ sig)) shapeCasts_S16384_S16384x1 := by
  simp only [after_cons, after_nil]
  rfl

set_option maxRecDepth 8192 in
theorem opsA_arg0 (V : Valuation τ sig (Elt F)) : after (opsA (F := F)) V (main_arg0 : DevRef τ sig) = V (main_arg0 : DevRef τ sig) := by
  simp only [after_cons, after_nil]; rfl
set_option maxRecDepth 8192 in
theorem opsA_arg1 (V : Valuation τ sig (Elt F)) : after (opsA (F := F)) V (main_arg1 : DevRef τ sig) = V (main_arg1 : DevRef τ sig) := by
  simp only [after_cons, after_nil]; rfl
set_option maxRecDepth 8192 in
theorem opsA_arg3 (V : Valuation τ sig (Elt F)) : after (opsA (F := F)) V (main_arg3 : DevRef τ sig) = V (main_arg3 : DevRef τ sig) := by
  simp only [after_cons, after_nil]; rfl
set_option maxRecDepth 8192 in
theorem opsA_arg5 (V : Valuation τ sig (Elt F)) : after (opsA (F := F)) V (main_arg5 : DevRef τ sig) = V (main_arg5 : DevRef τ sig) := by
  simp only [after_cons, after_nil]; rfl
set_option maxRecDepth 8192 in
theorem opsA_arg6 (V : Valuation τ sig (Elt F)) : after (opsA (F := F)) V (main_arg6 : DevRef τ sig) = V (main_arg6 : DevRef τ sig) := by
  simp only [after_cons, after_nil]; rfl
set_option maxRecDepth 8192 in
theorem opsA_v12 (V : Valuation τ sig (Elt F)) : after (opsA (F := F)) V (main_v12 : DevRef τ sig) = V (main_v12 : DevRef τ sig) := by
  simp only [after_cons, after_nil]; rfl

theorem opsB_v13 (V : Valuation τ sig (Elt F)) :
    after (opsB (F := F)) V (main_v13 : DevRef τ sig) = shapeCast S3x8192x128 (V (main_v12 : DevRef τ sig)) shapeCasts_S24576x128_S3x8192x128 := by
  simp only [after_cons, after_nil]; rfl
theorem opsC_v15 (V : Valuation τ sig (Elt F)) :
    after (opsC (F := F)) V (main_v15 : DevRef τ sig) = shapeCast S3x8192x128 (V (main_v14 : DevRef τ sig)) shapeCasts_S24576x128_S3x8192x128 := by
  simp only [after_cons, after_nil]; rfl
theorem opsD_v19 (V : Valuation τ sig (Elt F)) :
    after (opsD (F := F)) V (main_v19 : DevRef τ sig)
      = shapeCast S_ (addf (V (main_v16 : DevRef τ sig)) (V (main_v17 : DevRef τ sig))) shapeCasts_S1x1_S_ := by
  simp only [after_cons, after_nil]; rfl

end Cert.Kernel.MainShape

end
-- ==== Proof.WHostVals2.lean ====
/-
  More of what the host lines leave: the 1024 x 64 column selector the glue before the first call computes (its term:
  column number modulo 64, by the opened remainder function, compared with the lane number, as 0 or 1), and the buffers
  each line does not write.
-/
import proofs.«211459_g87136296501727_cont_9to1_m_723_16_alg».proof.Proof.WHostVals

noncomputable section

namespace Cert.Kernel.MainShape

open Idealize.ShloMosaic Idealize.ShloMosaic.TcCoe Idealize.SL.Sem Idealize.ShloMosaic.StableHlo Cert.Kernel

variable {F : FTy → Type} [FloatOps F] [Cert.Kernel.Facts]
open Cert.Kernel.Facts₀ Cert.Kernel.Facts

/-- The column number modulo 64 as the host's remainder function computes it (the sign fix-up of a floor remainder
    around the truncating one), over a 1024 x 1 column of column numbers. -/
def colMod : (⟨S1024x1, .i32⟩ : BufTy).Contents (Elt F) :=
  let col : IVec S1024x1 32 := broadcastInDim S1024x1 ![0] bcast_S1024_S1024x1_0 (iotaInDim S1024 32 0)
  let c64 : IVec S_ 32 := constantI S_ 32 64#32
  let dv : IVec S_ 32 := select (cmpi .eq c64 (constantI S_ 32 0#32)) (constantI S_ 32 1#32) c64
  let r : IVec S1024x1 32 := Host.remsi col (broadcastInDim S1024x1 ![] bcast_S_S1024x1 dv)
  let nz : IVec S1024x1 1 := cmpi .ne r (broadcastInDim S1024x1 ![] bcast_S_S1024x1 (constantI S_ 32 0#32))
  let neg : IVec S1024x1 1 := cmpi .slt r (broadcastInDim S1024x1 ![] bcast_S_S1024x1 (constantI S_ 32 0#32))
  let dneg : IVec S1024x1 1 := broadcastInDim S1024x1 ![] bcast_S_S1024x1 (cmpi .slt dv (constantI S_ 32 0#32))
  select (andi (cmpi .ne neg dneg) nz) (addi r (broadcastInDim S1024x1 ![] bcast_S_S1024x1 dv)) r

/-- The column selector: 1 where the column number modulo 64 is the lane number, else 0. -/
def gselOf : (⟨S1024x64, .bf16⟩ : BufTy).Contents (Elt F) :=
  uitofp .bf16 (cmpi .eq (broadcastInDim S1024x64 ![0, 1] bcast_S1024x1_S1024x64_0_1 (colMod (F := F)))
    (broadcastInDim S1024x64 ![0, 1] bcast_S1x64_S1024x64_0_1 (broadcastInDim S1x64 ![1] bcast_S64_S1x64_1 (iotaInDim S64 32 0))))

set_option maxRecDepth 8192 in
set_option maxHeartbeats 4000000 in
theorem opsA_v10 (V : Valuation τ sig (Elt F)) : after (opsA (F := F)) V (main_v10 : DevRef τ sig) = gselOf (F := F) := by
  after_results_simp
  rfl

set_option maxRecDepth 8192 in
theorem opsA_keep_arg2 (V : Valuation τ sig (Elt F)) : after (opsA (F := F)) V (main_arg2 : DevRef τ sig) = V (main_arg2 : DevRef τ sig) := by
  simp only [after_cons, after_nil]; rfl
set_option maxRecDepth 8192 in
theorem opsA_keep_arg4 (V : Valuation τ sig (Elt F)) : after (opsA (F := F)) V (main_arg4 : DevRef τ sig) = V (main_arg4 : DevRef τ sig) := by
  simp only [after_cons, after_nil]; rfl
set_option maxRecDepth 8192 in
theorem opsA_keep_v14 (V : Valuation τ sig (Elt F)) : after (opsA (F := F)) V (main_v14 : DevRef τ sig) = V (main_v14 : DevRef τ sig) := by
  simp only [after_cons, after_nil]; rfl
set_option maxRecDepth 8192 in
theorem opsA_keep_v16 (V : Valuation τ sig (Elt F)) : after (opsA (F := F)) V (main_v16 : DevRef τ sig) = V (main_v16 : DevRef τ sig) := by
  simp only [after_cons, after_nil]; rfl
set_option maxRecDepth 8192 in
theorem opsA_keep_v17 (V : Valuation τ sig (Elt F)) : after (opsA (F := F)) V (main_v17 : DevRef τ sig) = V (main_v17 : DevRef τ sig) := by
  simp only [after_cons, after_nil]; rfl
theorem opsB_keep_arg0 (V : Valuation τ sig (Elt F)) : after (opsB (F := F)) V (main_arg0 : DevRef τ sig) = V (main_arg0 : DevRef τ sig) := by
  simp only [after_cons, after_nil]; rfl
theorem opsB_keep_arg1 (V : Valuation τ sig (Elt F)) : after (opsB (F := F)) V (main_arg1 : DevRef τ sig) = V (main_arg1 : DevRef τ sig) := by
  simp only [after_cons, after_nil]; rfl
theorem opsB_keep_arg2 (V : Valuation τ sig (Elt F)) : after (opsB (F := F)) V (main_arg2 : DevRef τ sig) = V (main_arg2 : DevRef τ sig) := by
  simp only [after_cons, after_nil]; rfl
theorem opsB_keep_arg3 (V : Valuation τ sig (Elt F)) : after (opsB (F := F)) V (main_arg3 : DevRef τ sig) = V (main_arg3 : DevRef τ sig) := by
  simp only [after_cons, after_nil]; rfl
theorem opsB_keep_arg4 (V : Valuation τ sig (Elt F)) : after (opsB (F := F)) V (main_arg4 : DevRef τ sig) = V (main_arg4 : DevRef τ sig) := by
  simp only [after_cons, after_nil]; rfl
theorem opsB_keep_arg5 (V : Valuation τ sig (Elt F)) : after (opsB (F := F)) V (main_arg5 : DevRef τ sig) = V (main_arg5 : DevRef τ sig) := by
  simp only [after_cons, after_nil]; rfl
theorem opsB_keep_arg6 (V : Valuation τ sig (Elt F)) : after (opsB (F := F)) V (main_arg6 : DevRef τ sig) = V (main_arg6 : DevRef τ sig) := by
  simp only [after_cons, after_nil]; rfl
theorem opsB_keep_v14 (V : Valuation τ sig (Elt F)) : after (opsB (F := F)) V (main_v14 : DevRef τ sig) = V (main_v14 : DevRef τ sig) := by
  simp only [after_cons, after_nil]; rfl
theorem opsB_keep_v16 (V : Valuation τ sig (Elt F)) : after (opsB (F := F)) V (main_v16 : DevRef τ sig) = V (main_v16 : DevRef τ sig) := by
  simp only [after_cons, after_nil]; rfl
theorem opsB_keep_v17 (V : Valuation τ sig (Elt F)) : after (opsB (F := F)) V (main_v17 : DevRef τ sig) = V (main_v17 : DevRef τ sig) := by
  simp only [after_cons, after_nil]; rfl
theorem opsB_keep_v1 (V : Valuation τ sig (Elt F)) : after (opsB (F := F)) V (main_v1 : DevRef τ sig) = V (main_v1 : DevRef τ sig) := by
  simp only [after_cons, after_nil]; rfl
theorem opsB_keep_v10 (V : Valuation τ sig (Elt F)) : after (opsB (F := F)) V (main_v10 : DevRef τ sig) = V (main_v10 : DevRef τ sig) := by
  simp only [after_cons, after_nil]; rfl
theorem opsB_keep_v11 (V : Valuation τ sig (Elt F)) : after (opsB (F := F)) V (main_v11 : DevRef τ sig) = V (main_v11 : DevRef τ sig) := by
  simp only [after_cons, after_nil]; rfl
theorem opsC_keep_arg0 (V : Valuation τ sig (Elt F)) : after (opsC (F := F)) V (main_arg0 : DevRef τ sig) = V (main_arg0 : DevRef τ sig) := by
  simp only [after_cons, after_nil]; rfl
theorem opsC_keep_arg1 (V : Valuation τ sig (Elt F)) : after (opsC (F := F)) V (main_arg1 : DevRef τ sig) = V (main_arg1 : DevRef τ sig) := by
  simp only [after_cons, after_nil]; rfl
theorem opsC_keep_arg2 (V : Valuation τ sig (Elt F)) : after (opsC (F := F)) V (main_arg2 : DevRef τ sig) = V (main_arg2 : DevRef τ sig) := by
  simp only [after_cons, after_nil]; rfl
theorem opsC_keep_arg3 (V : Valuation τ sig (Elt F)) : after (opsC (F := F)) V (main_arg3 : DevRef τ sig) = V (main_arg3 : DevRef τ sig) := by
  simp only [after_cons, after_nil]; rfl
theorem opsC_keep_arg4 (V : Valuation τ sig (Elt F)) : after (opsC (F := F)) V (main_arg4 : DevRef τ sig) = V (main_arg4 : DevRef τ sig) := by
  simp only [after_cons, after_nil]; rfl
theorem opsC_keep_arg5 (V : Valuation τ sig (Elt F)) : after (opsC (F := F)) V (main_arg5 : DevRef τ sig) = V (main_arg5 : DevRef τ sig) := by
  simp only [after_cons, after_nil]; rfl
theorem opsC_keep_arg6 (V : Valuation τ sig (Elt F)) : after (opsC (F := F)) V (main_arg6 : DevRef τ sig) = V (main_arg6 : DevRef τ sig) := by
  simp only [after_cons, after_nil]; rfl
theorem opsC_keep_v13 (V : Valuation τ sig (Elt F)) : after (opsC (F := F)) V (main_v13 : DevRef τ sig) = V (main_v13 : DevRef τ sig) := by
  simp only [after_cons, after_nil]; rfl
theorem opsC_keep_v16 (V : Valuation τ sig (Elt F)) : after (opsC (F := F)) V (main_v16 : DevRef τ sig) = V (main_v16 : DevRef τ sig) := by
  simp only [after_cons, after_nil]; rfl
theorem opsC_keep_v17 (V : Valuation τ sig (Elt F)) : after (opsC (F := F)) V (main_v17 : DevRef τ sig) = V (main_v17 : DevRef τ sig) := by
  simp only [after_cons, after_nil]; rfl
theorem opsC_keep_v1 (V : Valuation τ sig (Elt F)) : after (opsC (F := F)) V (main_v1 : DevRef τ sig) = V (main_v1 : DevRef τ sig) := by
  simp only [after_cons, after_nil]; rfl
theorem opsC_keep_v10 (V : Valuation τ sig (Elt F)) : after (opsC (F := F)) V (main_v10 : DevRef τ sig) = V (main_v10 : DevRef τ sig) := by
  simp only [after_cons, after_nil]; rfl
theorem opsC_keep_v11 (V : Valuation τ sig (Elt F)) : after (opsC (F := F)) V (main_v11 : DevRef τ sig) = V (main_v11 : DevRef τ sig) := by
  simp only [after_cons, after_nil]; rfl
theorem opsD_keep_arg0 (V : Valuation τ sig (Elt F)) : after (opsD (F := F)) V (main_arg0 : DevRef τ sig) = V (main_arg0 : DevRef τ sig) := by
  simp only [after_cons, after_nil]; rfl
theorem opsD_keep_arg1 (V : Valuation τ sig (Elt F)) : after (opsD (F := F)) V (main_arg1 : DevRef τ sig) = V (main_arg1 : DevRef τ sig) := by
  simp only [after_cons, after_nil]; rfl
theorem opsD_keep_arg2 (V : Valuation τ sig (Elt F)) : after (opsD (F := F)) V (main_arg2 : DevRef τ sig) = V (main_arg2 : DevRef τ sig) := by
  simp only [after_cons, after_nil]; rfl
theorem opsD_keep_arg3 (V : Valuation τ sig (Elt F)) : after (opsD (F := F)) V (main_arg3 : DevRef τ sig) = V (main_arg3 : DevRef τ sig) := by
  simp only [after_cons, after_nil]; rfl
theorem opsD_keep_arg4 (V : Valuation τ sig (Elt F)) : after (opsD (F := F)) V (main_arg4 : DevRef τ sig) = V (main_arg4 : DevRef τ sig) := by
  simp only [after_cons, after_nil]; rfl
theorem opsD_keep_arg5 (V : Valuation τ sig (Elt F)) : after (opsD (F := F)) V (main_arg5 : DevRef τ sig) = V (main_arg5 : DevRef τ sig) := by
  simp only [after_cons, after_nil]; rfl
theorem opsD_keep_arg6 (V : Valuation τ sig (Elt F)) : after (opsD (F := F)) V (main_arg6 : DevRef τ sig) = V (main_arg6 : DevRef τ sig) := by
  simp only [after_cons, after_nil]; rfl

end Cert.Kernel.MainShape

end
-- ==== Proof.WKerLaunch.lean ====
/-
  The kernel's @main on the TensorCore, inside the launch of its two SparseCore calls: the steps it is made of. A line
  of host operations runs within the core's unscoped buffers held whole at a valuation. A SparseCore call takes the
  three index arrays, the entity table and its own output array out of that set, hands them to the two SparseCores, and
  takes them back with the output at the gathered rows.
-/
import proofs.«211459_g87136296501727_cont_9to1_m_723_16_alg».proof.Proof.WScSetup
import proofs.«211459_g87136296501727_cont_9to1_m_723_16_alg».proof.Proof.WAlg
import proofs.«211459_g87136296501727_cont_9to1_m_723_16_alg».proof.Proof.WHostVals2
import proofs.«211459_g87136296501727_cont_9to1_m_723_16_alg».proof.Proof.LaunchKit
import Idealize.ShloMosaic.Lib.Pipeline.Frame

noncomputable section

namespace Cert.Kernel.KerLaunch

open Cert.Kernel Cert.Kernel.Gen Cert.Kernel.MainShape Cert.LaunchKit
open Idealize.ShloMosaic Idealize.ShloMosaic.TcCoe
open Idealize.ShloMosaic.SparseCore (S V T)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ Alg.UU ℕ

abbrev K : SparseCore.Cfg τ sig (Sc.ΛP (F := F)) 2 := Sc.K (F := F)
abbrev D : Defs nD τ sig (Elt F) (Sc.ΛP (F := F)) := Sc.D (F := F)
abbrev EH : Emb Alg.UH (MT nD τ sig (HIx 2) (Elt F) ℕ Alg.UU ℕ) := Alg.EH (F := F)

variable (m : (ℓ : Loc nD τ sig) → Buf (Elt F) ℓ) (ρ : Dev nD → PrngReg)

/-- What the handshakes carry, at the launch's user algebra. -/
abbrev Pm : (K (F := F)).Pay (nD := nD) (Val := Elt F) (Name := ℕ) (U := Alg.UU) := Sc.P (F := F) (UU := Alg.UU) m

/-- The core's unscoped buffers: what every host line runs within. -/
abbrev SU : Finset (DevRef τ sig) := Pipeline.ucRefs τ sig

/-- The launch valuation. -/
abbrev V0 (d : Dev nD) : Valuation τ sig (Elt F) := fun b => m (d, b)

/-! ## The host lines' side conditions -/

theorem opsA_sub : ∀ op ∈ (opsA (F := F)), op.bufs ⊆ SU := by
  have h : (opsA (F := F)).Forall fun op => op.bufs ⊆ StableHlo.tcRefs τ sig :=
    ⟨unary_bufs_sub .., reshape_bufs_sub .., nullary_bufs_sub .., unary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., unary_bufs_sub .., unary_bufs_sub .., binary_bufs_sub .., unary_bufs_sub .., reshape_bufs_sub ..⟩
  exact fun op hop => Pipeline.sub_ucRefs op (List.forall_iff_forall_mem.mp h op hop)
theorem opsA_fresh : ∀ op ∈ (opsA (F := F)), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (opsA (F := F)).Forall fun op => op.fresh = ∅)

theorem opsB_sub : ∀ op ∈ (opsB (F := F)), op.bufs ⊆ SU := by
  have h : (opsB (F := F)).Forall fun op => op.bufs ⊆ StableHlo.tcRefs τ sig := reshape_bufs_sub ..
  exact fun op hop => Pipeline.sub_ucRefs op (List.forall_iff_forall_mem.mp h op hop)
theorem opsB_fresh : ∀ op ∈ (opsB (F := F)), op.fresh = ∅ :=
  List.forall_iff_forall_mem.mp (rfl : (opsB (F := F)).Forall fun op => op.fresh = ∅)
theorem opsC_sub : ∀ op ∈ (opsC (F := F)), op.bufs ⊆ SU := by
  have h : (opsC (F := F)).Forall fun op => op.bufs ⊆ StableHlo.tcRefs τ sig := reshape_bufs_sub ..
  exact fun op hop => Pipeline.sub_ucRefs op (List.forall_iff_forall_mem.mp h op hop)
theorem opsC_fresh : ∀ op ∈ (opsC (F := F)), op.fresh = ∅ :=
  List.forall_iff_forall_mem.mp (rfl : (opsC (F := F)).Forall fun op => op.fresh = ∅)
theorem opsD_sub : ∀ op ∈ (opsD (F := F)), op.bufs ⊆ SU := by
  have h : (opsD (F := F)).Forall fun op => op.bufs ⊆ StableHlo.tcRefs τ sig := ⟨binary_bufs_sub .., reshape_bufs_sub ..⟩
  exact fun op hop => Pipeline.sub_ucRefs op (List.forall_iff_forall_mem.mp h op hop)
theorem opsD_fresh : ∀ op ∈ (opsD (F := F)), op.fresh = ∅ :=
  List.forall_iff_forall_mem.mp (⟨rfl, rfl⟩ : (opsD (F := F)).Forall fun op => op.fresh = ∅)

/-! ## The five arrays of a SparseCore call, out of the held set -/

abbrev h' : DevRef τ sig := (main_arg3 : DevRef τ sig)
abbrev p' : DevRef τ sig := (main_arg5 : DevRef τ sig)
abbrev n' : DevRef τ sig := (main_arg6 : DevRef τ sig)
abbrev tab' : DevRef τ sig := (main_arg0 : DevRef τ sig)
abbrev out' (q : Fin 2) : DevRef τ sig := (Sc.oRef q : DevRef τ sig)

/-- The buffers call `q` takes. -/
def T5 (q : Fin 2) : Finset (DevRef τ sig) := {h', p', n', tab', out' q}

theorem T5_sub (q : Fin 2) : T5 q ⊆ SU := match q with
  | 0 => by decide
  | 1 => by decide

theorem held_T5 (d : Dev nD) (q : Fin 2) (W : Valuation τ sig (Elt F)) :
    (held (T d) (T5 q) W : sProp 𝕄)
      = iprop((Sc.hLoc d ↦{fullShare} W h') ∗ (Sc.pLoc d ↦{fullShare} W p') ∗ (Sc.nLoc d ↦{fullShare} W n')
          ∗ (Sc.tabLoc d ↦{fullShare} W tab') ∗ (Sc.outLoc q d ↦{fullShare} W (out' q))) := by
  unfold held T5
  match q with
  | 0 => rw [bigSep_insert' (by decide), bigSep_insert' (by decide), bigSep_insert' (by decide), bigSep_insert' (by decide), bigSep_singleton]
  | 1 => rw [bigSep_insert' (by decide), bigSep_insert' (by decide), bigSep_insert' (by decide), bigSep_insert' (by decide), bigSep_singleton]

/-! ## A SparseCore call -/

theorem out_ne_h (q : Fin 2) : h' ≠ out' q := match q with | 0 => by decide | 1 => by decide
theorem out_ne_p (q : Fin 2) : p' ≠ out' q := match q with | 0 => by decide | 1 => by decide
theorem out_ne_n (q : Fin 2) : n' ≠ out' q := match q with | 0 => by decide | 1 => by decide
theorem out_ne_tab (q : Fin 2) : tab' ≠ out' q := match q with | 0 => by decide | 1 => by decide
theorem out_mem_T5 (q : Fin 2) : out' q ∈ T5 q := match q with | 0 => by decide | 1 => by decide

/-- The call: from the held set with the five arrays at their launch contents, to the held set with the call's output
    at the gathered rows. -/
theorem call_step (κ : GSem nD τ sig → ℕ) (d : Dev nD) (q : Fin 2) (W : Valuation τ sig (Elt F))
    (hh : W h' = m (Sc.hLoc d)) (hp : W p' = m (Sc.pLoc d)) (hn : W n' = m (Sc.nLoc d)) (ht : W tab' = m (Sc.tabLoc d))
    (ho : W (out' q) = m (Sc.outLoc q d)) {Φ : PUnit → sProp 𝕄} :
    iprop((K (F := F)).ctx EH (Pm m) κ ∗ (K (F := F)).tcSt EH d q.val ∗ (held (T d) SU W : sProp 𝕄)
        ∗ (((K (F := F)).tcSt EH d (q.val + 1) ∗ (held (T d) SU (Function.update W (out' q) (Sc.gathAt m q d)) : sProp 𝕄)) -∗ Φ ⟨⟩))
      ⊢ wp frame (wpE ((K (F := F)).defs (D (F := F))) Sc.𝒱 (T d) none) Set.univ ((K (F := F)).run d q) Φ := by
  have hoff : ∀ b ∈ SU \ T5 q, Function.update W (out' q) (Sc.gathAt m q d) b = W b := fun b hb =>
    Function.update_of_ne (fun (e : b = out' q) => (Finset.mem_sdiff.mp hb).2 (by rw [e]; exact out_mem_T5 q)) _ _
  rw [held_sub_split (T d) (T5_sub q) W, held_T5, hh, hp, hn, ht, ho,
    held_swap (T d) (T5_sub q) W (Function.update W (out' q) (Sc.gathAt m q d)) hoff, held_T5,
    Function.update_of_ne (out_ne_h q), Function.update_of_ne (out_ne_p q), Function.update_of_ne (out_ne_n q),
    Function.update_of_ne (out_ne_tab q), Function.update_self, hh, hp, hn, ht]
  iintro ⟨#Hctx, Hst, ⟨H5, Hrest⟩, Hk⟩
  iapply ((K (F := F)).wp_run (D (F := F)) Sc.𝒱 (EH := EH) (P := Pm m) κ d q) $$ [Hst H5 Hrest Hk]
  isplitr; · iexact Hctx
  isplitl [Hst]; · iexact Hst
  isplitl [H5]
  · rw [Sc.st_eq]; iexact H5
  iintro ⟨Hst, Hdn⟩
  ihave Hdn' := (Entails.of_eq (Sc.dn_eq (F := F) (UU := Alg.UU) m q d)) $$ Hdn
  iapply Hk
  isplitl [Hst]; · iexact Hst
  isplitl [Hdn']; · iexact Hdn'
  iexact Hrest

/-! ## The valuations along @main -/

abbrev r0' : DevRef τ sig := (main_v16 : DevRef τ sig)
abbrev r1' : DevRef τ sig := (main_v17 : DevRef τ sig)

variable (acc0 acc1 : (d : Dev nD) → (⟨S1x1, .f32⟩ : BufTy).Contents (Elt F))

def VA (d : Dev nD) : Valuation τ sig (Elt F) := after (opsA (F := F)) (V0 m d)
def V1 (d : Dev nD) : Valuation τ sig (Elt F) := Function.update (VA m d) (out' 0) (Sc.gathAt m 0 d)
def V1' (d : Dev nD) : Valuation τ sig (Elt F) := after (opsB (F := F)) (V1 m d)
def V2 (d : Dev nD) : Valuation τ sig (Elt F) := Function.update (V1' m d) (out' 1) (Sc.gathAt m 1 d)
def V2' (d : Dev nD) : Valuation τ sig (Elt F) := after (opsC (F := F)) (V2 m d)
def V3 (d : Dev nD) : Valuation τ sig (Elt F) := Function.update (V2' m d) r0' (acc0 d)
def V4 (d : Dev nD) : Valuation τ sig (Elt F) := Function.update (V3 m acc0 d) r1' (acc1 d)
def V5 (d : Dev nD) : Valuation τ sig (Elt F) := after (opsD (F := F)) (V4 m acc0 acc1 d)

/-- The pairs the TensorCore may have recorded when it reaches the regions: those at or below level 16. -/
def B16 (d : Dev nD) : Set (SemLoc sig × HIx 2) := {p | (K (F := F)).lev (T d, p.1) p.2 ≤ 16}

/-- What a kernel region's step must say for @main's proof: entered with the held set at `W`, the core owing nothing
    within the pairs `B`, and the pipeline's rounds state, it leaves the held set with its result buffer at `a`. -/
def RegStep (p : Fin 2) (d : Dev nD) (res : DevRef τ sig) (W : Valuation τ sig (Elt F)) (a : res.ty.Contents (Elt F))
    (B B' : Set (SemLoc sig × HIx 2)) : Prop :=
  ∀ (Φ : PUnit → sProp 𝕄),
    iprop(levAts (K (F := F)).L (K (F := F)).lev ∗ boundary (T d) ∗ (held (T d) SU W : sProp 𝕄) ∗ Pipeline.owesWithin d (0 : CellTallies nD τ sig (HIx 2)) B
        ∗ (Pipeline.cellsGhost cfgs (Alg.EP (F := F)) p d ∗ Pipeline.toksInit cfgs (Alg.EP (F := F)) p d)
        ∗ ((boundary (T d) ∗ (held (T d) SU (Function.update W res a) : sProp 𝕄) ∗ Pipeline.owesWithin d (0 : CellTallies nD τ sig (HIx 2)) B') -∗ Φ ⟨⟩))
      ⊢ wp frame (wpE ((K (F := F)).defs (D (F := F))) Sc.𝒱 (T d) none) Set.univ
          (Prog.lift (.customCall (SparseCore.inner (Pipeline.entry p)) ())) Φ

/-! ## A line of host operations -/

set_option backward.isDefEq.respectTransparency.types false in
/-- A line of host operations at the head of @main's remainder, within the core's unscoped buffers. -/
theorem line_step (d : Dev nD) (ops : List (HloOp τ sig (Elt F))) (hS : ∀ op ∈ ops, op.bufs ⊆ SU) (hf : ∀ op ∈ ops, op.fresh = ∅)
    (W : Valuation τ sig (Elt F)) {β : Type} (k : PUnit → Prog (TpuEff nD τ sig (Elt F) (SparseCore.Sig (Sc.ΛP (F := F)) 2) .tc) β)
    {Φ : β → sProp 𝕄} :
    iprop(boundary (T d) ∗ (held (T d) SU W : sProp 𝕄)
        ∗ ((boundary (T d) ∗ (held (T d) SU (after ops W) : sProp 𝕄))
            -∗ wp frame (wpE ((K (F := F)).defs (D (F := F))) Sc.𝒱 (T d) none) Set.univ (k ⟨⟩) Φ))
      ⊢ wp frame (wpE ((K (F := F)).defs (D (F := F))) Sc.𝒱 (T d) none) Set.univ (seq ops >>= k) Φ := by
  iintro ⟨Hb, Hh, Hk⟩
  iapply (StableHlo.wp_seq (defs := (K (F := F)).defs (D (F := F))) Sc.𝒱 none Set.univ d SU k ops hS hf W) $$ [Hb Hh]
  · isplitl [Hb] <;> iassumption
  iexact Hk

/-! ## Reading the valuations at the calls' arrays -/

theorem VA_at (d : Dev nD) (b : DevRef τ sig) (hA : ∀ V : Valuation τ sig (Elt F), after (opsA (F := F)) V b = V b) : VA m d b = m (d, b) := by
  unfold VA; rw [hA]

theorem V1'_at (d : Dev nD) (b : DevRef τ sig) (hB : ∀ V : Valuation τ sig (Elt F), after (opsB (F := F)) V b = V b)
    (hne : b ≠ out' 0) (hA : ∀ V : Valuation τ sig (Elt F), after (opsA (F := F)) V b = V b) : V1' m d b = m (d, b) := by
  unfold V1' V1; rw [hB, Function.update_of_ne hne, VA_at m d b hA]

/-! ## The TensorCore's handshake state, opened at its `owes` -/

theorem tcSt_open (d : Dev nD) (n : ℕ) :
    ((K (F := F)).tcSt (EH (F := F)) d n : sProp 𝕄)
      ⊢ iprop((∃ W, ⌜(K (F := F)).WBelow (T d) W (8 * n)⌝ ∗ (owes (T d) ((K (F := F)).Otc d n) W : sProp 𝕄))
          ∗ ((∃ W, ⌜(K (F := F)).WBelow (T d) W (8 * n)⌝ ∗ (owes (T d) ((K (F := F)).Otc d n) W : sProp 𝕄)) -∗ (K (F := F)).tcSt (EH (F := F)) d n)) := by
  unfold SparseCore.Cfg.tcSt
  iintro ⟨H, Hr⟩
  isplitl [H]; · iexact H
  iintro H
  isplitl [H]; · iexact H
  iexact Hr

end Cert.Kernel.KerLaunch

end
-- ==== Proof.WKerMain.lean ====
/-
  The kernel's @main on the TensorCore, inside the launch of its two SparseCore calls: the whole line, from the steps of
  its parts.
-/
import proofs.«211459_g87136296501727_cont_9to1_m_723_16_alg».proof.Proof.WKerLaunch

noncomputable section

namespace Cert.Kernel.KerLaunch

open Cert.Kernel Cert.Kernel.Gen Cert.Kernel.MainShape Cert.LaunchKit
open Idealize.ShloMosaic Idealize.ShloMosaic.TcCoe
open Idealize.ShloMosaic.SparseCore (S V T)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ Alg.UU ℕ

variable (m : (ℓ : Loc nD τ sig) → Buf (Elt F) ℓ) (ρ : Dev nD → PrngReg)
variable (acc0 acc1 : (d : Dev nD) → (⟨S1x1, .f32⟩ : BufTy).Contents (Elt F))

/-- A big separating conjunction over two indices, spelt as a conjunction. -/
theorem bigSep_fin_two' {M : Type} [URA M] (Φ : Fin 2 → sProp M) : bigSep Finset.univ Φ = iprop(Φ 0 ∗ Φ 1) := BI.bigSep_fin_two Φ

/-! ## What the launch deals the TensorCore, as a held set -/

theorem unscoped_held (d : Dev nD) :
    (unscopedBufs d (fun b => m ((SparseCore.T d).loc b)) : sProp 𝕄) = held (SparseCore.T d) SU (V0 m d) := by
  unfold unscopedBufs StableHlo.held SU Pipeline.ucRefs StableHlo.tcRefs
  rw [Finset.filter_map, bigSep_map]
  rfl

/-! ## @main -/

set_option backward.isDefEq.respectTransparency.types false in
set_option maxHeartbeats 800000 in
/-- @main on device `d`'s TensorCore: the glue, the two calls each followed by its reshape, the two kernel regions, the
    sum; it ends with the handshake state after both calls and every unscoped buffer at the last valuation. -/
theorem hmain
    (hreg0 : ∀ d, RegStep (F := F) 0 d r0' (V2' m d) (acc0 d) (B16 (F := F) d) (B16 (F := F) d ∪ (cfgs 0).waitPairs none))
    (hreg1 : ∀ d, RegStep (F := F) 1 d r1' (V3 m acc0 d) (acc1 d) (B16 (F := F) d ∪ (cfgs 0).waitPairs none)
      ((B16 (F := F) d ∪ (cfgs 0).waitPairs none) ∪ (cfgs 1).waitPairs none))
    (κ : GSem nD τ sig → ℕ) (d : Dev nD) :
    iprop((K (F := F)).ctx (EH (F := F)) (Pm m) κ ∗ (K (F := F)).tcSt (EH (F := F)) d 0 ∗ (K (F := F)).tcRes m ρ d ∗ Alg.G (F := F) d)
      ⊢ wp frame (wpE ((K (F := F)).defs (D (F := F))) Sc.𝒱 (T d) none) Set.univ (main (F := F) d)
          fun _ => iprop((K (F := F)).tcSt (EH (F := F)) d 2 ∗ (held (T d) SU (V5 m acc0 acc1 d) : sProp 𝕄)) := by
  rw [main_eq]
  unfold SparseCore.Cfg.tcRes
  rw [unscoped_held m d]
  iintro ⟨#Hctx, Hst, ⟨Hb, Hheld, -, -⟩, HG⟩
  -- the glue before the first call
  iapply (line_step d (opsA (F := F)) opsA_sub opsA_fresh (V0 m d)) $$ [Hb Hheld Hst HG]
  isplitl [Hb]; · iexact Hb
  isplitl [Hheld]; · iexact Hheld
  iintro ⟨Hb, Hheld⟩
  -- the first call
  rw [wp_bind]
  iapply (call_step m κ d 0 (VA m d) (VA_at m d h' opsA_arg3) (VA_at m d p' opsA_arg5) (VA_at m d n' opsA_arg6)
    (VA_at m d tab' opsA_arg0) (VA_at m d (out' 0) opsA_v12)) $$ [Hst Hheld Hb HG]
  isplitr; · iexact Hctx
  isplitl [Hst]; · iexact Hst
  isplitl [Hheld]; · iexact Hheld
  iintro ⟨Hst, Hheld⟩
  -- its reshape
  iapply (line_step d (opsB (F := F)) opsB_sub opsB_fresh (V1 m d)) $$ [Hb Hheld Hst HG]
  isplitl [Hb]; · iexact Hb
  isplitl [Hheld]; · iexact Hheld
  iintro ⟨Hb, Hheld⟩
  -- the second call
  rw [wp_bind]
  iapply (call_step m κ d 1 (V1' m d) (V1'_at m d h' opsB_keep_arg3 (by decide) opsA_arg3) (V1'_at m d p' opsB_keep_arg5 (by decide) opsA_arg5)
    (V1'_at m d n' opsB_keep_arg6 (by decide) opsA_arg6) (V1'_at m d tab' opsB_keep_arg0 (by decide) opsA_arg0)
    (V1'_at m d (out' 1) opsB_keep_v14 (by decide) opsA_keep_v14)) $$ [Hst Hheld Hb HG]
  isplitr; · iexact Hctx
  isplitl [Hst]; · iexact Hst
  isplitl [Hheld]; · iexact Hheld
  iintro ⟨Hst, Hheld⟩
  -- its reshape
  iapply (line_step d (opsC (F := F)) opsC_sub opsC_fresh (V2 m d)) $$ [Hb Hheld Hst HG]
  isplitl [Hb]; · iexact Hb
  isplitl [Hheld]; · iexact Hheld
  iintro ⟨Hb, Hheld⟩
  -- the core's owes out of the handshake state: nothing is owed after the last call
  ihave Ho := (tcSt_open (F := F) d ((1 : Fin 2).val + 1)) $$ Hst
  icases Ho with ⟨⟨%W, %hW, HO⟩, Hclose⟩
  rw [(K (F := F)).Otc_end d (show 2 ≤ (1 : Fin 2).val + 1 from le_refl 2)]
  -- the two pipelines' rounds state
  ihave HG' := (Entails.of_eq (bigSep_fin_two' (fun p : Fin 2 => iprop(Pipeline.cellsGhost cfgs (Alg.EP (F := F)) p d ∗ Pipeline.toksInit cfgs (Alg.EP (F := F)) p d)))) $$ HG
  icases HG' with ⟨HG0, HG1⟩
  -- the first region
  rw [wp_bind]
  ihave Hlev0 := (SparseCore.Cfg.ctx_levAts (K := K (F := F)) (EH := (EH (F := F))) (P := Pm m) κ) $$ Hctx
  iapply (hreg0 d _) $$ [Hlev0 Hb Hheld HO HG0 HG1 Hclose]
  isplitl [Hlev0]; · iexact Hlev0
  isplitl [Hb]; · iexact Hb
  isplitl [Hheld]; · iexact Hheld
  isplitl [HO]
  · iexists W; isplitr; · ipureintro; exact fun p hp => hW p hp
    iexact HO
  isplitl [HG0]; · iexact HG0
  iintro ⟨Hb, Hheld, HO⟩
  -- the second region
  rw [wp_bind]
  ihave Hlev1 := (SparseCore.Cfg.ctx_levAts (K := K (F := F)) (EH := (EH (F := F))) (P := Pm m) κ) $$ Hctx
  iapply (hreg1 d _) $$ [Hlev1 Hb Hheld HO HG1 Hclose]
  isplitl [Hlev1]; · iexact Hlev1
  isplitl [Hb]; · iexact Hb
  isplitl [Hheld]; · iexact Hheld
  isplitl [HO]; · iexact HO
  isplitl [HG1]; · iexact HG1
  iintro ⟨Hb, Hheld, ⟨%W', %hW', HO⟩⟩
  -- the sum and its reshape
  rw [show (seq (opsD (F := F)) : Prog (TpuEff nD τ sig (Elt F) (SparseCore.Sig (Sc.ΛP (F := F)) 2) .tc) PUnit)
      = seq (opsD (F := F)) >>= fun _ => pure ⟨⟩ from (bind_pure _).symm]
  iapply (line_step d (opsD (F := F)) opsD_sub opsD_fresh (V4 m acc0 acc1 d)) $$ [Hb Hheld HO Hclose]
  isplitl [Hb]; · iexact Hb
  isplitl [Hheld]; · iexact Hheld
  iintro ⟨-, Hheld⟩
  rw [wp_pure]; imodintro
  isplitl [HO Hclose]
  · iapply Hclose
    iexists W'; isplitr
    · ipureintro
      intro p hp
      rcases hW' hp with (hp | ⟨w, s, rfl⟩) | ⟨w, s, rfl⟩
      · exact hp
      · exact Nat.zero_le _
      · exact Nat.zero_le _
    · iexact HO
  · iexact Hheld

end Cert.Kernel.KerLaunch

end
-- ==== Proof.WRunMain.lean ====
/-
  The kernel's run: every weakly fair execution of its threads — @main on the TensorCore, the two SparseCores' sequencers
  and their thirty-two vector subcores — from a memory with every semaphore at zero terminates, nothing faulting, with
  every unscoped buffer of the TensorCore at the last valuation of @main's line: the arguments as found, the result at
  the sum of the two regions' accumulated shares. From the launch theorem for SparseCore programs, given each call's
  task on a vector subcore, the calls' splits, and @main's proof.
-/
import proofs.«211459_g87136296501727_cont_9to1_m_723_16_alg».proof.Proof.WKerMain

noncomputable section

namespace Cert.Kernel.KerLaunch

open Cert.Kernel Cert.Kernel.Gen Cert.Kernel.MainShape Cert.LaunchKit
open Idealize.ShloMosaic Idealize.ShloMosaic.TcCoe
open Idealize.ShloMosaic.SparseCore (S V T)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ Alg.UU ℕ

variable (m : (ℓ : Loc nD τ sig) → Buf (Elt F) ℓ) (ρ : Dev nD → PrngReg)
variable (acc0 acc1 : (d : Dev nD) → (⟨S1x1, .f32⟩ : BufTy).Contents (Elt F))

/-- What @main leaves: every unscoped buffer of the core at the last valuation. -/
abbrev FIN (d : Dev nD) : sProp 𝕄 := (held (SparseCore.T d) SU (V5 m acc0 acc1 d) : sProp 𝕄)

def fq (d : Dev nD) (s' : Phys nD τ sig (Elt F)) : Prop := ∀ b ∈ SU, s'.mem.mem ((d, b) : Loc nD τ sig) = V5 m acc0 acc1 d b

theorem hfin (d : Dev nD) (s' : Phys nD τ sig (Elt F)) : iprop(FIN m acc0 acc1 d ∗ SI s') ⊢ (⌜fq m acc0 acc1 d s'⌝ : sProp 𝕄) :=
  held_agree (SparseCore.T (τ := τ) d) (V5 m acc0 acc1 d) s' SU

/-- The run's post: on every device every unscoped TensorCore buffer holds the last valuation. -/
def QC : PUnit × MemSt nD τ sig (Elt F) → Prop := fun r => ∀ (c : Dev nD), ∀ b ∈ SU, r.2.mem ((c, b) : Loc nD τ sig) = V5 m acc0 acc1 c b

theorem run_main [∀ e, Nonempty (Elt F e)]
    (htile : ∀ q, (K (F := F)).TileObl (D (F := F)) Sc.𝒱 (Pm m) Sc.v₀ q)
    (hsplit : ∀ q, (K (F := F)).VecSplit' (Pm m) q)
    (hreg0 : ∀ d, RegStep (F := F) 0 d r0' (V2' m d) (acc0 d) (B16 (F := F) d) (B16 (F := F) d ∪ (cfgs 0).waitPairs none))
    (hreg1 : ∀ d, RegStep (F := F) 1 d r1' (V3 m acc0 d) (acc1 d) (B16 (F := F) d ∪ (cfgs 0).waitPairs none)
      ((B16 (F := F) d ∪ (cfgs 0).waitPairs none) ∪ (cfgs 1).waitPairs none)) :
    θ_run (Cert.Kernel.defs (F := F)) (Cert.Kernel.threads (F := F)) ⟨m, fun _ => 0, ρ⟩ (QC m acc0 acc1) :=
  SparseCore.Cfg.θ_run_sc (K := K (F := F)) (D := D (F := F)) (𝒱 := Sc.𝒱) (EH := EH) (P := Pm m) Sc.facts Sc.v₀
    (fun q hq => match q with | 0 => nomatch hq | 1 => nomatch hq)
    (fun q _ => htile q)
    (fun q _ => SparseCore.Cfg.VecSplit.of_plain (hsplit q))
    m ρ main (fun d => Alg.G (F := F) d) (FIN m acc0 acc1) (Alg.u₀ (F := F))
    (sep_elim_left.trans (Alg.hu₀ (F := F) (Pm m) (fun _ _ => rfl)))
    (hmain m ρ acc0 acc1 hreg0 hreg1) (fq m acc0 acc1) (hfin m acc0 acc1) (QC m acc0 acc1) (fun _ h => h)

end Cert.Kernel.KerLaunch

end
-- ==== Proof.WTcBody.lean ====
/-
  The body of the two TensorCore kernels, run whole at a symbolic grid point over any whole staging memrefs and any
  machine algebra: the five input blocks are handed back as they were, and the 1x1 output buffer — which the body reads
  back and overwrites, so that it carries a running sum from one grid point to the next — ends holding `outStep`, one
  named function of the loaded blocks and of the buffer's previous value. Nothing is said here of that function's
  arithmetic.
-/
import proofs.«211459_g87136296501727_cont_9to1_m_723_16_alg».proof.Proof.Gen.Kernel.Launch
import proofs.«211459_g87136296501727_cont_9to1_m_723_16_alg».proof.Proof.Gen.Kernel.Points
import proofs.«211459_g87136296501727_cont_9to1_m_723_16_alg».proof.Proof.Gen.Kernel.Skeleton
import Idealize.ShloMosaic.Lib.Pipeline.FrameBody
import Idealize.ShloMosaic.Lib.Tactic
import Idealize.ShloMosaic.Lib.WholeRead
import Idealize.ShloMosaic.Lib.WritesUnit

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## Reading and writing a whole staging buffer -/

/-- What a load through rectangle `B` reads of contents `X`: `X` at the rectangle's indices. -/
def ld {s : Shape} {e : EltTy} (X : s.Idx → Elt F e) (B : LoadRect s) : B.shape.Idx → Elt F e := fun x => X (B.idx x)

/-- A load through a whole memref's own view, the memref held at the raw contents that read `X`, reads `ld X B`. -/
theorem readAt_unread_eq {κ : Kind} {sp : Space} {s : Shape} {e : EltTy} {m : Memref sig κ sp s e} (h : m.IsWhole)
    (X : s.Idx → Elt F e) (B : LoadRect s) : View.readAt (Elt F) m.view B (h.unread X) = ld X B :=
  funext (h.readAt_unread X B)

/-- One store through the rectangle of the whole shape leaves the payload, whatever the buffer held. -/
theorem read_writes_whole {κ : Kind} {sp : Space} {s : Shape} {e : EltTy} (v : View sig κ sp s e) (f : v.ty.Contents (Elt F))
    {off : Fin s.rank → ℕ} (inb : ∀ a, off a + s.size a ≤ s.size a)
    (w : (Rect.unit (s := s) off s.size inb).shape.Idx → Elt F e) :
    v.read (Elt F) (v.writes (Elt F) f [(⟨Rect.unit (s := s) off s.size inb, w⟩ : View.Piece (Elt F) s e)]) = w :=
  funext fun y => View.read_writes_cons_unit_of_mem v f inb w [] y y rfl fun a => by have := inb a; omega

/-! ## The body of the first call -/

/-- What the body stores in the output's staging buffer at grid point `i`, as a function of what its six staging buffers hold
    when it starts: the five input blocks `x0 … x4` (the three gathered row slabs, the relation numbers, the projection
    matrices, the relation table, the one-hot matrix) and the running value `old` of the 1x1 output buffer. Each load reads
    its rectangle of the buffer's contents (`ld`); the values computed from them are the generated payloads. -/
def outStep2 (i : grid2.Coords) (x0 : Vec F S3x1024x128 .f32) (x1 : Vec F S1024x1 .i32) (x2 : Vec F S128x1024 .f32)
    (x3 : Vec F S16x64 .f32) (x4 : Vec F S1024x64 .bf16) (old : Vec F S1x1 .f32) : Vec F S1x1 .f32 :=
  let v0 : Vec F S1024x1 .i32 := ld x1 (Rect.unit (s := S1024x1) ![0, 0] S1024x1.size inb_S1024x1_S1024x1_0_0).toLoadRect
  let v2 : Vec F S128x1024 .f32 := ld x2 (Rect.unit (s := S128x1024) ![0, 0] S128x1024.size inb_S128x1024_S128x1024_0_0).toLoadRect
  let v5 : Vec F S1024x64 .bf16 := ld x4 (Rect.unit (s := S1024x64) ![0, 0] S1024x64.size inb_S1024x64_S1024x64_0_0).toLoadRect
  let v34 : Vec F S1x1024x128 .f32 := ld x0 (Rect.unit (s := S3x1024x128) ![0, 0, 0] S1x1024x128.size inb_S3x1024x128_S1x1024x128_0_0_0).toLoadRect
  let v50 : Vec F S1x1024x128 .f32 := ld x0 (Rect.unit (s := S3x1024x128) ![1, 0, 0] S1x1024x128.size inb_S3x1024x128_S1x1024x128_1_0_0).toLoadRect
  let v66 : Vec F S1x1024x128 .f32 := ld x0 (Rect.unit (s := S3x1024x128) ![2, 0, 0] S1x1024x128.size inb_S3x1024x128_S1x1024x128_2_0_0).toLoadRect
  let v87 : Vec F S16x64 .f32 := ld x3 (Rect.unit (s := S16x64) ![0, 0] S16x64.size inb_S16x64_S16x64_0_0).toLoadRect
  let v153 : Vec F S1x1 .f32 := ld old (Rect.unit (s := S1x1) ![0, 0] S1x1.size inb_S1x1_S1x1_0_0).toLoadRect
  let v1 := k2_pay2 v0
  let v4 := k2_pay3 v2
  let v6 := k2_pay4 v5
  let v33 := k2_pay5 v0
  let v40 := k2_pay6 v0 v2 v34
  let v49 := k2_pay7 v6 v40
  let v65 := k2_pay8 v4 v6 v33 v50
  let v81 := k2_pay9 v4 v6 v33 v66
  let v119 := k2_pay11 v1 v49 v65 v81 v87
  let v124 := k2_pay12 v49
  let v128 := k2_pay13 v1 v87
  k2_pay1 (BitVec.ofNat 32 (i 0).val) v65 v81 v119 v124 v128 v153

set_option maxHeartbeats 2000000 in
/-- The body's whole run at any grid point `i`, on any whole staging memrefs: from the six held at contents `x0 … x4`, `acc`
    the body runs to its return with the five inputs' as they were and the output's at `outStep2 i x0 … x4 acc`. -/
theorem bodyRun2 (c : Dev nD) (i : grid2.Coords)
    (arg1 : Memref sig .tc .vmem S3x1024x128 .f32) (harg1 : arg1.IsWhole) (arg2 : Memref sig .tc .vmem S1024x1 .i32) (harg2 : arg2.IsWhole)
    (arg3 : Memref sig .tc .vmem S128x1024 .f32) (harg3 : arg3.IsWhole) (arg4 : Memref sig .tc .vmem S16x64 .f32) (harg4 : arg4.IsWhole)
    (arg5 : Memref sig .tc .vmem S1024x64 .bf16) (harg5 : arg5.IsWhole) (arg6 : Memref sig .tc .vmem S1x1 .f32) (harg6 : arg6.IsWhole)
    (x0 : Vec F S3x1024x128 .f32) (x1 : Vec F S1024x1 .i32) (x2 : Vec F S128x1024 .f32) (x3 : Vec F S16x64 .f32) (x4 : Vec F S1024x64 .bf16)
    (acc : Vec F S1x1 .f32) (E : Set Name) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare acc
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outStep2 i x0 x1 x2 x3 x4 acc)) -∗ K ⟨⟩))
      ⊢ wp frame (wpE (defs₀ (F := F)) Variants.none c none) E (cc2__tc_body i arg1 harg1 arg2 harg2 arg3 harg3 arg4 harg4 arg5 harg5 arg6 harg6) K := by
  simp only [cc2__tc_body_eq_skeleton, k2_part1_eq_skeleton, k2_part2_eq_skeleton, k2_part3_eq_skeleton]
  unfold cc2__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec
  sl_step
  iapply Hk
  isplitl [H0]; · iexists _; isplitr; (· ipureintro; exact harg1.read_unread _); iexact H0
  isplitl [H1]; · iexists _; isplitr; (· ipureintro; exact harg2.read_unread _); iexact H1
  isplitl [H2]; · iexists _; isplitr; (· ipureintro; exact harg3.read_unread _); iexact H2
  isplitl [H3]; · iexists _; isplitr; (· ipureintro; exact harg4.read_unread _); iexact H3
  isplitl [H4]; · iexists _; isplitr; (· ipureintro; exact harg5.read_unread _); iexact H4
  iexists _; isplitr; swap; · iexact H5
  ipureintro
  refine (read_writes_whole _ _ _ _).trans ?_
  sl_unfold_run_names
  simp only [readAt_unread_eq]
  rfl

/-! ## The body of the second call -/

/-- What the body stores in the output's staging buffer at grid point `i`, as a function of what its six staging buffers hold
    when it starts: the five input blocks `x0 … x4` (the three gathered row slabs, the relation numbers, the projection
    matrices, the relation table, the one-hot matrix) and the running value `old` of the 1x1 output buffer. Each load reads
    its rectangle of the buffer's contents (`ld`); the values computed from them are the generated payloads. -/
def outStep3 (i : grid3.Coords) (x0 : Vec F S3x1024x128 .f32) (x1 : Vec F S1024x1 .i32) (x2 : Vec F S128x1024 .f32)
    (x3 : Vec F S16x64 .f32) (x4 : Vec F S1024x64 .bf16) (old : Vec F S1x1 .f32) : Vec F S1x1 .f32 :=
  let v0 : Vec F S1024x1 .i32 := ld x1 (Rect.unit (s := S1024x1) ![0, 0] S1024x1.size inb_S1024x1_S1024x1_0_0).toLoadRect
  let v2 : Vec F S128x1024 .f32 := ld x2 (Rect.unit (s := S128x1024) ![0, 0] S128x1024.size inb_S128x1024_S128x1024_0_0).toLoadRect
  let v5 : Vec F S1024x64 .bf16 := ld x4 (Rect.unit (s := S1024x64) ![0, 0] S1024x64.size inb_S1024x64_S1024x64_0_0).toLoadRect
  let v34 : Vec F S1x1024x128 .f32 := ld x0 (Rect.unit (s := S3x1024x128) ![0, 0, 0] S1x1024x128.size inb_S3x1024x128_S1x1024x128_0_0_0).toLoadRect
  let v50 : Vec F S1x1024x128 .f32 := ld x0 (Rect.unit (s := S3x1024x128) ![1, 0, 0] S1x1024x128.size inb_S3x1024x128_S1x1024x128_1_0_0).toLoadRect
  let v66 : Vec F S1x1024x128 .f32 := ld x0 (Rect.unit (s := S3x1024x128) ![2, 0, 0] S1x1024x128.size inb_S3x1024x128_S1x1024x128_2_0_0).toLoadRect
  let v87 : Vec F S16x64 .f32 := ld x3 (Rect.unit (s := S16x64) ![0, 0] S16x64.size inb_S16x64_S16x64_0_0).toLoadRect
  let v153 : Vec F S1x1 .f32 := ld old (Rect.unit (s := S1x1) ![0, 0] S1x1.size inb_S1x1_S1x1_0_0).toLoadRect
  let v1 := k3_pay2 v0
  let v4 := k3_pay3 v2
  let v6 := k3_pay4 v5
  let v33 := k3_pay5 v0
  let v40 := k3_pay6 v0 v2 v34
  let v49 := k3_pay7 v6 v40
  let v65 := k3_pay8 v4 v6 v33 v50
  let v81 := k3_pay9 v4 v6 v33 v66
  let v119 := k3_pay11 v1 v49 v65 v81 v87
  let v124 := k3_pay12 v49
  let v128 := k3_pay13 v1 v87
  k3_pay1 (BitVec.ofNat 32 (i 0).val) v65 v81 v119 v124 v128 v153

set_option maxHeartbeats 2000000 in
/-- The body's whole run at any grid point `i`, on any whole staging memrefs: from the six held at contents `x0 … x4`, `acc`
    the body runs to its return with the five inputs' as they were and the output's at `outStep3 i x0 … x4 acc`. -/
theorem bodyRun3 (c : Dev nD) (i : grid3.Coords)
    (arg1 : Memref sig .tc .vmem S3x1024x128 .f32) (harg1 : arg1.IsWhole) (arg2 : Memref sig .tc .vmem S1024x1 .i32) (harg2 : arg2.IsWhole)
    (arg3 : Memref sig .tc .vmem S128x1024 .f32) (harg3 : arg3.IsWhole) (arg4 : Memref sig .tc .vmem S16x64 .f32) (harg4 : arg4.IsWhole)
    (arg5 : Memref sig .tc .vmem S1024x64 .bf16) (harg5 : arg5.IsWhole) (arg6 : Memref sig .tc .vmem S1x1 .f32) (harg6 : arg6.IsWhole)
    (x0 : Vec F S3x1024x128 .f32) (x1 : Vec F S1024x1 .i32) (x2 : Vec F S128x1024 .f32) (x3 : Vec F S16x64 .f32) (x4 : Vec F S1024x64 .bf16)
    (acc : Vec F S1x1 .f32) (E : Set Name) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare acc
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outStep3 i x0 x1 x2 x3 x4 acc)) -∗ K ⟨⟩))
      ⊢ wp frame (wpE (defs₀ (F := F)) Variants.none c none) E (cc3__tc_body i arg1 harg1 arg2 harg2 arg3 harg3 arg4 harg4 arg5 harg5 arg6 harg6) K := by
  simp only [cc3__tc_body_eq_skeleton, k3_part1_eq_skeleton, k3_part2_eq_skeleton, k3_part3_eq_skeleton]
  unfold cc3__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec
  sl_step
  iapply Hk
  isplitl [H0]; · iexists _; isplitr; (· ipureintro; exact harg1.read_unread _); iexact H0
  isplitl [H1]; · iexists _; isplitr; (· ipureintro; exact harg2.read_unread _); iexact H1
  isplitl [H2]; · iexists _; isplitr; (· ipureintro; exact harg3.read_unread _); iexact H2
  isplitl [H3]; · iexists _; isplitr; (· ipureintro; exact harg4.read_unread _); iexact H3
  isplitl [H4]; · iexists _; isplitr; (· ipureintro; exact harg5.read_unread _); iexact H4
  iexists _; isplitr; swap; · iexact H5
  ipureintro
  rw [read_writes_whole]
  sl_unfold_run_names
  simp only [readAt_unread_eq]
  rfl

end Cert.Kernel.Tc

end
-- ==== Proof.WTcRegion.lean ====
/-
  The two TensorCore kernel calls of @main as kernel regions, over any machine algebra. Each call runs a grid of 8 points
  over six windows: two inputs fetched block by block, three inputs fetched whole at the first point, and a 1x1 output whose
  staging buffer the body reads back and overwrites at every point and which is written back at the last point only. So
  the output array ends holding the body's step function folded along the grid (`accAt`): at the first point the step does
  not depend on what the buffer held, at a later point it is applied to what the point before left there. The proof data
  say that (each input's buffer at its block, the output's at the running fold), the body obligation follows from the
  whole-body run, and the region records enter from the six arrays held whole at their entry contents and leave with the
  five inputs unchanged and the output at the fold after the last point.
-/
import proofs.«211459_g87136296501727_cont_9to1_m_723_16_alg».proof.Proof.WTcBody
import Idealize.ShloMosaic.Lib.Pipeline.Regions
import Idealize.ShloMosaic.Lib.Pipeline.Frame
import Idealize.ShloMosaic.Lib.Pipeline.FrameBody
import Idealize.ShloMosaic.Lib.Tactic

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- A 1x1 array has one index. -/
instance : Subsingleton S1x1.Idx := ⟨fun x y => funext fun a => by
  have h1 : S1x1.size a = 1 := by fin_cases a <;> rfl
  have hx : (x a).val < 1 := lt_of_lt_of_eq (x a).isLt h1
  have hy : (y a).val < 1 := lt_of_lt_of_eq (y a).isLt h1
  apply Fin.ext; omega⟩

/-! ## Call 0 (`cc2__tc_body`): blocks, the running sum, the proof data -/

/-- Entry contents of the six arrays of call 0, by window: 0 ↦ `main_v13`, 1 ↦ `main_v11`, 2 ↦ `main_v1`, 3 ↦ `main_arg1`, 4 ↦ `main_v10`, 5 ↦ `main_v16`. -/
abbrev Arr2 (c : Dev nD) : Type := (w : Fin 6) → Buf (Elt F) ((c : Thread nD τ).loc (Pipeline.arrRef spec2 w))

/-- Window `w`'s block at point `t`, read off the array's entry contents. -/
def iblk2 (c : Dev nD) (A : Arr2 (F := F) c) (w : Fin cfg2.W) (t : Fin cfg2.N) :
    ((cfg2.win w).xblock (cfg2.grid.coords t)).Idx → Elt F (cfg2.win w).elt :=
  ((cfg2.win w).blk t).view.read (Elt F) (A w)

abbrev ms2_0 (t : Fin cfg2.N) : Memref sig .tc .vmem S3x1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S16x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x64 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)

/-- The grid is one axis of 8 points: a point's coordinate is its position. -/
theorem coords2_val : ∀ t : Fin cfg2.N, ((grid2.coords t) 0).val = t.val :=
  (by decide +kernel : ∀ t : Fin grid2.N, ((grid2.coords t) 0).val = t.val)

/-- At the first grid point the stored value does not depend on what the output buffer held: the body selects the
    point's own share there, not the sum. -/
theorem k2_pay1_first (v65 v81 : FVec F S1024x64 .f32) (v119 : FVec F S1024x1 .f32) (v124 : F .f32) (v128 : FVec F S1x1x1 .f32)
    (v v' : Vec F S1x1 .f32) :
    k2_pay1 (BitVec.ofNat 32 0) v65 v81 v119 v124 v128 v = k2_pay1 (BitVec.ofNat 32 0) v65 v81 v119 v124 v128 v' := by
  unfold k2_pay1
  rfl

theorem outStep2_first (i : grid2.Coords) (hi : (i 0).val = 0) (x0 : Vec F S3x1024x128 .f32) (x1 : Vec F S1024x1 .i32)
    (x2 : Vec F S128x1024 .f32) (x3 : Vec F S16x64 .f32) (x4 : Vec F S1024x64 .bf16) (d d' : Vec F S1x1 .f32) :
    outStep2 i x0 x1 x2 x3 x4 d = outStep2 i x0 x1 x2 x3 x4 d' := by
  unfold outStep2
  dsimp only
  rw [hi]
  exact k2_pay1_first _ _ _ _ _ _ _

/-- The value the first point's result is stated over (any would do: `outStep2_first`). -/
def zero11 : Vec F S1x1 .f32 := fun _ => Scalar.ofBits .f32 0x00000000#32

/-- THE RUNNING SUM: what the output's staging buffer holds after the body at point `n`: `outStep2` at the point's blocks
    over what it held after the point before (the buffer is written back at the last point only). -/
def accAt2 (c : Dev nD) (A : Arr2 (F := F) c) : (n : ℕ) → n < cfg2.N → Vec F S1x1 .f32
  | 0, hn => outStep2 (grid2.coords ⟨0, hn⟩) (iblk2 c A 0 ⟨0, hn⟩) (iblk2 c A 1 ⟨0, hn⟩) (iblk2 c A 2 ⟨0, hn⟩)
      (iblk2 c A 3 ⟨0, hn⟩) (iblk2 c A 4 ⟨0, hn⟩) zero11
  | n + 1, hn => outStep2 (grid2.coords ⟨n + 1, hn⟩) (iblk2 c A 0 ⟨n + 1, hn⟩) (iblk2 c A 1 ⟨n + 1, hn⟩) (iblk2 c A 2 ⟨n + 1, hn⟩)
      (iblk2 c A 3 ⟨n + 1, hn⟩) (iblk2 c A 4 ⟨n + 1, hn⟩) (accAt2 c A n (Nat.lt_of_succ_lt hn))

theorem accAt2_first (c : Dev nD) (A : Arr2 (F := F) c) (t : Fin cfg2.N) (h0 : t.val = 0) (d : Vec F S1x1 .f32) :
    accAt2 c A t.val t.isLt = outStep2 (grid2.coords t) (iblk2 c A 0 t) (iblk2 c A 1 t) (iblk2 c A 2 t) (iblk2 c A 3 t) (iblk2 c A 4 t) d := by
  obtain ⟨n, hn⟩ := t
  cases n with
  | zero => exact outStep2_first _ ((coords2_val _).trans rfl) _ _ _ _ _ _ _
  | succ n => exact absurd h0 (Nat.succ_ne_zero n)

theorem accAt2_later (c : Dev nD) (A : Arr2 (F := F) c) (t : Fin cfg2.N) (h0 : ¬t.val = 0) :
    accAt2 c A t.val t.isLt = outStep2 (grid2.coords t) (iblk2 c A 0 t) (iblk2 c A 1 t) (iblk2 c A 2 t) (iblk2 c A 3 t) (iblk2 c A 4 t)
      (accAt2 c A (t.val - 1) (Nat.lt_of_le_of_lt (Nat.sub_le _ _) t.isLt)) := by
  obtain ⟨n, hn⟩ := t
  cases n with
  | zero => exact absurd rfl h0
  | succ n => rfl

/-- The proof data of call 0 on core `c`, entered at array contents `A`: after the body at point `t` each input's buffer at
    its block and the output's at the running sum; the invariant the scoped buffers the pipeline does not stage; nothing
    owed, the pairs the core's waits have recorded before the call within `B`; full shares. -/
def dat2 (c : Dev nD) (A : Arr2 (F := F) c) (B : Set (SemLoc sig × Ix)) : Dat τ (Elt F) Ix Name U Lvl cfg2 c where
  A w := A w
  after w t := match w with
    | ⟨0, _⟩ => iblk2 c A 0 t
    | ⟨1, _⟩ => iblk2 c A 1 t
    | ⟨2, _⟩ => iblk2 c A 2 t
    | ⟨3, _⟩ => iblk2 c A 3 t
    | ⟨4, _⟩ => iblk2 c A 4 t
    | ⟨5, _⟩ => accAt2 c A t.val t.isLt
  Φ _ := Pipeline.scopedRest (Ix := Ix) (Name := Name) (U := U) (Lvl := Lvl) (Val := Elt F) spec2 c
  q _ := fullShare
  owed _ := 0
  recorded _ := B

section Dat2
variable (c : Dev nD) (A : Arr2 (F := F) c) (B : Set (SemLoc sig × Ix))

theorem A2_eq (w : Fin cfg2.W) : (dat2 (Ix := Ix) (Name := Name) (U := U) (Lvl := Lvl) c A B).A w = A w := by dsimp only [dat2]
theorem after2_0 (t : Fin cfg2.N) : (dat2 (Ix := Ix) (Name := Name) (U := U) (Lvl := Lvl) c A B).after 0 t = iblk2 c A 0 t := by dsimp only [dat2]
theorem after2_1 (t : Fin cfg2.N) : (dat2 (Ix := Ix) (Name := Name) (U := U) (Lvl := Lvl) c A B).after 1 t = iblk2 c A 1 t := by dsimp only [dat2]
theorem after2_2 (t : Fin cfg2.N) : (dat2 (Ix := Ix) (Name := Name) (U := U) (Lvl := Lvl) c A B).after 2 t = iblk2 c A 2 t := by dsimp only [dat2]
theorem after2_3 (t : Fin cfg2.N) : (dat2 (Ix := Ix) (Name := Name) (U := U) (Lvl := Lvl) c A B).after 3 t = iblk2 c A 3 t := by dsimp only [dat2]
theorem after2_4 (t : Fin cfg2.N) : (dat2 (Ix := Ix) (Name := Name) (U := U) (Lvl := Lvl) c A B).after 4 t = iblk2 c A 4 t := by dsimp only [dat2]
theorem after2_5 (t : Fin cfg2.N) : (dat2 (Ix := Ix) (Name := Name) (U := U) (Lvl := Lvl) c A B).after 5 t = accAt2 c A t.val t.isLt := by dsimp only [dat2]

/-- Input window 0's current staging buffer holds its block at every point, fetched there or not. -/
theorem before2_0 (t : Fin cfg2.N) (d) : (dat2 (Ix := Ix) (Name := Name) (U := U) (Lvl := Lvl) c A B).before 0 t d = iblk2 c A 0 t :=
  ((dat2 (Ix := Ix) (Name := Name) (U := U) (Lvl := Lvl) c A B).before_in_eq_fetched 0 rfl (fun _ => rfl) (fun _ _ _ => rfl) (fun t => by rw [after2_0]; unfold Dat.blockOf iblk2; rw [A2_eq]; try rfl) t d).trans
    (by unfold Dat.fetched Dat.blockOf iblk2; rw [A2_eq]; try rfl)
/-- Input window 1's current staging buffer holds its block at every point, fetched there or not. -/
theorem before2_1 (t : Fin cfg2.N) (d) : (dat2 (Ix := Ix) (Name := Name) (U := U) (Lvl := Lvl) c A B).before 1 t d = iblk2 c A 1 t :=
  ((dat2 (Ix := Ix) (Name := Name) (U := U) (Lvl := Lvl) c A B).before_in_eq_fetched 1 rfl (fun _ => rfl) (fun _ _ _ => rfl) (fun t => by rw [after2_1]; unfold Dat.blockOf iblk2; rw [A2_eq]; try rfl) t d).trans
    (by unfold Dat.fetched Dat.blockOf iblk2; rw [A2_eq]; try rfl)
/-- Input window 2's current staging buffer holds its block at every point, fetched there or not. -/
theorem before2_2 (t : Fin cfg2.N) (d) : (dat2 (Ix := Ix) (Name := Name) (U := U) (Lvl := Lvl) c A B).before 2 t d = iblk2 c A 2 t :=
  ((dat2 (Ix := Ix) (Name := Name) (U := U) (Lvl := Lvl) c A B).before_in_eq_fetched 2 rfl (fun _ => rfl) (fun _ _ _ => rfl) (fun t => by rw [after2_2]; unfold Dat.blockOf iblk2; rw [A2_eq]; try rfl) t d).trans
    (by unfold Dat.fetched Dat.blockOf iblk2; rw [A2_eq]; try rfl)
/-- Input window 3's current staging buffer holds its block at every point, fetched there or not. -/
theorem before2_3 (t : Fin cfg2.N) (d) : (dat2 (Ix := Ix) (Name := Name) (U := U) (Lvl := Lvl) c A B).before 3 t d = iblk2 c A 3 t :=
  ((dat2 (Ix := Ix) (Name := Name) (U := U) (Lvl := Lvl) c A B).before_in_eq_fetched 3 rfl (fun _ => rfl) (fun _ _ _ => rfl) (fun t => by rw [after2_3]; unfold Dat.blockOf iblk2; rw [A2_eq]; try rfl) t d).trans
    (by unfold Dat.fetched Dat.blockOf iblk2; rw [A2_eq]; try rfl)
/-- Input window 4's current staging buffer holds its block at every point, fetched there or not. -/
theorem before2_4 (t : Fin cfg2.N) (d) : (dat2 (Ix := Ix) (Name := Name) (U := U) (Lvl := Lvl) c A B).before 4 t d = iblk2 c A 4 t :=
  ((dat2 (Ix := Ix) (Name := Name) (U := U) (Lvl := Lvl) c A B).before_in_eq_fetched 4 rfl (fun _ => rfl) (fun _ _ _ => rfl) (fun t => by rw [after2_4]; unfold Dat.blockOf iblk2; rw [A2_eq]; try rfl) t d).trans
    (by unfold Dat.fetched Dat.blockOf iblk2; rw [A2_eq]; try rfl)

/-- At the first point the output's staging buffer holds whatever it held. -/
theorem before2_5_first (t : Fin cfg2.N) (h0 : t.val = 0) (d) : (dat2 (Ix := Ix) (Name := Name) (U := U) (Lvl := Lvl) c A B).before 5 t d = d :=
  Dat.before_out_reset _ 5 rfl t (.inl h0) d

/-- At a later point it holds what the body left at the point before: it is written back at the last point only. -/
theorem before2_5_later (t : Fin cfg2.N) (h0 : ¬t.val = 0) (d) :
    (dat2 (Ix := Ix) (Name := Name) (U := U) (Lvl := Lvl) c A B).before 5 t d = accAt2 c A (t.val - 1) (Nat.lt_of_le_of_lt (Nat.sub_le _ _) t.isLt) := by
  have hN : t.val < 8 := lt_of_lt_of_eq t.isLt (show cfg2.N = 8 from N_2)
  rw [Dat.before_out_kept _ 5 rfl t h0 (Bool.eq_false_iff.mpr fun h => by have := (flush2_5 _).mp h; dsimp only at this; omega)
    (fun _ => rfl) (fun _ _ => rfl)]
  dsimp only [dat2]

/-- What the body is called with at point `t`, the windows one by one, -/
def bodyPre2 (ι : Ix) (t : Fin cfg2.N) : sProp 𝕄 :=
  iprop((dat2 (Ix := Ix) (Name := Name) (U := U) (Lvl := Lvl) c A B).Φ t.castSucc ∗ (dat2 (Ix := Ix) (Name := Name) (U := U) (Lvl := Lvl) c A B).owesAt ι t.castSucc
    ∗ (∃ d, owns (c : Thread nD τ) (ms2_0 t) fullShare ((dat2 (Ix := Ix) (Name := Name) (U := U) (Lvl := Lvl) c A B).before 0 t d))
    ∗ (∃ d, owns (c : Thread nD τ) (ms2_1 t) fullShare ((dat2 (Ix := Ix) (Name := Name) (U := U) (Lvl := Lvl) c A B).before 1 t d))
    ∗ (∃ d, owns (c : Thread nD τ) (ms2_2 t) fullShare ((dat2 (Ix := Ix) (Name := Name) (U := U) (Lvl := Lvl) c A B).before 2 t d))
    ∗ (∃ d, owns (c : Thread nD τ) (ms2_3 t) fullShare ((dat2 (Ix := Ix) (Name := Name) (U := U) (Lvl := Lvl) c A B).before 3 t d))
    ∗ (∃ d, owns (c : Thread nD τ) (ms2_4 t) fullShare ((dat2 (Ix := Ix) (Name := Name) (U := U) (Lvl := Lvl) c A B).before 4 t d))
    ∗ (∃ d, owns (c : Thread nD τ) (ms2_5 t) fullShare ((dat2 (Ix := Ix) (Name := Name) (U := U) (Lvl := Lvl) c A B).before 5 t d)))

/-- and what it returns. -/
def bodyPost2 (ι : Ix) (t : Fin cfg2.N) : sProp 𝕄 :=
  iprop((dat2 (Ix := Ix) (Name := Name) (U := U) (Lvl := Lvl) c A B).Φ t.succ ∗ (dat2 (Ix := Ix) (Name := Name) (U := U) (Lvl := Lvl) c A B).owesAt ι t.succ
    ∗ owns (c : Thread nD τ) (ms2_0 t) fullShare ((dat2 (Ix := Ix) (Name := Name) (U := U) (Lvl := Lvl) c A B).after 0 t)
    ∗ owns (c : Thread nD τ) (ms2_1 t) fullShare ((dat2 (Ix := Ix) (Name := Name) (U := U) (Lvl := Lvl) c A B).after 1 t)
    ∗ owns (c : Thread nD τ) (ms2_2 t) fullShare ((dat2 (Ix := Ix) (Name := Name) (U := U) (Lvl := Lvl) c A B).after 2 t)
    ∗ owns (c : Thread nD τ) (ms2_3 t) fullShare ((dat2 (Ix := Ix) (Name := Name) (U := U) (Lvl := Lvl) c A B).after 3 t)
    ∗ owns (c : Thread nD τ) (ms2_4 t) fullShare ((dat2 (Ix := Ix) (Name := Name) (U := U) (Lvl := Lvl) c A B).after 4 t)
    ∗ owns (c : Thread nD τ) (ms2_5 t) fullShare ((dat2 (Ix := Ix) (Name := Name) (U := U) (Lvl := Lvl) c A B).after 5 t))

set_option maxHeartbeats 1000000 in
/-- The body at any point: the inputs' buffers hold their blocks, the output's what the point before left (anything at the
    first point, where the result does not depend on it); the whole-body run applies; the invariant passes through unread;
    the core owes nothing throughout. -/
theorem sound_body2 (ι : Ix) (t : Fin cfg2.N) :
    (bodyPre2 (Name := Name) (U := U) (Lvl := Lvl) c A B ι t : sProp 𝕄) ⊢ wp frame (wpE (defs₀ (F := F)) Variants.none c none) Set.univ (bodyAt2 t) (fun _ => (bodyPost2 (Name := Name) (U := U) (Lvl := Lvl) c A B ι t : sProp 𝕄)) := by
  unfold bodyPre2 bodyPost2 bodyAt2
  simp only [before2_0, before2_1, before2_2, before2_3, before2_4]
  rw [show (dat2 (Ix := Ix) (Name := Name) (U := U) (Lvl := Lvl) c A B).Φ t.succ = (dat2 (Ix := Ix) (Name := Name) (U := U) (Lvl := Lvl) c A B).Φ t.castSucc from rfl, show (dat2 (Ix := Ix) (Name := Name) (U := U) (Lvl := Lvl) c A B).owesAt ι t.succ = (dat2 (Ix := Ix) (Name := Name) (U := U) (Lvl := Lvl) c A B).owesAt ι t.castSucc from rfl,
    after2_0, after2_1, after2_2, after2_3, after2_4, after2_5]
  by_cases h0 : t.val = 0
  · simp only [before2_5_first c A B t h0]
    iintro ⟨HΦ, Ho, ⟨%d0, H0⟩, ⟨%d1, H1⟩, ⟨%d2, H2⟩, ⟨%d3, H3⟩, ⟨%d4, H4⟩, ⟨%d5, H5⟩⟩
    rw [accAt2_first c A t h0 d5]
    iapply (bodyRun2 c (grid2.coords t) _ _ _ _ _ _ _ _ _ _ _ _ _ _ _ _ _ d5 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before2_5_later c A B t h0]
    rw [accAt2_later c A t h0]
    iintro ⟨HΦ, Ho, ⟨%d0, H0⟩, ⟨%d1, H1⟩, ⟨%d2, H2⟩, ⟨%d3, H3⟩, ⟨%d4, H4⟩, ⟨%d5, H5⟩⟩
    iapply (bodyRun2 c (grid2.coords t) _ _ _ _ _ _ _ _ _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation2 (ι : Ix) : BodyObligation (dat2 (Ix := Ix) (Name := Name) (U := U) (Lvl := Lvl) c A B) (defs₀ (F := F)) Variants.none ι Set.univ := fun t => by
  rw [bigSep_W2, bigSep_W2]
  exact sound_body2 (Name := Name) (U := U) (Lvl := Lvl) c A B ι t

end Dat2

/-! ### Call 0: what the output array ends holding -/

theorem lt7_2 : 7 < cfg2.N := t2_7.isLt

section Seg2
variable (c : Dev nD) (A : Arr2 (F := F) c) (B : Set (SemLoc sig × Ix))

/-- The output array after the call, as the library computes it (the last point's write-back), is the running sum after
    the last point. -/
theorem arrAt2_5 : (dat2 (Ix := Ix) (Name := Name) (U := U) (Lvl := Lvl) c A B).arrAt 5 cfg2.N = accAt2 c A 7 lt7_2 := by
  refine Dat.arrAt_eq_of_cover (dat2 (Ix := Ix) (Name := Name) (U := U) (Lvl := Lvl) c A B) 5 (accAt2 c A 7 lt7_2) (fun t hf => ?_)
    (fun i => ⟨t2_7, (flush2_5 t2_7).mpr rfl, ?_⟩)
  · have hN : t.val < 8 := lt_of_lt_of_eq t.isLt (show cfg2.N = 8 from N_2)
    have h7 : t.val = 7 := by have := (flush2_5 t).mp hf; omega
    obtain rfl : t = t2_7 := Fin.ext h7
    funext y
    rw [View.read_apply, cast_eq]
    exact congrArg (accAt2 c A 7 lt7_2) (Subsingleton.elim _ _)
  · have x : S1x1.Idx := fun a => ⟨0, by have : S1x1.size a = 1 := by fin_cases a <;> rfl
                                         omega⟩
    have := ((cfg2.win 5).blk t2_7).view.emb_mem_set x
    rwa [show i = ((cfg2.win 5).blk t2_7).view.emb x from @Subsingleton.elim S1x1.Idx _ _ _]

end Seg2

/-- The six arrays' contents after call 0: the inputs as entered, the output at the running sum after the last point. -/
def out2 (c : Dev nD) (A : Arr2 (F := F) c) : Arr2 (F := F) c := fun w => match w with
  | ⟨0, _⟩ => A 0
  | ⟨1, _⟩ => A 1
  | ⟨2, _⟩ => A 2
  | ⟨3, _⟩ => A 3
  | ⟨4, _⟩ => A 4
  | ⟨5, _⟩ => accAt2 c A 7 lt7_2

theorem out2_0 (c : Dev nD) (A : Arr2 (F := F) c) : out2 c A 0 = A 0 := rfl
theorem out2_1 (c : Dev nD) (A : Arr2 (F := F) c) : out2 c A 1 = A 1 := rfl
theorem out2_2 (c : Dev nD) (A : Arr2 (F := F) c) : out2 c A 2 = A 2 := rfl
theorem out2_3 (c : Dev nD) (A : Arr2 (F := F) c) : out2 c A 3 = A 3 := rfl
theorem out2_4 (c : Dev nD) (A : Arr2 (F := F) c) : out2 c A 4 = A 4 := rfl
theorem out2_5 (c : Dev nD) (A : Arr2 (F := F) c) : out2 c A 5 = accAt2 c A 7 lt7_2 := rfl

/-- The thread state call 0 is entered from and the one it leaves: its six arrays whole at the full share at contents `A`,
    and the core owing nothing with its recorded pairs within `B`. (Entered at the entry contents and `B`; left at `out2` of
    them and `B` with the staging semaphores' pairs at index `ι`.) -/
def held2 (c : Dev nD) (A : Arr2 (F := F) c) (B : Set (SemLoc sig × Ix)) : sProp 𝕄 :=
  iprop((((c : Thread nD τ).loc main_v13) ↦{fullShare} A 0) ∗ (((c : Thread nD τ).loc main_v11) ↦{fullShare} A 1)
    ∗ (((c : Thread nD τ).loc main_v1) ↦{fullShare} A 2) ∗ (((c : Thread nD τ).loc main_arg1) ↦{fullShare} A 3)
    ∗ (((c : Thread nD τ).loc main_v10) ↦{fullShare} A 4) ∗ (((c : Thread nD τ).loc main_v16) ↦{fullShare} A 5)
    ∗ Pipeline.owesWithin c (0 : CellTallies nD τ sig Ix) B)

/-! ## Call 1 (`cc3__tc_body`): blocks, the running sum, the proof data -/

/-- Entry contents of the six arrays of call 1, by window: 0 ↦ `main_v15`, 1 ↦ `main_v11`, 2 ↦ `main_v1`, 3 ↦ `main_arg1`, 4 ↦ `main_v10`, 5 ↦ `main_v17`. -/
abbrev Arr3 (c : Dev nD) : Type := (w : Fin 6) → Buf (Elt F) ((c : Thread nD τ).loc (Pipeline.arrRef spec3 w))

/-- Window `w`'s block at point `t`, read off the array's entry contents. -/
def iblk3 (c : Dev nD) (A : Arr3 (F := F) c) (w : Fin cfg3.W) (t : Fin cfg3.N) :
    ((cfg3.win w).xblock (cfg3.grid.coords t)).Idx → Elt F (cfg3.win w).elt :=
  ((cfg3.win w).blk t).view.read (Elt F) (A w)

abbrev ms3_0 (t : Fin cfg3.N) : Memref sig .tc .vmem S3x1024x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S16x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x64 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1 .f32 := win3_5.stage (cfg3.slots t 5)
abbrev hs3_5 (t : Fin cfg3.N) : (ms3_5 t).IsWhole := hstage3_5 ((cfg3.slots t 5).cast nbuf3_5)

/-- The grid is one axis of 8 points: a point's coordinate is its position. -/
theorem coords3_val : ∀ t : Fin cfg3.N, ((grid3.coords t) 0).val = t.val :=
  (by decide +kernel : ∀ t : Fin grid3.N, ((grid3.coords t) 0).val = t.val)

/-- At the first grid point the stored value does not depend on what the output buffer held: the body selects the
    point's own share there, not the sum. -/
theorem k3_pay1_first (v65 v81 : FVec F S1024x64 .f32) (v119 : FVec F S1024x1 .f32) (v124 : F .f32) (v128 : FVec F S1x1x1 .f32)
    (v v' : Vec F S1x1 .f32) :
    k3_pay1 (BitVec.ofNat 32 0) v65 v81 v119 v124 v128 v = k3_pay1 (BitVec.ofNat 32 0) v65 v81 v119 v124 v128 v' := by
  unfold k3_pay1
  rfl

theorem outStep3_first (i : grid3.Coords) (hi : (i 0).val = 0) (x0 : Vec F S3x1024x128 .f32) (x1 : Vec F S1024x1 .i32)
    (x2 : Vec F S128x1024 .f32) (x3 : Vec F S16x64 .f32) (x4 : Vec F S1024x64 .bf16) (d d' : Vec F S1x1 .f32) :
    outStep3 i x0 x1 x2 x3 x4 d = outStep3 i x0 x1 x2 x3 x4 d' := by
  unfold outStep3
  dsimp only
  rw [hi]
  exact k3_pay1_first _ _ _ _ _ _ _

/-- THE RUNNING SUM: what the output's staging buffer holds after the body at point `n`: `outStep3` at the point's blocks
    over what it held after the point before (the buffer is written back at the last point only). -/
def accAt3 (c : Dev nD) (A : Arr3 (F := F) c) : (n : ℕ) → n < cfg3.N → Vec F S1x1 .f32
  | 0, hn => outStep3 (grid3.coords ⟨0, hn⟩) (iblk3 c A 0 ⟨0, hn⟩) (iblk3 c A 1 ⟨0, hn⟩) (iblk3 c A 2 ⟨0, hn⟩)
      (iblk3 c A 3 ⟨0, hn⟩) (iblk3 c A 4 ⟨0, hn⟩) zero11
  | n + 1, hn => outStep3 (grid3.coords ⟨n + 1, hn⟩) (iblk3 c A 0 ⟨n + 1, hn⟩) (iblk3 c A 1 ⟨n + 1, hn⟩) (iblk3 c A 2 ⟨n + 1, hn⟩)
      (iblk3 c A 3 ⟨n + 1, hn⟩) (iblk3 c A 4 ⟨n + 1, hn⟩) (accAt3 c A n (Nat.lt_of_succ_lt hn))

theorem accAt3_first (c : Dev nD) (A : Arr3 (F := F) c) (t : Fin cfg3.N) (h0 : t.val = 0) (d : Vec F S1x1 .f32) :
    accAt3 c A t.val t.isLt = outStep3 (grid3.coords t) (iblk3 c A 0 t) (iblk3 c A 1 t) (iblk3 c A 2 t) (iblk3 c A 3 t) (iblk3 c A 4 t) d := by
  obtain ⟨n, hn⟩ := t
  cases n with
  | zero => exact outStep3_first _ ((coords3_val _).trans rfl) _ _ _ _ _ _ _
  | succ n => exact absurd h0 (Nat.succ_ne_zero n)

theorem accAt3_later (c : Dev nD) (A : Arr3 (F := F) c) (t : Fin cfg3.N) (h0 : ¬t.val = 0) :
    accAt3 c A t.val t.isLt = outStep3 (grid3.coords t) (iblk3 c A 0 t) (iblk3 c A 1 t) (iblk3 c A 2 t) (iblk3 c A 3 t) (iblk3 c A 4 t)
      (accAt3 c A (t.val - 1) (Nat.lt_of_le_of_lt (Nat.sub_le _ _) t.isLt)) := by
  obtain ⟨n, hn⟩ := t
  cases n with
  | zero => exact absurd rfl h0
  | succ n => rfl

/-- The proof data of call 1 on core `c`, entered at array contents `A`: after the body at point `t` each input's buffer at
    its block and the output's at the running sum; the invariant the scoped buffers the pipeline does not stage; nothing
    owed, the pairs the core's waits have recorded before the call within `B`; full shares. -/
def dat3 (c : Dev nD) (A : Arr3 (F := F) c) (B : Set (SemLoc sig × Ix)) : Dat τ (Elt F) Ix Name U Lvl cfg3 c where
  A w := A w
  after w t := match w with
    | ⟨0, _⟩ => iblk3 c A 0 t
    | ⟨1, _⟩ => iblk3 c A 1 t
    | ⟨2, _⟩ => iblk3 c A 2 t
    | ⟨3, _⟩ => iblk3 c A 3 t
    | ⟨4, _⟩ => iblk3 c A 4 t
    | ⟨5, _⟩ => accAt3 c A t.val t.isLt
  Φ _ := Pipeline.scopedRest (Ix := Ix) (Name := Name) (U := U) (Lvl := Lvl) (Val := Elt F) spec3 c
  q _ := fullShare
  owed _ := 0
  recorded _ := B

section Dat3
variable (c : Dev nD) (A : Arr3 (F := F) c) (B : Set (SemLoc sig × Ix))

theorem A3_eq (w : Fin cfg3.W) : (dat3 (Ix := Ix) (Name := Name) (U := U) (Lvl := Lvl) c A B).A w = A w := by dsimp only [dat3]
theorem after3_0 (t : Fin cfg3.N) : (dat3 (Ix := Ix) (Name := Name) (U := U) (Lvl := Lvl) c A B).after 0 t = iblk3 c A 0 t := by dsimp only [dat3]
theorem after3_1 (t : Fin cfg3.N) : (dat3 (Ix := Ix) (Name := Name) (U := U) (Lvl := Lvl) c A B).after 1 t = iblk3 c A 1 t := by dsimp only [dat3]
theorem after3_2 (t : Fin cfg3.N) : (dat3 (Ix := Ix) (Name := Name) (U := U) (Lvl := Lvl) c A B).after 2 t = iblk3 c A 2 t := by dsimp only [dat3]
theorem after3_3 (t : Fin cfg3.N) : (dat3 (Ix := Ix) (Name := Name) (U := U) (Lvl := Lvl) c A B).after 3 t = iblk3 c A 3 t := by dsimp only [dat3]
theorem after3_4 (t : Fin cfg3.N) : (dat3 (Ix := Ix) (Name := Name) (U := U) (Lvl := Lvl) c A B).after 4 t = iblk3 c A 4 t := by dsimp only [dat3]
theorem after3_5 (t : Fin cfg3.N) : (dat3 (Ix := Ix) (Name := Name) (U := U) (Lvl := Lvl) c A B).after 5 t = accAt3 c A t.val t.isLt := by dsimp only [dat3]

/-- Input window 0's current staging buffer holds its block at every point, fetched there or not. -/
theorem before3_0 (t : Fin cfg3.N) (d) : (dat3 (Ix := Ix) (Name := Name) (U := U) (Lvl := Lvl) c A B).before 0 t d = iblk3 c A 0 t :=
  ((dat3 (Ix := Ix) (Name := Name) (U := U) (Lvl := Lvl) c A B).before_in_eq_fetched 0 rfl (fun _ => rfl) (fun _ _ _ => rfl) (fun t => by rw [after3_0]; unfold Dat.blockOf iblk3; rw [A3_eq]; try rfl) t d).trans
    (by unfold Dat.fetched Dat.blockOf iblk3; rw [A3_eq]; try rfl)
/-- Input window 1's current staging buffer holds its block at every point, fetched there or not. -/
theorem before3_1 (t : Fin cfg3.N) (d) : (dat3 (Ix := Ix) (Name := Name) (U := U) (Lvl := Lvl) c A B).before 1 t d = iblk3 c A 1 t :=
  ((dat3 (Ix := Ix) (Name := Name) (U := U) (Lvl := Lvl) c A B).before_in_eq_fetched 1 rfl (fun _ => rfl) (fun _ _ _ => rfl) (fun t => by rw [after3_1]; unfold Dat.blockOf iblk3; rw [A3_eq]; try rfl) t d).trans
    (by unfold Dat.fetched Dat.blockOf iblk3; rw [A3_eq]; try rfl)
/-- Input window 2's current staging buffer holds its block at every point, fetched there or not. -/
theorem before3_2 (t : Fin cfg3.N) (d) : (dat3 (Ix := Ix) (Name := Name) (U := U) (Lvl := Lvl) c A B).before 2 t d = iblk3 c A 2 t :=
  ((dat3 (Ix := Ix) (Name := Name) (U := U) (Lvl := Lvl) c A B).before_in_eq_fetched 2 rfl (fun _ => rfl) (fun _ _ _ => rfl) (fun t => by rw [after3_2]; unfold Dat.blockOf iblk3; rw [A3_eq]; try rfl) t d).trans
    (by unfold Dat.fetched Dat.blockOf iblk3; rw [A3_eq]; try rfl)
/-- Input window 3's current staging buffer holds its block at every point, fetched there or not. -/
theorem before3_3 (t : Fin cfg3.N) (d) : (dat3 (Ix := Ix) (Name := Name) (U := U) (Lvl := Lvl) c A B).before 3 t d = iblk3 c A 3 t :=
  ((dat3 (Ix := Ix) (Name := Name) (U := U) (Lvl := Lvl) c A B).before_in_eq_fetched 3 rfl (fun _ => rfl) (fun _ _ _ => rfl) (fun t => by rw [after3_3]; unfold Dat.blockOf iblk3; rw [A3_eq]; try rfl) t d).trans
    (by unfold Dat.fetched Dat.blockOf iblk3; rw [A3_eq]; try rfl)
/-- Input window 4's current staging buffer holds its block at every point, fetched there or not. -/
theorem before3_4 (t : Fin cfg3.N) (d) : (dat3 (Ix := Ix) (Name := Name) (U := U) (Lvl := Lvl) c A B).before 4 t d = iblk3 c A 4 t :=
  ((dat3 (Ix := Ix) (Name := Name) (U := U) (Lvl := Lvl) c A B).before_in_eq_fetched 4 rfl (fun _ => rfl) (fun _ _ _ => rfl) (fun t => by rw [after3_4]; unfold Dat.blockOf iblk3; rw [A3_eq]; try rfl) t d).trans
    (by unfold Dat.fetched Dat.blockOf iblk3; rw [A3_eq]; try rfl)

/-- At the first point the output's staging buffer holds whatever it held. -/
theorem before3_5_first (t : Fin cfg3.N) (h0 : t.val = 0) (d) : (dat3 (Ix := Ix) (Name := Name) (U := U) (Lvl := Lvl) c A B).before 5 t d = d :=
  Dat.before_out_reset _ 5 rfl t (.inl h0) d

/-- At a later point it holds what the body left at the point before: it is written back at the last point only. -/
theorem before3_5_later (t : Fin cfg3.N) (h0 : ¬t.val = 0) (d) :
    (dat3 (Ix := Ix) (Name := Name) (U := U) (Lvl := Lvl) c A B).before 5 t d = accAt3 c A (t.val - 1) (Nat.lt_of_le_of_lt (Nat.sub_le _ _) t.isLt) := by
  have hN : t.val < 8 := lt_of_lt_of_eq t.isLt (show cfg3.N = 8 from N_3)
  rw [Dat.before_out_kept _ 5 rfl t h0 (Bool.eq_false_iff.mpr fun h => by have := (flush3_5 _).mp h; dsimp only at this; omega)
    (fun _ => rfl) (fun _ _ => rfl)]
  dsimp only [dat3]

/-- What the body is called with at point `t`, the windows one by one, -/
def bodyPre3 (ι : Ix) (t : Fin cfg3.N) : sProp 𝕄 :=
  iprop((dat3 (Ix := Ix) (Name := Name) (U := U) (Lvl := Lvl) c A B).Φ t.castSucc ∗ (dat3 (Ix := Ix) (Name := Name) (U := U) (Lvl := Lvl) c A B).owesAt ι t.castSucc
    ∗ (∃ d, owns (c : Thread nD τ) (ms3_0 t) fullShare ((dat3 (Ix := Ix) (Name := Name) (U := U) (Lvl := Lvl) c A B).before 0 t d))
    ∗ (∃ d, owns (c : Thread nD τ) (ms3_1 t) fullShare ((dat3 (Ix := Ix) (Name := Name) (U := U) (Lvl := Lvl) c A B).before 1 t d))
    ∗ (∃ d, owns (c : Thread nD τ) (ms3_2 t) fullShare ((dat3 (Ix := Ix) (Name := Name) (U := U) (Lvl := Lvl) c A B).before 2 t d))
    ∗ (∃ d, owns (c : Thread nD τ) (ms3_3 t) fullShare ((dat3 (Ix := Ix) (Name := Name) (U := U) (Lvl := Lvl) c A B).before 3 t d))
    ∗ (∃ d, owns (c : Thread nD τ) (ms3_4 t) fullShare ((dat3 (Ix := Ix) (Name := Name) (U := U) (Lvl := Lvl) c A B).before 4 t d))
    ∗ (∃ d, owns (c : Thread nD τ) (ms3_5 t) fullShare ((dat3 (Ix := Ix) (Name := Name) (U := U) (Lvl := Lvl) c A B).before 5 t d)))

/-- and what it returns. -/
def bodyPost3 (ι : Ix) (t : Fin cfg3.N) : sProp 𝕄 :=
  iprop((dat3 (Ix := Ix) (Name := Name) (U := U) (Lvl := Lvl) c A B).Φ t.succ ∗ (dat3 (Ix := Ix) (Name := Name) (U := U) (Lvl := Lvl) c A B).owesAt ι t.succ
    ∗ owns (c : Thread nD τ) (ms3_0 t) fullShare ((dat3 (Ix := Ix) (Name := Name) (U := U) (Lvl := Lvl) c A B).after 0 t)
    ∗ owns (c : Thread nD τ) (ms3_1 t) fullShare ((dat3 (Ix := Ix) (Name := Name) (U := U) (Lvl := Lvl) c A B).after 1 t)
    ∗ owns (c : Thread nD τ) (ms3_2 t) fullShare ((dat3 (Ix := Ix) (Name := Name) (U := U) (Lvl := Lvl) c A B).after 2 t)
    ∗ owns (c : Thread nD τ) (ms3_3 t) fullShare ((dat3 (Ix := Ix) (Name := Name) (U := U) (Lvl := Lvl) c A B).after 3 t)
    ∗ owns (c : Thread nD τ) (ms3_4 t) fullShare ((dat3 (Ix := Ix) (Name := Name) (U := U) (Lvl := Lvl) c A B).after 4 t)
    ∗ owns (c : Thread nD τ) (ms3_5 t) fullShare ((dat3 (Ix := Ix) (Name := Name) (U := U) (Lvl := Lvl) c A B).after 5 t))

set_option maxHeartbeats 1000000 in
/-- The body at any point: the inputs' buffers hold their blocks, the output's what the point before left (anything at the
    first point, where the result does not depend on it); the whole-body run applies; the invariant passes through unread;
    the core owes nothing throughout. -/
theorem sound_body3 (ι : Ix) (t : Fin cfg3.N) :
    (bodyPre3 (Name := Name) (U := U) (Lvl := Lvl) c A B ι t : sProp 𝕄) ⊢ wp frame (wpE (defs₀ (F := F)) Variants.none c none) Set.univ (bodyAt3 t) (fun _ => (bodyPost3 (Name := Name) (U := U) (Lvl := Lvl) c A B ι t : sProp 𝕄)) := by
  unfold bodyPre3 bodyPost3 bodyAt3
  simp only [before3_0, before3_1, before3_2, before3_3, before3_4]
  rw [show (dat3 (Ix := Ix) (Name := Name) (U := U) (Lvl := Lvl) c A B).Φ t.succ = (dat3 (Ix := Ix) (Name := Name) (U := U) (Lvl := Lvl) c A B).Φ t.castSucc from rfl, show (dat3 (Ix := Ix) (Name := Name) (U := U) (Lvl := Lvl) c A B).owesAt ι t.succ = (dat3 (Ix := Ix) (Name := Name) (U := U) (Lvl := Lvl) c A B).owesAt ι t.castSucc from rfl,
    after3_0, after3_1, after3_2, after3_3, after3_4, after3_5]
  by_cases h0 : t.val = 0
  · simp only [before3_5_first c A B t h0]
    iintro ⟨HΦ, Ho, ⟨%d0, H0⟩, ⟨%d1, H1⟩, ⟨%d2, H2⟩, ⟨%d3, H3⟩, ⟨%d4, H4⟩, ⟨%d5, H5⟩⟩
    rw [accAt3_first c A t h0 d5]
    iapply (bodyRun3 c (grid3.coords t) _ _ _ _ _ _ _ _ _ _ _ _ _ _ _ _ _ d5 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before3_5_later c A B t h0]
    rw [accAt3_later c A t h0]
    iintro ⟨HΦ, Ho, ⟨%d0, H0⟩, ⟨%d1, H1⟩, ⟨%d2, H2⟩, ⟨%d3, H3⟩, ⟨%d4, H4⟩, ⟨%d5, H5⟩⟩
    iapply (bodyRun3 c (grid3.coords t) _ _ _ _ _ _ _ _ _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation3 (ι : Ix) : BodyObligation (dat3 (Ix := Ix) (Name := Name) (U := U) (Lvl := Lvl) c A B) (defs₀ (F := F)) Variants.none ι Set.univ := fun t => by
  rw [bigSep_W3, bigSep_W3]
  exact sound_body3 (Name := Name) (U := U) (Lvl := Lvl) c A B ι t

end Dat3

/-! ### Call 1: what the output array ends holding -/

theorem lt7_3 : 7 < cfg3.N := t3_7.isLt

section Seg3
variable (c : Dev nD) (A : Arr3 (F := F) c) (B : Set (SemLoc sig × Ix))

/-- The output array after the call, as the library computes it (the last point's write-back), is the running sum after
    the last point. -/
theorem arrAt3_5 : (dat3 (Ix := Ix) (Name := Name) (U := U) (Lvl := Lvl) c A B).arrAt 5 cfg3.N = accAt3 c A 7 lt7_3 := by
  refine Dat.arrAt_eq_of_cover (dat3 (Ix := Ix) (Name := Name) (U := U) (Lvl := Lvl) c A B) 5 (accAt3 c A 7 lt7_3) (fun t hf => ?_)
    (fun i => ⟨t3_7, (flush3_5 t3_7).mpr rfl, ?_⟩)
  · have hN : t.val < 8 := lt_of_lt_of_eq t.isLt (show cfg3.N = 8 from N_3)
    have h7 : t.val = 7 := by have := (flush3_5 t).mp hf; omega
    obtain rfl : t = t3_7 := Fin.ext h7
    funext y
    rw [View.read_apply, cast_eq]
    exact congrArg (accAt3 c A 7 lt7_3) (Subsingleton.elim _ _)
  · have x : S1x1.Idx := fun a => ⟨0, by have : S1x1.size a = 1 := by fin_cases a <;> rfl
                                         omega⟩
    have := ((cfg3.win 5).blk t3_7).view.emb_mem_set x
    rwa [show i = ((cfg3.win 5).blk t3_7).view.emb x from @Subsingleton.elim S1x1.Idx _ _ _]

end Seg3

/-- The six arrays' contents after call 1: the inputs as entered, the output at the running sum after the last point. -/
def out3 (c : Dev nD) (A : Arr3 (F := F) c) : Arr3 (F := F) c := fun w => match w with
  | ⟨0, _⟩ => A 0
  | ⟨1, _⟩ => A 1
  | ⟨2, _⟩ => A 2
  | ⟨3, _⟩ => A 3
  | ⟨4, _⟩ => A 4
  | ⟨5, _⟩ => accAt3 c A 7 lt7_3

theorem out3_0 (c : Dev nD) (A : Arr3 (F := F) c) : out3 c A 0 = A 0 := rfl
theorem out3_1 (c : Dev nD) (A : Arr3 (F := F) c) : out3 c A 1 = A 1 := rfl
theorem out3_2 (c : Dev nD) (A : Arr3 (F := F) c) : out3 c A 2 = A 2 := rfl
theorem out3_3 (c : Dev nD) (A : Arr3 (F := F) c) : out3 c A 3 = A 3 := rfl
theorem out3_4 (c : Dev nD) (A : Arr3 (F := F) c) : out3 c A 4 = A 4 := rfl
theorem out3_5 (c : Dev nD) (A : Arr3 (F := F) c) : out3 c A 5 = accAt3 c A 7 lt7_3 := rfl

/-- The thread state call 1 is entered from and the one it leaves: its six arrays whole at the full share at contents `A`,
    and the core owing nothing with its recorded pairs within `B`. (Entered at the entry contents and `B`; left at `out3` of
    them and `B` with the staging semaphores' pairs at index `ι`.) -/
def held3 (c : Dev nD) (A : Arr3 (F := F) c) (B : Set (SemLoc sig × Ix)) : sProp 𝕄 :=
  iprop((((c : Thread nD τ).loc main_v15) ↦{fullShare} A 0) ∗ (((c : Thread nD τ).loc main_v11) ↦{fullShare} A 1)
    ∗ (((c : Thread nD τ).loc main_v1) ↦{fullShare} A 2) ∗ (((c : Thread nD τ).loc main_arg1) ↦{fullShare} A 3)
    ∗ (((c : Thread nD τ).loc main_v10) ↦{fullShare} A 4) ∗ (((c : Thread nD τ).loc main_v17) ↦{fullShare} A 5)
    ∗ Pipeline.owesWithin c (0 : CellTallies nD τ sig Ix) B)

/-- No call has a prefetched table: the admissible tables are the empty ones. -/
abbrev adm : (p : Fin 2) → (pcfgs (F := F) p).Adm := fun p => Pipeline.Cfg.toPCfg_adm (cfgs p)

/-- The proof data of the two calls, by the pipeline's index: call 0 entered at `A0` with recorded pairs within `B0`, call 1
    at `A1` within `B1`. -/
def dats (A0 : (c : Dev nD) → Arr2 (F := F) c) (A1 : (c : Dev nD) → Arr3 (F := F) c) (B0 B1 : Set (SemLoc sig × Ix)) :
    (p : Fin 2) → (c : Dev nD) → Dat τ (Elt F) Ix Name U Lvl (Pipeline.pin (pcfgs (F := F)) adm p) c
  | ⟨0, _⟩ => fun c => dat2 c (A0 c) B0
  | ⟨1, _⟩ => fun c => dat3 c (A1 c) B1

section Regions
variable (A0 : (c : Dev nD) → Arr2 (F := F) c) (A1 : (c : Dev nD) → Arr3 (F := F) c) (B0 B1 : Set (SemLoc sig × Ix))
  (ι : Ix) (L : GSem nD τ sig → Finset Ix) (lv : GSem nD τ sig → Ix → Lvl)

set_option backward.isDefEq.respectTransparency.types false in
/-- CALL 0 AS A REGION of @main: entered from `held2` at the entry contents, left at `held2` at `out2` of them; nothing
    enters the pipeline's invariant but the scoped buffers it does not stage, nothing bypasses the region, the kernel has no
    semaphore of its own. -/
def region2 : Pipeline.RegionSeg (pcfgs (F := F)) adm (dats (Name := Name) (U := U) (Lvl := Lvl) A0 A1 B0 B1) ι defs₀ Variants.none L lv 0 where
  win := launch2.win.to₀
  block_pos := launch2.block_pos
  stage_whole := launch2.stage_whole
  K := PEmpty
  osem k := k.elim
  ho := Pipeline.OwnSemFacts.none _
  hbody c := (body_obligation2 c (A0 c) B0 ι).loose
  hwaits := Pipeline.hwaits_of_owed_zero _ _ _ _ L lv 0 fun _ _ => rfl
  pre c := held2 c (A0 c) B0
  post c := held2 c (out2 c (A0 c)) (B0 ∪ cfg2.waitPairs ι)
  X _ := BI.emp
  Y _ := BI.emp
  Z _ := BI.emp
  hentry c := by
    rw [Pipeline.ownSems0_none, Pipeline.arrays_eq (Pipeline.pin (pcfgs (F := F)) adm) (dats (Name := Name) (U := U) (Lvl := Lvl) A0 A1 B0 B1) 0 c launch2.arr_whole
      (((dats (Name := Name) (U := U) (Lvl := Lvl) A0 A1 B0 B1) 0 c).share_full fun _ => rfl), bigSep_W2]
    unfold held2
    iintro ⟨⟨H0, H1, H2, H3, H4, H5, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · unfold Pipeline.prefHeld; rw [show (Finset.univ : Finset (Fin 0)) = ∅ from rfl, BI.bigSep_empty]; iempintro
    isplitl [HO]
    · iapply (Pipeline.owesWithin_mono c _ (Set.subset_union_left))
      iexact HO
    isplitr <;> iempintro
  hin c := by
    rw [show ((dats (Name := Name) (U := U) (Lvl := Lvl) A0 A1 B0 B1) 0 c).Φ 0 = (Pipeline.scopedRest (Ix := Ix) (Name := Name) (U := U) (Lvl := Lvl) (Val := Elt F) spec2 c) from rfl]
    iintro ⟨-, -, Hr⟩; iexact Hr
  hout c := by
    rw [Pipeline.ownSems0_none, show ((dats (Name := Name) (U := U) (Lvl := Lvl) A0 A1 B0 B1) 0 c).Φ (Fin.last _) = (Pipeline.scopedRest (Ix := Ix) (Name := Name) (U := U) (Lvl := Lvl) (Val := Elt F) spec2 c) from rfl]
    iintro Hr
    isplitr; · iempintro
    isplitr; · iempintro
    iexact Hr
  hexit c := by
    have hF : (fun w => ((dats (Name := Name) (U := U) (Lvl := Lvl) A0 A1 B0 B1) 0 c).arrAt w (Pipeline.pin (pcfgs (F := F)) adm 0).N) = out2 c (A0 c) := funext fun
      | ⟨0, _⟩ => ((dats (Name := Name) (U := U) (Lvl := Lvl) A0 A1 B0 B1) 0 c).arrAt_in 0 rfl _
      | ⟨1, _⟩ => ((dats (Name := Name) (U := U) (Lvl := Lvl) A0 A1 B0 B1) 0 c).arrAt_in 1 rfl _
      | ⟨2, _⟩ => ((dats (Name := Name) (U := U) (Lvl := Lvl) A0 A1 B0 B1) 0 c).arrAt_in 2 rfl _
      | ⟨3, _⟩ => ((dats (Name := Name) (U := U) (Lvl := Lvl) A0 A1 B0 B1) 0 c).arrAt_in 3 rfl _
      | ⟨4, _⟩ => ((dats (Name := Name) (U := U) (Lvl := Lvl) A0 A1 B0 B1) 0 c).arrAt_in 4 rfl _
      | ⟨5, _⟩ => arrAt2_5 c (A0 c) B0
    rw [hF, Pipeline.arrays_eq (Pipeline.pin (pcfgs (F := F)) adm) (dats (Name := Name) (U := U) (Lvl := Lvl) A0 A1 B0 B1) 0 c launch2.arr_whole
      (((dats (Name := Name) (U := U) (Lvl := Lvl) A0 A1 B0 B1) 0 c).share_full fun _ => rfl), bigSep_W2]
    unfold held2
    iintro ⟨⟨H0, H1, H2, H3, H4, H5⟩, HO, -, -⟩
    imodintro
    isplitl [H0]; · iexact H0
    isplitl [H1]; · iexact H1
    isplitl [H2]; · iexact H2
    isplitl [H3]; · iexact H3
    isplitl [H4]; · iexact H4
    isplitl [H5]; · iexact H5
    iexact HO

theorem region2_pre_eq (c : Dev nD) :
    (region2 (Name := Name) (U := U) (Lvl := Lvl) A0 A1 B0 B1 ι L lv).pre c = held2 c (A0 c) B0 := rfl
theorem region2_post_eq (c : Dev nD) :
    (region2 (Name := Name) (U := U) (Lvl := Lvl) A0 A1 B0 B1 ι L lv).post c = held2 c (out2 c (A0 c)) (B0 ∪ cfg2.waitPairs ι) := rfl

set_option backward.isDefEq.respectTransparency.types false in
/-- CALL 1 AS A REGION of @main: entered from `held3` at the entry contents, left at `held3` at `out3` of them; nothing
    enters the pipeline's invariant but the scoped buffers it does not stage, nothing bypasses the region, the kernel has no
    semaphore of its own. -/
def region3 : Pipeline.RegionSeg (pcfgs (F := F)) adm (dats (Name := Name) (U := U) (Lvl := Lvl) A0 A1 B0 B1) ι defs₀ Variants.none L lv 1 where
  win := launch3.win.to₀
  block_pos := launch3.block_pos
  stage_whole := launch3.stage_whole
  K := PEmpty
  osem k := k.elim
  ho := Pipeline.OwnSemFacts.none _
  hbody c := (body_obligation3 c (A1 c) B1 ι).loose
  hwaits := Pipeline.hwaits_of_owed_zero _ _ _ _ L lv 1 fun _ _ => rfl
  pre c := held3 c (A1 c) B1
  post c := held3 c (out3 c (A1 c)) (B1 ∪ cfg3.waitPairs ι)
  X _ := BI.emp
  Y _ := BI.emp
  Z _ := BI.emp
  hentry c := by
    rw [Pipeline.ownSems0_none, Pipeline.arrays_eq (Pipeline.pin (pcfgs (F := F)) adm) (dats (Name := Name) (U := U) (Lvl := Lvl) A0 A1 B0 B1) 1 c launch3.arr_whole
      (((dats (Name := Name) (U := U) (Lvl := Lvl) A0 A1 B0 B1) 1 c).share_full fun _ => rfl), bigSep_W3]
    unfold held3
    iintro ⟨⟨H0, H1, H2, H3, H4, H5, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · unfold Pipeline.prefHeld; rw [show (Finset.univ : Finset (Fin 0)) = ∅ from rfl, BI.bigSep_empty]; iempintro
    isplitl [HO]
    · iapply (Pipeline.owesWithin_mono c _ (Set.subset_union_left))
      iexact HO
    isplitr <;> iempintro
  hin c := by
    rw [show ((dats (Name := Name) (U := U) (Lvl := Lvl) A0 A1 B0 B1) 1 c).Φ 0 = (Pipeline.scopedRest (Ix := Ix) (Name := Name) (U := U) (Lvl := Lvl) (Val := Elt F) spec3 c) from rfl]
    iintro ⟨-, -, Hr⟩; iexact Hr
  hout c := by
    rw [Pipeline.ownSems0_none, show ((dats (Name := Name) (U := U) (Lvl := Lvl) A0 A1 B0 B1) 1 c).Φ (Fin.last _) = (Pipeline.scopedRest (Ix := Ix) (Name := Name) (U := U) (Lvl := Lvl) (Val := Elt F) spec3 c) from rfl]
    iintro Hr
    isplitr; · iempintro
    isplitr; · iempintro
    iexact Hr
  hexit c := by
    have hF : (fun w => ((dats (Name := Name) (U := U) (Lvl := Lvl) A0 A1 B0 B1) 1 c).arrAt w (Pipeline.pin (pcfgs (F := F)) adm 1).N) = out3 c (A1 c) := funext fun
      | ⟨0, _⟩ => ((dats (Name := Name) (U := U) (Lvl := Lvl) A0 A1 B0 B1) 1 c).arrAt_in 0 rfl _
      | ⟨1, _⟩ => ((dats (Name := Name) (U := U) (Lvl := Lvl) A0 A1 B0 B1) 1 c).arrAt_in 1 rfl _
      | ⟨2, _⟩ => ((dats (Name := Name) (U := U) (Lvl := Lvl) A0 A1 B0 B1) 1 c).arrAt_in 2 rfl _
      | ⟨3, _⟩ => ((dats (Name := Name) (U := U) (Lvl := Lvl) A0 A1 B0 B1) 1 c).arrAt_in 3 rfl _
      | ⟨4, _⟩ => ((dats (Name := Name) (U := U) (Lvl := Lvl) A0 A1 B0 B1) 1 c).arrAt_in 4 rfl _
      | ⟨5, _⟩ => arrAt3_5 c (A1 c) B1
    rw [hF, Pipeline.arrays_eq (Pipeline.pin (pcfgs (F := F)) adm) (dats (Name := Name) (U := U) (Lvl := Lvl) A0 A1 B0 B1) 1 c launch3.arr_whole
      (((dats (Name := Name) (U := U) (Lvl := Lvl) A0 A1 B0 B1) 1 c).share_full fun _ => rfl), bigSep_W3]
    unfold held3
    iintro ⟨⟨H0, H1, H2, H3, H4, H5⟩, HO, -, -⟩
    imodintro
    isplitl [H0]; · iexact H0
    isplitl [H1]; · iexact H1
    isplitl [H2]; · iexact H2
    isplitl [H3]; · iexact H3
    isplitl [H4]; · iexact H4
    isplitl [H5]; · iexact H5
    iexact HO

theorem region3_pre_eq (c : Dev nD) :
    (region3 (Name := Name) (U := U) (Lvl := Lvl) A0 A1 B0 B1 ι L lv).pre c = held3 c (A1 c) B1 := rfl
theorem region3_post_eq (c : Dev nD) :
    (region3 (Name := Name) (U := U) (Lvl := Lvl) A0 A1 B0 B1 ι L lv).post c = held3 c (out3 c (A1 c)) (B1 ∪ cfg3.waitPairs ι) := rfl

/-- The two region records by the pipeline's index. -/
def region : (p : Fin 2) → Pipeline.RegionSeg (pcfgs (F := F)) adm (dats (Name := Name) (U := U) (Lvl := Lvl) A0 A1 B0 B1) ι defs₀ Variants.none L lv p
  | ⟨0, _⟩ => region2 A0 A1 B0 B1 ι L lv
  | ⟨1, _⟩ => region3 A0 A1 B0 B1 ι L lv

/-- The same proof data read as relational data, and the region records over it. -/
abbrev rdats : (p : Fin 2) → (c : Dev nD) → Pipeline.RDat τ (Elt F) Ix Name U Lvl (Pipeline.pin (pcfgs (F := F)) adm p) c :=
  Pipeline.Dat.toRs (dats (Name := Name) (U := U) (Lvl := Lvl) A0 A1 B0 B1)

def regionR (p : Fin 2) : Pipeline.RDat.RegionSeg (pcfgs (F := F)) adm (rdats (Name := Name) (U := U) (Lvl := Lvl) A0 A1 B0 B1) ι defs₀ Variants.none L lv p :=
  (region (Name := Name) (U := U) (Lvl := Lvl) A0 A1 B0 B1 ι L lv p).toR

theorem regionR_pre_eq0 (c : Dev nD) : (regionR (Name := Name) (U := U) (Lvl := Lvl) A0 A1 B0 B1 ι L lv 0).pre c = held2 c (A0 c) B0 := rfl
theorem regionR_post_eq0 (c : Dev nD) :
    (regionR (Name := Name) (U := U) (Lvl := Lvl) A0 A1 B0 B1 ι L lv 0).post c = held2 c (out2 c (A0 c)) (B0 ∪ cfg2.waitPairs ι) := rfl
theorem regionR_pre_eq1 (c : Dev nD) : (regionR (Name := Name) (U := U) (Lvl := Lvl) A0 A1 B0 B1 ι L lv 1).pre c = held3 c (A1 c) B1 := rfl
theorem regionR_post_eq1 (c : Dev nD) :
    (regionR (Name := Name) (U := U) (Lvl := Lvl) A0 A1 B0 B1 ι L lv 1).post c = held3 c (out3 c (A1 c)) (B1 ∪ cfg3.waitPairs ι) := rfl

end Regions

end Cert.Kernel.Tc

end
-- ==== Proof.WRegArr.lean ====
/-
  The six arrays of each TensorCore kernel region of the kernel's @main: the references, the entry contents by window
  read off a valuation, and the held set over them spelt as six points-to.
-/
import proofs.«211459_g87136296501727_cont_9to1_m_723_16_alg».proof.Proof.WKerLaunch
import proofs.«211459_g87136296501727_cont_9to1_m_723_16_alg».proof.Proof.WTcRegion

noncomputable section

namespace Cert.Kernel.KerLaunch

open Cert.Kernel Cert.Kernel.Gen Cert.Kernel.MainShape Cert.LaunchKit
open Idealize.ShloMosaic Idealize.ShloMosaic.TcCoe
open Idealize.ShloMosaic.SparseCore (S V T)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ Alg.UU ℕ

/-! ## The six arrays of a region, out of the held set -/

abbrev g0' : DevRef τ sig := (main_v13 : DevRef τ sig)
abbrev g1' : DevRef τ sig := (main_v15 : DevRef τ sig)
abbrev rc' : DevRef τ sig := (main_v11 : DevRef τ sig)
abbrev wl' : DevRef τ sig := (main_v1 : DevRef τ sig)
abbrev rl' : DevRef τ sig := (main_arg1 : DevRef τ sig)
abbrev gs' : DevRef τ sig := (main_v10 : DevRef τ sig)

def T6a : Finset (DevRef τ sig) := {g0', rc', wl', rl', gs', r0'}
def T6b : Finset (DevRef τ sig) := {g1', rc', wl', rl', gs', r1'}

theorem T6a_sub : T6a ⊆ SU := by decide
theorem T6b_sub : T6b ⊆ SU := by decide

/-- The entry contents of the first region's six arrays, by window, from a valuation. -/
def arrA (d : Dev nD) (W : Valuation τ sig (Elt F)) : Tc.Arr2 (F := F) d := fun w => match w with
  | ⟨0, _⟩ => W g0' | ⟨1, _⟩ => W rc' | ⟨2, _⟩ => W wl' | ⟨3, _⟩ => W rl' | ⟨4, _⟩ => W gs' | ⟨5, _⟩ => W r0'
/-- The second region's. -/
def arrB (d : Dev nD) (W : Valuation τ sig (Elt F)) : Tc.Arr3 (F := F) d := fun w => match w with
  | ⟨0, _⟩ => W g1' | ⟨1, _⟩ => W rc' | ⟨2, _⟩ => W wl' | ⟨3, _⟩ => W rl' | ⟨4, _⟩ => W gs' | ⟨5, _⟩ => W r1'

theorem held_T6a (d : Dev nD) (W : Valuation τ sig (Elt F)) :
    (held (T d) T6a W : sProp 𝕄)
      = iprop((((d : Thread nD τ).loc main_v13) ↦{fullShare} W g0') ∗ (((d : Thread nD τ).loc main_v11) ↦{fullShare} W rc')
          ∗ (((d : Thread nD τ).loc main_v1) ↦{fullShare} W wl') ∗ (((d : Thread nD τ).loc main_arg1) ↦{fullShare} W rl')
          ∗ (((d : Thread nD τ).loc main_v10) ↦{fullShare} W gs') ∗ (((d : Thread nD τ).loc main_v16) ↦{fullShare} W r0')) := by
  unfold held T6a
  rw [bigSep_insert' (by decide), bigSep_insert' (by decide), bigSep_insert' (by decide), bigSep_insert' (by decide), bigSep_insert' (by decide), bigSep_singleton]

theorem held_T6b (d : Dev nD) (W : Valuation τ sig (Elt F)) :
    (held (T d) T6b W : sProp 𝕄)
      = iprop((((d : Thread nD τ).loc main_v15) ↦{fullShare} W g1') ∗ (((d : Thread nD τ).loc main_v11) ↦{fullShare} W rc')
          ∗ (((d : Thread nD τ).loc main_v1) ↦{fullShare} W wl') ∗ (((d : Thread nD τ).loc main_arg1) ↦{fullShare} W rl')
          ∗ (((d : Thread nD τ).loc main_v10) ↦{fullShare} W gs') ∗ (((d : Thread nD τ).loc main_v17) ↦{fullShare} W r1')) := by
  unfold held T6b
  rw [bigSep_insert' (by decide), bigSep_insert' (by decide), bigSep_insert' (by decide), bigSep_insert' (by decide), bigSep_insert' (by decide), bigSep_singleton]

end Cert.Kernel.KerLaunch

end
-- ==== Proof.WRegStep.lean ====
/-
  A TensorCore kernel region of the kernel's @main, entered from the held set of the core's unscoped buffers: the six
  arrays of the region's windows are taken out of the set, the region is run through the pipeline library's rule for a
  kernel region (lifted to the program's extended body table), and the set is taken back with the region's output at
  the eight points' accumulated value.
-/
import proofs.«211459_g87136296501727_cont_9to1_m_723_16_alg».proof.Proof.WRegArr

noncomputable section

namespace Cert.Kernel.KerLaunch

open Cert.Kernel Cert.Kernel.Gen Cert.Kernel.MainShape Cert.LaunchKit
open Idealize.ShloMosaic Idealize.ShloMosaic.TcCoe
open Idealize.ShloMosaic.SparseCore (S V T)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ Alg.UU ℕ

/-! ## The regions' steps -/

theorem held2_eq (d : Dev nD) (A : Tc.Arr2 (F := F) d) (B : Set (SemLoc sig × HIx 2)) :
    (Tc.held2 (Name := ℕ) (U := Alg.UU) (Lvl := ℕ) d A B : sProp 𝕄)
      = iprop((((d : Thread nD τ).loc main_v13) ↦{fullShare} A 0) ∗ (((d : Thread nD τ).loc main_v11) ↦{fullShare} A 1)
          ∗ (((d : Thread nD τ).loc main_v1) ↦{fullShare} A 2) ∗ (((d : Thread nD τ).loc main_arg1) ↦{fullShare} A 3)
          ∗ (((d : Thread nD τ).loc main_v10) ↦{fullShare} A 4) ∗ (((d : Thread nD τ).loc main_v16) ↦{fullShare} A 5)
          ∗ Pipeline.owesWithin d (0 : CellTallies nD τ sig (HIx 2)) B) := rfl

set_option backward.isDefEq.respectTransparency.types false in
set_option maxHeartbeats 800000 in
/-- Region 0: from the held set at `W` to the held set with the region's output at the accumulated value. -/
theorem reg_step0 [∀ e, Nonempty (Elt F e)] (d : Dev nD) (W : Valuation τ sig (Elt F)) (B : Set (SemLoc sig × HIx 2)) :
    RegStep (F := F) 0 d r0' W (Tc.accAt2 d (arrA d W) 7 Tc.lt7_2) B (B ∪ (cfgs 0).waitPairs none) := by
  intro Φ
  have hoff : ∀ b ∈ SU \ T6a, Function.update W r0' (Tc.accAt2 d (arrA d W) 7 Tc.lt7_2) b = W b := fun b hb =>
    Function.update_of_ne (fun (e : b = r0') => (Finset.mem_sdiff.mp hb).2 (by rw [e]; decide)) _ _
  rw [held_sub_split (T d) T6a_sub W, held_T6a,
    held_swap (T d) T6a_sub W (Function.update W r0' (Tc.accAt2 d (arrA d W) 7 Tc.lt7_2)) hoff, held_T6a,
    Function.update_of_ne (by decide : g0' ≠ r0'), Function.update_of_ne (by decide : rc' ≠ r0'), Function.update_of_ne (by decide : wl' ≠ r0'),
    Function.update_of_ne (by decide : rl' ≠ r0'), Function.update_of_ne (by decide : gs' ≠ r0'), Function.update_self]
  iintro ⟨Hlev, Hb, ⟨⟨H0, H1, H2, H3, H4, H5⟩, Hrest⟩, HO, ⟨Hg, Ht⟩, Hk⟩
  iapply ((K (F := F)).wp_liftProg (D (F := F)) Sc.𝒱 (T d) Set.univ none (Prog.lift (.customCall (Pipeline.entry 0) ())) Φ)
  iapply (Pipeline.RegionSeg.wp (pcfgs (F := F)) Tc.adm
      (Tc.dats (Name := ℕ) (U := Alg.UU) (Lvl := ℕ) (fun c => arrA c W) (fun c => arrB c W) B B) none cellOf_inj (Alg.EP (F := F)) defs₀ Variants.none
      (K (F := F)).L (K (F := F)).lev
      (Tc.region2 (Name := ℕ) (U := Alg.UU) (Lvl := ℕ) (fun c => arrA c W) (fun c => arrB c W) B B none (K (F := F)).L (K (F := F)).lev)
      d none (fun u hu => nomatch hu) (fun _ => .ret ⟨⟩) Φ) $$ [Hlev Hb H0 H1 H2 H3 H4 H5 Hrest HO Hg Ht Hk]
  isplitl [Hk Hrest]
  · iintro ⟨Hb, Hpost⟩
    ihave Hp0 := (Entails.of_eq (Tc.region2_post_eq (Name := ℕ) (U := Alg.UU) (Lvl := ℕ) (fun c => arrA c W) (fun c => arrB c W) B B none (K (F := F)).L (K (F := F)).lev d)) $$ Hpost
    ihave Hp := (Entails.of_eq (held2_eq (F := F) d (Tc.out2 d (arrA d W)) (B ∪ cfg2.waitPairs none))) $$ Hp0
    icases Hp with ⟨H0, H1, H2, H3, H4, H5, HO⟩
    rw [wp_ret]; imodintro
    iapply Hk
    isplitl [Hb]; · iexact Hb
    isplitr [HO]
    · isplitr [Hrest]
      · isplitl [H0]; · iexact H0
        isplitl [H1]; · iexact H1
        isplitl [H2]; · iexact H2
        isplitl [H3]; · iexact H3
        isplitl [H4]; · iexact H4
        iexact H5
      · iexact Hrest
    · iexact HO
  isplitl [Hb]; · iexact Hb
  isplitl [H0 H1 H2 H3 H4 H5 HO]
  · iapply (Entails.of_eq (Tc.region2_pre_eq (Name := ℕ) (U := Alg.UU) (Lvl := ℕ) (fun c => arrA c W) (fun c => arrB c W) B B none (K (F := F)).L (K (F := F)).lev d).symm)
    iapply (Entails.of_eq (held2_eq (F := F) d (arrA d W) B).symm)
    isplitl [H0]; · iexact H0
    isplitl [H1]; · iexact H1
    isplitl [H2]; · iexact H2
    isplitl [H3]; · iexact H3
    isplitl [H4]; · iexact H4
    isplitl [H5]; · iexact H5
    iexact HO
  isplitl [Hlev]; · iexact Hlev
  isplitl [Hg]; · iexact Hg
  iexact Ht

theorem held3_eq (d : Dev nD) (A : Tc.Arr3 (F := F) d) (B : Set (SemLoc sig × HIx 2)) :
    (Tc.held3 (Name := ℕ) (U := Alg.UU) (Lvl := ℕ) d A B : sProp 𝕄)
      = iprop((((d : Thread nD τ).loc main_v15) ↦{fullShare} A 0) ∗ (((d : Thread nD τ).loc main_v11) ↦{fullShare} A 1)
          ∗ (((d : Thread nD τ).loc main_v1) ↦{fullShare} A 2) ∗ (((d : Thread nD τ).loc main_arg1) ↦{fullShare} A 3)
          ∗ (((d : Thread nD τ).loc main_v10) ↦{fullShare} A 4) ∗ (((d : Thread nD τ).loc main_v17) ↦{fullShare} A 5)
          ∗ Pipeline.owesWithin d (0 : CellTallies nD τ sig (HIx 2)) B) := rfl

set_option backward.isDefEq.respectTransparency.types false in
set_option maxHeartbeats 800000 in
/-- Region 1: from the held set at `W` to the held set with the region's output at the accumulated value. -/
theorem reg_step1 [∀ e, Nonempty (Elt F e)] (d : Dev nD) (W : Valuation τ sig (Elt F)) (B : Set (SemLoc sig × HIx 2)) :
    RegStep (F := F) 1 d r1' W (Tc.accAt3 d (arrB d W) 7 Tc.lt7_3) B (B ∪ (cfgs 1).waitPairs none) := by
  intro Φ
  have hoff : ∀ b ∈ SU \ T6b, Function.update W r1' (Tc.accAt3 d (arrB d W) 7 Tc.lt7_3) b = W b := fun b hb =>
    Function.update_of_ne (fun (e : b = r1') => (Finset.mem_sdiff.mp hb).2 (by rw [e]; decide)) _ _
  rw [held_sub_split (T d) T6b_sub W, held_T6b,
    held_swap (T d) T6b_sub W (Function.update W r1' (Tc.accAt3 d (arrB d W) 7 Tc.lt7_3)) hoff, held_T6b,
    Function.update_of_ne (by decide : g1' ≠ r1'), Function.update_of_ne (by decide : rc' ≠ r1'), Function.update_of_ne (by decide : wl' ≠ r1'),
    Function.update_of_ne (by decide : rl' ≠ r1'), Function.update_of_ne (by decide : gs' ≠ r1'), Function.update_self]
  iintro ⟨Hlev, Hb, ⟨⟨H0, H1, H2, H3, H4, H5⟩, Hrest⟩, HO, ⟨Hg, Ht⟩, Hk⟩
  iapply ((K (F := F)).wp_liftProg (D (F := F)) Sc.𝒱 (T d) Set.univ none (Prog.lift (.customCall (Pipeline.entry 1) ())) Φ)
  iapply (Pipeline.RegionSeg.wp (pcfgs (F := F)) Tc.adm
      (Tc.dats (Name := ℕ) (U := Alg.UU) (Lvl := ℕ) (fun c => arrA c W) (fun c => arrB c W) B B) none cellOf_inj (Alg.EP (F := F)) defs₀ Variants.none
      (K (F := F)).L (K (F := F)).lev
      (Tc.region3 (Name := ℕ) (U := Alg.UU) (Lvl := ℕ) (fun c => arrA c W) (fun c => arrB c W) B B none (K (F := F)).L (K (F := F)).lev)
      d none (fun u hu => nomatch hu) (fun _ => .ret ⟨⟩) Φ) $$ [Hlev Hb H0 H1 H2 H3 H4 H5 Hrest HO Hg Ht Hk]
  isplitl [Hk Hrest]
  · iintro ⟨Hb, Hpost⟩
    ihave Hp0 := (Entails.of_eq (Tc.region3_post_eq (Name := ℕ) (U := Alg.UU) (Lvl := ℕ) (fun c => arrA c W) (fun c => arrB c W) B B none (K (F := F)).L (K (F := F)).lev d)) $$ Hpost
    ihave Hp := (Entails.of_eq (held3_eq (F := F) d (Tc.out3 d (arrB d W)) (B ∪ cfg3.waitPairs none))) $$ Hp0
    icases Hp with ⟨H0, H1, H2, H3, H4, H5, HO⟩
    rw [wp_ret]; imodintro
    iapply Hk
    isplitl [Hb]; · iexact Hb
    isplitr [HO]
    · isplitr [Hrest]
      · isplitl [H0]; · iexact H0
        isplitl [H1]; · iexact H1
        isplitl [H2]; · iexact H2
        isplitl [H3]; · iexact H3
        isplitl [H4]; · iexact H4
        iexact H5
      · iexact Hrest
    · iexact HO
  isplitl [Hb]; · iexact Hb
  isplitl [H0 H1 H2 H3 H4 H5 HO]
  · iapply (Entails.of_eq (Tc.region3_pre_eq (Name := ℕ) (U := Alg.UU) (Lvl := ℕ) (fun c => arrA c W) (fun c => arrB c W) B B none (K (F := F)).L (K (F := F)).lev d).symm)
    iapply (Entails.of_eq (held3_eq (F := F) d (arrB d W) B).symm)
    isplitl [H0]; · iexact H0
    isplitl [H1]; · iexact H1
    isplitl [H2]; · iexact H2
    isplitl [H3]; · iexact H3
    isplitl [H4]; · iexact H4
    isplitl [H5]; · iexact H5
    iexact HO
  isplitl [Hlev]; · iexact Hlev
  isplitl [Hg]; · iexact Hg
  iexact Ht

end Cert.Kernel.KerLaunch

end
-- ==== Proof.WFinalVals.lean ====
/-
  The valuations along the kernel's @main, read at the buffers the proof needs. @main is four lines of host operations
  around two SparseCore calls and two kernel regions; each line writes only its own results, each call only its output
  array, each region only its result. So at the end every argument array still holds its launch contents and the result
  is the two regions' results added and read as a scalar; and at each region's entry the six arrays it reads hold the
  gathered rows as three slabs, the relation numbers as a column, the flattened projection matrices, the relation table
  and the column selector.
-/
import proofs.«211459_g87136296501727_cont_9to1_m_723_16_alg».proof.Proof.WRegArr

noncomputable section

namespace Cert.Kernel.KerLaunch

open Cert.Kernel Cert.Kernel.MainShape
open Idealize.ShloMosaic Idealize.ShloMosaic.TcCoe
open Idealize.ShloMosaic.SparseCore (S V T)
open Idealize.ShloMosaic.StableHlo
open Idealize.SL.Sem
open Cert.Kernel.Facts₀ Cert.Kernel.Facts

variable {F : FTy → Type} [FloatOps F]
variable (m : (ℓ : Loc nD τ sig) → Buf (Elt F) ℓ)
variable (acc0 acc1 : (d : Dev nD) → (⟨S1x1, .f32⟩ : BufTy).Contents (Elt F))

/-! ## One step of the chain at a buffer the step does not write -/

theorem V1_of_ne (d : Dev nD) (b : DevRef τ sig) (h : b ≠ out' 0) : V1 m d b = VA m d b := by
  unfold V1; exact Function.update_of_ne h _ _
theorem V2_of_ne (d : Dev nD) (b : DevRef τ sig) (h : b ≠ out' 1) : V2 m d b = V1' m d b := by
  unfold V2; exact Function.update_of_ne h _ _
theorem V3_of_ne (d : Dev nD) (b : DevRef τ sig) (h : b ≠ r0') : V3 m acc0 d b = V2' m d b := by
  unfold V3; exact Function.update_of_ne h _ _
theorem V4_of_ne (d : Dev nD) (b : DevRef τ sig) (h : b ≠ r1') : V4 m acc0 acc1 d b = V3 m acc0 d b := by
  unfold V4; exact Function.update_of_ne h _ _

/-- What the calls and the regions write. -/
theorem V1_out (d : Dev nD) : V1 m d (main_v12 : DevRef τ sig) = Sc.gathAt m 0 d := by
  unfold V1; exact Function.update_self _ _ _
theorem V2_out (d : Dev nD) : V2 m d (main_v14 : DevRef τ sig) = Sc.gathAt m 1 d := by
  unfold V2; exact Function.update_self _ _ _
theorem V3_res (d : Dev nD) : V3 m acc0 d (main_v16 : DevRef τ sig) = acc0 d := by
  unfold V3; exact Function.update_self _ _ _
theorem V4_res1 (d : Dev nD) : V4 m acc0 acc1 d (main_v17 : DevRef τ sig) = acc1 d := by
  unfold V4; exact Function.update_self _ _ _
theorem V4_res0 (d : Dev nD) : V4 m acc0 acc1 d (main_v16 : DevRef τ sig) = acc0 d :=
  (V4_of_ne m acc0 acc1 d _ (by decide)).trans (V3_res m acc0 d)

/-! ## A buffer no line, call or region writes keeps its launch contents -/

/-- Up to the first region's entry. -/
theorem V2'_kept (d : Dev nD) (b : DevRef τ sig)
    (hA : ∀ V : Valuation τ sig (Elt F), after (opsA (F := F)) V b = V b)
    (hB : ∀ V : Valuation τ sig (Elt F), after (opsB (F := F)) V b = V b)
    (hC : ∀ V : Valuation τ sig (Elt F), after (opsC (F := F)) V b = V b)
    (h0 : b ≠ out' 0) (h1 : b ≠ out' 1) : V2' m d b = m (d, b) := by
  unfold V2'
  rw [hC, V2_of_ne m d b h1]
  unfold V1'
  rw [hB, V1_of_ne m d b h0]
  exact VA_at m d b hA

/-- Up to the end of @main. -/
theorem V5_kept (d : Dev nD) (b : DevRef τ sig)
    (hA : ∀ V : Valuation τ sig (Elt F), after (opsA (F := F)) V b = V b)
    (hB : ∀ V : Valuation τ sig (Elt F), after (opsB (F := F)) V b = V b)
    (hC : ∀ V : Valuation τ sig (Elt F), after (opsC (F := F)) V b = V b)
    (hD : ∀ V : Valuation τ sig (Elt F), after (opsD (F := F)) V b = V b)
    (h0 : b ≠ out' 0) (h1 : b ≠ out' 1) (h2 : b ≠ r0') (h3 : b ≠ r1') : V5 m acc0 acc1 d b = m (d, b) := by
  unfold V5
  rw [hD, V4_of_ne m acc0 acc1 d b h3, V3_of_ne m acc0 d b h2]
  exact V2'_kept m d b hA hB hC h0 h1

/-! ## At the end of @main: the argument arrays and the result -/

theorem V5_arg0 (d : Dev nD) : V5 m acc0 acc1 d (main_arg0 : DevRef τ sig) = m (d, (main_arg0 : DevRef τ sig)) :=
  V5_kept m acc0 acc1 d _ opsA_arg0 opsB_keep_arg0 opsC_keep_arg0 opsD_keep_arg0 (by decide) (by decide) (by decide) (by decide)
theorem V5_arg1 (d : Dev nD) : V5 m acc0 acc1 d (main_arg1 : DevRef τ sig) = m (d, (main_arg1 : DevRef τ sig)) :=
  V5_kept m acc0 acc1 d _ opsA_arg1 opsB_keep_arg1 opsC_keep_arg1 opsD_keep_arg1 (by decide) (by decide) (by decide) (by decide)
theorem V5_arg2 (d : Dev nD) : V5 m acc0 acc1 d (main_arg2 : DevRef τ sig) = m (d, (main_arg2 : DevRef τ sig)) :=
  V5_kept m acc0 acc1 d _ opsA_keep_arg2 opsB_keep_arg2 opsC_keep_arg2 opsD_keep_arg2 (by decide) (by decide) (by decide) (by decide)
theorem V5_arg3 (d : Dev nD) : V5 m acc0 acc1 d (main_arg3 : DevRef τ sig) = m (d, (main_arg3 : DevRef τ sig)) :=
  V5_kept m acc0 acc1 d _ opsA_arg3 opsB_keep_arg3 opsC_keep_arg3 opsD_keep_arg3 (by decide) (by decide) (by decide) (by decide)
theorem V5_arg4 (d : Dev nD) : V5 m acc0 acc1 d (main_arg4 : DevRef τ sig) = m (d, (main_arg4 : DevRef τ sig)) :=
  V5_kept m acc0 acc1 d _ opsA_keep_arg4 opsB_keep_arg4 opsC_keep_arg4 opsD_keep_arg4 (by decide) (by decide) (by decide) (by decide)
theorem V5_arg5 (d : Dev nD) : V5 m acc0 acc1 d (main_arg5 : DevRef τ sig) = m (d, (main_arg5 : DevRef τ sig)) :=
  V5_kept m acc0 acc1 d _ opsA_arg5 opsB_keep_arg5 opsC_keep_arg5 opsD_keep_arg5 (by decide) (by decide) (by decide) (by decide)
theorem V5_arg6 (d : Dev nD) : V5 m acc0 acc1 d (main_arg6 : DevRef τ sig) = m (d, (main_arg6 : DevRef τ sig)) :=
  V5_kept m acc0 acc1 d _ opsA_arg6 opsB_keep_arg6 opsC_keep_arg6 opsD_keep_arg6 (by decide) (by decide) (by decide) (by decide)

/-- The result: the two regions' results added, read as a scalar. -/
theorem V5_res (d : Dev nD) :
    V5 m acc0 acc1 d (main_v19 : DevRef τ sig) = shapeCast S_ (addf (acc0 d) (acc1 d)) shapeCasts_S1x1_S_ := by
  unfold V5
  rw [opsD_v19, V4_res0, V4_res1]

/-! ## At the first region's entry -/

theorem V2'_g (d : Dev nD) :
    V2' m d g0' = shapeCast S3x8192x128 (Sc.gathAt m 0 d) shapeCasts_S24576x128_S3x8192x128 := by
  unfold V2'
  rw [opsC_keep_v13, V2_of_ne m d _ (by decide)]
  unfold V1'
  rw [opsB_v13, V1_out]

theorem V2'_rc (d : Dev nD) :
    V2' m d rc' = shapeCast S16384x1 (m (d, (main_arg4 : DevRef τ sig))) shapeCasts_S16384_S16384x1 := by
  unfold V2'
  rw [opsC_keep_v11, V2_of_ne m d _ (by decide)]
  unfold V1'
  rw [opsB_keep_v11, V1_of_ne m d _ (by decide)]
  unfold VA
  rw [opsA_v11]

theorem V2'_wl (d : Dev nD) : V2' m d wl' = MainShape.wallOf (m (d, (main_arg2 : DevRef τ sig))) := by
  unfold V2'
  rw [opsC_keep_v1, V2_of_ne m d _ (by decide)]
  unfold V1'
  rw [opsB_keep_v1, V1_of_ne m d _ (by decide)]
  unfold VA
  rw [opsA_v1]

theorem V2'_rl (d : Dev nD) : V2' m d rl' = m (d, (main_arg1 : DevRef τ sig)) :=
  V2'_kept m d _ opsA_arg1 opsB_keep_arg1 opsC_keep_arg1 (by decide) (by decide)

theorem V2'_gs (d : Dev nD) : V2' m d gs' = MainShape.gselOf := by
  unfold V2'
  rw [opsC_keep_v10, V2_of_ne m d _ (by decide)]
  unfold V1'
  rw [opsB_keep_v10, V1_of_ne m d _ (by decide)]
  unfold VA
  rw [opsA_v10]

/-! ## At the second region's entry -/

theorem V3_g (d : Dev nD) :
    V3 m acc0 d g1' = shapeCast S3x8192x128 (Sc.gathAt m 1 d) shapeCasts_S24576x128_S3x8192x128 := by
  rw [V3_of_ne m acc0 d _ (by decide)]
  unfold V2'
  rw [opsC_v15, V2_out]

theorem V3_rc (d : Dev nD) :
    V3 m acc0 d rc' = shapeCast S16384x1 (m (d, (main_arg4 : DevRef τ sig))) shapeCasts_S16384_S16384x1 :=
  (V3_of_ne m acc0 d _ (by decide)).trans (V2'_rc m d)
theorem V3_wl (d : Dev nD) : V3 m acc0 d wl' = MainShape.wallOf (m (d, (main_arg2 : DevRef τ sig))) :=
  (V3_of_ne m acc0 d _ (by decide)).trans (V2'_wl m d)
theorem V3_rl (d : Dev nD) : V3 m acc0 d rl' = m (d, (main_arg1 : DevRef τ sig)) :=
  (V3_of_ne m acc0 d _ (by decide)).trans (V2'_rl m d)
theorem V3_gs (d : Dev nD) : V3 m acc0 d gs' = MainShape.gselOf :=
  (V3_of_ne m acc0 d _ (by decide)).trans (V2'_gs m d)

end Cert.Kernel.KerLaunch

end
-- ==== Proof.WScTile.lean ====
/-
  The task of one vector subcore in a SparseCore call: three local copies bring its 256 words of each index array
  into its index scratch; six indirect gathers of 128 table rows each, alternately into the two row scratches and each
  issued before the one before it is waited for, are each copied out to the subcore's block of the output array. The
  proof carries the value: after gather k's wait the row scratch holds the table's rows at the fetched words, after
  the copy-out the output block holds them, which is the gathered array restricted to the block.
-/
import proofs.«211459_g87136296501727_cont_9to1_m_723_16_alg».proof.Proof.WScSetup

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
variable {UU : Type} [URA UU] [CountersIn UU]

local notation "𝕄" => MT nD τ sig (HIx 2) (Elt F) ℕ UU ℕ

variable (m : (ℓ : Loc nD τ sig) → Buf (Elt F) ℓ)

/-! ## Indices through unit-stride rectangles -/

/-- An element of a unit-stride rectangle of a rank-1 shape, by its coordinate. -/
theorem emb1 {n : ℕ} (off sz : Fin 1 → ℕ) (inb : ∀ a, off a + sz a ≤ (⟨1, ![n]⟩ : Shape).size a)
    (x : (Rect.unit (s := ⟨1, ![n]⟩) off sz inb).shape.Idx) (o : ℕ) (ho : off 0 = o) (hlt : o + (x 0).val < n) :
    (Rect.unit (s := ⟨1, ![n]⟩) off sz inb).emb x = ix1 (n := n) ⟨o + (x 0).val, hlt⟩ := by
  subst ho
  funext a
  match a with
  | 0 => exact Fin.ext (by simp [Rect.emb_apply]; rfl)

/-- An element of a unit-stride rectangle of a rank-2 shape, by its coordinates. -/
theorem emb2 {n0 n1 : ℕ} (off sz : Fin 2 → ℕ) (inb : ∀ a, off a + sz a ≤ (⟨2, ![n0, n1]⟩ : Shape).size a)
    (x : (Rect.unit (s := ⟨2, ![n0, n1]⟩) off sz inb).shape.Idx) (o0 o1 : ℕ) (h0 : off 0 = o0) (h1 : off 1 = o1)
    (hlt0 : o0 + (x 0).val < n0) (hlt1 : o1 + (x 1).val < n1) :
    (Rect.unit (s := ⟨2, ![n0, n1]⟩) off sz inb).emb x = ix2 (n0 := n0) (n1 := n1) ⟨o0 + (x 0).val, hlt0⟩ ⟨o1 + (x 1).val, hlt1⟩ := by
  subst h0 h1
  funext a
  match a with
  | 0 => exact Fin.ext (by simp [Rect.emb_apply]; rfl)
  | 1 => exact Fin.ext (by simp [Rect.emb_apply]; rfl)

/-- The words `sel` reads are row numbers when the three arrays' are. -/
theorem sel_lt {a3 a4 a5 a6 : S16384.Idx → BitVec 32} (h : Cert.Spec.InRange a3 a4 a5 a6) (b : ℕ) (j : S16384.Idx) :
    (sel a3 a5 a6 b j).toNat < 100000 := by
  unfold sel
  split_ifs
  · exact h.h j
  · exact h.p j
  · exact h.n j

theorem lt256 (x : S256.Idx) : (x 0).val < 256 := (x 0).isLt
theorem lt128 (x : S128.Idx) : (x 0).val < 128 := (x 0).isLt
theorem lt768 (y : S768.Idx) : (y 0).val < 768 := (y 0).isLt
theorem lt128r (x : S128x128.Idx) : (x 0).val < 128 := (x 0).isLt
theorem lt128c (x : S128x128.Idx) : (x 1).val < 128 := (x 1).isLt

/-- A rank-1 index from its row-major position. -/
theorem rowMajor_symm_one {n : ℕ} (t : Fin (⟨1, ![n]⟩ : Shape).numel) : (((⟨1, ![n]⟩ : Shape).rowMajor.symm t) 0).val = t.val := by
  have h := Shape.rowMajor_val_one ((⟨1, ![n]⟩ : Shape).rowMajor.symm t)
  rw [Equiv.apply_symm_apply] at h
  exact h.symm

theorem sel_congr (a3 a5 a6 : S16384.Idx → BitVec 32) {b b' : ℕ} {j j' : Fin 16384} (hb : b = b') (hj : j.val = j'.val) :
    sel a3 a5 a6 b (ix1 (n := 16384) j) = sel a3 a5 a6 b' (ix1 (n := 16384) j') := by
  subst hb; rw [Fin.ext hj]

/-- The gathered array at an element given by its coordinates. -/
theorem gath_ix2 (q : Fin 2) (tab : S100000x128.Idx → F .f32) (a3 a5 a6 : S16384.Idx → BitVec 32) (A : ℕ) (hA : A < 24576) (c : Fin 128) :
    gath q tab a3 a5 a6 (ix2 (n0 := 24576) (n1 := 128) ⟨A, hA⟩ c)
      = tab (ix2 (n0 := 100000) (n1 := 128)
          (Cert.Spec.rowOf 100000 (by decide) (sel a3 a5 a6 (A / 8192) (ix1 (n := 16384) ⟨8192 * q.val + A % 8192, by have := q.isLt; omega⟩))) c) := rfl

/-- A buffer whose last write covers it whole reads that write's payload. -/
theorem read_writes_whole_head {κ : Kind} {sp : Space} {s : Shape} (v : View sig κ sp s .f32) (f0 : v.ty.Contents (Elt F)) (W : s.Idx → F .f32)
    (rest : List (View.Piece (Elt F) s .f32)) (x : s.Idx) :
    v.read (Elt F) (v.writes (Elt F) f0 (⟨Rect.whole s, W⟩ :: rest)) x = W x := by
  have h := View.read_writes_cons_emb v f0 (Rect.whole s) W rest x
  rwa [Rect.emb_whole_apply] at h
namespace C0

local notation "hV" => (Memref.whole Cert.Kernel.main_arg3_scv : Memref Cert.Kernel.sig Kind.scVector Space.hbm Cert.Kernel.S16384 EltTy.i32)
local notation "pV" => (Memref.whole Cert.Kernel.main_arg5_scv : Memref Cert.Kernel.sig Kind.scVector Space.hbm Cert.Kernel.S16384 EltTy.i32)
local notation "nV" => (Memref.whole Cert.Kernel.main_arg6_scv : Memref Cert.Kernel.sig Kind.scVector Space.hbm Cert.Kernel.S16384 EltTy.i32)
local notation "tV" => (Memref.whole Cert.Kernel.main_arg0_scv : Memref Cert.Kernel.sig Kind.scVector Space.hbm Cert.Kernel.S100000x128 EltTy.f32)
local notation "oV" => (Memref.whole Cert.Kernel.main_v12_scv : Memref Cert.Kernel.sig Kind.scVector Space.hbm Cert.Kernel.S24576x128 EltTy.f32)
local notation "sV" => (Memref.whole Cert.Kernel.cc0_scratch0 : Memref Cert.Kernel.sig Kind.scVector Space.vmem Cert.Kernel.S768 EltTy.i32)
local notation "aV" => (Memref.whole Cert.Kernel.cc0_scratch1 : Memref Cert.Kernel.sig Kind.scVector Space.vmem Cert.Kernel.S128x128 EltTy.f32)
local notation "bV" => (Memref.whole Cert.Kernel.cc0_scratch2 : Memref Cert.Kernel.sig Kind.scVector Space.vmem Cert.Kernel.S128x128 EltTy.f32)

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

/-! ### The subcore's own semaphores and scratch buffers -/

abbrev cell0 (d : Dev nD) (c : Fin τ.nSC) (i : Fin τ.nSub) : GSem nD τ sig := (V d c i, .dma cc0_scratch3.sem)
abbrev cell1 (d : Dev nD) (c : Fin τ.nSC) (i : Fin τ.nSub) : GSem nD τ sig := (V d c i, .dma cc0_scratch4.sem)
abbrev cell2 (d : Dev nD) (c : Fin τ.nSC) (i : Fin τ.nSub) : GSem nD τ sig := (V d c i, .dma cc0_scoped0.sem)
abbrev cell3 (d : Dev nD) (c : Fin τ.nSC) (i : Fin τ.nSub) : GSem nD τ sig := (V d c i, .dma cc0_scoped1.sem)
abbrev cell4 (d : Dev nD) (c : Fin τ.nSC) (i : Fin τ.nSub) : GSem nD τ sig := (V d c i, .dma cc0_scoped2.sem)
abbrev cell5 (d : Dev nD) (c : Fin τ.nSC) (i : Fin τ.nSub) : GSem nD τ sig := (V d c i, .dma cc0_scoped3.sem)
abbrev cell6 (d : Dev nD) (c : Fin τ.nSC) (i : Fin τ.nSub) : GSem nD τ sig := (V d c i, .dma cc0_scoped4.sem)
abbrev cell7 (d : Dev nD) (c : Fin τ.nSC) (i : Fin τ.nSub) : GSem nD τ sig := (V d c i, .dma cc0_scoped5.sem)
abbrev cell8 (d : Dev nD) (c : Fin τ.nSC) (i : Fin τ.nSub) : GSem nD τ sig := (V d c i, .dma cc0_scoped6.sem)
abbrev cell9 (d : Dev nD) (c : Fin τ.nSC) (i : Fin τ.nSub) : GSem nD τ sig := (V d c i, .dma cc0_scoped7.sem)
abbrev cell10 (d : Dev nD) (c : Fin τ.nSC) (i : Fin τ.nSub) : GSem nD τ sig := (V d c i, .dma cc0_scoped8.sem)

theorem cell_ne {thr : Thread nD τ} {a b : DmaSem sig} (h : a ≠ b) : ((thr, SemLoc.dma a) : GSem nD τ sig) ≠ (thr, SemLoc.dma b) :=
  fun e => h (SemLoc.dma.inj (Prod.mk.inj e).2)

theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0 ∗ semVal (cell6 d (cV L) (jV L)) 0 ∗ semVal (cell7 d (cV L) (jV L)) 0 ∗ semVal (cell8 d (cV L) (jV L)) 0 ∗ semVal (cell9 d (cV L) (jV L)) 0 ∗ semVal (cell10 d (cV L) (jV L)) 0
          ∗ bigSep ((((((((((((ownCells (V d (cV L) (jV L))).erase (cell0 d (cV L) (jV L))).erase (cell1 d (cV L) (jV L))).erase (cell2 d (cV L) (jV L))).erase (cell3 d (cV L) (jV L))).erase (cell4 d (cV L) (jV L))).erase (cell5 d (cV L) (jV L))).erase (cell6 d (cV L) (jV L))).erase (cell7 d (cV L) (jV L))).erase (cell8 d (cV L) (jV L))).erase (cell9 d (cV L) (jV L))).erase (cell10 d (cV L) (jV L))) fun g => semVal g 0) := by
  unfold SparseCore.Cfg.ownSems0
  rw [SparseCore.bigSep_erase' ((mem_ownCells (g := cell0 d (cV L) (jV L))).mpr ⟨rfl, by show (SemLoc.dma cc0_scratch3.sem : SemLoc sig).isScoped .scVector = true; decide⟩),
    SparseCore.bigSep_erase' (Finset.mem_erase.mpr ⟨cell_ne (by decide), (mem_ownCells (g := cell1 d (cV L) (jV L))).mpr ⟨rfl, by show (SemLoc.dma cc0_scratch4.sem : SemLoc sig).isScoped .scVector = true; decide⟩⟩),
    SparseCore.bigSep_erase' (Finset.mem_erase.mpr ⟨cell_ne (by decide), Finset.mem_erase.mpr ⟨cell_ne (by decide), (mem_ownCells (g := cell2 d (cV L) (jV L))).mpr ⟨rfl, by show (SemLoc.dma cc0_scoped0.sem : SemLoc sig).isScoped .scVector = true; decide⟩⟩⟩),
    SparseCore.bigSep_erase' (Finset.mem_erase.mpr ⟨cell_ne (by decide), Finset.mem_erase.mpr ⟨cell_ne (by decide), Finset.mem_erase.mpr ⟨cell_ne (by decide), (mem_ownCells (g := cell3 d (cV L) (jV L))).mpr ⟨rfl, by show (SemLoc.dma cc0_scoped1.sem : SemLoc sig).isScoped .scVector = true; decide⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), (mem_ownCells (g := cell4 d (cV L) (jV L))).mpr ⟨rfl, by show (SemLoc.dma cc0_scoped2.sem : SemLoc sig).isScoped .scVector = true; decide⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell5 d (cV L) (jV L))).mpr ⟨rfl, by show (SemLoc.dma cc0_scoped3.sem : SemLoc sig).isScoped .scVector = true; decide⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell6 d (cV L) (jV L))).mpr ⟨rfl, by show (SemLoc.dma cc0_scoped4.sem : SemLoc sig).isScoped .scVector = true; decide⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell7 d (cV L) (jV L))).mpr ⟨rfl, by show (SemLoc.dma cc0_scoped5.sem : SemLoc sig).isScoped .scVector = true; decide⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell8 d (cV L) (jV L))).mpr ⟨rfl, by show (SemLoc.dma cc0_scoped6.sem : SemLoc sig).isScoped .scVector = true; decide⟩⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell9 d (cV L) (jV L))).mpr ⟨rfl, by show (SemLoc.dma cc0_scoped7.sem : SemLoc sig).isScoped .scVector = true; decide⟩⟩⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell10 d (cV L) (jV L))).mpr ⟨rfl, by show (SemLoc.dma cc0_scoped8.sem : SemLoc sig).isScoped .scVector = true; decide⟩⟩⟩⟩⟩⟩⟩⟩⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ### The views the task addresses, in the program's spelling -/

theorem bigSep_fin6 {M : Type} [URA M] (Φ : Fin 6 → sProp M) : bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

/-- The whole table, as every gather names it. -/
abbrev tAllK : Memref sig .scVector .hbm S100000x128 .f32 :=
  (tV).slice (Rect.unit (s := S100000x128) ![0, 0] S100000x128.size inb_S100000x128_S100000x128_0_0) (fun _ => rfl)
abbrev off0K : Memref sig .scVector .vmem S128 .i32 := (sV).slice (Rect.unit (s := S768) ![0] S128.size inb_S768_S128_0) (fun _ => rfl)
abbrev off1K : Memref sig .scVector .vmem S128 .i32 := (sV).slice (Rect.unit (s := S768) ![128] S128.size inb_S768_S128_128) (fun _ => rfl)
abbrev off2K : Memref sig .scVector .vmem S128 .i32 := (sV).slice (Rect.unit (s := S768) ![256] S128.size inb_S768_S128_256) (fun _ => rfl)
abbrev off3K : Memref sig .scVector .vmem S128 .i32 := (sV).slice (Rect.unit (s := S768) ![384] S128.size inb_S768_S128_384) (fun _ => rfl)
abbrev off4K : Memref sig .scVector .vmem S128 .i32 := (sV).slice (Rect.unit (s := S768) ![512] S128.size inb_S768_S128_512) (fun _ => rfl)
abbrev off5K : Memref sig .scVector .vmem S128 .i32 := (sV).slice (Rect.unit (s := S768) ![640] S128.size inb_S768_S128_640) (fun _ => rfl)
abbrev oB0K (L : grid0.Coords) : Memref sig .scVector .hbm S128x128 .f32 :=
  (oV).slice (Rect.unit (s := S24576x128) (k0_off2 L 0#32 0#32) S128x128.size (k0_off2_inb L 0 0)) (fun _ => rfl)
abbrev oB1K (L : grid0.Coords) : Memref sig .scVector .hbm S128x128 .f32 :=
  (oV).slice (Rect.unit (s := S24576x128) (k0_off2 L 0#32 128#32) S128x128.size (k0_off2_inb L 0 1)) (fun _ => rfl)
abbrev oB2K (L : grid0.Coords) : Memref sig .scVector .hbm S128x128 .f32 :=
  (oV).slice (Rect.unit (s := S24576x128) (k0_off2 L 8192#32 0#32) S128x128.size (k0_off2_inb L 1 0)) (fun _ => rfl)
abbrev oB3K (L : grid0.Coords) : Memref sig .scVector .hbm S128x128 .f32 :=
  (oV).slice (Rect.unit (s := S24576x128) (k0_off2 L 8192#32 128#32) S128x128.size (k0_off2_inb L 1 1)) (fun _ => rfl)
abbrev oB4K (L : grid0.Coords) : Memref sig .scVector .hbm S128x128 .f32 :=
  (oV).slice (Rect.unit (s := S24576x128) (k0_off2 L 16384#32 0#32) S128x128.size (k0_off2_inb L 2 0)) (fun _ => rfl)
abbrev oB5K (L : grid0.Coords) : Memref sig .scVector .hbm S128x128 .f32 :=
  (oV).slice (Rect.unit (s := S24576x128) (k0_off2 L 16384#32 128#32) S128x128.size (k0_off2_inb L 2 1)) (fun _ => rfl)

/-- Output block `(r1, r2)` of the task is block `64 r1 + 4 s + 2 c + r2` of the array. -/
theorem oB_rect (r1 : Fin 3) (r2 : Fin 2) :
    Rect.unit (s := S24576x128) (k0_off2 L (BitVec.ofNat 32 (8192 * r1.val)) (BitVec.ofNat 32 (128 * r2.val))) S128x128.size (k0_off2_inb L r1 r2)
      = blk (blkIx (cL L) (sL L) ⟨2 * r1.val + r2.val, by omega⟩) := by
  unfold blk Rect.part Rect.block
  congr 1 <;> funext a
  · rw [k0_off2_eq]
    match a with
    | 0 => simp [Shape.partIx, Shape.partSize, blkIx]; omega
    | 1 => simp [Shape.partIx, Shape.partSize]
  · match a with
    | 0 => simp [Shape.partSize]
    | 1 => simp [Shape.partSize]

theorem set_of_rect {r r' : Rect S24576x128} (h : r = r') : ((View.whole (main_v12_scv : Ref sig .scVector)).slice r).set = r'.set := by
  subst h; rw [View.set_slice]; exact Finset.map_refl
theorem set_oB0K : (oB0K L).view.set = blkSet (blkIx (cL L) (sL L) 0) := set_of_rect (oB_rect L 0 0)
theorem set_oB1K : (oB1K L).view.set = blkSet (blkIx (cL L) (sL L) 1) := set_of_rect (oB_rect L 0 1)
theorem set_oB2K : (oB2K L).view.set = blkSet (blkIx (cL L) (sL L) 2) := set_of_rect (oB_rect L 1 0)
theorem set_oB3K : (oB3K L).view.set = blkSet (blkIx (cL L) (sL L) 3) := set_of_rect (oB_rect L 1 1)
theorem set_oB4K : (oB4K L).view.set = blkSet (blkIx (cL L) (sL L) 4) := set_of_rect (oB_rect L 2 0)
theorem set_oB5K : (oB5K L).view.set = blkSet (blkIx (cL L) (sL L) 5) := set_of_rect (oB_rect L 2 1)

theorem pts_oB0K (f : Buf (Elt F) (outLoc 0 d)) :
    ((oB0K L).view.loc (V d (cV L) (jV L)) ↦[(oB0K L).view.set]{fullShare} f : sProp 𝕄) = outLoc 0 d ↦[blkSet (blkIx (cL L) (sL L) 0)]{fullShare} f := by
  rw [set_oB0K]
theorem pts_oB1K (f : Buf (Elt F) (outLoc 0 d)) :
    ((oB1K L).view.loc (V d (cV L) (jV L)) ↦[(oB1K L).view.set]{fullShare} f : sProp 𝕄) = outLoc 0 d ↦[blkSet (blkIx (cL L) (sL L) 1)]{fullShare} f := by
  rw [set_oB1K]
theorem pts_oB2K (f : Buf (Elt F) (outLoc 0 d)) :
    ((oB2K L).view.loc (V d (cV L) (jV L)) ↦[(oB2K L).view.set]{fullShare} f : sProp 𝕄) = outLoc 0 d ↦[blkSet (blkIx (cL L) (sL L) 2)]{fullShare} f := by
  rw [set_oB2K]
theorem pts_oB3K (f : Buf (Elt F) (outLoc 0 d)) :
    ((oB3K L).view.loc (V d (cV L) (jV L)) ↦[(oB3K L).view.set]{fullShare} f : sProp 𝕄) = outLoc 0 d ↦[blkSet (blkIx (cL L) (sL L) 3)]{fullShare} f := by
  rw [set_oB3K]
theorem pts_oB4K (f : Buf (Elt F) (outLoc 0 d)) :
    ((oB4K L).view.loc (V d (cV L) (jV L)) ↦[(oB4K L).view.set]{fullShare} f : sProp 𝕄) = outLoc 0 d ↦[blkSet (blkIx (cL L) (sL L) 4)]{fullShare} f := by
  rw [set_oB4K]
theorem pts_oB5K (f : Buf (Elt F) (outLoc 0 d)) :
    ((oB5K L).view.loc (V d (cV L) (jV L)) ↦[(oB5K L).view.set]{fullShare} f : sProp 𝕄) = outLoc 0 d ↦[blkSet (blkIx (cL L) (sL L) 5)]{fullShare} f := by
  rw [set_oB5K]

theorem goOf_six (ℓ : Loc nD τ sig) (B : Fin 192 → Finset (Idx ℓ)) (f : Buf (Elt F) ℓ) (d : Dev nD) (c : Fin 2) (s : Fin 16) :
    goOf (F := F) (UU := UU) m ℓ B f d c s =
      iprop((hLoc d ↦{tq c s} m (hLoc d)) ∗ (pLoc d ↦{tq c s} m (pLoc d)) ∗ (nLoc d ↦{tq c s} m (nLoc d)) ∗ (tabLoc d ↦{tq c s} m (tabLoc d))
        ∗ (ℓ ↦[B (blkIx c s 0)]{fullShare} f) ∗ (ℓ ↦[B (blkIx c s 1)]{fullShare} f) ∗ (ℓ ↦[B (blkIx c s 2)]{fullShare} f)
        ∗ (ℓ ↦[B (blkIx c s 3)]{fullShare} f) ∗ (ℓ ↦[B (blkIx c s 4)]{fullShare} f) ∗ (ℓ ↦[B (blkIx c s 5)]{fullShare} f)) := by
  show iprop(_ ∗ _ ∗ _ ∗ _ ∗ bigSep Finset.univ _) = _
  rw [bigSep_fin6]

/-! ### The index scratch as its six lists of 128 offsets -/

theorem sdiv : 6 ∣ S768.size 0 := ⟨128, rfl⟩
abbrev lst (k : Fin 6) : Rect S768 := Rect.part (s := S768) (a₀ := 0) sdiv k

theorem off_rect (k : Fin 6) (h : ∀ a, (![128 * k.val] : Fin 1 → Nat) a + S128.size a ≤ S768.size a) :
    Rect.unit (s := S768) ![128 * k.val] S128.size h = lst k := by
  unfold lst Rect.part Rect.block
  congr 1 <;> funext a
  · match a with
    | 0 => simp [Shape.partIx, Shape.partSize]; omega
  · match a with
    | 0 => simp [Shape.partSize]

theorem set_of_lst {r r' : Rect S768} (h : r = r') : ((View.whole (cc0_scratch0 : Ref sig .scVector)).slice r).set = r'.set := by
  subst h; rw [View.set_slice]; exact Finset.map_refl
theorem set_off0K : (off0K).view.set = (lst 0).set := set_of_lst (off_rect 0 inb_S768_S128_0)
theorem set_off1K : (off1K).view.set = (lst 1).set := set_of_lst (off_rect 1 inb_S768_S128_128)
theorem set_off2K : (off2K).view.set = (lst 2).set := set_of_lst (off_rect 2 inb_S768_S128_256)
theorem set_off3K : (off3K).view.set = (lst 3).set := set_of_lst (off_rect 3 inb_S768_S128_384)
theorem set_off4K : (off4K).view.set = (lst 4).set := set_of_lst (off_rect 4 inb_S768_S128_512)
theorem set_off5K : (off5K).view.set = (lst 5).set := set_of_lst (off_rect 5 inb_S768_S128_640)

theorem sV_six (f : Buf (Elt F) ((V d (cV L) (jV L)).loc cc0_scratch0)) :
    ((sV).view.loc (V d (cV L) (jV L)) ↦{fullShare} f : sProp 𝕄)
      = iprop(((off0K).view.loc (V d (cV L) (jV L)) ↦[(off0K).view.set]{fullShare} f)
          ∗ ((off1K).view.loc (V d (cV L) (jV L)) ↦[(off1K).view.set]{fullShare} f)
          ∗ ((off2K).view.loc (V d (cV L) (jV L)) ↦[(off2K).view.set]{fullShare} f)
          ∗ ((off3K).view.loc (V d (cV L) (jV L)) ↦[(off3K).view.set]{fullShare} f)
          ∗ ((off4K).view.loc (V d (cV L) (jV L)) ↦[(off4K).view.set]{fullShare} f)
          ∗ ((off5K).view.loc (V d (cV L) (jV L)) ↦[(off5K).view.set]{fullShare} f)) := by
  rw [set_off0K, set_off1K, set_off2K, set_off3K, set_off4K, set_off5K]
  have e : ((sV).view.loc (V d (cV L) (jV L)) ↦{fullShare} f : sProp 𝕄) = bigSep Finset.univ fun k : Fin 6 => (sV).view.loc (V d (cV L) (jV L)) ↦[(lst k).set]{fullShare} f := by
    rw [← pointsTo_biUnion Finset.univ (ℓ := (sV).view.loc (V d (cV L) (jV L))) (fun k : Fin 6 => (lst k).set) (fun i _ j _ h => Rect.part_disjoint sdiv h), Rect.biUnion_part sdiv]; try rfl
  rw [e, bigSep_fin6]

/-! ### A block written whole with the gathered rows is the gathered array there -/

theorem writes_whole_emb {κ : Kind} {sp : Space} {s : Shape} (v : View sig κ sp s .f32) (f0 : v.ty.Contents (Elt F)) (W : s.Idx → F .f32) (x : s.Idx) :
    v.read (Elt F) (v.writes (Elt F) f0 [⟨Rect.whole s, W⟩]) x = W x := by
  have h := View.read_writes_cons_emb v f0 (Rect.whole s) W [] x
  rwa [Rect.emb_whole_apply] at h

theorem blk_congr0 (f0 : Buf (Elt F) (outLoc 0 d)) (W : S128x128.Idx → F .f32)
    (hW : ∀ x, W x = gathAt m 0 d ((oB0K L).view.emb x)) :
    ((oB0K L).view.loc (V d (cV L) (jV L)) ↦[(oB0K L).view.set]{fullShare} (oB0K L).view.writes (Elt F) f0 [⟨Rect.whole S128x128, W⟩] : sProp 𝕄)
      = outLoc 0 d ↦[blkSet (blkIx (cL L) (sL L) 0)]{fullShare} gathAt m 0 d := by
  rw [← pts_oB0K (F := F) (UU := UU) d L (gathAt m 0 d)]
  refine pointsTo_congr fun i hi => ?_
  obtain ⟨x, -, rfl⟩ := Finset.mem_map.mp hi
  have h := writes_whole_emb (F := F) (oB0K L).view f0 W x
  rw [View.read_apply] at h
  exact ((cast_eq _ _).symm.trans h).trans (hW x)

theorem blk_congr1 (f0 : Buf (Elt F) (outLoc 0 d)) (W : S128x128.Idx → F .f32)
    (hW : ∀ x, W x = gathAt m 0 d ((oB1K L).view.emb x)) :
    ((oB1K L).view.loc (V d (cV L) (jV L)) ↦[(oB1K L).view.set]{fullShare} (oB1K L).view.writes (Elt F) f0 [⟨Rect.whole S128x128, W⟩] : sProp 𝕄)
      = outLoc 0 d ↦[blkSet (blkIx (cL L) (sL L) 1)]{fullShare} gathAt m 0 d := by
  rw [← pts_oB1K (F := F) (UU := UU) d L (gathAt m 0 d)]
  refine pointsTo_congr fun i hi => ?_
  obtain ⟨x, -, rfl⟩ := Finset.mem_map.mp hi
  have h := writes_whole_emb (F := F) (oB1K L).view f0 W x
  rw [View.read_apply] at h
  exact ((cast_eq _ _).symm.trans h).trans (hW x)

theorem blk_congr2 (f0 : Buf (Elt F) (outLoc 0 d)) (W : S128x128.Idx → F .f32)
    (hW : ∀ x, W x = gathAt m 0 d ((oB2K L).view.emb x)) :
    ((oB2K L).view.loc (V d (cV L) (jV L)) ↦[(oB2K L).view.set]{fullShare} (oB2K L).view.writes (Elt F) f0 [⟨Rect.whole S128x128, W⟩] : sProp 𝕄)
      = outLoc 0 d ↦[blkSet (blkIx (cL L) (sL L) 2)]{fullShare} gathAt m 0 d := by
  rw [← pts_oB2K (F := F) (UU := UU) d L (gathAt m 0 d)]
  refine pointsTo_congr fun i hi => ?_
  obtain ⟨x, -, rfl⟩ := Finset.mem_map.mp hi
  have h := writes_whole_emb (F := F) (oB2K L).view f0 W x
  rw [View.read_apply] at h
  exact ((cast_eq _ _).symm.trans h).trans (hW x)

theorem blk_congr3 (f0 : Buf (Elt F) (outLoc 0 d)) (W : S128x128.Idx → F .f32)
    (hW : ∀ x, W x = gathAt m 0 d ((oB3K L).view.emb x)) :
    ((oB3K L).view.loc (V d (cV L) (jV L)) ↦[(oB3K L).view.set]{fullShare} (oB3K L).view.writes (Elt F) f0 [⟨Rect.whole S128x128, W⟩] : sProp 𝕄)
      = outLoc 0 d ↦[blkSet (blkIx (cL L) (sL L) 3)]{fullShare} gathAt m 0 d := by
  rw [← pts_oB3K (F := F) (UU := UU) d L (gathAt m 0 d)]
  refine pointsTo_congr fun i hi => ?_
  obtain ⟨x, -, rfl⟩ := Finset.mem_map.mp hi
  have h := writes_whole_emb (F := F) (oB3K L).view f0 W x
  rw [View.read_apply] at h
  exact ((cast_eq _ _).symm.trans h).trans (hW x)

theorem blk_congr4 (f0 : Buf (Elt F) (outLoc 0 d)) (W : S128x128.Idx → F .f32)
    (hW : ∀ x, W x = gathAt m 0 d ((oB4K L).view.emb x)) :
    ((oB4K L).view.loc (V d (cV L) (jV L)) ↦[(oB4K L).view.set]{fullShare} (oB4K L).view.writes (Elt F) f0 [⟨Rect.whole S128x128, W⟩] : sProp 𝕄)
      = outLoc 0 d ↦[blkSet (blkIx (cL L) (sL L) 4)]{fullShare} gathAt m 0 d := by
  rw [← pts_oB4K (F := F) (UU := UU) d L (gathAt m 0 d)]
  refine pointsTo_congr fun i hi => ?_
  obtain ⟨x, -, rfl⟩ := Finset.mem_map.mp hi
  have h := writes_whole_emb (F := F) (oB4K L).view f0 W x
  rw [View.read_apply] at h
  exact ((cast_eq _ _).symm.trans h).trans (hW x)

theorem blk_congr5 (f0 : Buf (Elt F) (outLoc 0 d)) (W : S128x128.Idx → F .f32)
    (hW : ∀ x, W x = gathAt m 0 d ((oB5K L).view.emb x)) :
    ((oB5K L).view.loc (V d (cV L) (jV L)) ↦[(oB5K L).view.set]{fullShare} (oB5K L).view.writes (Elt F) f0 [⟨Rect.whole S128x128, W⟩] : sProp 𝕄)
      = outLoc 0 d ↦[blkSet (blkIx (cL L) (sL L) 5)]{fullShare} gathAt m 0 d := by
  rw [← pts_oB5K (F := F) (UU := UU) d L (gathAt m 0 d)]
  refine pointsTo_congr fun i hi => ?_
  obtain ⟨x, -, rfl⟩ := Finset.mem_map.mp hi
  have h := writes_whole_emb (F := F) (oB5K L).view f0 W x
  rw [View.read_apply] at h
  exact ((cast_eq _ _).symm.trans h).trans (hW x)

/-! ### The values: what the copies land in the index scratch, what a gather delivers -/

/-- The first of the subcore's 256 words of each index array. -/
abbrev base (L : grid0.Coords) : ℕ := 512 * (L 1).val + 256 * (L 0).val
theorem L0_lt : (L 0).val < 2 := (L 0).isLt
theorem L1_lt : (L 1).val < 16 := (L 1).isLt
theorem base_le : base L + 256 ≤ 16384 := by have := L0_lt L; have := L1_lt L; unfold base; omega
theorem off1_zero : k0_off1 L 0 = base L := by rw [k0_off1_eq]; rfl

/-- Word `y` of the index scratch once the three copies have landed. -/
def idxW : S768.Idx → BitVec 32 := fun y =>
  sel (m (hLoc d)) (m (pLoc d)) (m (nLoc d)) ((y 0).val / 256)
    (ix1 (n := 16384) ⟨base L + (y 0).val % 256, by have := base_le L; omega⟩)

theorem dmaH_apply (x : S256.Idx) :
    (ReadAs.same.apply (View.read (Elt F) ((hV).slice (Rect.unit (s := S16384) (k0_off1 L) S256.size (k0_off1_inb L)) (fun _ => rfl)).view (m (hLoc d))) : S256.Idx → BitVec 32) x
      = m (hLoc d) (ix1 (n := 16384) ⟨base L + (x 0).val, by have := base_le L; have := lt256 x; omega⟩) := by
  rw [ReadAs.apply_same, View.read_apply]
  refine (cast_eq _ _).trans (congrArg (m (hLoc d)) ?_)
  exact emb1 (n := 16384) (k0_off1 L) S256.size (k0_off1_inb L) x (base L) (off1_zero L) _

theorem dmaP_apply (x : S256.Idx) :
    (ReadAs.same.apply (View.read (Elt F) ((pV).slice (Rect.unit (s := S16384) (k0_off1 L) S256.size (k0_off1_inb L)) (fun _ => rfl)).view (m (pLoc d))) : S256.Idx → BitVec 32) x
      = m (pLoc d) (ix1 (n := 16384) ⟨base L + (x 0).val, by have := base_le L; have := lt256 x; omega⟩) := by
  rw [ReadAs.apply_same, View.read_apply]
  refine (cast_eq _ _).trans (congrArg (m (pLoc d)) ?_)
  exact emb1 (n := 16384) (k0_off1 L) S256.size (k0_off1_inb L) x (base L) (off1_zero L) _

theorem dmaN_apply (x : S256.Idx) :
    (ReadAs.same.apply (View.read (Elt F) ((nV).slice (Rect.unit (s := S16384) (k0_off1 L) S256.size (k0_off1_inb L)) (fun _ => rfl)).view (m (nLoc d))) : S256.Idx → BitVec 32) x
      = m (nLoc d) (ix1 (n := 16384) ⟨base L + (x 0).val, by have := base_le L; have := lt256 x; omega⟩) := by
  rw [ReadAs.apply_same, View.read_apply]
  refine (cast_eq _ _).trans (congrArg (m (nLoc d)) ?_)
  exact emb1 (n := 16384) (k0_off1 L) S256.size (k0_off1_inb L) x (base L) (off1_zero L) _

theorem idxW_eq (y : S768.Idx) (b r : ℕ) (hb : (y 0).val / 256 = b) (hr : (y 0).val % 256 = r) (hlt : base L + r < 16384) :
    idxW m d L y = sel (m (hLoc d)) (m (pLoc d)) (m (nLoc d)) b (ix1 (n := 16384) ⟨base L + r, hlt⟩) := by
  subst hb hr; rfl

/-- The index scratch after the three copies reads `idxW`, whatever it held before. -/
theorem FS_apply (fj : Buf (Elt F) ((sV).view.loc (V d (cV L) (jV L)))) (w0 w1 w2 : S256.Idx → BitVec 32)
    (h0 : ∀ x, w0 x = m (hLoc d) (ix1 (n := 16384) ⟨base L + (x 0).val, by have := base_le L; have := lt256 x; omega⟩))
    (h1 : ∀ x, w1 x = m (pLoc d) (ix1 (n := 16384) ⟨base L + (x 0).val, by have := base_le L; have := lt256 x; omega⟩))
    (h2 : ∀ x, w2 x = m (nLoc d) (ix1 (n := 16384) ⟨base L + (x 0).val, by have := base_le L; have := lt256 x; omega⟩))
    (y : S768.Idx) :
    (sV).view.writes (Elt F) fj [⟨Rect.unit ![512] S256.size inb_S768_S256_512, w2⟩, ⟨Rect.unit ![256] S256.size inb_S768_S256_256, w1⟩,
      ⟨Rect.unit ![0] S256.size inb_S768_S256_0, w0⟩] y = idxW m d L y := by
  show View.read (Elt F) (sV).view ((sV).view.writes (Elt F) fj [⟨Rect.unit ![512] S256.size inb_S768_S256_512, w2⟩,
    ⟨Rect.unit ![256] S256.size inb_S768_S256_256, w1⟩, ⟨Rect.unit ![0] S256.size inb_S768_S256_0, w0⟩]) y = idxW m d L y
  refine View.read_writes_apply_of_pieces (sV).view fj (idxW m d L) _ ?hG y ?hcov
  case hG =>
    intro p hp x
    rcases List.mem_cons.mp hp with rfl | hp
    · show w2 x = idxW m d L ((Rect.unit (s := S768) ![512] S256.size inb_S768_S256_512).emb x)
      have hx := lt256 x
      rw [h2 x, emb1 (n := 768) ![512] S256.size inb_S768_S256_512 x 512 rfl (by omega),
        idxW_eq m d L _ 2 (x 0).val (by show (512 + (x 0).val) / 256 = 2; omega) (by show (512 + (x 0).val) % 256 = (x 0).val; omega)
          (by have := base_le L; omega)]
      simp [sel]
    rcases List.mem_cons.mp hp with rfl | hp
    · show w1 x = idxW m d L ((Rect.unit (s := S768) ![256] S256.size inb_S768_S256_256).emb x)
      have hx := lt256 x
      rw [h1 x, emb1 (n := 768) ![256] S256.size inb_S768_S256_256 x 256 rfl (by omega),
        idxW_eq m d L _ 1 (x 0).val (by show (256 + (x 0).val) / 256 = 1; omega) (by show (256 + (x 0).val) % 256 = (x 0).val; omega)
          (by have := base_le L; omega)]
      simp [sel]
    rcases List.mem_cons.mp hp with rfl | hp
    · show w0 x = idxW m d L ((Rect.unit (s := S768) ![0] S256.size inb_S768_S256_0).emb x)
      have hx := lt256 x
      rw [h0 x, emb1 (n := 768) ![0] S256.size inb_S768_S256_0 x 0 rfl (by omega),
        idxW_eq m d L _ 0 (x 0).val (by show (0 + (x 0).val) / 256 = 0; omega) (by show (0 + (x 0).val) % 256 = (x 0).val; omega)
          (by have := base_le L; omega)]
      simp [sel]
    · exact absurd hp List.not_mem_nil
  case hcov =>
    have hy := lt768 y
    by_cases c1 : (y 0).val < 256
    · exact ⟨_, List.mem_cons_of_mem _ (List.mem_cons_of_mem _ List.mem_cons_self),
        (Rect.mem_set_unit (s := S768) (off := ![0]) (size := S256.size) (inb := inb_S768_S256_0)).mpr (Fin.forall_fin_one.mpr ⟨Nat.zero_le _, by show (y 0).val < 0 + 256; omega⟩)⟩
    by_cases c2 : (y 0).val < 512
    · exact ⟨_, List.mem_cons_of_mem _ List.mem_cons_self,
        (Rect.mem_set_unit (s := S768) (off := ![256]) (size := S256.size) (inb := inb_S768_S256_256)).mpr (Fin.forall_fin_one.mpr ⟨by show 256 ≤ (y 0).val; omega, by show (y 0).val < 256 + 256; omega⟩)⟩
    · exact ⟨_, List.mem_cons_self,
        (Rect.mem_set_unit (s := S768) (off := ![512]) (size := S256.size) (inb := inb_S768_S256_512)).mpr (Fin.forall_fin_one.mpr ⟨by show 512 ≤ (y 0).val; omega, by show (y 0).val < 512 + 256; omega⟩)⟩

/-- A list of 128 offsets read out of the index scratch. -/
theorem off_read (o : ℕ) (inb : ∀ a, (![o] : Fin 1 → ℕ) a + S128.size a ≤ S768.size a) (ho : o + 128 ≤ 768)
    (g : Buf (Elt F) ((sV).view.loc (V d (cV L) (jV L)))) (x : S128.Idx) :
    ((sV).slice (Rect.unit (s := S768) ![o] S128.size inb) (fun _ => rfl)).view.read (Elt F) g x
      = g (ix1 (n := 768) ⟨o + (x 0).val, by have := lt128 x; omega⟩) := by
  rw [View.read_apply]
  refine (cast_eq _ _).trans (congrArg g ?_)
  exact emb1 (n := 768) ![o] S128.size inb x o rfl _

theorem idxW_lt (hr : ∀ d, Cert.Spec.InRange (m (hLoc d)) (m ((SparseCore.T d).loc main_arg4)) (m (pLoc d)) (m (nLoc d))) (y : S768.Idx) :
    (idxW m d L y).toNat < 100000 := sel_lt (hr d) _ _

/-- The offsets a gather reads are rows of the table. -/
theorem hin_of (hr : ∀ d, Cert.Spec.InRange (m (hLoc d)) (m ((SparseCore.T d).loc main_arg4)) (m (pLoc d)) (m (nLoc d)))
    (o : ℕ) (inb : ∀ a, (![o] : Fin 1 → ℕ) a + S128.size a ≤ S768.size a) (ho : o + 128 ≤ 768)
    (g : Buf (Elt F) ((sV).view.loc (V d (cV L) (jV L)))) (hg' : ∀ y, g y = idxW m d L y) (x : S128.Idx) :
    (((sV).slice (Rect.unit (s := S768) ![o] S128.size inb) (fun _ => rfl)).view.read (Elt F) g x).toNat
      < S100000x128.size gathers_S100000x128_S128x128.axis := by
  rw [off_read (F := F) d L o inb ho g x, hg']
  exact idxW_lt m d L hr _

/-- What a gather delivers at an index of the row scratch: the table's row named by that word of the index scratch. -/
theorem gather_apply (hr : ∀ d, Cert.Spec.InRange (m (hLoc d)) (m ((SparseCore.T d).loc main_arg4)) (m (pLoc d)) (m (nLoc d)))
    (o : ℕ) (inb : ∀ a, (![o] : Fin 1 → ℕ) a + S128.size a ≤ S768.size a) (ho : o + 128 ≤ 768)
    (g : Buf (Elt F) ((sV).view.loc (V d (cV L) (jV L)))) (hg' : ∀ y, g y = idxW m d L y)
    (hn : S128.numel = S128x128.size gathers_S100000x128_S128x128.axis')
    (hin : ∀ x, (((sV).slice (Rect.unit (s := S768) ![o] S128.size inb) (fun _ => rfl)).view.read (Elt F) g x).toNat
      < S100000x128.size gathers_S100000x128_S128x128.axis)
    (x : S128x128.Idx) :
    SparseCore.gatherPayload gathers_S100000x128_S128x128 ((tAllK).view.read (Elt F) (m (tabLoc d)))
        (SparseCore.rows (((sV).slice (Rect.unit (s := S768) ![o] S128.size inb) (fun _ => rfl)).view.read (Elt F) g) hn hin) x
      = m (tabLoc d) (ix2 (n0 := 100000) (n1 := 128)
          ⟨(idxW m d L (ix1 (n := 768) ⟨o + (x 0).val, by have := lt128r x; omega⟩)).toNat, idxW_lt m d L hr _⟩ (x 1)) := by
  unfold SparseCore.gatherPayload
  rw [View.read_apply]
  refine (cast_eq _ _).trans (congrArg (m (tabLoc d)) ?_)
  refine (emb2 (n0 := 100000) (n1 := 128) ![0, 0] S100000x128.size inb_S100000x128_S100000x128_0_0 _ 0 0 rfl rfl
    (by rw [Nat.zero_add]; exact Fin.isLt _) (by rw [Nat.zero_add]; exact Fin.isLt _)).trans ?_
  funext a
  match a with
  | 0 =>
    refine Fin.ext ?_
    show 0 + (Shape.Gathers.idx gathers_S100000x128_S128x128 _ x gathers_S100000x128_S128x128.axis).val = _
    rw [Shape.Gathers.idx_axis, Nat.zero_add]
    show (((sV).slice (Rect.unit (s := S768) ![o] S128.size inb) (fun _ => rfl)).view.read (Elt F) g _).toNat = _
    rw [off_read (F := F) d L o inb ho g _, hg']
    exact congrArg (fun v : Fin 768 => (idxW m d L (ix1 (n := 768) v)).toNat) (Fin.ext (congrArg (o + ·) (rowMajor_symm_one (n := 128) _)))
  | 1 =>
    refine Fin.ext ?_
    show 0 + (Shape.Gathers.idx gathers_S100000x128_S128x128 _ x 1).val = (x 1).val
    rw [Shape.Gathers.idx_of_ne _ _ _ 1 (by decide), Nat.zero_add]
    rfl

theorem idxW_ix1 (v : ℕ) (hv : v < 768) (b r : ℕ) (hb : v / 256 = b) (hr : v % 256 = r) (hlt : base L + r < 16384) :
    idxW m d L (ix1 (n := 768) ⟨v, hv⟩) = sel (m (hLoc d)) (m (pLoc d)) (m (nLoc d)) b (ix1 (n := 16384) ⟨base L + r, hlt⟩) :=
  idxW_eq m d L _ b r hb hr hlt

/-- The gathered array at an element of output block `(r1, r2)` of the subcore: the table's row named by word
    `128 (2 r1 + r2) + x 0` of the index scratch. -/
theorem gath_blk (hr : ∀ d, Cert.Spec.InRange (m (hLoc d)) (m ((SparseCore.T d).loc main_arg4)) (m (pLoc d)) (m (nLoc d)))
    (r1 : Fin 3) (r2 : Fin 2) (x : S128x128.Idx) :
    gathAt m 0 d (((oV).slice (Rect.unit (s := S24576x128) (k0_off2 L (BitVec.ofNat 32 (8192 * r1.val)) (BitVec.ofNat 32 (128 * r2.val))) S128x128.size
        (k0_off2_inb L r1 r2)) (fun _ => rfl)).view.emb x)
      = m (tabLoc d) (ix2 (n0 := 100000) (n1 := 128)
          ⟨(idxW m d L (ix1 (n := 768) ⟨128 * (2 * r1.val + r2.val) + (x 0).val, by have := lt128r x; have := r1.isLt; have := r2.isLt; omega⟩)).toNat,
            idxW_lt m d L hr _⟩ (x 1)) := by
  have hx0 := lt128r x; have hx1 := lt128c x; have h0 := L0_lt L; have h1 := L1_lt L; have hr1 := r1.isLt; have hr2 := r2.isLt
  have hb := base_le L
  have hemb := emb2 (n0 := 24576) (n1 := 128) (k0_off2 L (BitVec.ofNat 32 (8192 * r1.val)) (BitVec.ofNat 32 (128 * r2.val))) S128x128.size
      (k0_off2_inb L r1 r2) x (8192 * r1.val + 512 * (L 1).val + 256 * (L 0).val + 128 * r2.val) 0
      (by rw [k0_off2_eq]; rfl) (by rw [k0_off2_eq]; rfl) (by omega) (by omega)
  show gath 0 (m (tabLoc d)) (m (hLoc d)) (m (pLoc d)) (m (nLoc d))
    ((Rect.unit (s := S24576x128) (k0_off2 L (BitVec.ofNat 32 (8192 * r1.val)) (BitVec.ofNat 32 (128 * r2.val))) S128x128.size (k0_off2_inb L r1 r2)).emb x) = _
  rw [hemb, gath_ix2]
  refine congrArg (m (tabLoc d)) ?_
  have hw : (Cert.Spec.rowOf 100000 (by decide) (sel (m (hLoc d)) (m (pLoc d)) (m (nLoc d))
        ((8192 * r1.val + 512 * (L 1).val + 256 * (L 0).val + 128 * r2.val + (x 0).val) / 8192)
        (ix1 (n := 16384) ⟨8192 * (0 : Fin 2).val + (8192 * r1.val + 512 * (L 1).val + 256 * (L 0).val + 128 * r2.val + (x 0).val) % 8192,
          by have : ((0 : Fin 2).val) = 0 := rfl; omega⟩))).val
      = (idxW m d L (ix1 (n := 768) ⟨128 * (2 * r1.val + r2.val) + (x 0).val, by omega⟩)).toNat := by
    rw [Cert.Spec.rowOf_val_of_lt _ (sel_lt (hr d) _ _),
      idxW_ix1 m d L _ _ r1.val (128 * r2.val + (x 0).val) (by omega) (by omega) (by omega)]
    refine congrArg BitVec.toNat (sel_congr _ _ _ (by omega) ?_)
    show 8192 * (0 : Fin 2).val + (8192 * r1.val + 512 * (L 1).val + 256 * (L 0).val + 128 * r2.val + (x 0).val) % 8192 = base L + (128 * r2.val + (x 0).val)
    have : ((0 : Fin 2).val) = 0 := rfl
    unfold base; omega
  funext a
  match a with
  | 0 => exact Fin.ext hw
  | 1 => exact Fin.ext (Nat.zero_add _)

/-- What a copy-out lands in output block `(r1, r2)`: the row scratch as gather `2 r1 + r2` left it, which is the
    gathered array there. -/
theorem copyout_val (hr : ∀ d, Cert.Spec.InRange (m (hLoc d)) (m ((SparseCore.T d).loc main_arg4)) (m (pLoc d)) (m (nLoc d)))
    (r1 : Fin 3) (r2 : Fin 2) (o : ℕ) (ho : o = 128 * (2 * r1.val + r2.val))
    (inb : ∀ a, (![o] : Fin 1 → ℕ) a + S128.size a ≤ S768.size a)
    (g : Buf (Elt F) ((sV).view.loc (V d (cV L) (jV L)))) (hg' : ∀ y, g y = idxW m d L y)
    (hn : S128.numel = S128x128.size gathers_S100000x128_S128x128.axis')
    (hin : ∀ x, (((sV).slice (Rect.unit (s := S768) ![o] S128.size inb) (fun _ => rfl)).view.read (Elt F) g x).toNat
      < S100000x128.size gathers_S100000x128_S128x128.axis)
    (v : View sig .scVector .vmem S128x128 .f32) (fa : v.ty.Contents (Elt F)) (rest : List (View.Piece (Elt F) S128x128 .f32))
    (x : S128x128.Idx) :
    (ReadAs.same.apply (v.read (Elt F) (v.writes (Elt F) fa (⟨Rect.whole S128x128,
        SparseCore.gatherPayload gathers_S100000x128_S128x128 ((tAllK).view.read (Elt F) (m (tabLoc d)))
          (SparseCore.rows (((sV).slice (Rect.unit (s := S768) ![o] S128.size inb) (fun _ => rfl)).view.read (Elt F) g) hn hin)⟩ :: rest)))
          : S128x128.Idx → F .f32) x
      = gathAt m 0 d (((oV).slice (Rect.unit (s := S24576x128) (k0_off2 L (BitVec.ofNat 32 (8192 * r1.val)) (BitVec.ofNat 32 (128 * r2.val))) S128x128.size
        (k0_off2_inb L r1 r2)) (fun _ => rfl)).view.emb x) := by
  subst ho
  have hr1 := r1.isLt; have hr2 := r2.isLt
  rw [ReadAs.apply_same, read_writes_whole_head, gather_apply (F := F) m d L hr _ inb (by omega) g hg' hn hin x, gath_blk (F := F) m d L hr r1 r2 x]

set_option maxHeartbeats 4000000 in
theorem tile_body (hF : (K (F := F)).Facts)
    (hr : ∀ d, Cert.Spec.InRange (m (hLoc d)) (m ((SparseCore.T d).loc main_arg4)) (m (pLoc d)) (m (nLoc d)))
    (O : CellTallies nD τ sig (HIx 2)) (W : Waits sig (HIx 2)) (hO : ∀ g, O g none = 0) :
    iprop(levAts (K (F := F)).L (K (F := F)).lev ∗ emp
        ∗ goOf (F := F) (UU := UU) m (outLoc 0 d) blkSet (m (outLoc 0 d)) d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L hV (Memref.isWhole_whole _) pV (Memref.isWhole_whole _) nV (Memref.isWhole_whole _) tV (Memref.isWhole_whole _)
            oV (Memref.isWhole_whole _) sV (Memref.isWhole_whole _) aV (Memref.isWhole_whole _) bV (Memref.isWhole_whole _)
            cc0_scratch3 cc0_scratch4 cc0_scoped0 cc0_scoped1 cc0_scoped2 cc0_scoped3 cc0_scoped4 cc0_scoped5 cc0_scoped6 cc0_scoped7 cc0_scoped8)
          fun _ => iprop(goOf (F := F) (UU := UU) m (outLoc 0 d) blkSet (gathAt m 0 d) d (cL L) (sL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V, goOf_six, goOf_six]
  iintro ⟨#Hlv, -, ⟨Hh, Hp, Hn, Ht, Ho0, Ho1, Ho2, Ho3, Ho4, Ho5⟩, ⟨⟨%fs, Hs⟩, ⟨%fa, Ha⟩, ⟨%fb, Hb⟩, Hbufs⟩, ⟨Hc0, Hc1, Hc2, Hc3, Hc4, Hc5, Hc6, Hc7, Hc8, Hc9, Hc10, Hsems⟩, HO⟩
  ihave Hmw := (show levAts (K (F := F)).L (K (F := F)).lev ⊢ Transfers.MayWaits (V d (cV L) (jV L)) (default : HIx 2) O from
    (K (F := F)).mayWaits_none (thr := (V d (cV L) (jV L))) hO) $$ Hlv
  ihave Ho0' := (Entails.of_eq (pts_oB0K (F := F) (UU := UU) d L _).symm) $$ Ho0
  ihave Ho1' := (Entails.of_eq (pts_oB1K (F := F) (UU := UU) d L _).symm) $$ Ho1
  ihave Ho2' := (Entails.of_eq (pts_oB2K (F := F) (UU := UU) d L _).symm) $$ Ho2
  ihave Ho3' := (Entails.of_eq (pts_oB3K (F := F) (UU := UU) d L _).symm) $$ Ho3
  ihave Ho4' := (Entails.of_eq (pts_oB4K (F := F) (UU := UU) d L _).symm) $$ Ho4
  ihave Ho5' := (Entails.of_eq (pts_oB5K (F := F) (UU := UU) d L _).symm) $$ Ho5
  ihave Hh' := (Entails.of_eq (show (hLoc d ↦{tq (cL L) (sL L)} m (hLoc d) : sProp 𝕄) = (hV).view.loc (V d (cV L) (jV L)) ↦{tq (cL L) (sL L)} m (hLoc d) from rfl)) $$ Hh
  ihave Hp' := (Entails.of_eq (show (pLoc d ↦{tq (cL L) (sL L)} m (pLoc d) : sProp 𝕄) = (pV).view.loc (V d (cV L) (jV L)) ↦{tq (cL L) (sL L)} m (pLoc d) from rfl)) $$ Hp
  ihave Hn' := (Entails.of_eq (show (nLoc d ↦{tq (cL L) (sL L)} m (nLoc d) : sProp 𝕄) = (nV).view.loc (V d (cV L) (jV L)) ↦{tq (cL L) (sL L)} m (nLoc d) from rfl)) $$ Hn
  ihave Ht' := (Entails.of_eq (show (tabLoc d ↦{tq (cL L) (sL L)} m (tabLoc d) : sProp 𝕄) = (tV).view.loc (V d (cV L) (jV L)) ↦{tq (cL L) (sL L)} m (tabLoc d) from rfl)) $$ Ht
  ihave Hs' := (Entails.of_eq (show ((V d (cV L) (jV L)).loc cc0_scratch0 ↦{fullShare} fs : sProp 𝕄) = (sV).view.loc (V d (cV L) (jV L)) ↦{fullShare} fs from rfl)) $$ Hs
  ihave Ha' := (Entails.of_eq (show ((V d (cV L) (jV L)).loc cc0_scratch1 ↦{fullShare} fa : sProp 𝕄) = (aV).view.loc (V d (cV L) (jV L)) ↦{fullShare} fa from rfl)) $$ Ha
  ihave Hb' := (Entails.of_eq (show ((V d (cV L) (jV L)).loc cc0_scratch2 ↦{fullShare} fb : sProp 𝕄) = (bV).view.loc (V d (cV L) (jV L)) ↦{fullShare} fb from rfl)) $$ Hb
  sl_exec

  ihave Hs6 := (Entails.of_eq (sV_six (F := F) (UU := UU) d L _)) $$ Hs'
  icases Hs6 with ⟨Hl0, Hl1, Hl2, Hl3, Hl4, Hl5⟩
  ihave Ht2 := (pointsTo_share (PosShare.mem_left_op_right (tq (cL L) (sL L)))).1 $$ Ht'
  icases Ht2 with ⟨Htl, Htr⟩
  have hFS : ∀ y, ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) y = idxW m d L y :=
    FS_apply (F := F) m d L _ _ _ _ (dmaH_apply (F := F) m d L) (dmaP_apply (F := F) m d L) (dmaN_apply (F := F) m d L)
  have hin0 : ∀ x, ((off0K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 0 inb_S768_S128_0 (by omega) _ hFS
  have hin1 : ∀ x, ((off1K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 128 inb_S768_S128_128 (by omega) _ hFS
  have hin2 : ∀ x, ((off2K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 256 inb_S768_S128_256 (by omega) _ hFS
  have hin3 : ∀ x, ((off3K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 384 inb_S768_S128_384 (by omega) _ hFS
  have hin4 : ∀ x, ((off4K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 512 inb_S768_S128_512 (by omega) _ hFS
  have hin5 : ∀ x, ((off5K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 640 inb_S768_S128_640 (by omega) _ hFS
  sl_exec
  sl_step
  have hW0 : ∀ x, tile_body.sl.dma0_3 m d L fa hin0 x = gathAt m 0 d ((oB0K L).view.emb x) := fun x => copyout_val (F := F) m d L hr 0 0 0 rfl inb_S768_S128_0 _ hFS _ hin0 (aV).view _ _ x
  have hW1 : ∀ x, tile_body.sl.dma0_4 m d L fb hin1 x = gathAt m 0 d ((oB1K L).view.emb x) := fun x => copyout_val (F := F) m d L hr 0 1 128 rfl inb_S768_S128_128 _ hFS _ hin1 (bV).view _ _ x
  have hW2 : ∀ x, tile_body.sl.dma0_5 m d L fa hin0 hin2 x = gathAt m 0 d ((oB2K L).view.emb x) := fun x => copyout_val (F := F) m d L hr 1 0 256 rfl inb_S768_S128_256 _ hFS _ hin2 (aV).view _ _ x
  have hW3 : ∀ x, tile_body.sl.dma0_6 m d L fb hin1 hin3 x = gathAt m 0 d ((oB3K L).view.emb x) := fun x => copyout_val (F := F) m d L hr 1 1 384 rfl inb_S768_S128_384 _ hFS _ hin3 (bV).view _ _ x
  have hW4 : ∀ x, tile_body.sl.dma0_7 m d L fa hin0 hin2 hin4 x = gathAt m 0 d ((oB4K L).view.emb x) := fun x => copyout_val (F := F) m d L hr 2 0 512 rfl inb_S768_S128_512 _ hFS _ hin4 (aV).view _ _ x
  have hW5 : ∀ x, tile_body.sl.dma0_8 m d L fb hin1 hin3 hin5 x = gathAt m 0 d ((oB5K L).view.emb x) := fun x => copyout_val (F := F) m d L hr 2 1 640 rfl inb_S768_S128_640 _ hFS _ hin5 (bV).view _ _ x
  ihave Hs3 := (Entails.of_eq (sV_six (F := F) (UU := UU) d L _).symm) $$ [Hl0 Hl1 Hl2 Hl3 Hl4 Hl5]
  · isplitl [Hl0]; · iexact Hl0
    isplitl [Hl1]; · iexact Hl1
    isplitl [Hl2]; · iexact Hl2
    isplitl [Hl3]; · iexact Hl3
    isplitl [Hl4]; · iexact Hl4
    iexact Hl5
  ihave Ht3 := (pointsTo_share (PosShare.mem_left_op_right (tq (cL L) (sL L)))).2 $$ [Htl Htr]
  · isplitl [Htl] <;> iassumption
  isplitl [Hh' Hp' Hn' Ht3 Ho0' Ho1' Ho2' Ho3' Ho4' Ho5']
  · isplitl [Hh']; · iexact Hh'
    isplitl [Hp']; · iexact Hp'
    isplitl [Hn']; · iexact Hn'
    isplitl [Ht3]; · iexact Ht3
    isplitl [Ho0']; · iapply (Entails.of_eq (blk_congr0 (F := F) (UU := UU) m d L _ _ hW0)); iexact Ho0'
    isplitl [Ho1']; · iapply (Entails.of_eq (blk_congr1 (F := F) (UU := UU) m d L _ _ hW1)); iexact Ho1'
    isplitl [Ho2']; · iapply (Entails.of_eq (blk_congr2 (F := F) (UU := UU) m d L _ _ hW2)); iexact Ho2'
    isplitl [Ho3']; · iapply (Entails.of_eq (blk_congr3 (F := F) (UU := UU) m d L _ _ hW3)); iexact Ho3'
    isplitl [Ho4']; · iapply (Entails.of_eq (blk_congr4 (F := F) (UU := UU) m d L _ _ hW4)); iexact Ho4'
    iapply (Entails.of_eq (blk_congr5 (F := F) (UU := UU) m d L _ _ hW5)); iexact Ho5'
  isplitl [Hs3 Ha' Hb' Hbufs]
  · isplitl [Hs3]; · iexists _; iexact Hs3
    isplitl [Ha']; · iexists _; iexact Ha'
    isplitl [Hb']; · iexists _; iexact Hb'
    iexact Hbufs
  isplitl [Hc0 Hc1 Hc2 Hc3 Hc4 Hc5 Hc6 Hc7 Hc8 Hc9 Hc10 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ### The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          hV (Memref.isWhole_whole _) pV (Memref.isWhole_whole _) nV (Memref.isWhole_whole _) tV (Memref.isWhole_whole _)
          oV (Memref.isWhole_whole _) sV (Memref.isWhole_whole _) aV (Memref.isWhole_whole _) bV (Memref.isWhole_whole _)
          cc0_scratch3 cc0_scratch4 cc0_scoped0 cc0_scoped1 cc0_scoped2 cc0_scoped3 cc0_scoped4 cc0_scoped5 cc0_scoped6 cc0_scoped7 cc0_scoped8) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts)
    (hr : ∀ d, Cert.Spec.InRange (m (hLoc d)) (m ((SparseCore.T d).loc main_arg4)) (m (pLoc d)) (m (nLoc d))) :
    (K (F := F)).TileObl (D (F := F)) 𝒱 (P (F := F) (UU := UU) m) v₀ 0 := by
  intro d c i O W hO _ _
  simp only [show (P (F := F) (UU := UU) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hr O W hO).trans (wp_mono frame _ _ fun _ => obl_post)

end Tile

end C0

namespace C1

local notation "hV" => (Memref.whole Cert.Kernel.main_arg3_scv : Memref Cert.Kernel.sig Kind.scVector Space.hbm Cert.Kernel.S16384 EltTy.i32)
local notation "pV" => (Memref.whole Cert.Kernel.main_arg5_scv : Memref Cert.Kernel.sig Kind.scVector Space.hbm Cert.Kernel.S16384 EltTy.i32)
local notation "nV" => (Memref.whole Cert.Kernel.main_arg6_scv : Memref Cert.Kernel.sig Kind.scVector Space.hbm Cert.Kernel.S16384 EltTy.i32)
local notation "tV" => (Memref.whole Cert.Kernel.main_arg0_scv : Memref Cert.Kernel.sig Kind.scVector Space.hbm Cert.Kernel.S100000x128 EltTy.f32)
local notation "oV" => (Memref.whole Cert.Kernel.main_v14_scv : Memref Cert.Kernel.sig Kind.scVector Space.hbm Cert.Kernel.S24576x128 EltTy.f32)
local notation "sV" => (Memref.whole Cert.Kernel.cc1_scratch0 : Memref Cert.Kernel.sig Kind.scVector Space.vmem Cert.Kernel.S768 EltTy.i32)
local notation "aV" => (Memref.whole Cert.Kernel.cc1_scratch1 : Memref Cert.Kernel.sig Kind.scVector Space.vmem Cert.Kernel.S128x128 EltTy.f32)
local notation "bV" => (Memref.whole Cert.Kernel.cc1_scratch2 : Memref Cert.Kernel.sig Kind.scVector Space.vmem Cert.Kernel.S128x128 EltTy.f32)

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev sL (L : grid1.Coords) : Fin 16 := Fin.cast bound_one (L 1)

/-! ### The subcore's own semaphores and scratch buffers -/

abbrev cell0 (d : Dev nD) (c : Fin τ.nSC) (i : Fin τ.nSub) : GSem nD τ sig := (V d c i, .dma cc1_scratch3.sem)
abbrev cell1 (d : Dev nD) (c : Fin τ.nSC) (i : Fin τ.nSub) : GSem nD τ sig := (V d c i, .dma cc1_scratch4.sem)
abbrev cell2 (d : Dev nD) (c : Fin τ.nSC) (i : Fin τ.nSub) : GSem nD τ sig := (V d c i, .dma cc1_scoped0.sem)
abbrev cell3 (d : Dev nD) (c : Fin τ.nSC) (i : Fin τ.nSub) : GSem nD τ sig := (V d c i, .dma cc1_scoped1.sem)
abbrev cell4 (d : Dev nD) (c : Fin τ.nSC) (i : Fin τ.nSub) : GSem nD τ sig := (V d c i, .dma cc1_scoped2.sem)
abbrev cell5 (d : Dev nD) (c : Fin τ.nSC) (i : Fin τ.nSub) : GSem nD τ sig := (V d c i, .dma cc1_scoped3.sem)
abbrev cell6 (d : Dev nD) (c : Fin τ.nSC) (i : Fin τ.nSub) : GSem nD τ sig := (V d c i, .dma cc1_scoped4.sem)
abbrev cell7 (d : Dev nD) (c : Fin τ.nSC) (i : Fin τ.nSub) : GSem nD τ sig := (V d c i, .dma cc1_scoped5.sem)
abbrev cell8 (d : Dev nD) (c : Fin τ.nSC) (i : Fin τ.nSub) : GSem nD τ sig := (V d c i, .dma cc1_scoped6.sem)
abbrev cell9 (d : Dev nD) (c : Fin τ.nSC) (i : Fin τ.nSub) : GSem nD τ sig := (V d c i, .dma cc1_scoped7.sem)
abbrev cell10 (d : Dev nD) (c : Fin τ.nSC) (i : Fin τ.nSub) : GSem nD τ sig := (V d c i, .dma cc1_scoped8.sem)

theorem cell_ne {thr : Thread nD τ} {a b : DmaSem sig} (h : a ≠ b) : ((thr, SemLoc.dma a) : GSem nD τ sig) ≠ (thr, SemLoc.dma b) :=
  fun e => h (SemLoc.dma.inj (Prod.mk.inj e).2)

theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0 ∗ semVal (cell6 d (cV L) (jV L)) 0 ∗ semVal (cell7 d (cV L) (jV L)) 0 ∗ semVal (cell8 d (cV L) (jV L)) 0 ∗ semVal (cell9 d (cV L) (jV L)) 0 ∗ semVal (cell10 d (cV L) (jV L)) 0
          ∗ bigSep ((((((((((((ownCells (V d (cV L) (jV L))).erase (cell0 d (cV L) (jV L))).erase (cell1 d (cV L) (jV L))).erase (cell2 d (cV L) (jV L))).erase (cell3 d (cV L) (jV L))).erase (cell4 d (cV L) (jV L))).erase (cell5 d (cV L) (jV L))).erase (cell6 d (cV L) (jV L))).erase (cell7 d (cV L) (jV L))).erase (cell8 d (cV L) (jV L))).erase (cell9 d (cV L) (jV L))).erase (cell10 d (cV L) (jV L))) fun g => semVal g 0) := by
  unfold SparseCore.Cfg.ownSems0
  rw [SparseCore.bigSep_erase' ((mem_ownCells (g := cell0 d (cV L) (jV L))).mpr ⟨rfl, by show (SemLoc.dma cc1_scratch3.sem : SemLoc sig).isScoped .scVector = true; decide⟩),
    SparseCore.bigSep_erase' (Finset.mem_erase.mpr ⟨cell_ne (by decide), (mem_ownCells (g := cell1 d (cV L) (jV L))).mpr ⟨rfl, by show (SemLoc.dma cc1_scratch4.sem : SemLoc sig).isScoped .scVector = true; decide⟩⟩),
    SparseCore.bigSep_erase' (Finset.mem_erase.mpr ⟨cell_ne (by decide), Finset.mem_erase.mpr ⟨cell_ne (by decide), (mem_ownCells (g := cell2 d (cV L) (jV L))).mpr ⟨rfl, by show (SemLoc.dma cc1_scoped0.sem : SemLoc sig).isScoped .scVector = true; decide⟩⟩⟩),
    SparseCore.bigSep_erase' (Finset.mem_erase.mpr ⟨cell_ne (by decide), Finset.mem_erase.mpr ⟨cell_ne (by decide), Finset.mem_erase.mpr ⟨cell_ne (by decide), (mem_ownCells (g := cell3 d (cV L) (jV L))).mpr ⟨rfl, by show (SemLoc.dma cc1_scoped1.sem : SemLoc sig).isScoped .scVector = true; decide⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), (mem_ownCells (g := cell4 d (cV L) (jV L))).mpr ⟨rfl, by show (SemLoc.dma cc1_scoped2.sem : SemLoc sig).isScoped .scVector = true; decide⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell5 d (cV L) (jV L))).mpr ⟨rfl, by show (SemLoc.dma cc1_scoped3.sem : SemLoc sig).isScoped .scVector = true; decide⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell6 d (cV L) (jV L))).mpr ⟨rfl, by show (SemLoc.dma cc1_scoped4.sem : SemLoc sig).isScoped .scVector = true; decide⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell7 d (cV L) (jV L))).mpr ⟨rfl, by show (SemLoc.dma cc1_scoped5.sem : SemLoc sig).isScoped .scVector = true; decide⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell8 d (cV L) (jV L))).mpr ⟨rfl, by show (SemLoc.dma cc1_scoped6.sem : SemLoc sig).isScoped .scVector = true; decide⟩⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell9 d (cV L) (jV L))).mpr ⟨rfl, by show (SemLoc.dma cc1_scoped7.sem : SemLoc sig).isScoped .scVector = true; decide⟩⟩⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell10 d (cV L) (jV L))).mpr ⟨rfl, by show (SemLoc.dma cc1_scoped8.sem : SemLoc sig).isScoped .scVector = true; decide⟩⟩⟩⟩⟩⟩⟩⟩⟩⟩⟩)]

/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

/-! ### The views the task addresses, in the program's spelling -/

theorem bigSep_fin6 {M : Type} [URA M] (Φ : Fin 6 → sProp M) : bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

/-- The whole table, as every gather names it. -/
abbrev tAllK : Memref sig .scVector .hbm S100000x128 .f32 :=
  (tV).slice (Rect.unit (s := S100000x128) ![0, 0] S100000x128.size inb_S100000x128_S100000x128_0_0) (fun _ => rfl)
abbrev off0K : Memref sig .scVector .vmem S128 .i32 := (sV).slice (Rect.unit (s := S768) ![0] S128.size inb_S768_S128_0) (fun _ => rfl)
abbrev off1K : Memref sig .scVector .vmem S128 .i32 := (sV).slice (Rect.unit (s := S768) ![128] S128.size inb_S768_S128_128) (fun _ => rfl)
abbrev off2K : Memref sig .scVector .vmem S128 .i32 := (sV).slice (Rect.unit (s := S768) ![256] S128.size inb_S768_S128_256) (fun _ => rfl)
abbrev off3K : Memref sig .scVector .vmem S128 .i32 := (sV).slice (Rect.unit (s := S768) ![384] S128.size inb_S768_S128_384) (fun _ => rfl)
abbrev off4K : Memref sig .scVector .vmem S128 .i32 := (sV).slice (Rect.unit (s := S768) ![512] S128.size inb_S768_S128_512) (fun _ => rfl)
abbrev off5K : Memref sig .scVector .vmem S128 .i32 := (sV).slice (Rect.unit (s := S768) ![640] S128.size inb_S768_S128_640) (fun _ => rfl)
abbrev oB0K (L : grid1.Coords) : Memref sig .scVector .hbm S128x128 .f32 :=
  (oV).slice (Rect.unit (s := S24576x128) (k1_off2 L 0#32 0#32) S128x128.size (k1_off2_inb L 0 0)) (fun _ => rfl)
abbrev oB1K (L : grid1.Coords) : Memref sig .scVector .hbm S128x128 .f32 :=
  (oV).slice (Rect.unit (s := S24576x128) (k1_off2 L 0#32 128#32) S128x128.size (k1_off2_inb L 0 1)) (fun _ => rfl)
abbrev oB2K (L : grid1.Coords) : Memref sig .scVector .hbm S128x128 .f32 :=
  (oV).slice (Rect.unit (s := S24576x128) (k1_off2 L 8192#32 0#32) S128x128.size (k1_off2_inb L 1 0)) (fun _ => rfl)
abbrev oB3K (L : grid1.Coords) : Memref sig .scVector .hbm S128x128 .f32 :=
  (oV).slice (Rect.unit (s := S24576x128) (k1_off2 L 8192#32 128#32) S128x128.size (k1_off2_inb L 1 1)) (fun _ => rfl)
abbrev oB4K (L : grid1.Coords) : Memref sig .scVector .hbm S128x128 .f32 :=
  (oV).slice (Rect.unit (s := S24576x128) (k1_off2 L 16384#32 0#32) S128x128.size (k1_off2_inb L 2 0)) (fun _ => rfl)
abbrev oB5K (L : grid1.Coords) : Memref sig .scVector .hbm S128x128 .f32 :=
  (oV).slice (Rect.unit (s := S24576x128) (k1_off2 L 16384#32 128#32) S128x128.size (k1_off2_inb L 2 1)) (fun _ => rfl)

/-- Output block `(r1, r2)` of the task is block `64 r1 + 4 s + 2 c + r2` of the array. -/
theorem oB_rect (r1 : Fin 3) (r2 : Fin 2) :
    Rect.unit (s := S24576x128) (k1_off2 L (BitVec.ofNat 32 (8192 * r1.val)) (BitVec.ofNat 32 (128 * r2.val))) S128x128.size (k1_off2_inb L r1 r2)
      = blk (blkIx (cL L) (sL L) ⟨2 * r1.val + r2.val, by omega⟩) := by
  unfold blk Rect.part Rect.block
  congr 1 <;> funext a
  · rw [k1_off2_eq]
    match a with
    | 0 => simp [Shape.partIx, Shape.partSize, blkIx]; omega
    | 1 => simp [Shape.partIx, Shape.partSize]
  · match a with
    | 0 => simp [Shape.partSize]
    | 1 => simp [Shape.partSize]

theorem set_of_rect {r r' : Rect S24576x128} (h : r = r') : ((View.whole (main_v14_scv : Ref sig .scVector)).slice r).set = r'.set := by
  subst h; rw [View.set_slice]; exact Finset.map_refl
theorem set_oB0K : (oB0K L).view.set = blkSet (blkIx (cL L) (sL L) 0) := set_of_rect (oB_rect L 0 0)
theorem set_oB1K : (oB1K L).view.set = blkSet (blkIx (cL L) (sL L) 1) := set_of_rect (oB_rect L 0 1)
theorem set_oB2K : (oB2K L).view.set = blkSet (blkIx (cL L) (sL L) 2) := set_of_rect (oB_rect L 1 0)
theorem set_oB3K : (oB3K L).view.set = blkSet (blkIx (cL L) (sL L) 3) := set_of_rect (oB_rect L 1 1)
theorem set_oB4K : (oB4K L).view.set = blkSet (blkIx (cL L) (sL L) 4) := set_of_rect (oB_rect L 2 0)
theorem set_oB5K : (oB5K L).view.set = blkSet (blkIx (cL L) (sL L) 5) := set_of_rect (oB_rect L 2 1)

theorem pts_oB0K (f : Buf (Elt F) (outLoc 1 d)) :
    ((oB0K L).view.loc (V d (cV L) (jV L)) ↦[(oB0K L).view.set]{fullShare} f : sProp 𝕄) = outLoc 1 d ↦[blkSet (blkIx (cL L) (sL L) 0)]{fullShare} f := by
  rw [set_oB0K]
theorem pts_oB1K (f : Buf (Elt F) (outLoc 1 d)) :
    ((oB1K L).view.loc (V d (cV L) (jV L)) ↦[(oB1K L).view.set]{fullShare} f : sProp 𝕄) = outLoc 1 d ↦[blkSet (blkIx (cL L) (sL L) 1)]{fullShare} f := by
  rw [set_oB1K]
theorem pts_oB2K (f : Buf (Elt F) (outLoc 1 d)) :
    ((oB2K L).view.loc (V d (cV L) (jV L)) ↦[(oB2K L).view.set]{fullShare} f : sProp 𝕄) = outLoc 1 d ↦[blkSet (blkIx (cL L) (sL L) 2)]{fullShare} f := by
  rw [set_oB2K]
theorem pts_oB3K (f : Buf (Elt F) (outLoc 1 d)) :
    ((oB3K L).view.loc (V d (cV L) (jV L)) ↦[(oB3K L).view.set]{fullShare} f : sProp 𝕄) = outLoc 1 d ↦[blkSet (blkIx (cL L) (sL L) 3)]{fullShare} f := by
  rw [set_oB3K]
theorem pts_oB4K (f : Buf (Elt F) (outLoc 1 d)) :
    ((oB4K L).view.loc (V d (cV L) (jV L)) ↦[(oB4K L).view.set]{fullShare} f : sProp 𝕄) = outLoc 1 d ↦[blkSet (blkIx (cL L) (sL L) 4)]{fullShare} f := by
  rw [set_oB4K]
theorem pts_oB5K (f : Buf (Elt F) (outLoc 1 d)) :
    ((oB5K L).view.loc (V d (cV L) (jV L)) ↦[(oB5K L).view.set]{fullShare} f : sProp 𝕄) = outLoc 1 d ↦[blkSet (blkIx (cL L) (sL L) 5)]{fullShare} f := by
  rw [set_oB5K]

theorem goOf_six (ℓ : Loc nD τ sig) (B : Fin 192 → Finset (Idx ℓ)) (f : Buf (Elt F) ℓ) (d : Dev nD) (c : Fin 2) (s : Fin 16) :
    goOf (F := F) (UU := UU) m ℓ B f d c s =
      iprop((hLoc d ↦{tq c s} m (hLoc d)) ∗ (pLoc d ↦{tq c s} m (pLoc d)) ∗ (nLoc d ↦{tq c s} m (nLoc d)) ∗ (tabLoc d ↦{tq c s} m (tabLoc d))
        ∗ (ℓ ↦[B (blkIx c s 0)]{fullShare} f) ∗ (ℓ ↦[B (blkIx c s 1)]{fullShare} f) ∗ (ℓ ↦[B (blkIx c s 2)]{fullShare} f)
        ∗ (ℓ ↦[B (blkIx c s 3)]{fullShare} f) ∗ (ℓ ↦[B (blkIx c s 4)]{fullShare} f) ∗ (ℓ ↦[B (blkIx c s 5)]{fullShare} f)) := by
  show iprop(_ ∗ _ ∗ _ ∗ _ ∗ bigSep Finset.univ _) = _
  rw [bigSep_fin6]

/-! ### The index scratch as its six lists of 128 offsets -/

theorem sdiv : 6 ∣ S768.size 0 := ⟨128, rfl⟩
abbrev lst (k : Fin 6) : Rect S768 := Rect.part (s := S768) (a₀ := 0) sdiv k

theorem off_rect (k : Fin 6) (h : ∀ a, (![128 * k.val] : Fin 1 → Nat) a + S128.size a ≤ S768.size a) :
    Rect.unit (s := S768) ![128 * k.val] S128.size h = lst k := by
  unfold lst Rect.part Rect.block
  congr 1 <;> funext a
  · match a with
    | 0 => simp [Shape.partIx, Shape.partSize]; omega
  · match a with
    | 0 => simp [Shape.partSize]

theorem set_of_lst {r r' : Rect S768} (h : r = r') : ((View.whole (cc1_scratch0 : Ref sig .scVector)).slice r).set = r'.set := by
  subst h; rw [View.set_slice]; exact Finset.map_refl
theorem set_off0K : (off0K).view.set = (lst 0).set := set_of_lst (off_rect 0 inb_S768_S128_0)
theorem set_off1K : (off1K).view.set = (lst 1).set := set_of_lst (off_rect 1 inb_S768_S128_128)
theorem set_off2K : (off2K).view.set = (lst 2).set := set_of_lst (off_rect 2 inb_S768_S128_256)
theorem set_off3K : (off3K).view.set = (lst 3).set := set_of_lst (off_rect 3 inb_S768_S128_384)
theorem set_off4K : (off4K).view.set = (lst 4).set := set_of_lst (off_rect 4 inb_S768_S128_512)
theorem set_off5K : (off5K).view.set = (lst 5).set := set_of_lst (off_rect 5 inb_S768_S128_640)

theorem sV_six (f : Buf (Elt F) ((V d (cV L) (jV L)).loc cc1_scratch0)) :
    ((sV).view.loc (V d (cV L) (jV L)) ↦{fullShare} f : sProp 𝕄)
      = iprop(((off0K).view.loc (V d (cV L) (jV L)) ↦[(off0K).view.set]{fullShare} f)
          ∗ ((off1K).view.loc (V d (cV L) (jV L)) ↦[(off1K).view.set]{fullShare} f)
          ∗ ((off2K).view.loc (V d (cV L) (jV L)) ↦[(off2K).view.set]{fullShare} f)
          ∗ ((off3K).view.loc (V d (cV L) (jV L)) ↦[(off3K).view.set]{fullShare} f)
          ∗ ((off4K).view.loc (V d (cV L) (jV L)) ↦[(off4K).view.set]{fullShare} f)
          ∗ ((off5K).view.loc (V d (cV L) (jV L)) ↦[(off5K).view.set]{fullShare} f)) := by
  rw [set_off0K, set_off1K, set_off2K, set_off3K, set_off4K, set_off5K]
  have e : ((sV).view.loc (V d (cV L) (jV L)) ↦{fullShare} f : sProp 𝕄) = bigSep Finset.univ fun k : Fin 6 => (sV).view.loc (V d (cV L) (jV L)) ↦[(lst k).set]{fullShare} f := by
    rw [← pointsTo_biUnion Finset.univ (ℓ := (sV).view.loc (V d (cV L) (jV L))) (fun k : Fin 6 => (lst k).set) (fun i _ j _ h => Rect.part_disjoint sdiv h), Rect.biUnion_part sdiv]; try rfl
  rw [e, bigSep_fin6]

/-! ### A block written whole with the gathered rows is the gathered array there -/

theorem writes_whole_emb {κ : Kind} {sp : Space} {s : Shape} (v : View sig κ sp s .f32) (f0 : v.ty.Contents (Elt F)) (W : s.Idx → F .f32) (x : s.Idx) :
    v.read (Elt F) (v.writes (Elt F) f0 [⟨Rect.whole s, W⟩]) x = W x := by
  have h := View.read_writes_cons_emb v f0 (Rect.whole s) W [] x
  rwa [Rect.emb_whole_apply] at h

theorem blk_congr0 (f0 : Buf (Elt F) (outLoc 1 d)) (W : S128x128.Idx → F .f32)
    (hW : ∀ x, W x = gathAt m 1 d ((oB0K L).view.emb x)) :
    ((oB0K L).view.loc (V d (cV L) (jV L)) ↦[(oB0K L).view.set]{fullShare} (oB0K L).view.writes (Elt F) f0 [⟨Rect.whole S128x128, W⟩] : sProp 𝕄)
      = outLoc 1 d ↦[blkSet (blkIx (cL L) (sL L) 0)]{fullShare} gathAt m 1 d := by
  rw [← pts_oB0K (F := F) (UU := UU) d L (gathAt m 1 d)]
  refine pointsTo_congr fun i hi => ?_
  obtain ⟨x, -, rfl⟩ := Finset.mem_map.mp hi
  have h := writes_whole_emb (F := F) (oB0K L).view f0 W x
  rw [View.read_apply] at h
  exact ((cast_eq _ _).symm.trans h).trans (hW x)

theorem blk_congr1 (f0 : Buf (Elt F) (outLoc 1 d)) (W : S128x128.Idx → F .f32)
    (hW : ∀ x, W x = gathAt m 1 d ((oB1K L).view.emb x)) :
    ((oB1K L).view.loc (V d (cV L) (jV L)) ↦[(oB1K L).view.set]{fullShare} (oB1K L).view.writes (Elt F) f0 [⟨Rect.whole S128x128, W⟩] : sProp 𝕄)
      = outLoc 1 d ↦[blkSet (blkIx (cL L) (sL L) 1)]{fullShare} gathAt m 1 d := by
  rw [← pts_oB1K (F := F) (UU := UU) d L (gathAt m 1 d)]
  refine pointsTo_congr fun i hi => ?_
  obtain ⟨x, -, rfl⟩ := Finset.mem_map.mp hi
  have h := writes_whole_emb (F := F) (oB1K L).view f0 W x
  rw [View.read_apply] at h
  exact ((cast_eq _ _).symm.trans h).trans (hW x)

theorem blk_congr2 (f0 : Buf (Elt F) (outLoc 1 d)) (W : S128x128.Idx → F .f32)
    (hW : ∀ x, W x = gathAt m 1 d ((oB2K L).view.emb x)) :
    ((oB2K L).view.loc (V d (cV L) (jV L)) ↦[(oB2K L).view.set]{fullShare} (oB2K L).view.writes (Elt F) f0 [⟨Rect.whole S128x128, W⟩] : sProp 𝕄)
      = outLoc 1 d ↦[blkSet (blkIx (cL L) (sL L) 2)]{fullShare} gathAt m 1 d := by
  rw [← pts_oB2K (F := F) (UU := UU) d L (gathAt m 1 d)]
  refine pointsTo_congr fun i hi => ?_
  obtain ⟨x, -, rfl⟩ := Finset.mem_map.mp hi
  have h := writes_whole_emb (F := F) (oB2K L).view f0 W x
  rw [View.read_apply] at h
  exact ((cast_eq _ _).symm.trans h).trans (hW x)

theorem blk_congr3 (f0 : Buf (Elt F) (outLoc 1 d)) (W : S128x128.Idx → F .f32)
    (hW : ∀ x, W x = gathAt m 1 d ((oB3K L).view.emb x)) :
    ((oB3K L).view.loc (V d (cV L) (jV L)) ↦[(oB3K L).view.set]{fullShare} (oB3K L).view.writes (Elt F) f0 [⟨Rect.whole S128x128, W⟩] : sProp 𝕄)
      = outLoc 1 d ↦[blkSet (blkIx (cL L) (sL L) 3)]{fullShare} gathAt m 1 d := by
  rw [← pts_oB3K (F := F) (UU := UU) d L (gathAt m 1 d)]
  refine pointsTo_congr fun i hi => ?_
  obtain ⟨x, -, rfl⟩ := Finset.mem_map.mp hi
  have h := writes_whole_emb (F := F) (oB3K L).view f0 W x
  rw [View.read_apply] at h
  exact ((cast_eq _ _).symm.trans h).trans (hW x)

theorem blk_congr4 (f0 : Buf (Elt F) (outLoc 1 d)) (W : S128x128.Idx → F .f32)
    (hW : ∀ x, W x = gathAt m 1 d ((oB4K L).view.emb x)) :
    ((oB4K L).view.loc (V d (cV L) (jV L)) ↦[(oB4K L).view.set]{fullShare} (oB4K L).view.writes (Elt F) f0 [⟨Rect.whole S128x128, W⟩] : sProp 𝕄)
      = outLoc 1 d ↦[blkSet (blkIx (cL L) (sL L) 4)]{fullShare} gathAt m 1 d := by
  rw [← pts_oB4K (F := F) (UU := UU) d L (gathAt m 1 d)]
  refine pointsTo_congr fun i hi => ?_
  obtain ⟨x, -, rfl⟩ := Finset.mem_map.mp hi
  have h := writes_whole_emb (F := F) (oB4K L).view f0 W x
  rw [View.read_apply] at h
  exact ((cast_eq _ _).symm.trans h).trans (hW x)

theorem blk_congr5 (f0 : Buf (Elt F) (outLoc 1 d)) (W : S128x128.Idx → F .f32)
    (hW : ∀ x, W x = gathAt m 1 d ((oB5K L).view.emb x)) :
    ((oB5K L).view.loc (V d (cV L) (jV L)) ↦[(oB5K L).view.set]{fullShare} (oB5K L).view.writes (Elt F) f0 [⟨Rect.whole S128x128, W⟩] : sProp 𝕄)
      = outLoc 1 d ↦[blkSet (blkIx (cL L) (sL L) 5)]{fullShare} gathAt m 1 d := by
  rw [← pts_oB5K (F := F) (UU := UU) d L (gathAt m 1 d)]
  refine pointsTo_congr fun i hi => ?_
  obtain ⟨x, -, rfl⟩ := Finset.mem_map.mp hi
  have h := writes_whole_emb (F := F) (oB5K L).view f0 W x
  rw [View.read_apply] at h
  exact ((cast_eq _ _).symm.trans h).trans (hW x)

/-! ### The values: what the copies land in the index scratch, what a gather delivers -/

/-- The first of the subcore's 256 words of each index array. -/
abbrev base (L : grid1.Coords) : ℕ := 512 * (L 1).val + 256 * (L 0).val + 8192
theorem L0_lt : (L 0).val < 2 := (L 0).isLt
theorem L1_lt : (L 1).val < 16 := (L 1).isLt
theorem base_le : base L + 256 ≤ 16384 := by have := L0_lt L; have := L1_lt L; unfold base; omega
theorem off1_zero : k1_off1 L 0 = base L := by rw [k1_off1_eq]; rfl

/-- Word `y` of the index scratch once the three copies have landed. -/
def idxW : S768.Idx → BitVec 32 := fun y =>
  sel (m (hLoc d)) (m (pLoc d)) (m (nLoc d)) ((y 0).val / 256)
    (ix1 (n := 16384) ⟨base L + (y 0).val % 256, by have := base_le L; omega⟩)

theorem dmaH_apply (x : S256.Idx) :
    (ReadAs.same.apply (View.read (Elt F) ((hV).slice (Rect.unit (s := S16384) (k1_off1 L) S256.size (k1_off1_inb L)) (fun _ => rfl)).view (m (hLoc d))) : S256.Idx → BitVec 32) x
      = m (hLoc d) (ix1 (n := 16384) ⟨base L + (x 0).val, by have := base_le L; have := lt256 x; omega⟩) := by
  rw [ReadAs.apply_same, View.read_apply]
  refine (cast_eq _ _).trans (congrArg (m (hLoc d)) ?_)
  exact emb1 (n := 16384) (k1_off1 L) S256.size (k1_off1_inb L) x (base L) (off1_zero L) _

theorem dmaP_apply (x : S256.Idx) :
    (ReadAs.same.apply (View.read (Elt F) ((pV).slice (Rect.unit (s := S16384) (k1_off1 L) S256.size (k1_off1_inb L)) (fun _ => rfl)).view (m (pLoc d))) : S256.Idx → BitVec 32) x
      = m (pLoc d) (ix1 (n := 16384) ⟨base L + (x 0).val, by have := base_le L; have := lt256 x; omega⟩) := by
  rw [ReadAs.apply_same, View.read_apply]
  refine (cast_eq _ _).trans (congrArg (m (pLoc d)) ?_)
  exact emb1 (n := 16384) (k1_off1 L) S256.size (k1_off1_inb L) x (base L) (off1_zero L) _

theorem dmaN_apply (x : S256.Idx) :
    (ReadAs.same.apply (View.read (Elt F) ((nV).slice (Rect.unit (s := S16384) (k1_off1 L) S256.size (k1_off1_inb L)) (fun _ => rfl)).view (m (nLoc d))) : S256.Idx → BitVec 32) x
      = m (nLoc d) (ix1 (n := 16384) ⟨base L + (x 0).val, by have := base_le L; have := lt256 x; omega⟩) := by
  rw [ReadAs.apply_same, View.read_apply]
  refine (cast_eq _ _).trans (congrArg (m (nLoc d)) ?_)
  exact emb1 (n := 16384) (k1_off1 L) S256.size (k1_off1_inb L) x (base L) (off1_zero L) _

theorem idxW_eq (y : S768.Idx) (b r : ℕ) (hb : (y 0).val / 256 = b) (hr : (y 0).val % 256 = r) (hlt : base L + r < 16384) :
    idxW m d L y = sel (m (hLoc d)) (m (pLoc d)) (m (nLoc d)) b (ix1 (n := 16384) ⟨base L + r, hlt⟩) := by
  subst hb hr; rfl

/-- The index scratch after the three copies reads `idxW`, whatever it held before. -/
theorem FS_apply (fj : Buf (Elt F) ((sV).view.loc (V d (cV L) (jV L)))) (w0 w1 w2 : S256.Idx → BitVec 32)
    (h0 : ∀ x, w0 x = m (hLoc d) (ix1 (n := 16384) ⟨base L + (x 0).val, by have := base_le L; have := lt256 x; omega⟩))
    (h1 : ∀ x, w1 x = m (pLoc d) (ix1 (n := 16384) ⟨base L + (x 0).val, by have := base_le L; have := lt256 x; omega⟩))
    (h2 : ∀ x, w2 x = m (nLoc d) (ix1 (n := 16384) ⟨base L + (x 0).val, by have := base_le L; have := lt256 x; omega⟩))
    (y : S768.Idx) :
    (sV).view.writes (Elt F) fj [⟨Rect.unit ![512] S256.size inb_S768_S256_512, w2⟩, ⟨Rect.unit ![256] S256.size inb_S768_S256_256, w1⟩,
      ⟨Rect.unit ![0] S256.size inb_S768_S256_0, w0⟩] y = idxW m d L y := by
  show View.read (Elt F) (sV).view ((sV).view.writes (Elt F) fj [⟨Rect.unit ![512] S256.size inb_S768_S256_512, w2⟩,
    ⟨Rect.unit ![256] S256.size inb_S768_S256_256, w1⟩, ⟨Rect.unit ![0] S256.size inb_S768_S256_0, w0⟩]) y = idxW m d L y
  refine View.read_writes_apply_of_pieces (sV).view fj (idxW m d L) _ ?hG y ?hcov
  case hG =>
    intro p hp x
    rcases List.mem_cons.mp hp with rfl | hp
    · show w2 x = idxW m d L ((Rect.unit (s := S768) ![512] S256.size inb_S768_S256_512).emb x)
      have hx := lt256 x
      rw [h2 x, emb1 (n := 768) ![512] S256.size inb_S768_S256_512 x 512 rfl (by omega),
        idxW_eq m d L _ 2 (x 0).val (by show (512 + (x 0).val) / 256 = 2; omega) (by show (512 + (x 0).val) % 256 = (x 0).val; omega)
          (by have := base_le L; omega)]
      simp [sel]
    rcases List.mem_cons.mp hp with rfl | hp
    · show w1 x = idxW m d L ((Rect.unit (s := S768) ![256] S256.size inb_S768_S256_256).emb x)
      have hx := lt256 x
      rw [h1 x, emb1 (n := 768) ![256] S256.size inb_S768_S256_256 x 256 rfl (by omega),
        idxW_eq m d L _ 1 (x 0).val (by show (256 + (x 0).val) / 256 = 1; omega) (by show (256 + (x 0).val) % 256 = (x 0).val; omega)
          (by have := base_le L; omega)]
      simp [sel]
    rcases List.mem_cons.mp hp with rfl | hp
    · show w0 x = idxW m d L ((Rect.unit (s := S768) ![0] S256.size inb_S768_S256_0).emb x)
      have hx := lt256 x
      rw [h0 x, emb1 (n := 768) ![0] S256.size inb_S768_S256_0 x 0 rfl (by omega),
        idxW_eq m d L _ 0 (x 0).val (by show (0 + (x 0).val) / 256 = 0; omega) (by show (0 + (x 0).val) % 256 = (x 0).val; omega)
          (by have := base_le L; omega)]
      simp [sel]
    · exact absurd hp List.not_mem_nil
  case hcov =>
    have hy := lt768 y
    by_cases c1 : (y 0).val < 256
    · exact ⟨_, List.mem_cons_of_mem _ (List.mem_cons_of_mem _ List.mem_cons_self),
        (Rect.mem_set_unit (s := S768) (off := ![0]) (size := S256.size) (inb := inb_S768_S256_0)).mpr (Fin.forall_fin_one.mpr ⟨Nat.zero_le _, by show (y 0).val < 0 + 256; omega⟩)⟩
    by_cases c2 : (y 0).val < 512
    · exact ⟨_, List.mem_cons_of_mem _ List.mem_cons_self,
        (Rect.mem_set_unit (s := S768) (off := ![256]) (size := S256.size) (inb := inb_S768_S256_256)).mpr (Fin.forall_fin_one.mpr ⟨by show 256 ≤ (y 0).val; omega, by show (y 0).val < 256 + 256; omega⟩)⟩
    · exact ⟨_, List.mem_cons_self,
        (Rect.mem_set_unit (s := S768) (off := ![512]) (size := S256.size) (inb := inb_S768_S256_512)).mpr (Fin.forall_fin_one.mpr ⟨by show 512 ≤ (y 0).val; omega, by show (y 0).val < 512 + 256; omega⟩)⟩

/-- A list of 128 offsets read out of the index scratch. -/
theorem off_read (o : ℕ) (inb : ∀ a, (![o] : Fin 1 → ℕ) a + S128.size a ≤ S768.size a) (ho : o + 128 ≤ 768)
    (g : Buf (Elt F) ((sV).view.loc (V d (cV L) (jV L)))) (x : S128.Idx) :
    ((sV).slice (Rect.unit (s := S768) ![o] S128.size inb) (fun _ => rfl)).view.read (Elt F) g x
      = g (ix1 (n := 768) ⟨o + (x 0).val, by have := lt128 x; omega⟩) := by
  rw [View.read_apply]
  refine (cast_eq _ _).trans (congrArg g ?_)
  exact emb1 (n := 768) ![o] S128.size inb x o rfl _

theorem idxW_lt (hr : ∀ d, Cert.Spec.InRange (m (hLoc d)) (m ((SparseCore.T d).loc main_arg4)) (m (pLoc d)) (m (nLoc d))) (y : S768.Idx) :
    (idxW m d L y).toNat < 100000 := sel_lt (hr d) _ _

/-- The offsets a gather reads are rows of the table. -/
theorem hin_of (hr : ∀ d, Cert.Spec.InRange (m (hLoc d)) (m ((SparseCore.T d).loc main_arg4)) (m (pLoc d)) (m (nLoc d)))
    (o : ℕ) (inb : ∀ a, (![o] : Fin 1 → ℕ) a + S128.size a ≤ S768.size a) (ho : o + 128 ≤ 768)
    (g : Buf (Elt F) ((sV).view.loc (V d (cV L) (jV L)))) (hg' : ∀ y, g y = idxW m d L y) (x : S128.Idx) :
    (((sV).slice (Rect.unit (s := S768) ![o] S128.size inb) (fun _ => rfl)).view.read (Elt F) g x).toNat
      < S100000x128.size gathers_S100000x128_S128x128.axis := by
  rw [off_read (F := F) d L o inb ho g x, hg']
  exact idxW_lt m d L hr _

/-- What a gather delivers at an index of the row scratch: the table's row named by that word of the index scratch. -/
theorem gather_apply (hr : ∀ d, Cert.Spec.InRange (m (hLoc d)) (m ((SparseCore.T d).loc main_arg4)) (m (pLoc d)) (m (nLoc d)))
    (o : ℕ) (inb : ∀ a, (![o] : Fin 1 → ℕ) a + S128.size a ≤ S768.size a) (ho : o + 128 ≤ 768)
    (g : Buf (Elt F) ((sV).view.loc (V d (cV L) (jV L)))) (hg' : ∀ y, g y = idxW m d L y)
    (hn : S128.numel = S128x128.size gathers_S100000x128_S128x128.axis')
    (hin : ∀ x, (((sV).slice (Rect.unit (s := S768) ![o] S128.size inb) (fun _ => rfl)).view.read (Elt F) g x).toNat
      < S100000x128.size gathers_S100000x128_S128x128.axis)
    (x : S128x128.Idx) :
    SparseCore.gatherPayload gathers_S100000x128_S128x128 ((tAllK).view.read (Elt F) (m (tabLoc d)))
        (SparseCore.rows (((sV).slice (Rect.unit (s := S768) ![o] S128.size inb) (fun _ => rfl)).view.read (Elt F) g) hn hin) x
      = m (tabLoc d) (ix2 (n0 := 100000) (n1 := 128)
          ⟨(idxW m d L (ix1 (n := 768) ⟨o + (x 0).val, by have := lt128r x; omega⟩)).toNat, idxW_lt m d L hr _⟩ (x 1)) := by
  unfold SparseCore.gatherPayload
  rw [View.read_apply]
  refine (cast_eq _ _).trans (congrArg (m (tabLoc d)) ?_)
  refine (emb2 (n0 := 100000) (n1 := 128) ![0, 0] S100000x128.size inb_S100000x128_S100000x128_0_0 _ 0 0 rfl rfl
    (by rw [Nat.zero_add]; exact Fin.isLt _) (by rw [Nat.zero_add]; exact Fin.isLt _)).trans ?_
  funext a
  match a with
  | 0 =>
    refine Fin.ext ?_
    show 0 + (Shape.Gathers.idx gathers_S100000x128_S128x128 _ x gathers_S100000x128_S128x128.axis).val = _
    rw [Shape.Gathers.idx_axis, Nat.zero_add]
    show (((sV).slice (Rect.unit (s := S768) ![o] S128.size inb) (fun _ => rfl)).view.read (Elt F) g _).toNat = _
    rw [off_read (F := F) d L o inb ho g _, hg']
    exact congrArg (fun v : Fin 768 => (idxW m d L (ix1 (n := 768) v)).toNat) (Fin.ext (congrArg (o + ·) (rowMajor_symm_one (n := 128) _)))
  | 1 =>
    refine Fin.ext ?_
    show 0 + (Shape.Gathers.idx gathers_S100000x128_S128x128 _ x 1).val = (x 1).val
    rw [Shape.Gathers.idx_of_ne _ _ _ 1 (by decide), Nat.zero_add]
    rfl

theorem idxW_ix1 (v : ℕ) (hv : v < 768) (b r : ℕ) (hb : v / 256 = b) (hr : v % 256 = r) (hlt : base L + r < 16384) :
    idxW m d L (ix1 (n := 768) ⟨v, hv⟩) = sel (m (hLoc d)) (m (pLoc d)) (m (nLoc d)) b (ix1 (n := 16384) ⟨base L + r, hlt⟩) :=
  idxW_eq m d L _ b r hb hr hlt

/-- The gathered array at an element of output block `(r1, r2)` of the subcore: the table's row named by word
    `128 (2 r1 + r2) + x 0` of the index scratch. -/
theorem gath_blk (hr : ∀ d, Cert.Spec.InRange (m (hLoc d)) (m ((SparseCore.T d).loc main_arg4)) (m (pLoc d)) (m (nLoc d)))
    (r1 : Fin 3) (r2 : Fin 2) (x : S128x128.Idx) :
    gathAt m 1 d (((oV).slice (Rect.unit (s := S24576x128) (k1_off2 L (BitVec.ofNat 32 (8192 * r1.val)) (BitVec.ofNat 32 (128 * r2.val))) S128x128.size
        (k1_off2_inb L r1 r2)) (fun _ => rfl)).view.emb x)
      = m (tabLoc d) (ix2 (n0 := 100000) (n1 := 128)
          ⟨(idxW m d L (ix1 (n := 768) ⟨128 * (2 * r1.val + r2.val) + (x 0).val, by have := lt128r x; have := r1.isLt; have := r2.isLt; omega⟩)).toNat,
            idxW_lt m d L hr _⟩ (x 1)) := by
  have hx0 := lt128r x; have hx1 := lt128c x; have h0 := L0_lt L; have h1 := L1_lt L; have hr1 := r1.isLt; have hr2 := r2.isLt
  have hb := base_le L
  have hemb := emb2 (n0 := 24576) (n1 := 128) (k1_off2 L (BitVec.ofNat 32 (8192 * r1.val)) (BitVec.ofNat 32 (128 * r2.val))) S128x128.size
      (k1_off2_inb L r1 r2) x (8192 * r1.val + 512 * (L 1).val + 256 * (L 0).val + 128 * r2.val) 0
      (by rw [k1_off2_eq]; rfl) (by rw [k1_off2_eq]; rfl) (by omega) (by omega)
  show gath 1 (m (tabLoc d)) (m (hLoc d)) (m (pLoc d)) (m (nLoc d))
    ((Rect.unit (s := S24576x128) (k1_off2 L (BitVec.ofNat 32 (8192 * r1.val)) (BitVec.ofNat 32 (128 * r2.val))) S128x128.size (k1_off2_inb L r1 r2)).emb x) = _
  rw [hemb, gath_ix2]
  refine congrArg (m (tabLoc d)) ?_
  have hw : (Cert.Spec.rowOf 100000 (by decide) (sel (m (hLoc d)) (m (pLoc d)) (m (nLoc d))
        ((8192 * r1.val + 512 * (L 1).val + 256 * (L 0).val + 128 * r2.val + (x 0).val) / 8192)
        (ix1 (n := 16384) ⟨8192 * (1 : Fin 2).val + (8192 * r1.val + 512 * (L 1).val + 256 * (L 0).val + 128 * r2.val + (x 0).val) % 8192,
          by have : ((1 : Fin 2).val) = 1 := rfl; omega⟩))).val
      = (idxW m d L (ix1 (n := 768) ⟨128 * (2 * r1.val + r2.val) + (x 0).val, by omega⟩)).toNat := by
    rw [Cert.Spec.rowOf_val_of_lt _ (sel_lt (hr d) _ _),
      idxW_ix1 m d L _ _ r1.val (128 * r2.val + (x 0).val) (by omega) (by omega) (by omega)]
    refine congrArg BitVec.toNat (sel_congr _ _ _ (by omega) ?_)
    show 8192 * (1 : Fin 2).val + (8192 * r1.val + 512 * (L 1).val + 256 * (L 0).val + 128 * r2.val + (x 0).val) % 8192 = base L + (128 * r2.val + (x 0).val)
    have : ((1 : Fin 2).val) = 1 := rfl
    unfold base; omega
  funext a
  match a with
  | 0 => exact Fin.ext hw
  | 1 => exact Fin.ext (Nat.zero_add _)

/-- What a copy-out lands in output block `(r1, r2)`: the row scratch as gather `2 r1 + r2` left it, which is the
    gathered array there. -/
theorem copyout_val (hr : ∀ d, Cert.Spec.InRange (m (hLoc d)) (m ((SparseCore.T d).loc main_arg4)) (m (pLoc d)) (m (nLoc d)))
    (r1 : Fin 3) (r2 : Fin 2) (o : ℕ) (ho : o = 128 * (2 * r1.val + r2.val))
    (inb : ∀ a, (![o] : Fin 1 → ℕ) a + S128.size a ≤ S768.size a)
    (g : Buf (Elt F) ((sV).view.loc (V d (cV L) (jV L)))) (hg' : ∀ y, g y = idxW m d L y)
    (hn : S128.numel = S128x128.size gathers_S100000x128_S128x128.axis')
    (hin : ∀ x, (((sV).slice (Rect.unit (s := S768) ![o] S128.size inb) (fun _ => rfl)).view.read (Elt F) g x).toNat
      < S100000x128.size gathers_S100000x128_S128x128.axis)
    (v : View sig .scVector .vmem S128x128 .f32) (fa : v.ty.Contents (Elt F)) (rest : List (View.Piece (Elt F) S128x128 .f32))
    (x : S128x128.Idx) :
    (ReadAs.same.apply (v.read (Elt F) (v.writes (Elt F) fa (⟨Rect.whole S128x128,
        SparseCore.gatherPayload gathers_S100000x128_S128x128 ((tAllK).view.read (Elt F) (m (tabLoc d)))
          (SparseCore.rows (((sV).slice (Rect.unit (s := S768) ![o] S128.size inb) (fun _ => rfl)).view.read (Elt F) g) hn hin)⟩ :: rest)))
          : S128x128.Idx → F .f32) x
      = gathAt m 1 d (((oV).slice (Rect.unit (s := S24576x128) (k1_off2 L (BitVec.ofNat 32 (8192 * r1.val)) (BitVec.ofNat 32 (128 * r2.val))) S128x128.size
        (k1_off2_inb L r1 r2)) (fun _ => rfl)).view.emb x) := by
  subst ho
  have hr1 := r1.isLt; have hr2 := r2.isLt
  rw [ReadAs.apply_same, read_writes_whole_head, gather_apply (F := F) m d L hr _ inb (by omega) g hg' hn hin x, gath_blk (F := F) m d L hr r1 r2 x]

set_option maxHeartbeats 4000000 in
theorem tile_body (hF : (K (F := F)).Facts)
    (hr : ∀ d, Cert.Spec.InRange (m (hLoc d)) (m ((SparseCore.T d).loc main_arg4)) (m (pLoc d)) (m (nLoc d)))
    (O : CellTallies nD τ sig (HIx 2)) (W : Waits sig (HIx 2)) (hO : ∀ g, O g none = 0) :
    iprop(levAts (K (F := F)).L (K (F := F)).lev ∗ emp
        ∗ goOf (F := F) (UU := UU) m (outLoc 1 d) blkSet (m (outLoc 1 d)) d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L hV (Memref.isWhole_whole _) pV (Memref.isWhole_whole _) nV (Memref.isWhole_whole _) tV (Memref.isWhole_whole _)
            oV (Memref.isWhole_whole _) sV (Memref.isWhole_whole _) aV (Memref.isWhole_whole _) bV (Memref.isWhole_whole _)
            cc1_scratch3 cc1_scratch4 cc1_scoped0 cc1_scoped1 cc1_scoped2 cc1_scoped3 cc1_scoped4 cc1_scoped5 cc1_scoped6 cc1_scoped7 cc1_scoped8)
          fun _ => iprop(goOf (F := F) (UU := UU) m (outLoc 1 d) blkSet (gathAt m 1 d) d (cL L) (sL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_body_eq_skeleton]; unfold cc1__sc_gather_body_skel
  rw [(K (F := F)).scopedBufs_V hF d (cV L) (jV L), SparseCore.Cfg.scopedSems0_V (Val := Elt F) d (cV L) (jV L), ownSems0_V, ownBufs_V, goOf_six, goOf_six]
  iintro ⟨#Hlv, -, ⟨Hh, Hp, Hn, Ht, Ho0, Ho1, Ho2, Ho3, Ho4, Ho5⟩, ⟨⟨%fs, Hs⟩, ⟨%fa, Ha⟩, ⟨%fb, Hb⟩, Hbufs⟩, ⟨Hc0, Hc1, Hc2, Hc3, Hc4, Hc5, Hc6, Hc7, Hc8, Hc9, Hc10, Hsems⟩, HO⟩
  ihave Hmw := (show levAts (K (F := F)).L (K (F := F)).lev ⊢ Transfers.MayWaits (V d (cV L) (jV L)) (default : HIx 2) O from
    (K (F := F)).mayWaits_none (thr := (V d (cV L) (jV L))) hO) $$ Hlv
  ihave Ho0' := (Entails.of_eq (pts_oB0K (F := F) (UU := UU) d L _).symm) $$ Ho0
  ihave Ho1' := (Entails.of_eq (pts_oB1K (F := F) (UU := UU) d L _).symm) $$ Ho1
  ihave Ho2' := (Entails.of_eq (pts_oB2K (F := F) (UU := UU) d L _).symm) $$ Ho2
  ihave Ho3' := (Entails.of_eq (pts_oB3K (F := F) (UU := UU) d L _).symm) $$ Ho3
  ihave Ho4' := (Entails.of_eq (pts_oB4K (F := F) (UU := UU) d L _).symm) $$ Ho4
  ihave Ho5' := (Entails.of_eq (pts_oB5K (F := F) (UU := UU) d L _).symm) $$ Ho5
  ihave Hh' := (Entails.of_eq (show (hLoc d ↦{tq (cL L) (sL L)} m (hLoc d) : sProp 𝕄) = (hV).view.loc (V d (cV L) (jV L)) ↦{tq (cL L) (sL L)} m (hLoc d) from rfl)) $$ Hh
  ihave Hp' := (Entails.of_eq (show (pLoc d ↦{tq (cL L) (sL L)} m (pLoc d) : sProp 𝕄) = (pV).view.loc (V d (cV L) (jV L)) ↦{tq (cL L) (sL L)} m (pLoc d) from rfl)) $$ Hp
  ihave Hn' := (Entails.of_eq (show (nLoc d ↦{tq (cL L) (sL L)} m (nLoc d) : sProp 𝕄) = (nV).view.loc (V d (cV L) (jV L)) ↦{tq (cL L) (sL L)} m (nLoc d) from rfl)) $$ Hn
  ihave Ht' := (Entails.of_eq (show (tabLoc d ↦{tq (cL L) (sL L)} m (tabLoc d) : sProp 𝕄) = (tV).view.loc (V d (cV L) (jV L)) ↦{tq (cL L) (sL L)} m (tabLoc d) from rfl)) $$ Ht
  ihave Hs' := (Entails.of_eq (show ((V d (cV L) (jV L)).loc cc1_scratch0 ↦{fullShare} fs : sProp 𝕄) = (sV).view.loc (V d (cV L) (jV L)) ↦{fullShare} fs from rfl)) $$ Hs
  ihave Ha' := (Entails.of_eq (show ((V d (cV L) (jV L)).loc cc1_scratch1 ↦{fullShare} fa : sProp 𝕄) = (aV).view.loc (V d (cV L) (jV L)) ↦{fullShare} fa from rfl)) $$ Ha
  ihave Hb' := (Entails.of_eq (show ((V d (cV L) (jV L)).loc cc1_scratch2 ↦{fullShare} fb : sProp 𝕄) = (bV).view.loc (V d (cV L) (jV L)) ↦{fullShare} fb from rfl)) $$ Hb
  sl_exec

  ihave Hs6 := (Entails.of_eq (sV_six (F := F) (UU := UU) d L _)) $$ Hs'
  icases Hs6 with ⟨Hl0, Hl1, Hl2, Hl3, Hl4, Hl5⟩
  ihave Ht2 := (pointsTo_share (PosShare.mem_left_op_right (tq (cL L) (sL L)))).1 $$ Ht'
  icases Ht2 with ⟨Htl, Htr⟩
  have hFS : ∀ y, ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) y = idxW m d L y :=
    FS_apply (F := F) m d L _ _ _ _ (dmaH_apply (F := F) m d L) (dmaP_apply (F := F) m d L) (dmaN_apply (F := F) m d L)
  have hin0 : ∀ x, ((off0K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 0 inb_S768_S128_0 (by omega) _ hFS
  have hin1 : ∀ x, ((off1K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 128 inb_S768_S128_128 (by omega) _ hFS
  have hin2 : ∀ x, ((off2K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 256 inb_S768_S128_256 (by omega) _ hFS
  have hin3 : ∀ x, ((off3K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 384 inb_S768_S128_384 (by omega) _ hFS
  have hin4 : ∀ x, ((off4K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 512 inb_S768_S128_512 (by omega) _ hFS
  have hin5 : ∀ x, ((off5K).view.read (Elt F) ((sV).view.writes (Elt F) (sV).view.junk [⟨Rect.unit ![512] S256.size inb_S768_S256_512, tile_body.sl.dma0_2 m d L⟩, ⟨Rect.unit ![256] S256.size inb_S768_S256_256, tile_body.sl.dma0_1 m d L⟩, ⟨Rect.unit ![0] S256.size inb_S768_S256_0, tile_body.sl.dma0 m d L⟩]) x).toNat < S100000x128.size gathers_S100000x128_S128x128.axis := hin_of (F := F) m d L hr 640 inb_S768_S128_640 (by omega) _ hFS
  sl_exec
  sl_step
  have hW0 : ∀ x, tile_body.sl.dma0_3 m d L fa hin0 x = gathAt m 1 d ((oB0K L).view.emb x) := fun x => copyout_val (F := F) m d L hr 0 0 0 rfl inb_S768_S128_0 _ hFS _ hin0 (aV).view _ _ x
  have hW1 : ∀ x, tile_body.sl.dma0_4 m d L fb hin1 x = gathAt m 1 d ((oB1K L).view.emb x) := fun x => copyout_val (F := F) m d L hr 0 1 128 rfl inb_S768_S128_128 _ hFS _ hin1 (bV).view _ _ x
  have hW2 : ∀ x, tile_body.sl.dma0_5 m d L fa hin0 hin2 x = gathAt m 1 d ((oB2K L).view.emb x) := fun x => copyout_val (F := F) m d L hr 1 0 256 rfl inb_S768_S128_256 _ hFS _ hin2 (aV).view _ _ x
  have hW3 : ∀ x, tile_body.sl.dma0_6 m d L fb hin1 hin3 x = gathAt m 1 d ((oB3K L).view.emb x) := fun x => copyout_val (F := F) m d L hr 1 1 384 rfl inb_S768_S128_384 _ hFS _ hin3 (bV).view _ _ x
  have hW4 : ∀ x, tile_body.sl.dma0_7 m d L fa hin0 hin2 hin4 x = gathAt m 1 d ((oB4K L).view.emb x) := fun x => copyout_val (F := F) m d L hr 2 0 512 rfl inb_S768_S128_512 _ hFS _ hin4 (aV).view _ _ x
  have hW5 : ∀ x, tile_body.sl.dma0_8 m d L fb hin1 hin3 hin5 x = gathAt m 1 d ((oB5K L).view.emb x) := fun x => copyout_val (F := F) m d L hr 2 1 640 rfl inb_S768_S128_640 _ hFS _ hin5 (bV).view _ _ x
  ihave Hs3 := (Entails.of_eq (sV_six (F := F) (UU := UU) d L _).symm) $$ [Hl0 Hl1 Hl2 Hl3 Hl4 Hl5]
  · isplitl [Hl0]; · iexact Hl0
    isplitl [Hl1]; · iexact Hl1
    isplitl [Hl2]; · iexact Hl2
    isplitl [Hl3]; · iexact Hl3
    isplitl [Hl4]; · iexact Hl4
    iexact Hl5
  ihave Ht3 := (pointsTo_share (PosShare.mem_left_op_right (tq (cL L) (sL L)))).2 $$ [Htl Htr]
  · isplitl [Htl] <;> iassumption
  isplitl [Hh' Hp' Hn' Ht3 Ho0' Ho1' Ho2' Ho3' Ho4' Ho5']
  · isplitl [Hh']; · iexact Hh'
    isplitl [Hp']; · iexact Hp'
    isplitl [Hn']; · iexact Hn'
    isplitl [Ht3]; · iexact Ht3
    isplitl [Ho0']; · iapply (Entails.of_eq (blk_congr0 (F := F) (UU := UU) m d L _ _ hW0)); iexact Ho0'
    isplitl [Ho1']; · iapply (Entails.of_eq (blk_congr1 (F := F) (UU := UU) m d L _ _ hW1)); iexact Ho1'
    isplitl [Ho2']; · iapply (Entails.of_eq (blk_congr2 (F := F) (UU := UU) m d L _ _ hW2)); iexact Ho2'
    isplitl [Ho3']; · iapply (Entails.of_eq (blk_congr3 (F := F) (UU := UU) m d L _ _ hW3)); iexact Ho3'
    isplitl [Ho4']; · iapply (Entails.of_eq (blk_congr4 (F := F) (UU := UU) m d L _ _ hW4)); iexact Ho4'
    iapply (Entails.of_eq (blk_congr5 (F := F) (UU := UU) m d L _ _ hW5)); iexact Ho5'
  isplitl [Hs3 Ha' Hb' Hbufs]
  · isplitl [Hs3]; · iexists _; iexact Hs3
    isplitl [Ha']; · iexists _; iexact Ha'
    isplitl [Hb']; · iexists _; iexact Hb'
    iexact Hbufs
  isplitl [Hc0 Hc1 Hc2 Hc3 Hc4 Hc5 Hc6 Hc7 Hc8 Hc9 Hc10 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ### The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather_body (coordsV c s)
          hV (Memref.isWhole_whole _) pV (Memref.isWhole_whole _) nV (Memref.isWhole_whole _) tV (Memref.isWhole_whole _)
          oV (Memref.isWhole_whole _) sV (Memref.isWhole_whole _) aV (Memref.isWhole_whole _) bV (Memref.isWhole_whole _)
          cc1_scratch3 cc1_scratch4 cc1_scoped0 cc1_scoped1 cc1_scoped2 cc1_scoped3 cc1_scoped4 cc1_scoped5 cc1_scoped6 cc1_scoped7 cc1_scoped8) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts)
    (hr : ∀ d, Cert.Spec.InRange (m (hLoc d)) (m ((SparseCore.T d).loc main_arg4)) (m (pLoc d)) (m (nLoc d))) :
    (K (F := F)).TileObl (D (F := F)) 𝒱 (P (F := F) (UU := UU) m) v₀ 1 := by
  intro d c i O W hO _ _
  simp only [show (P (F := F) (UU := UU) m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hr O W hO).trans (wp_mono frame _ _ fun _ => obl_post)

end Tile

end C1

/-- Every vector subcore's task in either call: from its shares of the index arrays and the table and its six blocks
    of the output at the launch contents to the same with the blocks at the gathered array. -/
theorem tileObl (hr : ∀ d, Cert.Spec.InRange (m (hLoc d)) (m ((SparseCore.T d).loc main_arg4)) (m (pLoc d)) (m (nLoc d))) :
    ∀ q, (K (F := F)).TileObl (D (F := F)) 𝒱 (P (F := F) (UU := UU) m) v₀ q :=
  fun q => match q with
  | 0 => C0.tileObl m facts hr
  | 1 => C1.tileObl m facts hr

end Cert.Kernel.Sc

end
-- ==== Proof.WScSplit.lean ====
/-
  How a SparseCore's part of a call's operands splits among its sixteen vector subcores and joins again: the shares of
  the read-only arrays halve four times; the SparseCore's blocks of the output array are its subcores' blocks.
-/
import proofs.«211459_g87136296501727_cont_9to1_m_723_16_alg».proof.Proof.WScSetup

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {UU : Type} [URA UU] [CountersIn UU]

local notation "𝕄" => MT nD τ sig (HIx 2) (Elt F) ℕ UU ℕ

variable (m : (ℓ : Loc nD τ sig) → Buf (Elt F) ℓ)

theorem vecSplit0 : (K (F := F)).VecSplit' (P (F := F) (UU := UU) m) 0 := by
  intro d c
  have hgo : (bigSep Finset.univ fun i : Fin ((K (F := F)).nSub 0) => (P (F := F) (UU := UU) m).go 0 d c i) = (P (F := F) (UU := UU) m).st 0 d c :=
    (bigSep_subs0 (fun s => goOf (F := F) (UU := UU) m (outLoc 0 d) blkSet (m (outLoc 0 d)) d (Fin.cast (nCore_eq 0) c) s)).trans
      (tile_join m (outLoc 0 d) blkSet (m (outLoc 0 d)) d (Fin.cast (nCore_eq 0) c))
  have htd : (bigSep Finset.univ fun i : Fin ((K (F := F)).nSub 0) => (P (F := F) (UU := UU) m).td 0 d c i) = (P (F := F) (UU := UU) m).dn 0 d c :=
    (bigSep_subs0 (fun s => goOf (F := F) (UU := UU) m (outLoc 0 d) blkSet (gathAt m 0 d) d (Fin.cast (nCore_eq 0) c) s)).trans
      (tile_join m (outLoc 0 d) blkSet (gathAt m 0 d) d (Fin.cast (nCore_eq 0) c))
  rw [hgo, htd]
  iintro H; imodintro
  isplitl [H]; · iexact H
  iintro H; iexact H

theorem vecSplit1 : (K (F := F)).VecSplit' (P (F := F) (UU := UU) m) 1 := by
  intro d c
  have hgo : (bigSep Finset.univ fun i : Fin ((K (F := F)).nSub 1) => (P (F := F) (UU := UU) m).go 1 d c i) = (P (F := F) (UU := UU) m).st 1 d c :=
    (bigSep_subs1 (fun s => goOf (F := F) (UU := UU) m (outLoc 1 d) blkSet (m (outLoc 1 d)) d (Fin.cast (nCore_eq 1) c) s)).trans
      (tile_join m (outLoc 1 d) blkSet (m (outLoc 1 d)) d (Fin.cast (nCore_eq 1) c))
  have htd : (bigSep Finset.univ fun i : Fin ((K (F := F)).nSub 1) => (P (F := F) (UU := UU) m).td 1 d c i) = (P (F := F) (UU := UU) m).dn 1 d c :=
    (bigSep_subs1 (fun s => goOf (F := F) (UU := UU) m (outLoc 1 d) blkSet (gathAt m 1 d) d (Fin.cast (nCore_eq 1) c) s)).trans
      (tile_join m (outLoc 1 d) blkSet (gathAt m 1 d) d (Fin.cast (nCore_eq 1) c))
  rw [hgo, htd]
  iintro H; imodintro
  isplitl [H]; · iexact H
  iintro H; iexact H

/-- Each call's operands for a SparseCore split into its subcores' and its results gather from theirs. -/
theorem vecSplit (q : Fin 2) : (K (F := F)).VecSplit' (P (F := F) (UU := UU) m) q :=
  match q with
  | 0 => vecSplit0 m
  | 1 => vecSplit1 m

end Cert.Kernel.Sc

end
-- ==== Proof.WKerClaims.lean ====
/-
  The kernel's run with nothing left assumed: each call's tasks and split, the two regions' steps and @main's line put
  into the launch theorem. Its post in the claim's own words: the result buffer holds the sum of the two regions'
  accumulated shares, reshaped to a scalar, and the seven argument arrays are as found.
-/
import proofs.«211459_g87136296501727_cont_9to1_m_723_16_alg».proof.Proof.WRunMain
import proofs.«211459_g87136296501727_cont_9to1_m_723_16_alg».proof.Proof.WRegStep
import proofs.«211459_g87136296501727_cont_9to1_m_723_16_alg».proof.Proof.WFinalVals
import proofs.«211459_g87136296501727_cont_9to1_m_723_16_alg».proof.Proof.WScTile
import proofs.«211459_g87136296501727_cont_9to1_m_723_16_alg».proof.Proof.WScSplit

noncomputable section

namespace Cert.Kernel.KerLaunch

open Cert.Kernel Cert.Kernel.MainShape Cert.LaunchKit
open Idealize.ShloMosaic Idealize.ShloMosaic.TcCoe
open Idealize.ShloMosaic.StableHlo
open Idealize.SL.Sem
open Cert.Kernel.Facts₀ Cert.Kernel.Facts

variable {F : FTy → Type} [FloatOps F] [∀ e, Nonempty (Elt F e)]

variable (m : (ℓ : Loc nD τ sig) → Buf (Elt F) ℓ) (ρ : Dev nD → PrngReg)

/-- The first region's accumulated value: the eight points' shares over its entry contents. -/
def accA (d : Dev nD) : (⟨S1x1, .f32⟩ : BufTy).Contents (Elt F) := Tc.accAt2 d (arrA d (V2' m d)) 7 Tc.lt7_2
/-- The second region's. -/
def accB (d : Dev nD) : (⟨S1x1, .f32⟩ : BufTy).Contents (Elt F) := Tc.accAt3 d (arrB d (V3 m (accA m) d)) 7 Tc.lt7_3

/-- The run, from the ranges of the integer inputs. -/
theorem run (hr : ∀ d, Cert.Spec.InRange (m (Sc.hLoc d)) (m ((SparseCore.T d).loc main_arg4)) (m (Sc.pLoc d)) (m (Sc.nLoc d))) :
    θ_run (Cert.Kernel.defs (F := F)) (Cert.Kernel.threads (F := F)) ⟨m, fun _ => 0, ρ⟩ (QC m (accA m) (accB m)) :=
  run_main m ρ (accA m) (accB m) (Sc.tileObl (F := F) (UU := Alg.UU) m hr) (Sc.vecSplit (F := F) (UU := Alg.UU) m)
    (fun d => reg_step0 d (V2' m d) (B16 (F := F) d))
    (fun d => reg_step1 d (V3 m (accA m) d) (B16 (F := F) d ∪ (cfgs 0).waitPairs none))

theorem mem_SU_v19 : ((main_v19 : DevRef τ sig)) ∈ SU := by decide
theorem mem_SU_arg0 : ((main_arg0 : DevRef τ sig)) ∈ SU := by decide
theorem mem_SU_arg1 : ((main_arg1 : DevRef τ sig)) ∈ SU := by decide
theorem mem_SU_arg2 : ((main_arg2 : DevRef τ sig)) ∈ SU := by decide
theorem mem_SU_arg3 : ((main_arg3 : DevRef τ sig)) ∈ SU := by decide
theorem mem_SU_arg4 : ((main_arg4 : DevRef τ sig)) ∈ SU := by decide
theorem mem_SU_arg5 : ((main_arg5 : DevRef τ sig)) ∈ SU := by decide
theorem mem_SU_arg6 : ((main_arg6 : DevRef τ sig)) ∈ SU := by decide

/-- The run's post in the claim's words. -/
theorem run_post (hr : ∀ d, Cert.Spec.InRange (m (Sc.hLoc d)) (m ((SparseCore.T d).loc main_arg4)) (m (Sc.pLoc d)) (m (Sc.nLoc d))) :
    θ_run (Cert.Kernel.defs (F := F)) (Cert.Kernel.threads (F := F)) ⟨m, fun _ => 0, ρ⟩ (fun r => ∀ c : Dev nD,
      r.2.mem ((c.tc : Thread nD τ).loc main_v19) = shapeCast S_ (addf (accA m c) (accB m c)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (Cert.Kernel.defs (F := F)) _ _).mono (fun r h c =>
    ⟨(h c _ mem_SU_v19).trans (V5_res m (accA m) (accB m) c),
     (h c _ mem_SU_arg0).trans (V5_arg0 m (accA m) (accB m) c),
     (h c _ mem_SU_arg1).trans (V5_arg1 m (accA m) (accB m) c),
     (h c _ mem_SU_arg2).trans (V5_arg2 m (accA m) (accB m) c),
     (h c _ mem_SU_arg3).trans (V5_arg3 m (accA m) (accB m) c),
     (h c _ mem_SU_arg4).trans (V5_arg4 m (accA m) (accB m) c),
     (h c _ mem_SU_arg5).trans (V5_arg5 m (accA m) (accB m) c),
     (h c _ mem_SU_arg6).trans (V5_arg6 m (accA m) (accB m) c)⟩) (run m ρ hr)

end Cert.Kernel.KerLaunch

end
-- ==== Proof.RefRun.lean ====
/-
  The reference program's run, read back as a value.

  The reference is a straight line of 240 host operations once its outlined functions (the three row gathers with
  their index wrap, the row length, the softplus inside the log-sigmoid) are laid out at their call sites. The line is
  cut into eighteen consecutive groups; each group's effect on the buffers read after it is one equation between pure
  terms (`B‹k›_‹buffer›`), every group leaves every buffer it does not write alone (`B‹k›_frame`), and composing the
  groups gives the result buffer as `res` of the seven argument arrays: the mean of minus the log-sigmoid of the score
  gap plus the weighted sum of the four means of half squared row lengths. `run` is the statement over executions:
  every weakly fair execution terminates with the result at `res` of the launch contents of the arguments, the
  arguments unchanged; `frame_ri` is its consequence without the value.
-/
import proofs.«211459_g87136296501727_cont_9to1_m_723_16_alg».proof.Proof.Gen.ReferenceIdeal
import Idealize.ShloMosaic.Lib.StableHlo.Run
import proofs.«211459_g87136296501727_cont_9to1_m_723_16_alg».proof.Defs
import proofs.«211459_g87136296501727_cont_9to1_m_723_16_alg».proof.Proof.Gen.Pre_input_domain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations main_call0_c … main_v0 of the straight line, in order. -/
def B1 : List (HloOp τ sig (Elt F)) :=
  [ TRef.nullary main_call0.c (constantI S_ 32 0#32),
    TRef.unary main_call0.c main_call0.v0 (broadcastInDim S16384 ![] bcast_S_S16384),
    TRef.binary (.of main_arg3 : TRef sig ⟨S16384, .i32⟩) main_call0.v0 main_call0.v1 (cmpi .slt),
    TRef.nullary main_call0.c_0 (constantI S_ 32 100000#32),
    TRef.unary main_call0.c_0 main_call0.v2 (broadcastInDim S16384 ![] bcast_S_S16384),
    TRef.binary (.of main_arg3 : TRef sig ⟨S16384, .i32⟩) main_call0.v2 main_call0.v3 addi,
    TRef.ternary main_call0.v1 main_call0.v3 (.of main_arg3 : TRef sig ⟨S16384, .i32⟩) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg0 : TRef sig ⟨S100000x128, .f32⟩) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

/-- Operations main_call1_c … main_v1 of the straight line, in order. -/
def B2 : List (HloOp τ sig (Elt F)) :=
  [ TRef.nullary main_call1.c (constantI S_ 32 0#32),
    TRef.unary main_call1.c main_call1.v0 (broadcastInDim S16384 ![] bcast_S_S16384),
    TRef.binary (.of main_arg4 : TRef sig ⟨S16384, .i32⟩) main_call1.v0 main_call1.v1 (cmpi .slt),
    TRef.nullary main_call1.c_0 (constantI S_ 32 16#32),
    TRef.unary main_call1.c_0 main_call1.v2 (broadcastInDim S16384 ![] bcast_S_S16384),
    TRef.binary (.of main_arg4 : TRef sig ⟨S16384, .i32⟩) main_call1.v2 main_call1.v3 addi,
    TRef.ternary main_call1.v1 main_call1.v3 (.of main_arg4 : TRef sig ⟨S16384, .i32⟩) main_call1.call0.v0 select,
    TRef.unary main_call1.call0.v0 main_call1.v5 (broadcastInDim S16384x1 ![0] bcast_S16384_S16384x1_0),
    TRef.nullary main_call1.c_1 (constantI S1 32 15#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg1 : TRef sig ⟨S16x64, .f32⟩) main_call1.v5 main_call1.v13 (fun x i => Host.gather gather_S16x64_S16384x1_S16384x64_1_0_n_n_0_1_164 x i),
    TRef.unary main_call1.v12 main_call1.v14 (broadcastInDim S16384x64 ![0] bcast_S16384_S16384x64_0),
    TRef.nullary main_call1.cst (constant S_ .f32 0x7FC00000#32),
    TRef.unary main_call1.cst main_call1.v15 (broadcastInDim S16384x64 ![] bcast_S_S16384x64),
    TRef.ternary main_call1.v14 main_call1.v13 main_call1.v15 main_call1.v16 select ]

/-- Operations main_call2_c … main_v2 of the straight line, in order. -/
def B3 : List (HloOp τ sig (Elt F)) :=
  [ TRef.nullary main_call2.c (constantI S_ 32 0#32),
    TRef.unary main_call2.c main_call2.v0 (broadcastInDim S16384 ![] bcast_S_S16384),
    TRef.binary (.of main_arg5 : TRef sig ⟨S16384, .i32⟩) main_call2.v0 main_call2.v1 (cmpi .slt),
    TRef.nullary main_call2.c_0 (constantI S_ 32 100000#32),
    TRef.unary main_call2.c_0 main_call2.v2 (broadcastInDim S16384 ![] bcast_S_S16384),
    TRef.binary (.of main_arg5 : TRef sig ⟨S16384, .i32⟩) main_call2.v2 main_call2.v3 addi,
    TRef.ternary main_call2.v1 main_call2.v3 (.of main_arg5 : TRef sig ⟨S16384, .i32⟩) main_call2.call0.v0 select,
    TRef.unary main_call2.call0.v0 main_call2.v5 (broadcastInDim S16384x1 ![0] bcast_S16384_S16384x1_0),
    TRef.nullary main_call2.c_1 (constantI S1 32 99999#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary (.of main_arg0 : TRef sig ⟨S100000x128, .f32⟩) main_call2.v5 main_call2.v13 (fun x i => Host.gather gather_S100000x128_S16384x1_S16384x128_1_0_n_n_0_1_1128 x i),
    TRef.unary main_call2.v12 main_call2.v14 (broadcastInDim S16384x128 ![0] bcast_S16384_S16384x128_0),
    TRef.nullary main_call2.cst (constant S_ .f32 0x7FC00000#32),
    TRef.unary main_call2.cst main_call2.v15 (broadcastInDim S16384x128 ![] bcast_S_S16384x128),
    TRef.ternary main_call2.v14 main_call2.v13 main_call2.v15 main_call2.v16 select ]

/-- Operations main_call3_c … main_v3 of the straight line, in order. -/
def B4 : List (HloOp τ sig (Elt F)) :=
  [ TRef.nullary main_call3.c (constantI S_ 32 0#32),
    TRef.unary main_call3.c main_call3.v0 (broadcastInDim S16384 ![] bcast_S_S16384),
    TRef.binary (.of main_arg6 : TRef sig ⟨S16384, .i32⟩) main_call3.v0 main_call3.v1 (cmpi .slt),
    TRef.nullary main_call3.c_0 (constantI S_ 32 100000#32),
    TRef.unary main_call3.c_0 main_call3.v2 (broadcastInDim S16384 ![] bcast_S_S16384),
    TRef.binary (.of main_arg6 : TRef sig ⟨S16384, .i32⟩) main_call3.v2 main_call3.v3 addi,
    TRef.ternary main_call3.v1 main_call3.v3 (.of main_arg6 : TRef sig ⟨S16384, .i32⟩) main_call3.call0.v0 select,
    TRef.unary main_call3.call0.v0 main_call3.v5 (broadcastInDim S16384x1 ![0] bcast_S16384_S16384x1_0),
    TRef.nullary main_call3.c_1 (constantI S1 32 99999#32),
    TRef.nullary main_call3.c_2 (constantI S_ 32 0#32),
    TRef.unary main_call3.c_2 main_call3.v6 (broadcastInDim S16384x1 ![] bcast_S_S16384x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S16384x1 ![0, 1] bcast_S1x1_S16384x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S16384x1_S16384_d1 h_S_),
    TRef.binary (.of main_arg0 : TRef sig ⟨S100000x128, .f32⟩) main_call3.v5 main_call3.v13 (fun x i => Host.gather gather_S100000x128_S16384x1_S16384x128_1_0_n_n_0_1_1128 x i),
    TRef.unary main_call3.v12 main_call3.v14 (broadcastInDim S16384x128 ![0] bcast_S16384_S16384x128_0),
    TRef.nullary main_call3.cst (constant S_ .f32 0x7FC00000#32),
    TRef.unary main_call3.cst main_call3.v15 (broadcastInDim S16384x128 ![] bcast_S_S16384x128),
    TRef.ternary main_call3.v14 main_call3.v13 main_call3.v15 main_call3.v16 select ]

/-- Operations main_call4_c … main_v4 of the straight line, in order. -/
def B5 : List (HloOp τ sig (Elt F)) :=
  [ TRef.nullary main_call4.c (constantI S_ 32 0#32),
    TRef.unary main_call4.c main_call4.v0 (broadcastInDim S16384 ![] bcast_S_S16384),
    TRef.binary (.of main_arg4 : TRef sig ⟨S16384, .i32⟩) main_call4.v0 main_call4.v1 (cmpi .slt),
    TRef.nullary main_call4.c_0 (constantI S_ 32 16#32),
    TRef.unary main_call4.c_0 main_call4.v2 (broadcastInDim S16384 ![] bcast_S_S16384),
    TRef.binary (.of main_arg4 : TRef sig ⟨S16384, .i32⟩) main_call4.v2 main_call4.v3 addi,
    TRef.ternary main_call4.v1 main_call4.v3 (.of main_arg4 : TRef sig ⟨S16384, .i32⟩) main_call4.call0.v0 select,
    TRef.unary main_call4.call0.v0 main_call4.v5 (broadcastInDim S16384x1 ![0] bcast_S16384_S16384x1_0),
    TRef.nullary main_call4.c_1 (constantI S1 32 15#32),
    TRef.nullary main_call4.c_2 (constantI S_ 32 0#32),
    TRef.unary main_call4.c_2 main_call4.v6 (broadcastInDim S16384x1 ![] bcast_S_S16384x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S16384x1 ![0, 1] bcast_S1x1_S16384x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S16384x1_S16384_d1 h_S_),
    TRef.binary (.of main_arg2 : TRef sig ⟨S16x128x64, .f32⟩) main_call4.v5 main_call4.v13 (fun x i => Host.gather gather_S16x128x64_S16384x1_S16384x128x64_12_0_n_n_0_1_112864 x i),
    TRef.unary main_call4.v12 main_call4.v14 (broadcastInDim S16384x128x64 ![0] bcast_S16384_S16384x128x64_0),
    TRef.nullary main_call4.cst (constant S_ .f32 0x7FC00000#32),
    TRef.unary main_call4.cst main_call4.v15 (broadcastInDim S16384x128x64 ![] bcast_S_S16384x128x64),
    TRef.ternary main_call4.v14 main_call4.v13 main_call4.v15 main_call4.v16 select ]

/-- Operations main_v5 … main_v10 of the straight line, in order. -/
def B6 : List (HloOp τ sig (Elt F)) :=
  [ binary main_v0 main_v4 main_v5 ((fun l r => Host.dotGeneral dot_S16384x128_S16384x128x64_S16384x64_1_1_n_2_0_0 none l r) : (⟨S16384x128, .f32⟩ : BufTy).Contents (Elt F) → (⟨S16384x128x64, .f32⟩ : BufTy).Contents (Elt F) → (⟨S16384x64, .f32⟩ : BufTy).Contents (Elt F)),
    TRef.binary (.of main_v5 : TRef sig ⟨S16384x64, .f32⟩) (.of main_v5 : TRef sig ⟨S16384x64, .f32⟩) main_call5.v0 mulf,
    TRef.nullary main_call5.cst (constant S_ .f32 0x00000000#32),
    TRef.binary main_call5.v0 main_call5.cst main_call5.v1 (fun x v => Host.reduceAdd x v reducesTo_S16384x64_S16384_d1 h_S_),
    TRef.unary main_call5.v1 main_call5.v2 (broadcastInDim S16384x1 ![0] bcast_S16384_S16384x1_0),
    TRef.unary main_call5.v2 main_call5.v3 Host.sqrt,
    nullary main_cst (constant S_ .f32 0x2B8CBCCC#32),
    unary main_cst main_v7 (broadcastInDim S16384x1 ![] bcast_S_S16384x1 : (⟨S_, .f32⟩ : BufTy).Contents (Elt F) → (⟨S16384x1, .f32⟩ : BufTy).Contents (Elt F)),
    binary main_v6 main_v7 main_v8 (maximumf : (⟨S16384x1, .f32⟩ : BufTy).Contents (Elt F) → (⟨S16384x1, .f32⟩ : BufTy).Contents (Elt F) → (⟨S16384x1, .f32⟩ : BufTy).Contents (Elt F)),
    unary main_v8 main_v9 (broadcastInDim S16384x64 ![0, 1] bcast_S16384x1_S16384x64_0_1 : (⟨S16384x1, .f32⟩ : BufTy).Contents (Elt F) → (⟨S16384x64, .f32⟩ : BufTy).Contents (Elt F)),
    binary main_v5 main_v9 main_v10 (Host.divf : (⟨S16384x64, .f32⟩ : BufTy).Contents (Elt F) → (⟨S16384x64, .f32⟩ : BufTy).Contents (Elt F) → (⟨S16384x64, .f32⟩ : BufTy).Contents (Elt F)) ]

/-- Operations main_call6_v0 … main_v15 of the straight line, in order. -/
def B7 : List (HloOp τ sig (Elt F)) :=
  [ TRef.binary (.of main_v1 : TRef sig ⟨S16384x64, .f32⟩) (.of main_v1 : TRef sig ⟨S16384x64, .f32⟩) main_call6.v0 mulf,
    TRef.nullary main_call6.cst (constant S_ .f32 0x00000000#32),
    TRef.binary main_call6.v0 main_call6.cst main_call6.v1 (fun x v => Host.reduceAdd x v reducesTo_S16384x64_S16384_d1 h_S_),
    TRef.unary main_call6.v1 main_call6.v2 (broadcastInDim S16384x1 ![0] bcast_S16384_S16384x1_0),
    TRef.unary main_call6.v2 main_call6.v3 Host.sqrt,
    nullary main_cst_0 (constant S_ .f32 0x2B8CBCCC#32),
    unary main_cst_0 main_v12 (broadcastInDim S16384x1 ![] bcast_S_S16384x1 : (⟨S_, .f32⟩ : BufTy).Contents (Elt F) → (⟨S16384x1, .f32⟩ : BufTy).Contents (Elt F)),
    binary main_v11 main_v12 main_v13 (maximumf : (⟨S16384x1, .f32⟩ : BufTy).Contents (Elt F) → (⟨S16384x1, .f32⟩ : BufTy).Contents (Elt F) → (⟨S16384x1, .f32⟩ : BufTy).Contents (Elt F)),
    unary main_v13 main_v14 (broadcastInDim S16384x64 ![0, 1] bcast_S16384x1_S16384x64_0_1 : (⟨S16384x1, .f32⟩ : BufTy).Contents (Elt F) → (⟨S16384x64, .f32⟩ : BufTy).Contents (Elt F)),
    binary main_v1 main_v14 main_v15 (Host.divf : (⟨S16384x64, .f32⟩ : BufTy).Contents (Elt F) → (⟨S16384x64, .f32⟩ : BufTy).Contents (Elt F) → (⟨S16384x64, .f32⟩ : BufTy).Contents (Elt F)) ]

/-- Operations main_v16 … main_v21 of the straight line, in order. -/
def B8 : List (HloOp τ sig (Elt F)) :=
  [ binary main_v2 main_v4 main_v16 ((fun l r => Host.dotGeneral dot_S16384x128_S16384x128x64_S16384x64_1_1_n_2_0_0 none l r) : (⟨S16384x128, .f32⟩ : BufTy).Contents (Elt F) → (⟨S16384x128x64, .f32⟩ : BufTy).Contents (Elt F) → (⟨S16384x64, .f32⟩ : BufTy).Contents (Elt F)),
    TRef.binary (.of main_v16 : TRef sig ⟨S16384x64, .f32⟩) (.of main_v16 : TRef sig ⟨S16384x64, .f32⟩) main_call7.v0 mulf,
    TRef.nullary main_call7.cst (constant S_ .f32 0x00000000#32),
    TRef.binary main_call7.v0 main_call7.cst main_call7.v1 (fun x v => Host.reduceAdd x v reducesTo_S16384x64_S16384_d1 h_S_),
    TRef.unary main_call7.v1 main_call7.v2 (broadcastInDim S16384x1 ![0] bcast_S16384_S16384x1_0),
    TRef.unary main_call7.v2 main_call7.v3 Host.sqrt,
    nullary main_cst_1 (constant S_ .f32 0x2B8CBCCC#32),
    unary main_cst_1 main_v18 (broadcastInDim S16384x1 ![] bcast_S_S16384x1 : (⟨S_, .f32⟩ : BufTy).Contents (Elt F) → (⟨S16384x1, .f32⟩ : BufTy).Contents (Elt F)),
    binary main_v17 main_v18 main_v19 (maximumf : (⟨S16384x1, .f32⟩ : BufTy).Contents (Elt F) → (⟨S16384x1, .f32⟩ : BufTy).Contents (Elt F) → (⟨S16384x1, .f32⟩ : BufTy).Contents (Elt F)),
    unary main_v19 main_v20 (broadcastInDim S16384x64 ![0, 1] bcast_S16384x1_S16384x64_0_1 : (⟨S16384x1, .f32⟩ : BufTy).Contents (Elt F) → (⟨S16384x64, .f32⟩ : BufTy).Contents (Elt F)),
    binary main_v16 main_v20 main_v21 (Host.divf : (⟨S16384x64, .f32⟩ : BufTy).Contents (Elt F) → (⟨S16384x64, .f32⟩ : BufTy).Contents (Elt F) → (⟨S16384x64, .f32⟩ : BufTy).Contents (Elt F)) ]

/-- Operations main_v22 … main_v27 of the straight line, in order. -/
def B9 : List (HloOp τ sig (Elt F)) :=
  [ binary main_v3 main_v4 main_v22 ((fun l r => Host.dotGeneral dot_S16384x128_S16384x128x64_S16384x64_1_1_n_2_0_0 none l r) : (⟨S16384x128, .f32⟩ : BufTy).Contents (Elt F) → (⟨S16384x128x64, .f32⟩ : BufTy).Contents (Elt F) → (⟨S16384x64, .f32⟩ : BufTy).Contents (Elt F)),
    TRef.binary (.of main_v22 : TRef sig ⟨S16384x64, .f32⟩) (.of main_v22 : TRef sig ⟨S16384x64, .f32⟩) main_call8.v0 mulf,
    TRef.nullary main_call8.cst (constant S_ .f32 0x00000000#32),
    TRef.binary main_call8.v0 main_call8.cst main_call8.v1 (fun x v => Host.reduceAdd x v reducesTo_S16384x64_S16384_d1 h_S_),
    TRef.unary main_call8.v1 main_call8.v2 (broadcastInDim S16384x1 ![0] bcast_S16384_S16384x1_0),
    TRef.unary main_call8.v2 main_call8.v3 Host.sqrt,
    nullary main_cst_2 (constant S_ .f32 0x2B8CBCCC#32),
    unary main_cst_2 main_v24 (broadcastInDim S16384x1 ![] bcast_S_S16384x1 : (⟨S_, .f32⟩ : BufTy).Contents (Elt F) → (⟨S16384x1, .f32⟩ : BufTy).Contents (Elt F)),
    binary main_v23 main_v24 main_v25 (maximumf : (⟨S16384x1, .f32⟩ : BufTy).Contents (Elt F) → (⟨S16384x1, .f32⟩ : BufTy).Contents (Elt F) → (⟨S16384x1, .f32⟩ : BufTy).Contents (Elt F)),
    unary main_v25 main_v26 (broadcastInDim S16384x64 ![0, 1] bcast_S16384x1_S16384x64_0_1 : (⟨S16384x1, .f32⟩ : BufTy).Contents (Elt F) → (⟨S16384x64, .f32⟩ : BufTy).Contents (Elt F)),
    binary main_v22 main_v26 main_v27 (Host.divf : (⟨S16384x64, .f32⟩ : BufTy).Contents (Elt F) → (⟨S16384x64, .f32⟩ : BufTy).Contents (Elt F) → (⟨S16384x64, .f32⟩ : BufTy).Contents (Elt F)) ]

/-- Operations main_v28 … main_v38 of the straight line, in order. -/
def B10 : List (HloOp τ sig (Elt F)) :=
  [ binary main_v10 main_v15 main_v28 (addf : (⟨S16384x64, .f32⟩ : BufTy).Contents (Elt F) → (⟨S16384x64, .f32⟩ : BufTy).Contents (Elt F) → (⟨S16384x64, .f32⟩ : BufTy).Contents (Elt F)),
    binary main_v28 main_v21 main_v29 (subf : (⟨S16384x64, .f32⟩ : BufTy).Contents (Elt F) → (⟨S16384x64, .f32⟩ : BufTy).Contents (Elt F) → (⟨S16384x64, .f32⟩ : BufTy).Contents (Elt F)),
    binary main_v29 main_v29 main_v30 (mulf : (⟨S16384x64, .f32⟩ : BufTy).Contents (Elt F) → (⟨S16384x64, .f32⟩ : BufTy).Contents (Elt F) → (⟨S16384x64, .f32⟩ : BufTy).Contents (Elt F)),
    nullary main_cst_3 (constant S_ .f32 0x00000000#32),
    binary main_v30 main_cst_3 main_v31 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v31 main_v32 (broadcastInDim S16384x1 ![0] bcast_S16384_S16384x1_0 : (⟨S16384, .f32⟩ : BufTy).Contents (Elt F) → (⟨S16384x1, .f32⟩ : BufTy).Contents (Elt F)),
    binary main_v10 main_v15 main_v33 (addf : (⟨S16384x64, .f32⟩ : BufTy).Contents (Elt F) → (⟨S16384x64, .f32⟩ : BufTy).Contents (Elt F) → (⟨S16384x64, .f32⟩ : BufTy).Contents (Elt F)),
    binary main_v33 main_v27 main_v34 (subf : (⟨S16384x64, .f32⟩ : BufTy).Contents (Elt F) → (⟨S16384x64, .f32⟩ : BufTy).Contents (Elt F) → (⟨S16384x64, .f32⟩ : BufTy).Contents (Elt F)),
    binary main_v34 main_v34 main_v35 (mulf : (⟨S16384x64, .f32⟩ : BufTy).Contents (Elt F) → (⟨S16384x64, .f32⟩ : BufTy).Contents (Elt F) → (⟨S16384x64, .f32⟩ : BufTy).Contents (Elt F)),
    nullary main_cst_4 (constant S_ .f32 0x00000000#32),
    binary main_v35 main_cst_4 main_v36 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v36 main_v37 (broadcastInDim S16384x1 ![0] bcast_S16384_S16384x1_0 : (⟨S16384, .f32⟩ : BufTy).Contents (Elt F) → (⟨S16384x1, .f32⟩ : BufTy).Contents (Elt F)),
    binary main_v37 main_v32 main_v38 (subf : (⟨S16384x1, .f32⟩ : BufTy).Contents (Elt F) → (⟨S16384x1, .f32⟩ : BufTy).Contents (Elt F) → (⟨S16384x1, .f32⟩ : BufTy).Contents (Elt F)) ]

/-- Operations main_call9_v0 … main_v39 of the straight line, in order. -/
def B11 : List (HloOp τ sig (Elt F)) :=
  [ TRef.unary (.of main_v38 : TRef sig ⟨S16384x1, .f32⟩) main_call9.v0 Host.negf,
    TRef.nullary main_call9.call0.cst (constant S_ .f32 0x00000000#32),
    TRef.unary main_call9.call0.cst main_call9.call0.v0 (broadcastInDim S16384x1 ![] bcast_S_S16384x1),
    TRef.binary main_call9.v0 main_call9.call0.v0 main_call9.call0.v1 maximumf,
    TRef.unary main_call9.call0.cst main_call9.call0.v2 (broadcastInDim S16384x1 ![] bcast_S_S16384x1),
    TRef.binary main_call9.v0 main_call9.call0.v2 main_call9.call0.v3 subf,
    TRef.binary main_call9.call0.v3 main_call9.call0.v3 main_call9.call0.v4 (cmpf .une),
    TRef.unary main_call9.call0.cst main_call9.call0.v5 (broadcastInDim S16384x1 ![] bcast_S_S16384x1),
    TRef.binary main_call9.v0 main_call9.call0.v5 main_call9.call0.v6 addf,
    TRef.unary main_call9.call0.v3 main_call9.call0.v7 Host.absf,
    TRef.unary main_call9.call0.v7 main_call9.call0.v8 Host.negf,
    TRef.unary main_call9.call0.v8 main_call9.call0.v9 Host.exp,
    TRef.unary main_call9.call0.v9 main_call9.call0.v10 Host.log1p,
    TRef.binary main_call9.call0.v1 main_call9.call0.v10 main_call9.call0.v11 addf,
    TRef.ternary main_call9.call0.v4 main_call9.call0.v6 main_call9.call0.v11 main_call9.call0.v12 select,
    TRef.unary main_call9.call0.v12 main_call9.v2 Host.negf ]

/-- Operations main_cst_5 … main_v43 of the straight line, in order. -/
def B12 : List (HloOp τ sig (Elt F)) :=
  [ nullary main_cst_5 (constant S_ .f32 0xBF800000#32),
    unary main_cst_5 main_v40 (broadcastInDim S16384x1 ![] bcast_S_S16384x1 : (⟨S_, .f32⟩ : BufTy).Contents (Elt F) → (⟨S16384x1, .f32⟩ : BufTy).Contents (Elt F)),
    binary main_v40 main_v39 main_v41 (mulf : (⟨S16384x1, .f32⟩ : BufTy).Contents (Elt F) → (⟨S16384x1, .f32⟩ : BufTy).Contents (Elt F) → (⟨S16384x1, .f32⟩ : BufTy).Contents (Elt F)),
    nullary main_cst_6 (constant S_ .f32 0x00000000#32),
    binary main_v41 main_cst_6 main_v42 ((fun x v => Host.reduceAdd x v reducesTo_S16384x1_S_d0_1 h_S_) : (⟨S16384x1, .f32⟩ : BufTy).Contents (Elt F) → (⟨S_, .f32⟩ : BufTy).Contents (Elt F) → (⟨S_, .f32⟩ : BufTy).Contents (Elt F)),
    nullary main_cst_7 (constant S_ .f32 0x46800000#32),
    binary main_v42 main_cst_7 main_v43 (Host.divf : (⟨S_, .f32⟩ : BufTy).Contents (Elt F) → (⟨S_, .f32⟩ : BufTy).Contents (Elt F) → (⟨S_, .f32⟩ : BufTy).Contents (Elt F)) ]

/-- Operations main_v44 … main_cst_10 of the straight line, in order. -/
def B13 : List (HloOp τ sig (Elt F)) :=
  [ binary main_v10 main_v10 main_v44 (mulf : (⟨S16384x64, .f32⟩ : BufTy).Contents (Elt F) → (⟨S16384x64, .f32⟩ : BufTy).Contents (Elt F) → (⟨S16384x64, .f32⟩ : BufTy).Contents (Elt F)),
    nullary main_cst_8 (constant S_ .f32 0x00000000#32),
    binary main_v44 main_cst_8 main_v45 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    nullary main_cst_9 (constant S_ .f32 0x40000000#32),
    unary main_cst_9 main_v46 (broadcastInDim S16384 ![] bcast_S_S16384 : (⟨S_, .f32⟩ : BufTy).Contents (Elt F) → (⟨S16384, .f32⟩ : BufTy).Contents (Elt F)),
    binary main_v45 main_v46 main_v47 (Host.divf : (⟨S16384, .f32⟩ : BufTy).Contents (Elt F) → (⟨S16384, .f32⟩ : BufTy).Contents (Elt F) → (⟨S16384, .f32⟩ : BufTy).Contents (Elt F)),
    nullary main_cst_10 (constant S_ .f32 0x00000000#32) ]

/-- Operations main_v48 … main_v49 of the straight line, in order. -/
def B14 : List (HloOp τ sig (Elt F)) :=
  [ binary main_v47 main_cst_10 main_v48 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_11 (constant S_ .f32 0x46800000#32),
    binary main_v48 main_cst_11 main_v49 (Host.divf : (⟨S_, .f32⟩ : BufTy).Contents (Elt F) → (⟨S_, .f32⟩ : BufTy).Contents (Elt F) → (⟨S_, .f32⟩ : BufTy).Contents (Elt F)) ]

/-- Operations main_v50 … main_v56 of the straight line, in order. -/
def B15 : List (HloOp τ sig (Elt F)) :=
  [ binary main_v15 main_v15 main_v50 (mulf : (⟨S16384x64, .f32⟩ : BufTy).Contents (Elt F) → (⟨S16384x64, .f32⟩ : BufTy).Contents (Elt F) → (⟨S16384x64, .f32⟩ : BufTy).Contents (Elt F)),
    nullary main_cst_12 (constant S_ .f32 0x00000000#32),
    binary main_v50 main_cst_12 main_v51 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    nullary main_cst_13 (constant S_ .f32 0x40000000#32),
    unary main_cst_13 main_v52 (broadcastInDim S16384 ![] bcast_S_S16384 : (⟨S_, .f32⟩ : BufTy).Contents (Elt F) → (⟨S16384, .f32⟩ : BufTy).Contents (Elt F)),
    binary main_v51 main_v52 main_v53 (Host.divf : (⟨S16384, .f32⟩ : BufTy).Contents (Elt F) → (⟨S16384, .f32⟩ : BufTy).Contents (Elt F) → (⟨S16384, .f32⟩ : BufTy).Contents (Elt F)),
    nullary main_cst_14 (constant S_ .f32 0x00000000#32),
    binary main_v53 main_cst_14 main_v54 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_15 (constant S_ .f32 0x46800000#32),
    binary main_v54 main_cst_15 main_v55 (Host.divf : (⟨S_, .f32⟩ : BufTy).Contents (Elt F) → (⟨S_, .f32⟩ : BufTy).Contents (Elt F) → (⟨S_, .f32⟩ : BufTy).Contents (Elt F)),
    binary main_v49 main_v55 main_v56 (addf : (⟨S_, .f32⟩ : BufTy).Contents (Elt F) → (⟨S_, .f32⟩ : BufTy).Contents (Elt F) → (⟨S_, .f32⟩ : BufTy).Contents (Elt F)) ]

/-- Operations main_v57 … main_v63 of the straight line, in order. -/
def B16 : List (HloOp τ sig (Elt F)) :=
  [ binary main_v21 main_v21 main_v57 (mulf : (⟨S16384x64, .f32⟩ : BufTy).Contents (Elt F) → (⟨S16384x64, .f32⟩ : BufTy).Contents (Elt F) → (⟨S16384x64, .f32⟩ : BufTy).Contents (Elt F)),
    nullary main_cst_16 (constant S_ .f32 0x00000000#32),
    binary main_v57 main_cst_16 main_v58 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    nullary main_cst_17 (constant S_ .f32 0x40000000#32),
    unary main_cst_17 main_v59 (broadcastInDim S16384 ![] bcast_S_S16384 : (⟨S_, .f32⟩ : BufTy).Contents (Elt F) → (⟨S16384, .f32⟩ : BufTy).Contents (Elt F)),
    binary main_v58 main_v59 main_v60 (Host.divf : (⟨S16384, .f32⟩ : BufTy).Contents (Elt F) → (⟨S16384, .f32⟩ : BufTy).Contents (Elt F) → (⟨S16384, .f32⟩ : BufTy).Contents (Elt F)),
    nullary main_cst_18 (constant S_ .f32 0x00000000#32),
    binary main_v60 main_cst_18 main_v61 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_19 (constant S_ .f32 0x46800000#32),
    binary main_v61 main_cst_19 main_v62 (Host.divf : (⟨S_, .f32⟩ : BufTy).Contents (Elt F) → (⟨S_, .f32⟩ : BufTy).Contents (Elt F) → (⟨S_, .f32⟩ : BufTy).Contents (Elt F)),
    binary main_v56 main_v62 main_v63 (addf : (⟨S_, .f32⟩ : BufTy).Contents (Elt F) → (⟨S_, .f32⟩ : BufTy).Contents (Elt F) → (⟨S_, .f32⟩ : BufTy).Contents (Elt F)) ]

/-- Operations main_v64 … main_v70 of the straight line, in order. -/
def B17 : List (HloOp τ sig (Elt F)) :=
  [ binary main_v27 main_v27 main_v64 (mulf : (⟨S16384x64, .f32⟩ : BufTy).Contents (Elt F) → (⟨S16384x64, .f32⟩ : BufTy).Contents (Elt F) → (⟨S16384x64, .f32⟩ : BufTy).Contents (Elt F)),
    nullary main_cst_20 (constant S_ .f32 0x00000000#32),
    binary main_v64 main_cst_20 main_v65 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    nullary main_cst_21 (constant S_ .f32 0x40000000#32),
    unary main_cst_21 main_v66 (broadcastInDim S16384 ![] bcast_S_S16384 : (⟨S_, .f32⟩ : BufTy).Contents (Elt F) → (⟨S16384, .f32⟩ : BufTy).Contents (Elt F)),
    binary main_v65 main_v66 main_v67 (Host.divf : (⟨S16384, .f32⟩ : BufTy).Contents (Elt F) → (⟨S16384, .f32⟩ : BufTy).Contents (Elt F) → (⟨S16384, .f32⟩ : BufTy).Contents (Elt F)),
    nullary main_cst_22 (constant S_ .f32 0x00000000#32),
    binary main_v67 main_cst_22 main_v68 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_23 (constant S_ .f32 0x46800000#32),
    binary main_v68 main_cst_23 main_v69 (Host.divf : (⟨S_, .f32⟩ : BufTy).Contents (Elt F) → (⟨S_, .f32⟩ : BufTy).Contents (Elt F) → (⟨S_, .f32⟩ : BufTy).Contents (Elt F)),
    binary main_v63 main_v69 main_v70 (addf : (⟨S_, .f32⟩ : BufTy).Contents (Elt F) → (⟨S_, .f32⟩ : BufTy).Contents (Elt F) → (⟨S_, .f32⟩ : BufTy).Contents (Elt F)) ]

/-- Operations main_cst_24 … main_v72 of the straight line, in order. -/
def B18 : List (HloOp τ sig (Elt F)) :=
  [ nullary main_cst_24 (constant S_ .f32 0x3C23D70A#32),
    binary main_cst_24 main_v70 main_v71 (mulf : (⟨S_, .f32⟩ : BufTy).Contents (Elt F) → (⟨S_, .f32⟩ : BufTy).Contents (Elt F) → (⟨S_, .f32⟩ : BufTy).Contents (Elt F)),
    binary main_v43 main_v71 main_v72 (addf : (⟨S_, .f32⟩ : BufTy).Contents (Elt F) → (⟨S_, .f32⟩ : BufTy).Contents (Elt F) → (⟨S_, .f32⟩ : BufTy).Contents (Elt F)) ]

/-- The operations of the first window, then of the second, then all of them. -/
def ops0 : List (HloOp τ sig (Elt F)) := B1 ++ (B2 ++ (B3 ++ (B4 ++ (B5 ++ (B6 ++ (B7 ++ (B8 ++ (B9 ++ (B10 ++ (B11 ++ (B12 ++ (B13))))))))))))
def ops1 : List (HloOp τ sig (Elt F)) := B14 ++ (B15 ++ (B16 ++ (B17 ++ (B18))))
def ops : List (HloOp τ sig (Elt F)) := ops0 ++ ops1

/-! ## The program is that straight line -/

set_option maxRecDepth 100000 in
set_option maxHeartbeats 4000000 in
theorem part0_eq (d : Dev nD) : main_part0 (F := F) d = seq ops0 := rfl

set_option maxRecDepth 100000 in
set_option maxHeartbeats 4000000 in
theorem part1_eq (d : Dev nD) : main_part1 (F := F) d = seq ops1 := rfl

theorem main_eq (d : Dev nD) : main (F := F) d = seq ops := by
  rw [ops, seq_append, ← part0_eq d, ← part1_eq d]; rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only and determines its results -/

theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem B1_sub : (B1 (F := F)).Forall fun op => op.bufs ⊆ tcRefs τ sig := by
  unfold B1
  exact ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem B1_fresh : (B1 (F := F)).Forall fun op => op.fresh = ∅ := by
  unfold B1
  exact ⟨rfl, rfl, rfl, rfl, rfl, rfl, rfl, rfl, rfl, rfl, rfl, rfl, rfl, rfl, rfl, rfl, rfl, rfl, rfl, rfl, rfl, rfl, rfl⟩
theorem B2_sub : (B2 (F := F)).Forall fun op => op.bufs ⊆ tcRefs τ sig := by
  unfold B2
  exact ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem B2_fresh : (B2 (F := F)).Forall fun op => op.fresh = ∅ := by
  unfold B2
  exact ⟨rfl, rfl, rfl, rfl, rfl, rfl, rfl, rfl, rfl, rfl, rfl, rfl, rfl, rfl, rfl, rfl, rfl, rfl, rfl, rfl, rfl, rfl, rfl⟩
theorem B3_sub : (B3 (F := F)).Forall fun op => op.bufs ⊆ tcRefs τ sig := by
  unfold B3
  exact ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem B3_fresh : (B3 (F := F)).Forall fun op => op.fresh = ∅ := by
  unfold B3
  exact ⟨rfl, rfl, rfl, rfl, rfl, rfl, rfl, rfl, rfl, rfl, rfl, rfl, rfl, rfl, rfl, rfl, rfl, rfl, rfl, rfl, rfl, rfl, rfl⟩
theorem B4_sub : (B4 (F := F)).Forall fun op => op.bufs ⊆ tcRefs τ sig := by
  unfold B4
  exact ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem B4_fresh : (B4 (F := F)).Forall fun op => op.fresh = ∅ := by
  unfold B4
  exact ⟨rfl, rfl, rfl, rfl, rfl, rfl, rfl, rfl, rfl, rfl, rfl, rfl, rfl, rfl, rfl, rfl, rfl, rfl, rfl, rfl, rfl, rfl, rfl⟩
theorem B5_sub : (B5 (F := F)).Forall fun op => op.bufs ⊆ tcRefs τ sig := by
  unfold B5
  exact ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem B5_fresh : (B5 (F := F)).Forall fun op => op.fresh = ∅ := by
  unfold B5
  exact ⟨rfl, rfl, rfl, rfl, rfl, rfl, rfl, rfl, rfl, rfl, rfl, rfl, rfl, rfl, rfl, rfl, rfl, rfl, rfl, rfl, rfl, rfl, rfl⟩
theorem B6_sub : (B6 (F := F)).Forall fun op => op.bufs ⊆ tcRefs τ sig := by
  unfold B6
  exact ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem B6_fresh : (B6 (F := F)).Forall fun op => op.fresh = ∅ := by
  unfold B6
  exact ⟨rfl, rfl, rfl, rfl, rfl, rfl, rfl, rfl, rfl, rfl, rfl⟩
theorem B7_sub : (B7 (F := F)).Forall fun op => op.bufs ⊆ tcRefs τ sig := by
  unfold B7
  exact ⟨binary_bufs_sub .., nullary_bufs_sub .., binary_bufs_sub .., unary_bufs_sub .., unary_bufs_sub .., nullary_bufs_sub .., unary_bufs_sub .., binary_bufs_sub .., unary_bufs_sub .., binary_bufs_sub ..⟩
theorem B7_fresh : (B7 (F := F)).Forall fun op => op.fresh = ∅ := by
  unfold B7
  exact ⟨rfl, rfl, rfl, rfl, rfl, rfl, rfl, rfl, rfl, rfl⟩
theorem B8_sub : (B8 (F := F)).Forall fun op => op.bufs ⊆ tcRefs τ sig := by
  unfold B8
  exact ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem B8_fresh : (B8 (F := F)).Forall fun op => op.fresh = ∅ := by
  unfold B8
  exact ⟨rfl, rfl, rfl, rfl, rfl, rfl, rfl, rfl, rfl, rfl, rfl⟩
theorem B9_sub : (B9 (F := F)).Forall fun op => op.bufs ⊆ tcRefs τ sig := by
  unfold B9
  exact ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem B9_fresh : (B9 (F := F)).Forall fun op => op.fresh = ∅ := by
  unfold B9
  exact ⟨rfl, rfl, rfl, rfl, rfl, rfl, rfl, rfl, rfl, rfl, rfl⟩
theorem B10_sub : (B10 (F := F)).Forall fun op => op.bufs ⊆ tcRefs τ sig := by
  unfold B10
  exact ⟨binary_bufs_sub .., binary_bufs_sub .., binary_bufs_sub .., nullary_bufs_sub .., binary_bufs_sub .., unary_bufs_sub .., binary_bufs_sub .., binary_bufs_sub .., binary_bufs_sub .., nullary_bufs_sub .., binary_bufs_sub .., unary_bufs_sub .., binary_bufs_sub ..⟩
theorem B10_fresh : (B10 (F := F)).Forall fun op => op.fresh = ∅ := by
  unfold B10
  exact ⟨rfl, rfl, rfl, rfl, rfl, rfl, rfl, rfl, rfl, rfl, rfl, rfl, rfl⟩
theorem B11_sub : (B11 (F := F)).Forall fun op => op.bufs ⊆ tcRefs τ sig := by
  unfold B11
  exact ⟨unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub ..⟩
theorem B11_fresh : (B11 (F := F)).Forall fun op => op.fresh = ∅ := by
  unfold B11
  exact ⟨rfl, rfl, rfl, rfl, rfl, rfl, rfl, rfl, rfl, rfl, rfl, rfl, rfl, rfl, rfl, rfl⟩
theorem B12_sub : (B12 (F := F)).Forall fun op => op.bufs ⊆ tcRefs τ sig := by
  unfold B12
  exact ⟨nullary_bufs_sub .., unary_bufs_sub .., binary_bufs_sub .., nullary_bufs_sub .., binary_bufs_sub .., nullary_bufs_sub .., binary_bufs_sub ..⟩
theorem B12_fresh : (B12 (F := F)).Forall fun op => op.fresh = ∅ := by
  unfold B12
  exact ⟨rfl, rfl, rfl, rfl, rfl, rfl, rfl⟩
theorem B13_sub : (B13 (F := F)).Forall fun op => op.bufs ⊆ tcRefs τ sig := by
  unfold B13
  exact ⟨binary_bufs_sub .., nullary_bufs_sub .., binary_bufs_sub .., nullary_bufs_sub .., unary_bufs_sub .., binary_bufs_sub .., nullary_bufs_sub ..⟩
theorem B13_fresh : (B13 (F := F)).Forall fun op => op.fresh = ∅ := by
  unfold B13
  exact ⟨rfl, rfl, rfl, rfl, rfl, rfl, rfl⟩
theorem B14_sub : (B14 (F := F)).Forall fun op => op.bufs ⊆ tcRefs τ sig := by
  unfold B14
  exact ⟨binary_bufs_sub .., nullary_bufs_sub .., binary_bufs_sub ..⟩
theorem B14_fresh : (B14 (F := F)).Forall fun op => op.fresh = ∅ := by
  unfold B14
  exact ⟨rfl, rfl, rfl⟩
theorem B15_sub : (B15 (F := F)).Forall fun op => op.bufs ⊆ tcRefs τ sig := by
  unfold B15
  exact ⟨binary_bufs_sub .., nullary_bufs_sub .., binary_bufs_sub .., nullary_bufs_sub .., unary_bufs_sub .., binary_bufs_sub .., nullary_bufs_sub .., binary_bufs_sub .., nullary_bufs_sub .., binary_bufs_sub .., binary_bufs_sub ..⟩
theorem B15_fresh : (B15 (F := F)).Forall fun op => op.fresh = ∅ := by
  unfold B15
  exact ⟨rfl, rfl, rfl, rfl, rfl, rfl, rfl, rfl, rfl, rfl, rfl⟩
theorem B16_sub : (B16 (F := F)).Forall fun op => op.bufs ⊆ tcRefs τ sig := by
  unfold B16
  exact ⟨binary_bufs_sub .., nullary_bufs_sub .., binary_bufs_sub .., nullary_bufs_sub .., unary_bufs_sub .., binary_bufs_sub .., nullary_bufs_sub .., binary_bufs_sub .., nullary_bufs_sub .., binary_bufs_sub .., binary_bufs_sub ..⟩
theorem B16_fresh : (B16 (F := F)).Forall fun op => op.fresh = ∅ := by
  unfold B16
  exact ⟨rfl, rfl, rfl, rfl, rfl, rfl, rfl, rfl, rfl, rfl, rfl⟩
theorem B17_sub : (B17 (F := F)).Forall fun op => op.bufs ⊆ tcRefs τ sig := by
  unfold B17
  exact ⟨binary_bufs_sub .., nullary_bufs_sub .., binary_bufs_sub .., nullary_bufs_sub .., unary_bufs_sub .., binary_bufs_sub .., nullary_bufs_sub .., binary_bufs_sub .., nullary_bufs_sub .., binary_bufs_sub .., binary_bufs_sub ..⟩
theorem B17_fresh : (B17 (F := F)).Forall fun op => op.fresh = ∅ := by
  unfold B17
  exact ⟨rfl, rfl, rfl, rfl, rfl, rfl, rfl, rfl, rfl, rfl, rfl⟩
theorem B18_sub : (B18 (F := F)).Forall fun op => op.bufs ⊆ tcRefs τ sig := by
  unfold B18
  exact ⟨nullary_bufs_sub .., binary_bufs_sub .., binary_bufs_sub ..⟩
theorem B18_fresh : (B18 (F := F)).Forall fun op => op.fresh = ∅ := by
  unfold B18
  exact ⟨rfl, rfl, rfl⟩

theorem ops_sub : (ops (F := F)).Forall fun op => op.bufs ⊆ tcRefs τ sig := by
  unfold ops ops0 ops1
  exact forall_append (forall_append B1_sub (forall_append B2_sub (forall_append B3_sub (forall_append B4_sub (forall_append B5_sub (forall_append B6_sub (forall_append B7_sub (forall_append B8_sub (forall_append B9_sub (forall_append B10_sub (forall_append B11_sub (forall_append B12_sub (B13_sub))))))))))))) (forall_append B14_sub (forall_append B15_sub (forall_append B16_sub (forall_append B17_sub (B18_sub)))))
theorem ops_fresh : ∀ op ∈ (ops (F := F)), op.fresh = ∅ := by
  unfold ops ops0 ops1
  exact List.forall_iff_forall_mem.1 (forall_append (forall_append B1_fresh (forall_append B2_fresh (forall_append B3_fresh (forall_append B4_fresh (forall_append B5_fresh (forall_append B6_fresh (forall_append B7_fresh (forall_append B8_fresh (forall_append B9_fresh (forall_append B10_fresh (forall_append B11_fresh (forall_append B12_fresh (B13_fresh))))))))))))) (forall_append B14_fresh (forall_append B15_fresh (forall_append B16_fresh (forall_append B17_fresh (B18_fresh))))))

/-! ## What each group of operations writes, and that it leaves every other buffer alone -/

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem writes_sub (W : List (Ref sig .tc)) (op : HloOp τ sig (Elt F)) (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.2 ⟨y, hy, rfl⟩

/-- The buffers group 1 writes. -/
def W1 : List (Ref sig .tc) := [main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref]
theorem B1_writes : (B1 (F := F)).Forall fun op => op.writes ⊆ ((W1).map (Proc.devRef (τ := τ) .tc)).toFinset := by
  unfold B1
  exact ⟨writes_sub W1 _ main_call0.c.ref rfl (by decide),
    writes_sub W1 _ main_call0.v0.ref rfl (by decide),
    writes_sub W1 _ main_call0.v1.ref rfl (by decide),
    writes_sub W1 _ main_call0.c_0.ref rfl (by decide),
    writes_sub W1 _ main_call0.v2.ref rfl (by decide),
    writes_sub W1 _ main_call0.v3.ref rfl (by decide),
    writes_sub W1 _ main_call0.call0.v0.ref rfl (by decide),
    writes_sub W1 _ main_call0.v5.ref rfl (by decide),
    writes_sub W1 _ main_call0.c_1.ref rfl (by decide),
    writes_sub W1 _ main_call0.c_2.ref rfl (by decide),
    writes_sub W1 _ main_call0.v6.ref rfl (by decide),
    writes_sub W1 _ main_call0.v7.ref rfl (by decide),
    writes_sub W1 _ main_call0.v8.ref rfl (by decide),
    writes_sub W1 _ main_call0.v9.ref rfl (by decide),
    writes_sub W1 _ main_call0.v10.ref rfl (by decide),
    writes_sub W1 _ main_call0.v11.ref rfl (by decide),
    writes_sub W1 _ main_call0.c_3.ref rfl (by decide),
    writes_sub W1 _ main_call0.v12.ref rfl (by decide),
    writes_sub W1 _ main_call0.v13.ref rfl (by decide),
    writes_sub W1 _ main_call0.v14.ref rfl (by decide),
    writes_sub W1 _ main_call0.cst.ref rfl (by decide),
    writes_sub W1 _ main_call0.v15.ref rfl (by decide),
    writes_sub W1 _ main_call0.v16.ref rfl (by decide)⟩
theorem B1_frame {r : Ref sig .tc} (hr : r ∉ W1) (V : Valuation τ sig (Elt F)) :
    after B1 V (no_index (Proc.devRef .tc r)) = V (Proc.devRef .tc r) :=
  after_of_writes_sub B1 V B1_writes hr

/-- The buffers group 2 writes. -/
def W2 : List (Ref sig .tc) := [main_call1.c.ref, main_call1.v0.ref, main_call1.v1.ref, main_call1.c_0.ref, main_call1.v2.ref, main_call1.v3.ref, main_call1.call0.v0.ref, main_call1.v5.ref, main_call1.c_1.ref, main_call1.c_2.ref, main_call1.v6.ref, main_call1.v7.ref, main_call1.v8.ref, main_call1.v9.ref, main_call1.v10.ref, main_call1.v11.ref, main_call1.c_3.ref, main_call1.v12.ref, main_call1.v13.ref, main_call1.v14.ref, main_call1.cst.ref, main_call1.v15.ref, main_call1.v16.ref]
theorem B2_writes : (B2 (F := F)).Forall fun op => op.writes ⊆ ((W2).map (Proc.devRef (τ := τ) .tc)).toFinset := by
  unfold B2
  exact ⟨writes_sub W2 _ main_call1.c.ref rfl (by decide),
    writes_sub W2 _ main_call1.v0.ref rfl (by decide),
    writes_sub W2 _ main_call1.v1.ref rfl (by decide),
    writes_sub W2 _ main_call1.c_0.ref rfl (by decide),
    writes_sub W2 _ main_call1.v2.ref rfl (by decide),
    writes_sub W2 _ main_call1.v3.ref rfl (by decide),
    writes_sub W2 _ main_call1.call0.v0.ref rfl (by decide),
    writes_sub W2 _ main_call1.v5.ref rfl (by decide),
    writes_sub W2 _ main_call1.c_1.ref rfl (by decide),
    writes_sub W2 _ main_call1.c_2.ref rfl (by decide),
    writes_sub W2 _ main_call1.v6.ref rfl (by decide),
    writes_sub W2 _ main_call1.v7.ref rfl (by decide),
    writes_sub W2 _ main_call1.v8.ref rfl (by decide),
    writes_sub W2 _ main_call1.v9.ref rfl (by decide),
    writes_sub W2 _ main_call1.v10.ref rfl (by decide),
    writes_sub W2 _ main_call1.v11.ref rfl (by decide),
    writes_sub W2 _ main_call1.c_3.ref rfl (by decide),
    writes_sub W2 _ main_call1.v12.ref rfl (by decide),
    writes_sub W2 _ main_call1.v13.ref rfl (by decide),
    writes_sub W2 _ main_call1.v14.ref rfl (by decide),
    writes_sub W2 _ main_call1.cst.ref rfl (by decide),
    writes_sub W2 _ main_call1.v15.ref rfl (by decide),
    writes_sub W2 _ main_call1.v16.ref rfl (by decide)⟩
theorem B2_frame {r : Ref sig .tc} (hr : r ∉ W2) (V : Valuation τ sig (Elt F)) :
    after B2 V (no_index (Proc.devRef .tc r)) = V (Proc.devRef .tc r) :=
  after_of_writes_sub B2 V B2_writes hr

/-- The buffers group 3 writes. -/
def W3 : List (Ref sig .tc) := [main_call2.c.ref, main_call2.v0.ref, main_call2.v1.ref, main_call2.c_0.ref, main_call2.v2.ref, main_call2.v3.ref, main_call2.call0.v0.ref, main_call2.v5.ref, main_call2.c_1.ref, main_call2.c_2.ref, main_call2.v6.ref, main_call2.v7.ref, main_call2.v8.ref, main_call2.v9.ref, main_call2.v10.ref, main_call2.v11.ref, main_call2.c_3.ref, main_call2.v12.ref, main_call2.v13.ref, main_call2.v14.ref, main_call2.cst.ref, main_call2.v15.ref, main_call2.v16.ref]
theorem B3_writes : (B3 (F := F)).Forall fun op => op.writes ⊆ ((W3).map (Proc.devRef (τ := τ) .tc)).toFinset := by
  unfold B3
  exact ⟨writes_sub W3 _ main_call2.c.ref rfl (by decide),
    writes_sub W3 _ main_call2.v0.ref rfl (by decide),
    writes_sub W3 _ main_call2.v1.ref rfl (by decide),
    writes_sub W3 _ main_call2.c_0.ref rfl (by decide),
    writes_sub W3 _ main_call2.v2.ref rfl (by decide),
    writes_sub W3 _ main_call2.v3.ref rfl (by decide),
    writes_sub W3 _ main_call2.call0.v0.ref rfl (by decide),
    writes_sub W3 _ main_call2.v5.ref rfl (by decide),
    writes_sub W3 _ main_call2.c_1.ref rfl (by decide),
    writes_sub W3 _ main_call2.c_2.ref rfl (by decide),
    writes_sub W3 _ main_call2.v6.ref rfl (by decide),
    writes_sub W3 _ main_call2.v7.ref rfl (by decide),
    writes_sub W3 _ main_call2.v8.ref rfl (by decide),
    writes_sub W3 _ main_call2.v9.ref rfl (by decide),
    writes_sub W3 _ main_call2.v10.ref rfl (by decide),
    writes_sub W3 _ main_call2.v11.ref rfl (by decide),
    writes_sub W3 _ main_call2.c_3.ref rfl (by decide),
    writes_sub W3 _ main_call2.v12.ref rfl (by decide),
    writes_sub W3 _ main_call2.v13.ref rfl (by decide),
    writes_sub W3 _ main_call2.v14.ref rfl (by decide),
    writes_sub W3 _ main_call2.cst.ref rfl (by decide),
    writes_sub W3 _ main_call2.v15.ref rfl (by decide),
    writes_sub W3 _ main_call2.v16.ref rfl (by decide)⟩
theorem B3_frame {r : Ref sig .tc} (hr : r ∉ W3) (V : Valuation τ sig (Elt F)) :
    after B3 V (no_index (Proc.devRef .tc r)) = V (Proc.devRef .tc r) :=
  after_of_writes_sub B3 V B3_writes hr

/-- The buffers group 4 writes. -/
def W4 : List (Ref sig .tc) := [main_call3.c.ref, main_call3.v0.ref, main_call3.v1.ref, main_call3.c_0.ref, main_call3.v2.ref, main_call3.v3.ref, main_call3.call0.v0.ref, main_call3.v5.ref, main_call3.c_1.ref, main_call3.c_2.ref, main_call3.v6.ref, main_call3.v7.ref, main_call3.v8.ref, main_call3.v9.ref, main_call3.v10.ref, main_call3.v11.ref, main_call3.c_3.ref, main_call3.v12.ref, main_call3.v13.ref, main_call3.v14.ref, main_call3.cst.ref, main_call3.v15.ref, main_call3.v16.ref]
theorem B4_writes : (B4 (F := F)).Forall fun op => op.writes ⊆ ((W4).map (Proc.devRef (τ := τ) .tc)).toFinset := by
  unfold B4
  exact ⟨writes_sub W4 _ main_call3.c.ref rfl (by decide),
    writes_sub W4 _ main_call3.v0.ref rfl (by decide),
    writes_sub W4 _ main_call3.v1.ref rfl (by decide),
    writes_sub W4 _ main_call3.c_0.ref rfl (by decide),
    writes_sub W4 _ main_call3.v2.ref rfl (by decide),
    writes_sub W4 _ main_call3.v3.ref rfl (by decide),
    writes_sub W4 _ main_call3.call0.v0.ref rfl (by decide),
    writes_sub W4 _ main_call3.v5.ref rfl (by decide),
    writes_sub W4 _ main_call3.c_1.ref rfl (by decide),
    writes_sub W4 _ main_call3.c_2.ref rfl (by decide),
    writes_sub W4 _ main_call3.v6.ref rfl (by decide),
    writes_sub W4 _ main_call3.v7.ref rfl (by decide),
    writes_sub W4 _ main_call3.v8.ref rfl (by decide),
    writes_sub W4 _ main_call3.v9.ref rfl (by decide),
    writes_sub W4 _ main_call3.v10.ref rfl (by decide),
    writes_sub W4 _ main_call3.v11.ref rfl (by decide),
    writes_sub W4 _ main_call3.c_3.ref rfl (by decide),
    writes_sub W4 _ main_call3.v12.ref rfl (by decide),
    writes_sub W4 _ main_call3.v13.ref rfl (by decide),
    writes_sub W4 _ main_call3.v14.ref rfl (by decide),
    writes_sub W4 _ main_call3.cst.ref rfl (by decide),
    writes_sub W4 _ main_call3.v15.ref rfl (by decide),
    writes_sub W4 _ main_call3.v16.ref rfl (by decide)⟩
theorem B4_frame {r : Ref sig .tc} (hr : r ∉ W4) (V : Valuation τ sig (Elt F)) :
    after B4 V (no_index (Proc.devRef .tc r)) = V (Proc.devRef .tc r) :=
  after_of_writes_sub B4 V B4_writes hr

/-- The buffers group 5 writes. -/
def W5 : List (Ref sig .tc) := [main_call4.c.ref, main_call4.v0.ref, main_call4.v1.ref, main_call4.c_0.ref, main_call4.v2.ref, main_call4.v3.ref, main_call4.call0.v0.ref, main_call4.v5.ref, main_call4.c_1.ref, main_call4.c_2.ref, main_call4.v6.ref, main_call4.v7.ref, main_call4.v8.ref, main_call4.v9.ref, main_call4.v10.ref, main_call4.v11.ref, main_call4.c_3.ref, main_call4.v12.ref, main_call4.v13.ref, main_call4.v14.ref, main_call4.cst.ref, main_call4.v15.ref, main_call4.v16.ref]
theorem B5_writes : (B5 (F := F)).Forall fun op => op.writes ⊆ ((W5).map (Proc.devRef (τ := τ) .tc)).toFinset := by
  unfold B5
  exact ⟨writes_sub W5 _ main_call4.c.ref rfl (by decide),
    writes_sub W5 _ main_call4.v0.ref rfl (by decide),
    writes_sub W5 _ main_call4.v1.ref rfl (by decide),
    writes_sub W5 _ main_call4.c_0.ref rfl (by decide),
    writes_sub W5 _ main_call4.v2.ref rfl (by decide),
    writes_sub W5 _ main_call4.v3.ref rfl (by decide),
    writes_sub W5 _ main_call4.call0.v0.ref rfl (by decide),
    writes_sub W5 _ main_call4.v5.ref rfl (by decide),
    writes_sub W5 _ main_call4.c_1.ref rfl (by decide),
    writes_sub W5 _ main_call4.c_2.ref rfl (by decide),
    writes_sub W5 _ main_call4.v6.ref rfl (by decide),
    writes_sub W5 _ main_call4.v7.ref rfl (by decide),
    writes_sub W5 _ main_call4.v8.ref rfl (by decide),
    writes_sub W5 _ main_call4.v9.ref rfl (by decide),
    writes_sub W5 _ main_call4.v10.ref rfl (by decide),
    writes_sub W5 _ main_call4.v11.ref rfl (by decide),
    writes_sub W5 _ main_call4.c_3.ref rfl (by decide),
    writes_sub W5 _ main_call4.v12.ref rfl (by decide),
    writes_sub W5 _ main_call4.v13.ref rfl (by decide),
    writes_sub W5 _ main_call4.v14.ref rfl (by decide),
    writes_sub W5 _ main_call4.cst.ref rfl (by decide),
    writes_sub W5 _ main_call4.v15.ref rfl (by decide),
    writes_sub W5 _ main_call4.v16.ref rfl (by decide)⟩
theorem B5_frame {r : Ref sig .tc} (hr : r ∉ W5) (V : Valuation τ sig (Elt F)) :
    after B5 V (no_index (Proc.devRef .tc r)) = V (Proc.devRef .tc r) :=
  after_of_writes_sub B5 V B5_writes hr

/-- The buffers group 6 writes. -/
def W6 : List (Ref sig .tc) := [main_v5, main_call5.v0.ref, main_call5.cst.ref, main_call5.v1.ref, main_call5.v2.ref, main_call5.v3.ref, main_cst, main_v7, main_v8, main_v9, main_v10]
theorem B6_writes : (B6 (F := F)).Forall fun op => op.writes ⊆ ((W6).map (Proc.devRef (τ := τ) .tc)).toFinset := by
  unfold B6
  exact ⟨writes_sub W6 _ main_v5 rfl (by decide),
    writes_sub W6 _ main_call5.v0.ref rfl (by decide),
    writes_sub W6 _ main_call5.cst.ref rfl (by decide),
    writes_sub W6 _ main_call5.v1.ref rfl (by decide),
    writes_sub W6 _ main_call5.v2.ref rfl (by decide),
    writes_sub W6 _ main_call5.v3.ref rfl (by decide),
    writes_sub W6 _ main_cst rfl (by decide),
    writes_sub W6 _ main_v7 rfl (by decide),
    writes_sub W6 _ main_v8 rfl (by decide),
    writes_sub W6 _ main_v9 rfl (by decide),
    writes_sub W6 _ main_v10 rfl (by decide)⟩
theorem B6_frame {r : Ref sig .tc} (hr : r ∉ W6) (V : Valuation τ sig (Elt F)) :
    after B6 V (no_index (Proc.devRef .tc r)) = V (Proc.devRef .tc r) :=
  after_of_writes_sub B6 V B6_writes hr

/-- The buffers group 7 writes. -/
def W7 : List (Ref sig .tc) := [main_call6.v0.ref, main_call6.cst.ref, main_call6.v1.ref, main_call6.v2.ref, main_call6.v3.ref, main_cst_0, main_v12, main_v13, main_v14, main_v15]
theorem B7_writes : (B7 (F := F)).Forall fun op => op.writes ⊆ ((W7).map (Proc.devRef (τ := τ) .tc)).toFinset := by
  unfold B7
  exact ⟨writes_sub W7 _ main_call6.v0.ref rfl (by decide),
    writes_sub W7 _ main_call6.cst.ref rfl (by decide),
    writes_sub W7 _ main_call6.v1.ref rfl (by decide),
    writes_sub W7 _ main_call6.v2.ref rfl (by decide),
    writes_sub W7 _ main_call6.v3.ref rfl (by decide),
    writes_sub W7 _ main_cst_0 rfl (by decide),
    writes_sub W7 _ main_v12 rfl (by decide),
    writes_sub W7 _ main_v13 rfl (by decide),
    writes_sub W7 _ main_v14 rfl (by decide),
    writes_sub W7 _ main_v15 rfl (by decide)⟩
theorem B7_frame {r : Ref sig .tc} (hr : r ∉ W7) (V : Valuation τ sig (Elt F)) :
    after B7 V (no_index (Proc.devRef .tc r)) = V (Proc.devRef .tc r) :=
  after_of_writes_sub B7 V B7_writes hr

/-- The buffers group 8 writes. -/
def W8 : List (Ref sig .tc) := [main_v16, main_call7.v0.ref, main_call7.cst.ref, main_call7.v1.ref, main_call7.v2.ref, main_call7.v3.ref, main_cst_1, main_v18, main_v19, main_v20, main_v21]
theorem B8_writes : (B8 (F := F)).Forall fun op => op.writes ⊆ ((W8).map (Proc.devRef (τ := τ) .tc)).toFinset := by
  unfold B8
  exact ⟨writes_sub W8 _ main_v16 rfl (by decide),
    writes_sub W8 _ main_call7.v0.ref rfl (by decide),
    writes_sub W8 _ main_call7.cst.ref rfl (by decide),
    writes_sub W8 _ main_call7.v1.ref rfl (by decide),
    writes_sub W8 _ main_call7.v2.ref rfl (by decide),
    writes_sub W8 _ main_call7.v3.ref rfl (by decide),
    writes_sub W8 _ main_cst_1 rfl (by decide),
    writes_sub W8 _ main_v18 rfl (by decide),
    writes_sub W8 _ main_v19 rfl (by decide),
    writes_sub W8 _ main_v20 rfl (by decide),
    writes_sub W8 _ main_v21 rfl (by decide)⟩
theorem B8_frame {r : Ref sig .tc} (hr : r ∉ W8) (V : Valuation τ sig (Elt F)) :
    after B8 V (no_index (Proc.devRef .tc r)) = V (Proc.devRef .tc r) :=
  after_of_writes_sub B8 V B8_writes hr

/-- The buffers group 9 writes. -/
def W9 : List (Ref sig .tc) := [main_v22, main_call8.v0.ref, main_call8.cst.ref, main_call8.v1.ref, main_call8.v2.ref, main_call8.v3.ref, main_cst_2, main_v24, main_v25, main_v26, main_v27]
theorem B9_writes : (B9 (F := F)).Forall fun op => op.writes ⊆ ((W9).map (Proc.devRef (τ := τ) .tc)).toFinset := by
  unfold B9
  exact ⟨writes_sub W9 _ main_v22 rfl (by decide),
    writes_sub W9 _ main_call8.v0.ref rfl (by decide),
    writes_sub W9 _ main_call8.cst.ref rfl (by decide),
    writes_sub W9 _ main_call8.v1.ref rfl (by decide),
    writes_sub W9 _ main_call8.v2.ref rfl (by decide),
    writes_sub W9 _ main_call8.v3.ref rfl (by decide),
    writes_sub W9 _ main_cst_2 rfl (by decide),
    writes_sub W9 _ main_v24 rfl (by decide),
    writes_sub W9 _ main_v25 rfl (by decide),
    writes_sub W9 _ main_v26 rfl (by decide),
    writes_sub W9 _ main_v27 rfl (by decide)⟩
theorem B9_frame {r : Ref sig .tc} (hr : r ∉ W9) (V : Valuation τ sig (Elt F)) :
    after B9 V (no_index (Proc.devRef .tc r)) = V (Proc.devRef .tc r) :=
  after_of_writes_sub B9 V B9_writes hr

/-- The buffers group 10 writes. -/
def W10 : List (Ref sig .tc) := [main_v28, main_v29, main_v30, main_cst_3, main_v31, main_v32, main_v33, main_v34, main_v35, main_cst_4, main_v36, main_v37, main_v38]
theorem B10_writes : (B10 (F := F)).Forall fun op => op.writes ⊆ ((W10).map (Proc.devRef (τ := τ) .tc)).toFinset := by
  unfold B10
  exact ⟨writes_sub W10 _ main_v28 rfl (by decide),
    writes_sub W10 _ main_v29 rfl (by decide),
    writes_sub W10 _ main_v30 rfl (by decide),
    writes_sub W10 _ main_cst_3 rfl (by decide),
    writes_sub W10 _ main_v31 rfl (by decide),
    writes_sub W10 _ main_v32 rfl (by decide),
    writes_sub W10 _ main_v33 rfl (by decide),
    writes_sub W10 _ main_v34 rfl (by decide),
    writes_sub W10 _ main_v35 rfl (by decide),
    writes_sub W10 _ main_cst_4 rfl (by decide),
    writes_sub W10 _ main_v36 rfl (by decide),
    writes_sub W10 _ main_v37 rfl (by decide),
    writes_sub W10 _ main_v38 rfl (by decide)⟩
theorem B10_frame {r : Ref sig .tc} (hr : r ∉ W10) (V : Valuation τ sig (Elt F)) :
    after B10 V (no_index (Proc.devRef .tc r)) = V (Proc.devRef .tc r) :=
  after_of_writes_sub B10 V B10_writes hr

/-- The buffers group 11 writes. -/
def W11 : List (Ref sig .tc) := [main_call9.v0.ref, main_call9.call0.cst.ref, main_call9.call0.v0.ref, main_call9.call0.v1.ref, main_call9.call0.v2.ref, main_call9.call0.v3.ref, main_call9.call0.v4.ref, main_call9.call0.v5.ref, main_call9.call0.v6.ref, main_call9.call0.v7.ref, main_call9.call0.v8.ref, main_call9.call0.v9.ref, main_call9.call0.v10.ref, main_call9.call0.v11.ref, main_call9.call0.v12.ref, main_call9.v2.ref]
theorem B11_writes : (B11 (F := F)).Forall fun op => op.writes ⊆ ((W11).map (Proc.devRef (τ := τ) .tc)).toFinset := by
  unfold B11
  exact ⟨writes_sub W11 _ main_call9.v0.ref rfl (by decide),
    writes_sub W11 _ main_call9.call0.cst.ref rfl (by decide),
    writes_sub W11 _ main_call9.call0.v0.ref rfl (by decide),
    writes_sub W11 _ main_call9.call0.v1.ref rfl (by decide),
    writes_sub W11 _ main_call9.call0.v2.ref rfl (by decide),
    writes_sub W11 _ main_call9.call0.v3.ref rfl (by decide),
    writes_sub W11 _ main_call9.call0.v4.ref rfl (by decide),
    writes_sub W11 _ main_call9.call0.v5.ref rfl (by decide),
    writes_sub W11 _ main_call9.call0.v6.ref rfl (by decide),
    writes_sub W11 _ main_call9.call0.v7.ref rfl (by decide),
    writes_sub W11 _ main_call9.call0.v8.ref rfl (by decide),
    writes_sub W11 _ main_call9.call0.v9.ref rfl (by decide),
    writes_sub W11 _ main_call9.call0.v10.ref rfl (by decide),
    writes_sub W11 _ main_call9.call0.v11.ref rfl (by decide),
    writes_sub W11 _ main_call9.call0.v12.ref rfl (by decide),
    writes_sub W11 _ main_call9.v2.ref rfl (by decide)⟩
theorem B11_frame {r : Ref sig .tc} (hr : r ∉ W11) (V : Valuation τ sig (Elt F)) :
    after B11 V (no_index (Proc.devRef .tc r)) = V (Proc.devRef .tc r) :=
  after_of_writes_sub B11 V B11_writes hr

/-- The buffers group 12 writes. -/
def W12 : List (Ref sig .tc) := [main_cst_5, main_v40, main_v41, main_cst_6, main_v42, main_cst_7, main_v43]
theorem B12_writes : (B12 (F := F)).Forall fun op => op.writes ⊆ ((W12).map (Proc.devRef (τ := τ) .tc)).toFinset := by
  unfold B12
  exact ⟨writes_sub W12 _ main_cst_5 rfl (by decide),
    writes_sub W12 _ main_v40 rfl (by decide),
    writes_sub W12 _ main_v41 rfl (by decide),
    writes_sub W12 _ main_cst_6 rfl (by decide),
    writes_sub W12 _ main_v42 rfl (by decide),
    writes_sub W12 _ main_cst_7 rfl (by decide),
    writes_sub W12 _ main_v43 rfl (by decide)⟩
theorem B12_frame {r : Ref sig .tc} (hr : r ∉ W12) (V : Valuation τ sig (Elt F)) :
    after B12 V (no_index (Proc.devRef .tc r)) = V (Proc.devRef .tc r) :=
  after_of_writes_sub B12 V B12_writes hr

/-- The buffers group 13 writes. -/
def W13 : List (Ref sig .tc) := [main_v44, main_cst_8, main_v45, main_cst_9, main_v46, main_v47, main_cst_10]
theorem B13_writes : (B13 (F := F)).Forall fun op => op.writes ⊆ ((W13).map (Proc.devRef (τ := τ) .tc)).toFinset := by
  unfold B13
  exact ⟨writes_sub W13 _ main_v44 rfl (by decide),
    writes_sub W13 _ main_cst_8 rfl (by decide),
    writes_sub W13 _ main_v45 rfl (by decide),
    writes_sub W13 _ main_cst_9 rfl (by decide),
    writes_sub W13 _ main_v46 rfl (by decide),
    writes_sub W13 _ main_v47 rfl (by decide),
    writes_sub W13 _ main_cst_10 rfl (by decide)⟩
theorem B13_frame {r : Ref sig .tc} (hr : r ∉ W13) (V : Valuation τ sig (Elt F)) :
    after B13 V (no_index (Proc.devRef .tc r)) = V (Proc.devRef .tc r) :=
  after_of_writes_sub B13 V B13_writes hr

/-- The buffers group 14 writes. -/
def W14 : List (Ref sig .tc) := [main_v48, main_cst_11, main_v49]
theorem B14_writes : (B14 (F := F)).Forall fun op => op.writes ⊆ ((W14).map (Proc.devRef (τ := τ) .tc)).toFinset := by
  unfold B14
  exact ⟨writes_sub W14 _ main_v48 rfl (by decide),
    writes_sub W14 _ main_cst_11 rfl (by decide),
    writes_sub W14 _ main_v49 rfl (by decide)⟩
theorem B14_frame {r : Ref sig .tc} (hr : r ∉ W14) (V : Valuation τ sig (Elt F)) :
    after B14 V (no_index (Proc.devRef .tc r)) = V (Proc.devRef .tc r) :=
  after_of_writes_sub B14 V B14_writes hr

/-- The buffers group 15 writes. -/
def W15 : List (Ref sig .tc) := [main_v50, main_cst_12, main_v51, main_cst_13, main_v52, main_v53, main_cst_14, main_v54, main_cst_15, main_v55, main_v56]
theorem B15_writes : (B15 (F := F)).Forall fun op => op.writes ⊆ ((W15).map (Proc.devRef (τ := τ) .tc)).toFinset := by
  unfold B15
  exact ⟨writes_sub W15 _ main_v50 rfl (by decide),
    writes_sub W15 _ main_cst_12 rfl (by decide),
    writes_sub W15 _ main_v51 rfl (by decide),
    writes_sub W15 _ main_cst_13 rfl (by decide),
    writes_sub W15 _ main_v52 rfl (by decide),
    writes_sub W15 _ main_v53 rfl (by decide),
    writes_sub W15 _ main_cst_14 rfl (by decide),
    writes_sub W15 _ main_v54 rfl (by decide),
    writes_sub W15 _ main_cst_15 rfl (by decide),
    writes_sub W15 _ main_v55 rfl (by decide),
    writes_sub W15 _ main_v56 rfl (by decide)⟩
theorem B15_frame {r : Ref sig .tc} (hr : r ∉ W15) (V : Valuation τ sig (Elt F)) :
    after B15 V (no_index (Proc.devRef .tc r)) = V (Proc.devRef .tc r) :=
  after_of_writes_sub B15 V B15_writes hr

/-- The buffers group 16 writes. -/
def W16 : List (Ref sig .tc) := [main_v57, main_cst_16, main_v58, main_cst_17, main_v59, main_v60, main_cst_18, main_v61, main_cst_19, main_v62, main_v63]
theorem B16_writes : (B16 (F := F)).Forall fun op => op.writes ⊆ ((W16).map (Proc.devRef (τ := τ) .tc)).toFinset := by
  unfold B16
  exact ⟨writes_sub W16 _ main_v57 rfl (by decide),
    writes_sub W16 _ main_cst_16 rfl (by decide),
    writes_sub W16 _ main_v58 rfl (by decide),
    writes_sub W16 _ main_cst_17 rfl (by decide),
    writes_sub W16 _ main_v59 rfl (by decide),
    writes_sub W16 _ main_v60 rfl (by decide),
    writes_sub W16 _ main_cst_18 rfl (by decide),
    writes_sub W16 _ main_v61 rfl (by decide),
    writes_sub W16 _ main_cst_19 rfl (by decide),
    writes_sub W16 _ main_v62 rfl (by decide),
    writes_sub W16 _ main_v63 rfl (by decide)⟩
theorem B16_frame {r : Ref sig .tc} (hr : r ∉ W16) (V : Valuation τ sig (Elt F)) :
    after B16 V (no_index (Proc.devRef .tc r)) = V (Proc.devRef .tc r) :=
  after_of_writes_sub B16 V B16_writes hr

/-- The buffers group 17 writes. -/
def W17 : List (Ref sig .tc) := [main_v64, main_cst_20, main_v65, main_cst_21, main_v66, main_v67, main_cst_22, main_v68, main_cst_23, main_v69, main_v70]
theorem B17_writes : (B17 (F := F)).Forall fun op => op.writes ⊆ ((W17).map (Proc.devRef (τ := τ) .tc)).toFinset := by
  unfold B17
  exact ⟨writes_sub W17 _ main_v64 rfl (by decide),
    writes_sub W17 _ main_cst_20 rfl (by decide),
    writes_sub W17 _ main_v65 rfl (by decide),
    writes_sub W17 _ main_cst_21 rfl (by decide),
    writes_sub W17 _ main_v66 rfl (by decide),
    writes_sub W17 _ main_v67 rfl (by decide),
    writes_sub W17 _ main_cst_22 rfl (by decide),
    writes_sub W17 _ main_v68 rfl (by decide),
    writes_sub W17 _ main_cst_23 rfl (by decide),
    writes_sub W17 _ main_v69 rfl (by decide),
    writes_sub W17 _ main_v70 rfl (by decide)⟩
theorem B17_frame {r : Ref sig .tc} (hr : r ∉ W17) (V : Valuation τ sig (Elt F)) :
    after B17 V (no_index (Proc.devRef .tc r)) = V (Proc.devRef .tc r) :=
  after_of_writes_sub B17 V B17_writes hr

/-- The buffers group 18 writes. -/
def W18 : List (Ref sig .tc) := [main_cst_24, main_v71, main_v72]
theorem B18_writes : (B18 (F := F)).Forall fun op => op.writes ⊆ ((W18).map (Proc.devRef (τ := τ) .tc)).toFinset := by
  unfold B18
  exact ⟨writes_sub W18 _ main_cst_24 rfl (by decide),
    writes_sub W18 _ main_v71 rfl (by decide),
    writes_sub W18 _ main_v72 rfl (by decide)⟩
theorem B18_frame {r : Ref sig .tc} (hr : r ∉ W18) (V : Valuation τ sig (Elt F)) :
    after B18 V (no_index (Proc.devRef .tc r)) = V (Proc.devRef .tc r) :=
  after_of_writes_sub B18 V B18_writes hr

/-- The contents of a tensor value of shape `s` and element type `e`. -/
abbrev C (F : FTy → Type) (s : Shape) (e : EltTy) : Type := (⟨s, e⟩ : BufTy).Contents (Elt F)

/-- A vector of row numbers read signed, a negative one raised by the table's height `N`, as a column. -/
def wrapIdx (N : BitVec 32) (idx : C F S16384 .i32) : C F S16384x1 .i32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 N))) idx)

/-- Whether each row number of the column lies between 0 and `L`, signed. -/
def inRange (L : BitVec 32) (i : C F S16384x1 .i32) : C F S16384 .i1 :=
  Host.reduce IntOp.andi
    (andi (cmpi .sge i (broadcastInDim S16384x1 ![] bcast_S_S16384x1 (constantI S_ 32 0#32)))
      (cmpi .sle i (broadcastInDim S16384x1 ![0, 1] bcast_S1x1_S16384x1_0_1
        (broadcastInDim S1x1 ![1] bcast_S1_S1x1_1 (constantI S1 32 L)))))
    (constantI S_ 1 1#1) reducesTo_S16384x1_S16384_d1 h_S_

/-- The rows of the entity table at the given row numbers: the gathered row where the number is in range,
    the not-a-number word elsewhere. -/
def takeE (x : C F S100000x128 .f32) (idx : C F S16384 .i32) : C F S16384x128 .f32 :=
  select (broadcastInDim S16384x128 ![0] bcast_S16384_S16384x128_0 (inRange 99999#32 (wrapIdx 100000#32 idx)))
    (Host.gather gather_S100000x128_S16384x1_S16384x128_1_0_n_n_0_1_1128 x (wrapIdx 100000#32 idx))
    (broadcastInDim S16384x128 ![] bcast_S_S16384x128 (constant S_ .f32 0x7FC00000#32))

/-- The same of the relation table. -/
def takeR (x : C F S16x64 .f32) (idx : C F S16384 .i32) : C F S16384x64 .f32 :=
  select (broadcastInDim S16384x64 ![0] bcast_S16384_S16384x64_0 (inRange 15#32 (wrapIdx 16#32 idx)))
    (Host.gather gather_S16x64_S16384x1_S16384x64_1_0_n_n_0_1_164 x (wrapIdx 16#32 idx))
    (broadcastInDim S16384x64 ![] bcast_S_S16384x64 (constant S_ .f32 0x7FC00000#32))

/-- The same of the projection matrices: a whole matrix per row number. -/
def takeW (x : C F S16x128x64 .f32) (idx : C F S16384 .i32) : C F S16384x128x64 .f32 :=
  select (broadcastInDim S16384x128x64 ![0] bcast_S16384_S16384x128x64_0 (inRange 15#32 (wrapIdx 16#32 idx)))
    (Host.gather gather_S16x128x64_S16384x1_S16384x128x64_12_0_n_n_0_1_112864 x (wrapIdx 16#32 idx))
    (broadcastInDim S16384x128x64 ![] bcast_S_S16384x128x64 (constant S_ .f32 0x7FC00000#32))

/-- Each entity row times its triple's matrix. -/
def projOf (e : C F S16384x128 .f32) (w : C F S16384x128x64 .f32) : C F S16384x64 .f32 :=
  Host.dotGeneral dot_S16384x128_S16384x128x64_S16384x64_1_1_n_2_0_0 none e w

/-- The length of each row, as a column. -/
def normOf (y : C F S16384x64 .f32) : C F S16384x1 .f32 :=
  Host.sqrt (broadcastInDim S16384x1 ![0] bcast_S16384_S16384x1_0
    (Host.reduceAdd (mulf y y) (constant S_ .f32 0x00000000#32) reducesTo_S16384x64_S16384_d1 h_S_))

/-- Each row divided by its length, the length floored at the small constant. -/
def normalize (y : C F S16384x64 .f32) : C F S16384x64 .f32 :=
  Host.divf y (broadcastInDim S16384x64 ![0, 1] bcast_S16384x1_S16384x64_0_1
    (maximumf (normOf y) (broadcastInDim S16384x1 ![] bcast_S_S16384x1 (constant S_ .f32 0x2B8CBCCC#32))))

/-- The squared distance of `h + r` from `t`, row by row, as a column. -/
def sqDist (h r t : C F S16384x64 .f32) : C F S16384x1 .f32 :=
  broadcastInDim S16384x1 ![0] bcast_S16384_S16384x1_0
    (Host.reduceAdd (mulf (subf (addf h r) t) (subf (addf h r) t)) (constant S_ .f32 0x00000000#32)
      reducesTo_S16384x64_S16384_d1 h_S_)

/-- The negative tail's squared distance less the positive tail's. -/
def gapOf (h r p n : C F S16384x64 .f32) : C F S16384x1 .f32 := subf (sqDist h r n) (sqDist h r p)

/-- The zero column. -/
def zeroCol : C F S16384x1 .f32 := broadcastInDim S16384x1 ![] bcast_S_S16384x1 (constant S_ .f32 0x00000000#32)

/-- The softplus as the program spells it: where `x - 0` differs from itself, `x + 0`; elsewhere
    `max x 0 + log1p (exp (-|x - 0|))`. -/
def softplusOf (x : C F S16384x1 .f32) : C F S16384x1 .f32 :=
  select (cmpf .une (subf x zeroCol) (subf x zeroCol)) (addf x zeroCol)
    (addf (maximumf x zeroCol) (Host.log1p (Host.exp (Host.negf (Host.absf (subf x zeroCol))))))

/-- The log-sigmoid: minus the softplus of minus the argument. -/
def logSigmoidOf (x : C F S16384x1 .f32) : C F S16384x1 .f32 := Host.negf (softplusOf (Host.negf x))

/-- The mean over the 16384 rows of minus the column. -/
def meanNeg (l : C F S16384x1 .f32) : C F S_ .f32 :=
  Host.divf (Host.reduceAdd (mulf (broadcastInDim S16384x1 ![] bcast_S_S16384x1 (constant S_ .f32 0xBF800000#32)) l)
    (constant S_ .f32 0x00000000#32) reducesTo_S16384x1_S_d0_1 h_S_) (constant S_ .f32 0x46800000#32)

/-- Half of each row's sum of squares. -/
def halfSq (y : C F S16384x64 .f32) : C F S16384 .f32 :=
  Host.divf (Host.reduceAdd (mulf y y) (constant S_ .f32 0x00000000#32) reducesTo_S16384x64_S16384_d1 h_S_)
    (broadcastInDim S16384 ![] bcast_S_S16384 (constant S_ .f32 0x40000000#32))

/-- The sum of a vector from an initial value, divided by 16384. -/
def meanFrom (x : C F S16384 .f32) (z : C F S_ .f32) : C F S_ .f32 :=
  Host.divf (Host.reduceAdd x z reducesTo_S16384_S_d0 h_S_) (constant S_ .f32 0x46800000#32)

/-- The mean over the rows of half the row's sum of squares. -/
def l2mean (y : C F S16384x64 .f32) : C F S_ .f32 := meanFrom (halfSq y) (constant S_ .f32 0x00000000#32)

/-! ## The value each group leaves in the buffers read after it -/

set_option maxRecDepth 8192 in
theorem B1_main_v0 (V : Valuation τ sig (Elt F)) :
    after B1 V (no_index (Proc.devRef .tc main_v0)) = takeE (V (Proc.devRef .tc main_arg0)) (V (Proc.devRef .tc main_arg3)) := by
  unfold B1
  after_results_simp
  simp only [TRef.toBuf, TRef.ofBuf, cast_eq]
  all_goals rfl

set_option maxRecDepth 8192 in
theorem B2_main_v1 (V : Valuation τ sig (Elt F)) :
    after B2 V (no_index (Proc.devRef .tc main_v1)) = takeR (V (Proc.devRef .tc main_arg1)) (V (Proc.devRef .tc main_arg4)) := by
  unfold B2
  after_results_simp
  simp only [TRef.toBuf, TRef.ofBuf, cast_eq]
  all_goals rfl

set_option maxRecDepth 8192 in
theorem B3_main_v2 (V : Valuation τ sig (Elt F)) :
    after B3 V (no_index (Proc.devRef .tc main_v2)) = takeE (V (Proc.devRef .tc main_arg0)) (V (Proc.devRef .tc main_arg5)) := by
  unfold B3
  after_results_simp
  simp only [TRef.toBuf, TRef.ofBuf, cast_eq]
  all_goals rfl

set_option maxRecDepth 8192 in
theorem B4_main_v3 (V : Valuation τ sig (Elt F)) :
    after B4 V (no_index (Proc.devRef .tc main_v3)) = takeE (V (Proc.devRef .tc main_arg0)) (V (Proc.devRef .tc main_arg6)) := by
  unfold B4
  after_results_simp
  simp only [TRef.toBuf, TRef.ofBuf, cast_eq]
  all_goals rfl

set_option maxRecDepth 8192 in
theorem B5_main_v4 (V : Valuation τ sig (Elt F)) :
    after B5 V (no_index (Proc.devRef .tc main_v4)) = takeW (V (Proc.devRef .tc main_arg2)) (V (Proc.devRef .tc main_arg4)) := by
  unfold B5
  after_results_simp
  simp only [TRef.toBuf, TRef.ofBuf, cast_eq]
  all_goals rfl

set_option maxRecDepth 8192 in
theorem B6_main_v10 (V : Valuation τ sig (Elt F)) :
    after B6 V (no_index (Proc.devRef .tc main_v10)) = normalize (projOf (V (Proc.devRef .tc main_v0)) (V (Proc.devRef .tc main_v4))) := by
  unfold B6
  after_results_simp
  simp only [TRef.toBuf, TRef.ofBuf, cast_eq]
  all_goals rfl

set_option maxRecDepth 8192 in
theorem B7_main_v15 (V : Valuation τ sig (Elt F)) :
    after B7 V (no_index (Proc.devRef .tc main_v15)) = normalize (V (Proc.devRef .tc main_v1)) := by
  unfold B7
  after_results_simp
  simp only [TRef.toBuf, TRef.ofBuf, cast_eq]
  all_goals rfl

set_option maxRecDepth 8192 in
theorem B8_main_v21 (V : Valuation τ sig (Elt F)) :
    after B8 V (no_index (Proc.devRef .tc main_v21)) = normalize (projOf (V (Proc.devRef .tc main_v2)) (V (Proc.devRef .tc main_v4))) := by
  unfold B8
  after_results_simp
  simp only [TRef.toBuf, TRef.ofBuf, cast_eq]
  all_goals rfl

set_option maxRecDepth 8192 in
theorem B9_main_v27 (V : Valuation τ sig (Elt F)) :
    after B9 V (no_index (Proc.devRef .tc main_v27)) = normalize (projOf (V (Proc.devRef .tc main_v3)) (V (Proc.devRef .tc main_v4))) := by
  unfold B9
  after_results_simp
  simp only [TRef.toBuf, TRef.ofBuf, cast_eq]
  all_goals rfl

set_option maxRecDepth 8192 in
theorem B10_main_v38 (V : Valuation τ sig (Elt F)) :
    after B10 V (no_index (Proc.devRef .tc main_v38)) = gapOf (V (Proc.devRef .tc main_v10)) (V (Proc.devRef .tc main_v15)) (V (Proc.devRef .tc main_v21)) (V (Proc.devRef .tc main_v27)) := by
  unfold B10
  after_results_simp
  all_goals rfl

set_option maxRecDepth 8192 in
theorem B11_main_v39 (V : Valuation τ sig (Elt F)) :
    after B11 V (no_index (Proc.devRef .tc main_v39)) = logSigmoidOf (V (Proc.devRef .tc main_v38)) := by
  unfold B11
  after_results_simp
  simp only [TRef.toBuf, TRef.ofBuf, cast_eq]
  all_goals rfl

set_option maxRecDepth 8192 in
theorem B12_main_v43 (V : Valuation τ sig (Elt F)) :
    after B12 V (no_index (Proc.devRef .tc main_v43)) = meanNeg (V (Proc.devRef .tc main_v39)) := by
  unfold B12
  after_results_simp
  all_goals rfl

set_option maxRecDepth 8192 in
theorem B13_main_v47 (V : Valuation τ sig (Elt F)) :
    after B13 V (no_index (Proc.devRef .tc main_v47)) = halfSq (V (Proc.devRef .tc main_v10)) := by
  unfold B13
  after_results_simp
  all_goals rfl

set_option maxRecDepth 8192 in
theorem B13_main_cst_10 (V : Valuation τ sig (Elt F)) :
    after B13 V (no_index (Proc.devRef .tc main_cst_10)) = constant S_ .f32 0x00000000#32 := by
  unfold B13
  after_results_simp
  all_goals rfl

set_option maxRecDepth 8192 in
theorem B14_main_v49 (V : Valuation τ sig (Elt F)) :
    after B14 V (no_index (Proc.devRef .tc main_v49)) = meanFrom (V (Proc.devRef .tc main_v47)) (V (Proc.devRef .tc main_cst_10)) := by
  unfold B14
  after_results_simp
  all_goals rfl

set_option maxRecDepth 8192 in
theorem B15_main_v56 (V : Valuation τ sig (Elt F)) :
    after B15 V (no_index (Proc.devRef .tc main_v56)) = addf (V (Proc.devRef .tc main_v49)) (l2mean (V (Proc.devRef .tc main_v15))) := by
  unfold B15
  after_results_simp
  all_goals rfl

set_option maxRecDepth 8192 in
theorem B16_main_v63 (V : Valuation τ sig (Elt F)) :
    after B16 V (no_index (Proc.devRef .tc main_v63)) = addf (V (Proc.devRef .tc main_v56)) (l2mean (V (Proc.devRef .tc main_v21))) := by
  unfold B16
  after_results_simp
  all_goals rfl

set_option maxRecDepth 8192 in
theorem B17_main_v70 (V : Valuation τ sig (Elt F)) :
    after B17 V (no_index (Proc.devRef .tc main_v70)) = addf (V (Proc.devRef .tc main_v63)) (l2mean (V (Proc.devRef .tc main_v27))) := by
  unfold B17
  after_results_simp
  all_goals rfl

set_option maxRecDepth 8192 in
theorem B18_main_v72 (V : Valuation τ sig (Elt F)) :
    after B18 V (no_index (Proc.devRef .tc main_v72)) = addf (V (Proc.devRef .tc main_v43)) (mulf (constant S_ .f32 0x3C23D70A#32) (V (Proc.devRef .tc main_v70))) := by
  unfold B18
  after_results_simp
  all_goals rfl

/-! ## The result as a term of the seven arguments -/

/-- The projected, unit-length head rows. -/
def hU (a0 : C F S100000x128 .f32) (a2 : C F S16x128x64 .f32) (a3 a4 : C F S16384 .i32) : C F S16384x64 .f32 :=
  normalize (projOf (takeE a0 a3) (takeW a2 a4))
/-- The unit-length relation rows. -/
def rU (a1 : C F S16x64 .f32) (a4 : C F S16384 .i32) : C F S16384x64 .f32 := normalize (takeR a1 a4)

/-- The loss: the mean of minus the log-sigmoid of the score gap, plus the small multiple of the four means of
    half squared lengths. -/
def res (a0 : C F S100000x128 .f32) (a1 : C F S16x64 .f32) (a2 : C F S16x128x64 .f32) (a3 a4 a5 a6 : C F S16384 .i32) :
    C F S_ .f32 :=
  addf (meanNeg (logSigmoidOf (gapOf (hU a0 a2 a3 a4) (rU a1 a4) (hU a0 a2 a5 a4) (hU a0 a2 a6 a4))))
    (mulf (constant S_ .f32 0x3C23D70A#32)
      (addf (addf (addf (meanFrom (halfSq (hU a0 a2 a3 a4)) (constant S_ .f32 0x00000000#32)) (l2mean (rU a1 a4)))
        (l2mean (hU a0 a2 a5 a4))) (l2mean (hU a0 a2 a6 a4))))

set_option maxRecDepth 8192 in
theorem out_eq (V : Valuation τ sig (Elt F)) :
    after ops V (Proc.devRef .tc main_v72) = res (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  simp (disch := decide) only [ops, ops0, ops1, after_append, B1_main_v0, B2_main_v1, B3_main_v2, B4_main_v3, B5_main_v4, B6_main_v10, B7_main_v15, B8_main_v21, B9_main_v27, B10_main_v38, B11_main_v39, B12_main_v43, B13_main_v47, B13_main_cst_10, B14_main_v49, B15_main_v56, B16_main_v63, B17_main_v70, B18_main_v72,
    B1_frame, B2_frame, B3_frame, B4_frame, B5_frame, B6_frame, B7_frame, B8_frame, B9_frame, B10_frame, B11_frame, B12_frame, B13_frame, B14_frame, B15_frame, B16_frame, B17_frame, B18_frame]
  rfl

theorem arg0_eq (V : Valuation τ sig (Elt F)) : after ops V (Proc.devRef .tc main_arg0) = V (Proc.devRef .tc main_arg0) := by
  simp (disch := decide) only [ops, ops0, ops1, after_append, B1_frame, B2_frame, B3_frame, B4_frame, B5_frame, B6_frame, B7_frame, B8_frame, B9_frame, B10_frame, B11_frame, B12_frame, B13_frame, B14_frame, B15_frame, B16_frame, B17_frame, B18_frame]
theorem arg1_eq (V : Valuation τ sig (Elt F)) : after ops V (Proc.devRef .tc main_arg1) = V (Proc.devRef .tc main_arg1) := by
  simp (disch := decide) only [ops, ops0, ops1, after_append, B1_frame, B2_frame, B3_frame, B4_frame, B5_frame, B6_frame, B7_frame, B8_frame, B9_frame, B10_frame, B11_frame, B12_frame, B13_frame, B14_frame, B15_frame, B16_frame, B17_frame, B18_frame]
theorem arg2_eq (V : Valuation τ sig (Elt F)) : after ops V (Proc.devRef .tc main_arg2) = V (Proc.devRef .tc main_arg2) := by
  simp (disch := decide) only [ops, ops0, ops1, after_append, B1_frame, B2_frame, B3_frame, B4_frame, B5_frame, B6_frame, B7_frame, B8_frame, B9_frame, B10_frame, B11_frame, B12_frame, B13_frame, B14_frame, B15_frame, B16_frame, B17_frame, B18_frame]
theorem arg3_eq (V : Valuation τ sig (Elt F)) : after ops V (Proc.devRef .tc main_arg3) = V (Proc.devRef .tc main_arg3) := by
  simp (disch := decide) only [ops, ops0, ops1, after_append, B1_frame, B2_frame, B3_frame, B4_frame, B5_frame, B6_frame, B7_frame, B8_frame, B9_frame, B10_frame, B11_frame, B12_frame, B13_frame, B14_frame, B15_frame, B16_frame, B17_frame, B18_frame]
theorem arg4_eq (V : Valuation τ sig (Elt F)) : after ops V (Proc.devRef .tc main_arg4) = V (Proc.devRef .tc main_arg4) := by
  simp (disch := decide) only [ops, ops0, ops1, after_append, B1_frame, B2_frame, B3_frame, B4_frame, B5_frame, B6_frame, B7_frame, B8_frame, B9_frame, B10_frame, B11_frame, B12_frame, B13_frame, B14_frame, B15_frame, B16_frame, B17_frame, B18_frame]
theorem arg5_eq (V : Valuation τ sig (Elt F)) : after ops V (Proc.devRef .tc main_arg5) = V (Proc.devRef .tc main_arg5) := by
  simp (disch := decide) only [ops, ops0, ops1, after_append, B1_frame, B2_frame, B3_frame, B4_frame, B5_frame, B6_frame, B7_frame, B8_frame, B9_frame, B10_frame, B11_frame, B12_frame, B13_frame, B14_frame, B15_frame, B16_frame, B17_frame, B18_frame]
theorem arg6_eq (V : Valuation τ sig (Elt F)) : after ops V (Proc.devRef .tc main_arg6) = V (Proc.devRef .tc main_arg6) := by
  simp (disch := decide) only [ops, ops0, ops1, after_append, B1_frame, B2_frame, B3_frame, B4_frame, B5_frame, B6_frame, B7_frame, B8_frame, B9_frame, B10_frame, B11_frame, B12_frame, B13_frame, B14_frame, B15_frame, B16_frame, B17_frame, B18_frame]

/-- On every device, for any float values, from any memory with zero counters: every weakly fair execution of
    @main terminates with the result at `res` of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v72) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v72).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ (fun _ => ops_fresh))

end Cert.ReferenceIdeal.RefRun

namespace Cert.Proof.RefClaims

open Idealize.ShloMosaic Idealize.SL.Sem

/-- The reference runs and leaves its arguments unchanged: the run above at the extended reals, its value dropped. -/
theorem frame_ri : Cert.frame_ReferenceIdeal := fun m g _ =>
  (θ_run _ _ _).mono (fun _ h c => (h c).2) (Cert.ReferenceIdeal.RefRun.run (F := Ideal) m g)

end Cert.Proof.RefClaims

end
-- ==== Proof.LibGatherRows.lean ====
/-
  The host's row gather read at an index.  Indexing the rows of an [N, C] array by an integer column of E row
  numbers (what `x[idx]` of a matrix at a vector of indices lowers to: offset axis 1, collapsed axis 0, start index
  map [0], the index vector on axis 1 of the [E, 1] start indices, slices of one row) gives at (r, j) the entry j of
  row `rowSel idx r` of the array: the r-th start index read as a signed integer and clamped into [0, N - 1].
  The row chosen does not depend on the width C, so gathering rows commutes with any map that acts row by row.
-/
import Idealize.ShloMosaic.Lib.Pipeline.Value
import Idealize.ShloMosaic.Lib.ValueIdx

noncomputable section

namespace Cert.HostGather

open Idealize.ShloMosaic Idealize.ShloMosaic.ValueIdx

variable {α : Type}

/-- The row of an N-row array that start index number `r` selects: the index word read signed, clamped to the last row. -/
def rowSel {N E w : ℕ} (hN : 0 < N) (idx : IVec ⟨2, ![E, 1]⟩ w) (r : Fin E) : Fin N :=
  ⟨min (idx (ix2 r (0 : Fin 1))).toInt.toNat (N - 1), by omega⟩

/-- The row gather at `(r, j)` is the array at row `rowSel idx r`, column `j`.  `wf` is the record's
    well-formedness, which a program states. -/
theorem gather_rows_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (r : Fin E) (j : Fin C) :
    Host.gather (⟨[1], [0], [], [], [0], 1, ![1, C], wf⟩ : GatherDims ⟨2, ![N, C]⟩ ⟨2, ![E, 1]⟩ ⟨2, ![E, C]⟩) x idx (ix2 r j)
      = x (ix2 (rowSel hN idx r) j) := by
  unfold Host.gather
  congr 1
  funext a
  refine Fin.ext ?_
  let d : GatherDims ⟨2, ![N, C]⟩ ⟨2, ![E, 1]⟩ ⟨2, ![E, C]⟩ := ⟨[1], [0], [], [], [0], 1, ![1, C], wf⟩
  have hb : ∀ a, d.batchCoord (ix2 r j) a = 0 := fun a => GatherDims.batchCoord_eq_zero _ _ _ List.not_mem_nil
  have ho0 : d.offCoord (ix2 r j) (0 : Fin 2) = 0 :=
    GatherDims.offCoord_eq_zero _ _ _ (fun h => ((GatherDims.mem_sKept _ _).mp h).1 (List.mem_singleton.mpr rfl))
  have hs0 : d.start (ix2 r j) idx (0 : Fin 2) = min (idx (ix2 r (0 : Fin 1))).toInt.toNat (N - 1) := by
    unfold GatherDims.start
    rw [dif_pos (show (0 : Fin 2) ∈ d.startIndexMap from List.mem_singleton.mpr rfl)]
    have hsi : d.siIdx (ix2 r j) ⟨List.idxOf (0 : Fin 2) d.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have hs1 : d.start (ix2 r j) idx (1 : Fin 2) = 0 := by
    unfold GatherDims.start
    rw [dif_neg (show (1 : Fin 2) ∉ d.startIndexMap from
      fun h => Nat.one_ne_zero (congrArg Fin.val (List.mem_singleton.mp h)))]
  have hk1 : (1 : Fin 2) ∈ d.sKept :=
    (GatherDims.mem_sKept _ _).mpr ⟨fun h => Nat.one_ne_zero (congrArg Fin.val (List.mem_singleton.mp h)), List.not_mem_nil⟩
  have ho1 : d.offCoord (ix2 r j) (1 : Fin 2) = j.val := by
    unfold GatherDims.offCoord
    rw [dif_pos hk1]
    rfl
  match a with
  | ⟨0, _⟩ =>
    show d.start (ix2 r j) idx (0 : Fin 2) + d.batchCoord (ix2 r j) (0 : Fin 2) + d.offCoord (ix2 r j) (0 : Fin 2)
      = min (idx (ix2 r (0 : Fin 1))).toInt.toNat (N - 1)
    rw [hs0, hb, ho0]
    rfl
  | ⟨1, _⟩ =>
    show d.start (ix2 r j) idx (1 : Fin 2) + d.batchCoord (ix2 r j) (1 : Fin 2) + d.offCoord (ix2 r j) (1 : Fin 2) = j.val
    rw [hs1, hb, ho1]; omega

end Cert.HostGather

end
-- ==== Proof.LibRefHost.lean ====
/-
  Host operations read at an index, for any extents: an and-reduction of all-ones bits; the gather of whole matrices
  of a stack [N, A, B] by a column of E row numbers (what `x[idx]` of a rank-3 array at a vector of indices lowers
  to), read at (r, p, q) as the stack at member `rowSel idx r`; the product of each row of an [M, K] array with the
  matching matrix of an [M, K, N] stack (batch axis 0 on both, the row contracted with the matrix's first axis), read at
  (m, c) as the sum over the contracted coordinate; and a 32-bit word below 2^31 read as a signed integer.
-/
import Idealize.ShloMosaic.Lib.Pipeline.Value
import Idealize.ShloMosaic.Lib.ValueIdx
import Idealize.ShloMosaic.Lib.IdealHost
import Idealize.ShloMosaic.PureOps.Ideal.Laws
import proofs.«211459_g87136296501727_cont_9to1_m_723_16_alg».proof.Proof.LibGatherRows

noncomputable section

namespace Cert.LibRefHost

open Idealize.ShloMosaic Idealize.ShloMosaic.ValueIdx Cert.HostGather

/-! ## Words -/

/-- A 32-bit word below 2^31 read signed is its value. -/
theorem toInt_of_lt {x : BitVec 32} (h : x.toNat < 2 ^ 31) : x.toInt = (x.toNat : Int) := by
  rw [BitVec.toInt_eq_toNat_cond]
  split
  · rfl
  · omega

/-- Such a word is not below zero, signed. -/
theorem cmpi_slt_zero {x : BitVec 32} (h : x.toNat < 2 ^ 31) : IntOp.cmpi .slt x 0#32 = 0#1 := by
  have hx := toInt_of_lt h
  have h0 : ¬ ((x.toNat : Int) < 0) := by omega
  simp only [IntOp.cmpi, BitVec.slt, hx]
  simp [h0]

/-- Such a word is at least zero, signed. -/
theorem cmpi_sge_zero {x : BitVec 32} (h : x.toNat < 2 ^ 31) : IntOp.cmpi .sge x 0#32 = 1#1 := by
  have hx := toInt_of_lt h
  simp only [IntOp.cmpi, BitVec.sle, hx]
  simp

/-- A word at most `L`, both below 2^31, is at most `L` signed. -/
theorem cmpi_sle_of_le {x L : BitVec 32} (h : x.toNat ≤ L.toNat) (hL : L.toNat < 2 ^ 31) : IntOp.cmpi .sle x L = 1#1 := by
  have hx := toInt_of_lt (x := x) (by omega)
  have hl := toInt_of_lt hL
  simp only [IntOp.cmpi, BitVec.sle, hx, hl]
  simp [h]

/-! ## An and-reduction of ones -/

/-- The host's and-reduction of an array of one bits from the one bit is the one bit at every index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  generalize ((List.finRange s.numel).filter fun n => h.drop (s.rowMajor.symm n) = j) = l
  induction l with
  | nil => rfl
  | cons a l ih =>
    rw [List.foldl_cons, hx]
    exact ih

/-! ## The gather of whole matrices -/

variable {α : Type}

/-- The gather of matrices at `(r, p, q)` is the stack at member `rowSel idx r`, entry `(p, q)`. `wf` is the record's
    well-formedness, which a program states. -/
theorem gather_mats_apply {N E A B w : ℕ} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (r : Fin E) (p : Fin A) (q : Fin B) :
    Host.gather (⟨[1, 2], [0], [], [], [0], 1, ![1, A, B], wf⟩ : GatherDims ⟨3, ![N, A, B]⟩ ⟨2, ![E, 1]⟩ ⟨3, ![E, A, B]⟩) x idx
        (ix3 r p q)
      = x (ix3 (rowSel hN idx r) p q) := by
  unfold Host.gather
  congr 1
  funext a
  refine Fin.ext ?_
  let d : GatherDims ⟨3, ![N, A, B]⟩ ⟨2, ![E, 1]⟩ ⟨3, ![E, A, B]⟩ := ⟨[1, 2], [0], [], [], [0], 1, ![1, A, B], wf⟩
  have hb : ∀ a, d.batchCoord (ix3 r p q) a = 0 := fun a => GatherDims.batchCoord_eq_zero _ _ _ List.not_mem_nil
  have ho0 : d.offCoord (ix3 r p q) (0 : Fin 3) = 0 :=
    GatherDims.offCoord_eq_zero _ _ _ (fun h => ((GatherDims.mem_sKept _ _).mp h).1 (List.mem_singleton.mpr rfl))
  have hs0 : d.start (ix3 r p q) idx (0 : Fin 3) = min (idx (ix2 r (0 : Fin 1))).toInt.toNat (N - 1) := by
    unfold GatherDims.start
    rw [dif_pos (show (0 : Fin 3) ∈ d.startIndexMap from List.mem_singleton.mpr rfl)]
    have hsi : d.siIdx (ix3 r p q) ⟨List.idxOf (0 : Fin 3) d.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have hs1 : d.start (ix3 r p q) idx (1 : Fin 3) = 0 := by
    unfold GatherDims.start
    rw [dif_neg (show (1 : Fin 3) ∉ d.startIndexMap from
      fun h => Nat.one_ne_zero (congrArg Fin.val (List.mem_singleton.mp h)))]
  have hs2 : d.start (ix3 r p q) idx (2 : Fin 3) = 0 := by
    unfold GatherDims.start
    rw [dif_neg (show (2 : Fin 3) ∉ d.startIndexMap from
      fun h => (by decide : (2 : ℕ) ≠ 0) (congrArg Fin.val (List.mem_singleton.mp h)))]
  have hk1 : (1 : Fin 3) ∈ d.sKept :=
    (GatherDims.mem_sKept _ _).mpr ⟨fun h => Nat.one_ne_zero (congrArg Fin.val (List.mem_singleton.mp h)), List.not_mem_nil⟩
  have hk2 : (2 : Fin 3) ∈ d.sKept :=
    (GatherDims.mem_sKept _ _).mpr ⟨fun h => (by decide : (2 : ℕ) ≠ 0) (congrArg Fin.val (List.mem_singleton.mp h)), List.not_mem_nil⟩
  have ho1 : d.offCoord (ix3 r p q) (1 : Fin 3) = p.val := by
    unfold GatherDims.offCoord
    rw [dif_pos hk1]
    rfl
  have ho2 : d.offCoord (ix3 r p q) (2 : Fin 3) = q.val := by
    unfold GatherDims.offCoord
    rw [dif_pos hk2]
    rfl
  match a with
  | ⟨0, _⟩ =>
    show d.start (ix3 r p q) idx (0 : Fin 3) + d.batchCoord (ix3 r p q) (0 : Fin 3) + d.offCoord (ix3 r p q) (0 : Fin 3)
      = min (idx (ix2 r (0 : Fin 1))).toInt.toNat (N - 1)
    rw [hs0, hb, ho0]
    rfl
  | ⟨1, _⟩ =>
    show d.start (ix3 r p q) idx (1 : Fin 3) + d.batchCoord (ix3 r p q) (1 : Fin 3) + d.offCoord (ix3 r p q) (1 : Fin 3) = p.val
    rw [hs1, hb, ho1]; omega
  | ⟨2, _⟩ =>
    show d.start (ix3 r p q) idx (2 : Fin 3) + d.batchCoord (ix3 r p q) (2 : Fin 3) + d.offCoord (ix3 r p q) (2 : Fin 3) = q.val
    rw [hs2, hb, ho2]; omega

/-! ## Rows times their matrices -/

/-- The product of each row of an [M, K] array with the matching matrix of an [M, K, N] stack, read at `(m, c)`: the sum
    over the contracted coordinate of the row's entries times the matrix's column. At the ideal values. `w` is the
    record's well-formedness, which a program states. -/
theorem dotGeneral_rowmat_apply {M K N : ℕ} {φ₁ φ₂ : FTy}
    (w : DotDims.WF ⟨2, ![M, K]⟩ ⟨3, ![M, K, N]⟩ ⟨2, ![M, N]⟩ [1] [1] [] [2] [0] [0])
    (prec : Option ContractPrecision) (X : FVec Ideal ⟨2, ![M, K]⟩ φ₁) (Y : FVec Ideal ⟨3, ![M, K, N]⟩ φ₂)
    (m : Fin M) (c : Fin N) :
    Host.dotGeneral (⟨[1], [1], [], [2], [0], [0], w⟩ : DotDims _ _ _) prec X Y (ix2 m c)
      = ∑ k : Fin K, X (ix2 m k) * Y (ix3 m k c) := by
  show FloatOps.dotGeneral _ prec _ X Y (ix2 m c) = _
  rw [Ideal.dotGeneral_apply,
    ← Equiv.sum_comp (contrEquiv1 (⟨[1], [1], [], [2], [0], [0], w⟩ : DotDims _ _ _) K rfl rfl).symm]
  refine Finset.sum_congr rfl fun k _ => ?_
  have c3 := contrEquiv1_symm_val
    (⟨[1], [1], [], [2], [0], [0], w⟩ : DotDims ⟨2, ![M, K]⟩ ⟨3, ![M, K, N]⟩ ⟨2, ![M, N]⟩) K rfl rfl k
  have l3 : (⟨[1], [1], [], [2], [0], [0], w⟩ : DotDims ⟨2, ![M, K]⟩ ⟨3, ![M, K, N]⟩ ⟨2, ![M, N]⟩).lhsIdx (ix2 m c)
      ((contrEquiv1 _ K rfl rfl).symm k) = ix2 m k := by
    funext ax; apply Fin.ext
    match ax with
    | ⟨0, _⟩ => simp [DotDims.lhsIdx]; rfl
    | ⟨1, _⟩ => simp [DotDims.lhsIdx]; exact c3
  have r3 : (⟨[1], [1], [], [2], [0], [0], w⟩ : DotDims ⟨2, ![M, K]⟩ ⟨3, ![M, K, N]⟩ ⟨2, ![M, N]⟩).rhsIdx (ix2 m c)
      ((contrEquiv1 _ K rfl rfl).symm k) = ix3 m k c := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

end Cert.LibRefHost

end
-- ==== Proof.LibColOps.lean ====
/-
  Column and row forms of rank-2 arrays read at an index, for any element type and any extents, and the sum along the
  second axis read at a row: a vector of length `a` cast to a column [a, 1]; a column [a, 1] broadcast along the rows of
  [a, b]; a kernel's lane sum of an [a, b] array into a vector of length `a`, and the host's sum of the same kind from an
  initial value; the host's placements of a vector as a column, of a vector as a row, of a column along every row and of
  a row down every column.
-/
import Idealize.ShloMosaic.Lib.Pipeline.Value
import Idealize.ShloMosaic.Lib.ValueIdx
import Idealize.ShloMosaic.Lib.IdealHost
import Idealize.ShloMosaic.PureOps.Ideal.Laws

noncomputable section

namespace Cert.LibColOps

open Idealize.ShloMosaic Idealize.ShloMosaic.ValueIdx

variable {α : Type} {a b : ℕ}

/-- Entry `(p, 0)` of the column cast of a vector is the vector's entry `p`: both sit at row-major position `p`. -/
theorem shapeCast_col_apply (x : (⟨1, ![a]⟩ : Shape).Idx → α) (h : (⟨1, ![a]⟩ : Shape).ShapeCasts ⟨2, ![a, 1]⟩) (p : Fin a) :
    shapeCast ⟨2, ![a, 1]⟩ x h (ix2 p (0 : Fin 1)) = x (ix1 p) :=
  shapeCast_apply x h (ix2 p (0 : Fin 1)) (ix1 p) (by
    rw [Shape.rowMajor_val_one, Shape.rowMajor_val_two]
    show p.val = p.val * 1 + 0
    omega)

/-- Entry `(p, q)` of a column broadcast along the rows is the column's entry `(p, 0)`. -/
theorem broadcastTo_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p (0 : Fin 1)) :=
  broadcastTo_apply x h (ix2 p q) (ix2 p (0 : Fin 1)) (fun c => by
    match c with
    | ⟨0, _⟩ =>
      show p.val = if a = 1 then 0 else p.val
      have := p.isLt
      split <;> omega
    | ⟨1, _⟩ => rfl)

/-- The index a sum along axis 1 reads at row `p` and summation coordinate `k` is `(p, k)`. -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- A kernel's lane sum of an [a, b] array at row `p` is the sum of the row's entries. -/
theorem multiReduction_row {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (p : Fin a) :
    multiReduction .add [(1 : Fin 2)] ⟨1, ![a]⟩ src acc h hφ hacc (ix1 p) = ∑ k : Fin b, src (ix2 p k) := by
  rw [Ideal.multiReduction_add_single]
  exact Finset.sum_congr rfl fun k _ => congrArg src (lift_row h p k)

/-- The host's sum along axis 1 of an [a, b] array at row `p`: the initial value plus the sum of the row's entries. -/
theorem hostReduceAdd_row {φ : FTy} (x : FVec Ideal ⟨2, ![a, b]⟩ φ) (init : (⟨0, ![]⟩ : Shape).Idx → Ideal φ)
    (h' : (⟨2, ![a, b]⟩ : Shape).ReducesTo [(1 : Fin 2)] ⟨1, ![a]⟩) (h : (⟨2, ![a, b]⟩ : Shape).Reduces [(1 : Fin 2)] ⟨1, ![a]⟩)
    (hu : 0 < (⟨0, ![]⟩ : Shape).numel) (p : Fin a) :
    Host.reduceAdd x init h' hu (ix1 p) = init ix0 + ∑ k : Fin b, x (ix2 p k) := by
  rw [hostReduceAdd_apply, Ideal.hostReduceAdd_single h' h]
  congr 1
  · exact congrArg init (funext fun c => c.elim0)
  · exact Finset.sum_congr rfl fun k _ => congrArg x (lift_row h p k)

/-- The host places a vector as a column: entry `(p, 0)` is the vector's entry `p`. -/
theorem bcastCol_apply (x : (⟨1, ![a]⟩ : Shape).Idx → α) (h : (⟨1, ![a]⟩ : Shape).BroadcastsInDim ⟨2, ![a, 1]⟩ ![0]) (p : Fin a) :
    broadcastInDim ⟨2, ![a, 1]⟩ ![0] h x (ix2 p (0 : Fin 1)) = x (ix1 p) :=
  broadcastInDim_apply ![0] h x (ix2 p (0 : Fin 1)) (ix1 p) (fun c => by
    match c with
    | ⟨0, _⟩ =>
      show p.val = if a = 1 then 0 else p.val
      have := p.isLt
      split <;> omega)

/-- The host places a vector as a row: entry `(0, q)` is the vector's entry `q`. -/
theorem bcastRow_apply (x : (⟨1, ![b]⟩ : Shape).Idx → α) (h : (⟨1, ![b]⟩ : Shape).BroadcastsInDim ⟨2, ![1, b]⟩ ![1]) (q : Fin b) :
    broadcastInDim ⟨2, ![1, b]⟩ ![1] h x (ix2 (0 : Fin 1) q) = x (ix1 q) :=
  broadcastInDim_apply ![1] h x (ix2 (0 : Fin 1) q) (ix1 q) (fun c => by
    match c with
    | ⟨0, _⟩ =>
      show q.val = if b = 1 then 0 else q.val
      have := q.isLt
      split <;> omega)

/-- The host lays a column along every row: entry `(p, q)` is the column's entry `(p, 0)`. -/
theorem bcastCols_apply (x : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h x (ix2 p q) = x (ix2 p (0 : Fin 1)) :=
  broadcastInDim_apply ![0, 1] h x (ix2 p q) (ix2 p (0 : Fin 1)) (fun c => by
    match c with
    | ⟨0, _⟩ =>
      show p.val = if a = 1 then 0 else p.val
      have := p.isLt
      split <;> omega
    | ⟨1, _⟩ => rfl)

/-- The host lays a row down every column: entry `(p, q)` is the row's entry `(0, q)`. -/
theorem bcastRows_apply (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) :=
  broadcastInDim_apply ![0, 1] h x (ix2 p q) (ix2 (0 : Fin 1) q) (fun c => by
    match c with
    | ⟨0, _⟩ => rfl
    | ⟨1, _⟩ =>
      show q.val = if b = 1 then 0 else q.val
      have := q.isLt
      split <;> omega)

end Cert.LibColOps

end
-- ==== Proof.RefValue.lean ====
/-
  The reference's result, read at an index, is the specification's loss.

  Each stage of the result term is read at an index on the extended reals. A row gather with its index wrap, under the
  precondition that every row number lies in its table, keeps every gathered row and the row is the table's at the
  row number; the product of the gathered entity rows with the gathered matrices is the projection's sum over the 128
  input coordinates; a row divided by its floored length is the unit row; the reductions along a row are the sums over
  its 64 entries, the reductions over all rows the sums over the 16384 triples; the softplus's comparison of a value
  with itself is false on the extended reals, so the select takes the max-plus-log1p branch.
-/
import proofs.«211459_g87136296501727_cont_9to1_m_723_16_alg».proof.Proof.RefRun
import proofs.«211459_g87136296501727_cont_9to1_m_723_16_alg».proof.Proof.SpecArgs
import proofs.«211459_g87136296501727_cont_9to1_m_723_16_alg».proof.Proof.LibRefHost
import proofs.«211459_g87136296501727_cont_9to1_m_723_16_alg».proof.Proof.LibColOps

noncomputable section

namespace Cert.ReferenceIdeal.RefValue

open Cert.ReferenceIdeal Cert.ReferenceIdeal.Gen Cert.ReferenceIdeal.RefRun Idealize.ShloMosaic Idealize.ShloMosaic.ValueIdx
open Cert.HostGather Cert.LibRefHost Cert.LibColOps
open scoped BigOperators

/-! ## The row gathers -/

/-- A row number below 2^31 is not wrapped. -/
theorem wrapIdx_apply (N : BitVec 32) (idx : C Ideal S16384 .i32) (m : Fin 16384) (h : (idx (ix1 m)).toNat < 2 ^ 31) :
    wrapIdx (F := Ideal) N idx (ix2 m (0 : Fin 1)) = idx (ix1 m) := by
  unfold wrapIdx
  rw [bcastCol_apply]
  show Scalar.select (IntOp.cmpi .slt (idx (ix1 m)) 0#32) _ (idx (ix1 m)) = idx (ix1 m)
  rw [cmpi_slt_zero h, select_zero]

/-- The same at any index of the column. -/
theorem wrapIdx_apply' (N : BitVec 32) (idx : C Ideal S16384 .i32) (h : ∀ j, (idx j).toNat < 2 ^ 31) (k : S16384x1.Idx) :
    wrapIdx (F := Ideal) N idx k = idx (ix1 (k 0)) := by
  have h2 : (k 1).val < 1 := (k 1).isLt
  have h1 : k 1 = (⟨0, by decide⟩ : Fin 1) := Fin.ext (by show (k 1).val = 0; omega)
  have hk : k = ix2 (k 0) (0 : Fin 1) := (eq_ix2 k).trans (by rw [h1]; rfl)
  rw [hk]
  exact wrapIdx_apply N idx (k 0) (h _)

/-- Row numbers between 0 and `L` are all in range. -/
theorem inRange_apply (L : BitVec 32) (i : C Ideal S16384x1 .i32) (hL : L.toNat < 2 ^ 31)
    (h : ∀ k, (i k).toNat ≤ L.toNat) (j : S16384.Idx) : inRange (F := Ideal) L i j = 1#1 := by
  unfold inRange
  refine reduce_andi_one _ _ _ _ (fun k => ?_) (fun _ => rfl) j
  show IntOp.andi (IntOp.cmpi .sge (i k) 0#32) (IntOp.cmpi .sle (i k) L) = 1#1
  rw [cmpi_sge_zero (by have := h k; omega), cmpi_sle_of_le (h k) hL]
  rfl

/-- The row a start index selects is the specification's row number. -/
theorem rowSel_eq {N : ℕ} (hN : 0 < N) (hN' : N ≤ 2 ^ 31) (W : BitVec 32) (idx : C Ideal S16384 .i32) (h : ∀ j, (idx j).toNat < N)
    (m : Fin 16384) : rowSel hN (wrapIdx (F := Ideal) W idx) m = Cert.Spec.rowOf N hN (idx (ix1 m)) := by
  apply Fin.ext
  show min (wrapIdx (F := Ideal) W idx (ix2 m (0 : Fin 1))).toInt.toNat (N - 1) = (idx (ix1 m)).toNat % N
  have h1 := h (ix1 m)
  rw [wrapIdx_apply W idx m (by omega), toInt_of_lt (by omega), Int.toNat_natCast, Nat.mod_eq_of_lt h1]
  omega

/-- The gathered entity rows, under the precondition, are the table's rows at the row numbers. -/
theorem takeE_apply (x : C Ideal S100000x128 .f32) (idx : C Ideal S16384 .i32) (h : ∀ j, (idx j).toNat < 100000)
    (m : Fin 16384) (c : Fin 128) :
    takeE x idx (ix2 m c) = x (ix2 (Cert.Spec.rowOf 100000 (by decide) (idx (ix1 m))) c) := by
  have hc : broadcastInDim S16384x128 ![0] bcast_S16384_S16384x128_0
      (inRange (F := Ideal) 99999#32 (wrapIdx 100000#32 idx)) (ix2 m c) = 1#1 := by
    rw [broadcastInDim_apply ![0] _ _ (ix2 m c) (ix1 m) (fun a => by match a with | ⟨0, _⟩ => rfl)]
    refine inRange_apply _ _ (by decide) (fun k => ?_) _
    rw [wrapIdx_apply' _ _ (fun j => by have := h j; omega)]
    show _ ≤ 99999
    have := h (ix1 (k 0)); omega
  unfold takeE
  rw [select_apply, hc, select_one]
  refine (gather_rows_apply (N := 100000) (E := 16384) (C := 128) (by decide)
    gather_S100000x128_S16384x1_S16384x128_1_0_n_n_0_1_1128_wf x _ m c).trans ?_
  rw [rowSel_eq (by decide) (by decide) _ idx h m]

/-- The gathered relation rows likewise. -/
theorem takeR_apply (x : C Ideal S16x64 .f32) (idx : C Ideal S16384 .i32) (h : ∀ j, (idx j).toNat < 16)
    (m : Fin 16384) (c : Fin 64) :
    takeR x idx (ix2 m c) = x (ix2 (Cert.Spec.rowOf 16 (by decide) (idx (ix1 m))) c) := by
  have hc : broadcastInDim S16384x64 ![0] bcast_S16384_S16384x64_0
      (inRange (F := Ideal) 15#32 (wrapIdx 16#32 idx)) (ix2 m c) = 1#1 := by
    rw [broadcastInDim_apply ![0] _ _ (ix2 m c) (ix1 m) (fun a => by match a with | ⟨0, _⟩ => rfl)]
    refine inRange_apply _ _ (by decide) (fun k => ?_) _
    rw [wrapIdx_apply' _ _ (fun j => by have := h j; omega)]
    show _ ≤ 15
    have := h (ix1 (k 0)); omega
  unfold takeR
  rw [select_apply, hc, select_one]
  refine (gather_rows_apply (N := 16) (E := 16384) (C := 64) (by decide)
    gather_S16x64_S16384x1_S16384x64_1_0_n_n_0_1_164_wf x _ m c).trans ?_
  rw [rowSel_eq (by decide) (by decide) _ idx h m]

/-- The gathered projection matrices likewise. -/
theorem takeW_apply (x : C Ideal S16x128x64 .f32) (idx : C Ideal S16384 .i32) (h : ∀ j, (idx j).toNat < 16)
    (m : Fin 16384) (d : Fin 128) (c : Fin 64) :
    takeW x idx (ix3 m d c) = x (ix3 (Cert.Spec.rowOf 16 (by decide) (idx (ix1 m))) d c) := by
  have hc : broadcastInDim S16384x128x64 ![0] bcast_S16384_S16384x128x64_0
      (inRange (F := Ideal) 15#32 (wrapIdx 16#32 idx)) (ix3 m d c) = 1#1 := by
    rw [broadcastInDim_apply ![0] _ _ (ix3 m d c) (ix1 m) (fun a => by match a with | ⟨0, _⟩ => rfl)]
    refine inRange_apply _ _ (by decide) (fun k => ?_) _
    rw [wrapIdx_apply' _ _ (fun j => by have := h j; omega)]
    show _ ≤ 15
    have := h (ix1 (k 0)); omega
  unfold takeW
  rw [select_apply, hc, select_one]
  refine (gather_mats_apply (N := 16) (E := 16384) (A := 128) (B := 64) (by decide)
    gather_S16x128x64_S16384x1_S16384x128x64_12_0_n_n_0_1_112864_wf x _ m d c).trans ?_
  rw [rowSel_eq (by decide) (by decide) _ idx h m]

/-! ## The projection, the unit rows -/

/-- The rows of a 16384 x 64 array as a function of the row and the entry. -/
def rowsOf (y : C Ideal S16384x64 .f32) : Fin 16384 → Fin 64 → EReal := fun m e => y (ix2 m e)

/-- The projection at `(m, c)`: the sum over the 128 input coordinates. -/
theorem projOf_apply (e : C Ideal S16384x128 .f32) (w : C Ideal S16384x128x64 .f32) (m : Fin 16384) (c : Fin 64) :
    projOf e w (ix2 m c) = ∑ d : Fin 128, e (ix2 m d) * w (ix3 m d c) :=
  dotGeneral_rowmat_apply (M := 16384) (K := 128) (N := 64) dot_S16384x128_S16384x128x64_S16384x64_1_1_n_2_0_0_wf none e w m c

set_option maxRecDepth 16384 in
/-- The sum of a row's squares from the zero word. -/
theorem sqSum_apply (y : C Ideal S16384x64 .f32) (m : Fin 16384) :
    Host.reduceAdd (F := Ideal) (mulf (F := Ideal) y y) (constant (F := Ideal) S_ .f32 0x00000000#32)
        reducesTo_S16384x64_S16384_d1 h_S_ (ix1 m)
      = Cert.Spec.sq (rowsOf y) m := by
  rw [hostReduceAdd_row _ _ _ (by decide) _ m]
  show Ideal.ofBits .f32 0x00000000#32 + _ = _
  rw [Ideal.ofBits_zero_f32, zero_add]
  rfl

set_option maxRecDepth 16384 in
/-- The host's square root at an index. -/
theorem hostSqrt_apply {s : Shape} {φ : FTy} (x : FVec Ideal s φ) (i : s.Idx) : Host.sqrt x i = Ideal.sqrt (x i) := rfl

/-- A row divided by its floored length is the specification's unit row. -/
theorem normalize_apply (y : C Ideal S16384x64 .f32) (m : Fin 16384) (e : Fin 64) :
    RefRun.normalize y (ix2 m e) = Cert.Spec.unit (rowsOf y) m e := by
  unfold RefRun.normalize
  rw [hostDivf_apply, bcastCols_apply, maximumf_apply, broadcastInDim_scalar_apply]
  unfold normOf
  rw [hostSqrt_apply, bcastCol_apply, sqSum_apply]
  rfl

theorem rowsOf_normalize (y : C Ideal S16384x64 .f32) : rowsOf (RefRun.normalize y) = Cert.Spec.unit (rowsOf y) :=
  funext fun m => funext fun e => normalize_apply y m e

section Args

variable (a0 : C Ideal S100000x128 .f32) (a1 : C Ideal S16x64 .f32) (a2 : C Ideal S16x128x64 .f32)
  (a3 a4 a5 a6 : C Ideal S16384 .i32)

set_option maxRecDepth 16384 in
/-- The projected unit rows of the entities a vector of row numbers names are the specification's. -/
theorem rowsOf_hU (s : C Ideal S16384 .i32) (hs : ∀ j, (s j).toNat < 100000) (h4 : ∀ j, (a4 j).toNat < 16) :
    rowsOf (hU a0 a2 s a4)
      = Cert.Spec.unit (Cert.Spec.proj (Cert.Spec.argsOf a0 a1 a2 a3 a4 a5 a6)
          (fun m => Cert.Spec.rowOf 100000 (by decide) (s (ix1 m)))) := by
  unfold hU
  rw [rowsOf_normalize]
  refine congrArg Cert.Spec.unit ?_
  funext m e
  unfold rowsOf
  rw [projOf_apply]
  refine Finset.sum_congr rfl fun d _ => ?_
  rw [takeE_apply a0 s hs, takeW_apply a2 a4 h4]
  rfl

set_option maxRecDepth 16384 in
/-- The unit relation rows are the specification's. -/
theorem rowsOf_rU (h4 : ∀ j, (a4 j).toNat < 16) :
    rowsOf (rU a1 a4) = Cert.Spec.rv (Cert.Spec.argsOf a0 a1 a2 a3 a4 a5 a6) := by
  unfold rU
  rw [rowsOf_normalize]
  show _ = Cert.Spec.unit _
  refine congrArg Cert.Spec.unit ?_
  funext m e
  unfold rowsOf
  rw [takeR_apply a1 a4 h4]
  rfl

end Args

/-! ## The scores, the log-sigmoid, the means -/

set_option maxRecDepth 16384 in
/-- The squared distance at row `m`. -/
theorem sqDist_apply (h r t : C Ideal S16384x64 .f32) (m : Fin 16384) :
    sqDist h r t (ix2 m (0 : Fin 1))
      = ∑ e : Fin 64, (rowsOf h m e + rowsOf r m e - rowsOf t m e) * (rowsOf h m e + rowsOf r m e - rowsOf t m e) := by
  unfold sqDist
  rw [bcastCol_apply, hostReduceAdd_row _ _ _ (by decide) _ m]
  show Ideal.ofBits .f32 0x00000000#32 + _ = _
  rw [Ideal.ofBits_zero_f32, zero_add]
  rfl

set_option maxRecDepth 16384 in
/-- The log-sigmoid at an index: the comparison of a value with itself is false, so the select takes its last operand. -/
theorem logSigmoidOf_apply (x : C Ideal S16384x1 .f32) (k : S16384x1.Idx) :
    logSigmoidOf x k
      = -(max (-(x k)) Cert.Spec.w0
          + Ideal.log1p (Ideal.exp (-(max (-(x k) - Cert.Spec.w0) (-(-(x k) - Cert.Spec.w0)))))) := by
  unfold logSigmoidOf softplusOf
  show -(Scalar.select (Ideal.cmp .une (-(x k) - Cert.Spec.w0) (-(x k) - Cert.Spec.w0)) _ _) = _
  have hz : Ideal.cmp .une (-(x k) - Cert.Spec.w0) (-(x k) - Cert.Spec.w0) = 0#1 := by simp [Ideal.cmp]
  rw [hz, select_zero]
  rfl

set_option maxRecDepth 16384 in
/-- The mean of minus a column. -/
theorem meanNeg_apply (l : C Ideal S16384x1 .f32) (j : S_.Idx) :
    meanNeg l j = Ideal.div (∑ m : Fin 16384, Cert.Spec.wNeg1 * l (ix2 m (0 : Fin 1))) Cert.Spec.wM := by
  unfold meanNeg
  rw [hostDivf_apply, hostReduceAdd_apply, Ideal.hostReduceAdd_total _ (fun b => b.elim0), sum_idx2]
  show Ideal.div (Ideal.ofBits .f32 0x00000000#32 + _) _ = _
  rw [Ideal.ofBits_zero_f32, zero_add]
  refine congrArg (fun s => Ideal.div s Cert.Spec.wM) (Finset.sum_congr rfl fun m _ => ?_)
  rw [Fin.sum_univ_one]
  rfl

set_option maxRecDepth 16384 in
/-- Half a row's sum of squares. -/
theorem halfSq_apply (y : C Ideal S16384x64 .f32) (m : Fin 16384) :
    halfSq y (ix1 m) = Ideal.div (Cert.Spec.sq (rowsOf y) m) Cert.Spec.w2 := by
  unfold halfSq
  rw [hostDivf_apply, sqSum_apply]
  rfl

/-- A rank-1 index is its one coordinate, so a sum over rank-1 indices is the sum over the coordinate. -/
def idxEquiv1 {n : ℕ} : (⟨1, ![n]⟩ : Shape).Idx ≃ Fin n where
  toFun i := i 0
  invFun := ix1
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

set_option maxRecDepth 16384 in
/-- The sum of a vector from the zero word, divided by 16384. -/
theorem meanFrom_apply (x : C Ideal S16384 .f32) (j : S_.Idx) :
    meanFrom (F := Ideal) x (constant (F := Ideal) S_ .f32 0x00000000#32) j
      = Ideal.div (∑ m : Fin 16384, x (ix1 m)) Cert.Spec.wM := by
  unfold meanFrom
  rw [hostDivf_apply, hostReduceAdd_apply, Ideal.hostReduceAdd_total _ (fun b => b.elim0), sum_idx1]
  show Ideal.div (Ideal.ofBits .f32 0x00000000#32 + _) _ = _
  rw [Ideal.ofBits_zero_f32, zero_add]
  rfl

/-- The mean of half squared row lengths is the specification's. -/
theorem l2mean_apply (y : C Ideal S16384x64 .f32) (j : S_.Idx) : l2mean y j = Cert.Spec.l2Ref (rowsOf y) := by
  unfold l2mean
  rw [meanFrom_apply]
  unfold Cert.Spec.l2Ref
  exact congrArg (fun s => Ideal.div s Cert.Spec.wM) (Finset.sum_congr rfl fun m _ => halfSq_apply y m)

/-! ## The result -/

set_option maxRecDepth 16384 in
/-- Under the precondition on the row numbers, the reference's result is the specification's loss. -/
theorem res_eq (a0 : C Ideal S100000x128 .f32) (a1 : C Ideal S16x64 .f32) (a2 : C Ideal S16x128x64 .f32)
    (a3 a4 a5 a6 : C Ideal S16384 .i32) (hr : Cert.Spec.InRange a3 a4 a5 a6) :
    RefRun.res (F := Ideal) a0 a1 a2 a3 a4 a5 a6 = fun _ => Cert.Spec.lossRef (Cert.Spec.argsOf a0 a1 a2 a3 a4 a5 a6) := by
  funext j
  have hH : rowsOf (hU a0 a2 a3 a4) = Cert.Spec.hv (Cert.Spec.argsOf a0 a1 a2 a3 a4 a5 a6) :=
    rowsOf_hU a0 a1 a2 a3 a4 a5 a6 a3 hr.h hr.r
  have hP : rowsOf (hU a0 a2 a5 a4) = Cert.Spec.pv (Cert.Spec.argsOf a0 a1 a2 a3 a4 a5 a6) :=
    rowsOf_hU a0 a1 a2 a3 a4 a5 a6 a5 hr.p hr.r
  have hN : rowsOf (hU a0 a2 a6 a4) = Cert.Spec.nv (Cert.Spec.argsOf a0 a1 a2 a3 a4 a5 a6) :=
    rowsOf_hU a0 a1 a2 a3 a4 a5 a6 a6 hr.n hr.r
  have hR := rowsOf_rU a0 a1 a2 a3 a4 a5 a6 hr.r
  unfold res
  show meanNeg (F := Ideal) _ j + Cert.Spec.wReg * (((meanFrom (F := Ideal) _ _ j + l2mean (F := Ideal) _ j)
    + l2mean (F := Ideal) _ j) + l2mean (F := Ideal) _ j) = _
  rw [meanNeg_apply, l2mean_apply, l2mean_apply, l2mean_apply, meanFrom_apply]
  have hl2 : Ideal.div (∑ m : Fin 16384, halfSq (hU a0 a2 a3 a4) (ix1 m)) Cert.Spec.wM
      = Cert.Spec.l2Ref (rowsOf (hU a0 a2 a3 a4)) := by
    unfold Cert.Spec.l2Ref
    exact congrArg (fun s => Ideal.div s Cert.Spec.wM) (Finset.sum_congr rfl fun m _ => halfSq_apply _ m)
  rw [hl2, hH, hP, hN, hR]
  have hg : ∀ m : Fin 16384, gapOf (hU a0 a2 a3 a4) (rU a1 a4) (hU a0 a2 a5 a4) (hU a0 a2 a6 a4) (ix2 m (0 : Fin 1))
      = Cert.Spec.gap (Cert.Spec.argsOf a0 a1 a2 a3 a4 a5 a6) m := fun m => by
    unfold gapOf
    rw [subf_apply, sqDist_apply, sqDist_apply, hH, hP, hN, hR]
    rfl
  have hsum : (∑ m : Fin 16384, Cert.Spec.wNeg1
        * logSigmoidOf (gapOf (hU a0 a2 a3 a4) (rU a1 a4) (hU a0 a2 a5 a4) (hU a0 a2 a6 a4)) (ix2 m (0 : Fin 1)))
      = ∑ m : Fin 16384, Cert.Spec.liRef (Cert.Spec.argsOf a0 a1 a2 a3 a4 a5 a6) m :=
    Finset.sum_congr rfl fun m _ => by
      rw [logSigmoidOf_apply, hg m]
      rfl
  rw [hsum]
  rfl

end Cert.ReferenceIdeal.RefValue

end
-- ==== Proof.PreRanges.lean ====
/-
  The precondition's integer half, read back: a signed word between 0 and a table's last row number is, unsigned,
  below the table's height. The precondition is a conjunction of seven "all elements" reductions; the last four are
  about the four integer arrays, and each says, elementwise, (0 ≤ v) and (v ≤ top) as signed comparisons.
-/
import Idealize.ShloMosaic.Lib.ReduceAll
import proofs.«211459_g87136296501727_cont_9to1_m_723_16_alg».proof.Pre_input_domain
import proofs.«211459_g87136296501727_cont_9to1_m_723_16_alg».proof.Proof.Gen.Pre_input_domain
import proofs.«211459_g87136296501727_cont_9to1_m_723_16_alg».proof.Proof.SpecArgs

noncomputable section

namespace Cert.Spec

open Idealize.ShloMosaic Cert.Pre_input_domain

/-- The rank-0 shape has one index. -/
instance subsingleton_scalar_idx : Subsingleton S_.Idx := ⟨fun a b => funext fun d => d.elim0⟩

/-- A word with 0 ≤ v and v ≤ n as signed words, n below 2^31, is below n + 1 as an unsigned word. -/
theorem toNat_lt_of_signed_range (v : BitVec 32) (n : Nat) (hn : n < 2 ^ 31)
    (e : IntOp.andi (IntOp.cmpi .sge v 0#32) (IntOp.cmpi .sle v (BitVec.ofNat 32 n)) = 1#1) : v.toNat < n + 1 := by
  have ofBool_eq_one (p : Bool) : (BitVec.ofBool p = 1#1) ↔ p = true := by cases p <;> decide
  rw [IntOp.andi_eq_one] at e
  obtain ⟨e0, e1⟩ := e
  simp only [IntOp.cmpi, ofBool_eq_one, BitVec.sle_eq_decide, decide_eq_true_eq, BitVec.toInt_eq_toNat_cond,
    BitVec.toNat_ofNat, Nat.reducePow] at e0 e1
  have hv := v.isLt
  have hm : n % 4294967296 = n := Nat.mod_eq_of_lt (by omega)
  rw [hm] at e1
  simp only [Nat.zero_mod] at e0
  split at e0 <;> split at e1 <;> omega

/-- Under the precondition every integer argument word is a row number of its table. -/
theorem inRange_of_pre {F : FTy → Type} [FloatOps F] [Cert.Pre_input_domain.Facts]
    (a0 : FVec F S100000x128 .f32) (a1 : FVec F S16x64 .f32) (a2 : FVec F S16x128x64 .f32)
    (a3 a4 a5 a6 : IVec S16384 32)
    (h : Cert.Pre_input_domain.fn (F := F) a0 a1 a2 a3 a4 a5 a6 = fun _ => 1#1) : Cert.Spec.InRange a3 a4 a5 a6 := by
  have e := congrFun h ValueIdx.ix0
  dsimp only [Cert.Pre_input_domain.fn, Cert.Pre_input_domain.fn_part1, Cert.Pre_input_domain.fn_part2] at e
  simp only [andi, IntOp.andi_eq_one] at e
  obtain ⟨⟨⟨⟨-, h3⟩, h4⟩, h5⟩, h6⟩ := e
  refine ⟨fun j => ?_, fun j => ?_, fun j => ?_, fun j => ?_⟩
  · have := Host.reduce_andi_all _ _ _ _ _ h3 j
    exact toNat_lt_of_signed_range _ 99999 (by norm_num) this
  · have := Host.reduce_andi_all _ _ _ _ _ h4 j
    exact toNat_lt_of_signed_range _ 15 (by norm_num) this
  · have := Host.reduce_andi_all _ _ _ _ _ h5 j
    exact toNat_lt_of_signed_range _ 99999 (by norm_num) this
  · have := Host.reduce_andi_all _ _ _ _ _ h6 j
    exact toNat_lt_of_signed_range _ 99999 (by norm_num) this

end Cert.Spec

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.TcValue.lean ====
/-
  What the TensorCore body computes at one grid point is the specification's block share.

  The body's values are the generated payloads; here they are read at coordinates over the extended reals. The rows of
  a block are projected by a product with the flattened projection matrices, a column mask that keeps the 64 columns of
  the row's relation, and a product with a 0/1 matrix that folds the 1024 columns onto 64; relation rows come from a
  product with a one-hot matrix; every family of rows is scaled to unit length; the scores, the softplus of the gap and
  the sums of squares follow term by term.
-/
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws
import proofs.«211459_g87136296501727_cont_9to1_m_723_16_alg».proof.Proof.Gen.KernelIdeal.Skeleton
import proofs.«211459_g87136296501727_cont_9to1_m_723_16_alg».proof.Proof.Spec
import proofs.«211459_g87136296501727_cont_9to1_m_723_16_alg».proof.Proof.LibRowOps
import proofs.«211459_g87136296501727_cont_9to1_m_723_16_alg».proof.Proof.LibColOps

noncomputable section

namespace Cert.KernelIdeal.TcValue

open Idealize.ShloMosaic Idealize.ShloMosaic.ValueIdx Cert.KernelIdeal Cert.KernelIdeal.Gen

/-! ## Sums over a [1, a, b] array -/

/-- The indices of a [1, a, b] array are the pairs of its last two coordinates. -/
def idxEquiv1ab {a b : ℕ} : (⟨3, ![1, a, b]⟩ : Shape).Idx ≃ Fin a × Fin b where
  toFun i := (i 1, i 2)
  invFun p := ix3 (0 : Fin 1) p.1 p.2
  left_inv i := by
    funext c
    match c with
    | ⟨0, h⟩ =>
      apply Fin.ext
      have h1 : (i ⟨0, h⟩).val < 1 := (i ⟨0, h⟩).isLt
      show (0 : ℕ) = (i ⟨0, h⟩).val
      omega
    | ⟨1, _⟩ => rfl
    | ⟨2, _⟩ => rfl
  right_inv _ := rfl

theorem sum_idx_1ab {M : Type*} [AddCommMonoid M] {a b : ℕ} (f : (⟨3, ![1, a, b]⟩ : Shape).Idx → M) :
    ∑ i, f i = ∑ p : Fin a, ∑ q : Fin b, f (ix3 (0 : Fin 1) p q) := by
  rw [← Equiv.sum_comp (idxEquiv1ab (a := a) (b := b)).symm f, Fintype.sum_prod_type]
  rfl

/-- The sum of all entries of an [a, b] array as the body takes it: the array cast to [1, a, b], reduced over its last
    two axes into [1], cast to [1, 1, 1], the entry at (0, 0, 0). -/
theorem total_apply {a b : ℕ} (x : FVec Ideal ⟨2, ![a, b]⟩ .f32) (hc : (⟨2, ![a, b]⟩ : Shape).ShapeCasts ⟨3, ![1, a, b]⟩)
    (hr : (⟨3, ![1, a, b]⟩ : Shape).Reduces [(1 : Fin 3), (2 : Fin 3)] ⟨1, ![1]⟩) (hφ : FKind.Formats .f32)
    (hacc : (0x00000000#32 : BitVec 32) = FKind.add.neutral .f32 hφ)
    (hc' : (⟨1, ![1]⟩ : Shape).ShapeCasts ⟨3, ![1, 1, 1]⟩)
    (hp : ∀ c, (![0, 0, 0] : Fin 3 → ℕ) c < (⟨3, ![1, 1, 1]⟩ : Shape).size c) :
    extractAt ![0, 0, 0] (shapeCast ⟨3, ![1, 1, 1]⟩
        (multiReduction .add [(1 : Fin 3), (2 : Fin 3)] ⟨1, ![1]⟩ (shapeCast ⟨3, ![1, a, b]⟩ x hc) 0x00000000#32 hr hφ hacc) hc') hp
      = ∑ p : Fin a, ∑ q : Fin b, x (ix2 p q) := by
  refine (Ideal.multiReduction_add_total (shapeCast ⟨3, ![1, a, b]⟩ x hc) 0x00000000#32 hr
    (fun c => by match c with | ⟨0, _⟩ => rfl) hφ hacc _).trans ?_
  rw [sum_idx_1ab]
  exact Finset.sum_congr rfl fun p _ => Finset.sum_congr rfl fun q _ => shapeCast_ab_1ab_apply x hc 0 p q

/-! ## Rows scaled to unit length -/

/-- Each row of a [1024, 64] array divided by its length, the length floored at the small constant: the body's spelling. -/
def normRows (x : FVec Ideal S1024x64 .f32) : FVec Ideal S1024x64 .f32 :=
  divf x (broadcastTo S1024x64
    (maximumf
      (sqrt (shapeCast S1024x1 (multiReduction .add [1] S1024 (mulf x x) 0x00000000#32 reduces_S1024x64_S1024 (.inl rfl) rfl)
        shapeCasts_S1024_S1024x1))
      (broadcast S1024x1 (Scalar.ofBits .f32 0x2B8CBCCC#32)))
    broadcasts_S1024x1_S1024x64)

theorem rowSum_apply (y : FVec Ideal S1024x64 .f32) (k : Fin 1024) :
    shapeCast S1024x1 (multiReduction .add [1] S1024 y 0x00000000#32 reduces_S1024x64_S1024 (.inl rfl) rfl)
        shapeCasts_S1024_S1024x1 (ix2 k (0 : Fin 1))
      = ∑ e : Fin 64, y (ix2 k e) :=
  (Cert.LibColOps.shapeCast_col_apply _ _ k).trans (Cert.LibColOps.multiReduction_row y _ _ _ _ k)

theorem normRows_apply (x : FVec Ideal S1024x64 .f32) (k : Fin 1024) (e : Fin 64) :
    normRows x (ix2 k e)
      = Ideal.div (x (ix2 k e)) (max (Ideal.sqrt (∑ e' : Fin 64, x (ix2 k e') * x (ix2 k e'))) Cert.Spec.tiny) := by
  unfold normRows
  rw [divf_apply, Cert.LibColOps.broadcastTo_col_apply]
  show Ideal.div _ (max (Ideal.sqrt (shapeCast S1024x1 _ _ (ix2 k (0 : Fin 1)))) Cert.Spec.tiny) = _
  rw [rowSum_apply]
  rfl

/-- The sum of the squares of all entries of a [1024, 64] array, the body's spelling. -/
def sumSq (x : FVec Ideal S1024x64 .f32) : Ideal .f32 :=
  extractAt ![0, 0, 0] (shapeCast S1x1x1
    (multiReduction .add [1, 2] S1 (shapeCast S1x1024x64 (mulf x x) shapeCasts_S1024x64_S1x1024x64) 0x00000000#32
      reduces_S1x1024x64_S1 (.inl rfl) rfl) shapeCasts_S1_S1x1x1) inpos_S1x1x1_p0_0_0

theorem sumSq_eq (x : FVec Ideal S1024x64 .f32) :
    sumSq x = ∑ k : Fin 1024, ∑ e : Fin 64, x (ix2 k e) * x (ix2 k e) :=
  total_apply (mulf x x) _ _ _ _ _ _

/-- The sum of the entries of a [1024, 1] column, the body's spelling. -/
def sumCol (x : FVec Ideal S1024x1 .f32) : Ideal .f32 :=
  extractAt ![0, 0, 0] (shapeCast S1x1x1
    (multiReduction .add [1, 2] S1 (shapeCast S1x1024x1 x shapeCasts_S1024x1_S1x1024x1) 0x00000000#32
      reduces_S1x1024x1_S1 (.inl rfl) rfl) shapeCasts_S1_S1x1x1) inpos_S1x1x1_p0_0_0

theorem sumCol_eq (x : FVec Ideal S1024x1 .f32) : sumCol x = ∑ k : Fin 1024, x (ix2 k (0 : Fin 1)) := by
  refine (total_apply x _ _ _ _ _ _).trans ?_
  exact Finset.sum_congr rfl fun k _ => Fin.sum_univ_one _

/-! ## Integer words: the column's block number and the one-hot comparison -/

/-- The body's floor division of a column number by 64: the truncated quotient, less one where the signs differ and the
    remainder is not zero. -/
def colBlock (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

/-- On the column numbers below 1024 it is the quotient by 64. -/
theorem colBlock_ofNat : ∀ c : Fin 1024, colBlock (BitVec.ofNat 32 c.val) = BitVec.ofNat 32 (c.val / 64) := by
  decide +kernel

theorem mask_iff : ∀ (c : Fin 1024) (r : Fin 16),
    IntOp.cmpi .eq (BitVec.ofNat 32 (c.val / 64)) (BitVec.ofNat 32 r.val) = 1#1 ↔ c.val / 64 = r.val := by
  decide +kernel

theorem onehot_word : ∀ (r ρ : Fin 16),
    IntOp.cmpi .eq (BitVec.ofNat 32 r.val) (BitVec.ofNat 32 ρ.val) = if r = ρ then 1#1 else 0#1 := by
  decide +kernel

theorem sitofp_one : FloatOps.sitofp (F := Ideal) .f32 ((1#1 : BitVec 1).setWidth 32) = (1 : EReal) := by
  show (((((1#1 : BitVec 1).setWidth 32).toInt : ℤ) : ℝ) : EReal) = 1
  have h : ((1#1 : BitVec 1).setWidth 32).toInt = 1 := by decide
  rw [h]; simp

theorem sitofp_zero : FloatOps.sitofp (F := Ideal) .f32 ((0#1 : BitVec 1).setWidth 32) = (0 : EReal) := by
  show (((((0#1 : BitVec 1).setWidth 32).toInt : ℤ) : ℝ) : EReal) = 0
  have h : ((0#1 : BitVec 1).setWidth 32).toInt = 0 := by decide
  rw [h]; simp

theorem iota1024_apply (k col : Fin 1024) :
    iota .tc S1024x1024 32 [1] iota_S1024x1024_d1_w32 (ix2 k col) = BitVec.ofNat 32 col.val := by
  show BitVec.ofNat 32 (0 * 1024 + col.val) = _
  rw [Nat.zero_mul, Nat.zero_add]

theorem iota16_apply (k : Fin 1024) (ρ : Fin 16) :
    iota .tc S1024x16 32 [1] iota_S1024x16_d1_w32 (ix2 k ρ) = BitVec.ofNat 32 ρ.val := by
  show BitVec.ofNat 32 (0 * 16 + ρ.val) = _
  rw [Nat.zero_mul, Nat.zero_add]

/-! ## The column mask -/

theorem pay5_apply (v0 : Vec Ideal S1024x1 .i32) (k col : Fin 1024) :
    k2_pay5 (F := Ideal) v0 (ix2 k col)
      = IntOp.cmpi .eq (colBlock (iota .tc S1024x1024 32 [1] iota_S1024x1024_d1_w32 (ix2 k col)))
          (broadcastTo S1024x1024 (k2_pay2 (F := Ideal) v0) broadcasts_S1024x1_S1024x1024 (ix2 k col)) := rfl

/-- The mask is set at (k, col) exactly when column col lies in the 64 columns of row k's relation. -/
theorem mask_apply (v0 : Vec Ideal S1024x1 .i32) (r : Fin 16) (k col : Fin 1024)
    (h0 : v0 (ix2 k (0 : Fin 1)) = BitVec.ofNat 32 r.val) :
    k2_pay5 (F := Ideal) v0 (ix2 k col) = 1#1 ↔ col.val / 64 = r.val := by
  rw [pay5_apply, iota1024_apply, colBlock_ofNat, Cert.LibColOps.broadcastTo_col_apply]
  unfold k2_pay2
  rw [shapeCast_self, h0]
  exact mask_iff col r

/-! ## The two matrix products of the projection -/

theorem mm1_apply (X : FVec Ideal S1024x128 .bf16) (Y : FVec Ideal S128x1024 .bf16) (k col : Fin 1024) :
    matmul dot_S1024x128_S128x1024_S1024x1024_1_0_0_1_n_n none X Y (constant (F := Ideal) S1024x1024 .f32 0x00000000#32) (ix2 k col)
      = ∑ d : Fin 128, X (ix2 k d) * Y (ix2 d col) :=
  Cert.KernelBody.matmul_plain_zero_apply _ none X Y k col

theorem mm2_apply (X : FVec Ideal S1024x1024 .bf16) (Y : FVec Ideal S1024x64 .bf16) (k : Fin 1024) (e : Fin 64) :
    matmul dot_S1024x1024_S1024x64_S1024x64_1_0_0_1_n_n none X Y (constant (F := Ideal) S1024x64 .f32 0x00000000#32) (ix2 k e)
      = ∑ col : Fin 1024, X (ix2 k col) * Y (ix2 col e) :=
  Cert.KernelBody.matmul_plain_zero_apply _ none X Y k e

theorem mm3_apply (X : FVec Ideal S1024x16 .f32) (Y : FVec Ideal S16x64 .f32) (k : Fin 1024) (e : Fin 64) :
    matmul dot_S1024x16_S16x64_S1024x64_1_0_0_1_n_n none X Y (constant (F := Ideal) S1024x64 .f32 0x00000000#32) (ix2 k e)
      = ∑ ρ : Fin 16, X (ix2 k ρ) * Y (ix2 ρ e) :=
  Cert.KernelBody.matmul_plain_zero_apply _ none X Y k e

/-- A slab of gathered rows times the flattened projection matrices, masked to the columns of each row's relation. -/
def maskedProd (v0 : Vec Ideal S1024x1 .i32) (v2 : Vec Ideal S128x1024 .f32) (slab : Vec Ideal S1x1024x128 .f32) :
    FVec Ideal S1024x1024 .bf16 :=
  truncf .bf16 (select (k2_pay5 (F := Ideal) v0)
    (matmul dot_S1024x128_S128x1024_S1024x1024_1_0_0_1_n_n none
      (truncf .bf16 (shapeCast S1024x128 slab shapeCasts_S1x1024x128_S1024x128) bitsLt_bf16_f32) (k2_pay3 (F := Ideal) v2)
      (constant S1024x1024 .f32 0x00000000#32))
    (broadcast S1024x1024 (Scalar.ofBits .f32 0x00000000#32))) bitsLt_bf16_f32

theorem pay6_eq (v0 : Vec Ideal S1024x1 .i32) (v2 : Vec Ideal S128x1024 .f32) (v34 : Vec Ideal S1x1024x128 .f32) :
    k2_pay6 (F := Ideal) v0 v2 v34 = maskedProd v0 v2 v34 := rfl

theorem maskedProd_apply (v0 : Vec Ideal S1024x1 .i32) (v2 : Vec Ideal S128x1024 .f32) (slab : Vec Ideal S1x1024x128 .f32)
    (k col : Fin 1024) :
    maskedProd v0 v2 slab (ix2 k col)
      = if k2_pay5 (F := Ideal) v0 (ix2 k col) = 1#1 then ∑ d : Fin 128, slab (ix3 (0 : Fin 1) k d) * v2 (ix2 d col) else 0 := by
  show Scalar.select (k2_pay5 (F := Ideal) v0 (ix2 k col)) (matmul _ none _ _ _ (ix2 k col)) (Ideal.ofBits .f32 0x00000000#32) = _
  unfold Scalar.select
  rw [mm1_apply, Ideal.ofBits_zero_f32]
  refine if_congr Iff.rfl (Finset.sum_congr rfl fun d _ => ?_) rfl
  show shapeCast S1024x128 slab _ (ix2 k d) * shapeCast S128x1024 v2 _ (ix2 d col) = _
  rw [shapeCast_1ab_ab_apply, shapeCast_self]

/-- The rows of a slab projected into their relations' spaces, the body's spelling. -/
def projRows (v0 : Vec Ideal S1024x1 .i32) (v2 : Vec Ideal S128x1024 .f32) (v5 : Vec Ideal S1024x64 .bf16)
    (slab : Vec Ideal S1x1024x128 .f32) : FVec Ideal S1024x64 .f32 :=
  matmul dot_S1024x1024_S1024x64_S1024x64_1_0_0_1_n_n none (maskedProd v0 v2 slab) (k2_pay4 (F := Ideal) v5)
    (constant S1024x64 .f32 0x00000000#32)

theorem pay7_eq (v0 : Vec Ideal S1024x1 .i32) (v2 : Vec Ideal S128x1024 .f32) (v5 : Vec Ideal S1024x64 .bf16)
    (v34 : Vec Ideal S1x1024x128 .f32) :
    k2_pay7 (F := Ideal) (k2_pay4 v5) (k2_pay6 v0 v2 v34) = normRows (projRows v0 v2 v5 v34) := rfl

theorem pay8_eq (v0 : Vec Ideal S1024x1 .i32) (v2 : Vec Ideal S128x1024 .f32) (v5 : Vec Ideal S1024x64 .bf16)
    (v50 : Vec Ideal S1x1024x128 .f32) :
    k2_pay8 (F := Ideal) (k2_pay3 v2) (k2_pay4 v5) (k2_pay5 v0) v50 = normRows (projRows v0 v2 v5 v50) := rfl

theorem pay9_eq (v0 : Vec Ideal S1024x1 .i32) (v2 : Vec Ideal S128x1024 .f32) (v5 : Vec Ideal S1024x64 .bf16)
    (v66 : Vec Ideal S1x1024x128 .f32) :
    k2_pay9 (F := Ideal) (k2_pay3 v2) (k2_pay4 v5) (k2_pay5 v0) v66 = normRows (projRows v0 v2 v5 v66) := rfl

/-! ## The projection read at a row -/

theorem projRows_apply (A : Cert.Spec.Args) (b : Fin 16) (sel : Fin 16384 → Fin 100000)
    (v0 : Vec Ideal S1024x1 .i32) (v2 : Vec Ideal S128x1024 .f32) (v5 : Vec Ideal S1024x64 .bf16)
    (slab : Vec Ideal S1x1024x128 .f32)
    (h0 : ∀ k : Fin 1024, v0 (ix2 k (0 : Fin 1)) = BitVec.ofNat 32 (A.r (Cert.Spec.row b k)).val)
    (h2 : ∀ (d : Fin 128) (ρ : Fin 16) (e : Fin 64), v2 (ix2 d (⟨64 * ρ.val + e.val, by omega⟩ : Fin 1024)) = A.W ρ d e)
    (h5 : ∀ (col : Fin 1024) (e : Fin 64), v5 (ix2 col e) = if col.val % 64 = e.val then (1 : EReal) else 0)
    (hs : ∀ (k : Fin 1024) (d : Fin 128), slab (ix3 (0 : Fin 1) k d) = A.E (sel (Cert.Spec.row b k)) d)
    (k : Fin 1024) (e : Fin 64) :
    projRows v0 v2 v5 slab (ix2 k e) = Cert.Spec.proj A sel (Cert.Spec.row b k) e := by
  unfold projRows
  rw [mm2_apply]
  have hterm : ∀ col : Fin 1024, maskedProd v0 v2 slab (ix2 k col) * k2_pay4 (F := Ideal) v5 (ix2 col e)
      = (if col.val / 64 = (A.r (Cert.Spec.row b k)).val
          then ∑ d : Fin 128, A.E (sel (Cert.Spec.row b k)) d * v2 (ix2 d col) else 0)
        * (if col.val % 64 = e.val then (1 : EReal) else 0) := by
    intro col
    rw [maskedProd_apply]
    unfold k2_pay4
    rw [shapeCast_self, h5]
    refine congrArg (· * _) ?_
    exact if_congr (mask_apply v0 _ k col (h0 k)) (Finset.sum_congr rfl fun d _ => by rw [hs]) rfl
  rw [Finset.sum_congr rfl fun col _ => hterm col]
  rw [Finset.sum_eq_single (⟨64 * (A.r (Cert.Spec.row b k)).val + e.val, by omega⟩ : Fin 1024)]
  · have h1 : (64 * (A.r (Cert.Spec.row b k)).val + e.val) / 64 = (A.r (Cert.Spec.row b k)).val := by omega
    have h2' : (64 * (A.r (Cert.Spec.row b k)).val + e.val) % 64 = e.val := by omega
    dsimp only
    rw [if_pos h1, if_pos h2', mul_one]
    unfold Cert.Spec.proj
    exact Finset.sum_congr rfl fun d _ => by rw [h2]
  · intro col _ hne
    by_cases h1 : col.val / 64 = (A.r (Cert.Spec.row b k)).val
    · by_cases h2' : col.val % 64 = e.val
      · exact absurd (Fin.ext (by show col.val = 64 * (A.r (Cert.Spec.row b k)).val + e.val; omega)) hne
      · rw [if_neg h2', mul_zero]
    · rw [if_neg h1, zero_mul]
  · intro h; exact absurd (Finset.mem_univ _) h

/-! ## Relation rows by a one-hot product -/

/-- The one-hot matrix of the rows' relation numbers: 1 at (k, ρ) when row k's relation is ρ. -/
def oneHotRel (v1 : IVec S1024x1 32) : FVec Ideal S1024x16 .f32 :=
  sitofp .f32 (extui 32 (cmpi .eq (broadcastTo S1024x16 v1 broadcasts_S1024x1_S1024x16)
    (iota .tc S1024x16 32 [1] iota_S1024x16_d1_w32)) natLt_1_32)

/-- The relation table's rows picked by the one-hot product. -/
def relRows (v1 : IVec S1024x1 32) (v87 : FVec Ideal S16x64 .f32) : FVec Ideal S1024x64 .f32 :=
  matmul dot_S1024x16_S16x64_S1024x64_1_0_0_1_n_n none (oneHotRel v1) v87 (constant S1024x64 .f32 0x00000000#32)

theorem pay10_eq (v1 : IVec S1024x1 32) (v87 : FVec Ideal S16x64 .f32) :
    k2_pay10 (F := Ideal) v1 v87 = normRows (relRows v1 v87) := rfl

theorem oneHotRel_apply (v1 : IVec S1024x1 32) (r : Fin 16) (k : Fin 1024) (ρ : Fin 16)
    (h : v1 (ix2 k (0 : Fin 1)) = BitVec.ofNat 32 r.val) :
    oneHotRel v1 (ix2 k ρ) = if r = ρ then (1 : EReal) else 0 := by
  show FloatOps.sitofp (F := Ideal) .f32 ((IntOp.cmpi .eq (broadcastTo S1024x16 v1 _ (ix2 k ρ))
    (iota .tc S1024x16 32 [1] _ (ix2 k ρ))).setWidth 32) = _
  rw [Cert.LibColOps.broadcastTo_col_apply, h, iota16_apply, onehot_word]
  split_ifs
  · exact sitofp_one
  · exact sitofp_zero

theorem relRows_apply (A : Cert.Spec.Args) (b : Fin 16) (v1 : IVec S1024x1 32) (v87 : FVec Ideal S16x64 .f32)
    (h1 : ∀ k : Fin 1024, v1 (ix2 k (0 : Fin 1)) = BitVec.ofNat 32 (A.r (Cert.Spec.row b k)).val)
    (h87 : ∀ (ρ : Fin 16) (e : Fin 64), v87 (ix2 ρ e) = A.R ρ e) (k : Fin 1024) (e : Fin 64) :
    relRows v1 v87 (ix2 k e) = A.R (A.r (Cert.Spec.row b k)) e := by
  unfold relRows
  rw [mm3_apply, Finset.sum_eq_single (A.r (Cert.Spec.row b k))]
  · rw [oneHotRel_apply v1 _ k _ (h1 k), if_pos rfl, one_mul, h87]
  · intro ρ _ hne
    rw [oneHotRel_apply v1 _ k _ (h1 k), if_neg (Ne.symm hne), zero_mul]
  · intro h; exact absurd (Finset.mem_univ _) h

/-- Rows that read a family `y` at the block's rows, scaled, read the family's unit rows. -/
theorem unitRows_apply (x : FVec Ideal S1024x64 .f32) (y : Fin 16384 → Fin 64 → EReal) (b : Fin 16)
    (hx : ∀ (k : Fin 1024) (e : Fin 64), x (ix2 k e) = y (Cert.Spec.row b k) e) (k : Fin 1024) (e : Fin 64) :
    normRows x (ix2 k e) = Cert.Spec.unit y (Cert.Spec.row b k) e := by
  rw [normRows_apply, hx k e,
    show (∑ e' : Fin 64, x (ix2 k e') * x (ix2 k e'))
        = ∑ e' : Fin 64, y (Cert.Spec.row b k) e' * y (Cert.Spec.row b k) e' from
      Finset.sum_congr rfl fun e' _ => by rw [hx k e']]
  rfl

/-! ## Scores, the softplus of the gap, and the share -/

/-- The squared distance of each row of `u` from the same row of `t`, as a column. -/
def rowDist2 (u t : FVec Ideal S1024x64 .f32) : FVec Ideal S1024x1 .f32 :=
  shapeCast S1024x1 (multiReduction .add [1] S1024 (mulf (subf u t) (subf u t)) 0x00000000#32 reduces_S1024x64_S1024
    (.inl rfl) rfl) shapeCasts_S1024_S1024x1

theorem rowDist2_apply (u t : FVec Ideal S1024x64 .f32) (k : Fin 1024) :
    rowDist2 u t (ix2 k (0 : Fin 1))
      = ∑ e : Fin 64, (u (ix2 k e) - t (ix2 k e)) * (u (ix2 k e) - t (ix2 k e)) := by
  unfold rowDist2
  rw [rowSum_apply]
  rfl

/-- The body's softplus of minus the gap. -/
def softplusNeg (g : FVec Ideal S1024x1 .f32) : FVec Ideal S1024x1 .f32 :=
  addf (maximumf (subf (broadcast S1024x1 (Scalar.ofBits .f32 0x00000000#32)) g)
      (broadcast S1024x1 (Scalar.ofBits .f32 0x00000000#32)))
    (log (addf (broadcast S1024x1 (Scalar.ofBits .f32 0x3F800000#32))
      (exp (subf (broadcast S1024x1 (Scalar.ofBits .f32 0x00000000#32)) (absf g)))))

theorem softplusNeg_apply (g : FVec Ideal S1024x1 .f32) (j : S1024x1.Idx) :
    softplusNeg g j = max (Cert.Spec.w0 - g j) Cert.Spec.w0
      + Ideal.log (Cert.Spec.w1 + Ideal.exp (Cert.Spec.w0 - max (g j) (-(g j)))) := rfl

theorem pay11_eq (v1 : IVec S1024x1 32) (v49 v65 v81 : FVec Ideal S1024x64 .f32) (v87 : FVec Ideal S16x64 .f32) :
    k2_pay11 (F := Ideal) v1 v49 v65 v81 v87
      = softplusNeg (subf (rowDist2 (addf v49 (k2_pay10 v1 v87)) v81) (rowDist2 (addf v49 (k2_pay10 v1 v87)) v65)) := rfl

theorem pay12_eq (v49 : FVec Ideal S1024x64 .f32) : k2_pay12 (F := Ideal) v49 = sumSq v49 := rfl

theorem pay13_eq (v1 : IVec S1024x1 32) (v87 : FVec Ideal S16x64 .f32) :
    extractAt ![0, 0, 0] (k2_pay13 (F := Ideal) v1 v87) inpos_S1x1x1_p0_0_0 = sumSq (k2_pay10 v1 v87) := rfl

/-- The block's share from its softplus column and its four sums of squares, the body's spelling. -/
def share (li : FVec Ideal S1024x1 .f32) (sH sR sP sN : Ideal .f32) : Ideal .f32 :=
  Scalar.mulf (Scalar.addf (sumCol li) (Scalar.mulf (Scalar.ofBits .f32 0x3C23D70A#32)
    (Scalar.mulf (Scalar.ofBits .f32 0x3F000000#32) (Scalar.addf (Scalar.addf (Scalar.addf sH sR) sP) sN))))
    (Scalar.ofBits .f32 0x38800000#32)

theorem share_eq (li : FVec Ideal S1024x1 .f32) (sH sR sP sN : Ideal .f32) :
    share li sH sR sP sN
      = (sumCol li + Cert.Spec.wReg * (Cert.Spec.wHalf * (((sH + sR) + sP) + sN))) * Cert.Spec.wInvM := rfl

theorem pay1_eq (arg0 : BitVec 32) (v65 v81 : FVec Ideal S1024x64 .f32) (v119 : FVec Ideal S1024x1 .f32) (v124 : Ideal .f32)
    (v128 : FVec Ideal S1x1x1 .f32) (v153 : Vec Ideal S1x1 .f32) :
    k2_pay1 (F := Ideal) arg0 v65 v81 v119 v124 v128 v153
      = Scalar.select (Scalar.cmpi .eq arg0 0#32)
          (broadcast S1x1 (share v119 v124 (extractAt ![0, 0, 0] v128 inpos_S1x1x1_p0_0_0) (sumSq v65) (sumSq v81)))
          (addf (shapeCast S1x1 v153 shapeCasts_S1x1_S1x1)
            (broadcast S1x1 (share v119 v124 (extractAt ![0, 0, 0] v128 inpos_S1x1x1_p0_0_0) (sumSq v65) (sumSq v81)))) := rfl

/-! ## The payload chain is the block's share -/

section Chain

variable (A : Cert.Spec.Args) (b : Fin 16)
  (v0 : Vec Ideal S1024x1 .i32) (v2 : Vec Ideal S128x1024 .f32) (v5 : Vec Ideal S1024x64 .bf16)
  (v34 v50 v66 : Vec Ideal S1x1024x128 .f32) (v87 : FVec Ideal S16x64 .f32)

/-- What the loaded blocks hold, read at coordinates: the relation numbers of the block's rows, the flattened projection
    matrices, the 0/1 matrix that folds column c onto c mod 64, the three slabs of gathered entity rows (heads, positive
    tails, negative tails) and the relation table. -/
structure Blocks : Prop where
  r : ∀ k : Fin 1024, v0 (ix2 k (0 : Fin 1)) = BitVec.ofNat 32 (A.r (Cert.Spec.row b k)).val
  w : ∀ (d : Fin 128) (ρ : Fin 16) (e : Fin 64), v2 (ix2 d (⟨64 * ρ.val + e.val, by omega⟩ : Fin 1024)) = A.W ρ d e
  g : ∀ (col : Fin 1024) (e : Fin 64), v5 (ix2 col e) = if col.val % 64 = e.val then (1 : EReal) else 0
  h : ∀ (k : Fin 1024) (d : Fin 128), v34 (ix3 (0 : Fin 1) k d) = A.E (A.h (Cert.Spec.row b k)) d
  p : ∀ (k : Fin 1024) (d : Fin 128), v50 (ix3 (0 : Fin 1) k d) = A.E (A.p (Cert.Spec.row b k)) d
  n : ∀ (k : Fin 1024) (d : Fin 128), v66 (ix3 (0 : Fin 1) k d) = A.E (A.n (Cert.Spec.row b k)) d
  rel : ∀ (ρ : Fin 16) (e : Fin 64), v87 (ix2 ρ e) = A.R ρ e

variable {A b v0 v2 v5 v34 v50 v66 v87}
variable (H : Blocks A b v0 v2 v5 v34 v50 v66 v87)
include H

theorem hv_apply (k : Fin 1024) (e : Fin 64) :
    normRows (projRows v0 v2 v5 v34) (ix2 k e) = Cert.Spec.hv A (Cert.Spec.row b k) e :=
  unitRows_apply _ (Cert.Spec.proj A A.h) b (projRows_apply A b A.h v0 v2 v5 v34 H.r H.w H.g H.h) k e

theorem pv_apply (k : Fin 1024) (e : Fin 64) :
    normRows (projRows v0 v2 v5 v50) (ix2 k e) = Cert.Spec.pv A (Cert.Spec.row b k) e :=
  unitRows_apply _ (Cert.Spec.proj A A.p) b (projRows_apply A b A.p v0 v2 v5 v50 H.r H.w H.g H.p) k e

theorem nv_apply (k : Fin 1024) (e : Fin 64) :
    normRows (projRows v0 v2 v5 v66) (ix2 k e) = Cert.Spec.nv A (Cert.Spec.row b k) e :=
  unitRows_apply _ (Cert.Spec.proj A A.n) b (projRows_apply A b A.n v0 v2 v5 v66 H.r H.w H.g H.n) k e

theorem rv_apply (k : Fin 1024) (e : Fin 64) :
    normRows (relRows (k2_pay2 (F := Ideal) v0) v87) (ix2 k e) = Cert.Spec.rv A (Cert.Spec.row b k) e :=
  unitRows_apply _ (fun m e => A.R (A.r m) e) b
    (relRows_apply A b _ v87 (fun k => by unfold k2_pay2; rw [shapeCast_self]; exact H.r k) H.rel) k e

theorem dist_apply (T : FVec Ideal S1024x64 .f32) (t : Fin 16384 → Fin 64 → EReal)
    (hT : ∀ (k : Fin 1024) (e : Fin 64), T (ix2 k e) = t (Cert.Spec.row b k) e) (k : Fin 1024) :
    rowDist2 (addf (normRows (projRows v0 v2 v5 v34)) (normRows (relRows (k2_pay2 (F := Ideal) v0) v87))) T (ix2 k (0 : Fin 1))
      = Cert.Spec.score A t (Cert.Spec.row b k) := by
  rw [rowDist2_apply]
  unfold Cert.Spec.score
  refine Finset.sum_congr rfl fun e _ => ?_
  rw [addf_apply, hv_apply H, rv_apply H, hT]

theorem li_apply (k : Fin 1024) :
    softplusNeg (subf
        (rowDist2 (addf (normRows (projRows v0 v2 v5 v34)) (normRows (relRows (k2_pay2 (F := Ideal) v0) v87)))
          (normRows (projRows v0 v2 v5 v66)))
        (rowDist2 (addf (normRows (projRows v0 v2 v5 v34)) (normRows (relRows (k2_pay2 (F := Ideal) v0) v87)))
          (normRows (projRows v0 v2 v5 v50)))) (ix2 k (0 : Fin 1))
      = Cert.Spec.liKer A (Cert.Spec.row b k) := by
  rw [softplusNeg_apply, subf_apply, dist_apply H _ (Cert.Spec.nv A) (nv_apply H), dist_apply H _ (Cert.Spec.pv A) (pv_apply H)]
  rfl

theorem share_chain :
    share (softplusNeg (subf
        (rowDist2 (addf (normRows (projRows v0 v2 v5 v34)) (normRows (relRows (k2_pay2 (F := Ideal) v0) v87)))
          (normRows (projRows v0 v2 v5 v66)))
        (rowDist2 (addf (normRows (projRows v0 v2 v5 v34)) (normRows (relRows (k2_pay2 (F := Ideal) v0) v87)))
          (normRows (projRows v0 v2 v5 v50)))))
      (sumSq (normRows (projRows v0 v2 v5 v34))) (sumSq (normRows (relRows (k2_pay2 (F := Ideal) v0) v87)))
      (sumSq (normRows (projRows v0 v2 v5 v50))) (sumSq (normRows (projRows v0 v2 v5 v66)))
      = Cert.Spec.part A b := by
  rw [share_eq, sumCol_eq, sumSq_eq, sumSq_eq, sumSq_eq, sumSq_eq]
  unfold Cert.Spec.part Cert.Spec.sqBlk Cert.Spec.sq
  simp only [li_apply H, hv_apply H, rv_apply H, pv_apply H, nv_apply H]

/-- THE BODY'S STORED VALUE over the loaded blocks: at grid coordinate 0 the block's share, at any other the old value
    plus the share. -/
theorem chain_eq (arg0 : BitVec 32) (v153 : Vec Ideal S1x1 .f32) :
    k2_pay1 (F := Ideal) arg0
        (k2_pay8 (k2_pay3 v2) (k2_pay4 v5) (k2_pay5 v0) v50)
        (k2_pay9 (k2_pay3 v2) (k2_pay4 v5) (k2_pay5 v0) v66)
        (k2_pay11 (k2_pay2 v0) (k2_pay7 (k2_pay4 v5) (k2_pay6 v0 v2 v34))
          (k2_pay8 (k2_pay3 v2) (k2_pay4 v5) (k2_pay5 v0) v50) (k2_pay9 (k2_pay3 v2) (k2_pay4 v5) (k2_pay5 v0) v66) v87)
        (k2_pay12 (k2_pay7 (k2_pay4 v5) (k2_pay6 v0 v2 v34)))
        (k2_pay13 (k2_pay2 v0) v87) v153
      = fun j => if arg0 = 0#32 then Cert.Spec.part A b else v153 j + Cert.Spec.part A b := by
  rw [pay1_eq, pay11_eq, pay12_eq, pay13_eq, pay7_eq, pay8_eq, pay9_eq, pay10_eq, share_chain H]
  funext j
  by_cases h : arg0 = 0#32
  · subst h
    rw [if_pos rfl]
    rfl
  · rw [if_neg h]
    have hc : ¬ Scalar.cmpi .eq arg0 0#32 = (1 : BitVec 1) := fun hc => h (IntOp.cmpi_eq.1 hc)
    unfold Scalar.select
    rw [if_neg hc, addf_apply, shapeCast_self]
    rfl

end Chain

end Cert.KernelIdeal.TcValue

end
-- ==== Proof.TcValueStep.lean ====
/-
  The value the TensorCore body leaves in its 1x1 output buffer at a grid point, over the blocks its staging buffers
  hold: at grid coordinate 0 the block's share of the loss, at any other coordinate the buffer's old value plus the
  share. The loads read the whole staging buffers (and the three slabs of the gathered block), so the loaded values are
  the blocks at the same coordinates; the rest is the payload chain read at coordinates.
-/
import proofs.«211459_g87136296501727_cont_9to1_m_723_16_alg».proof.Proof.TcBody
import proofs.«211459_g87136296501727_cont_9to1_m_723_16_alg».proof.Proof.TcValue

noncomputable section

namespace Cert.KernelIdeal.TcValue

open Idealize.ShloMosaic Idealize.ShloMosaic.ValueIdx Cert.KernelIdeal Cert.KernelIdeal.Gen Cert.KernelIdeal.Tc

/-! ## Loads through unit-stride rectangles read the buffer at the shifted coordinates -/

theorem ld_whole2 {a b : ℕ} {e : EltTy} (X : Vec Ideal ⟨2, ![a, b]⟩ e)
    (inb : ∀ c, (![0, 0] : Fin 2 → ℕ) c + (⟨2, ![a, b]⟩ : Shape).size c ≤ (⟨2, ![a, b]⟩ : Shape).size c) (p : Fin a) (q : Fin b) :
    ld (F := Ideal) X (Rect.unit (s := ⟨2, ![a, b]⟩) ![0, 0] (⟨2, ![a, b]⟩ : Shape).size inb).toLoadRect (ix2 p q) = X (ix2 p q) := by
  refine congrArg X (funext fun c => Fin.ext ?_)
  match c with
  | ⟨0, _⟩ => show 0 + 1 * p.val = p.val; omega
  | ⟨1, _⟩ => show 0 + 1 * q.val = q.val; omega

theorem ld_slab {n a b : ℕ} {e : EltTy} (X : Vec Ideal ⟨3, ![n, a, b]⟩ e) (t : Fin n)
    (inb : ∀ c, (![t.val, 0, 0] : Fin 3 → ℕ) c + (⟨3, ![1, a, b]⟩ : Shape).size c ≤ (⟨3, ![n, a, b]⟩ : Shape).size c)
    (p : Fin a) (q : Fin b) :
    ld (F := Ideal) X (Rect.unit (s := ⟨3, ![n, a, b]⟩) ![t.val, 0, 0] (⟨3, ![1, a, b]⟩ : Shape).size inb).toLoadRect
        (ix3 (0 : Fin 1) p q) = X (ix3 t p q) := by
  refine congrArg X (funext fun c => Fin.ext ?_)
  match c with
  | ⟨0, _⟩ => show t.val + 1 * 0 = t.val; omega
  | ⟨1, _⟩ => show 0 + 1 * p.val = p.val; omega
  | ⟨2, _⟩ => show 0 + 1 * q.val = q.val; omega

/-! ## The first call's body -/

section Out

variable (A : Cert.Spec.Args) (b : Fin 16)
  (x0 : Vec Ideal S3x1024x128 .f32) (x1 : Vec Ideal S1024x1 .i32) (x2 : Vec Ideal S128x1024 .f32)
  (x3 : Vec Ideal S16x64 .f32) (x4 : Vec Ideal S1024x64 .bf16) (old : Vec Ideal S1x1 .f32)

/-- What the five staging buffers hold for block `b`, read at coordinates: the three slabs of gathered entity rows (heads,
    positive tails, negative tails), the rows' relation numbers, the flattened projection matrices, the relation table
    and the 0/1 matrix that folds column c onto c mod 64. -/
structure Staged : Prop where
  gh : ∀ (k : Fin 1024) (d : Fin 128), x0 (ix3 (0 : Fin 3) k d) = A.E (A.h (Cert.Spec.row b k)) d
  gp : ∀ (k : Fin 1024) (d : Fin 128), x0 (ix3 (1 : Fin 3) k d) = A.E (A.p (Cert.Spec.row b k)) d
  gn : ∀ (k : Fin 1024) (d : Fin 128), x0 (ix3 (2 : Fin 3) k d) = A.E (A.n (Cert.Spec.row b k)) d
  r : ∀ k : Fin 1024, x1 (ix2 k (0 : Fin 1)) = BitVec.ofNat 32 (A.r (Cert.Spec.row b k)).val
  wall : ∀ (d : Fin 128) (ρ : Fin 16) (e : Fin 64), x2 (ix2 d (⟨64 * ρ.val + e.val, by omega⟩ : Fin 1024)) = A.W ρ d e
  rel : ∀ (ρ : Fin 16) (e : Fin 64), x3 (ix2 ρ e) = A.R ρ e
  gsel : ∀ (col : Fin 1024) (e : Fin 64), x4 (ix2 col e) = if col.val % 64 = e.val then (1 : EReal) else 0

variable {A b x0 x1 x2 x3 x4}

theorem outStep2_eq (S : Staged A b x0 x1 x2 x3 x4) (i : grid2.Coords) :
    outStep2 (F := Ideal) i x0 x1 x2 x3 x4 old
      = fun j => if (i 0).val = 0 then Cert.Spec.part A b else old j + Cert.Spec.part A b := by
  refine (chain_eq (A := A) (b := b) ?H (BitVec.ofNat 32 (i 0).val) _).trans ?_
  case H =>
    exact
      { r := fun k => (ld_whole2 x1 _ k 0).trans (S.r k)
        w := fun d ρ e => (ld_whole2 x2 _ d _).trans (S.wall d ρ e)
        g := fun col e => (ld_whole2 x4 _ col e).trans (S.gsel col e)
        h := fun k d => (ld_slab x0 (0 : Fin 3) _ k d).trans (S.gh k d)
        p := fun k d => (ld_slab x0 (1 : Fin 3) _ k d).trans (S.gp k d)
        n := fun k d => (ld_slab x0 (2 : Fin 3) _ k d).trans (S.gn k d)
        rel := fun ρ e => (ld_whole2 x3 _ ρ e).trans (S.rel ρ e) }
  funext j
  have h8 : (i 0).val < 8 := (i 0).isLt
  have hz : BitVec.ofNat 32 (i 0).val = 0#32 ↔ (i 0).val = 0 := by
    constructor
    · intro h
      have := congrArg BitVec.toNat h
      rw [BitVec.toNat_ofNat] at this
      have h0 : (0#32 : BitVec 32).toNat = 0 := rfl
      omega
    · intro h; rw [h]
  have hj : ld (F := Ideal) old (Rect.unit (s := S1x1) ![0, 0] S1x1.size inb_S1x1_S1x1_0_0).toLoadRect j = old j := by
    rw [eq_ix2 j]; exact ld_whole2 old _ _ _
  rw [hj]
  exact if_congr hz rfl rfl

/-- At grid coordinate 0 the body stores the block's share. -/
theorem outStep2_first (S : Staged A b x0 x1 x2 x3 x4) (i : grid2.Coords) (hi : (i 0).val = 0) :
    outStep2 (F := Ideal) i x0 x1 x2 x3 x4 old = fun _ => Cert.Spec.part A b := by
  rw [outStep2_eq old S i]; funext j; rw [if_pos hi]

/-- At any other grid coordinate it adds the share to the buffer's old value. -/
theorem outStep2_next (S : Staged A b x0 x1 x2 x3 x4) (i : grid2.Coords) (hi : (i 0).val ≠ 0) :
    outStep2 (F := Ideal) i x0 x1 x2 x3 x4 old = fun j => old j + Cert.Spec.part A b := by
  rw [outStep2_eq old S i]; funext j; rw [if_neg hi]

/-! ## The second call's body: the same text -/

theorem outStep3_eq_outStep2 (i : grid3.Coords) :
    outStep3 (F := Ideal) i x0 x1 x2 x3 x4 old = outStep2 (F := Ideal) (i : grid2.Coords) x0 x1 x2 x3 x4 old := rfl

theorem outStep3_first (S : Staged A b x0 x1 x2 x3 x4) (i : grid3.Coords) (hi : (i 0).val = 0) :
    outStep3 (F := Ideal) i x0 x1 x2 x3 x4 old = fun _ => Cert.Spec.part A b :=
  (outStep3_eq_outStep2 old i).trans (outStep2_first old S i hi)

theorem outStep3_next (S : Staged A b x0 x1 x2 x3 x4) (i : grid3.Coords) (hi : (i 0).val ≠ 0) :
    outStep3 (F := Ideal) i x0 x1 x2 x3 x4 old = fun j => old j + Cert.Spec.part A b :=
  (outStep3_eq_outStep2 old i).trans (outStep2_next old S i hi)

end Out

end Cert.KernelIdeal.TcValue

end
-- ==== Proof.ArrReads.lean ====
/-
  The arrays the two TensorCore regions read, at coordinates. The host lines build them from the argument arrays by
  layout operations only: the projection matrices [16, 128, 64] transposed to [128, 16, 64] and flattened to
  [128, 1024], so column 64 r + e of row d is entry (r, d, e); the relation numbers as a column; each gathered array
  [24576, 128] cut into three slabs of 8192 rows, so row k of slab t is row 8192 t + k, which holds the entity row named
  by word 8192 q + k of index array t (heads, positive tails, negative tails); the 1024 x 64 selector, 1 where the
  column number modulo 64 is the lane number and 0 elsewhere; and the two regions' results added and read as a scalar.
-/
import Idealize.ShloMosaic.Lib.ValueLayout
import proofs.«211459_g87136296501727_cont_9to1_m_723_16_alg».proof.Proof.HostVals2
import proofs.«211459_g87136296501727_cont_9to1_m_723_16_alg».proof.Proof.ScSetup

noncomputable section

namespace Cert.KernelIdeal.ArrReads

open Idealize.ShloMosaic Idealize.ShloMosaic.ValueIdx Cert.KernelIdeal Cert.KernelIdeal.MainShape

variable {F : FTy → Type} [FloatOps F] [Cert.KernelIdeal.Facts]
open Cert.KernelIdeal.Facts₀ Cert.KernelIdeal.Facts

/-! ## The flattened projection matrices -/

/-- Row `d`, column `64 ρ + e` of the flattened matrices is entry `(ρ, d, e)` of the projection matrices: the row-major
    position of `(d, ρ, e)` in [128, 16, 64] is that of `(d, 64 ρ + e)` in [128, 1024], and the transpose by [1, 0, 2]
    reads `(d, ρ, e)` at `(ρ, d, e)`. -/
theorem wallOf_apply (w : (⟨S16x128x64, .f32⟩ : BufTy).Contents (Elt F)) (d : Fin 128) (ρ : Fin 16) (e : Fin 64) :
    wallOf (F := F) w (ix2 d ⟨64 * ρ.val + e.val, by omega⟩) = w (ix3 ρ d e) := by
  unfold wallOf
  refine (shapeCast_apply _ shapeCasts_S128x16x64_S128x1024 _ (ix3 d ρ e) ?_).trans ?_
  · rw [Shape.rowMajor_val_three, Shape.rowMajor_val_two]
    show (d.val * 16 + ρ.val) * 64 + e.val = d.val * 1024 + (64 * ρ.val + e.val)
    omega
  · exact transpose_apply _ w _ _ _ fun c => match c with | ⟨0, _⟩ => rfl | ⟨1, _⟩ => rfl | ⟨2, _⟩ => rfl

/-! ## The relation numbers as a column -/

/-- Row `r` of the column is word `r` of the relation numbers. -/
theorem rcol_apply (a4 : (⟨S16384, .i32⟩ : BufTy).Contents (Elt F)) (r : Fin 16384) :
    shapeCast S16384x1 a4 shapeCasts_S16384_S16384x1 (ix2 r 0) = a4 (ix1 r) := by
  refine shapeCast_apply _ shapeCasts_S16384_S16384x1 _ (ix1 r) ?_
  rw [Shape.rowMajor_val_one, Shape.rowMajor_val_two]
  show r.val = r.val * 1 + 0
  omega

/-! ## A gathered array as three slabs -/

/-- Row `k` of slab `t` is row `8192 t + k` of the gathered array. -/
theorem slabs_apply (g : (⟨S24576x128, .f32⟩ : BufTy).Contents (Elt F)) (t : Fin 3) (k : Fin 8192) (d : Fin 128) :
    shapeCast S3x8192x128 g shapeCasts_S24576x128_S3x8192x128 (ix3 t k d) = g (ix2 ⟨8192 * t.val + k.val, by omega⟩ d) := by
  refine shapeCast_apply _ shapeCasts_S24576x128_S3x8192x128 _ (ix2 ⟨8192 * t.val + k.val, by omega⟩ d) ?_
  rw [Shape.rowMajor_val_two, Shape.rowMajor_val_three]
  show (8192 * t.val + k.val) * 128 + d.val = (t.val * 8192 + k.val) * 128 + d.val
  omega

/-! ## A gathered array's rows -/

/-- Row `8192 t + k` of call `q`'s gathered array is the entity row named by word `8192 q + k` of index array `t`
    (`Sc.sel a3 a5 a6 t`: heads, positive tails, negative tails). -/
theorem gath_row (q : Fin 2) (tab : S100000x128.Idx → F .f32) (a3 a5 a6 : S16384.Idx → BitVec 32) (t : Fin 3) (k : Fin 8192)
    (d : Fin 128) :
    Sc.gath q tab a3 a5 a6 (ix2 ⟨8192 * t.val + k.val, by omega⟩ d)
      = tab (ix2 (Cert.Spec.rowOf 100000 (by decide) (Sc.sel a3 a5 a6 t.val (ix1 ⟨8192 * q.val + k.val, by omega⟩))) d) := by
  rw [Sc.gath_apply]
  show tab (ix2 (Cert.Spec.rowOf 100000 _ (Sc.sel a3 a5 a6 ((8192 * t.val + k.val) / 8192)
    (ix1 ⟨8192 * q.val + (8192 * t.val + k.val) % 8192, _⟩))) d) = _
  have h1 : (8192 * t.val + k.val) / 8192 = t.val := by omega
  have h2 : (8192 * t.val + k.val) % 8192 = k.val := by omega
  simp only [h1, h2]

/-- The three bands one by one: rows `[0, 8192)` read the heads … -/
theorem gath_row_h (q : Fin 2) (tab : S100000x128.Idx → F .f32) (a3 a5 a6 : S16384.Idx → BitVec 32) (k : Fin 8192) (d : Fin 128) :
    Sc.gath q tab a3 a5 a6 (ix2 ⟨8192 * (0 : Fin 3).val + k.val, by omega⟩ d)
      = tab (ix2 (Cert.Spec.rowOf 100000 (by decide) (a3 (ix1 ⟨8192 * q.val + k.val, by omega⟩))) d) :=
  gath_row q tab a3 a5 a6 0 k d
/-- … rows `[8192, 16384)` the positive tails … -/
theorem gath_row_p (q : Fin 2) (tab : S100000x128.Idx → F .f32) (a3 a5 a6 : S16384.Idx → BitVec 32) (k : Fin 8192) (d : Fin 128) :
    Sc.gath q tab a3 a5 a6 (ix2 ⟨8192 * (1 : Fin 3).val + k.val, by omega⟩ d)
      = tab (ix2 (Cert.Spec.rowOf 100000 (by decide) (a5 (ix1 ⟨8192 * q.val + k.val, by omega⟩))) d) :=
  gath_row q tab a3 a5 a6 1 k d
/-- … rows `[16384, 24576)` the negative tails. -/
theorem gath_row_n (q : Fin 2) (tab : S100000x128.Idx → F .f32) (a3 a5 a6 : S16384.Idx → BitVec 32) (k : Fin 8192) (d : Fin 128) :
    Sc.gath q tab a3 a5 a6 (ix2 ⟨8192 * (2 : Fin 3).val + k.val, by omega⟩ d)
      = tab (ix2 (Cert.Spec.rowOf 100000 (by decide) (a6 (ix1 ⟨8192 * q.val + k.val, by omega⟩))) d) :=
  gath_row q tab a3 a5 a6 2 k d

/-- A slab of a gathered array read at coordinates: row `k` of slab `t` of call `q`'s array is the entity row named by
    word `8192 q + k` of index array `t`. -/
theorem slabs_gath (q : Fin 2) (tab : S100000x128.Idx → F .f32) (a3 a5 a6 : S16384.Idx → BitVec 32) (t : Fin 3) (k : Fin 8192)
    (d : Fin 128) :
    shapeCast S3x8192x128 (Sc.gath q tab a3 a5 a6) shapeCasts_S24576x128_S3x8192x128 (ix3 t k d)
      = tab (ix2 (Cert.Spec.rowOf 100000 (by decide) (Sc.sel a3 a5 a6 t.val (ix1 ⟨8192 * q.val + k.val, by omega⟩))) d) :=
  (slabs_apply (F := F) (Sc.gath q tab a3 a5 a6) t k d).trans (gath_row q tab a3 a5 a6 t k d)

/-! ## The two regions' results added, as a scalar -/

/-- The scalar is the sum of the two 1 x 1 results' entries. -/
theorem scalar_apply (x y : (⟨S1x1, .f32⟩ : BufTy).Contents (Elt Ideal)) :
    shapeCast S_ (addf (F := Ideal) (s := S1x1) (φ := .f32) x y) shapeCasts_S1x1_S_ ix0 = (x (ix2 0 0) + y (ix2 0 0) : EReal) := by
  refine (shapeCast_apply _ shapeCasts_S1x1_S_ ix0 (ix2 0 0) ?_).trans rfl
  rw [Shape.rowMajor_val_two]
  have h : (S_.rowMajor ix0).val = 0 := Shape.rowMajorPi_zero _ _
  rw [h]
  rfl

/-! ## The column selector

Words first: the truncating remainder of a non-negative word by 64 is the remainder of its value, the sign fix-up of
the floor remainder leaves a remainder in [0, 64) as it is, and the integer operations read through at an index. -/

/-- The truncating remainder by 64 of a word below 2^31 (so non-negative as a signed word; the divisor is neither
    zero nor -1, so the division is at no corner) is the word of the value's remainder. -/
theorem remsi_host_64 (n : Nat) (hn : n < 2 ^ 31) :
    IntOp.remsi .host (BitVec.ofNat 32 n) 64#32 = BitVec.ofNat 32 (n % 64) := by
  have hc : ¬ IntOp.SDivCorner (BitVec.ofNat 32 n) 64#32 := by
    rintro (h | ⟨_, h⟩) <;> exact absurd h (by decide)
  have hx : (BitVec.ofNat 32 n).msb = false := by
    rw [BitVec.msb_eq_false_iff_two_mul_lt, BitVec.toNat_ofNat]; omega
  have hy : (64#32 : BitVec 32).msb = false := by decide
  rw [IntOp.remsi, if_neg hc, BitVec.srem_eq, hx, hy]
  apply BitVec.eq_of_toNat_eq
  show ((BitVec.ofNat 32 n) % 64#32).toNat = _
  rw [BitVec.toNat_umod, BitVec.toNat_ofNat, BitVec.toNat_ofNat]
  show n % 2 ^ 32 % 64 = n % 64 % 2 ^ 32
  omega

/-- The sign fix-up of a floor remainder by 64 (add the divisor when the remainder is non-zero and its sign differs
    from the divisor's) leaves a remainder in [0, 64) as it is: both signs are non-negative. -/
theorem fixup_64 (m : Nat) (hm : m < 64) :
    Scalar.select (IntOp.andi (IntOp.cmpi .ne (IntOp.cmpi .slt (BitVec.ofNat 32 m) 0#32) (IntOp.cmpi .slt 64#32 0#32))
        (IntOp.cmpi .ne (BitVec.ofNat 32 m) 0#32)) (IntOp.addi (BitVec.ofNat 32 m) 64#32) (BitVec.ofNat 32 m)
      = BitVec.ofNat 32 m := by
  interval_cases m <;> rfl

/-- The integer operations at an index are the words' operations. -/
theorem cmpi_apply {s : Shape} {w : Nat} (p : CmpIPredicate) (x y : IVec s w) (i : s.Idx) :
    cmpi p x y i = IntOp.cmpi p (x i) (y i) := rfl
theorem andi_apply {s : Shape} {w : Nat} (x y : IVec s w) (i : s.Idx) : andi x y i = IntOp.andi (x i) (y i) := rfl
theorem addi_apply {s : Shape} {w : Nat} (x y : IVec s w) (i : s.Idx) : addi x y i = IntOp.addi (x i) (y i) := rfl
theorem hremsi_apply {s : Shape} {w : Nat} (x y : IVec s w) (i : s.Idx) :
    Host.remsi x y i = IntOp.remsi .host (x i) (y i) := rfl

/-- A scalar broadcast over the 1024 x 1 column reads the scalar everywhere. -/
theorem bcast_scalar_apply {α : Type} (x : S_.Idx → α) (i : S1024x1.Idx) :
    broadcastInDim S1024x1 ![] bcast_S_S1024x1 x i = x ix0 :=
  broadcastInDim_apply _ bcast_S_S1024x1 x i ix0 (fun a => a.elim0)

/-- Row `col` of the column of column numbers modulo 64 is the word of `col % 64`: the column number is below 1024,
    the divisor the host selects is 64 (it is not zero), the truncating remainder is the value's remainder, and the
    fix-up keeps it. -/
theorem colMod_apply (col : Fin 1024) : colMod (F := F) (ix2 col 0) = BitVec.ofNat 32 (col.val % 64) := by
  have hcol : broadcastInDim S1024x1 ![0] bcast_S1024_S1024x1_0 (iotaInDim S1024 32 0) (ix2 col 0) = BitVec.ofNat 32 col.val :=
    broadcastInDim_apply _ bcast_S1024_S1024x1_0 _ (ix2 col 0) (ix1 col) (fun a => match a with | ⟨0, _⟩ => rfl)
  unfold colMod
  simp only [select_apply, cmpi_apply, andi_apply, addi_apply, hremsi_apply, constantI_apply, hcol]
  rw [bcast_scalar_apply, bcast_scalar_apply, bcast_scalar_apply]
  simp only [select_apply, cmpi_apply, constantI_apply]
  have hdv : Scalar.select (IntOp.cmpi .eq 64#32 0#32) 1#32 64#32 = 64#32 := by decide
  rw [hdv, remsi_host_64 _ (by have := col.isLt; omega)]
  exact fixup_64 _ (Nat.mod_lt _ (by decide))

/-- The selector at `(col, e)` on the extended reals: 1 where `col % 64 = e`, else 0. The two compared words are the
    words of `col % 64` and of `e`, both below 2^32, so they are equal exactly when the numbers are; the comparison's
    bit read unsigned is 1 or 0. -/
theorem gselOf_apply (col : Fin 1024) (e : Fin 64) :
    gselOf (F := Ideal) (ix2 col e) = if col.val % 64 = e.val then (1 : EReal) else 0 := by
  have hA : broadcastInDim S1024x64 ![0, 1] bcast_S1024x1_S1024x64_0_1 (colMod (F := Ideal)) (ix2 col e)
      = BitVec.ofNat 32 (col.val % 64) :=
    (broadcastInDim_apply _ bcast_S1024x1_S1024x64_0_1 _ (ix2 col e) (ix2 col 0)
      (fun a => match a with | ⟨0, _⟩ => rfl | ⟨1, _⟩ => rfl)).trans (colMod_apply col)
  have hB : broadcastInDim S1024x64 ![0, 1] bcast_S1x64_S1024x64_0_1
      (broadcastInDim S1x64 ![1] bcast_S64_S1x64_1 (iotaInDim S64 32 0)) (ix2 col e) = BitVec.ofNat 32 e.val :=
    (broadcastInDim_apply _ bcast_S1x64_S1024x64_0_1 _ (ix2 col e) (ix2 0 e)
      (fun a => match a with | ⟨0, _⟩ => rfl | ⟨1, _⟩ => rfl)).trans
      (broadcastInDim_apply _ bcast_S64_S1x64_1 _ (ix2 0 e) (ix1 e) (fun a => match a with | ⟨0, _⟩ => rfl))
  show ((((IntOp.cmpi .eq (broadcastInDim S1024x64 ![0, 1] bcast_S1024x1_S1024x64_0_1 (colMod (F := Ideal)) (ix2 col e))
      (broadcastInDim S1024x64 ![0, 1] bcast_S1x64_S1024x64_0_1
        (broadcastInDim S1x64 ![1] bcast_S64_S1x64_1 (iotaInDim S64 32 0)) (ix2 col e))).toNat : ℝ) : EReal)) = _
  rw [hA, hB]
  by_cases h : col.val % 64 = e.val
  · rw [if_pos h, h]
    simp [IntOp.cmpi]
  · rw [if_neg h]
    have hne : BitVec.ofNat 32 (col.val % 64) ≠ BitVec.ofNat 32 e.val := by
      intro hh
      have := congrArg BitVec.toNat hh
      rw [BitVec.toNat_ofNat, BitVec.toNat_ofNat] at this
      have := e.isLt
      omega
    simp [IntOp.cmpi, hne]

end Cert.KernelIdeal.ArrReads

end
-- ==== Proof.StagedOf.lean ====
/-
  The blocks the two TensorCore regions stage are the specification's blocks, and the regions' running sums are the
  sums of the blocks' shares.

  Region 0 reads, at grid point t, rows [1024 t, 1024 t + 1024) of each of the three slabs of gathered entity rows and
  of the column of relation numbers, and the whole flattened projection matrices, relation table and 0/1 selector;
  region 1 reads the same rows of the second gathered array and rows [1024 (8 + t), …) of the relation numbers. Read at
  coordinates, those are block t (resp. 8 + t) of the specification's arguments. The output buffer carries the running
  sum of the shares from one grid point to the next, so after the eighth point it holds the sum of eight shares, and the
  two regions' results add up to the loss in the kernel's form.
-/
import proofs.«211459_g87136296501727_cont_9to1_m_723_16_alg».proof.Proof.TcRegion
import proofs.«211459_g87136296501727_cont_9to1_m_723_16_alg».proof.Proof.TcValueStep
import proofs.«211459_g87136296501727_cont_9to1_m_723_16_alg».proof.Proof.ArrReads
import proofs.«211459_g87136296501727_cont_9to1_m_723_16_alg».proof.Proof.SpecArgs

noncomputable section

namespace Cert.KernelIdeal.StagedOf

open Idealize.ShloMosaic Idealize.ShloMosaic.ValueIdx Cert.KernelIdeal Cert.KernelIdeal.Gen

/-! ## The block numbers and the printed index maps over the two grids -/

theorem lt8_2 (t : Fin cfg2.N) : t.val < 8 := lt_of_lt_of_eq t.isLt (show cfg2.N = 8 from N_2)
theorem lt8_3 (t : Fin cfg3.N) : t.val < 8 := lt_of_lt_of_eq t.isLt (show cfg3.N = 8 from N_3)

/-- Region 0's point t works on block t, region 1's on block 8 + t. -/
def blkNo2 (t : Fin cfg2.N) : Fin 16 := ⟨t.val, by have := lt8_2 t; omega⟩
def blkNo3 (t : Fin cfg3.N) : Fin 16 := ⟨8 + t.val, by have := lt8_3 t; omega⟩

theorem idx2 : ∀ t : Fin cfg2.N,
    win2_0.index t (0 : Fin 3) = 0 ∧ win2_0.index t (1 : Fin 3) = t.val ∧ win2_0.index t (2 : Fin 3) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem idx3 : ∀ t : Fin cfg3.N,
    win3_0.index t (0 : Fin 3) = 0 ∧ win3_0.index t (1 : Fin 3) = t.val ∧ win3_0.index t (2 : Fin 3) = 0
    ∧ win3_1.index t (0 : Fin 2) = 8 + t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-! ## A block read at coordinates -/

theorem read2_0 (t : Fin cfg2.N) (X : S3x8192x128.Idx → Ideal .f32) (s : Fin 3) (k : Fin 1024) (d : Fin 128) :
    ((cfg2.win 0).blk t).view.read (Elt Ideal) X (ix3 s k d)
      = X (ix3 s (⟨1024 * t.val + k.val, by have := lt8_2 t; omega⟩ : Fin 8192) d) := by
  obtain ⟨e0, e1, e2, -⟩ := idx2 t
  show X (((cfg2.win 0).blk t).view.emb (ix3 s k d)) = _
  refine congrArg X (funext fun a => Fin.ext ?_)
  match a with
  | ⟨0, _⟩ => show win2_0.index t (0 : Fin 3) * 3 + 1 * s.val = s.val; omega
  | ⟨1, _⟩ => show win2_0.index t (1 : Fin 3) * 1024 + 1 * k.val = 1024 * t.val + k.val; omega
  | ⟨2, _⟩ => show win2_0.index t (2 : Fin 3) * 128 + 1 * d.val = d.val; omega

theorem read2_1 (t : Fin cfg2.N) (X : S16384x1.Idx → BitVec 32) (k : Fin 1024) :
    ((cfg2.win 1).blk t).view.read (Elt Ideal) X (ix2 k (0 : Fin 1))
      = X (ix2 (⟨1024 * t.val + k.val, by have := lt8_2 t; omega⟩ : Fin 16384) (0 : Fin 1)) := by
  obtain ⟨-, -, -, e0, e1, -⟩ := idx2 t
  show X (((cfg2.win 1).blk t).view.emb (ix2 k (0 : Fin 1))) = _
  refine congrArg X (funext fun a => Fin.ext ?_)
  match a with
  | ⟨0, _⟩ => show win2_1.index t (0 : Fin 2) * 1024 + 1 * k.val = 1024 * t.val + k.val; omega
  | ⟨1, _⟩ => show win2_1.index t (1 : Fin 2) * 1 + 1 * 0 = 0; omega

theorem read2_2 (t : Fin cfg2.N) (X : S128x1024.Idx → Ideal .f32) (p : Fin 128) (q : Fin 1024) :
    ((cfg2.win 2).blk t).view.read (Elt Ideal) X (ix2 p q) = X (ix2 p q) := by
  obtain ⟨-, -, -, -, -, e0, e1, -⟩ := idx2 t
  show X (((cfg2.win 2).blk t).view.emb (ix2 p q)) = _
  refine congrArg X (funext fun a => Fin.ext ?_)
  match a with
  | ⟨0, _⟩ => show win2_2.index t (0 : Fin 2) * 128 + 1 * p.val = p.val; omega
  | ⟨1, _⟩ => show win2_2.index t (1 : Fin 2) * 1024 + 1 * q.val = q.val; omega

theorem read2_3 (t : Fin cfg2.N) (X : S16x64.Idx → Ideal .f32) (p : Fin 16) (q : Fin 64) :
    ((cfg2.win 3).blk t).view.read (Elt Ideal) X (ix2 p q) = X (ix2 p q) := by
  obtain ⟨-, -, -, -, -, -, -, e0, e1, -⟩ := idx2 t
  show X (((cfg2.win 3).blk t).view.emb (ix2 p q)) = _
  refine congrArg X (funext fun a => Fin.ext ?_)
  match a with
  | ⟨0, _⟩ => show win2_3.index t (0 : Fin 2) * 16 + 1 * p.val = p.val; omega
  | ⟨1, _⟩ => show win2_3.index t (1 : Fin 2) * 64 + 1 * q.val = q.val; omega

theorem read2_4 (t : Fin cfg2.N) (X : S1024x64.Idx → Ideal .bf16) (p : Fin 1024) (q : Fin 64) :
    ((cfg2.win 4).blk t).view.read (Elt Ideal) X (ix2 p q) = X (ix2 p q) := by
  obtain ⟨-, -, -, -, -, -, -, -, -, e0, e1⟩ := idx2 t
  show X (((cfg2.win 4).blk t).view.emb (ix2 p q)) = _
  refine congrArg X (funext fun a => Fin.ext ?_)
  match a with
  | ⟨0, _⟩ => show win2_4.index t (0 : Fin 2) * 1024 + 1 * p.val = p.val; omega
  | ⟨1, _⟩ => show win2_4.index t (1 : Fin 2) * 64 + 1 * q.val = q.val; omega

theorem read3_0 (t : Fin cfg3.N) (X : S3x8192x128.Idx → Ideal .f32) (s : Fin 3) (k : Fin 1024) (d : Fin 128) :
    ((cfg3.win 0).blk t).view.read (Elt Ideal) X (ix3 s k d)
      = X (ix3 s (⟨1024 * t.val + k.val, by have := lt8_3 t; omega⟩ : Fin 8192) d) := by
  obtain ⟨e0, e1, e2, -⟩ := idx3 t
  show X (((cfg3.win 0).blk t).view.emb (ix3 s k d)) = _
  refine congrArg X (funext fun a => Fin.ext ?_)
  match a with
  | ⟨0, _⟩ => show win3_0.index t (0 : Fin 3) * 3 + 1 * s.val = s.val; omega
  | ⟨1, _⟩ => show win3_0.index t (1 : Fin 3) * 1024 + 1 * k.val = 1024 * t.val + k.val; omega
  | ⟨2, _⟩ => show win3_0.index t (2 : Fin 3) * 128 + 1 * d.val = d.val; omega

theorem read3_1 (t : Fin cfg3.N) (X : S16384x1.Idx → BitVec 32) (k : Fin 1024) :
    ((cfg3.win 1).blk t).view.read (Elt Ideal) X (ix2 k (0 : Fin 1))
      = X (ix2 (⟨1024 * (8 + t.val) + k.val, by have := lt8_3 t; omega⟩ : Fin 16384) (0 : Fin 1)) := by
  obtain ⟨-, -, -, e0, e1, -⟩ := idx3 t
  show X (((cfg3.win 1).blk t).view.emb (ix2 k (0 : Fin 1))) = _
  refine congrArg X (funext fun a => Fin.ext ?_)
  match a with
  | ⟨0, _⟩ => show win3_1.index t (0 : Fin 2) * 1024 + 1 * k.val = 1024 * (8 + t.val) + k.val; omega
  | ⟨1, _⟩ => show win3_1.index t (1 : Fin 2) * 1 + 1 * 0 = 0; omega

theorem read3_2 (t : Fin cfg3.N) (X : S128x1024.Idx → Ideal .f32) (p : Fin 128) (q : Fin 1024) :
    ((cfg3.win 2).blk t).view.read (Elt Ideal) X (ix2 p q) = X (ix2 p q) := by
  obtain ⟨-, -, -, -, -, e0, e1, -⟩ := idx3 t
  show X (((cfg3.win 2).blk t).view.emb (ix2 p q)) = _
  refine congrArg X (funext fun a => Fin.ext ?_)
  match a with
  | ⟨0, _⟩ => show win3_2.index t (0 : Fin 2) * 128 + 1 * p.val = p.val; omega
  | ⟨1, _⟩ => show win3_2.index t (1 : Fin 2) * 1024 + 1 * q.val = q.val; omega

theorem read3_3 (t : Fin cfg3.N) (X : S16x64.Idx → Ideal .f32) (p : Fin 16) (q : Fin 64) :
    ((cfg3.win 3).blk t).view.read (Elt Ideal) X (ix2 p q) = X (ix2 p q) := by
  obtain ⟨-, -, -, -, -, -, -, e0, e1, -⟩ := idx3 t
  show X (((cfg3.win 3).blk t).view.emb (ix2 p q)) = _
  refine congrArg X (funext fun a => Fin.ext ?_)
  match a with
  | ⟨0, _⟩ => show win3_3.index t (0 : Fin 2) * 16 + 1 * p.val = p.val; omega
  | ⟨1, _⟩ => show win3_3.index t (1 : Fin 2) * 64 + 1 * q.val = q.val; omega

theorem read3_4 (t : Fin cfg3.N) (X : S1024x64.Idx → Ideal .bf16) (p : Fin 1024) (q : Fin 64) :
    ((cfg3.win 4).blk t).view.read (Elt Ideal) X (ix2 p q) = X (ix2 p q) := by
  obtain ⟨-, -, -, -, -, -, -, -, -, e0, e1⟩ := idx3 t
  show X (((cfg3.win 4).blk t).view.emb (ix2 p q)) = _
  refine congrArg X (funext fun a => Fin.ext ?_)
  match a with
  | ⟨0, _⟩ => show win3_4.index t (0 : Fin 2) * 1024 + 1 * p.val = p.val; omega
  | ⟨1, _⟩ => show win3_4.index t (1 : Fin 2) * 64 + 1 * q.val = q.val; omega

/-! ## The region-entry arrays and the staged blocks -/

section Arrays

variable (a0 : S100000x128.Idx → Ideal .f32) (a1 : S16x64.Idx → Ideal .f32) (a2 : S16x128x64.Idx → Ideal .f32)
  (a3 a4 a5 a6 : S16384.Idx → BitVec 32)

/-- The gathered rows of SparseCore call q, as three slabs of 8192 rows. -/
abbrev X0 (q : Fin 2) : S3x8192x128.Idx → Ideal .f32 :=
  shapeCast S3x8192x128 (Sc.gath (F := Ideal) q a0 a3 a5 a6) shapeCasts_S24576x128_S3x8192x128

/-- The relation numbers as a column. -/
abbrev X1 : S16384x1.Idx → BitVec 32 := shapeCast S16384x1 a4 shapeCasts_S16384_S16384x1

/-- Row k' of slab s of call q's gathered rows is the entity row named by word m = 8192 q + k' of index array s. -/
theorem slab_row (q : Fin 2) (s : Fin 3) (m : Fin 16384) (k' : Fin 8192) (hm : m.val = 8192 * q.val + k'.val) (d : Fin 128) :
    X0 a0 a3 a5 a6 q (ix3 s k' d)
      = a0 (ix2 (Cert.Spec.rowOf 100000 (by decide) (Sc.sel a3 a5 a6 s.val (ix1 m))) d) := by
  refine (ArrReads.slabs_gath (F := Ideal) q a0 a3 a5 a6 s k' d).trans ?_
  have e : (⟨8192 * q.val + k'.val, by have := q.isLt; omega⟩ : Fin 16384) = m := Fin.ext hm.symm
  rw [e]

/-- A word below 16 is the word of its own value modulo 16. -/
theorem word_of_lt (v : BitVec 32) (h : v.toNat < 16) : BitVec.ofNat 32 (v.toNat % 16) = v := by
  apply BitVec.eq_of_toNat_eq
  rw [BitVec.toNat_ofNat]
  omega

variable {a0 a1 a2 a3 a4 a5 a6}

/-- Region 0's blocks at grid point t are block t of the specification's arguments. -/
theorem staged2 (c : Dev nD) (A : Tc.Arr2 (F := Ideal) c) (hr : Cert.Spec.InRange a3 a4 a5 a6)
    (h0 : A 0 = X0 a0 a3 a5 a6 0) (h1 : A 1 = X1 a4) (h2 : A 2 = MainShape.wallOf (F := Ideal) a2) (h3 : A 3 = a1)
    (h4 : A 4 = MainShape.gselOf (F := Ideal)) (t : Fin cfg2.N) :
    TcValue.Staged (Cert.Spec.argsOf a0 a1 a2 a3 a4 a5 a6) (blkNo2 t) (Tc.iblk2 c A 0 t) (Tc.iblk2 c A 1 t) (Tc.iblk2 c A 2 t)
      (Tc.iblk2 c A 3 t) (Tc.iblk2 c A 4 t) := by
  have hm : ∀ k : Fin 1024, (Cert.Spec.row (blkNo2 t) k).val = 8192 * (0 : Fin 2).val + (1024 * t.val + k.val) := by
    intro k; show 1024 * t.val + k.val = 8192 * 0 + (1024 * t.val + k.val); omega
  refine ⟨fun k d => ?_, fun k d => ?_, fun k d => ?_, fun k => ?_, fun d ρ e => ?_, fun ρ e => ?_, fun col e => ?_⟩
  · unfold Tc.iblk2; rw [h0, read2_0]
    exact slab_row a0 a3 a5 a6 0 0 (Cert.Spec.row (blkNo2 t) k) _ (hm k) d
  · unfold Tc.iblk2; rw [h0, read2_0]
    exact slab_row a0 a3 a5 a6 0 1 (Cert.Spec.row (blkNo2 t) k) _ (hm k) d
  · unfold Tc.iblk2; rw [h0, read2_0]
    exact slab_row a0 a3 a5 a6 0 2 (Cert.Spec.row (blkNo2 t) k) _ (hm k) d
  · unfold Tc.iblk2; rw [h1, read2_1]
    refine (ArrReads.rcol_apply (F := Ideal) a4 _).trans ?_
    exact (word_of_lt _ (hr.r _)).symm
  · unfold Tc.iblk2; rw [h2, read2_2]
    exact ArrReads.wallOf_apply (F := Ideal) a2 d ρ e
  · unfold Tc.iblk2; rw [h3, read2_3]
    rfl
  · unfold Tc.iblk2; rw [h4, read2_4]
    exact ArrReads.gselOf_apply col e

/-- Region 1's blocks at grid point t are block 8 + t of the specification's arguments. -/
theorem staged3 (c : Dev nD) (A : Tc.Arr3 (F := Ideal) c) (hr : Cert.Spec.InRange a3 a4 a5 a6)
    (h0 : A 0 = X0 a0 a3 a5 a6 1) (h1 : A 1 = X1 a4) (h2 : A 2 = MainShape.wallOf (F := Ideal) a2) (h3 : A 3 = a1)
    (h4 : A 4 = MainShape.gselOf (F := Ideal)) (t : Fin cfg3.N) :
    TcValue.Staged (Cert.Spec.argsOf a0 a1 a2 a3 a4 a5 a6) (blkNo3 t) (Tc.iblk3 c A 0 t) (Tc.iblk3 c A 1 t) (Tc.iblk3 c A 2 t)
      (Tc.iblk3 c A 3 t) (Tc.iblk3 c A 4 t) := by
  have hm : ∀ k : Fin 1024, (Cert.Spec.row (blkNo3 t) k).val = 8192 * (1 : Fin 2).val + (1024 * t.val + k.val) := by
    intro k; show 1024 * (8 + t.val) + k.val = 8192 * 1 + (1024 * t.val + k.val); omega
  refine ⟨fun k d => ?_, fun k d => ?_, fun k d => ?_, fun k => ?_, fun d ρ e => ?_, fun ρ e => ?_, fun col e => ?_⟩
  · unfold Tc.iblk3; rw [h0, read3_0]
    exact slab_row a0 a3 a5 a6 1 0 (Cert.Spec.row (blkNo3 t) k) _ (hm k) d
  · unfold Tc.iblk3; rw [h0, read3_0]
    exact slab_row a0 a3 a5 a6 1 1 (Cert.Spec.row (blkNo3 t) k) _ (hm k) d
  · unfold Tc.iblk3; rw [h0, read3_0]
    exact slab_row a0 a3 a5 a6 1 2 (Cert.Spec.row (blkNo3 t) k) _ (hm k) d
  · unfold Tc.iblk3; rw [h1, read3_1]
    refine (ArrReads.rcol_apply (F := Ideal) a4 _).trans ?_
    exact (word_of_lt _ (hr.r _)).symm
  · unfold Tc.iblk3; rw [h2, read3_2]
    exact ArrReads.wallOf_apply (F := Ideal) a2 d ρ e
  · unfold Tc.iblk3; rw [h3, read3_3]
    rfl
  · unfold Tc.iblk3; rw [h4, read3_4]
    exact ArrReads.gselOf_apply col e

end Arrays

/-! ## The running sums -/

section Sums

variable {a0 : S100000x128.Idx → Ideal .f32} {a1 : S16x64.Idx → Ideal .f32} {a2 : S16x128x64.Idx → Ideal .f32}
  {a3 a4 a5 a6 : S16384.Idx → BitVec 32}

/-- Share number i of region 0 (i below 8; zero elsewhere), and of region 1. -/
def part2 (A : Cert.Spec.Args) (i : ℕ) : EReal := if h : i < 16 then Cert.Spec.part A ⟨i, h⟩ else 0
def part3 (A : Cert.Spec.Args) (i : ℕ) : EReal := if h : 8 + i < 16 then Cert.Spec.part A ⟨8 + i, h⟩ else 0

/-- After grid point n, region 0's output buffer holds the sum of the shares of blocks 0 … n. -/
theorem acc2_upto (c : Dev nD) (A : Tc.Arr2 (F := Ideal) c) (hr : Cert.Spec.InRange a3 a4 a5 a6)
    (h0 : A 0 = X0 a0 a3 a5 a6 0) (h1 : A 1 = X1 a4) (h2 : A 2 = MainShape.wallOf (F := Ideal) a2) (h3 : A 3 = a1)
    (h4 : A 4 = MainShape.gselOf (F := Ideal)) :
    ∀ (n : ℕ) (hn : n < cfg2.N), Tc.accAt2 c A n hn
      = fun _ => ∑ i ∈ Finset.range (n + 1), part2 (Cert.Spec.argsOf a0 a1 a2 a3 a4 a5 a6) i := by
  intro n
  induction n with
  | zero =>
    intro hn
    refine (Tc.accAt2_first c A ⟨0, hn⟩ rfl Tc.zero11).trans ?_
    refine (TcValue.outStep2_first Tc.zero11 (staged2 c A hr h0 h1 h2 h3 h4 ⟨0, hn⟩) _ (Tc.coords2_val ⟨0, hn⟩)).trans ?_
    funext _
    rw [Finset.sum_range_one]
    unfold part2
    rw [dif_pos (by omega)]
    rfl
  | succ n ih =>
    intro hn
    have h8 := lt8_2 ⟨n + 1, hn⟩
    refine (Tc.accAt2_later c A ⟨n + 1, hn⟩ (Nat.succ_ne_zero n)).trans ?_
    refine (TcValue.outStep2_next _ (staged2 c A hr h0 h1 h2 h3 h4 ⟨n + 1, hn⟩) _
      (by rw [Tc.coords2_val]; exact Nat.succ_ne_zero n)).trans ?_
    funext j
    have e1 : Tc.accAt2 c A ((⟨n + 1, hn⟩ : Fin cfg2.N).val - 1)
        (Nat.lt_of_le_of_lt (Nat.sub_le _ _) (⟨n + 1, hn⟩ : Fin cfg2.N).isLt) j
        = ∑ i ∈ Finset.range (n + 1), part2 (Cert.Spec.argsOf a0 a1 a2 a3 a4 a5 a6) i :=
      congrFun (ih (Nat.lt_of_succ_lt hn)) j
    have e2 : Cert.Spec.part (Cert.Spec.argsOf a0 a1 a2 a3 a4 a5 a6) (blkNo2 ⟨n + 1, hn⟩)
        = part2 (Cert.Spec.argsOf a0 a1 a2 a3 a4 a5 a6) (n + 1) := by
      unfold part2
      rw [dif_pos (by show n + 1 < 16; have : (⟨n + 1, hn⟩ : Fin cfg2.N).val = n + 1 := rfl; omega)]
      rfl
    rw [Finset.sum_range_succ _ (n + 1), e1, e2]

/-- After its last grid point region 0's output holds the sum of the shares of blocks 0 … 7. -/
theorem acc2_eq (c : Dev nD) (A : Tc.Arr2 (F := Ideal) c) (hr : Cert.Spec.InRange a3 a4 a5 a6)
    (h0 : A 0 = X0 a0 a3 a5 a6 0) (h1 : A 1 = X1 a4) (h2 : A 2 = MainShape.wallOf (F := Ideal) a2) (h3 : A 3 = a1)
    (h4 : A 4 = MainShape.gselOf (F := Ideal)) :
    Tc.accAt2 c A 7 Tc.lt7_2
      = fun _ => ∑ i : Fin 8, Cert.Spec.part (Cert.Spec.argsOf a0 a1 a2 a3 a4 a5 a6) ⟨i.val, by omega⟩ := by
  rw [acc2_upto c A hr h0 h1 h2 h3 h4 7 Tc.lt7_2]
  funext _
  rw [Finset.sum_range]
  refine Finset.sum_congr rfl fun i _ => ?_
  unfold part2
  rw [dif_pos (by have := i.isLt; omega)]

/-- After grid point n, region 1's output buffer holds the sum of the shares of blocks 8 … 8 + n. -/
theorem acc3_upto (c : Dev nD) (A : Tc.Arr3 (F := Ideal) c) (hr : Cert.Spec.InRange a3 a4 a5 a6)
    (h0 : A 0 = X0 a0 a3 a5 a6 1) (h1 : A 1 = X1 a4) (h2 : A 2 = MainShape.wallOf (F := Ideal) a2) (h3 : A 3 = a1)
    (h4 : A 4 = MainShape.gselOf (F := Ideal)) :
    ∀ (n : ℕ) (hn : n < cfg3.N), Tc.accAt3 c A n hn
      = fun _ => ∑ i ∈ Finset.range (n + 1), part3 (Cert.Spec.argsOf a0 a1 a2 a3 a4 a5 a6) i := by
  intro n
  induction n with
  | zero =>
    intro hn
    refine (Tc.accAt3_first c A ⟨0, hn⟩ rfl Tc.zero11).trans ?_
    refine (TcValue.outStep3_first Tc.zero11 (staged3 c A hr h0 h1 h2 h3 h4 ⟨0, hn⟩) _ (Tc.coords3_val ⟨0, hn⟩)).trans ?_
    funext _
    rw [Finset.sum_range_one]
    unfold part3
    rw [dif_pos (by omega)]
    rfl
  | succ n ih =>
    intro hn
    have h8 := lt8_3 ⟨n + 1, hn⟩
    refine (Tc.accAt3_later c A ⟨n + 1, hn⟩ (Nat.succ_ne_zero n)).trans ?_
    refine (TcValue.outStep3_next _ (staged3 c A hr h0 h1 h2 h3 h4 ⟨n + 1, hn⟩) _
      (by rw [Tc.coords3_val]; exact Nat.succ_ne_zero n)).trans ?_
    funext j
    have e1 : Tc.accAt3 c A ((⟨n + 1, hn⟩ : Fin cfg3.N).val - 1)
        (Nat.lt_of_le_of_lt (Nat.sub_le _ _) (⟨n + 1, hn⟩ : Fin cfg3.N).isLt) j
        = ∑ i ∈ Finset.range (n + 1), part3 (Cert.Spec.argsOf a0 a1 a2 a3 a4 a5 a6) i :=
      congrFun (ih (Nat.lt_of_succ_lt hn)) j
    have e2 : Cert.Spec.part (Cert.Spec.argsOf a0 a1 a2 a3 a4 a5 a6) (blkNo3 ⟨n + 1, hn⟩)
        = part3 (Cert.Spec.argsOf a0 a1 a2 a3 a4 a5 a6) (n + 1) := by
      unfold part3
      rw [dif_pos (by show 8 + (n + 1) < 16; have : (⟨n + 1, hn⟩ : Fin cfg3.N).val = n + 1 := rfl; omega)]
      rfl
    rw [Finset.sum_range_succ _ (n + 1), e1, e2]

/-- After its last grid point region 1's output holds the sum of the shares of blocks 8 … 15. -/
theorem acc3_eq (c : Dev nD) (A : Tc.Arr3 (F := Ideal) c) (hr : Cert.Spec.InRange a3 a4 a5 a6)
    (h0 : A 0 = X0 a0 a3 a5 a6 1) (h1 : A 1 = X1 a4) (h2 : A 2 = MainShape.wallOf (F := Ideal) a2) (h3 : A 3 = a1)
    (h4 : A 4 = MainShape.gselOf (F := Ideal)) :
    Tc.accAt3 c A 7 Tc.lt7_3
      = fun _ => ∑ i : Fin 8, Cert.Spec.part (Cert.Spec.argsOf a0 a1 a2 a3 a4 a5 a6) ⟨8 + i.val, by omega⟩ := by
  rw [acc3_upto c A hr h0 h1 h2 h3 h4 7 Tc.lt7_3]
  funext _
  rw [Finset.sum_range]
  refine Finset.sum_congr rfl fun i _ => ?_
  unfold part3
  rw [dif_pos (by have := i.isLt; omega)]

/-- The two regions' results add up to the loss in the kernel's form. -/
theorem total_eq (c : Dev nD) (A : Tc.Arr2 (F := Ideal) c) (A' : Tc.Arr3 (F := Ideal) c) (hr : Cert.Spec.InRange a3 a4 a5 a6)
    (h0 : A 0 = X0 a0 a3 a5 a6 0) (h1 : A 1 = X1 a4) (h2 : A 2 = MainShape.wallOf (F := Ideal) a2) (h3 : A 3 = a1)
    (h4 : A 4 = MainShape.gselOf (F := Ideal))
    (h0' : A' 0 = X0 a0 a3 a5 a6 1) (h1' : A' 1 = X1 a4) (h2' : A' 2 = MainShape.wallOf (F := Ideal) a2) (h3' : A' 3 = a1)
    (h4' : A' 4 = MainShape.gselOf (F := Ideal)) :
    (fun _ : S_.Idx => (Tc.accAt2 c A 7 Tc.lt7_2 (ix2 0 0) + Tc.accAt3 c A' 7 Tc.lt7_3 (ix2 0 0) : EReal))
      = fun _ => Cert.Spec.lossKer (Cert.Spec.argsOf a0 a1 a2 a3 a4 a5 a6) := by
  rw [acc2_eq c A hr h0 h1 h2 h3 h4, acc3_eq c A' hr h0' h1' h2' h3' h4']
  rfl

end Sums

end Cert.KernelIdeal.StagedOf

end
-- ==== Proof.Algebra.lean ====
/-
  The two forms of the loss are one extended real.

  The kernel adds sixteen block shares, each (block softplus sum + w * (1/2 * block sums of squares)) * 2^-14; the
  reference divides the full softplus sum by 16384 and adds w times the four means of half squared lengths. Every
  scalar that crosses a sum here (2^-14, 1/2, the regulariser's weight w) is a non-negative real, and a non-negative
  real distributes over sums of extended reals whatever their terms are, so no finiteness is needed. The sixteen
  blocks of 1024 rows are the 16384 rows (row b k = 1024 b + k), and the two softplus spellings agree term by term.
-/
import Idealize.ShloMosaic.PureOps.Ideal
import Idealize.ShloMosaic.PureOps.Ideal.Laws
import proofs.«211459_g87136296501727_cont_9to1_m_723_16_alg».proof.Proof.Spec

noncomputable section

namespace Cert.Spec.Algebra

open Idealize.ShloMosaic Cert.Spec

/-! ## The float words as reals -/

theorem w0_eq : w0 = 0 := by
  simp [Ideal.ofBits, Ideal.ieee]

theorem w1_eq : w1 = 1 := by
  simp [Ideal.ofBits, Ideal.ieee, -EReal.coe_mul]; norm_num

theorem wNeg1_eq : wNeg1 = -1 := by
  simp [Ideal.ofBits, Ideal.ieee, -EReal.coe_mul]; norm_num

theorem wHalf_eq : wHalf = ((1 / 2 : ℝ) : EReal) := by
  simp [Ideal.ofBits, Ideal.ieee, -EReal.coe_mul]; norm_num

theorem w2_eq : w2 = ((2 : ℝ) : EReal) := by
  simp [Ideal.ofBits, Ideal.ieee, -EReal.coe_mul]; norm_num

theorem wM_eq : wM = ((16384 : ℝ) : EReal) := by
  simp [Ideal.ofBits, Ideal.ieee, -EReal.coe_mul]; norm_num

theorem wInvM_eq : wInvM = ((1 / 16384 : ℝ) : EReal) := by
  simp [Ideal.ofBits, Ideal.ieee, -EReal.coe_mul]; norm_num

/-- The regulariser's weight is a positive normal word: a non-negative real. -/
theorem wReg_eq : ∃ c : ℝ, 0 ≤ c ∧ wReg = (c : EReal) := by
  refine ⟨((8388608 + 2348810 : ℕ) : ℝ) * (2 : ℝ) ^ (-30 : ℤ), by positivity, ?_⟩
  simp [Ideal.ofBits, Ideal.ieee, -EReal.coe_mul]

/-! ## A non-negative real distributes over sums of extended reals -/

theorem coe_mul_add {r : ℝ} (hr : 0 ≤ r) (y z : EReal) : (r : EReal) * (y + z) = r * y + r * z :=
  EReal.left_distrib_of_nonneg_of_ne_top (EReal.coe_nonneg.2 hr) (EReal.coe_ne_top r) y z

theorem coe_mul_sum {ι : Type*} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, coe_mul_add hr, ih]

/-! ## Sixteen blocks of 1024 rows are the 16384 rows -/

theorem sum_rows (f : Fin 16384 → EReal) : ∑ m, f m = ∑ b : Fin 16, ∑ k : Fin 1024, f (row b k) := by
  rw [← Fintype.sum_prod_type (f := fun x : Fin 16 × Fin 1024 => f (row x.1 x.2))]
  refine (Fintype.sum_equiv (finProdFinEquiv (m := 16) (n := 1024)) _ _ (fun x => ?_)).symm
  congr 1
  apply Fin.ext
  show 1024 * x.1.val + x.2.val = x.2.val + 1024 * x.1.val
  omega

theorem sum_halves (f : Fin 16 → EReal) :
    (∑ i : Fin 8, f ⟨i.val, by omega⟩) + (∑ i : Fin 8, f ⟨8 + i.val, by omega⟩) = ∑ b : Fin 16, f b := by
  rw [Fin.sum_univ_add (a := 8) (b := 8) f]
  rfl

/-! ## The two softplus spellings -/

theorem liRef_eq_liKer (A : Args) (m : Fin 16384) : liRef A m = liKer A m := by
  unfold liRef liKer
  rw [show wNeg1 = -1 from wNeg1_eq, show w0 = 0 from w0_eq, show w1 = 1 from w1_eq, Ideal.log1p]
  simp only [sub_zero, zero_sub, neg_neg, neg_mul, mul_neg, one_mul]
  rw [max_comm (-(gap A m)) (gap A m)]

/-! ## The loss -/

/-- One block's share with the scalars moved inside. -/
theorem share {i h c : ℝ} (hi : 0 ≤ i) (hh : 0 ≤ h) (X a b c' d : EReal) :
    (X + (c : EReal) * ((h : EReal) * (((a + b) + c') + d))) * (i : EReal)
      = (i : EReal) * X + (c : EReal) * ((((i : EReal) * ((h : EReal) * a) + (i : EReal) * ((h : EReal) * b))
          + (i : EReal) * ((h : EReal) * c')) + (i : EReal) * ((h : EReal) * d)) := by
  rw [mul_comm _ (i : EReal), coe_mul_add hi, mul_left_comm (i : EReal) (c : EReal), coe_mul_add hh, coe_mul_add hh,
    coe_mul_add hh, coe_mul_add hi, coe_mul_add hi, coe_mul_add hi]

/-- A mean of halves, the scalars moved out of the sum over all rows and the rows grouped in blocks. -/
theorem mean_half {i h : ℝ} (hi : 0 ≤ i) (hh : 0 ≤ h) (s : Fin 16384 → EReal) :
    (∑ m, s m * (h : EReal)) * (i : EReal) = ∑ b : Fin 16, (i : EReal) * ((h : EReal) * ∑ k : Fin 1024, s (row b k)) := by
  have e : (∑ m, s m * (h : EReal)) = (h : EReal) * ∑ m, s m := by
    rw [coe_mul_sum _ hh]
    exact Finset.sum_congr rfl (fun m _ => mul_comm _ _)
  rw [e, mul_comm _ (i : EReal), sum_rows s, coe_mul_sum _ hh, coe_mul_sum _ hi]

theorem core {i h c : ℝ} (hi : 0 ≤ i) (hh : 0 ≤ h) (hc : 0 ≤ c) (li sh sr sp sn : Fin 16384 → EReal) :
    ∑ b : Fin 16, ((∑ k : Fin 1024, li (row b k)) + (c : EReal) * ((h : EReal)
        * (((∑ k : Fin 1024, sh (row b k) + ∑ k : Fin 1024, sr (row b k)) + ∑ k : Fin 1024, sp (row b k))
            + ∑ k : Fin 1024, sn (row b k)))) * (i : EReal)
      = (∑ m, li m) * (i : EReal) + (c : EReal) * ((((∑ m, sh m * (h : EReal)) * (i : EReal)
          + (∑ m, sr m * (h : EReal)) * (i : EReal)) + (∑ m, sp m * (h : EReal)) * (i : EReal))
          + (∑ m, sn m * (h : EReal)) * (i : EReal)) := by
  rw [mean_half hi hh, mean_half hi hh, mean_half hi hh, mean_half hi hh, ← Finset.sum_add_distrib,
    ← Finset.sum_add_distrib, ← Finset.sum_add_distrib, coe_mul_sum _ hc, mul_comm _ (i : EReal), sum_rows li,
    coe_mul_sum _ hi, ← Finset.sum_add_distrib]
  exact Finset.sum_congr rfl (fun b _ => share hi hh _ _ _ _ _)

theorem lossKer_eq_lossRef (A : Args) : lossKer A = lossRef A := by
  obtain ⟨c, hc, hreg⟩ := wReg_eq
  have hi : (0 : ℝ) ≤ 1 / 16384 := by norm_num
  have hh : (0 : ℝ) ≤ 1 / 2 := by norm_num
  unfold lossKer
  rw [sum_halves (part A)]
  unfold lossRef l2Ref part sqBlk
  rw [show wReg = (c : EReal) from hreg, show wHalf = ((1 / 2 : ℝ) : EReal) from wHalf_eq,
    show wInvM = ((1 / 16384 : ℝ) : EReal) from wInvM_eq, show wM = ((16384 : ℝ) : EReal) from wM_eq,
    show w2 = ((2 : ℝ) : EReal) from w2_eq]
  simp only [Ideal.div_coe (show (16384 : ℝ) ≠ 0 by norm_num), Ideal.div_coe (show (2 : ℝ) ≠ 0 by norm_num),
    liRef_eq_liKer]
  exact core hi hh hc (liKer A) (sq (hv A)) (sq (rv A)) (sq (pv A)) (sq (nv A))

end Cert.Spec.Algebra

end
-- ==== Proof.lean ====
/-
  The proof of the certificate's claim. Both programs compute a knowledge-graph embedding loss over 16384 triples: each
  entity row projected by its relation's matrix and scaled to unit length, each relation row scaled to unit length, the
  softplus of the positive score less the negative one averaged over the triples, plus a small multiple of the mean
  half squared length of the unit rows.

  The kernel gathers the three families of entity rows on its SparseCores (two calls, thirty-two vector subcores each,
  six pipelined row gathers per subcore), then runs two TensorCore regions of eight grid points, each point adding its
  block's share — the projection as a masked product with the flattened matrices followed by a product with a 0/1
  selector, which keeps exactly the relation's 64 columns — into a one-word accumulator; @main adds the two
  accumulators. The reference does it over all rows at once. On the extended reals the sixteen block shares, each
  already scaled by 2^-14, add up to the reference's means: every scalar that crosses a sum is a non-negative real.

  The frames: the reference's from its run; each kernel instance's from the launch theorem for SparseCore programs,
  with the two kernel regions entered inside @main's proof.
-/
import proofs.«211459_g87136296501727_cont_9to1_m_723_16_alg».proof.Defs
import proofs.«211459_g87136296501727_cont_9to1_m_723_16_alg».proof.Proof.Gen.Kernel
import proofs.«211459_g87136296501727_cont_9to1_m_723_16_alg».proof.Proof.Gen.KernelIdeal
import proofs.«211459_g87136296501727_cont_9to1_m_723_16_alg».proof.Proof.Gen.ReferenceIdeal
import proofs.«211459_g87136296501727_cont_9to1_m_723_16_alg».proof.Proof.Gen.Pre_input_domain
import proofs.«211459_g87136296501727_cont_9to1_m_723_16_alg».proof.Proof.KerClaims
import proofs.«211459_g87136296501727_cont_9to1_m_723_16_alg».proof.Proof.WKerClaims
import proofs.«211459_g87136296501727_cont_9to1_m_723_16_alg».proof.Proof.RefValue
import proofs.«211459_g87136296501727_cont_9to1_m_723_16_alg».proof.Proof.PreRanges
import proofs.«211459_g87136296501727_cont_9to1_m_723_16_alg».proof.Proof.StagedOf
import proofs.«211459_g87136296501727_cont_9to1_m_723_16_alg».proof.Proof.Algebra
import proofs.«211459_g87136296501727_cont_9to1_m_723_16_alg».proof.Proof.ArrReads
import Idealize.ShloMosaic.Adequacy
import Idealize.ShloMosaic.Init

noncomputable section

namespace Cert.Proof

open Idealize.ShloMosaic Idealize.ShloMosaic.TcCoe Idealize.SL.Sem Idealize.ShloMosaic.ValueIdx

/-- The integer inputs' ranges, from the precondition, at the idealized kernel's memory. -/
theorem ranges_ideal (m : (ℓ : Loc Cert.KernelIdeal.nD Cert.KernelIdeal.τ Cert.KernelIdeal.sig) → Buf (Elt Ideal) ℓ) (h : Cert.Pre_KernelIdeal m) (d : Dev Cert.KernelIdeal.nD) :
    Cert.Spec.InRange (m (Cert.KernelIdeal.Sc.hLoc d)) (m ((SparseCore.T d).loc Cert.KernelIdeal.main_arg4)) (m (Cert.KernelIdeal.Sc.pLoc d)) (m (Cert.KernelIdeal.Sc.nLoc d)) :=
  Cert.Spec.inRange_of_pre _ _ _ _ _ _ _ (h d)

/-- The same at the word-level kernel's memory. -/
theorem ranges_bits (m : (ℓ : Loc Cert.Kernel.nD Cert.Kernel.τ Cert.Kernel.sig) → Buf (Elt Bits) ℓ) (h : Cert.Pre_Kernel m) (d : Dev Cert.Kernel.nD) :
    Cert.Spec.InRange (m (Cert.Kernel.Sc.hLoc d)) (m ((SparseCore.T d).loc Cert.Kernel.main_arg4)) (m (Cert.Kernel.Sc.pLoc d)) (m (Cert.Kernel.Sc.nLoc d)) :=
  Cert.Spec.inRange_of_pre _ _ _ _ _ _ _ (h d)

theorem frame_k : Cert.frame_Kernel := fun m g hpre =>
  (θ_run (Cert.Kernel.defs (F := Bits)) _ _).mono (fun _ h c => (h c).2)
    (Cert.Kernel.KerLaunch.run_post (F := Bits) m g (ranges_bits m hpre))

theorem frame_ki : Cert.frame_KernelIdeal := fun m g hpre =>
  (θ_run (Cert.KernelIdeal.defs (F := Ideal)) _ _).mono (fun _ h c => (h c).2)
    (Cert.KernelIdeal.KerLaunch.run_post (F := Ideal) m g (ranges_ideal m hpre))

open Cert.KernelIdeal.KerLaunch in
/-- At the extended reals the kernel's result — the two regions' accumulated shares added — and the reference's are the
    one loss of the decoded arguments: the sixteen block shares are the loss in the kernel's form, which is the
    reference's form. -/
theorem algebraic : Cert.algebraic_KernelIdeal_ReferenceIdeal := by
  intro m g m' g' hpre hagree
  have hr := ranges_ideal m hpre
  refine ⟨fun c _ => Cert.Spec.lossRef (Cert.Spec.argsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))), ?_, ?_⟩
  · refine (θ_run (Cert.KernelIdeal.defs (F := Ideal)) _ _).mono (fun r h c => ⟨(h c).1.trans ?_, (h c).2⟩)
      (Cert.KernelIdeal.KerLaunch.run_post (F := Ideal) m g hr)
    funext i
    rw [eq_ix0 i, Cert.KernelIdeal.ArrReads.scalar_apply]
    have ht := congrFun (Cert.KernelIdeal.StagedOf.total_eq c (arrA c (V2' m c)) (arrB c (V3 m (accA m) c)) (hr c)
      (V2'_g m c) (V2'_rc m c) (V2'_wl m c) (V2'_rl m c) (V2'_gs m c)
      (V3_g m (accA m) c) (V3_rc m (accA m) c) (V3_wl m (accA m) c) (V3_rl m (accA m) c) (V3_gs m (accA m) c)) ix0
    exact ht.trans (Cert.Spec.Algebra.lossKer_eq_lossRef _)
  · refine (θ_run (Cert.ReferenceIdeal.defs (F := Ideal)) _ _).mono (fun r h c => ⟨?_, (h c).2⟩)
      (Cert.ReferenceIdeal.RefRun.run (F := Ideal) m' g')
    rw [(h c).1, (hagree c).1, (hagree c).2.1, (hagree c).2.2.1, (hagree c).2.2.2.1, (hagree c).2.2.2.2.1, (hagree c).2.2.2.2.2.1,
      (hagree c).2.2.2.2.2.2]
    exact Cert.ReferenceIdeal.RefValue.res_eq _ _ _ _ _ _ _ (hr c)

theorem claim : Cert.Claim :=
  ⟨Cert.Kernel.Gen.facts, Cert.KernelIdeal.Gen.facts, Cert.ReferenceIdeal.Gen.facts, Cert.Pre_input_domain.Gen.facts,
    frame_k, frame_ki, Cert.Proof.RefClaims.frame_ri, trivial, algebraic⟩

end Cert.Proof

end
